-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4652 : Shape := ⟨2, ![50000, 4652]⟩
abbrev S2x800000 : Shape := ⟨2, ![2, 800000]⟩
abbrev S50000 : Shape := ⟨1, ![50000]⟩
abbrev S4652x256 : Shape := ⟨2, ![4652, 256]⟩
abbrev S256 : Shape := ⟨1, ![256]⟩
abbrev S256x256 : Shape := ⟨2, ![256, 256]⟩
abbrev S512x256 : Shape := ⟨2, ![512, 256]⟩
abbrev S256x5 : Shape := ⟨2, ![256, 5]⟩
abbrev S5 : Shape := ⟨1, ![5]⟩
abbrev S_ : Shape := ⟨0, ![]⟩

class Facts : Prop where
  bcast_S_S50000x4652 : S_.BroadcastsInDim S50000x4652 (![] : Fin 0 → Fin S50000x4652.rank)
  reducesTo_S50000x4652_S_d0_1 : S50000x4652.ReducesTo [0, 1] S_
  h_S_ : 0 < S_.numel
  bcast_S_S4652x256 : S_.BroadcastsInDim S4652x256 (![] : Fin 0 → Fin S4652x256.rank)
  reducesTo_S4652x256_S_d0_1 : S4652x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part7 {F : FTy → Type} [FloatOps F] (main_v118 : IVec S_ 1) (main_v119 : FVec F S5 .f32) : IVec S_ 1 :=
  let main_cst_46 : FVec F S_ .f32 := constant S_ .f32 0x7F800000#32
  let main_v120 : FVec F S5 .f32 := broadcastInDim S5 ![] bcast_S_S5 main_cst_46
  let main_v121 : IVec S5 1 := cmpf .olt main_v119 main_v120
  let main_c_47 : IVec S_ 1 := constantI S_ 1 1#1
  let main_v122 : IVec S_ 1 := (fun x v => Host.reduce IntOp.andi x v reducesTo_S5_S_d0 h_S_) main_v121 main_c_47
  let main_v123 : IVec S_ 1 := andi main_v118 main_v122
  main_v123

def fn_part6 {F : FTy → Type} [FloatOps F] (main_arg25 : FVec F S512x256 .f32) (main_arg26 : FVec F S256 .f32) (main_arg27 : FVec F S256x5 .f32) (main_arg28 : FVec F S5 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S512x256 .f32 := Host.absf main_arg25
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_v109 : FVec F S256 .f32 := Host.absf main_arg26
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x5 .f32 := Host.absf main_arg27
  let main_cst_44 : FVec F S_ .f32 := constant S_ .f32 0x7F800000#32
  let main_v115 : FVec F S256x5 .f32 := broadcastInDim S256x5 ![] bcast_S_S256x5 main_cst_44
  let main_v116 : IVec S256x5 1 := cmpf .olt main_v114 main_v115
  let main_c_45 : IVec S_ 1 := constantI S_ 1 1#1
  let main_v117 : IVec S_ 1 := (fun x v => Host.reduce IntOp.andi x v reducesTo_S256x5_S_d0_1 h_S_) main_v116 main_c_45
  let main_v118 : IVec S_ 1 := andi main_v113 main_v117
  let main_v119 : FVec F S5 .f32 := Host.absf main_arg28
  fn_part7 (F := F) main_v118 main_v119

def fn_part5 {F : FTy → Type} [FloatOps F] (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg23
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg24
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg25 main_arg26 main_arg27 main_arg28 main_v98 main_v101 main_c_39

def fn_part4 {F : FTy → Type} [FloatOps F] (main_arg18 : FVec F S256 .f32) (main_arg19 : FVec F S256x256 .f32) (main_arg20 : FVec F S256 .f32) (main_arg21 : FVec F S512x256 .f32) (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg19
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S512x256 .f32 := Host.absf main_arg21
  let main_cst_32 : FVec F S_ .f32 := constant S_ .f32 0x7F800000#32
  fn_part5 (F := F) main_arg22 main_arg23 main_arg24 main_arg25 main_arg26 main_arg27 main_arg28 main_v83 main_v84 main_cst_32

def fn_part3 {F : FTy → Type} [FloatOps F] (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S512x256 .f32 := Host.absf main_arg17
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg18 main_arg19 main_arg20 main_arg21 main_arg22 main_arg23 main_arg24 main_arg25 main_arg26 main_arg27 main_arg28 main_v63 main_v67

def fn_part2 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x4652 .f32) (main_arg1 : IVec S2x800000 32) (main_arg2 : IVec S2x800000 32) (main_arg3 : IVec S50000 32) (main_arg4 : IVec S50000 32) (main_arg5 : FVec F S4652x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x256 .f32) (main_arg24 : FVec F S256 .f32) (main_arg25 : FVec F S512x256 .f32) (main_arg26 : FVec F S256 .f32) (main_arg27 : FVec F S256x5 .f32) (main_arg28 : FVec F S5 .f32) : IVec S_ 1 :=
  let main_v0 : FVec F S50000x4652 .f32 := Host.absf main_arg0
  let main_cst : FVec F S_ .f32 := constant S_ .f32 0x7F800000#32
  let main_v1 : FVec F S50000x4652 .f32 := broadcastInDim S50000x4652 ![] bcast_S_S50000x4652 main_cst
  let main_v2 : IVec S50000x4652 1 := cmpf .olt main_v0 main_v1
  let main_c : IVec S_ 1 := constantI S_ 1 1#1
  let main_v3 : IVec S_ 1 := (fun x v => Host.reduce IntOp.andi x v reducesTo_S50000x4652_S_d0_1 h_S_) main_v2 main_c
  let main_v4 : FVec F S4652x256 .f32 := Host.absf main_arg5
  let main_cst_0 : FVec F S_ .f32 := constant S_ .f32 0x7F800000#32
  let main_v5 : FVec F S4652x256 .f32 := broadcastInDim S4652x256 ![] bcast_S_S4652x256 main_cst_0
  let main_v6 : IVec S4652x256 1 := cmpf .olt main_v4 main_v5
  let main_c_1 : IVec S_ 1 := constantI S_ 1 1#1
  let main_v7 : IVec S_ 1 := (fun x v => Host.reduce IntOp.andi x v reducesTo_S4652x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x4652 : Shape := ⟨2, ![50000, 4652]⟩
abbrev S2x800000 : Shape := ⟨2, ![2, 800000]⟩
abbrev S50000 : Shape := ⟨1, ![50000]⟩
abbrev S4652x256 : Shape := ⟨2, ![4652, 256]⟩
abbrev S256 : Shape := ⟨1, ![256]⟩
abbrev S256x256 : Shape := ⟨2, ![256, 256]⟩
abbrev S512x256 : Shape := ⟨2, ![512, 256]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S1000x4652 : Shape := ⟨2, ![1000, 4652]⟩
abbrev S1000x256 : Shape := ⟨2, ![1000, 256]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S50000x512 : Shape := ⟨2, ![50000, 512]⟩
abbrev S5000x512 : Shape := ⟨2, ![5000, 512]⟩
abbrev S50000x1 : Shape := ⟨2, ![50000, 1]⟩
abbrev S5000 : Shape := ⟨1, ![5000]⟩
abbrev S5000x1 : Shape := ⟨2, ![5000, 1]⟩
abbrev S1x5 : Shape := ⟨2, ![1, 5]⟩
abbrev S5000x5 : Shape := ⟨2, ![5000, 5]⟩

abbrev nBuf : Space → Nat
  | .hbm => 335
  | .vmem => 50
  | .smem => 0
  | _ => 0

abbrev hbmTy0_0 (i : Nat) : BufTy := match i % 128 with
  | 0 => ⟨S50000x4652, .f32⟩
  | 1 => ⟨S2x800000, .i32⟩
  | 2 => ⟨S2x800000, .i32⟩
  | 3 => ⟨S50000, .i32⟩
  | 4 => ⟨S50000, .i32⟩
  | 5 => ⟨S4652x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S512x256, .f32⟩
  | 22 => ⟨S256, .f32⟩
  | 23 => ⟨S256x256, .f32⟩
  | 24 => ⟨S256, .f32⟩
  | 25 => ⟨S512x256, .f32⟩
  | 26 => ⟨S256, .f32⟩
  | 27 => ⟨S256x5, .f32⟩
  | 28 => ⟨S5, .f32⟩
  | 29 => ⟨S1x800000, .i32⟩
  | 30 => ⟨S800000, .i32⟩
  | 31 => ⟨S1x800000, .i32⟩
  | 32 => ⟨S800000, .i32⟩
  | 33 => ⟨S1x800000, .i32⟩
  | 34 => ⟨S800000, .i32⟩
  | 35 => ⟨S1x800000, .i32⟩
  | 36 => ⟨S800000, .i32⟩
  | 37 => ⟨S1x256, .f32⟩
  | 38 => ⟨S1x256, .f32⟩
  | 39 => ⟨S50000x256, .f32⟩
  | 40 => ⟨S50000, .i32⟩
  | 41 => ⟨S850000, .i32⟩
  | 42 => ⟨S850000, .i32⟩
  | 43 => ⟨S_, .f32⟩
  | 44 => ⟨S850000, .f32⟩
  | 45 => ⟨S_, .f32⟩
  | 46 => ⟨S50000, .f32⟩
  | 47 => ⟨S850000x1, .i32⟩
  | 48 => ⟨S50000, .f32⟩
  | 49 => ⟨S_, .f32⟩
  | 50 => ⟨S50000, .f32⟩
  | 51 => ⟨S50000, .i1⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S850000, .f32⟩
  | 76 => ⟨S50000x256, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x256, .f32⟩
  | 86 => ⟨S850000x1, .f32⟩
  | 87 => ⟨S850000x256, .f32⟩
  | 88 => ⟨S850000x256, .f32⟩
  | 89 => ⟨S_, .f32⟩
  | 90 => ⟨S50000x256, .f32⟩
  | 91 => ⟨S850000x1, .i32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S50000, .i32⟩
  | 100 => ⟨S850000, .i32⟩
  | 101 => ⟨S850000, .i32⟩
  | 102 => ⟨S_, .f32⟩
  | 103 => ⟨S850000, .f32⟩
  | 104 => ⟨S_, .f32⟩
  | 105 => ⟨S50000, .f32⟩
  | 106 => ⟨S850000x1, .i32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S_, .i32⟩
  | 126 => ⟨S850000, .i32⟩
  | 127 => ⟨S850000, .i1⟩
  | _ => ⟨S50000x4652, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S850000, .f32⟩
  | 7 => ⟨S50000x256, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x256, .f32⟩
  | 17 => ⟨S850000x1, .f32⟩
  | 18 => ⟨S850000x256, .f32⟩
  | 19 => ⟨S850000x256, .f32⟩
  | 20 => ⟨S_, .f32⟩
  | 21 => ⟨S50000x256, .f32⟩
  | 22 => ⟨S850000x1, .i32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x512, .f32⟩
  | 31 => ⟨S1x256, .f32⟩
  | 32 => ⟨S1x256, .f32⟩
  | 33 => ⟨S50000x256, .f32⟩
  | 34 => ⟨S50000, .i32⟩
  | 35 => ⟨S850000, .i32⟩
  | 36 => ⟨S850000, .i32⟩
  | 37 => ⟨S_, .f32⟩
  | 38 => ⟨S850000, .f32⟩
  | 39 => ⟨S_, .f32⟩
  | 40 => ⟨S50000, .f32⟩
  | 41 => ⟨S850000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S850000, .f32⟩
  | 70 => ⟨S50000x256, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x256, .f32⟩
  | 80 => ⟨S850000x1, .f32⟩
  | 81 => ⟨S850000x256, .f32⟩
  | 82 => ⟨S850000x256, .f32⟩
  | 83 => ⟨S_, .f32⟩
  | 84 => ⟨S50000x256, .f32⟩
  | 85 => ⟨S850000x1, .i32⟩
  | 86 => ⟨S50000x256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S50000, .i32⟩
  | 94 => ⟨S850000, .i32⟩
  | 95 => ⟨S850000, .i32⟩
  | 96 => ⟨S_, .f32⟩
  | 97 => ⟨S850000, .f32⟩
  | 98 => ⟨S_, .f32⟩
  | 99 => ⟨S50000, .f32⟩
  | 100 => ⟨S850000x1, .i32⟩
  | 101 => ⟨S50000, .f32⟩
  | 102 => ⟨S_, .f32⟩
  | 103 => ⟨S50000, .f32⟩
  | 104 => ⟨S50000, .i1⟩
  | 105 => ⟨S50000, .f32⟩
  | 106 => ⟨S_, .f32⟩
  | 107 => ⟨S_, .f32⟩
  | 108 => ⟨S50000, .f32⟩
  | 109 => ⟨S50000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000, .f32⟩
  | _ => ⟨S50000x4652, .f32⟩

abbrev hbmTy0_2 (i : Nat) : BufTy := match i % 128 with
  | 0 => ⟨S850000, .f32⟩
  | 1 => ⟨S50000x256, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x256, .f32⟩
  | 11 => ⟨S850000x1, .f32⟩
  | 12 => ⟨S850000x256, .f32⟩
  | 13 => ⟨S850000x256, .f32⟩
  | 14 => ⟨S_, .f32⟩
  | 15 => ⟨S50000x256, .f32⟩
  | 16 => ⟨S850000x1, .i32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x512, .f32⟩
  | 25 => ⟨S1x256, .f32⟩
  | 26 => ⟨S1x256, .f32⟩
  | 27 => ⟨S50000x256, .f32⟩
  | 28 => ⟨S_, .f32⟩
  | 29 => ⟨S5000x256, .f32⟩
  | 30 => ⟨S50000x1, .i32⟩
  | 31 => ⟨S5000x256, .f32⟩
  | 32 => ⟨S_, .f32⟩
  | 33 => ⟨S50000, .f32⟩
  | 34 => ⟨S_, .f32⟩
  | 35 => ⟨S5000, .f32⟩
  | 36 => ⟨S50000x1, .i32⟩
  | 37 => ⟨S5000, .f32⟩
  | 38 => ⟨S_, .f32⟩
  | 39 => ⟨S5000, .f32⟩
  | 40 => ⟨S5000, .f32⟩
  | 41 => ⟨S5000x1, .f32⟩
  | 42 => ⟨S5000x256, .f32⟩
  | 43 => ⟨S5000x256, .f32⟩
  | 44 => ⟨S_, .f32⟩
  | 45 => ⟨S5000x256, .f32⟩
  | 46 => ⟨S50000x1, .i32⟩
  | 47 => ⟨S5000x256, .f32⟩
  | 48 => ⟨S_, .f32⟩
  | 49 => ⟨S50000, .f32⟩
  | 50 => ⟨S_, .f32⟩
  | 51 => ⟨S5000, .f32⟩
  | 52 => ⟨S50000x1, .i32⟩
  | 53 => ⟨S5000, .f32⟩
  | 54 => ⟨S_, .f32⟩
  | 55 => ⟨S5000, .f32⟩
  | 56 => ⟨S5000, .f32⟩
  | 57 => ⟨S5000x1, .f32⟩
  | 58 => ⟨S5000x256, .f32⟩
  | 59 => ⟨S5000x256, .f32⟩
  | 60 => ⟨S5000x512, .f32⟩
  | 61 => ⟨S1x256, .f32⟩
  | 62 => ⟨S1x5, .f32⟩
  | 63 => ⟨S5000x5, .f32⟩
  | 64 => ⟨S_, .f32⟩
  | 65 => ⟨S5000, .f32⟩
  | 66 => ⟨S_, .f32⟩
  | 67 => ⟨S5000, .f32⟩
  | 68 => ⟨S5000, .f32⟩
  | 69 => ⟨S5000x1, .f32⟩
  | 70 => ⟨S5000x5, .f32⟩
  | 71 => ⟨S5000x5, .f32⟩
  | 72 => ⟨S5000x5, .f32⟩
  | 73 => ⟨S_, .f32⟩
  | 74 => ⟨S5000, .f32⟩
  | 75 => ⟨S5000x1, .f32⟩
  | 76 => ⟨S5000x1, .f32⟩
  | 77 => ⟨S5000x5, .f32⟩
  | 78 => ⟨S5000x5, .f32⟩
  | _ => ⟨S50000x4652, .f32⟩

abbrev hbmTy (i : Nat) : BufTy := match i / 128 with
  | 0 => hbmTy0_0 i
  | 1 => hbmTy0_1 i
  | 2 => hbmTy0_2 i
  | _ => ⟨S50000x4652, .f32⟩

abbrev bufTy : (tb : Table) → Fin (tcTables nBuf tb) → BufTy
  | .hbm, ⟨i, _⟩ => hbmTy i
  | .local _ .vmem, ⟨0, _⟩ => ⟨S1000x4652, .f32⟩
  | .local _ .vmem, ⟨1, _⟩ => ⟨S1000x4652, .f32⟩
  | .local _ .vmem, ⟨2, _⟩ => ⟨S4652x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S5000x256, .f32⟩
  | .local _ .vmem, ⟨9, _⟩ => ⟨S5000x256, .f32⟩
  | .local _ .vmem, ⟨10, _⟩ => ⟨S256x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x512, .f32⟩
  | .local _ .vmem, ⟨19, _⟩ => ⟨S5000x512, .f32⟩
  | .local _ .vmem, ⟨20, _⟩ => ⟨S512x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S256x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S256x256, .f32⟩
  | .local _ .vmem, ⟨34, _⟩ => ⟨S5000x256, .f32⟩
  | .local _ .vmem, ⟨35, _⟩ => ⟨S5000x256, .f32⟩
  | .local _ .vmem, ⟨36, _⟩ => ⟨S5000x512, .f32⟩
  | .local _ .vmem, ⟨37, _⟩ => ⟨S5000x512, .f32⟩
  | .local _ .vmem, ⟨38, _⟩ => ⟨S512x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S5000x256, .f32⟩
  | .local _ .vmem, ⟨43, _⟩ => ⟨S5000x256, .f32⟩
  | .local _ .vmem, ⟨44, _⟩ => ⟨S5000x512, .f32⟩
  | .local _ .vmem, ⟨45, _⟩ => ⟨S512x256, .f32⟩
  | .local _ .vmem, ⟨46, _⟩ => ⟨S1x256, .f32⟩
  | .local _ .vmem, ⟨47, _⟩ => ⟨S256x5, .f32⟩
  | .local _ .vmem, ⟨48, _⟩ => ⟨S1x5, .f32⟩
  | .local _ .vmem, ⟨49, _⟩ => ⟨S5000x5, .f32⟩
  | _, _ => ⟨S50000x4652, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_v21 : Ref sig .tc := ⟨.hbm, 56, rfl⟩
abbrev main_c : Ref sig .tc := ⟨.hbm, 57, rfl⟩
abbrev main_v22 : Ref sig .tc := ⟨.hbm, 58, rfl⟩
abbrev main_v23 : Ref sig .tc := ⟨.hbm, 59, rfl⟩
abbrev main_c_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_4 : Ref sig .tc := ⟨.hbm, 66, rfl⟩
abbrev main_v29 : Ref sig .tc := ⟨.hbm, 67, rfl⟩
abbrev main_v30 : Ref sig .tc := ⟨.hbm, 68, rfl⟩
abbrev main_c_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_6 : Ref sig .tc := ⟨.hbm, 77, rfl⟩
abbrev main_v38 : Ref sig .tc := ⟨.hbm, 78, rfl⟩
abbrev main_v39 : Ref sig .tc := ⟨.hbm, 79, rfl⟩
abbrev main_c_7 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call1_cst : Ref sig .tc := ⟨.hbm, 96, rfl⟩
abbrev main_call1_v0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_9 : Ref sig .tc := ⟨.hbm, 102, rfl⟩
abbrev main_v58 : Ref sig .tc := ⟨.hbm, 103, rfl⟩
abbrev main_cst_10 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_call2_v0 : Ref sig .tc := ⟨.hbm, 113, rfl⟩
abbrev main_call2_v1 : Ref sig .tc := ⟨.hbm, 114, rfl⟩
abbrev main_v65 : Ref sig .tc := ⟨.hbm, 115, rfl⟩
abbrev main_c_13 : Ref sig .tc := ⟨.hbm, 116, rfl⟩
abbrev main_v66 : Ref sig .tc := ⟨.hbm, 117, rfl⟩
abbrev main_v67 : Ref sig .tc := ⟨.hbm, 118, rfl⟩
abbrev main_c_14 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_15 : Ref sig .tc := ⟨.hbm, 125, rfl⟩
abbrev main_v73 : Ref sig .tc := ⟨.hbm, 126, rfl⟩
abbrev main_v74 : Ref sig .tc := ⟨.hbm, 127, rfl⟩
abbrev main_c_16 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_17 : Ref sig .tc := ⟨.hbm, 136, rfl⟩
abbrev main_v82 : Ref sig .tc := ⟨.hbm, 137, rfl⟩
abbrev main_v83 : Ref sig .tc := ⟨.hbm, 138, rfl⟩
abbrev main_c_18 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_19 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_call3_cst : Ref sig .tc := ⟨.hbm, 155, rfl⟩
abbrev main_call3_v0 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_20 : Ref sig .tc := ⟨.hbm, 165, rfl⟩
abbrev main_v106 : Ref sig .tc := ⟨.hbm, 166, rfl⟩
abbrev main_cst_21 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_22 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_23 : Ref sig .tc := ⟨.hbm, 175, rfl⟩
abbrev main_call4_v0 : Ref sig .tc := ⟨.hbm, 176, rfl⟩
abbrev main_call4_v1 : Ref sig .tc := ⟨.hbm, 177, rfl⟩
abbrev main_v113 : Ref sig .tc := ⟨.hbm, 178, rfl⟩
abbrev main_c_24 : Ref sig .tc := ⟨.hbm, 179, rfl⟩
abbrev main_v114 : Ref sig .tc := ⟨.hbm, 180, rfl⟩
abbrev main_v115 : Ref sig .tc := ⟨.hbm, 181, rfl⟩
abbrev main_c_25 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_26 : Ref sig .tc := ⟨.hbm, 188, rfl⟩
abbrev main_v121 : Ref sig .tc := ⟨.hbm, 189, rfl⟩
abbrev main_v122 : Ref sig .tc := ⟨.hbm, 190, rfl⟩
abbrev main_c_27 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_28 : Ref sig .tc := ⟨.hbm, 199, rfl⟩
abbrev main_v130 : Ref sig .tc := ⟨.hbm, 200, rfl⟩
abbrev main_v131 : Ref sig .tc := ⟨.hbm, 201, rfl⟩
abbrev main_c_29 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_30 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_call5_cst : Ref sig .tc := ⟨.hbm, 218, rfl⟩
abbrev main_call5_v0 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_31 : Ref sig .tc := ⟨.hbm, 224, rfl⟩
abbrev main_v150 : Ref sig .tc := ⟨.hbm, 225, rfl⟩
abbrev main_cst_32 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_cst_33 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_cst_34 : Ref sig .tc := ⟨.hbm, 234, rfl⟩
abbrev main_call6_v0 : Ref sig .tc := ⟨.hbm, 235, rfl⟩
abbrev main_call6_v1 : Ref sig .tc := ⟨.hbm, 236, rfl⟩
abbrev main_v157 : Ref sig .tc := ⟨.hbm, 237, rfl⟩
abbrev main_c_35 : Ref sig .tc := ⟨.hbm, 238, rfl⟩
abbrev main_v158 : Ref sig .tc := ⟨.hbm, 239, rfl⟩
abbrev main_v159 : Ref sig .tc := ⟨.hbm, 240, rfl⟩
abbrev main_c_36 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_c_37 : Ref sig .tc := ⟨.hbm, 247, rfl⟩
abbrev main_v165 : Ref sig .tc := ⟨.hbm, 248, rfl⟩
abbrev main_v166 : Ref sig .tc := ⟨.hbm, 249, rfl⟩
abbrev main_c_38 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_c_39 : Ref sig .tc := ⟨.hbm, 258, rfl⟩
abbrev main_v174 : Ref sig .tc := ⟨.hbm, 259, rfl⟩
abbrev main_v175 : Ref sig .tc := ⟨.hbm, 260, rfl⟩
abbrev main_c_40 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_cst_41 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_call7_cst : Ref sig .tc := ⟨.hbm, 277, rfl⟩
abbrev main_call7_v0 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_cst_42 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_cst_43 : Ref sig .tc := ⟨.hbm, 288, rfl⟩
abbrev main_v198 : Ref sig .tc := ⟨.hbm, 289, rfl⟩
abbrev main_cst_44 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_cst_45 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_cst_46 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_cst_47 : Ref sig .tc := ⟨.hbm, 304, rfl⟩
abbrev main_v210 : Ref sig .tc := ⟨.hbm, 305, rfl⟩
abbrev main_cst_48 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_cst_49 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_call8_cst : Ref sig .tc := ⟨.hbm, 320, rfl⟩
abbrev main_call8_v0 : Ref sig .tc := ⟨.hbm, 321, rfl⟩
abbrev main_call8_cst_0 : Ref sig .tc := ⟨.hbm, 322, rfl⟩
abbrev main_call8_v1 : Ref sig .tc := ⟨.hbm, 323, rfl⟩
abbrev main_call8_v2 : Ref sig .tc := ⟨.hbm, 324, rfl⟩
abbrev main_call8_v3 : Ref sig .tc := ⟨.hbm, 325, rfl⟩
abbrev main_call8_v4 : Ref sig .tc := ⟨.hbm, 326, rfl⟩
abbrev main_call8_v5 : Ref sig .tc := ⟨.hbm, 327, rfl⟩
abbrev main_call8_v6 : Ref sig .tc := ⟨.hbm, 328, rfl⟩
abbrev main_call8_cst_1 : Ref sig .tc := ⟨.hbm, 329, rfl⟩
abbrev main_call8_v7 : Ref sig .tc := ⟨.hbm, 330, rfl⟩
abbrev main_call8_v8 : Ref sig .tc := ⟨.hbm, 331, rfl⟩
abbrev main_call8_v9 : Ref sig .tc := ⟨.hbm, 332, rfl⟩
abbrev main_call8_v10 : Ref sig .tc := ⟨.hbm, 333, rfl⟩
abbrev main_v223 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg5_1 : Ref sig .tc := ⟨.vmem, 43, rfl⟩
abbrev cc7_stg0_0 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem5_1 : DmaSem sig := 43
abbrev cc7_sem0_0 : DmaSem sig := 44
abbrev cc7_sem1_0 : DmaSem sig := 45
abbrev cc7_sem2_0 : DmaSem sig := 46
abbrev cc7_sem3_0 : DmaSem sig := 47
abbrev cc7_sem4_0 : DmaSem sig := 48
abbrev cc7_sem5_0 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4652 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4652x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S5000x512 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S512x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x5 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x5 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S5000x5 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S1000x4652_S1000x4652_0_0 : ∀ a, (![0, 0] : Fin 2 → Nat) a + S1000x4652.size a ≤ S1000x4652.size a
  h_S1000x4652 : 0 < S1000x4652.numel
  bitsLt_bf16_f32 : FTy.bits .bf16 < FTy.bits .f32
  inb_S4652x256_S4652x256_0_0 : ∀ a, (![0, 0] : Fin 2 → Nat) a + S4652x256.size a ≤ S4652x256.size a
  h_S4652x256 : 0 < S4652x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S50000x256_S50000x256_S50000x512_d1 : Shape.Concatenates [S50000x256, S50000x256] S50000x512 1
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  broadcasts_S1x256_S5000x256 : S1x256.Broadcasts S5000x256
  bcast_S_S5000x256 : S_.BroadcastsInDim S5000x256 (![] : Fin 0 → Fin S5000x256.rank)
  bcast_S50000_S50000x1_0 : S50000.BroadcastsInDim S50000x1 (![0] : Fin 1 → Fin S50000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  concatenates_S5000x256_S5000x256_S5000x512_d1 : Shape.Concatenates [S5000x256, S5000x256] S5000x512 1
  shapeCasts_S5_S1x5 : S5.ShapeCasts S1x5
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  reducesTo_S5000x5_S5000_d1 : S5000x5.ReducesTo [1] S5000
  h_S_ : 0 < S_.numel
  bcast_S5000x1_S5000x5_0_1 : S5000x1.BroadcastsInDim S5000x5 (![0, 1] : Fin 2 → Fin S5000x5.rank)
  dot_S1000x4652_S4652x256_S1000x256_1_0_0_1_n_n_wf : DotDims.WF S1000x4652 S4652x256 S1000x256 [1] [0] [0] [1] [] []
  dot_S1000x256_S256x256_S1000x256_1_0_0_1_n_n_wf : DotDims.WF S1000x256 S256x256 S1000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x512_S512x256_S5000x256_1_0_0_1_n_n_wf : DotDims.WF S5000x512 S512x256 S5000x256 [1] [0] [0] [1] [] []
  scatter_S5000x256_S50000x1_S50000x256_1_0_0_1_wf : ScatterDims.WF S5000x256 S50000x1 S50000x256 [1] [0] [0] 1
  scatter_S5000_S50000x1_S50000_n_0_0_1_wf : ScatterDims.WF S5000 S50000x1 S50000 [] [0] [0] 1
  dot_S5000x256_S256x5_S5000x5_1_0_0_1_n_n_wf : DotDims.WF S5000x256 S256x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4652.size a ≤ S50000x4652.size a
  hwx0_0 : ∀ i : grid0.Coords, EltTy.bits .f32 = 32 ∨ (Rect.block (s := S50000x4652) S1000x4652.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4652x256.size a ≤ S4652x256.size a
  hwx0_1 : ∀ i : grid0.Coords, EltTy.bits .f32 = 32 ∨ (Rect.block (s := S4652x256) S4652x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S50000x512.size a
  hwx3_0 : ∀ i : grid3.Coords, EltTy.bits .f32 = 32 ∨ (Rect.block (s := S50000x512) S5000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x512.size a ≤ S50000x512.size a
  hwx6_0 : ∀ i : grid6.Coords, EltTy.bits .f32 = 32 ∨ (Rect.block (s := S50000x512) S5000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x256.size a ≤ S50000x256.size a
  hwx6_5 : ∀ i : grid6.Coords, EltTy.bits .f32 = 32 ∨ (Rect.block (s := S50000x256) S5000x256.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S5000x512.size a ≤ S5000x512.size a
  hwx7_0 : ∀ i : grid7.Coords, EltTy.bits .f32 = 32 ∨ (Rect.block (s := S5000x512) S5000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x256.size a ≤ S512x256.size a
  hwx7_1 : ∀ i : grid7.Coords, EltTy.bits .f32 = 32 ∨ (Rect.block (s := S512x256) S512x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x5.size a ≤ S256x5.size a
  hwx7_3 : ∀ i : grid7.Coords, EltTy.bits .f32 = 32 ∨ (Rect.block (s := S256x5) S256x5.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x5.size a ≤ S1x5.size a
  hwx7_4 : ∀ i : grid7.Coords, EltTy.bits .f32 = 32 ∨ (Rect.block (s := S1x5) S1x5.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S5000x5.size a ≤ S5000x5.size a
  hwx7_5 : ∀ i : grid7.Coords, EltTy.bits .f32 = 32 ∨ (Rect.block (s := S5000x5) S5000x5.size (cc7_transform_5 i) (hinb7_5 i)).WholeWords (EltTy.packing .f32)

variable [Facts₀]

def dot_S1000x4652_S4652x256_S1000x256_1_0_0_1_n_n : DotDims S1000x4652 S4652x256 S1000x256 where
  lhsContracting := [1]
  rhsContracting := [0]
  lhsNonContracting := [0]
  rhsNonContracting := [1]
  lhsBatch := []
  rhsBatch := []
  wf := dot_S1000x4652_S4652x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def scatter_S5000x256_S50000x1_S50000x256_1_0_0_1 : ScatterDims S5000x256 S50000x1 S50000x256 where
  updateWindowDims := [1]
  insertedWindowDims := [0]
  scatterDimsToOperandDims := [0]
  indexVectorDim := 1
  wf := scatter_S5000x256_S50000x1_S50000x256_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def dot_S5000x256_S256x5_S5000x5_1_0_0_1_n_n : DotDims S5000x256 S256x5 S5000x5 where
  lhsContracting := [1]
  rhsContracting := [0]
  lhsNonContracting := [0]
  rhsNonContracting := [1]
  lhsBatch := []
  rhsBatch := []
  wf := dot_S5000x256_S256x5_S5000x5_1_0_0_1_n_n_wf

abbrev win0_0 : Pipeline.Window sig grid0 :=
  Pipeline.Window.ofSpec (Memref.whole main_arg0) S1000x4652.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4652x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v99) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v100) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v101) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v102) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v173) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v191) S5000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v192) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v193) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v194) S5000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v219) S5000x512.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg25) S512x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v220) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg27) S256x5.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v221) S1x5.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v222) S5000x5.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x4652 : Shape := ⟨2, ![50000, 4652]⟩
abbrev S2x800000 : Shape := ⟨2, ![2, 800000]⟩
abbrev S50000 : Shape := ⟨1, ![50000]⟩
abbrev S4652x256 : Shape := ⟨2, ![4652, 256]⟩
abbrev S256 : Shape := ⟨1, ![256]⟩
abbrev S256x256 : Shape := ⟨2, ![256, 256]⟩
abbrev S512x256 : Shape := ⟨2, ![512, 256]⟩
abbrev S256x5 : Shape := ⟨2, ![256, 5]⟩
abbrev S5 : Shape := ⟨1, ![5]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S_ : Shape := ⟨0, ![]⟩
abbrev S850000 : Shape := ⟨1, ![850000]⟩
abbrev S850000x1 : Shape := ⟨2, ![850000, 1]⟩
abbrev S850000x256 : Shape := ⟨2, ![850000, 256]⟩
abbrev S50000x512 : Shape := ⟨2, ![50000, 512]⟩
abbrev S5000x256 : Shape := ⟨2, ![5000, 256]⟩
abbrev S50000x1 : Shape := ⟨2, ![50000, 1]⟩
abbrev S5000 : Shape := ⟨1, ![5000]⟩
abbrev S5000x1 : Shape := ⟨2, ![5000, 1]⟩
abbrev S5000x512 : Shape := ⟨2, ![5000, 512]⟩
abbrev S5000x5 : Shape := ⟨2, ![5000, 5]⟩
abbrev S1x5 : Shape := ⟨2, ![1, 5]⟩

abbrev nBuf : Space → Nat
  | .hbm => 367
  | .vmem => 0
  | .smem => 0
  | _ => 0

abbrev hbmTy0_0 (i : Nat) : BufTy := match i % 128 with
  | 0 => ⟨S50000x4652, .f32⟩
  | 1 => ⟨S2x800000, .i32⟩
  | 2 => ⟨S2x800000, .i32⟩
  | 3 => ⟨S50000, .i32⟩
  | 4 => ⟨S50000, .i32⟩
  | 5 => ⟨S4652x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S512x256, .f32⟩
  | 22 => ⟨S256, .f32⟩
  | 23 => ⟨S256x256, .f32⟩
  | 24 => ⟨S256, .f32⟩
  | 25 => ⟨S512x256, .f32⟩
  | 26 => ⟨S256, .f32⟩
  | 27 => ⟨S256x5, .f32⟩
  | 28 => ⟨S5, .f32⟩
  | 29 => ⟨S1x800000, .i32⟩
  | 30 => ⟨S800000, .i32⟩
  | 31 => ⟨S1x800000, .i32⟩
  | 32 => ⟨S800000, .i32⟩
  | 33 => ⟨S1x800000, .i32⟩
  | 34 => ⟨S800000, .i32⟩
  | 35 => ⟨S1x800000, .i32⟩
  | 36 => ⟨S800000, .i32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S50000x256, .f32⟩
  | 45 => ⟨S1x256, .f32⟩
  | 46 => ⟨S50000x256, .f32⟩
  | 47 => ⟨S50000x256, .f32⟩
  | 48 => ⟨S50000, .i32⟩
  | 49 => ⟨S850000, .i32⟩
  | 50 => ⟨S850000, .i32⟩
  | 51 => ⟨S_, .f32⟩
  | 52 => ⟨S850000, .f32⟩
  | 53 => ⟨S_, .f32⟩
  | 54 => ⟨S50000, .f32⟩
  | 55 => ⟨S850000x1, .i32⟩
  | 56 => ⟨S50000, .f32⟩
  | 57 => ⟨S_, .f32⟩
  | 58 => ⟨S50000, .f32⟩
  | 59 => ⟨S50000, .i1⟩
  | 60 => ⟨S50000, .f32⟩
  | 61 => ⟨S_, .f32⟩
  | 62 => ⟨S_, .f32⟩
  | 63 => ⟨S50000, .f32⟩
  | 64 => ⟨S50000, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S50000x256, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x256, .f32⟩
  | 94 => ⟨S850000x1, .f32⟩
  | 95 => ⟨S850000x256, .f32⟩
  | 96 => ⟨S850000x256, .f32⟩
  | 97 => ⟨S_, .f32⟩
  | 98 => ⟨S50000x256, .f32⟩
  | 99 => ⟨S850000x1, .i32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S50000, .i32⟩
  | 108 => ⟨S850000, .i32⟩
  | 109 => ⟨S850000, .i32⟩
  | 110 => ⟨S_, .f32⟩
  | 111 => ⟨S850000, .f32⟩
  | 112 => ⟨S_, .f32⟩
  | 113 => ⟨S50000, .f32⟩
  | 114 => ⟨S850000x1, .i32⟩
  | 115 => ⟨S50000, .f32⟩
  | 116 => ⟨S_, .f32⟩
  | 117 => ⟨S50000, .f32⟩
  | 118 => ⟨S50000, .i1⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S850000, .i32⟩
  | 126 => ⟨S850000, .i1⟩
  | 127 => ⟨S_, .i32⟩
  | _ => ⟨S50000x4652, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000, .f32⟩
  | 14 => ⟨S850000, .f32⟩
  | 15 => ⟨S50000x256, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x256, .f32⟩
  | 25 => ⟨S850000x1, .f32⟩
  | 26 => ⟨S850000x256, .f32⟩
  | 27 => ⟨S850000x256, .f32⟩
  | 28 => ⟨S_, .f32⟩
  | 29 => ⟨S50000x256, .f32⟩
  | 30 => ⟨S850000x1, .i32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S50000x512, .f32⟩
  | 39 => ⟨S50000x256, .f32⟩
  | 40 => ⟨S1x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S50000, .i32⟩
  | 51 => ⟨S850000, .i32⟩
  | 52 => ⟨S850000, .i32⟩
  | 53 => ⟨S_, .f32⟩
  | 54 => ⟨S850000, .f32⟩
  | 55 => ⟨S_, .f32⟩
  | 56 => ⟨S50000, .f32⟩
  | 57 => ⟨S850000x1, .i32⟩
  | 58 => ⟨S50000, .f32⟩
  | 59 => ⟨S_, .f32⟩
  | 60 => ⟨S50000, .f32⟩
  | 61 => ⟨S50000, .i1⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S50000x256, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x256, .f32⟩
  | 96 => ⟨S850000x1, .f32⟩
  | 97 => ⟨S850000x256, .f32⟩
  | 98 => ⟨S850000x256, .f32⟩
  | 99 => ⟨S_, .f32⟩
  | 100 => ⟨S50000x256, .f32⟩
  | 101 => ⟨S850000x1, .i32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S50000, .i32⟩
  | 110 => ⟨S850000, .i32⟩
  | 111 => ⟨S850000, .i32⟩
  | 112 => ⟨S_, .f32⟩
  | 113 => ⟨S850000, .f32⟩
  | 114 => ⟨S_, .f32⟩
  | 115 => ⟨S50000, .f32⟩
  | 116 => ⟨S850000x1, .i32⟩
  | 117 => ⟨S50000, .f32⟩
  | 118 => ⟨S_, .f32⟩
  | 119 => ⟨S50000, .f32⟩
  | 120 => ⟨S50000, .i1⟩
  | 121 => ⟨S50000, .f32⟩
  | 122 => ⟨S_, .f32⟩
  | 123 => ⟨S_, .f32⟩
  | 124 => ⟨S50000, .f32⟩
  | 125 => ⟨S50000, .f32⟩
  | 126 => ⟨S_, .i32⟩
  | 127 => ⟨S850000, .i32⟩
  | _ => ⟨S50000x4652, .f32⟩

abbrev hbmTy0_2 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S50000x256, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x256, .f32⟩
  | 27 => ⟨S850000x1, .f32⟩
  | 28 => ⟨S850000x256, .f32⟩
  | 29 => ⟨S850000x256, .f32⟩
  | 30 => ⟨S_, .f32⟩
  | 31 => ⟨S50000x256, .f32⟩
  | 32 => ⟨S850000x1, .i32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S50000x512, .f32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S50000x256, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S5000x256, .f32⟩
  | 54 => ⟨S50000x1, .i32⟩
  | 55 => ⟨S5000x256, .f32⟩
  | 56 => ⟨S_, .f32⟩
  | 57 => ⟨S50000, .f32⟩
  | 58 => ⟨S_, .f32⟩
  | 59 => ⟨S5000, .f32⟩
  | 60 => ⟨S50000x1, .i32⟩
  | 61 => ⟨S5000, .f32⟩
  | 62 => ⟨S_, .f32⟩
  | 63 => ⟨S5000, .f32⟩
  | 64 => ⟨S5000, .f32⟩
  | 65 => ⟨S5000x1, .f32⟩
  | 66 => ⟨S5000x256, .f32⟩
  | 67 => ⟨S5000x256, .f32⟩
  | 68 => ⟨S_, .f32⟩
  | 69 => ⟨S5000x256, .f32⟩
  | 70 => ⟨S50000x1, .i32⟩
  | 71 => ⟨S5000x256, .f32⟩
  | 72 => ⟨S_, .f32⟩
  | 73 => ⟨S50000, .f32⟩
  | 74 => ⟨S_, .f32⟩
  | 75 => ⟨S5000, .f32⟩
  | 76 => ⟨S50000x1, .i32⟩
  | 77 => ⟨S5000, .f32⟩
  | 78 => ⟨S_, .f32⟩
  | 79 => ⟨S5000, .f32⟩
  | 80 => ⟨S5000, .f32⟩
  | 81 => ⟨S5000x1, .f32⟩
  | 82 => ⟨S5000x256, .f32⟩
  | 83 => ⟨S5000x256, .f32⟩
  | 84 => ⟨S5000x512, .f32⟩
  | 85 => ⟨S5000x256, .f32⟩
  | 86 => ⟨S1x256, .f32⟩
  | 87 => ⟨S5000x256, .f32⟩
  | 88 => ⟨S5000x256, .f32⟩
  | 89 => ⟨S_, .f32⟩
  | 90 => ⟨S5000x256, .f32⟩
  | 91 => ⟨S5000x256, .f32⟩
  | 92 => ⟨S5000x5, .f32⟩
  | 93 => ⟨S1x5, .f32⟩
  | 94 => ⟨S5000x5, .f32⟩
  | 95 => ⟨S5000x5, .f32⟩
  | 96 => ⟨S_, .f32⟩
  | 97 => ⟨S5000, .f32⟩
  | 98 => ⟨S_, .f32⟩
  | 99 => ⟨S5000, .f32⟩
  | 100 => ⟨S5000, .f32⟩
  | 101 => ⟨S5000x1, .f32⟩
  | 102 => ⟨S5000x5, .f32⟩
  | 103 => ⟨S5000x5, .f32⟩
  | 104 => ⟨S5000x5, .f32⟩
  | 105 => ⟨S_, .f32⟩
  | 106 => ⟨S5000, .f32⟩
  | 107 => ⟨S5000x1, .f32⟩
  | 108 => ⟨S5000x1, .f32⟩
  | 109 => ⟨S5000x5, .f32⟩
  | 110 => ⟨S5000x5, .f32⟩
  | _ => ⟨S50000x4652, .f32⟩

abbrev hbmTy (i : Nat) : BufTy := match i / 128 with
  | 0 => hbmTy0_0 i
  | 1 => hbmTy0_1 i
  | 2 => hbmTy0_2 i
  | _ => ⟨S50000x4652, .f32⟩

abbrev bufTy : (tb : Table) → Fin (tcTables nBuf tb) → BufTy
  | .hbm, ⟨i, _⟩ => hbmTy i
  | _, _ => ⟨S50000x4652, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call0_cst : Ref sig .tc := ⟨.hbm, 41, rfl⟩
abbrev main_call0_v0 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_cst_0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_call1_v0 : Ref sig .tc := ⟨.hbm, 62, rfl⟩
abbrev main_call1_v1 : Ref sig .tc := ⟨.hbm, 63, rfl⟩
abbrev main_v27 : Ref sig .tc := ⟨.hbm, 64, rfl⟩
abbrev main_c : Ref sig .tc := ⟨.hbm, 65, rfl⟩
abbrev main_v28 : Ref sig .tc := ⟨.hbm, 66, rfl⟩
abbrev main_v29 : Ref sig .tc := ⟨.hbm, 67, rfl⟩
abbrev main_c_3 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_4 : Ref sig .tc := ⟨.hbm, 74, rfl⟩
abbrev main_v35 : Ref sig .tc := ⟨.hbm, 75, rfl⟩
abbrev main_v36 : Ref sig .tc := ⟨.hbm, 76, rfl⟩
abbrev main_c_5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_6 : Ref sig .tc := ⟨.hbm, 85, rfl⟩
abbrev main_v44 : Ref sig .tc := ⟨.hbm, 86, rfl⟩
abbrev main_v45 : Ref sig .tc := ⟨.hbm, 87, rfl⟩
abbrev main_c_7 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_8 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call2_cst : Ref sig .tc := ⟨.hbm, 104, rfl⟩
abbrev main_call2_v0 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_9 : Ref sig .tc := ⟨.hbm, 110, rfl⟩
abbrev main_v64 : Ref sig .tc := ⟨.hbm, 111, rfl⟩
abbrev main_cst_10 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_11 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_call3_v0 : Ref sig .tc := ⟨.hbm, 121, rfl⟩
abbrev main_call3_v1 : Ref sig .tc := ⟨.hbm, 122, rfl⟩
abbrev main_v71 : Ref sig .tc := ⟨.hbm, 123, rfl⟩
abbrev main_c_13 : Ref sig .tc := ⟨.hbm, 124, rfl⟩
abbrev main_v72 : Ref sig .tc := ⟨.hbm, 125, rfl⟩
abbrev main_v73 : Ref sig .tc := ⟨.hbm, 126, rfl⟩
abbrev main_c_14 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_c_15 : Ref sig .tc := ⟨.hbm, 133, rfl⟩
abbrev main_v79 : Ref sig .tc := ⟨.hbm, 134, rfl⟩
abbrev main_v80 : Ref sig .tc := ⟨.hbm, 135, rfl⟩
abbrev main_c_16 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c_17 : Ref sig .tc := ⟨.hbm, 144, rfl⟩
abbrev main_v88 : Ref sig .tc := ⟨.hbm, 145, rfl⟩
abbrev main_v89 : Ref sig .tc := ⟨.hbm, 146, rfl⟩
abbrev main_c_18 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_19 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_call4_cst : Ref sig .tc := ⟨.hbm, 163, rfl⟩
abbrev main_call4_v0 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_call5_cst : Ref sig .tc := ⟨.hbm, 171, rfl⟩
abbrev main_call5_v0 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_20 : Ref sig .tc := ⟨.hbm, 181, rfl⟩
abbrev main_v118 : Ref sig .tc := ⟨.hbm, 182, rfl⟩
abbrev main_cst_21 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_22 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_23 : Ref sig .tc := ⟨.hbm, 191, rfl⟩
abbrev main_call6_v0 : Ref sig .tc := ⟨.hbm, 192, rfl⟩
abbrev main_call6_v1 : Ref sig .tc := ⟨.hbm, 193, rfl⟩
abbrev main_v125 : Ref sig .tc := ⟨.hbm, 194, rfl⟩
abbrev main_c_24 : Ref sig .tc := ⟨.hbm, 195, rfl⟩
abbrev main_v126 : Ref sig .tc := ⟨.hbm, 196, rfl⟩
abbrev main_v127 : Ref sig .tc := ⟨.hbm, 197, rfl⟩
abbrev main_c_25 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_26 : Ref sig .tc := ⟨.hbm, 204, rfl⟩
abbrev main_v133 : Ref sig .tc := ⟨.hbm, 205, rfl⟩
abbrev main_v134 : Ref sig .tc := ⟨.hbm, 206, rfl⟩
abbrev main_c_27 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_c_28 : Ref sig .tc := ⟨.hbm, 215, rfl⟩
abbrev main_v142 : Ref sig .tc := ⟨.hbm, 216, rfl⟩
abbrev main_v143 : Ref sig .tc := ⟨.hbm, 217, rfl⟩
abbrev main_c_29 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_30 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_call7_cst : Ref sig .tc := ⟨.hbm, 234, rfl⟩
abbrev main_call7_v0 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_cst_31 : Ref sig .tc := ⟨.hbm, 240, rfl⟩
abbrev main_v162 : Ref sig .tc := ⟨.hbm, 241, rfl⟩
abbrev main_cst_32 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_33 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_cst_34 : Ref sig .tc := ⟨.hbm, 250, rfl⟩
abbrev main_call8_v0 : Ref sig .tc := ⟨.hbm, 251, rfl⟩
abbrev main_call8_v1 : Ref sig .tc := ⟨.hbm, 252, rfl⟩
abbrev main_v169 : Ref sig .tc := ⟨.hbm, 253, rfl⟩
abbrev main_c_35 : Ref sig .tc := ⟨.hbm, 254, rfl⟩
abbrev main_v170 : Ref sig .tc := ⟨.hbm, 255, rfl⟩
abbrev main_v171 : Ref sig .tc := ⟨.hbm, 256, rfl⟩
abbrev main_c_36 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_c_37 : Ref sig .tc := ⟨.hbm, 263, rfl⟩
abbrev main_v177 : Ref sig .tc := ⟨.hbm, 264, rfl⟩
abbrev main_v178 : Ref sig .tc := ⟨.hbm, 265, rfl⟩
abbrev main_c_38 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_c_39 : Ref sig .tc := ⟨.hbm, 274, rfl⟩
abbrev main_v186 : Ref sig .tc := ⟨.hbm, 275, rfl⟩
abbrev main_v187 : Ref sig .tc := ⟨.hbm, 276, rfl⟩
abbrev main_c_40 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_cst_41 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_call9_cst : Ref sig .tc := ⟨.hbm, 293, rfl⟩
abbrev main_call9_v0 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_call10_cst : Ref sig .tc := ⟨.hbm, 301, rfl⟩
abbrev main_call10_v0 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_cst_42 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_cst_43 : Ref sig .tc := ⟨.hbm, 312, rfl⟩
abbrev main_v216 : Ref sig .tc := ⟨.hbm, 313, rfl⟩
abbrev main_cst_44 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_cst_45 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_cst_46 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_cst_47 : Ref sig .tc := ⟨.hbm, 328, rfl⟩
abbrev main_v228 : Ref sig .tc := ⟨.hbm, 329, rfl⟩
abbrev main_cst_48 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_cst_49 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_call11_cst : Ref sig .tc := ⟨.hbm, 345, rfl⟩
abbrev main_call11_v0 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_call12_cst : Ref sig .tc := ⟨.hbm, 352, rfl⟩
abbrev main_call12_v0 : Ref sig .tc := ⟨.hbm, 353, rfl⟩
abbrev main_call12_cst_0 : Ref sig .tc := ⟨.hbm, 354, rfl⟩
abbrev main_call12_v1 : Ref sig .tc := ⟨.hbm, 355, rfl⟩
abbrev main_call12_v2 : Ref sig .tc := ⟨.hbm, 356, rfl⟩
abbrev main_call12_v3 : Ref sig .tc := ⟨.hbm, 357, rfl⟩
abbrev main_call12_v4 : Ref sig .tc := ⟨.hbm, 358, rfl⟩
abbrev main_call12_v5 : Ref sig .tc := ⟨.hbm, 359, rfl⟩
abbrev main_call12_v6 : Ref sig .tc := ⟨.hbm, 360, rfl⟩
abbrev main_call12_cst_1 : Ref sig .tc := ⟨.hbm, 361, rfl⟩
abbrev main_call12_v7 : Ref sig .tc := ⟨.hbm, 362, rfl⟩
abbrev main_call12_v8 : Ref sig .tc := ⟨.hbm, 363, rfl⟩
abbrev main_call12_v9 : Ref sig .tc := ⟨.hbm, 364, rfl⟩
abbrev main_call12_v10 : Ref sig .tc := ⟨.hbm, 365, rfl⟩
abbrev main_v247 : Ref sig .tc := ⟨.hbm, 366, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  concatenates_S50000x256_S50000x256_S50000x512_d1 : Shape.Concatenates [S50000x256, S50000x256] S50000x512 1
  bcast_S_S5000x256 : S_.BroadcastsInDim S5000x256 (![] : Fin 0 → Fin S5000x256.rank)
  bcast_S50000_S50000x1_0 : S50000.BroadcastsInDim S50000x1 (![0] : Fin 1 → Fin S50000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  concatenates_S5000x256_S5000x256_S5000x512_d1 : Shape.Concatenates [S5000x256, S5000x256] S5000x512 1
  bcast_S1x256_S5000x256_0_1 : S1x256.BroadcastsInDim S5000x256 (![0, 1] : Fin 2 → Fin S5000x256.rank)
  bcast_S5_S1x5_1 : S5.BroadcastsInDim S1x5 (![1] : Fin 1 → Fin S1x5.rank)
  bcast_S1x5_S5000x5_0_1 : S1x5.BroadcastsInDim S5000x5 (![0, 1] : Fin 2 → Fin S5000x5.rank)
  reducesTo_S5000x5_S5000_d1 : S5000x5.ReducesTo [1] S5000
  h_S_ : 0 < S_.numel
  bcast_S5000x1_S5000x5_0_1 : S5000x1.BroadcastsInDim S5000x5 (![0, 1] : Fin 2 → Fin S5000x5.rank)
  dot_S50000x4652_S4652x256_S50000x256_1_0_0_1_n_n_wf : DotDims.WF S50000x4652 S4652x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x512_S512x256_S50000x256_1_0_0_1_n_n_wf : DotDims.WF S50000x512 S512x256 S50000x256 [1] [0] [0] [1] [] []
  scatter_S5000x256_S50000x1_S50000x256_1_0_0_1_wf : ScatterDims.WF S5000x256 S50000x1 S50000x256 [1] [0] [0] 1
  scatter_S5000_S50000x1_S50000_n_0_0_1_wf : ScatterDims.WF S5000 S50000x1 S50000 [] [0] [0] 1
  dot_S5000x512_S512x256_S5000x256_1_0_0_1_n_n_wf : DotDims.WF S5000x512 S512x256 S5000x256 [1] [0] [0] [1] [] []
  dot_S5000x256_S256x5_S5000x5_1_0_0_1_n_n_wf : DotDims.WF S5000x256 S256x5 S5000x5 [1] [0] [0] [1] [] []

variable [Facts₀]

def dot_S50000x4652_S4652x256_S50000x256_1_0_0_1_n_n : DotDims S50000x4652 S4652x256 S50000x256 where
  lhsContracting := [1]
  rhsContracting := [0]
  lhsNonContracting := [0]
  rhsNonContracting := [1]
  lhsBatch := []
  rhsBatch := []
  wf := dot_S50000x4652_S4652x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S5000x256_S50000x1_S50000x256_1_0_0_1 : ScatterDims S5000x256 S50000x1 S50000x256 where
  updateWindowDims := [1]
  insertedWindowDims := [0]
  scatterDimsToOperandDims := [0]
  indexVectorDim := 1
  wf := scatter_S5000x256_S50000x1_S50000x256_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x5_S5000x5_1_0_0_1_n_n : DotDims S5000x256 S256x5 S5000x5 where
  lhsContracting := [1]
  rhsContracting := [0]
  lhsNonContracting := [0]
  rhsNonContracting := [1]
  lhsBatch := []
  rhsBatch := []
  wf := dot_S5000x256_S256x5_S5000x5_1_0_0_1_n_n_wf

class Facts : Prop extends Facts₀ where

variable [Facts]
-- ==== Proof.KernelRun.lean ====
/-
  The kernel program's run with its result named: at the compiled mesh, from any memory with zero counters, every
  weakly fair execution of @main terminates, nothing faulting, and in every final state the result buffer holds the
  contents that the chain of boundaries ends with (the last boundary's valuation at the result's reference) and every
  argument array is as launched. It is the frame run over the same segments, with the last thread state read at the
  result's reference as well as at the arguments'.
-/
import proofs.«110263_j50620484551136_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v223) = W33 m ρ c (Proc.devRef .tc main_v223)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v223 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c),
       (h c _ (mem_uc main_arg17 (by decide))).trans (W33_main_arg17 m ρ c),
       (h c _ (mem_uc main_arg18 (by decide))).trans (W33_main_arg18 m ρ c),
       (h c _ (mem_uc main_arg19 (by decide))).trans (W33_main_arg19 m ρ c),
       (h c _ (mem_uc main_arg20 (by decide))).trans (W33_main_arg20 m ρ c),
       (h c _ (mem_uc main_arg21 (by decide))).trans (W33_main_arg21 m ρ c),
       (h c _ (mem_uc main_arg22 (by decide))).trans (W33_main_arg22 m ρ c),
       (h c _ (mem_uc main_arg23 (by decide))).trans (W33_main_arg23 m ρ c),
       (h c _ (mem_uc main_arg24 (by decide))).trans (W33_main_arg24 m ρ c),
       (h c _ (mem_uc main_arg25 (by decide))).trans (W33_main_arg25 m ρ c),
       (h c _ (mem_uc main_arg26 (by decide))).trans (W33_main_arg26 m ρ c),
       (h c _ (mem_uc main_arg27 (by decide))).trans (W33_main_arg27 m ρ c),
       (h c _ (mem_uc main_arg28 (by decide))).trans (W33_main_arg28 m ρ c)⟩)

end Cert.KernelIdeal.KRun

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.ChainHost0.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps0 -/

theorem g0_main_v1 (h_main_arg1 : W (Proc.devRef .tc main_arg1) = x1) :
    StableHlo.after hostOps0 W (Proc.devRef .tc main_v1) = val_main_v1 (F := Ideal) x1 := by
  after_results_simp
  try simp only [cast_eq]
  rw [h_main_arg1]
  rfl

theorem g0_main_v3 (h_main_arg1 : W (Proc.devRef .tc main_arg1) = x1) :
    StableHlo.after hostOps0 W (Proc.devRef .tc main_v3) = val_main_v3 (F := Ideal) x1 := by
  after_results_simp
  try simp only [cast_eq]
  rw [h_main_arg1]
  rfl

theorem g0_main_v5 (h_main_arg2 : W (Proc.devRef .tc main_arg2) = x2) :
    StableHlo.after hostOps0 W (Proc.devRef .tc main_v5) = val_main_v5 (F := Ideal) x2 := by
  after_results_simp
  try simp only [cast_eq]
  rw [h_main_arg2]
  rfl

theorem g0_main_v7 (h_main_arg2 : W (Proc.devRef .tc main_arg2) = x2) :
    StableHlo.after hostOps0 W (Proc.devRef .tc main_v7) = val_main_v7 (F := Ideal) x2 := by
  after_results_simp
  try simp only [cast_eq]
  rw [h_main_arg2]
  rfl

theorem g0_main_v8 (h_main_arg6 : W (Proc.devRef .tc main_arg6) = x6) :
    StableHlo.after hostOps0 W (Proc.devRef .tc main_v8) = shapeCast S1x256 x6 shapeCasts_S256_S1x256 := by
  after_results_simp
  try simp only [cast_eq]
  rw [h_main_arg6]
  rfl

theorem g0_main_v9 (h_main_arg8 : W (Proc.devRef .tc main_arg8) = x8) :
    StableHlo.after hostOps0 W (Proc.devRef .tc main_v9) = shapeCast S1x256 x8 shapeCasts_S256_S1x256 := by
  after_results_simp
  try simp only [cast_eq]
  rw [h_main_arg8]
  rfl

theorem g0_keep_main_arg0 : StableHlo.after hostOps0 W (Proc.devRef .tc main_arg0) = W (Proc.devRef .tc main_arg0) := by
  after_results_simp

theorem g0_keep_main_arg3 : StableHlo.after hostOps0 W (Proc.devRef .tc main_arg3) = W (Proc.devRef .tc main_arg3) := by
  after_results_simp

theorem g0_keep_main_arg4 : StableHlo.after hostOps0 W (Proc.devRef .tc main_arg4) = W (Proc.devRef .tc main_arg4) := by
  after_results_simp

theorem g0_keep_main_arg5 : StableHlo.after hostOps0 W (Proc.devRef .tc main_arg5) = W (Proc.devRef .tc main_arg5) := by
  after_results_simp

theorem g0_keep_main_arg7 : StableHlo.after hostOps0 W (Proc.devRef .tc main_arg7) = W (Proc.devRef .tc main_arg7) := by
  after_results_simp

theorem g0_keep_main_arg9 : StableHlo.after hostOps0 W (Proc.devRef .tc main_arg9) = W (Proc.devRef .tc main_arg9) := by
  after_results_simp

theorem g0_keep_main_arg10 : StableHlo.after hostOps0 W (Proc.devRef .tc main_arg10) = W (Proc.devRef .tc main_arg10) := by
  after_results_simp

theorem g0_keep_main_arg11 : StableHlo.after hostOps0 W (Proc.devRef .tc main_arg11) = W (Proc.devRef .tc main_arg11) := by
  after_results_simp

theorem g0_keep_main_arg12 : StableHlo.after hostOps0 W (Proc.devRef .tc main_arg12) = W (Proc.devRef .tc main_arg12) := by
  after_results_simp

theorem g0_keep_main_arg13 : StableHlo.after hostOps0 W (Proc.devRef .tc main_arg13) = W (Proc.devRef .tc main_arg13) := by
  after_results_simp

theorem g0_keep_main_arg14 : StableHlo.after hostOps0 W (Proc.devRef .tc main_arg14) = W (Proc.devRef .tc main_arg14) := by
  after_results_simp

theorem g0_keep_main_arg15 : StableHlo.after hostOps0 W (Proc.devRef .tc main_arg15) = W (Proc.devRef .tc main_arg15) := by
  after_results_simp

theorem g0_keep_main_arg16 : StableHlo.after hostOps0 W (Proc.devRef .tc main_arg16) = W (Proc.devRef .tc main_arg16) := by
  after_results_simp

theorem g0_keep_main_arg17 : StableHlo.after hostOps0 W (Proc.devRef .tc main_arg17) = W (Proc.devRef .tc main_arg17) := by
  after_results_simp

theorem g0_keep_main_arg18 : StableHlo.after hostOps0 W (Proc.devRef .tc main_arg18) = W (Proc.devRef .tc main_arg18) := by
  after_results_simp

theorem g0_keep_main_arg19 : StableHlo.after hostOps0 W (Proc.devRef .tc main_arg19) = W (Proc.devRef .tc main_arg19) := by
  after_results_simp

theorem g0_keep_main_arg20 : StableHlo.after hostOps0 W (Proc.devRef .tc main_arg20) = W (Proc.devRef .tc main_arg20) := by
  after_results_simp

theorem g0_keep_main_arg21 : StableHlo.after hostOps0 W (Proc.devRef .tc main_arg21) = W (Proc.devRef .tc main_arg21) := by
  after_results_simp

theorem g0_keep_main_arg22 : StableHlo.after hostOps0 W (Proc.devRef .tc main_arg22) = W (Proc.devRef .tc main_arg22) := by
  after_results_simp

theorem g0_keep_main_arg23 : StableHlo.after hostOps0 W (Proc.devRef .tc main_arg23) = W (Proc.devRef .tc main_arg23) := by
  after_results_simp

theorem g0_keep_main_arg24 : StableHlo.after hostOps0 W (Proc.devRef .tc main_arg24) = W (Proc.devRef .tc main_arg24) := by
  after_results_simp

theorem g0_keep_main_arg25 : StableHlo.after hostOps0 W (Proc.devRef .tc main_arg25) = W (Proc.devRef .tc main_arg25) := by
  after_results_simp

theorem g0_keep_main_arg26 : StableHlo.after hostOps0 W (Proc.devRef .tc main_arg26) = W (Proc.devRef .tc main_arg26) := by
  after_results_simp

theorem g0_keep_main_arg27 : StableHlo.after hostOps0 W (Proc.devRef .tc main_arg27) = W (Proc.devRef .tc main_arg27) := by
  after_results_simp

theorem g0_keep_main_arg28 : StableHlo.after hostOps0 W (Proc.devRef .tc main_arg28) = W (Proc.devRef .tc main_arg28) := by
  after_results_simp

end Cert.KernelIdeal.Chain

end
-- ==== Proof.ChainHost2.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps1 -/

theorem g2_main_v12 (h_main_v1 : W (Proc.devRef .tc main_v1) = val_main_v1 (F := Ideal) x1) :
    StableHlo.after hostOps1 W (Proc.devRef .tc main_v12) = val_main_v18 (F := Ideal) x1 := by
  after_results_simp
  try simp only [cast_eq]
  rw [h_main_v1]
  rfl

theorem g2_main_v13 (h_main_v3 : W (Proc.devRef .tc main_v3) = val_main_v3 (F := Ideal) x1) :
    StableHlo.after hostOps1 W (Proc.devRef .tc main_v13) = val_main_v19 (F := Ideal) x1 := by
  after_results_simp
  try simp only [cast_eq]
  rw [h_main_v3]
  rfl

theorem g2_main_v19 (h_main_v3 : W (Proc.devRef .tc main_v3) = val_main_v3 (F := Ideal) x1) :
    StableHlo.after hostOps1 W (Proc.devRef .tc main_v19) = val_main_v25 (F := Ideal) x1 := by
  after_results_simp
  try simp only [cast_eq]
  rw [h_main_v3]
  rfl

theorem g2_main_v20 (h_main_v3 : W (Proc.devRef .tc main_v3) = val_main_v3 (F := Ideal) x1) :
    StableHlo.after hostOps1 W (Proc.devRef .tc main_v20) = val_main_v26 (F := Ideal) x1 := by
  after_results_simp
  try simp only [cast_eq]
  rw [h_main_v3]
  rfl

theorem g2_main_cst_2  :
    StableHlo.after hostOps1 W (Proc.devRef .tc main_cst_2) = val_main_cst_2 (F := Ideal) := by
  after_results_simp
  try simp only [cast_eq]
  rfl

theorem g2_keep_main_v1 : StableHlo.after hostOps1 W (Proc.devRef .tc main_v1) = W (Proc.devRef .tc main_v1) := by
  after_results_simp

theorem g2_keep_main_v3 : StableHlo.after hostOps1 W (Proc.devRef .tc main_v3) = W (Proc.devRef .tc main_v3) := by
  after_results_simp

theorem g2_keep_main_v5 : StableHlo.after hostOps1 W (Proc.devRef .tc main_v5) = W (Proc.devRef .tc main_v5) := by
  after_results_simp

theorem g2_keep_main_v7 : StableHlo.after hostOps1 W (Proc.devRef .tc main_v7) = W (Proc.devRef .tc main_v7) := by
  after_results_simp

theorem g2_keep_main_v10 : StableHlo.after hostOps1 W (Proc.devRef .tc main_v10) = W (Proc.devRef .tc main_v10) := by
  after_results_simp

theorem g2_keep_main_arg3 : StableHlo.after hostOps1 W (Proc.devRef .tc main_arg3) = W (Proc.devRef .tc main_arg3) := by
  after_results_simp

theorem g2_keep_main_arg4 : StableHlo.after hostOps1 W (Proc.devRef .tc main_arg4) = W (Proc.devRef .tc main_arg4) := by
  after_results_simp

theorem g2_keep_main_arg9 : StableHlo.after hostOps1 W (Proc.devRef .tc main_arg9) = W (Proc.devRef .tc main_arg9) := by
  after_results_simp

theorem g2_keep_main_arg10 : StableHlo.after hostOps1 W (Proc.devRef .tc main_arg10) = W (Proc.devRef .tc main_arg10) := by
  after_results_simp

theorem g2_keep_main_arg11 : StableHlo.after hostOps1 W (Proc.devRef .tc main_arg11) = W (Proc.devRef .tc main_arg11) := by
  after_results_simp

theorem g2_keep_main_arg12 : StableHlo.after hostOps1 W (Proc.devRef .tc main_arg12) = W (Proc.devRef .tc main_arg12) := by
  after_results_simp

theorem g2_keep_main_arg13 : StableHlo.after hostOps1 W (Proc.devRef .tc main_arg13) = W (Proc.devRef .tc main_arg13) := by
  after_results_simp

theorem g2_keep_main_arg14 : StableHlo.after hostOps1 W (Proc.devRef .tc main_arg14) = W (Proc.devRef .tc main_arg14) := by
  after_results_simp

theorem g2_keep_main_arg15 : StableHlo.after hostOps1 W (Proc.devRef .tc main_arg15) = W (Proc.devRef .tc main_arg15) := by
  after_results_simp

theorem g2_keep_main_arg16 : StableHlo.after hostOps1 W (Proc.devRef .tc main_arg16) = W (Proc.devRef .tc main_arg16) := by
  after_results_simp

theorem g2_keep_main_arg17 : StableHlo.after hostOps1 W (Proc.devRef .tc main_arg17) = W (Proc.devRef .tc main_arg17) := by
  after_results_simp

theorem g2_keep_main_arg18 : StableHlo.after hostOps1 W (Proc.devRef .tc main_arg18) = W (Proc.devRef .tc main_arg18) := by
  after_results_simp

theorem g2_keep_main_arg19 : StableHlo.after hostOps1 W (Proc.devRef .tc main_arg19) = W (Proc.devRef .tc main_arg19) := by
  after_results_simp

theorem g2_keep_main_arg20 : StableHlo.after hostOps1 W (Proc.devRef .tc main_arg20) = W (Proc.devRef .tc main_arg20) := by
  after_results_simp

theorem g2_keep_main_arg21 : StableHlo.after hostOps1 W (Proc.devRef .tc main_arg21) = W (Proc.devRef .tc main_arg21) := by
  after_results_simp

theorem g2_keep_main_arg22 : StableHlo.after hostOps1 W (Proc.devRef .tc main_arg22) = W (Proc.devRef .tc main_arg22) := by
  after_results_simp

theorem g2_keep_main_arg23 : StableHlo.after hostOps1 W (Proc.devRef .tc main_arg23) = W (Proc.devRef .tc main_arg23) := by
  after_results_simp

theorem g2_keep_main_arg24 : StableHlo.after hostOps1 W (Proc.devRef .tc main_arg24) = W (Proc.devRef .tc main_arg24) := by
  after_results_simp

theorem g2_keep_main_arg25 : StableHlo.after hostOps1 W (Proc.devRef .tc main_arg25) = W (Proc.devRef .tc main_arg25) := by
  after_results_simp

theorem g2_keep_main_arg26 : StableHlo.after hostOps1 W (Proc.devRef .tc main_arg26) = W (Proc.devRef .tc main_arg26) := by
  after_results_simp

theorem g2_keep_main_arg27 : StableHlo.after hostOps1 W (Proc.devRef .tc main_arg27) = W (Proc.devRef .tc main_arg27) := by
  after_results_simp

theorem g2_keep_main_arg28 : StableHlo.after hostOps1 W (Proc.devRef .tc main_arg28) = W (Proc.devRef .tc main_arg28) := by
  after_results_simp

end Cert.KernelIdeal.Chain

end
-- ==== Proof.ChainHost3.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps1_1 -/

theorem g3_main_v21 (h_main_v19 : W (Proc.devRef .tc main_v19) = val_main_v25 (F := Ideal) x1) (h_main_v20 : W (Proc.devRef .tc main_v20) = val_main_v26 (F := Ideal) x1) (h_main_cst_2 : W (Proc.devRef .tc main_cst_2) = val_main_cst_2 (F := Ideal)) :
    StableHlo.after hostOps1_1 W (Proc.devRef .tc main_v21) = val_main_v27 (F := Ideal) x1 := by
  after_results_simp
  try simp only [cast_eq]
  rw [h_main_v19, h_main_v20, h_main_cst_2]
  rfl

theorem g3_keep_main_v1 : StableHlo.after hostOps1_1 W (Proc.devRef .tc main_v1) = W (Proc.devRef .tc main_v1) := by
  after_results_simp

theorem g3_keep_main_v3 : StableHlo.after hostOps1_1 W (Proc.devRef .tc main_v3) = W (Proc.devRef .tc main_v3) := by
  after_results_simp

theorem g3_keep_main_v5 : StableHlo.after hostOps1_1 W (Proc.devRef .tc main_v5) = W (Proc.devRef .tc main_v5) := by
  after_results_simp

theorem g3_keep_main_v7 : StableHlo.after hostOps1_1 W (Proc.devRef .tc main_v7) = W (Proc.devRef .tc main_v7) := by
  after_results_simp

theorem g3_keep_main_v10 : StableHlo.after hostOps1_1 W (Proc.devRef .tc main_v10) = W (Proc.devRef .tc main_v10) := by
  after_results_simp

theorem g3_keep_main_v12 : StableHlo.after hostOps1_1 W (Proc.devRef .tc main_v12) = W (Proc.devRef .tc main_v12) := by
  after_results_simp

theorem g3_keep_main_v13 : StableHlo.after hostOps1_1 W (Proc.devRef .tc main_v13) = W (Proc.devRef .tc main_v13) := by
  after_results_simp

theorem g3_keep_main_arg3 : StableHlo.after hostOps1_1 W (Proc.devRef .tc main_arg3) = W (Proc.devRef .tc main_arg3) := by
  after_results_simp

theorem g3_keep_main_arg4 : StableHlo.after hostOps1_1 W (Proc.devRef .tc main_arg4) = W (Proc.devRef .tc main_arg4) := by
  after_results_simp

theorem g3_keep_main_arg9 : StableHlo.after hostOps1_1 W (Proc.devRef .tc main_arg9) = W (Proc.devRef .tc main_arg9) := by
  after_results_simp

theorem g3_keep_main_arg10 : StableHlo.after hostOps1_1 W (Proc.devRef .tc main_arg10) = W (Proc.devRef .tc main_arg10) := by
  after_results_simp

theorem g3_keep_main_arg11 : StableHlo.after hostOps1_1 W (Proc.devRef .tc main_arg11) = W (Proc.devRef .tc main_arg11) := by
  after_results_simp

theorem g3_keep_main_arg12 : StableHlo.after hostOps1_1 W (Proc.devRef .tc main_arg12) = W (Proc.devRef .tc main_arg12) := by
  after_results_simp

theorem g3_keep_main_arg13 : StableHlo.after hostOps1_1 W (Proc.devRef .tc main_arg13) = W (Proc.devRef .tc main_arg13) := by
  after_results_simp

theorem g3_keep_main_arg14 : StableHlo.after hostOps1_1 W (Proc.devRef .tc main_arg14) = W (Proc.devRef .tc main_arg14) := by
  after_results_simp

theorem g3_keep_main_arg15 : StableHlo.after hostOps1_1 W (Proc.devRef .tc main_arg15) = W (Proc.devRef .tc main_arg15) := by
  after_results_simp

theorem g3_keep_main_arg16 : StableHlo.after hostOps1_1 W (Proc.devRef .tc main_arg16) = W (Proc.devRef .tc main_arg16) := by
  after_results_simp

theorem g3_keep_main_arg17 : StableHlo.after hostOps1_1 W (Proc.devRef .tc main_arg17) = W (Proc.devRef .tc main_arg17) := by
  after_results_simp

theorem g3_keep_main_arg18 : StableHlo.after hostOps1_1 W (Proc.devRef .tc main_arg18) = W (Proc.devRef .tc main_arg18) := by
  after_results_simp

theorem g3_keep_main_arg19 : StableHlo.after hostOps1_1 W (Proc.devRef .tc main_arg19) = W (Proc.devRef .tc main_arg19) := by
  after_results_simp

theorem g3_keep_main_arg20 : StableHlo.after hostOps1_1 W (Proc.devRef .tc main_arg20) = W (Proc.devRef .tc main_arg20) := by
  after_results_simp

theorem g3_keep_main_arg21 : StableHlo.after hostOps1_1 W (Proc.devRef .tc main_arg21) = W (Proc.devRef .tc main_arg21) := by
  after_results_simp

theorem g3_keep_main_arg22 : StableHlo.after hostOps1_1 W (Proc.devRef .tc main_arg22) = W (Proc.devRef .tc main_arg22) := by
  after_results_simp

theorem g3_keep_main_arg23 : StableHlo.after hostOps1_1 W (Proc.devRef .tc main_arg23) = W (Proc.devRef .tc main_arg23) := by
  after_results_simp

theorem g3_keep_main_arg24 : StableHlo.after hostOps1_1 W (Proc.devRef .tc main_arg24) = W (Proc.devRef .tc main_arg24) := by
  after_results_simp

theorem g3_keep_main_arg25 : StableHlo.after hostOps1_1 W (Proc.devRef .tc main_arg25) = W (Proc.devRef .tc main_arg25) := by
  after_results_simp

theorem g3_keep_main_arg26 : StableHlo.after hostOps1_1 W (Proc.devRef .tc main_arg26) = W (Proc.devRef .tc main_arg26) := by
  after_results_simp

theorem g3_keep_main_arg27 : StableHlo.after hostOps1_1 W (Proc.devRef .tc main_arg27) = W (Proc.devRef .tc main_arg27) := by
  after_results_simp

theorem g3_keep_main_arg28 : StableHlo.after hostOps1_1 W (Proc.devRef .tc main_arg28) = W (Proc.devRef .tc main_arg28) := by
  after_results_simp

end Cert.KernelIdeal.Chain

end
-- ==== Proof.ChainHost4.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps1_2 -/

theorem g4_main_v36 (h_main_v21 : W (Proc.devRef .tc main_v21) = val_main_v27 (F := Ideal) x1) (h_main_v12 : W (Proc.devRef .tc main_v12) = val_main_v18 (F := Ideal) x1) (h_main_v13 : W (Proc.devRef .tc main_v13) = val_main_v19 (F := Ideal) x1) :
    StableHlo.after hostOps1_2 W (Proc.devRef .tc main_v36) = val_main_v42 (F := Ideal) x1 := by
  after_results_simp
  try simp only [cast_eq]
  rw [h_main_v21, h_main_v12, h_main_v13]
  rfl

theorem g4_keep_main_v1 : StableHlo.after hostOps1_2 W (Proc.devRef .tc main_v1) = W (Proc.devRef .tc main_v1) := by
  after_results_simp

theorem g4_keep_main_v3 : StableHlo.after hostOps1_2 W (Proc.devRef .tc main_v3) = W (Proc.devRef .tc main_v3) := by
  after_results_simp

theorem g4_keep_main_v5 : StableHlo.after hostOps1_2 W (Proc.devRef .tc main_v5) = W (Proc.devRef .tc main_v5) := by
  after_results_simp

theorem g4_keep_main_v7 : StableHlo.after hostOps1_2 W (Proc.devRef .tc main_v7) = W (Proc.devRef .tc main_v7) := by
  after_results_simp

theorem g4_keep_main_v10 : StableHlo.after hostOps1_2 W (Proc.devRef .tc main_v10) = W (Proc.devRef .tc main_v10) := by
  after_results_simp

theorem g4_keep_main_v12 : StableHlo.after hostOps1_2 W (Proc.devRef .tc main_v12) = W (Proc.devRef .tc main_v12) := by
  after_results_simp

theorem g4_keep_main_v13 : StableHlo.after hostOps1_2 W (Proc.devRef .tc main_v13) = W (Proc.devRef .tc main_v13) := by
  after_results_simp

theorem g4_keep_main_arg3 : StableHlo.after hostOps1_2 W (Proc.devRef .tc main_arg3) = W (Proc.devRef .tc main_arg3) := by
  after_results_simp

theorem g4_keep_main_arg4 : StableHlo.after hostOps1_2 W (Proc.devRef .tc main_arg4) = W (Proc.devRef .tc main_arg4) := by
  after_results_simp

theorem g4_keep_main_arg9 : StableHlo.after hostOps1_2 W (Proc.devRef .tc main_arg9) = W (Proc.devRef .tc main_arg9) := by
  after_results_simp

theorem g4_keep_main_arg10 : StableHlo.after hostOps1_2 W (Proc.devRef .tc main_arg10) = W (Proc.devRef .tc main_arg10) := by
  after_results_simp

theorem g4_keep_main_arg11 : StableHlo.after hostOps1_2 W (Proc.devRef .tc main_arg11) = W (Proc.devRef .tc main_arg11) := by
  after_results_simp

theorem g4_keep_main_arg12 : StableHlo.after hostOps1_2 W (Proc.devRef .tc main_arg12) = W (Proc.devRef .tc main_arg12) := by
  after_results_simp

theorem g4_keep_main_arg13 : StableHlo.after hostOps1_2 W (Proc.devRef .tc main_arg13) = W (Proc.devRef .tc main_arg13) := by
  after_results_simp

theorem g4_keep_main_arg14 : StableHlo.after hostOps1_2 W (Proc.devRef .tc main_arg14) = W (Proc.devRef .tc main_arg14) := by
  after_results_simp

theorem g4_keep_main_arg15 : StableHlo.after hostOps1_2 W (Proc.devRef .tc main_arg15) = W (Proc.devRef .tc main_arg15) := by
  after_results_simp

theorem g4_keep_main_arg16 : StableHlo.after hostOps1_2 W (Proc.devRef .tc main_arg16) = W (Proc.devRef .tc main_arg16) := by
  after_results_simp

theorem g4_keep_main_arg17 : StableHlo.after hostOps1_2 W (Proc.devRef .tc main_arg17) = W (Proc.devRef .tc main_arg17) := by
  after_results_simp

theorem g4_keep_main_arg18 : StableHlo.after hostOps1_2 W (Proc.devRef .tc main_arg18) = W (Proc.devRef .tc main_arg18) := by
  after_results_simp

theorem g4_keep_main_arg19 : StableHlo.after hostOps1_2 W (Proc.devRef .tc main_arg19) = W (Proc.devRef .tc main_arg19) := by
  after_results_simp

theorem g4_keep_main_arg20 : StableHlo.after hostOps1_2 W (Proc.devRef .tc main_arg20) = W (Proc.devRef .tc main_arg20) := by
  after_results_simp

theorem g4_keep_main_arg21 : StableHlo.after hostOps1_2 W (Proc.devRef .tc main_arg21) = W (Proc.devRef .tc main_arg21) := by
  after_results_simp

theorem g4_keep_main_arg22 : StableHlo.after hostOps1_2 W (Proc.devRef .tc main_arg22) = W (Proc.devRef .tc main_arg22) := by
  after_results_simp

theorem g4_keep_main_arg23 : StableHlo.after hostOps1_2 W (Proc.devRef .tc main_arg23) = W (Proc.devRef .tc main_arg23) := by
  after_results_simp

theorem g4_keep_main_arg24 : StableHlo.after hostOps1_2 W (Proc.devRef .tc main_arg24) = W (Proc.devRef .tc main_arg24) := by
  after_results_simp

theorem g4_keep_main_arg25 : StableHlo.after hostOps1_2 W (Proc.devRef .tc main_arg25) = W (Proc.devRef .tc main_arg25) := by
  after_results_simp

theorem g4_keep_main_arg26 : StableHlo.after hostOps1_2 W (Proc.devRef .tc main_arg26) = W (Proc.devRef .tc main_arg26) := by
  after_results_simp

theorem g4_keep_main_arg27 : StableHlo.after hostOps1_2 W (Proc.devRef .tc main_arg27) = W (Proc.devRef .tc main_arg27) := by
  after_results_simp

theorem g4_keep_main_arg28 : StableHlo.after hostOps1_2 W (Proc.devRef .tc main_arg28) = W (Proc.devRef .tc main_arg28) := by
  after_results_simp

end Cert.KernelIdeal.Chain

end
-- ==== Proof.ChainHost6.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps2 -/

theorem g6_main_v53 (h_main_v13 : W (Proc.devRef .tc main_v13) = val_main_v19 (F := Ideal) x1) (h_main_v37 : W (Proc.devRef .tc main_v37) = val_main_v43 (F := Ideal) x0 x5 x6 x7 x8 x9) (h_main_v12 : W (Proc.devRef .tc main_v12) = val_main_v18 (F := Ideal) x1) (h_main_v36 : W (Proc.devRef .tc main_v36) = val_main_v42 (F := Ideal) x1) (h_main_arg10 : W (Proc.devRef .tc main_arg10) = x10) :
    StableHlo.after hostOps2 W (Proc.devRef .tc main_v53) = val_main_v59 (F := Ideal) x0 x1 x5 x6 x7 x8 x9 x10 := by
  after_results_simp
  try simp only [cast_eq]
  rw [h_main_v13, h_main_v37, h_main_v12, h_main_v36, h_main_arg10]
  rfl

theorem g6_keep_main_v1 : StableHlo.after hostOps2 W (Proc.devRef .tc main_v1) = W (Proc.devRef .tc main_v1) := by
  after_results_simp

theorem g6_keep_main_v3 : StableHlo.after hostOps2 W (Proc.devRef .tc main_v3) = W (Proc.devRef .tc main_v3) := by
  after_results_simp

theorem g6_keep_main_v5 : StableHlo.after hostOps2 W (Proc.devRef .tc main_v5) = W (Proc.devRef .tc main_v5) := by
  after_results_simp

theorem g6_keep_main_v7 : StableHlo.after hostOps2 W (Proc.devRef .tc main_v7) = W (Proc.devRef .tc main_v7) := by
  after_results_simp

theorem g6_keep_main_v10 : StableHlo.after hostOps2 W (Proc.devRef .tc main_v10) = W (Proc.devRef .tc main_v10) := by
  after_results_simp

theorem g6_keep_main_arg3 : StableHlo.after hostOps2 W (Proc.devRef .tc main_arg3) = W (Proc.devRef .tc main_arg3) := by
  after_results_simp

theorem g6_keep_main_arg4 : StableHlo.after hostOps2 W (Proc.devRef .tc main_arg4) = W (Proc.devRef .tc main_arg4) := by
  after_results_simp

theorem g6_keep_main_arg11 : StableHlo.after hostOps2 W (Proc.devRef .tc main_arg11) = W (Proc.devRef .tc main_arg11) := by
  after_results_simp

theorem g6_keep_main_arg12 : StableHlo.after hostOps2 W (Proc.devRef .tc main_arg12) = W (Proc.devRef .tc main_arg12) := by
  after_results_simp

theorem g6_keep_main_arg13 : StableHlo.after hostOps2 W (Proc.devRef .tc main_arg13) = W (Proc.devRef .tc main_arg13) := by
  after_results_simp

theorem g6_keep_main_arg14 : StableHlo.after hostOps2 W (Proc.devRef .tc main_arg14) = W (Proc.devRef .tc main_arg14) := by
  after_results_simp

theorem g6_keep_main_arg15 : StableHlo.after hostOps2 W (Proc.devRef .tc main_arg15) = W (Proc.devRef .tc main_arg15) := by
  after_results_simp

theorem g6_keep_main_arg16 : StableHlo.after hostOps2 W (Proc.devRef .tc main_arg16) = W (Proc.devRef .tc main_arg16) := by
  after_results_simp

theorem g6_keep_main_arg17 : StableHlo.after hostOps2 W (Proc.devRef .tc main_arg17) = W (Proc.devRef .tc main_arg17) := by
  after_results_simp

theorem g6_keep_main_arg18 : StableHlo.after hostOps2 W (Proc.devRef .tc main_arg18) = W (Proc.devRef .tc main_arg18) := by
  after_results_simp

theorem g6_keep_main_arg19 : StableHlo.after hostOps2 W (Proc.devRef .tc main_arg19) = W (Proc.devRef .tc main_arg19) := by
  after_results_simp

theorem g6_keep_main_arg20 : StableHlo.after hostOps2 W (Proc.devRef .tc main_arg20) = W (Proc.devRef .tc main_arg20) := by
  after_results_simp

theorem g6_keep_main_arg21 : StableHlo.after hostOps2 W (Proc.devRef .tc main_arg21) = W (Proc.devRef .tc main_arg21) := by
  after_results_simp

theorem g6_keep_main_arg22 : StableHlo.after hostOps2 W (Proc.devRef .tc main_arg22) = W (Proc.devRef .tc main_arg22) := by
  after_results_simp

theorem g6_keep_main_arg23 : StableHlo.after hostOps2 W (Proc.devRef .tc main_arg23) = W (Proc.devRef .tc main_arg23) := by
  after_results_simp

theorem g6_keep_main_arg24 : StableHlo.after hostOps2 W (Proc.devRef .tc main_arg24) = W (Proc.devRef .tc main_arg24) := by
  after_results_simp

theorem g6_keep_main_arg25 : StableHlo.after hostOps2 W (Proc.devRef .tc main_arg25) = W (Proc.devRef .tc main_arg25) := by
  after_results_simp

theorem g6_keep_main_arg26 : StableHlo.after hostOps2 W (Proc.devRef .tc main_arg26) = W (Proc.devRef .tc main_arg26) := by
  after_results_simp

theorem g6_keep_main_arg27 : StableHlo.after hostOps2 W (Proc.devRef .tc main_arg27) = W (Proc.devRef .tc main_arg27) := by
  after_results_simp

theorem g6_keep_main_arg28 : StableHlo.after hostOps2 W (Proc.devRef .tc main_arg28) = W (Proc.devRef .tc main_arg28) := by
  after_results_simp

end Cert.KernelIdeal.Chain

end
-- ==== Proof.ChainHost7.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps2_1 -/

theorem g7_main_v54 (h_main_v53 : W (Proc.devRef .tc main_v53) = val_main_v59 (F := Ideal) x0 x1 x5 x6 x7 x8 x9 x10) :
    StableHlo.after hostOps2_1 W (Proc.devRef .tc main_v54) = val_main_v60 (F := Ideal) x0 x1 x5 x6 x7 x8 x9 x10 := by
  after_results_simp
  try simp only [cast_eq]
  rw [h_main_v53]
  rfl

theorem g7_keep_main_v1 : StableHlo.after hostOps2_1 W (Proc.devRef .tc main_v1) = W (Proc.devRef .tc main_v1) := by
  after_results_simp

theorem g7_keep_main_v3 : StableHlo.after hostOps2_1 W (Proc.devRef .tc main_v3) = W (Proc.devRef .tc main_v3) := by
  after_results_simp

theorem g7_keep_main_v5 : StableHlo.after hostOps2_1 W (Proc.devRef .tc main_v5) = W (Proc.devRef .tc main_v5) := by
  after_results_simp

theorem g7_keep_main_v7 : StableHlo.after hostOps2_1 W (Proc.devRef .tc main_v7) = W (Proc.devRef .tc main_v7) := by
  after_results_simp

theorem g7_keep_main_v10 : StableHlo.after hostOps2_1 W (Proc.devRef .tc main_v10) = W (Proc.devRef .tc main_v10) := by
  after_results_simp

theorem g7_keep_main_arg3 : StableHlo.after hostOps2_1 W (Proc.devRef .tc main_arg3) = W (Proc.devRef .tc main_arg3) := by
  after_results_simp

theorem g7_keep_main_arg4 : StableHlo.after hostOps2_1 W (Proc.devRef .tc main_arg4) = W (Proc.devRef .tc main_arg4) := by
  after_results_simp

theorem g7_keep_main_arg11 : StableHlo.after hostOps2_1 W (Proc.devRef .tc main_arg11) = W (Proc.devRef .tc main_arg11) := by
  after_results_simp

theorem g7_keep_main_arg12 : StableHlo.after hostOps2_1 W (Proc.devRef .tc main_arg12) = W (Proc.devRef .tc main_arg12) := by
  after_results_simp

theorem g7_keep_main_arg13 : StableHlo.after hostOps2_1 W (Proc.devRef .tc main_arg13) = W (Proc.devRef .tc main_arg13) := by
  after_results_simp

theorem g7_keep_main_arg14 : StableHlo.after hostOps2_1 W (Proc.devRef .tc main_arg14) = W (Proc.devRef .tc main_arg14) := by
  after_results_simp

theorem g7_keep_main_arg15 : StableHlo.after hostOps2_1 W (Proc.devRef .tc main_arg15) = W (Proc.devRef .tc main_arg15) := by
  after_results_simp

theorem g7_keep_main_arg16 : StableHlo.after hostOps2_1 W (Proc.devRef .tc main_arg16) = W (Proc.devRef .tc main_arg16) := by
  after_results_simp

theorem g7_keep_main_arg17 : StableHlo.after hostOps2_1 W (Proc.devRef .tc main_arg17) = W (Proc.devRef .tc main_arg17) := by
  after_results_simp

theorem g7_keep_main_arg18 : StableHlo.after hostOps2_1 W (Proc.devRef .tc main_arg18) = W (Proc.devRef .tc main_arg18) := by
  after_results_simp

theorem g7_keep_main_arg19 : StableHlo.after hostOps2_1 W (Proc.devRef .tc main_arg19) = W (Proc.devRef .tc main_arg19) := by
  after_results_simp

theorem g7_keep_main_arg20 : StableHlo.after hostOps2_1 W (Proc.devRef .tc main_arg20) = W (Proc.devRef .tc main_arg20) := by
  after_results_simp

theorem g7_keep_main_arg21 : StableHlo.after hostOps2_1 W (Proc.devRef .tc main_arg21) = W (Proc.devRef .tc main_arg21) := by
  after_results_simp

theorem g7_keep_main_arg22 : StableHlo.after hostOps2_1 W (Proc.devRef .tc main_arg22) = W (Proc.devRef .tc main_arg22) := by
  after_results_simp

theorem g7_keep_main_arg23 : StableHlo.after hostOps2_1 W (Proc.devRef .tc main_arg23) = W (Proc.devRef .tc main_arg23) := by
  after_results_simp

theorem g7_keep_main_arg24 : StableHlo.after hostOps2_1 W (Proc.devRef .tc main_arg24) = W (Proc.devRef .tc main_arg24) := by
  after_results_simp

theorem g7_keep_main_arg25 : StableHlo.after hostOps2_1 W (Proc.devRef .tc main_arg25) = W (Proc.devRef .tc main_arg25) := by
  after_results_simp

theorem g7_keep_main_arg26 : StableHlo.after hostOps2_1 W (Proc.devRef .tc main_arg26) = W (Proc.devRef .tc main_arg26) := by
  after_results_simp

theorem g7_keep_main_arg27 : StableHlo.after hostOps2_1 W (Proc.devRef .tc main_arg27) = W (Proc.devRef .tc main_arg27) := by
  after_results_simp

theorem g7_keep_main_arg28 : StableHlo.after hostOps2_1 W (Proc.devRef .tc main_arg28) = W (Proc.devRef .tc main_arg28) := by
  after_results_simp

end Cert.KernelIdeal.Chain

end
-- ==== Proof.ChainHost8.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps2_2 -/

theorem g8_main_v56 (h_main_v5 : W (Proc.devRef .tc main_v5) = val_main_v5 (F := Ideal) x2) :
    StableHlo.after hostOps2_2 W (Proc.devRef .tc main_v56) = val_main_v62 (F := Ideal) x2 := by
  after_results_simp
  try simp only [cast_eq]
  rw [h_main_v5]
  rfl

theorem g8_main_v57 (h_main_v7 : W (Proc.devRef .tc main_v7) = val_main_v7 (F := Ideal) x2) :
    StableHlo.after hostOps2_2 W (Proc.devRef .tc main_v57) = val_main_v63 (F := Ideal) x2 := by
  after_results_simp
  try simp only [cast_eq]
  rw [h_main_v7]
  rfl

theorem g8_main_v63 (h_main_v7 : W (Proc.devRef .tc main_v7) = val_main_v7 (F := Ideal) x2) :
    StableHlo.after hostOps2_2 W (Proc.devRef .tc main_v63) = val_main_v69 (F := Ideal) x2 := by
  after_results_simp
  try simp only [cast_eq]
  rw [h_main_v7]
  rfl

theorem g8_main_v64 (h_main_v7 : W (Proc.devRef .tc main_v7) = val_main_v7 (F := Ideal) x2) :
    StableHlo.after hostOps2_2 W (Proc.devRef .tc main_v64) = val_main_v70 (F := Ideal) x2 := by
  after_results_simp
  try simp only [cast_eq]
  rw [h_main_v7]
  rfl

theorem g8_main_cst_12  :
    StableHlo.after hostOps2_2 W (Proc.devRef .tc main_cst_12) = val_main_cst_12 (F := Ideal) := by
  after_results_simp
  try simp only [cast_eq]
  rfl

theorem g8_keep_main_v1 : StableHlo.after hostOps2_2 W (Proc.devRef .tc main_v1) = W (Proc.devRef .tc main_v1) := by
  after_results_simp

theorem g8_keep_main_v3 : StableHlo.after hostOps2_2 W (Proc.devRef .tc main_v3) = W (Proc.devRef .tc main_v3) := by
  after_results_simp

theorem g8_keep_main_v5 : StableHlo.after hostOps2_2 W (Proc.devRef .tc main_v5) = W (Proc.devRef .tc main_v5) := by
  after_results_simp

theorem g8_keep_main_v7 : StableHlo.after hostOps2_2 W (Proc.devRef .tc main_v7) = W (Proc.devRef .tc main_v7) := by
  after_results_simp

theorem g8_keep_main_v10 : StableHlo.after hostOps2_2 W (Proc.devRef .tc main_v10) = W (Proc.devRef .tc main_v10) := by
  after_results_simp

theorem g8_keep_main_v54 : StableHlo.after hostOps2_2 W (Proc.devRef .tc main_v54) = W (Proc.devRef .tc main_v54) := by
  after_results_simp

theorem g8_keep_main_arg3 : StableHlo.after hostOps2_2 W (Proc.devRef .tc main_arg3) = W (Proc.devRef .tc main_arg3) := by
  after_results_simp

theorem g8_keep_main_arg4 : StableHlo.after hostOps2_2 W (Proc.devRef .tc main_arg4) = W (Proc.devRef .tc main_arg4) := by
  after_results_simp

theorem g8_keep_main_arg11 : StableHlo.after hostOps2_2 W (Proc.devRef .tc main_arg11) = W (Proc.devRef .tc main_arg11) := by
  after_results_simp

theorem g8_keep_main_arg12 : StableHlo.after hostOps2_2 W (Proc.devRef .tc main_arg12) = W (Proc.devRef .tc main_arg12) := by
  after_results_simp

theorem g8_keep_main_arg13 : StableHlo.after hostOps2_2 W (Proc.devRef .tc main_arg13) = W (Proc.devRef .tc main_arg13) := by
  after_results_simp

theorem g8_keep_main_arg14 : StableHlo.after hostOps2_2 W (Proc.devRef .tc main_arg14) = W (Proc.devRef .tc main_arg14) := by
  after_results_simp

theorem g8_keep_main_arg15 : StableHlo.after hostOps2_2 W (Proc.devRef .tc main_arg15) = W (Proc.devRef .tc main_arg15) := by
  after_results_simp

theorem g8_keep_main_arg16 : StableHlo.after hostOps2_2 W (Proc.devRef .tc main_arg16) = W (Proc.devRef .tc main_arg16) := by
  after_results_simp

theorem g8_keep_main_arg17 : StableHlo.after hostOps2_2 W (Proc.devRef .tc main_arg17) = W (Proc.devRef .tc main_arg17) := by
  after_results_simp

theorem g8_keep_main_arg18 : StableHlo.after hostOps2_2 W (Proc.devRef .tc main_arg18) = W (Proc.devRef .tc main_arg18) := by
  after_results_simp

theorem g8_keep_main_arg19 : StableHlo.after hostOps2_2 W (Proc.devRef .tc main_arg19) = W (Proc.devRef .tc main_arg19) := by
  after_results_simp

theorem g8_keep_main_arg20 : StableHlo.after hostOps2_2 W (Proc.devRef .tc main_arg20) = W (Proc.devRef .tc main_arg20) := by
  after_results_simp

theorem g8_keep_main_arg21 : StableHlo.after hostOps2_2 W (Proc.devRef .tc main_arg21) = W (Proc.devRef .tc main_arg21) := by
  after_results_simp

theorem g8_keep_main_arg22 : StableHlo.after hostOps2_2 W (Proc.devRef .tc main_arg22) = W (Proc.devRef .tc main_arg22) := by
  after_results_simp

theorem g8_keep_main_arg23 : StableHlo.after hostOps2_2 W (Proc.devRef .tc main_arg23) = W (Proc.devRef .tc main_arg23) := by
  after_results_simp

theorem g8_keep_main_arg24 : StableHlo.after hostOps2_2 W (Proc.devRef .tc main_arg24) = W (Proc.devRef .tc main_arg24) := by
  after_results_simp

theorem g8_keep_main_arg25 : StableHlo.after hostOps2_2 W (Proc.devRef .tc main_arg25) = W (Proc.devRef .tc main_arg25) := by
  after_results_simp

theorem g8_keep_main_arg26 : StableHlo.after hostOps2_2 W (Proc.devRef .tc main_arg26) = W (Proc.devRef .tc main_arg26) := by
  after_results_simp

theorem g8_keep_main_arg27 : StableHlo.after hostOps2_2 W (Proc.devRef .tc main_arg27) = W (Proc.devRef .tc main_arg27) := by
  after_results_simp

theorem g8_keep_main_arg28 : StableHlo.after hostOps2_2 W (Proc.devRef .tc main_arg28) = W (Proc.devRef .tc main_arg28) := by
  after_results_simp

end Cert.KernelIdeal.Chain

end
-- ==== Proof.ChainHost9.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps2_3 -/

theorem g9_main_v65 (h_main_v63 : W (Proc.devRef .tc main_v63) = val_main_v69 (F := Ideal) x2) (h_main_v64 : W (Proc.devRef .tc main_v64) = val_main_v70 (F := Ideal) x2) (h_main_cst_12 : W (Proc.devRef .tc main_cst_12) = val_main_cst_12 (F := Ideal)) :
    StableHlo.after hostOps2_3 W (Proc.devRef .tc main_v65) = val_main_v71 (F := Ideal) x2 := by
  after_results_simp
  try simp only [cast_eq]
  rw [h_main_v63, h_main_v64, h_main_cst_12]
  rfl

theorem g9_keep_main_v1 : StableHlo.after hostOps2_3 W (Proc.devRef .tc main_v1) = W (Proc.devRef .tc main_v1) := by
  after_results_simp

theorem g9_keep_main_v3 : StableHlo.after hostOps2_3 W (Proc.devRef .tc main_v3) = W (Proc.devRef .tc main_v3) := by
  after_results_simp

theorem g9_keep_main_v5 : StableHlo.after hostOps2_3 W (Proc.devRef .tc main_v5) = W (Proc.devRef .tc main_v5) := by
  after_results_simp

theorem g9_keep_main_v7 : StableHlo.after hostOps2_3 W (Proc.devRef .tc main_v7) = W (Proc.devRef .tc main_v7) := by
  after_results_simp

theorem g9_keep_main_v10 : StableHlo.after hostOps2_3 W (Proc.devRef .tc main_v10) = W (Proc.devRef .tc main_v10) := by
  after_results_simp

theorem g9_keep_main_v54 : StableHlo.after hostOps2_3 W (Proc.devRef .tc main_v54) = W (Proc.devRef .tc main_v54) := by
  after_results_simp

theorem g9_keep_main_v56 : StableHlo.after hostOps2_3 W (Proc.devRef .tc main_v56) = W (Proc.devRef .tc main_v56) := by
  after_results_simp

theorem g9_keep_main_v57 : StableHlo.after hostOps2_3 W (Proc.devRef .tc main_v57) = W (Proc.devRef .tc main_v57) := by
  after_results_simp

theorem g9_keep_main_arg3 : StableHlo.after hostOps2_3 W (Proc.devRef .tc main_arg3) = W (Proc.devRef .tc main_arg3) := by
  after_results_simp

theorem g9_keep_main_arg4 : StableHlo.after hostOps2_3 W (Proc.devRef .tc main_arg4) = W (Proc.devRef .tc main_arg4) := by
  after_results_simp

theorem g9_keep_main_arg11 : StableHlo.after hostOps2_3 W (Proc.devRef .tc main_arg11) = W (Proc.devRef .tc main_arg11) := by
  after_results_simp

theorem g9_keep_main_arg12 : StableHlo.after hostOps2_3 W (Proc.devRef .tc main_arg12) = W (Proc.devRef .tc main_arg12) := by
  after_results_simp

theorem g9_keep_main_arg13 : StableHlo.after hostOps2_3 W (Proc.devRef .tc main_arg13) = W (Proc.devRef .tc main_arg13) := by
  after_results_simp

theorem g9_keep_main_arg14 : StableHlo.after hostOps2_3 W (Proc.devRef .tc main_arg14) = W (Proc.devRef .tc main_arg14) := by
  after_results_simp

theorem g9_keep_main_arg15 : StableHlo.after hostOps2_3 W (Proc.devRef .tc main_arg15) = W (Proc.devRef .tc main_arg15) := by
  after_results_simp

theorem g9_keep_main_arg16 : StableHlo.after hostOps2_3 W (Proc.devRef .tc main_arg16) = W (Proc.devRef .tc main_arg16) := by
  after_results_simp

theorem g9_keep_main_arg17 : StableHlo.after hostOps2_3 W (Proc.devRef .tc main_arg17) = W (Proc.devRef .tc main_arg17) := by
  after_results_simp

theorem g9_keep_main_arg18 : StableHlo.after hostOps2_3 W (Proc.devRef .tc main_arg18) = W (Proc.devRef .tc main_arg18) := by
  after_results_simp

theorem g9_keep_main_arg19 : StableHlo.after hostOps2_3 W (Proc.devRef .tc main_arg19) = W (Proc.devRef .tc main_arg19) := by
  after_results_simp

theorem g9_keep_main_arg20 : StableHlo.after hostOps2_3 W (Proc.devRef .tc main_arg20) = W (Proc.devRef .tc main_arg20) := by
  after_results_simp

theorem g9_keep_main_arg21 : StableHlo.after hostOps2_3 W (Proc.devRef .tc main_arg21) = W (Proc.devRef .tc main_arg21) := by
  after_results_simp

theorem g9_keep_main_arg22 : StableHlo.after hostOps2_3 W (Proc.devRef .tc main_arg22) = W (Proc.devRef .tc main_arg22) := by
  after_results_simp

theorem g9_keep_main_arg23 : StableHlo.after hostOps2_3 W (Proc.devRef .tc main_arg23) = W (Proc.devRef .tc main_arg23) := by
  after_results_simp

theorem g9_keep_main_arg24 : StableHlo.after hostOps2_3 W (Proc.devRef .tc main_arg24) = W (Proc.devRef .tc main_arg24) := by
  after_results_simp

theorem g9_keep_main_arg25 : StableHlo.after hostOps2_3 W (Proc.devRef .tc main_arg25) = W (Proc.devRef .tc main_arg25) := by
  after_results_simp

theorem g9_keep_main_arg26 : StableHlo.after hostOps2_3 W (Proc.devRef .tc main_arg26) = W (Proc.devRef .tc main_arg26) := by
  after_results_simp

theorem g9_keep_main_arg27 : StableHlo.after hostOps2_3 W (Proc.devRef .tc main_arg27) = W (Proc.devRef .tc main_arg27) := by
  after_results_simp

theorem g9_keep_main_arg28 : StableHlo.after hostOps2_3 W (Proc.devRef .tc main_arg28) = W (Proc.devRef .tc main_arg28) := by
  after_results_simp

end Cert.KernelIdeal.Chain

end
-- ==== Proof.ChainHost10.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps2_4 -/

theorem g10_main_v80 (h_main_v65 : W (Proc.devRef .tc main_v65) = val_main_v71 (F := Ideal) x2) (h_main_v56 : W (Proc.devRef .tc main_v56) = val_main_v62 (F := Ideal) x2) (h_main_v57 : W (Proc.devRef .tc main_v57) = val_main_v63 (F := Ideal) x2) :
    StableHlo.after hostOps2_4 W (Proc.devRef .tc main_v80) = val_main_v86 (F := Ideal) x2 := by
  after_results_simp
  try simp only [cast_eq]
  rw [h_main_v65, h_main_v56, h_main_v57]
  rfl

theorem g10_keep_main_v1 : StableHlo.after hostOps2_4 W (Proc.devRef .tc main_v1) = W (Proc.devRef .tc main_v1) := by
  after_results_simp

theorem g10_keep_main_v3 : StableHlo.after hostOps2_4 W (Proc.devRef .tc main_v3) = W (Proc.devRef .tc main_v3) := by
  after_results_simp

theorem g10_keep_main_v5 : StableHlo.after hostOps2_4 W (Proc.devRef .tc main_v5) = W (Proc.devRef .tc main_v5) := by
  after_results_simp

theorem g10_keep_main_v7 : StableHlo.after hostOps2_4 W (Proc.devRef .tc main_v7) = W (Proc.devRef .tc main_v7) := by
  after_results_simp

theorem g10_keep_main_v10 : StableHlo.after hostOps2_4 W (Proc.devRef .tc main_v10) = W (Proc.devRef .tc main_v10) := by
  after_results_simp

theorem g10_keep_main_v54 : StableHlo.after hostOps2_4 W (Proc.devRef .tc main_v54) = W (Proc.devRef .tc main_v54) := by
  after_results_simp

theorem g10_keep_main_v56 : StableHlo.after hostOps2_4 W (Proc.devRef .tc main_v56) = W (Proc.devRef .tc main_v56) := by
  after_results_simp

theorem g10_keep_main_v57 : StableHlo.after hostOps2_4 W (Proc.devRef .tc main_v57) = W (Proc.devRef .tc main_v57) := by
  after_results_simp

theorem g10_keep_main_arg3 : StableHlo.after hostOps2_4 W (Proc.devRef .tc main_arg3) = W (Proc.devRef .tc main_arg3) := by
  after_results_simp

theorem g10_keep_main_arg4 : StableHlo.after hostOps2_4 W (Proc.devRef .tc main_arg4) = W (Proc.devRef .tc main_arg4) := by
  after_results_simp

theorem g10_keep_main_arg11 : StableHlo.after hostOps2_4 W (Proc.devRef .tc main_arg11) = W (Proc.devRef .tc main_arg11) := by
  after_results_simp

theorem g10_keep_main_arg12 : StableHlo.after hostOps2_4 W (Proc.devRef .tc main_arg12) = W (Proc.devRef .tc main_arg12) := by
  after_results_simp

theorem g10_keep_main_arg13 : StableHlo.after hostOps2_4 W (Proc.devRef .tc main_arg13) = W (Proc.devRef .tc main_arg13) := by
  after_results_simp

theorem g10_keep_main_arg14 : StableHlo.after hostOps2_4 W (Proc.devRef .tc main_arg14) = W (Proc.devRef .tc main_arg14) := by
  after_results_simp

theorem g10_keep_main_arg15 : StableHlo.after hostOps2_4 W (Proc.devRef .tc main_arg15) = W (Proc.devRef .tc main_arg15) := by
  after_results_simp

theorem g10_keep_main_arg16 : StableHlo.after hostOps2_4 W (Proc.devRef .tc main_arg16) = W (Proc.devRef .tc main_arg16) := by
  after_results_simp

theorem g10_keep_main_arg17 : StableHlo.after hostOps2_4 W (Proc.devRef .tc main_arg17) = W (Proc.devRef .tc main_arg17) := by
  after_results_simp

theorem g10_keep_main_arg18 : StableHlo.after hostOps2_4 W (Proc.devRef .tc main_arg18) = W (Proc.devRef .tc main_arg18) := by
  after_results_simp

theorem g10_keep_main_arg19 : StableHlo.after hostOps2_4 W (Proc.devRef .tc main_arg19) = W (Proc.devRef .tc main_arg19) := by
  after_results_simp

theorem g10_keep_main_arg20 : StableHlo.after hostOps2_4 W (Proc.devRef .tc main_arg20) = W (Proc.devRef .tc main_arg20) := by
  after_results_simp

theorem g10_keep_main_arg21 : StableHlo.after hostOps2_4 W (Proc.devRef .tc main_arg21) = W (Proc.devRef .tc main_arg21) := by
  after_results_simp

theorem g10_keep_main_arg22 : StableHlo.after hostOps2_4 W (Proc.devRef .tc main_arg22) = W (Proc.devRef .tc main_arg22) := by
  after_results_simp

theorem g10_keep_main_arg23 : StableHlo.after hostOps2_4 W (Proc.devRef .tc main_arg23) = W (Proc.devRef .tc main_arg23) := by
  after_results_simp

theorem g10_keep_main_arg24 : StableHlo.after hostOps2_4 W (Proc.devRef .tc main_arg24) = W (Proc.devRef .tc main_arg24) := by
  after_results_simp

theorem g10_keep_main_arg25 : StableHlo.after hostOps2_4 W (Proc.devRef .tc main_arg25) = W (Proc.devRef .tc main_arg25) := by
  after_results_simp

theorem g10_keep_main_arg26 : StableHlo.after hostOps2_4 W (Proc.devRef .tc main_arg26) = W (Proc.devRef .tc main_arg26) := by
  after_results_simp

theorem g10_keep_main_arg27 : StableHlo.after hostOps2_4 W (Proc.devRef .tc main_arg27) = W (Proc.devRef .tc main_arg27) := by
  after_results_simp

theorem g10_keep_main_arg28 : StableHlo.after hostOps2_4 W (Proc.devRef .tc main_arg28) = W (Proc.devRef .tc main_arg28) := by
  after_results_simp

end Cert.KernelIdeal.Chain

end
-- ==== Proof.ChainHost12.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps3 -/

theorem g12_main_v97 (h_main_v57 : W (Proc.devRef .tc main_v57) = val_main_v63 (F := Ideal) x2) (h_main_v81 : W (Proc.devRef .tc main_v81) = val_main_v87 (F := Ideal) x0 x5 x6 x7 x8 x11) (h_main_v56 : W (Proc.devRef .tc main_v56) = val_main_v62 (F := Ideal) x2) (h_main_v80 : W (Proc.devRef .tc main_v80) = val_main_v86 (F := Ideal) x2) (h_main_arg12 : W (Proc.devRef .tc main_arg12) = x12) :
    StableHlo.after hostOps3 W (Proc.devRef .tc main_v97) = val_main_v103 (F := Ideal) x0 x2 x5 x6 x7 x8 x11 x12 := by
  after_results_simp
  try simp only [cast_eq]
  rw [h_main_v57, h_main_v81, h_main_v56, h_main_v80, h_main_arg12]
  rfl

theorem g12_keep_main_v1 : StableHlo.after hostOps3 W (Proc.devRef .tc main_v1) = W (Proc.devRef .tc main_v1) := by
  after_results_simp

theorem g12_keep_main_v3 : StableHlo.after hostOps3 W (Proc.devRef .tc main_v3) = W (Proc.devRef .tc main_v3) := by
  after_results_simp

theorem g12_keep_main_v5 : StableHlo.after hostOps3 W (Proc.devRef .tc main_v5) = W (Proc.devRef .tc main_v5) := by
  after_results_simp

theorem g12_keep_main_v7 : StableHlo.after hostOps3 W (Proc.devRef .tc main_v7) = W (Proc.devRef .tc main_v7) := by
  after_results_simp

theorem g12_keep_main_v54 : StableHlo.after hostOps3 W (Proc.devRef .tc main_v54) = W (Proc.devRef .tc main_v54) := by
  after_results_simp

theorem g12_keep_main_arg3 : StableHlo.after hostOps3 W (Proc.devRef .tc main_arg3) = W (Proc.devRef .tc main_arg3) := by
  after_results_simp

theorem g12_keep_main_arg4 : StableHlo.after hostOps3 W (Proc.devRef .tc main_arg4) = W (Proc.devRef .tc main_arg4) := by
  after_results_simp

theorem g12_keep_main_arg13 : StableHlo.after hostOps3 W (Proc.devRef .tc main_arg13) = W (Proc.devRef .tc main_arg13) := by
  after_results_simp

theorem g12_keep_main_arg14 : StableHlo.after hostOps3 W (Proc.devRef .tc main_arg14) = W (Proc.devRef .tc main_arg14) := by
  after_results_simp

theorem g12_keep_main_arg15 : StableHlo.after hostOps3 W (Proc.devRef .tc main_arg15) = W (Proc.devRef .tc main_arg15) := by
  after_results_simp

theorem g12_keep_main_arg16 : StableHlo.after hostOps3 W (Proc.devRef .tc main_arg16) = W (Proc.devRef .tc main_arg16) := by
  after_results_simp

theorem g12_keep_main_arg17 : StableHlo.after hostOps3 W (Proc.devRef .tc main_arg17) = W (Proc.devRef .tc main_arg17) := by
  after_results_simp

theorem g12_keep_main_arg18 : StableHlo.after hostOps3 W (Proc.devRef .tc main_arg18) = W (Proc.devRef .tc main_arg18) := by
  after_results_simp

theorem g12_keep_main_arg19 : StableHlo.after hostOps3 W (Proc.devRef .tc main_arg19) = W (Proc.devRef .tc main_arg19) := by
  after_results_simp

theorem g12_keep_main_arg20 : StableHlo.after hostOps3 W (Proc.devRef .tc main_arg20) = W (Proc.devRef .tc main_arg20) := by
  after_results_simp

theorem g12_keep_main_arg21 : StableHlo.after hostOps3 W (Proc.devRef .tc main_arg21) = W (Proc.devRef .tc main_arg21) := by
  after_results_simp

theorem g12_keep_main_arg22 : StableHlo.after hostOps3 W (Proc.devRef .tc main_arg22) = W (Proc.devRef .tc main_arg22) := by
  after_results_simp

theorem g12_keep_main_arg23 : StableHlo.after hostOps3 W (Proc.devRef .tc main_arg23) = W (Proc.devRef .tc main_arg23) := by
  after_results_simp

theorem g12_keep_main_arg24 : StableHlo.after hostOps3 W (Proc.devRef .tc main_arg24) = W (Proc.devRef .tc main_arg24) := by
  after_results_simp

theorem g12_keep_main_arg25 : StableHlo.after hostOps3 W (Proc.devRef .tc main_arg25) = W (Proc.devRef .tc main_arg25) := by
  after_results_simp

theorem g12_keep_main_arg26 : StableHlo.after hostOps3 W (Proc.devRef .tc main_arg26) = W (Proc.devRef .tc main_arg26) := by
  after_results_simp

theorem g12_keep_main_arg27 : StableHlo.after hostOps3 W (Proc.devRef .tc main_arg27) = W (Proc.devRef .tc main_arg27) := by
  after_results_simp

theorem g12_keep_main_arg28 : StableHlo.after hostOps3 W (Proc.devRef .tc main_arg28) = W (Proc.devRef .tc main_arg28) := by
  after_results_simp

end Cert.KernelIdeal.Chain

end
-- ==== Proof.ChainHost13.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps3_1 -/

theorem g13_main_v98 (h_main_v97 : W (Proc.devRef .tc main_v97) = val_main_v103 (F := Ideal) x0 x2 x5 x6 x7 x8 x11 x12) :
    StableHlo.after hostOps3_1 W (Proc.devRef .tc main_v98) = val_main_v104 (F := Ideal) x0 x2 x5 x6 x7 x8 x11 x12 := by
  after_results_simp
  try simp only [cast_eq]
  rw [h_main_v97]
  rfl

theorem g13_keep_main_v1 : StableHlo.after hostOps3_1 W (Proc.devRef .tc main_v1) = W (Proc.devRef .tc main_v1) := by
  after_results_simp

theorem g13_keep_main_v3 : StableHlo.after hostOps3_1 W (Proc.devRef .tc main_v3) = W (Proc.devRef .tc main_v3) := by
  after_results_simp

theorem g13_keep_main_v5 : StableHlo.after hostOps3_1 W (Proc.devRef .tc main_v5) = W (Proc.devRef .tc main_v5) := by
  after_results_simp

theorem g13_keep_main_v7 : StableHlo.after hostOps3_1 W (Proc.devRef .tc main_v7) = W (Proc.devRef .tc main_v7) := by
  after_results_simp

theorem g13_keep_main_v54 : StableHlo.after hostOps3_1 W (Proc.devRef .tc main_v54) = W (Proc.devRef .tc main_v54) := by
  after_results_simp

theorem g13_keep_main_arg3 : StableHlo.after hostOps3_1 W (Proc.devRef .tc main_arg3) = W (Proc.devRef .tc main_arg3) := by
  after_results_simp

theorem g13_keep_main_arg4 : StableHlo.after hostOps3_1 W (Proc.devRef .tc main_arg4) = W (Proc.devRef .tc main_arg4) := by
  after_results_simp

theorem g13_keep_main_arg13 : StableHlo.after hostOps3_1 W (Proc.devRef .tc main_arg13) = W (Proc.devRef .tc main_arg13) := by
  after_results_simp

theorem g13_keep_main_arg14 : StableHlo.after hostOps3_1 W (Proc.devRef .tc main_arg14) = W (Proc.devRef .tc main_arg14) := by
  after_results_simp

theorem g13_keep_main_arg15 : StableHlo.after hostOps3_1 W (Proc.devRef .tc main_arg15) = W (Proc.devRef .tc main_arg15) := by
  after_results_simp

theorem g13_keep_main_arg16 : StableHlo.after hostOps3_1 W (Proc.devRef .tc main_arg16) = W (Proc.devRef .tc main_arg16) := by
  after_results_simp

theorem g13_keep_main_arg17 : StableHlo.after hostOps3_1 W (Proc.devRef .tc main_arg17) = W (Proc.devRef .tc main_arg17) := by
  after_results_simp

theorem g13_keep_main_arg18 : StableHlo.after hostOps3_1 W (Proc.devRef .tc main_arg18) = W (Proc.devRef .tc main_arg18) := by
  after_results_simp

theorem g13_keep_main_arg19 : StableHlo.after hostOps3_1 W (Proc.devRef .tc main_arg19) = W (Proc.devRef .tc main_arg19) := by
  after_results_simp

theorem g13_keep_main_arg20 : StableHlo.after hostOps3_1 W (Proc.devRef .tc main_arg20) = W (Proc.devRef .tc main_arg20) := by
  after_results_simp

theorem g13_keep_main_arg21 : StableHlo.after hostOps3_1 W (Proc.devRef .tc main_arg21) = W (Proc.devRef .tc main_arg21) := by
  after_results_simp

theorem g13_keep_main_arg22 : StableHlo.after hostOps3_1 W (Proc.devRef .tc main_arg22) = W (Proc.devRef .tc main_arg22) := by
  after_results_simp

theorem g13_keep_main_arg23 : StableHlo.after hostOps3_1 W (Proc.devRef .tc main_arg23) = W (Proc.devRef .tc main_arg23) := by
  after_results_simp

theorem g13_keep_main_arg24 : StableHlo.after hostOps3_1 W (Proc.devRef .tc main_arg24) = W (Proc.devRef .tc main_arg24) := by
  after_results_simp

theorem g13_keep_main_arg25 : StableHlo.after hostOps3_1 W (Proc.devRef .tc main_arg25) = W (Proc.devRef .tc main_arg25) := by
  after_results_simp

theorem g13_keep_main_arg26 : StableHlo.after hostOps3_1 W (Proc.devRef .tc main_arg26) = W (Proc.devRef .tc main_arg26) := by
  after_results_simp

theorem g13_keep_main_arg27 : StableHlo.after hostOps3_1 W (Proc.devRef .tc main_arg27) = W (Proc.devRef .tc main_arg27) := by
  after_results_simp

theorem g13_keep_main_arg28 : StableHlo.after hostOps3_1 W (Proc.devRef .tc main_arg28) = W (Proc.devRef .tc main_arg28) := by
  after_results_simp

end Cert.KernelIdeal.Chain

end
-- ==== Proof.ChainHost14.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps3_2 -/

theorem g14_main_v99 (h_main_v54 : W (Proc.devRef .tc main_v54) = val_main_v60 (F := Ideal) x0 x1 x5 x6 x7 x8 x9 x10) (h_main_v98 : W (Proc.devRef .tc main_v98) = val_main_v104 (F := Ideal) x0 x2 x5 x6 x7 x8 x11 x12) :
    StableHlo.after hostOps3_2 W (Proc.devRef .tc main_v99) = val_main_v105 (F := Ideal) x0 x1 x2 x5 x6 x7 x8 x9 x10 x11 x12 := by
  after_results_simp
  try simp only [cast_eq]
  rw [h_main_v54, h_main_v98]
  rfl

theorem g14_main_v100 (h_main_arg18 : W (Proc.devRef .tc main_arg18) = x18) :
    StableHlo.after hostOps3_2 W (Proc.devRef .tc main_v100) = shapeCast S1x256 x18 shapeCasts_S256_S1x256 := by
  after_results_simp
  try simp only [cast_eq]
  rw [h_main_arg18]
  rfl

theorem g14_main_v101 (h_main_arg20 : W (Proc.devRef .tc main_arg20) = x20) :
    StableHlo.after hostOps3_2 W (Proc.devRef .tc main_v101) = shapeCast S1x256 x20 shapeCasts_S256_S1x256 := by
  after_results_simp
  try simp only [cast_eq]
  rw [h_main_arg20]
  rfl

theorem g14_keep_main_v1 : StableHlo.after hostOps3_2 W (Proc.devRef .tc main_v1) = W (Proc.devRef .tc main_v1) := by
  after_results_simp

theorem g14_keep_main_v3 : StableHlo.after hostOps3_2 W (Proc.devRef .tc main_v3) = W (Proc.devRef .tc main_v3) := by
  after_results_simp

theorem g14_keep_main_v5 : StableHlo.after hostOps3_2 W (Proc.devRef .tc main_v5) = W (Proc.devRef .tc main_v5) := by
  after_results_simp

theorem g14_keep_main_v7 : StableHlo.after hostOps3_2 W (Proc.devRef .tc main_v7) = W (Proc.devRef .tc main_v7) := by
  after_results_simp

theorem g14_keep_main_arg3 : StableHlo.after hostOps3_2 W (Proc.devRef .tc main_arg3) = W (Proc.devRef .tc main_arg3) := by
  after_results_simp

theorem g14_keep_main_arg4 : StableHlo.after hostOps3_2 W (Proc.devRef .tc main_arg4) = W (Proc.devRef .tc main_arg4) := by
  after_results_simp

theorem g14_keep_main_arg13 : StableHlo.after hostOps3_2 W (Proc.devRef .tc main_arg13) = W (Proc.devRef .tc main_arg13) := by
  after_results_simp

theorem g14_keep_main_arg14 : StableHlo.after hostOps3_2 W (Proc.devRef .tc main_arg14) = W (Proc.devRef .tc main_arg14) := by
  after_results_simp

theorem g14_keep_main_arg15 : StableHlo.after hostOps3_2 W (Proc.devRef .tc main_arg15) = W (Proc.devRef .tc main_arg15) := by
  after_results_simp

theorem g14_keep_main_arg16 : StableHlo.after hostOps3_2 W (Proc.devRef .tc main_arg16) = W (Proc.devRef .tc main_arg16) := by
  after_results_simp

theorem g14_keep_main_arg17 : StableHlo.after hostOps3_2 W (Proc.devRef .tc main_arg17) = W (Proc.devRef .tc main_arg17) := by
  after_results_simp

theorem g14_keep_main_arg19 : StableHlo.after hostOps3_2 W (Proc.devRef .tc main_arg19) = W (Proc.devRef .tc main_arg19) := by
  after_results_simp

theorem g14_keep_main_arg21 : StableHlo.after hostOps3_2 W (Proc.devRef .tc main_arg21) = W (Proc.devRef .tc main_arg21) := by
  after_results_simp

theorem g14_keep_main_arg22 : StableHlo.after hostOps3_2 W (Proc.devRef .tc main_arg22) = W (Proc.devRef .tc main_arg22) := by
  after_results_simp

theorem g14_keep_main_arg23 : StableHlo.after hostOps3_2 W (Proc.devRef .tc main_arg23) = W (Proc.devRef .tc main_arg23) := by
  after_results_simp

theorem g14_keep_main_arg24 : StableHlo.after hostOps3_2 W (Proc.devRef .tc main_arg24) = W (Proc.devRef .tc main_arg24) := by
  after_results_simp

theorem g14_keep_main_arg25 : StableHlo.after hostOps3_2 W (Proc.devRef .tc main_arg25) = W (Proc.devRef .tc main_arg25) := by
  after_results_simp

theorem g14_keep_main_arg26 : StableHlo.after hostOps3_2 W (Proc.devRef .tc main_arg26) = W (Proc.devRef .tc main_arg26) := by
  after_results_simp

theorem g14_keep_main_arg27 : StableHlo.after hostOps3_2 W (Proc.devRef .tc main_arg27) = W (Proc.devRef .tc main_arg27) := by
  after_results_simp

theorem g14_keep_main_arg28 : StableHlo.after hostOps3_2 W (Proc.devRef .tc main_arg28) = W (Proc.devRef .tc main_arg28) := by
  after_results_simp

end Cert.KernelIdeal.Chain

end
-- ==== Proof.ChainHost16.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps4 -/

theorem g16_main_v104 (h_main_v1 : W (Proc.devRef .tc main_v1) = val_main_v1 (F := Ideal) x1) :
    StableHlo.after hostOps4 W (Proc.devRef .tc main_v104) = val_main_v116 (F := Ideal) x1 := by
  after_results_simp
  try simp only [cast_eq]
  rw [h_main_v1]
  rfl

theorem g16_main_v105 (h_main_v3 : W (Proc.devRef .tc main_v3) = val_main_v3 (F := Ideal) x1) :
    StableHlo.after hostOps4 W (Proc.devRef .tc main_v105) = val_main_v117 (F := Ideal) x1 := by
  after_results_simp
  try simp only [cast_eq]
  rw [h_main_v3]
  rfl

theorem g16_main_v111 (h_main_v3 : W (Proc.devRef .tc main_v3) = val_main_v3 (F := Ideal) x1) :
    StableHlo.after hostOps4 W (Proc.devRef .tc main_v111) = val_main_v123 (F := Ideal) x1 := by
  after_results_simp
  try simp only [cast_eq]
  rw [h_main_v3]
  rfl

theorem g16_main_v112 (h_main_v3 : W (Proc.devRef .tc main_v3) = val_main_v3 (F := Ideal) x1) :
    StableHlo.after hostOps4 W (Proc.devRef .tc main_v112) = val_main_v124 (F := Ideal) x1 := by
  after_results_simp
  try simp only [cast_eq]
  rw [h_main_v3]
  rfl

theorem g16_main_cst_23  :
    StableHlo.after hostOps4 W (Proc.devRef .tc main_cst_23) = val_main_cst_23 (F := Ideal) := by
  after_results_simp
  try simp only [cast_eq]
  rfl

theorem g16_keep_main_v5 : StableHlo.after hostOps4 W (Proc.devRef .tc main_v5) = W (Proc.devRef .tc main_v5) := by
  after_results_simp

theorem g16_keep_main_v7 : StableHlo.after hostOps4 W (Proc.devRef .tc main_v7) = W (Proc.devRef .tc main_v7) := by
  after_results_simp

theorem g16_keep_main_v102 : StableHlo.after hostOps4 W (Proc.devRef .tc main_v102) = W (Proc.devRef .tc main_v102) := by
  after_results_simp

theorem g16_keep_main_arg3 : StableHlo.after hostOps4 W (Proc.devRef .tc main_arg3) = W (Proc.devRef .tc main_arg3) := by
  after_results_simp

theorem g16_keep_main_arg4 : StableHlo.after hostOps4 W (Proc.devRef .tc main_arg4) = W (Proc.devRef .tc main_arg4) := by
  after_results_simp

theorem g16_keep_main_arg13 : StableHlo.after hostOps4 W (Proc.devRef .tc main_arg13) = W (Proc.devRef .tc main_arg13) := by
  after_results_simp

theorem g16_keep_main_arg14 : StableHlo.after hostOps4 W (Proc.devRef .tc main_arg14) = W (Proc.devRef .tc main_arg14) := by
  after_results_simp

theorem g16_keep_main_arg15 : StableHlo.after hostOps4 W (Proc.devRef .tc main_arg15) = W (Proc.devRef .tc main_arg15) := by
  after_results_simp

theorem g16_keep_main_arg16 : StableHlo.after hostOps4 W (Proc.devRef .tc main_arg16) = W (Proc.devRef .tc main_arg16) := by
  after_results_simp

theorem g16_keep_main_arg21 : StableHlo.after hostOps4 W (Proc.devRef .tc main_arg21) = W (Proc.devRef .tc main_arg21) := by
  after_results_simp

theorem g16_keep_main_arg22 : StableHlo.after hostOps4 W (Proc.devRef .tc main_arg22) = W (Proc.devRef .tc main_arg22) := by
  after_results_simp

theorem g16_keep_main_arg23 : StableHlo.after hostOps4 W (Proc.devRef .tc main_arg23) = W (Proc.devRef .tc main_arg23) := by
  after_results_simp

theorem g16_keep_main_arg24 : StableHlo.after hostOps4 W (Proc.devRef .tc main_arg24) = W (Proc.devRef .tc main_arg24) := by
  after_results_simp

theorem g16_keep_main_arg25 : StableHlo.after hostOps4 W (Proc.devRef .tc main_arg25) = W (Proc.devRef .tc main_arg25) := by
  after_results_simp

theorem g16_keep_main_arg26 : StableHlo.after hostOps4 W (Proc.devRef .tc main_arg26) = W (Proc.devRef .tc main_arg26) := by
  after_results_simp

theorem g16_keep_main_arg27 : StableHlo.after hostOps4 W (Proc.devRef .tc main_arg27) = W (Proc.devRef .tc main_arg27) := by
  after_results_simp

theorem g16_keep_main_arg28 : StableHlo.after hostOps4 W (Proc.devRef .tc main_arg28) = W (Proc.devRef .tc main_arg28) := by
  after_results_simp

end Cert.KernelIdeal.Chain

end
-- ==== Proof.ChainHost17.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps4_1 -/

theorem g17_main_v113 (h_main_v111 : W (Proc.devRef .tc main_v111) = val_main_v123 (F := Ideal) x1) (h_main_v112 : W (Proc.devRef .tc main_v112) = val_main_v124 (F := Ideal) x1) (h_main_cst_23 : W (Proc.devRef .tc main_cst_23) = val_main_cst_23 (F := Ideal)) :
    StableHlo.after hostOps4_1 W (Proc.devRef .tc main_v113) = val_main_v125 (F := Ideal) x1 := by
  after_results_simp
  try simp only [cast_eq]
  rw [h_main_v111, h_main_v112, h_main_cst_23]
  rfl

theorem g17_keep_main_v5 : StableHlo.after hostOps4_1 W (Proc.devRef .tc main_v5) = W (Proc.devRef .tc main_v5) := by
  after_results_simp

theorem g17_keep_main_v7 : StableHlo.after hostOps4_1 W (Proc.devRef .tc main_v7) = W (Proc.devRef .tc main_v7) := by
  after_results_simp

theorem g17_keep_main_v102 : StableHlo.after hostOps4_1 W (Proc.devRef .tc main_v102) = W (Proc.devRef .tc main_v102) := by
  after_results_simp

theorem g17_keep_main_v104 : StableHlo.after hostOps4_1 W (Proc.devRef .tc main_v104) = W (Proc.devRef .tc main_v104) := by
  after_results_simp

theorem g17_keep_main_v105 : StableHlo.after hostOps4_1 W (Proc.devRef .tc main_v105) = W (Proc.devRef .tc main_v105) := by
  after_results_simp

theorem g17_keep_main_arg3 : StableHlo.after hostOps4_1 W (Proc.devRef .tc main_arg3) = W (Proc.devRef .tc main_arg3) := by
  after_results_simp

theorem g17_keep_main_arg4 : StableHlo.after hostOps4_1 W (Proc.devRef .tc main_arg4) = W (Proc.devRef .tc main_arg4) := by
  after_results_simp

theorem g17_keep_main_arg13 : StableHlo.after hostOps4_1 W (Proc.devRef .tc main_arg13) = W (Proc.devRef .tc main_arg13) := by
  after_results_simp

theorem g17_keep_main_arg14 : StableHlo.after hostOps4_1 W (Proc.devRef .tc main_arg14) = W (Proc.devRef .tc main_arg14) := by
  after_results_simp

theorem g17_keep_main_arg15 : StableHlo.after hostOps4_1 W (Proc.devRef .tc main_arg15) = W (Proc.devRef .tc main_arg15) := by
  after_results_simp

theorem g17_keep_main_arg16 : StableHlo.after hostOps4_1 W (Proc.devRef .tc main_arg16) = W (Proc.devRef .tc main_arg16) := by
  after_results_simp

theorem g17_keep_main_arg21 : StableHlo.after hostOps4_1 W (Proc.devRef .tc main_arg21) = W (Proc.devRef .tc main_arg21) := by
  after_results_simp

theorem g17_keep_main_arg22 : StableHlo.after hostOps4_1 W (Proc.devRef .tc main_arg22) = W (Proc.devRef .tc main_arg22) := by
  after_results_simp

theorem g17_keep_main_arg23 : StableHlo.after hostOps4_1 W (Proc.devRef .tc main_arg23) = W (Proc.devRef .tc main_arg23) := by
  after_results_simp

theorem g17_keep_main_arg24 : StableHlo.after hostOps4_1 W (Proc.devRef .tc main_arg24) = W (Proc.devRef .tc main_arg24) := by
  after_results_simp

theorem g17_keep_main_arg25 : StableHlo.after hostOps4_1 W (Proc.devRef .tc main_arg25) = W (Proc.devRef .tc main_arg25) := by
  after_results_simp

theorem g17_keep_main_arg26 : StableHlo.after hostOps4_1 W (Proc.devRef .tc main_arg26) = W (Proc.devRef .tc main_arg26) := by
  after_results_simp

theorem g17_keep_main_arg27 : StableHlo.after hostOps4_1 W (Proc.devRef .tc main_arg27) = W (Proc.devRef .tc main_arg27) := by
  after_results_simp

theorem g17_keep_main_arg28 : StableHlo.after hostOps4_1 W (Proc.devRef .tc main_arg28) = W (Proc.devRef .tc main_arg28) := by
  after_results_simp

end Cert.KernelIdeal.Chain

end
-- ==== Proof.ChainHost18.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps4_2 -/

theorem g18_main_v128 (h_main_v113 : W (Proc.devRef .tc main_v113) = val_main_v125 (F := Ideal) x1) (h_main_v104 : W (Proc.devRef .tc main_v104) = val_main_v116 (F := Ideal) x1) (h_main_v105 : W (Proc.devRef .tc main_v105) = val_main_v117 (F := Ideal) x1) :
    StableHlo.after hostOps4_2 W (Proc.devRef .tc main_v128) = val_main_v140 (F := Ideal) x1 := by
  after_results_simp
  try simp only [cast_eq]
  rw [h_main_v113, h_main_v104, h_main_v105]
  rfl

theorem g18_keep_main_v5 : StableHlo.after hostOps4_2 W (Proc.devRef .tc main_v5) = W (Proc.devRef .tc main_v5) := by
  after_results_simp

theorem g18_keep_main_v7 : StableHlo.after hostOps4_2 W (Proc.devRef .tc main_v7) = W (Proc.devRef .tc main_v7) := by
  after_results_simp

theorem g18_keep_main_v102 : StableHlo.after hostOps4_2 W (Proc.devRef .tc main_v102) = W (Proc.devRef .tc main_v102) := by
  after_results_simp

theorem g18_keep_main_v104 : StableHlo.after hostOps4_2 W (Proc.devRef .tc main_v104) = W (Proc.devRef .tc main_v104) := by
  after_results_simp

theorem g18_keep_main_v105 : StableHlo.after hostOps4_2 W (Proc.devRef .tc main_v105) = W (Proc.devRef .tc main_v105) := by
  after_results_simp

theorem g18_keep_main_arg3 : StableHlo.after hostOps4_2 W (Proc.devRef .tc main_arg3) = W (Proc.devRef .tc main_arg3) := by
  after_results_simp

theorem g18_keep_main_arg4 : StableHlo.after hostOps4_2 W (Proc.devRef .tc main_arg4) = W (Proc.devRef .tc main_arg4) := by
  after_results_simp

theorem g18_keep_main_arg13 : StableHlo.after hostOps4_2 W (Proc.devRef .tc main_arg13) = W (Proc.devRef .tc main_arg13) := by
  after_results_simp

theorem g18_keep_main_arg14 : StableHlo.after hostOps4_2 W (Proc.devRef .tc main_arg14) = W (Proc.devRef .tc main_arg14) := by
  after_results_simp

theorem g18_keep_main_arg15 : StableHlo.after hostOps4_2 W (Proc.devRef .tc main_arg15) = W (Proc.devRef .tc main_arg15) := by
  after_results_simp

theorem g18_keep_main_arg16 : StableHlo.after hostOps4_2 W (Proc.devRef .tc main_arg16) = W (Proc.devRef .tc main_arg16) := by
  after_results_simp

theorem g18_keep_main_arg21 : StableHlo.after hostOps4_2 W (Proc.devRef .tc main_arg21) = W (Proc.devRef .tc main_arg21) := by
  after_results_simp

theorem g18_keep_main_arg22 : StableHlo.after hostOps4_2 W (Proc.devRef .tc main_arg22) = W (Proc.devRef .tc main_arg22) := by
  after_results_simp

theorem g18_keep_main_arg23 : StableHlo.after hostOps4_2 W (Proc.devRef .tc main_arg23) = W (Proc.devRef .tc main_arg23) := by
  after_results_simp

theorem g18_keep_main_arg24 : StableHlo.after hostOps4_2 W (Proc.devRef .tc main_arg24) = W (Proc.devRef .tc main_arg24) := by
  after_results_simp

theorem g18_keep_main_arg25 : StableHlo.after hostOps4_2 W (Proc.devRef .tc main_arg25) = W (Proc.devRef .tc main_arg25) := by
  after_results_simp

theorem g18_keep_main_arg26 : StableHlo.after hostOps4_2 W (Proc.devRef .tc main_arg26) = W (Proc.devRef .tc main_arg26) := by
  after_results_simp

theorem g18_keep_main_arg27 : StableHlo.after hostOps4_2 W (Proc.devRef .tc main_arg27) = W (Proc.devRef .tc main_arg27) := by
  after_results_simp

theorem g18_keep_main_arg28 : StableHlo.after hostOps4_2 W (Proc.devRef .tc main_arg28) = W (Proc.devRef .tc main_arg28) := by
  after_results_simp

end Cert.KernelIdeal.Chain

end
-- ==== Proof.ChainHost20.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps5 -/

theorem g20_main_v145 (h_main_v105 : W (Proc.devRef .tc main_v105) = val_main_v117 (F := Ideal) x1) (h_main_v129 : W (Proc.devRef .tc main_v129) = val_main_v141 (F := Ideal) x0 x1 x2 x5 x6 x7 x8 x9 x10 x11 x12 x13 x17 x18 x19 x20) (h_main_v104 : W (Proc.devRef .tc main_v104) = val_main_v116 (F := Ideal) x1) (h_main_v128 : W (Proc.devRef .tc main_v128) = val_main_v140 (F := Ideal) x1) (h_main_arg14 : W (Proc.devRef .tc main_arg14) = x14) :
    StableHlo.after hostOps5 W (Proc.devRef .tc main_v145) = val_main_v157 (F := Ideal) x0 x1 x2 x5 x6 x7 x8 x9 x10 x11 x12 x13 x14 x17 x18 x19 x20 := by
  after_results_simp
  try simp only [cast_eq]
  rw [h_main_v105, h_main_v129, h_main_v104, h_main_v128, h_main_arg14]
  rfl

theorem g20_keep_main_v5 : StableHlo.after hostOps5 W (Proc.devRef .tc main_v5) = W (Proc.devRef .tc main_v5) := by
  after_results_simp

theorem g20_keep_main_v7 : StableHlo.after hostOps5 W (Proc.devRef .tc main_v7) = W (Proc.devRef .tc main_v7) := by
  after_results_simp

theorem g20_keep_main_v102 : StableHlo.after hostOps5 W (Proc.devRef .tc main_v102) = W (Proc.devRef .tc main_v102) := by
  after_results_simp

theorem g20_keep_main_arg3 : StableHlo.after hostOps5 W (Proc.devRef .tc main_arg3) = W (Proc.devRef .tc main_arg3) := by
  after_results_simp

theorem g20_keep_main_arg4 : StableHlo.after hostOps5 W (Proc.devRef .tc main_arg4) = W (Proc.devRef .tc main_arg4) := by
  after_results_simp

theorem g20_keep_main_arg15 : StableHlo.after hostOps5 W (Proc.devRef .tc main_arg15) = W (Proc.devRef .tc main_arg15) := by
  after_results_simp

theorem g20_keep_main_arg16 : StableHlo.after hostOps5 W (Proc.devRef .tc main_arg16) = W (Proc.devRef .tc main_arg16) := by
  after_results_simp

theorem g20_keep_main_arg21 : StableHlo.after hostOps5 W (Proc.devRef .tc main_arg21) = W (Proc.devRef .tc main_arg21) := by
  after_results_simp

theorem g20_keep_main_arg22 : StableHlo.after hostOps5 W (Proc.devRef .tc main_arg22) = W (Proc.devRef .tc main_arg22) := by
  after_results_simp

theorem g20_keep_main_arg23 : StableHlo.after hostOps5 W (Proc.devRef .tc main_arg23) = W (Proc.devRef .tc main_arg23) := by
  after_results_simp

theorem g20_keep_main_arg24 : StableHlo.after hostOps5 W (Proc.devRef .tc main_arg24) = W (Proc.devRef .tc main_arg24) := by
  after_results_simp

theorem g20_keep_main_arg25 : StableHlo.after hostOps5 W (Proc.devRef .tc main_arg25) = W (Proc.devRef .tc main_arg25) := by
  after_results_simp

theorem g20_keep_main_arg26 : StableHlo.after hostOps5 W (Proc.devRef .tc main_arg26) = W (Proc.devRef .tc main_arg26) := by
  after_results_simp

theorem g20_keep_main_arg27 : StableHlo.after hostOps5 W (Proc.devRef .tc main_arg27) = W (Proc.devRef .tc main_arg27) := by
  after_results_simp

theorem g20_keep_main_arg28 : StableHlo.after hostOps5 W (Proc.devRef .tc main_arg28) = W (Proc.devRef .tc main_arg28) := by
  after_results_simp

end Cert.KernelIdeal.Chain

end
-- ==== Proof.ChainHost21.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps5_1 -/

theorem g21_main_v146 (h_main_v145 : W (Proc.devRef .tc main_v145) = val_main_v157 (F := Ideal) x0 x1 x2 x5 x6 x7 x8 x9 x10 x11 x12 x13 x14 x17 x18 x19 x20) :
    StableHlo.after hostOps5_1 W (Proc.devRef .tc main_v146) = val_main_v158 (F := Ideal) x0 x1 x2 x5 x6 x7 x8 x9 x10 x11 x12 x13 x14 x17 x18 x19 x20 := by
  after_results_simp
  try simp only [cast_eq]
  rw [h_main_v145]
  rfl

theorem g21_keep_main_v5 : StableHlo.after hostOps5_1 W (Proc.devRef .tc main_v5) = W (Proc.devRef .tc main_v5) := by
  after_results_simp

theorem g21_keep_main_v7 : StableHlo.after hostOps5_1 W (Proc.devRef .tc main_v7) = W (Proc.devRef .tc main_v7) := by
  after_results_simp

theorem g21_keep_main_v102 : StableHlo.after hostOps5_1 W (Proc.devRef .tc main_v102) = W (Proc.devRef .tc main_v102) := by
  after_results_simp

theorem g21_keep_main_arg3 : StableHlo.after hostOps5_1 W (Proc.devRef .tc main_arg3) = W (Proc.devRef .tc main_arg3) := by
  after_results_simp

theorem g21_keep_main_arg4 : StableHlo.after hostOps5_1 W (Proc.devRef .tc main_arg4) = W (Proc.devRef .tc main_arg4) := by
  after_results_simp

theorem g21_keep_main_arg15 : StableHlo.after hostOps5_1 W (Proc.devRef .tc main_arg15) = W (Proc.devRef .tc main_arg15) := by
  after_results_simp

theorem g21_keep_main_arg16 : StableHlo.after hostOps5_1 W (Proc.devRef .tc main_arg16) = W (Proc.devRef .tc main_arg16) := by
  after_results_simp

theorem g21_keep_main_arg21 : StableHlo.after hostOps5_1 W (Proc.devRef .tc main_arg21) = W (Proc.devRef .tc main_arg21) := by
  after_results_simp

theorem g21_keep_main_arg22 : StableHlo.after hostOps5_1 W (Proc.devRef .tc main_arg22) = W (Proc.devRef .tc main_arg22) := by
  after_results_simp

theorem g21_keep_main_arg23 : StableHlo.after hostOps5_1 W (Proc.devRef .tc main_arg23) = W (Proc.devRef .tc main_arg23) := by
  after_results_simp

theorem g21_keep_main_arg24 : StableHlo.after hostOps5_1 W (Proc.devRef .tc main_arg24) = W (Proc.devRef .tc main_arg24) := by
  after_results_simp

theorem g21_keep_main_arg25 : StableHlo.after hostOps5_1 W (Proc.devRef .tc main_arg25) = W (Proc.devRef .tc main_arg25) := by
  after_results_simp

theorem g21_keep_main_arg26 : StableHlo.after hostOps5_1 W (Proc.devRef .tc main_arg26) = W (Proc.devRef .tc main_arg26) := by
  after_results_simp

theorem g21_keep_main_arg27 : StableHlo.after hostOps5_1 W (Proc.devRef .tc main_arg27) = W (Proc.devRef .tc main_arg27) := by
  after_results_simp

theorem g21_keep_main_arg28 : StableHlo.after hostOps5_1 W (Proc.devRef .tc main_arg28) = W (Proc.devRef .tc main_arg28) := by
  after_results_simp

end Cert.KernelIdeal.Chain

end
-- ==== Proof.ChainHost22.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps5_2 -/

theorem g22_main_v148 (h_main_v5 : W (Proc.devRef .tc main_v5) = val_main_v5 (F := Ideal) x2) :
    StableHlo.after hostOps5_2 W (Proc.devRef .tc main_v148) = val_main_v160 (F := Ideal) x2 := by
  after_results_simp
  try simp only [cast_eq]
  rw [h_main_v5]
  rfl

theorem g22_main_v149 (h_main_v7 : W (Proc.devRef .tc main_v7) = val_main_v7 (F := Ideal) x2) :
    StableHlo.after hostOps5_2 W (Proc.devRef .tc main_v149) = val_main_v161 (F := Ideal) x2 := by
  after_results_simp
  try simp only [cast_eq]
  rw [h_main_v7]
  rfl

theorem g22_main_v155 (h_main_v7 : W (Proc.devRef .tc main_v7) = val_main_v7 (F := Ideal) x2) :
    StableHlo.after hostOps5_2 W (Proc.devRef .tc main_v155) = val_main_v167 (F := Ideal) x2 := by
  after_results_simp
  try simp only [cast_eq]
  rw [h_main_v7]
  rfl

theorem g22_main_v156 (h_main_v7 : W (Proc.devRef .tc main_v7) = val_main_v7 (F := Ideal) x2) :
    StableHlo.after hostOps5_2 W (Proc.devRef .tc main_v156) = val_main_v168 (F := Ideal) x2 := by
  after_results_simp
  try simp only [cast_eq]
  rw [h_main_v7]
  rfl

theorem g22_main_cst_34  :
    StableHlo.after hostOps5_2 W (Proc.devRef .tc main_cst_34) = val_main_cst_34 (F := Ideal) := by
  after_results_simp
  try simp only [cast_eq]
  rfl

theorem g22_keep_main_v102 : StableHlo.after hostOps5_2 W (Proc.devRef .tc main_v102) = W (Proc.devRef .tc main_v102) := by
  after_results_simp

theorem g22_keep_main_v146 : StableHlo.after hostOps5_2 W (Proc.devRef .tc main_v146) = W (Proc.devRef .tc main_v146) := by
  after_results_simp

theorem g22_keep_main_arg3 : StableHlo.after hostOps5_2 W (Proc.devRef .tc main_arg3) = W (Proc.devRef .tc main_arg3) := by
  after_results_simp

theorem g22_keep_main_arg4 : StableHlo.after hostOps5_2 W (Proc.devRef .tc main_arg4) = W (Proc.devRef .tc main_arg4) := by
  after_results_simp

theorem g22_keep_main_arg15 : StableHlo.after hostOps5_2 W (Proc.devRef .tc main_arg15) = W (Proc.devRef .tc main_arg15) := by
  after_results_simp

theorem g22_keep_main_arg16 : StableHlo.after hostOps5_2 W (Proc.devRef .tc main_arg16) = W (Proc.devRef .tc main_arg16) := by
  after_results_simp

theorem g22_keep_main_arg21 : StableHlo.after hostOps5_2 W (Proc.devRef .tc main_arg21) = W (Proc.devRef .tc main_arg21) := by
  after_results_simp

theorem g22_keep_main_arg22 : StableHlo.after hostOps5_2 W (Proc.devRef .tc main_arg22) = W (Proc.devRef .tc main_arg22) := by
  after_results_simp

theorem g22_keep_main_arg23 : StableHlo.after hostOps5_2 W (Proc.devRef .tc main_arg23) = W (Proc.devRef .tc main_arg23) := by
  after_results_simp

theorem g22_keep_main_arg24 : StableHlo.after hostOps5_2 W (Proc.devRef .tc main_arg24) = W (Proc.devRef .tc main_arg24) := by
  after_results_simp

theorem g22_keep_main_arg25 : StableHlo.after hostOps5_2 W (Proc.devRef .tc main_arg25) = W (Proc.devRef .tc main_arg25) := by
  after_results_simp

theorem g22_keep_main_arg26 : StableHlo.after hostOps5_2 W (Proc.devRef .tc main_arg26) = W (Proc.devRef .tc main_arg26) := by
  after_results_simp

theorem g22_keep_main_arg27 : StableHlo.after hostOps5_2 W (Proc.devRef .tc main_arg27) = W (Proc.devRef .tc main_arg27) := by
  after_results_simp

theorem g22_keep_main_arg28 : StableHlo.after hostOps5_2 W (Proc.devRef .tc main_arg28) = W (Proc.devRef .tc main_arg28) := by
  after_results_simp

end Cert.KernelIdeal.Chain

end
-- ==== Proof.ChainHost23.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps5_3 -/

theorem g23_main_v157 (h_main_v155 : W (Proc.devRef .tc main_v155) = val_main_v167 (F := Ideal) x2) (h_main_v156 : W (Proc.devRef .tc main_v156) = val_main_v168 (F := Ideal) x2) (h_main_cst_34 : W (Proc.devRef .tc main_cst_34) = val_main_cst_34 (F := Ideal)) :
    StableHlo.after hostOps5_3 W (Proc.devRef .tc main_v157) = val_main_v169 (F := Ideal) x2 := by
  after_results_simp
  try simp only [cast_eq]
  rw [h_main_v155, h_main_v156, h_main_cst_34]
  rfl

theorem g23_keep_main_v102 : StableHlo.after hostOps5_3 W (Proc.devRef .tc main_v102) = W (Proc.devRef .tc main_v102) := by
  after_results_simp

theorem g23_keep_main_v146 : StableHlo.after hostOps5_3 W (Proc.devRef .tc main_v146) = W (Proc.devRef .tc main_v146) := by
  after_results_simp

theorem g23_keep_main_v148 : StableHlo.after hostOps5_3 W (Proc.devRef .tc main_v148) = W (Proc.devRef .tc main_v148) := by
  after_results_simp

theorem g23_keep_main_v149 : StableHlo.after hostOps5_3 W (Proc.devRef .tc main_v149) = W (Proc.devRef .tc main_v149) := by
  after_results_simp

theorem g23_keep_main_arg3 : StableHlo.after hostOps5_3 W (Proc.devRef .tc main_arg3) = W (Proc.devRef .tc main_arg3) := by
  after_results_simp

theorem g23_keep_main_arg4 : StableHlo.after hostOps5_3 W (Proc.devRef .tc main_arg4) = W (Proc.devRef .tc main_arg4) := by
  after_results_simp

theorem g23_keep_main_arg15 : StableHlo.after hostOps5_3 W (Proc.devRef .tc main_arg15) = W (Proc.devRef .tc main_arg15) := by
  after_results_simp

theorem g23_keep_main_arg16 : StableHlo.after hostOps5_3 W (Proc.devRef .tc main_arg16) = W (Proc.devRef .tc main_arg16) := by
  after_results_simp

theorem g23_keep_main_arg21 : StableHlo.after hostOps5_3 W (Proc.devRef .tc main_arg21) = W (Proc.devRef .tc main_arg21) := by
  after_results_simp

theorem g23_keep_main_arg22 : StableHlo.after hostOps5_3 W (Proc.devRef .tc main_arg22) = W (Proc.devRef .tc main_arg22) := by
  after_results_simp

theorem g23_keep_main_arg23 : StableHlo.after hostOps5_3 W (Proc.devRef .tc main_arg23) = W (Proc.devRef .tc main_arg23) := by
  after_results_simp

theorem g23_keep_main_arg24 : StableHlo.after hostOps5_3 W (Proc.devRef .tc main_arg24) = W (Proc.devRef .tc main_arg24) := by
  after_results_simp

theorem g23_keep_main_arg25 : StableHlo.after hostOps5_3 W (Proc.devRef .tc main_arg25) = W (Proc.devRef .tc main_arg25) := by
  after_results_simp

theorem g23_keep_main_arg26 : StableHlo.after hostOps5_3 W (Proc.devRef .tc main_arg26) = W (Proc.devRef .tc main_arg26) := by
  after_results_simp

theorem g23_keep_main_arg27 : StableHlo.after hostOps5_3 W (Proc.devRef .tc main_arg27) = W (Proc.devRef .tc main_arg27) := by
  after_results_simp

theorem g23_keep_main_arg28 : StableHlo.after hostOps5_3 W (Proc.devRef .tc main_arg28) = W (Proc.devRef .tc main_arg28) := by
  after_results_simp

end Cert.KernelIdeal.Chain

end
-- ==== Proof.ChainHost24.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps5_4 -/

theorem g24_main_v172 (h_main_v157 : W (Proc.devRef .tc main_v157) = val_main_v169 (F := Ideal) x2) (h_main_v148 : W (Proc.devRef .tc main_v148) = val_main_v160 (F := Ideal) x2) (h_main_v149 : W (Proc.devRef .tc main_v149) = val_main_v161 (F := Ideal) x2) :
    StableHlo.after hostOps5_4 W (Proc.devRef .tc main_v172) = val_main_v184 (F := Ideal) x2 := by
  after_results_simp
  try simp only [cast_eq]
  rw [h_main_v157, h_main_v148, h_main_v149]
  rfl

theorem g24_keep_main_v102 : StableHlo.after hostOps5_4 W (Proc.devRef .tc main_v102) = W (Proc.devRef .tc main_v102) := by
  after_results_simp

theorem g24_keep_main_v146 : StableHlo.after hostOps5_4 W (Proc.devRef .tc main_v146) = W (Proc.devRef .tc main_v146) := by
  after_results_simp

theorem g24_keep_main_v148 : StableHlo.after hostOps5_4 W (Proc.devRef .tc main_v148) = W (Proc.devRef .tc main_v148) := by
  after_results_simp

theorem g24_keep_main_v149 : StableHlo.after hostOps5_4 W (Proc.devRef .tc main_v149) = W (Proc.devRef .tc main_v149) := by
  after_results_simp

theorem g24_keep_main_arg3 : StableHlo.after hostOps5_4 W (Proc.devRef .tc main_arg3) = W (Proc.devRef .tc main_arg3) := by
  after_results_simp

theorem g24_keep_main_arg4 : StableHlo.after hostOps5_4 W (Proc.devRef .tc main_arg4) = W (Proc.devRef .tc main_arg4) := by
  after_results_simp

theorem g24_keep_main_arg15 : StableHlo.after hostOps5_4 W (Proc.devRef .tc main_arg15) = W (Proc.devRef .tc main_arg15) := by
  after_results_simp

theorem g24_keep_main_arg16 : StableHlo.after hostOps5_4 W (Proc.devRef .tc main_arg16) = W (Proc.devRef .tc main_arg16) := by
  after_results_simp

theorem g24_keep_main_arg21 : StableHlo.after hostOps5_4 W (Proc.devRef .tc main_arg21) = W (Proc.devRef .tc main_arg21) := by
  after_results_simp

theorem g24_keep_main_arg22 : StableHlo.after hostOps5_4 W (Proc.devRef .tc main_arg22) = W (Proc.devRef .tc main_arg22) := by
  after_results_simp

theorem g24_keep_main_arg23 : StableHlo.after hostOps5_4 W (Proc.devRef .tc main_arg23) = W (Proc.devRef .tc main_arg23) := by
  after_results_simp

theorem g24_keep_main_arg24 : StableHlo.after hostOps5_4 W (Proc.devRef .tc main_arg24) = W (Proc.devRef .tc main_arg24) := by
  after_results_simp

theorem g24_keep_main_arg25 : StableHlo.after hostOps5_4 W (Proc.devRef .tc main_arg25) = W (Proc.devRef .tc main_arg25) := by
  after_results_simp

theorem g24_keep_main_arg26 : StableHlo.after hostOps5_4 W (Proc.devRef .tc main_arg26) = W (Proc.devRef .tc main_arg26) := by
  after_results_simp

theorem g24_keep_main_arg27 : StableHlo.after hostOps5_4 W (Proc.devRef .tc main_arg27) = W (Proc.devRef .tc main_arg27) := by
  after_results_simp

theorem g24_keep_main_arg28 : StableHlo.after hostOps5_4 W (Proc.devRef .tc main_arg28) = W (Proc.devRef .tc main_arg28) := by
  after_results_simp

end Cert.KernelIdeal.Chain

end
-- ==== Proof.ChainHost26.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps6 -/

theorem g26_main_v189 (h_main_v149 : W (Proc.devRef .tc main_v149) = val_main_v161 (F := Ideal) x2) (h_main_v173 : W (Proc.devRef .tc main_v173) = val_main_v185 (F := Ideal) x0 x1 x2 x5 x6 x7 x8 x9 x10 x11 x12 x15 x17 x18 x19 x20) (h_main_v148 : W (Proc.devRef .tc main_v148) = val_main_v160 (F := Ideal) x2) (h_main_v172 : W (Proc.devRef .tc main_v172) = val_main_v184 (F := Ideal) x2) (h_main_arg16 : W (Proc.devRef .tc main_arg16) = x16) :
    StableHlo.after hostOps6 W (Proc.devRef .tc main_v189) = val_main_v201 (F := Ideal) x0 x1 x2 x5 x6 x7 x8 x9 x10 x11 x12 x15 x16 x17 x18 x19 x20 := by
  after_results_simp
  try simp only [cast_eq]
  rw [h_main_v149, h_main_v173, h_main_v148, h_main_v172, h_main_arg16]
  rfl

theorem g26_keep_main_v146 : StableHlo.after hostOps6 W (Proc.devRef .tc main_v146) = W (Proc.devRef .tc main_v146) := by
  after_results_simp

theorem g26_keep_main_arg3 : StableHlo.after hostOps6 W (Proc.devRef .tc main_arg3) = W (Proc.devRef .tc main_arg3) := by
  after_results_simp

theorem g26_keep_main_arg4 : StableHlo.after hostOps6 W (Proc.devRef .tc main_arg4) = W (Proc.devRef .tc main_arg4) := by
  after_results_simp

theorem g26_keep_main_arg21 : StableHlo.after hostOps6 W (Proc.devRef .tc main_arg21) = W (Proc.devRef .tc main_arg21) := by
  after_results_simp

theorem g26_keep_main_arg22 : StableHlo.after hostOps6 W (Proc.devRef .tc main_arg22) = W (Proc.devRef .tc main_arg22) := by
  after_results_simp

theorem g26_keep_main_arg23 : StableHlo.after hostOps6 W (Proc.devRef .tc main_arg23) = W (Proc.devRef .tc main_arg23) := by
  after_results_simp

theorem g26_keep_main_arg24 : StableHlo.after hostOps6 W (Proc.devRef .tc main_arg24) = W (Proc.devRef .tc main_arg24) := by
  after_results_simp

theorem g26_keep_main_arg25 : StableHlo.after hostOps6 W (Proc.devRef .tc main_arg25) = W (Proc.devRef .tc main_arg25) := by
  after_results_simp

theorem g26_keep_main_arg26 : StableHlo.after hostOps6 W (Proc.devRef .tc main_arg26) = W (Proc.devRef .tc main_arg26) := by
  after_results_simp

theorem g26_keep_main_arg27 : StableHlo.after hostOps6 W (Proc.devRef .tc main_arg27) = W (Proc.devRef .tc main_arg27) := by
  after_results_simp

theorem g26_keep_main_arg28 : StableHlo.after hostOps6 W (Proc.devRef .tc main_arg28) = W (Proc.devRef .tc main_arg28) := by
  after_results_simp

end Cert.KernelIdeal.Chain

end
-- ==== Proof.ChainHost27.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps6_1 -/

theorem g27_main_v190 (h_main_v189 : W (Proc.devRef .tc main_v189) = val_main_v201 (F := Ideal) x0 x1 x2 x5 x6 x7 x8 x9 x10 x11 x12 x15 x16 x17 x18 x19 x20) :
    StableHlo.after hostOps6_1 W (Proc.devRef .tc main_v190) = val_main_v202 (F := Ideal) x0 x1 x2 x5 x6 x7 x8 x9 x10 x11 x12 x15 x16 x17 x18 x19 x20 := by
  after_results_simp
  try simp only [cast_eq]
  rw [h_main_v189]
  rfl

theorem g27_keep_main_v146 : StableHlo.after hostOps6_1 W (Proc.devRef .tc main_v146) = W (Proc.devRef .tc main_v146) := by
  after_results_simp

theorem g27_keep_main_arg3 : StableHlo.after hostOps6_1 W (Proc.devRef .tc main_arg3) = W (Proc.devRef .tc main_arg3) := by
  after_results_simp

theorem g27_keep_main_arg4 : StableHlo.after hostOps6_1 W (Proc.devRef .tc main_arg4) = W (Proc.devRef .tc main_arg4) := by
  after_results_simp

theorem g27_keep_main_arg21 : StableHlo.after hostOps6_1 W (Proc.devRef .tc main_arg21) = W (Proc.devRef .tc main_arg21) := by
  after_results_simp

theorem g27_keep_main_arg22 : StableHlo.after hostOps6_1 W (Proc.devRef .tc main_arg22) = W (Proc.devRef .tc main_arg22) := by
  after_results_simp

theorem g27_keep_main_arg23 : StableHlo.after hostOps6_1 W (Proc.devRef .tc main_arg23) = W (Proc.devRef .tc main_arg23) := by
  after_results_simp

theorem g27_keep_main_arg24 : StableHlo.after hostOps6_1 W (Proc.devRef .tc main_arg24) = W (Proc.devRef .tc main_arg24) := by
  after_results_simp

theorem g27_keep_main_arg25 : StableHlo.after hostOps6_1 W (Proc.devRef .tc main_arg25) = W (Proc.devRef .tc main_arg25) := by
  after_results_simp

theorem g27_keep_main_arg26 : StableHlo.after hostOps6_1 W (Proc.devRef .tc main_arg26) = W (Proc.devRef .tc main_arg26) := by
  after_results_simp

theorem g27_keep_main_arg27 : StableHlo.after hostOps6_1 W (Proc.devRef .tc main_arg27) = W (Proc.devRef .tc main_arg27) := by
  after_results_simp

theorem g27_keep_main_arg28 : StableHlo.after hostOps6_1 W (Proc.devRef .tc main_arg28) = W (Proc.devRef .tc main_arg28) := by
  after_results_simp

end Cert.KernelIdeal.Chain

end
-- ==== Proof.ChainHost28.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps6_2 -/

theorem g28_main_v191 (h_main_v146 : W (Proc.devRef .tc main_v146) = val_main_v158 (F := Ideal) x0 x1 x2 x5 x6 x7 x8 x9 x10 x11 x12 x13 x14 x17 x18 x19 x20) (h_main_v190 : W (Proc.devRef .tc main_v190) = val_main_v202 (F := Ideal) x0 x1 x2 x5 x6 x7 x8 x9 x10 x11 x12 x15 x16 x17 x18 x19 x20) :
    StableHlo.after hostOps6_2 W (Proc.devRef .tc main_v191) = val_main_v203 (F := Ideal) x0 x1 x2 x5 x6 x7 x8 x9 x10 x11 x12 x13 x14 x15 x16 x17 x18 x19 x20 := by
  after_results_simp
  try simp only [cast_eq]
  rw [h_main_v146, h_main_v190]
  rfl

theorem g28_main_v192 (h_main_arg22 : W (Proc.devRef .tc main_arg22) = x22) :
    StableHlo.after hostOps6_2 W (Proc.devRef .tc main_v192) = shapeCast S1x256 x22 shapeCasts_S256_S1x256 := by
  after_results_simp
  try simp only [cast_eq]
  rw [h_main_arg22]
  rfl

theorem g28_main_v193 (h_main_arg24 : W (Proc.devRef .tc main_arg24) = x24) :
    StableHlo.after hostOps6_2 W (Proc.devRef .tc main_v193) = shapeCast S1x256 x24 shapeCasts_S256_S1x256 := by
  after_results_simp
  try simp only [cast_eq]
  rw [h_main_arg24]
  rfl

theorem g28_keep_main_arg3 : StableHlo.after hostOps6_2 W (Proc.devRef .tc main_arg3) = W (Proc.devRef .tc main_arg3) := by
  after_results_simp

theorem g28_keep_main_arg4 : StableHlo.after hostOps6_2 W (Proc.devRef .tc main_arg4) = W (Proc.devRef .tc main_arg4) := by
  after_results_simp

theorem g28_keep_main_arg21 : StableHlo.after hostOps6_2 W (Proc.devRef .tc main_arg21) = W (Proc.devRef .tc main_arg21) := by
  after_results_simp

theorem g28_keep_main_arg23 : StableHlo.after hostOps6_2 W (Proc.devRef .tc main_arg23) = W (Proc.devRef .tc main_arg23) := by
  after_results_simp

theorem g28_keep_main_arg25 : StableHlo.after hostOps6_2 W (Proc.devRef .tc main_arg25) = W (Proc.devRef .tc main_arg25) := by
  after_results_simp

theorem g28_keep_main_arg26 : StableHlo.after hostOps6_2 W (Proc.devRef .tc main_arg26) = W (Proc.devRef .tc main_arg26) := by
  after_results_simp

theorem g28_keep_main_arg27 : StableHlo.after hostOps6_2 W (Proc.devRef .tc main_arg27) = W (Proc.devRef .tc main_arg27) := by
  after_results_simp

theorem g28_keep_main_arg28 : StableHlo.after hostOps6_2 W (Proc.devRef .tc main_arg28) = W (Proc.devRef .tc main_arg28) := by
  after_results_simp

end Cert.KernelIdeal.Chain

end
-- ==== Proof.ChainHost30.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps7 -/

theorem g30_main_v219 (h_main_arg3 : W (Proc.devRef .tc main_arg3) = x3) (h_main_v194 : W (Proc.devRef .tc main_v194) = val_main_v212 (F := Ideal) x0 x1 x2 x5 x6 x7 x8 x9 x10 x11 x12 x13 x14 x15 x16 x17 x18 x19 x20 x21 x22 x23 x24) (h_main_arg4 : W (Proc.devRef .tc main_arg4) = x4) :
    StableHlo.after hostOps7 W (Proc.devRef .tc main_v219) = val_main_v237 (F := Ideal) x0 x1 x2 x3 x4 x5 x6 x7 x8 x9 x10 x11 x12 x13 x14 x15 x16 x17 x18 x19 x20 x21 x22 x23 x24 := by
  after_results_simp
  try simp only [cast_eq]
  rw [h_main_arg3, h_main_v194, h_main_arg4]
  rfl

theorem g30_main_v220 (h_main_arg26 : W (Proc.devRef .tc main_arg26) = x26) :
    StableHlo.after hostOps7 W (Proc.devRef .tc main_v220) = shapeCast S1x256 x26 shapeCasts_S256_S1x256 := by
  after_results_simp
  try simp only [cast_eq]
  rw [h_main_arg26]
  rfl

theorem g30_main_v221 (h_main_arg28 : W (Proc.devRef .tc main_arg28) = x28) :
    StableHlo.after hostOps7 W (Proc.devRef .tc main_v221) = shapeCast S1x5 x28 shapeCasts_S5_S1x5 := by
  after_results_simp
  try simp only [cast_eq]
  rw [h_main_arg28]
  rfl

theorem g30_keep_main_arg25 : StableHlo.after hostOps7 W (Proc.devRef .tc main_arg25) = W (Proc.devRef .tc main_arg25) := by
  after_results_simp

theorem g30_keep_main_arg27 : StableHlo.after hostOps7 W (Proc.devRef .tc main_arg27) = W (Proc.devRef .tc main_arg27) := by
  after_results_simp

end Cert.KernelIdeal.Chain

end
-- ==== Proof.ChainHost32.lean ====
/-
  Host operations between two kernel launches, read over ANY contents of the buffers: what the stretch writes is the
  same composition of host operations that the reference program applies, so from buffers that hold the reference's
  values it leaves buffers that hold the reference's values; a buffer that it does not write keeps its contents.
-/
import proofs.«110263_j50620484551136_1_alg».proof.Proof.Gen.KernelIdeal.Launch
import proofs.«110263_j50620484551136_1_alg».proof.Proof.RefRead
import proofs.«110263_j50620484551136_1_alg».proof.Proof.LibConcatCongr
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP

attribute [local congr] Idealize.ShloMosaic.concatenate_pair_congr

variable (W : Valuation τ sig (Elt Ideal))
variable {x0 : (⟨Cert.ReferenceIdeal.S50000x4652, .f32⟩ : BufTy).Contents (Elt Ideal)}
variable {x1 : (⟨Cert.ReferenceIdeal.S2x800000, .i32⟩ : BufTy).Contents (Elt Ideal)}
variable {x2 : (⟨Cert.ReferenceIdeal.S2x800000, .i32⟩ : BufTy).Contents (Elt Ideal)}
variable {x3 : (⟨Cert.ReferenceIdeal.S50000, .i32⟩ : BufTy).Contents (Elt Ideal)}
variable {x4 : (⟨Cert.ReferenceIdeal.S50000, .i32⟩ : BufTy).Contents (Elt Ideal)}
variable {x5 : (⟨Cert.ReferenceIdeal.S4652x256, .f32⟩ : BufTy).Contents (Elt Ideal)}
variable {x6 : (⟨Cert.ReferenceIdeal.S256, .f32⟩ : BufTy).Contents (Elt Ideal)}
variable {x7 : (⟨Cert.ReferenceIdeal.S256x256, .f32⟩ : BufTy).Contents (Elt Ideal)}
variable {x8 : (⟨Cert.ReferenceIdeal.S256, .f32⟩ : BufTy).Contents (Elt Ideal)}
variable {x9 : (⟨Cert.ReferenceIdeal.S256x256, .f32⟩ : BufTy).Contents (Elt Ideal)}
variable {x10 : (⟨Cert.ReferenceIdeal.S256, .f32⟩ : BufTy).Contents (Elt Ideal)}
variable {x11 : (⟨Cert.ReferenceIdeal.S256x256, .f32⟩ : BufTy).Contents (Elt Ideal)}
variable {x12 : (⟨Cert.ReferenceIdeal.S256, .f32⟩ : BufTy).Contents (Elt Ideal)}
variable {x13 : (⟨Cert.ReferenceIdeal.S256x256, .f32⟩ : BufTy).Contents (Elt Ideal)}
variable {x14 : (⟨Cert.ReferenceIdeal.S256, .f32⟩ : BufTy).Contents (Elt Ideal)}
variable {x15 : (⟨Cert.ReferenceIdeal.S256x256, .f32⟩ : BufTy).Contents (Elt Ideal)}
variable {x16 : (⟨Cert.ReferenceIdeal.S256, .f32⟩ : BufTy).Contents (Elt Ideal)}
variable {x17 : (⟨Cert.ReferenceIdeal.S512x256, .f32⟩ : BufTy).Contents (Elt Ideal)}
variable {x18 : (⟨Cert.ReferenceIdeal.S256, .f32⟩ : BufTy).Contents (Elt Ideal)}
variable {x19 : (⟨Cert.ReferenceIdeal.S256x256, .f32⟩ : BufTy).Contents (Elt Ideal)}
variable {x20 : (⟨Cert.ReferenceIdeal.S256, .f32⟩ : BufTy).Contents (Elt Ideal)}
variable {x21 : (⟨Cert.ReferenceIdeal.S512x256, .f32⟩ : BufTy).Contents (Elt Ideal)}
variable {x22 : (⟨Cert.ReferenceIdeal.S256, .f32⟩ : BufTy).Contents (Elt Ideal)}
variable {x23 : (⟨Cert.ReferenceIdeal.S256x256, .f32⟩ : BufTy).Contents (Elt Ideal)}
variable {x24 : (⟨Cert.ReferenceIdeal.S256, .f32⟩ : BufTy).Contents (Elt Ideal)}
variable {x25 : (⟨Cert.ReferenceIdeal.S512x256, .f32⟩ : BufTy).Contents (Elt Ideal)}
variable {x26 : (⟨Cert.ReferenceIdeal.S256, .f32⟩ : BufTy).Contents (Elt Ideal)}
variable {x27 : (⟨Cert.ReferenceIdeal.S256x5, .f32⟩ : BufTy).Contents (Elt Ideal)}
variable {x28 : (⟨Cert.ReferenceIdeal.S5, .f32⟩ : BufTy).Contents (Elt Ideal)}

/-! ## The stretch hostOps8 -/

theorem g32_main_v223 (h_main_v222 : W (Proc.devRef .tc main_v222) = val_main_v246 (F := Ideal) x0 x1 x2 x3 x4 x5 x6 x7 x8 x9 x10 x11 x12 x13 x14 x15 x16 x17 x18 x19 x20 x21 x22 x23 x24 x25 x26 x27 x28) :
    StableHlo.after hostOps8 W (Proc.devRef .tc main_v223) = val_main_v247 (F := Ideal) x0 x1 x2 x3 x4 x5 x6 x7 x8 x9 x10 x11 x12 x13 x14 x15 x16 x17 x18 x19 x20 x21 x22 x23 x24 x25 x26 x27 x28 := by
  after_results_simp
  try simp only [cast_eq]
  rw [h_main_v222]
  rfl

end Cert.KernelIdeal.Chain

end
-- ==== Proof.RefSpell.lean ====
/-
  The dense layers of the reference, each as one function of the arrays it reads, in the host program's own
  spelling: a product of the whole input by the weight matrix, the bias placed along the columns and repeated
  over the rows, the maximum with zero, and the second product and bias.
-/
import proofs.«110263_j50620484551136_1_alg».proof.Proof.Gen.ReferenceIdeal
import Idealize.ShloMosaic.PureOps.Ideal

noncomputable section

namespace Cert.Spell

open Idealize.ShloMosaic Cert.ReferenceIdeal Cert.ReferenceIdeal.Facts₀

/-- x · w for the 50000 × 256 node features and a 256 × 256 weight. -/
def lin (X : FVec Ideal S50000x256 .f32) (Wt : FVec Ideal S256x256 .f32) :
    FVec Ideal S50000x256 .f32 :=
  Host.dotGeneral (F := Ideal) dot_S50000x256_S256x256_S50000x256_1_0_0_1_n_n none X Wt

/-- max(x · wa + b1, 0) · wb + b2 on the 50000 × 4652 input features. -/
def mlpIn (X : FVec Ideal S50000x4652 .f32) (Wa : FVec Ideal S4652x256 .f32)
    (b1 : FVec Ideal S256 .f32) (Wb : FVec Ideal S256x256 .f32)
    (b2 : FVec Ideal S256 .f32) : FVec Ideal S50000x256 .f32 :=
  addf (Host.dotGeneral (F := Ideal) dot_S50000x256_S256x256_S50000x256_1_0_0_1_n_n none
      (maximumf (addf (Host.dotGeneral (F := Ideal) dot_S50000x4652_S4652x256_S50000x256_1_0_0_1_n_n none X Wa)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32))) Wb)
    (broadcastInDim S50000x256 ![0, 1] bcast_S1x256_S50000x256_0_1 (broadcastInDim S1x256 ![1] bcast_S256_S1x256_1 b2))

/-- max(x · wa + b1, 0) · wb + b2 on two joined 256-wide feature blocks of the 50000 nodes. -/
def mlpMid (X : FVec Ideal S50000x512 .f32) (Wa : FVec Ideal S512x256 .f32)
    (b1 : FVec Ideal S256 .f32) (Wb : FVec Ideal S256x256 .f32)
    (b2 : FVec Ideal S256 .f32) : FVec Ideal S50000x256 .f32 :=
  addf (Host.dotGeneral (F := Ideal) dot_S50000x256_S256x256_S50000x256_1_0_0_1_n_n none
      (maximumf (addf (Host.dotGeneral (F := Ideal) dot_S50000x512_S512x256_S50000x256_1_0_0_1_n_n none X Wa)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32))) Wb)
    (broadcastInDim S50000x256 ![0, 1] bcast_S1x256_S50000x256_0_1 (broadcastInDim S1x256 ![1] bcast_S256_S1x256_1 b2))

/-- max(x · wa + b1, 0) · wb + b2 on the 5000 pooled rows, down to the 5 classes. -/
def mlpOut (X : FVec Ideal S5000x512 .f32) (Wa : FVec Ideal S512x256 .f32)
    (b1 : FVec Ideal S256 .f32) (Wb : FVec Ideal S256x5 .f32)
    (b2 : FVec Ideal S5 .f32) : FVec Ideal S5000x5 .f32 :=
  addf (Host.dotGeneral (F := Ideal) dot_S5000x256_S256x5_S5000x5_1_0_0_1_n_n none
      (maximumf (addf (Host.dotGeneral (F := Ideal) dot_S5000x512_S512x256_S5000x256_1_0_0_1_n_n none X Wa)
          (broadcastInDim S5000x256 ![0, 1] bcast_S1x256_S5000x256_0_1 (broadcastInDim S1x256 ![1] bcast_S256_S1x256_1 b1)))
        (broadcastInDim S5000x256 ![] bcast_S_S5000x256 (constant (F := Ideal) S_ .f32 0x00000000#32))) Wb)
    (broadcastInDim S5000x5 ![0, 1] bcast_S1x5_S5000x5_0_1 (broadcastInDim S1x5 ![1] bcast_S5_S1x5_1 b2))

end Cert.Spell

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«110263_j50620484551136_1_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.RegionLin.lean ====
/-
  The linear layer x · w of the kernel's program, region by region.

  Each of the four regions runs over ten points; point t stages rows 5000·t … 5000·t + 4999 of the 50000 × 256 input
  and the whole 256 × 256 weight, multiplies them, and writes the 5000 × 256 product back to the same rows of the
  output array. Both operands are first rounded to a narrower format, which changes nothing at the ideal values.
  Entry (r, j) of a product is the sum over k of x (r, k) · w (k, j): it reads row r of x only. So the product of
  rows 5000·t … of x by w is rows 5000·t … of the product of all of x by w; every row r lies in the block of
  point r / 5000, at row r % 5000 inside it; hence after the ten write-backs the output array is x · w.
-/
import proofs.«110263_j50620484551136_1_alg».proof.Proof.Gen.KernelIdeal.Frame
import proofs.«110263_j50620484551136_1_alg».proof.Proof.RefSpell
import proofs.«110263_j50620484551136_1_alg».proof.Proof.LibDenseRows
import Idealize.ShloMosaic.Lib.Pipeline.Value
import Idealize.ShloMosaic.Lib.ValueIdx
import Idealize.ShloMosaic.Lib.StackMember

noncomputable section

namespace Cert.KernelIdeal.RegionLin

open Cert.KernelIdeal Cert.KernelIdeal.Gen Idealize.ShloMosaic Idealize.ShloMosaic.TcCoe Idealize.ShloMosaic.ValueIdx
open Idealize.ShloMosaic.Pipeline (Dat)

/-! ## One block's product, and the whole product, entry by entry -/

theorem hz : (![0, 0] : Fin 2 → Nat) = fun _ => 0 := funext fun a => by fin_cases a <;> rfl

/-- The matrix unit's product of a 5000 × 256 block by the weight, both rounded to the narrower format first, into a
    zero accumulator: entry (a, b) is the sum over k of x (a, k) · w (k, b). -/
theorem blockProd_apply (x : FVec Ideal S5000x256 .f32) (w : FVec Ideal S256x256 .f32) (h : S5000x256.ShapeCasts S5000x256)
    (a : Fin 5000) (b : Fin 256) :
    matmul dot_S5000x256_S256x256_S5000x256_1_0_0_1_n_n none
        (truncf .bf16 (shapeCast S5000x256 x h) bitsLt_bf16_f32) (truncf .bf16 w bitsLt_bf16_f32)
        (constant (F := Ideal) S5000x256 .f32 0x00000000#32) (ix2 a b)
      = ∑ k : Fin 256, x (ix2 a k) * w (ix2 k b) := by
  rw [shapeCast_self]
  exact Cert.Dense.matmul_plain_apply (R := 5000) (K := 256) (N := 256) none (truncf .bf16 x bitsLt_bf16_f32) (truncf .bf16 w bitsLt_bf16_f32) a b

/-- The host's product of the whole 50000 × 256 input by the weight: entry (r, j) is the sum over k of
    X (r, k) · Wt (k, j). -/
theorem lin_apply (X : FVec Ideal Cert.ReferenceIdeal.S50000x256 .f32) (Wt : FVec Ideal Cert.ReferenceIdeal.S256x256 .f32)
    (r : Fin 50000) (j : Fin 256) :
    Cert.Spell.lin X Wt (ix2 r j) = ∑ k : Fin 256, X (ix2 r k) * Wt (ix2 k j) := by
  unfold Cert.Spell.lin
  exact StackMember.dotGeneral_plain_apply (m := 50000) (k := 256) (n := 256) none X Wt r j

/-- A block's product is the block's rows of the whole product: when the block x0 holds rows 5000·q, 5000·q + 1, … of X
    and the staged weight x1 is Wt, entry y of the block's product is entry i of X · Wt for i = y moved down by 5000·q
    rows. (Entry (a, b) of a product reads row a of the left factor only.) -/
theorem blockProd_rows (q : Nat) (x0 : FVec Ideal S5000x256 .f32) (x1 : FVec Ideal S256x256 .f32)
    (X : FVec Ideal Cert.ReferenceIdeal.S50000x256 .f32) (Wt : FVec Ideal Cert.ReferenceIdeal.S256x256 .f32)
    (hx : ∀ (y : S5000x256.Idx) (i : S50000x256.Idx), (i 0).val = q * 5000 + (y 0).val → (i 1).val = (y 1).val → x0 y = X i)
    (hw : x1 = Wt) (h : S5000x256.ShapeCasts S5000x256)
    (y : S5000x256.Idx) (i : S50000x256.Idx) (hi0 : (i 0).val = q * 5000 + (y 0).val) (hi1 : (i 1).val = (y 1).val) :
    matmul dot_S5000x256_S256x256_S5000x256_1_0_0_1_n_n none
        (truncf .bf16 (shapeCast S5000x256 x0 h) bitsLt_bf16_f32) (truncf .bf16 x1 bitsLt_bf16_f32)
        (constant (F := Ideal) S5000x256 .f32 0x00000000#32) y
      = Cert.Spell.lin X Wt i := by
  obtain ⟨a, b, rfl⟩ : ∃ (a : Fin 5000) (b : Fin 256), y = ix2 a b := ⟨y 0, y 1, eq_ix2 y⟩
  obtain ⟨r, j, rfl⟩ : ∃ (r : Fin 50000) (j : Fin 256), i = ix2 r j := ⟨i 0, i 1, eq_ix2 i⟩
  rw [blockProd_apply, lin_apply]
  subst hw
  have hj : j = b := Fin.ext hi1
  subst hj
  refine Finset.sum_congr rfl fun k _ => ?_
  rw [hx (ix2 a k) (ix2 r k) hi0 rfl]

/-! ## Region 1 -/

/-- The index maps of the region's three windows at every point: the input's and the output's block is the point's own,
    in column block 0; the weight's is block (0, 0). Decided over the ten points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product X · Wt. -/
theorem flushed1 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec1 0) = X) (hW : V c (Pipeline.arrRef spec1 1) = Wt) (t : Fin cfg1.N) :
    (dat1 (F := Ideal) V c).flushed 2 t = ((cfg1.win 2).blk t).view.read (Elt Ideal) (Cert.Spell.lin X Wt) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨e0, e1, e2, e3, e4, e5⟩ := idx1 t
  funext j
  rw [View.read_apply]
  show k1_pay1 (iblk1 V c 0 t) (iblk1 V c 1 t) (win1_2.xinj (grid1.coords t) j)
    = Cert.Spell.lin X Wt (((cfg1.win 2).blk t).view.emb j)
  unfold k1_pay1
  refine blockProd_rows t.val (iblk1 V c 0 t) (iblk1 V c 1 t) X Wt (fun y i h0 h1 => ?_) ?_ _ _ _ ?_ ?_
  · unfold iblk1
    rw [View.read_apply]
    show V c (Pipeline.arrRef spec1 0) (((cfg1.win 0).blk t).view.emb y) = X i
    rw [hX]
    refine congrArg X (funext fun a => Fin.ext ?_)
    match a with
    | ⟨0, _⟩ => show win1_0.index t (0 : Fin 2) * 5000 + 1 * (y 0).val = (i 0).val; omega
    | ⟨1, _⟩ => show win1_0.index t (1 : Fin 2) * 256 + 1 * (y 1).val = (i 1).val; omega
  · unfold iblk1
    funext y
    rw [View.read_apply]
    show V c (Pipeline.arrRef spec1 1) (((cfg1.win 1).blk t).view.emb y) = Wt y
    rw [hW]
    refine congrArg Wt (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  · show win1_2.index t (0 : Fin 2) * 5000 + 1 * (j 0).val = t.val * 5000 + (j 0).val; omega
  · show win1_2.index t (1 : Fin 2) * 256 + 1 * (j 1).val = (j 1).val; omega

/-- An index of the output array is in point t's block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v37).slice (win1_2.rect t)).set ↔ _
  rw [View.set_slice_whole, Rect.mem_set_unit]
  exact Iff.rfl

/-- Every row r of the output array is in the block of point r / 5000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 5000 < cfg1.N := by show _ < grid1.N; rw [N_1]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 256 ≤ (i 1).val
      ∧ (i 1).val < win1_2.index ⟨(i 0).val / 5000, ht⟩ (1 : Fin 2) * 256 + 256
    rw [e5]
    omega

/-- After the region's ten write-backs the output array is the whole product. -/
theorem lin1 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec1 0) = X) (hW : V c (Pipeline.arrRef spec1 1) = Wt) :
    (dat1 (F := Ideal) V c).arrAt 2 cfg1.N = Cert.Spell.lin X Wt :=
  (dat1 (F := Ideal) V c).arrAt_eq_of_cover 2 (Cert.Spell.lin X Wt) (fun t _ => flushed1 V c X Wt hX hW t) cover1

/-! ## Region 2 -/

/-- The index maps of the region's three windows at every point: the input's and the output's block is the point's own,
    in column block 0; the weight's is block (0, 0). Decided over the ten points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product X · Wt. -/
theorem flushed2 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec2 0) = X) (hW : V c (Pipeline.arrRef spec2 1) = Wt) (t : Fin cfg2.N) :
    (dat2 (F := Ideal) V c).flushed 2 t = ((cfg2.win 2).blk t).view.read (Elt Ideal) (Cert.Spell.lin X Wt) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx2 t
  funext j
  rw [View.read_apply]
  show k2_pay1 (iblk2 V c 0 t) (iblk2 V c 1 t) (win2_2.xinj (grid2.coords t) j)
    = Cert.Spell.lin X Wt (((cfg2.win 2).blk t).view.emb j)
  unfold k2_pay1
  refine blockProd_rows t.val (iblk2 V c 0 t) (iblk2 V c 1 t) X Wt (fun y i h0 h1 => ?_) ?_ _ _ _ ?_ ?_
  · unfold iblk2
    rw [View.read_apply]
    show V c (Pipeline.arrRef spec2 0) (((cfg2.win 0).blk t).view.emb y) = X i
    rw [hX]
    refine congrArg X (funext fun a => Fin.ext ?_)
    match a with
    | ⟨0, _⟩ => show win2_0.index t (0 : Fin 2) * 5000 + 1 * (y 0).val = (i 0).val; omega
    | ⟨1, _⟩ => show win2_0.index t (1 : Fin 2) * 256 + 1 * (y 1).val = (i 1).val; omega
  · unfold iblk2
    funext y
    rw [View.read_apply]
    show V c (Pipeline.arrRef spec2 1) (((cfg2.win 1).blk t).view.emb y) = Wt y
    rw [hW]
    refine congrArg Wt (funext fun a => Fin.ext ?_)
    match a with
    | ⟨0, _⟩ => show win2_1.index t (0 : Fin 2) * 256 + 1 * (y 0).val = (y 0).val; omega
    | ⟨1, _⟩ => show win2_1.index t (1 : Fin 2) * 256 + 1 * (y 1).val = (y 1).val; omega
  · show win2_2.index t (0 : Fin 2) * 5000 + 1 * (j 0).val = t.val * 5000 + (j 0).val; omega
  · show win2_2.index t (1 : Fin 2) * 256 + 1 * (j 1).val = (j 1).val; omega

/-- An index of the output array is in point t's block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v81).slice (win2_2.rect t)).set ↔ _
  rw [View.set_slice_whole, Rect.mem_set_unit]
  exact Iff.rfl

/-- Every row r of the output array is in the block of point r / 5000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 5000 < cfg2.N := by show _ < grid2.N; rw [N_2]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 256 ≤ (i 1).val
      ∧ (i 1).val < win2_2.index ⟨(i 0).val / 5000, ht⟩ (1 : Fin 2) * 256 + 256
    rw [e5]
    omega

/-- After the region's ten write-backs the output array is the whole product. -/
theorem lin2 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec2 0) = X) (hW : V c (Pipeline.arrRef spec2 1) = Wt) :
    (dat2 (F := Ideal) V c).arrAt 2 cfg2.N = Cert.Spell.lin X Wt :=
  (dat2 (F := Ideal) V c).arrAt_eq_of_cover 2 (Cert.Spell.lin X Wt) (fun t _ => flushed2 V c X Wt hX hW t) cover2

/-! ## Region 4 -/

/-- The index maps of the region's three windows at every point: the input's and the output's block is the point's own,
    in column block 0; the weight's is block (0, 0). Decided over the ten points. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product X · Wt. -/
theorem flushed4 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec4 0) = X) (hW : V c (Pipeline.arrRef spec4 1) = Wt) (t : Fin cfg4.N) :
    (dat4 (F := Ideal) V c).flushed 2 t = ((cfg4.win 2).blk t).view.read (Elt Ideal) (Cert.Spell.lin X Wt) := by
  show (cfg4.win 2).cut (grid4.coords t) ((dat4 V c).after 2 t) = _
  rw [after4_2]
  unfold out4_2
  rw [View.canon_unit_zero hz]
  simp only [View.ld_unit_zero (S := S5000x256) hz, View.ld_unit_zero (S := S256x256) hz]
  obtain ⟨e0, e1, e2, e3, e4, e5⟩ := idx4 t
  funext j
  rw [View.read_apply]
  show k4_pay1 (iblk4 V c 0 t) (iblk4 V c 1 t) (win4_2.xinj (grid4.coords t) j)
    = Cert.Spell.lin X Wt (((cfg4.win 2).blk t).view.emb j)
  unfold k4_pay1
  refine blockProd_rows t.val (iblk4 V c 0 t) (iblk4 V c 1 t) X Wt (fun y i h0 h1 => ?_) ?_ _ _ _ ?_ ?_
  · unfold iblk4
    rw [View.read_apply]
    show V c (Pipeline.arrRef spec4 0) (((cfg4.win 0).blk t).view.emb y) = X i
    rw [hX]
    refine congrArg X (funext fun a => Fin.ext ?_)
    match a with
    | ⟨0, _⟩ => show win4_0.index t (0 : Fin 2) * 5000 + 1 * (y 0).val = (i 0).val; omega
    | ⟨1, _⟩ => show win4_0.index t (1 : Fin 2) * 256 + 1 * (y 1).val = (i 1).val; omega
  · unfold iblk4
    funext y
    rw [View.read_apply]
    show V c (Pipeline.arrRef spec4 1) (((cfg4.win 1).blk t).view.emb y) = Wt y
    rw [hW]
    refine congrArg Wt (funext fun a => Fin.ext ?_)
    match a with
    | ⟨0, _⟩ => show win4_1.index t (0 : Fin 2) * 256 + 1 * (y 0).val = (y 0).val; omega
    | ⟨1, _⟩ => show win4_1.index t (1 : Fin 2) * 256 + 1 * (y 1).val = (y 1).val; omega
  · show win4_2.index t (0 : Fin 2) * 5000 + 1 * (j 0).val = t.val * 5000 + (j 0).val; omega
  · show win4_2.index t (1 : Fin 2) * 256 + 1 * (j 1).val = (j 1).val; omega

/-- An index of the output array is in point t's block iff each coordinate is in the block's range on its axis. -/
theorem mem_blk4 (t : Fin cfg4.N) (i : S50000x256.Idx) :
    i ∈ ((cfg4.win 2).blk t).view.set ↔ ∀ a : Fin 2, win4_2.index t a * S5000x256.size a ≤ (i a).val
      ∧ (i a).val < win4_2.index t a * S5000x256.size a + S5000x256.size a := by
  show i ∈ ((View.whole main_v129).slice (win4_2.rect t)).set ↔ _
  rw [View.set_slice_whole, Rect.mem_set_unit]
  exact Iff.rfl

/-- Every row r of the output array is in the block of point r / 5000. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have ht : (i 0).val / 5000 < cfg4.N := by show _ < grid4.N; rw [N_4]; omega
  obtain ⟨-, -, -, -, e4, e5⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 256 ≤ (i 1).val
      ∧ (i 1).val < win4_2.index ⟨(i 0).val / 5000, ht⟩ (1 : Fin 2) * 256 + 256
    rw [e5]
    omega

/-- After the region's ten write-backs the output array is the whole product. -/
theorem lin4 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec4 0) = X) (hW : V c (Pipeline.arrRef spec4 1) = Wt) :
    (dat4 (F := Ideal) V c).arrAt 2 cfg4.N = Cert.Spell.lin X Wt :=
  (dat4 (F := Ideal) V c).arrAt_eq_of_cover 2 (Cert.Spell.lin X Wt) (fun t _ => flushed4 V c X Wt hX hW t) cover4

/-! ## Region 5 -/

/-- The index maps of the region's three windows at every point: the input's and the output's block is the point's own,
    in column block 0; the weight's is block (0, 0). Decided over the ten points. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole product X · Wt. -/
theorem flushed5 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec5 0) = X) (hW : V c (Pipeline.arrRef spec5 1) = Wt) (t : Fin cfg5.N) :
    (dat5 (F := Ideal) V c).flushed 2 t = ((cfg5.win 2).blk t).view.read (Elt Ideal) (Cert.Spell.lin X Wt) := by
  show (cfg5.win 2).cut (grid5.coords t) ((dat5 V c).after 2 t) = _
  rw [after5_2]
  unfold out5_2
  rw [View.canon_unit_zero hz]
  simp only [View.ld_unit_zero (S := S5000x256) hz, View.ld_unit_zero (S := S256x256) hz]
  obtain ⟨e0, e1, e2, e3, e4, e5⟩ := idx5 t
  funext j
  rw [View.read_apply]
  show k5_pay1 (iblk5 V c 0 t) (iblk5 V c 1 t) (win5_2.xinj (grid5.coords t) j)
    = Cert.Spell.lin X Wt (((cfg5.win 2).blk t).view.emb j)
  unfold k5_pay1
  refine blockProd_rows t.val (iblk5 V c 0 t) (iblk5 V c 1 t) X Wt (fun y i h0 h1 => ?_) ?_ _ _ _ ?_ ?_
  · unfold iblk5
    rw [View.read_apply]
    show V c (Pipeline.arrRef spec5 0) (((cfg5.win 0).blk t).view.emb y) = X i
    rw [hX]
    refine congrArg X (funext fun a => Fin.ext ?_)
    match a with
    | ⟨0, _⟩ => show win5_0.index t (0 : Fin 2) * 5000 + 1 * (y 0).val = (i 0).val; omega
    | ⟨1, _⟩ => show win5_0.index t (1 : Fin 2) * 256 + 1 * (y 1).val = (i 1).val; omega
  · unfold iblk5
    funext y
    rw [View.read_apply]
    show V c (Pipeline.arrRef spec5 1) (((cfg5.win 1).blk t).view.emb y) = Wt y
    rw [hW]
    refine congrArg Wt (funext fun a => Fin.ext ?_)
    match a with
    | ⟨0, _⟩ => show win5_1.index t (0 : Fin 2) * 256 + 1 * (y 0).val = (y 0).val; omega
    | ⟨1, _⟩ => show win5_1.index t (1 : Fin 2) * 256 + 1 * (y 1).val = (y 1).val; omega
  · show win5_2.index t (0 : Fin 2) * 5000 + 1 * (j 0).val = t.val * 5000 + (j 0).val; omega
  · show win5_2.index t (1 : Fin 2) * 256 + 1 * (j 1).val = (j 1).val; omega

/-- An index of the output array is in point t's block iff each coordinate is in the block's range on its axis. -/
theorem mem_blk5 (t : Fin cfg5.N) (i : S50000x256.Idx) :
    i ∈ ((cfg5.win 2).blk t).view.set ↔ ∀ a : Fin 2, win5_2.index t a * S5000x256.size a ≤ (i a).val
      ∧ (i a).val < win5_2.index t a * S5000x256.size a + S5000x256.size a := by
  show i ∈ ((View.whole main_v173).slice (win5_2.rect t)).set ↔ _
  rw [View.set_slice_whole, Rect.mem_set_unit]
  exact Iff.rfl

/-- Every row r of the output array is in the block of point r / 5000. -/
theorem cover5 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have ht : (i 0).val / 5000 < cfg5.N := by show _ < grid5.N; rw [N_5]; omega
  obtain ⟨-, -, -, -, e4, e5⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 256 ≤ (i 1).val
      ∧ (i 1).val < win5_2.index ⟨(i 0).val / 5000, ht⟩ (1 : Fin 2) * 256 + 256
    rw [e5]
    omega

/-- After the region's ten write-backs the output array is the whole product. -/
theorem lin5 (V : (c : Dev nD) → (b : Ref sig .tc) → Buf (Elt Ideal) ((c : Thread nD τ).loc b)) (c : Dev nD)
    (X : FVec Ideal Cert.ReferenceIdeal.S50000x256 .f32) (Wt : FVec Ideal Cert.ReferenceIdeal.S256x256 .f32)
    (hX : V c (Pipeline.arrRef spec5 0) = X) (hW : V c (Pipeline.arrRef spec5 1) = Wt) :
    (dat5 (F := Ideal) V c).arrAt 2 cfg5.N = Cert.Spell.lin X Wt :=
  (dat5 (F := Ideal) V c).arrAt_eq_of_cover 2 (Cert.Spell.lin X Wt) (fun t _ => flushed5 V c X Wt hX hW t) cover5
end Cert.KernelIdeal.RegionLin

end
-- ==== Proof.RegionMid.lean ====
/-
  The two middle dense blocks max(x · wa + b1, 0) · wb + b2 of the kernel, as whole arrays.

  Each of the two regions walks the 50000 rows of its input in ten blocks of 5000 rows; block t holds rows
  5000 · t … 5000 · t + 4999, the two weight matrices and the two bias rows are read whole at every block.
  Row r of the result depends only on row r of the input: every entry of a product is the finite sum over the
  contracted coordinate, the bias is added column by column and the maximum with zero is taken entry by entry.
  So what a block computes from 5000 rows is the same 5000 rows of the two layers applied to the whole array,
  and the ten blocks, which tile the 50000 rows, leave exactly that array.
-/
import proofs.«110263_j50620484551136_1_alg».proof.Proof.Gen.KernelIdeal.Frame
import proofs.«110263_j50620484551136_1_alg».proof.Proof.RefSpell
import proofs.«110263_j50620484551136_1_alg».proof.Proof.LibDenseRows
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.RegionMid

open Idealize.ShloMosaic.ValueIdx Cert.Dense Cert.Bfly

/-! ## The two layers on some rows -/

theorem hz : (![0, 0] : Fin 2 → Nat) = fun _ => 0 := funext fun a => by fin_cases a <;> rfl

/-- Row r of block q (q below 10) is row 5000 · q + r of the array. -/
def rowAt (q : Nat) (hq : q < 10) (r : Fin 5000) : Fin 50000 := ⟨5000 * q + r.val, by have := r.isLt; omega⟩

/-- The two layers as the matrix unit computes them on a block of 5000 rows: both products into a zero accumulator,
    each operand taken at the narrower precision on the way in (no change at the ideal values). -/
def blockMlp (x : FVec Ideal ⟨2, ![5000, 512]⟩ .f32) (wa : FVec Ideal ⟨2, ![512, 256]⟩ .f32) (ba : FVec Ideal ⟨2, ![1, 256]⟩ .f32)
    (wb : FVec Ideal ⟨2, ![256, 256]⟩ .f32) (bb : FVec Ideal ⟨2, ![1, 256]⟩ .f32) : FVec Ideal ⟨2, ![5000, 256]⟩ .f32 :=
  affK (R := 5000) (K := 256) (N := 256) (φ₁ := .bf16) (φ₂ := .bf16) Gen.broadcasts_S1x256_S5000x256
    (truncf .bf16 (reluK (affK (R := 5000) (K := 512) (N := 256) (φ₁ := .bf16) (φ₂ := .bf16) Gen.broadcasts_S1x256_S5000x256
      (truncf .bf16 x Gen.bitsLt_bf16_f32) (truncf .bf16 wa Gen.bitsLt_bf16_f32) ba)) Gen.bitsLt_bf16_f32)
    (truncf .bf16 wb Gen.bitsLt_bf16_f32) bb

/-- The host's two layers are the host spelling of the affine layer, the maximum with zero, and the affine layer. -/
theorem mlpMid_eq (X : FVec Ideal ⟨2, ![50000, 512]⟩ .f32) (Wa : FVec Ideal ⟨2, ![512, 256]⟩ .f32) (b1 : FVec Ideal ⟨1, ![256]⟩ .f32)
    (Wb : FVec Ideal ⟨2, ![256, 256]⟩ .f32) (b2 : FVec Ideal ⟨1, ![256]⟩ .f32) :
    Cert.Spell.mlpMid X Wa b1 Wb b2
      = affR (R := 50000) (K := 256) (N := 256) Cert.ReferenceIdeal.Gen.bcast_S256_S1x256_1 Cert.ReferenceIdeal.Gen.bcast_S1x256_S50000x256_0_1
          (reluR Cert.ReferenceIdeal.Gen.bcast_S_S50000x256
            (affR (R := 50000) (K := 512) (N := 256) Cert.ReferenceIdeal.Gen.bcast_S256_S1x256_1 Cert.ReferenceIdeal.Gen.bcast_S1x256_S50000x256_0_1 X Wa b1))
          Wb b2 := rfl

/-- The block's two layers on rows e of the input are rows e of the host's two layers on the whole input. -/
theorem blockMlp_rows (e : Fin 5000 → Fin 50000)
    (x : FVec Ideal ⟨2, ![5000, 512]⟩ .f32) (wa : FVec Ideal ⟨2, ![512, 256]⟩ .f32) (ba : FVec Ideal ⟨2, ![1, 256]⟩ .f32)
    (wb : FVec Ideal ⟨2, ![256, 256]⟩ .f32) (bb : FVec Ideal ⟨2, ![1, 256]⟩ .f32)
    (X : FVec Ideal ⟨2, ![50000, 512]⟩ .f32) (Wa : FVec Ideal ⟨2, ![512, 256]⟩ .f32) (b1 : FVec Ideal ⟨1, ![256]⟩ .f32)
    (Wb : FVec Ideal ⟨2, ![256, 256]⟩ .f32) (b2 : FVec Ideal ⟨1, ![256]⟩ .f32)
    (hx : ∀ (r : Fin 5000) (k : Fin 512), x (ix2 r k) = X (ix2 (e r) k))
    (hwa : ∀ (k : Fin 512) (n : Fin 256), wa (ix2 k n) = Wa (ix2 k n))
    (hba : ∀ n : Fin 256, ba (ix2 (0 : Fin 1) n) = b1 (ix1 n))
    (hwb : ∀ (k : Fin 256) (n : Fin 256), wb (ix2 k n) = Wb (ix2 k n))
    (hbb : ∀ n : Fin 256, bb (ix2 (0 : Fin 1) n) = b2 (ix1 n))
    (r : Fin 5000) (n : Fin 256) :
    blockMlp x wa ba wb bb (ix2 r n) = Cert.Spell.mlpMid X Wa b1 Wb b2 (ix2 (e r) n) := by
  rw [mlpMid_eq]
  unfold blockMlp
  refine aff_rows e _ _ _ _ _ bb _ Wb b2 (fun r k => ?_) (fun k n => hwb k n) hbb r n
  exact relu_rows e _ _ _ (aff_rows e _ _ _ _ _ ba X Wa b1 (fun r k => hx r k) (fun k n => hwa k n) hba) r k

/-! ## Region 3 -/

/-- What the body of region 3 stores is the two layers of its loaded blocks (the same-shape casts removed). -/
theorem pay3_eq (x : Vec Ideal S5000x512 .f32) (wa : Vec Ideal S512x256 .f32) (ba : Vec Ideal S1x256 .f32)
    (wb : Vec Ideal S256x256 .f32) (bb : Vec Ideal S1x256 .f32) :
    Gen.k3_pay1 (F := Ideal) x wa ba wb bb = blockMlp x wa ba wb bb := by
  unfold Gen.k3_pay1
  simp only [shapeCast_self]
  rfl

/-- The index maps of region 3 over its ten points: the input's and the output's row blocks sit at block t, the
    weights and the bias rows at their only block. -/
theorem idx3_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section Blocks3

variable (V : (c : Dev nD) → (b : Ref sig .tc) → Buf (Elt Ideal) ((c : Thread nD τ).loc b)) (c : Dev nD)

/-- The input block at point t is rows 5000 · t … 5000 · t + 4999 of the input array. -/
theorem iblk3_0_apply (t : Fin cfg3.N) (ht : t.val < 10) (r : Fin 5000) (k : Fin 512) :
    (Gen.iblk3 (F := Ideal) V c 0 t : Vec Ideal S5000x512 .f32) (ix2 r k)
      = (V c (Pipeline.arrRef spec3 0) : Vec Ideal S50000x512 .f32) (ix2 (rowAt t.val ht r) k) := by
  obtain ⟨e0, e1, -⟩ := idx3_facts t
  unfold Gen.iblk3
  show (V c (Pipeline.arrRef spec3 0) : Vec Ideal S50000x512 .f32) (((cfg3.win 0).blk t).view.emb (ix2 r k)) = _
  refine congrArg _ (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 512 + 1 * k.val = k.val; rw [e1]; omega

/-- The first weight's block is the whole matrix. -/
theorem iblk3_1_apply (t : Fin cfg3.N) (k : Fin 512) (n : Fin 256) :
    (Gen.iblk3 (F := Ideal) V c 1 t : Vec Ideal S512x256 .f32) (ix2 k n)
      = (V c (Pipeline.arrRef spec3 1) : Vec Ideal S512x256 .f32) (ix2 k n) := by
  obtain ⟨-, -, e0, e1, -⟩ := idx3_facts t
  unfold Gen.iblk3
  show (V c (Pipeline.arrRef spec3 1) : Vec Ideal S512x256 .f32) (((cfg3.win 1).blk t).view.emb (ix2 k n)) = _
  refine congrArg _ (funext fun a => Fin.ext ?_)
  match a with
  | ⟨0, _⟩ => show win3_1.index t (0 : Fin 2) * 512 + 1 * k.val = k.val; rw [e0]; omega
  | ⟨1, _⟩ => show win3_1.index t (1 : Fin 2) * 256 + 1 * n.val = n.val; rw [e1]; omega

/-- The first bias row's block is the whole row. -/
theorem iblk3_2_apply (t : Fin cfg3.N) (n : Fin 256) :
    (Gen.iblk3 (F := Ideal) V c 2 t : Vec Ideal S1x256 .f32) (ix2 (0 : Fin 1) n)
      = (V c (Pipeline.arrRef spec3 2) : Vec Ideal S1x256 .f32) (ix2 (0 : Fin 1) n) := by
  obtain ⟨-, -, -, -, e0, e1, -⟩ := idx3_facts t
  unfold Gen.iblk3
  show (V c (Pipeline.arrRef spec3 2) : Vec Ideal S1x256 .f32) (((cfg3.win 2).blk t).view.emb (ix2 (0 : Fin 1) n)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 256 + 1 * n.val = n.val; rw [e1]; omega

/-- The second weight's block is the whole matrix. -/
theorem iblk3_3_apply (t : Fin cfg3.N) (k : Fin 256) (n : Fin 256) :
    (Gen.iblk3 (F := Ideal) V c 3 t : Vec Ideal S256x256 .f32) (ix2 k n)
      = (V c (Pipeline.arrRef spec3 3) : Vec Ideal S256x256 .f32) (ix2 k n) := by
  obtain ⟨-, -, -, -, -, -, e0, e1, -⟩ := idx3_facts t
  unfold Gen.iblk3
  show (V c (Pipeline.arrRef spec3 3) : Vec Ideal S256x256 .f32) (((cfg3.win 3).blk t).view.emb (ix2 k n)) = _
  refine congrArg _ (funext fun a => Fin.ext ?_)
  match a with
  | ⟨0, _⟩ => show win3_3.index t (0 : Fin 2) * 256 + 1 * k.val = k.val; rw [e0]; omega
  | ⟨1, _⟩ => show win3_3.index t (1 : Fin 2) * 256 + 1 * n.val = n.val; rw [e1]; omega

/-- The second bias row's block is the whole row. -/
theorem iblk3_4_apply (t : Fin cfg3.N) (n : Fin 256) :
    (Gen.iblk3 (F := Ideal) V c 4 t : Vec Ideal S1x256 .f32) (ix2 (0 : Fin 1) n)
      = (V c (Pipeline.arrRef spec3 4) : Vec Ideal S1x256 .f32) (ix2 (0 : Fin 1) n) := by
  obtain ⟨-, -, -, -, -, -, -, -, e0, e1, -⟩ := idx3_facts t
  unfold Gen.iblk3
  show (V c (Pipeline.arrRef spec3 4) : Vec Ideal S1x256 .f32) (((cfg3.win 4).blk t).view.emb (ix2 (0 : Fin 1) n)) = _
  refine congrArg _ (funext fun a => Fin.ext ?_)
  match a with
  | ⟨0, _⟩ => show win3_4.index t (0 : Fin 2) * 1 + 1 * 0 = 0; rw [e0]
  | ⟨1, _⟩ => show win3_4.index t (1 : Fin 2) * 256 + 1 * n.val = n.val; rw [e1]; omega

end Blocks3

section Final3

variable (V : (c : Dev nD) → (b : Ref sig .tc) → Buf (Elt Ideal) ((c : Thread nD τ).loc b)) (c : Dev nD)
  (X : FVec Ideal Cert.ReferenceIdeal.S50000x512 .f32) (Wa : FVec Ideal Cert.ReferenceIdeal.S512x256 .f32)
  (b1 : FVec Ideal Cert.ReferenceIdeal.S256 .f32) (Wb : FVec Ideal Cert.ReferenceIdeal.S256x256 .f32)
  (b2 : FVec Ideal Cert.ReferenceIdeal.S256 .f32)

/-- What point t of region 3 writes back is block t of the host's two layers on the whole input. -/
theorem flushed3_eq
    (hX : V c (Pipeline.arrRef spec3 0) = X) (hWa : V c (Pipeline.arrRef spec3 1) = Wa)
    (hb1 : ∀ n : Fin 256, V c (Pipeline.arrRef spec3 2) (ValueIdx.ix2 (0 : Fin 1) n) = b1 (ValueIdx.ix1 n))
    (hWb : V c (Pipeline.arrRef spec3 3) = Wb)
    (hb2 : ∀ n : Fin 256, V c (Pipeline.arrRef spec3 4) (ValueIdx.ix2 (0 : Fin 1) n) = b2 (ValueIdx.ix1 n))
    (t : Fin cfg3.N) :
    (Gen.dat3 (F := Ideal) V c).flushed 5 t
      = ((cfg3.win 5).blk t).view.read (Elt Ideal) (Cert.Spell.mlpMid X Wa b1 Wb b2) := by
  have ht : t.val < 10 := Nat.lt_of_lt_of_eq t.isLt Gen.N_3
  show (cfg3.win 5).cut (grid3.coords t) ((Gen.dat3 V c).after 5 t) = _
  rw [Gen.after3_5]
  unfold Gen.out3_5
  rw [View.canon_unit_zero hz]
  simp only [View.ld_unit_zero (S := S5000x512) hz, View.ld_unit_zero (S := S512x256) hz, View.ld_unit_zero (S := S1x256) hz,
    View.ld_unit_zero (S := S256x256) hz]
  rw [pay3_eq]
  funext j
  obtain ⟨p, q, rfl⟩ : ∃ (p : Fin 5000) (q : Fin 256), j = ix2 p q := ⟨j 0, j 1, eq_ix2 j⟩
  obtain ⟨-, -, -, -, -, -, -, -, -, -, e0, e1⟩ := idx3_facts t
  have hemb : ((cfg3.win 5).blk t).view.emb (ix2 p q) = ix2 (rowAt t.val ht p) q := by
    funext a; apply Fin.ext
    match a with
    | ⟨0, _⟩ => show win3_5.index t (0 : Fin 2) * 5000 + 1 * p.val = 5000 * t.val + p.val; rw [e0]; omega
    | ⟨1, _⟩ => show win3_5.index t (1 : Fin 2) * 256 + 1 * q.val = q.val; rw [e1]; omega
  show blockMlp (Gen.iblk3 V c 0 t) (Gen.iblk3 V c 1 t) (Gen.iblk3 V c 2 t) (Gen.iblk3 V c 3 t) (Gen.iblk3 V c 4 t) (ix2 p q)
    = Cert.Spell.mlpMid X Wa b1 Wb b2 (((cfg3.win 5).blk t).view.emb (ix2 p q))
  rw [hemb]
  exact blockMlp_rows (rowAt t.val ht) (Gen.iblk3 V c 0 t) (Gen.iblk3 V c 1 t) (Gen.iblk3 V c 2 t) (Gen.iblk3 V c 3 t)
    (Gen.iblk3 V c 4 t) X Wa b1 Wb b2
    (fun r k => (iblk3_0_apply V c t ht r k).trans (congrFun hX _))
    (fun k n => (iblk3_1_apply V c t k n).trans (congrFun hWa _))
    (fun n => (iblk3_2_apply V c t n).trans (hb1 n))
    (fun k n => (iblk3_3_apply V c t k n).trans (congrFun hWb _))
    (fun n => (iblk3_4_apply V c t n).trans (hb2 n)) p q

/-- An index of the output array is in point t's block iff each coordinate is in the block's range on its axis. -/
theorem mem_blk3 (t : Fin cfg3.N) (i : S50000x256.Idx) :
    i ∈ ((cfg3.win 5).blk t).view.set ↔ ∀ a : Fin 2, win3_5.index t a * S5000x256.size a ≤ (i a).val
      ∧ (i a).val < win3_5.index t a * S5000x256.size a + S5000x256.size a := by
  show i ∈ ((View.whole main_v102).slice (win3_5.rect t)).set ↔ _
  rw [View.set_slice_whole, Rect.mem_set_unit]
  exact Iff.rfl

/-- The ten blocks tile the 50000 rows: row r is in block r / 5000. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 10 := Gen.N_3
  have hq : (i 0).val / 5000 < cfg3.N := by rw [hN]; omega
  obtain ⟨-, -, -, -, -, -, -, -, -, -, e0, e1⟩ := idx3_facts ⟨(i 0).val / 5000, hq⟩
  refine ⟨⟨(i 0).val / 5000, hq⟩, Gen.flush3_5 _, ?_⟩
  rw [mem_blk3]
  intro a
  match a with
  | ⟨0, _⟩ =>
    show win3_5.index ⟨(i 0).val / 5000, hq⟩ (0 : Fin 2) * 5000 ≤ (i 0).val
      ∧ (i 0).val < win3_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hq⟩ (1 : Fin 2) * 256 ≤ (i 1).val
      ∧ (i 1).val < win3_5.index ⟨(i 0).val / 5000, hq⟩ (1 : Fin 2) * 256 + 256
    rw [e1]; omega

/-- Region 3 leaves the host's two layers of its input array in its output array. -/
theorem mid3
    (hX : V c (Pipeline.arrRef spec3 0) = X) (hWa : V c (Pipeline.arrRef spec3 1) = Wa)
    (hb1 : ∀ n : Fin 256, V c (Pipeline.arrRef spec3 2) (ValueIdx.ix2 (0 : Fin 1) n) = b1 (ValueIdx.ix1 n))
    (hWb : V c (Pipeline.arrRef spec3 3) = Wb)
    (hb2 : ∀ n : Fin 256, V c (Pipeline.arrRef spec3 4) (ValueIdx.ix2 (0 : Fin 1) n) = b2 (ValueIdx.ix1 n)) :
    (Gen.dat3 (F := Ideal) V c).arrAt 5 cfg3.N = Cert.Spell.mlpMid X Wa b1 Wb b2 :=
  (Gen.dat3 (F := Ideal) V c).arrAt_eq_of_cover 5 (Cert.Spell.mlpMid X Wa b1 Wb b2)
    (fun t _ => flushed3_eq V c X Wa b1 Wb b2 hX hWa hb1 hWb hb2 t) (cover3)

end Final3

/-! ## Region 6 -/

/-- What the body of region 6 stores is the two layers of its loaded blocks (the same-shape casts removed). -/
theorem pay6_eq (x : Vec Ideal S5000x512 .f32) (wa : Vec Ideal S512x256 .f32) (ba : Vec Ideal S1x256 .f32)
    (wb : Vec Ideal S256x256 .f32) (bb : Vec Ideal S1x256 .f32) :
    Gen.k6_pay1 (F := Ideal) x wa ba wb bb = blockMlp x wa ba wb bb := by
  unfold Gen.k6_pay1
  simp only [shapeCast_self]
  rfl

/-- The index maps of region 6 over its ten points: the input's and the output's row blocks sit at block t, the
    weights and the bias rows at their only block. -/
theorem idx6_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section Blocks6

variable (V : (c : Dev nD) → (b : Ref sig .tc) → Buf (Elt Ideal) ((c : Thread nD τ).loc b)) (c : Dev nD)

/-- The input block at point t is rows 5000 · t … 5000 · t + 4999 of the input array. -/
theorem iblk6_0_apply (t : Fin cfg6.N) (ht : t.val < 10) (r : Fin 5000) (k : Fin 512) :
    (Gen.iblk6 (F := Ideal) V c 0 t : Vec Ideal S5000x512 .f32) (ix2 r k)
      = (V c (Pipeline.arrRef spec6 0) : Vec Ideal S50000x512 .f32) (ix2 (rowAt t.val ht r) k) := by
  obtain ⟨e0, e1, -⟩ := idx6_facts t
  unfold Gen.iblk6
  show (V c (Pipeline.arrRef spec6 0) : Vec Ideal S50000x512 .f32) (((cfg6.win 0).blk t).view.emb (ix2 r k)) = _
  refine congrArg _ (funext fun a => Fin.ext ?_)
  match a with
  | ⟨0, _⟩ => show win6_0.index t (0 : Fin 2) * 5000 + 1 * r.val = 5000 * t.val + r.val; rw [e0]; omega
  | ⟨1, _⟩ => show win6_0.index t (1 : Fin 2) * 512 + 1 * k.val = k.val; rw [e1]; omega

/-- The first weight's block is the whole matrix. -/
theorem iblk6_1_apply (t : Fin cfg6.N) (k : Fin 512) (n : Fin 256) :
    (Gen.iblk6 (F := Ideal) V c 1 t : Vec Ideal S512x256 .f32) (ix2 k n)
      = (V c (Pipeline.arrRef spec6 1) : Vec Ideal S512x256 .f32) (ix2 k n) := by
  obtain ⟨-, -, e0, e1, -⟩ := idx6_facts t
  unfold Gen.iblk6
  show (V c (Pipeline.arrRef spec6 1) : Vec Ideal S512x256 .f32) (((cfg6.win 1).blk t).view.emb (ix2 k n)) = _
  refine congrArg _ (funext fun a => Fin.ext ?_)
  match a with
  | ⟨0, _⟩ => show win6_1.index t (0 : Fin 2) * 512 + 1 * k.val = k.val; rw [e0]; omega
  | ⟨1, _⟩ => show win6_1.index t (1 : Fin 2) * 256 + 1 * n.val = n.val; rw [e1]; omega

/-- The first bias row's block is the whole row. -/
theorem iblk6_2_apply (t : Fin cfg6.N) (n : Fin 256) :
    (Gen.iblk6 (F := Ideal) V c 2 t : Vec Ideal S1x256 .f32) (ix2 (0 : Fin 1) n)
      = (V c (Pipeline.arrRef spec6 2) : Vec Ideal S1x256 .f32) (ix2 (0 : Fin 1) n) := by
  obtain ⟨-, -, -, -, e0, e1, -⟩ := idx6_facts t
  unfold Gen.iblk6
  show (V c (Pipeline.arrRef spec6 2) : Vec Ideal S1x256 .f32) (((cfg6.win 2).blk t).view.emb (ix2 (0 : Fin 1) n)) = _
  refine congrArg _ (funext fun a => Fin.ext ?_)
  match a with
  | ⟨0, _⟩ => show win6_2.index t (0 : Fin 2) * 1 + 1 * 0 = 0; rw [e0]
  | ⟨1, _⟩ => show win6_2.index t (1 : Fin 2) * 256 + 1 * n.val = n.val; rw [e1]; omega

/-- The second weight's block is the whole matrix. -/
theorem iblk6_3_apply (t : Fin cfg6.N) (k : Fin 256) (n : Fin 256) :
    (Gen.iblk6 (F := Ideal) V c 3 t : Vec Ideal S256x256 .f32) (ix2 k n)
      = (V c (Pipeline.arrRef spec6 3) : Vec Ideal S256x256 .f32) (ix2 k n) := by
  obtain ⟨-, -, -, -, -, -, e0, e1, -⟩ := idx6_facts t
  unfold Gen.iblk6
  show (V c (Pipeline.arrRef spec6 3) : Vec Ideal S256x256 .f32) (((cfg6.win 3).blk t).view.emb (ix2 k n)) = _
  refine congrArg _ (funext fun a => Fin.ext ?_)
  match a with
  | ⟨0, _⟩ => show win6_3.index t (0 : Fin 2) * 256 + 1 * k.val = k.val; rw [e0]; omega
  | ⟨1, _⟩ => show win6_3.index t (1 : Fin 2) * 256 + 1 * n.val = n.val; rw [e1]; omega

/-- The second bias row's block is the whole row. -/
theorem iblk6_4_apply (t : Fin cfg6.N) (n : Fin 256) :
    (Gen.iblk6 (F := Ideal) V c 4 t : Vec Ideal S1x256 .f32) (ix2 (0 : Fin 1) n)
      = (V c (Pipeline.arrRef spec6 4) : Vec Ideal S1x256 .f32) (ix2 (0 : Fin 1) n) := by
  obtain ⟨-, -, -, -, -, -, -, -, e0, e1, -⟩ := idx6_facts t
  unfold Gen.iblk6
  show (V c (Pipeline.arrRef spec6 4) : Vec Ideal S1x256 .f32) (((cfg6.win 4).blk t).view.emb (ix2 (0 : Fin 1) n)) = _
  refine congrArg _ (funext fun a => Fin.ext ?_)
  match a with
  | ⟨0, _⟩ => show win6_4.index t (0 : Fin 2) * 1 + 1 * 0 = 0; rw [e0]
  | ⟨1, _⟩ => show win6_4.index t (1 : Fin 2) * 256 + 1 * n.val = n.val; rw [e1]; omega

end Blocks6

section Final6

variable (V : (c : Dev nD) → (b : Ref sig .tc) → Buf (Elt Ideal) ((c : Thread nD τ).loc b)) (c : Dev nD)
  (X : FVec Ideal Cert.ReferenceIdeal.S50000x512 .f32) (Wa : FVec Ideal Cert.ReferenceIdeal.S512x256 .f32)
  (b1 : FVec Ideal Cert.ReferenceIdeal.S256 .f32) (Wb : FVec Ideal Cert.ReferenceIdeal.S256x256 .f32)
  (b2 : FVec Ideal Cert.ReferenceIdeal.S256 .f32)

/-- What point t of region 6 writes back is block t of the host's two layers on the whole input. -/
theorem flushed6_eq
    (hX : V c (Pipeline.arrRef spec6 0) = X) (hWa : V c (Pipeline.arrRef spec6 1) = Wa)
    (hb1 : ∀ n : Fin 256, V c (Pipeline.arrRef spec6 2) (ValueIdx.ix2 (0 : Fin 1) n) = b1 (ValueIdx.ix1 n))
    (hWb : V c (Pipeline.arrRef spec6 3) = Wb)
    (hb2 : ∀ n : Fin 256, V c (Pipeline.arrRef spec6 4) (ValueIdx.ix2 (0 : Fin 1) n) = b2 (ValueIdx.ix1 n))
    (t : Fin cfg6.N) :
    (Gen.dat6 (F := Ideal) V c).flushed 5 t
      = ((cfg6.win 5).blk t).view.read (Elt Ideal) (Cert.Spell.mlpMid X Wa b1 Wb b2) := by
  have ht : t.val < 10 := Nat.lt_of_lt_of_eq t.isLt Gen.N_6
  show (cfg6.win 5).cut (grid6.coords t) ((Gen.dat6 V c).after 5 t) = _
  rw [Gen.after6_5]
  unfold Gen.out6_5
  rw [View.canon_unit_zero hz]
  simp only [View.ld_unit_zero (S := S5000x512) hz, View.ld_unit_zero (S := S512x256) hz, View.ld_unit_zero (S := S1x256) hz,
    View.ld_unit_zero (S := S256x256) hz]
  rw [pay6_eq]
  funext j
  obtain ⟨p, q, rfl⟩ : ∃ (p : Fin 5000) (q : Fin 256), j = ix2 p q := ⟨j 0, j 1, eq_ix2 j⟩
  obtain ⟨-, -, -, -, -, -, -, -, -, -, e0, e1⟩ := idx6_facts t
  have hemb : ((cfg6.win 5).blk t).view.emb (ix2 p q) = ix2 (rowAt t.val ht p) q := by
    funext a; apply Fin.ext
    match a with
    | ⟨0, _⟩ => show win6_5.index t (0 : Fin 2) * 5000 + 1 * p.val = 5000 * t.val + p.val; rw [e0]; omega
    | ⟨1, _⟩ => show win6_5.index t (1 : Fin 2) * 256 + 1 * q.val = q.val; rw [e1]; omega
  show blockMlp (Gen.iblk6 V c 0 t) (Gen.iblk6 V c 1 t) (Gen.iblk6 V c 2 t) (Gen.iblk6 V c 3 t) (Gen.iblk6 V c 4 t) (ix2 p q)
    = Cert.Spell.mlpMid X Wa b1 Wb b2 (((cfg6.win 5).blk t).view.emb (ix2 p q))
  rw [hemb]
  exact blockMlp_rows (rowAt t.val ht) (Gen.iblk6 V c 0 t) (Gen.iblk6 V c 1 t) (Gen.iblk6 V c 2 t) (Gen.iblk6 V c 3 t)
    (Gen.iblk6 V c 4 t) X Wa b1 Wb b2
    (fun r k => (iblk6_0_apply V c t ht r k).trans (congrFun hX _))
    (fun k n => (iblk6_1_apply V c t k n).trans (congrFun hWa _))
    (fun n => (iblk6_2_apply V c t n).trans (hb1 n))
    (fun k n => (iblk6_3_apply V c t k n).trans (congrFun hWb _))
    (fun n => (iblk6_4_apply V c t n).trans (hb2 n)) p q

/-- An index of the output array is in point t's block iff each coordinate is in the block's range on its axis. -/
theorem mem_blk6 (t : Fin cfg6.N) (i : S50000x256.Idx) :
    i ∈ ((cfg6.win 5).blk t).view.set ↔ ∀ a : Fin 2, win6_5.index t a * S5000x256.size a ≤ (i a).val
      ∧ (i a).val < win6_5.index t a * S5000x256.size a + S5000x256.size a := by
  show i ∈ ((View.whole main_v194).slice (win6_5.rect t)).set ↔ _
  rw [View.set_slice_whole, Rect.mem_set_unit]
  exact Iff.rfl

/-- The ten blocks tile the 50000 rows: row r is in block r / 5000. -/
theorem cover6 (i : S50000x256.Idx) :
    ∃ t : Fin cfg6.N, (cfg6.win 5).flush t = true ∧ i ∈ ((cfg6.win 5).blk t).view.set := by
  have hi0 : (i 0).val < 50000 := (i 0).isLt
  have hi1 : (i 1).val < 256 := (i 1).isLt
  have hN : cfg6.N = 10 := Gen.N_6
  have hq : (i 0).val / 5000 < cfg6.N := by rw [hN]; omega
  obtain ⟨-, -, -, -, -, -, -, -, -, -, e0, e1⟩ := idx6_facts ⟨(i 0).val / 5000, hq⟩
  refine ⟨⟨(i 0).val / 5000, hq⟩, Gen.flush6_5 _, ?_⟩
  rw [mem_blk6]
  intro a
  match a with
  | ⟨0, _⟩ =>
    show win6_5.index ⟨(i 0).val / 5000, hq⟩ (0 : Fin 2) * 5000 ≤ (i 0).val
      ∧ (i 0).val < win6_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, hq⟩ (1 : Fin 2) * 256 ≤ (i 1).val
      ∧ (i 1).val < win6_5.index ⟨(i 0).val / 5000, hq⟩ (1 : Fin 2) * 256 + 256
    rw [e1]; omega

/-- Region 6 leaves the host's two layers of its input array in its output array. -/
theorem mid6
    (hX : V c (Pipeline.arrRef spec6 0) = X) (hWa : V c (Pipeline.arrRef spec6 1) = Wa)
    (hb1 : ∀ n : Fin 256, V c (Pipeline.arrRef spec6 2) (ValueIdx.ix2 (0 : Fin 1) n) = b1 (ValueIdx.ix1 n))
    (hWb : V c (Pipeline.arrRef spec6 3) = Wb)
    (hb2 : ∀ n : Fin 256, V c (Pipeline.arrRef spec6 4) (ValueIdx.ix2 (0 : Fin 1) n) = b2 (ValueIdx.ix1 n)) :
    (Gen.dat6 (F := Ideal) V c).arrAt 5 cfg6.N = Cert.Spell.mlpMid X Wa b1 Wb b2 :=
  (Gen.dat6 (F := Ideal) V c).arrAt_eq_of_cover 5 (Cert.Spell.mlpMid X Wa b1 Wb b2)
    (fun t _ => flushed6_eq V c X Wa b1 Wb b2 hX hWa hb1 hWb hb2 t) (cover6)

end Final6

end Cert.KernelIdeal.RegionMid

end
-- ==== Proof.RegionEnds.lean ====
/-
  The input encoder and the classifier: two dense layers with the maximum with zero between them,
      y = max(x · wa + b1, 0) · wb + b2,
  computed by the kernel on blocks of rows of x and by the host on the whole array.
  Row r of y depends only on row r of x, so the block of rows the kernel computes at a grid point is the same
  block of rows of the host's result; the blocks tile the rows, so the array the kernel leaves is the host's.
-/
import proofs.«110263_j50620484551136_1_alg».proof.Proof.Gen.KernelIdeal.Frame
import proofs.«110263_j50620484551136_1_alg».proof.Proof.RefSpell
import proofs.«110263_j50620484551136_1_alg».proof.Proof.LibDenseRows

noncomputable section

namespace Cert.KernelIdeal.RegionEnds

open Idealize.ShloMosaic Idealize.ShloMosaic.ValueIdx Idealize.ShloMosaic.TcCoe Idealize.SL.Sem
open Idealize.ShloMosaic.Pipeline (Dat)
open Cert.KernelIdeal Cert.Bfly Cert.Dense

/-! ## Two layers on some rows are the same rows of two layers -/

section TwoLayers

variable {R R' K H N : ℕ} {φ₁ φ₂ φ₃ φ₄ : FTy}

/-- If x' holds the rows e of x, and the weights and biases agree, then the two layers of x' (as the matrix unit computes
    them) hold the rows e of the two layers of x (as the host computes them). -/
theorem mlp_rows (e : Fin R' → Fin R) pb1 pb2 p1 p2 pz p1' p2'
    (x' : FVec Ideal ⟨2, ![R', K]⟩ φ₁) (wa' : FVec Ideal ⟨2, ![K, H]⟩ φ₂) (ba' : FVec Ideal ⟨2, ![1, H]⟩ .f32)
    (wb' : FVec Ideal ⟨2, ![H, N]⟩ φ₄) (bb' : FVec Ideal ⟨2, ![1, N]⟩ .f32)
    (x : FVec Ideal ⟨2, ![R, K]⟩ .f32) (wa : FVec Ideal ⟨2, ![K, H]⟩ .f32) (b1 : FVec Ideal ⟨1, ![H]⟩ .f32)
    (wb : FVec Ideal ⟨2, ![H, N]⟩ .f32) (b2 : FVec Ideal ⟨1, ![N]⟩ .f32)
    (hx : ∀ r k, x' (ix2 r k) = x (ix2 (e r) k)) (hwa : ∀ k n, wa' (ix2 k n) = wa (ix2 k n))
    (hba : ∀ n, ba' (ix2 (0 : Fin 1) n) = b1 (ix1 n))
    (hwb : ∀ k n, wb' (ix2 k n) = wb (ix2 k n)) (hbb : ∀ n, bb' (ix2 (0 : Fin 1) n) = b2 (ix1 n)) :
    RowsOf e (affK (φ₁ := φ₃) pb2 (reluK (affK pb1 x' wa' ba')) wb' bb')
      (affR (R := R) p1' p2' (reluR pz (affR (R := R) p1 p2 x wa b1)) wb b2) :=
  aff_rows e pb2 p1' p2' _ wb' bb' _ wb b2
    (relu_rows e pz _ _ (aff_rows e pb1 p1 p2 x' wa' ba' x wa b1 hx hwa hba)) hwb hbb

end TwoLayers

/-! ## The kernel's payload and the host's function in that form -/

/-- The encoder's payload is the two layers of its blocks: the operands rounded into the matrix unit are themselves,
    and a bias cast to its own shape is itself. -/
theorem pay0_eq (x : Vec Ideal S1000x4652 .f32) (wa : Vec Ideal S4652x256 .f32) (ba : Vec Ideal S1x256 .f32)
    (wb : Vec Ideal S256x256 .f32) (bb : Vec Ideal S1x256 .f32) :
    Gen.k0_pay1 (F := Ideal) x wa ba wb bb
      = affK (R := 1000) (K := 256) (N := 256) (φ₁ := .bf16) (φ₂ := .bf16) Cert.KernelIdeal.Facts₀.broadcasts_S1x256_S1000x256
          (reluK (affK (R := 1000) (K := 4652) (N := 256) (φ₁ := .bf16) (φ₂ := .bf16) Cert.KernelIdeal.Facts₀.broadcasts_S1x256_S1000x256 x wa ba)) wb bb := by
  unfold Gen.k0_pay1
  rw [shapeCast_self, shapeCast_self]
  rfl

/-- The classifier's payload is the two layers of its blocks. -/
theorem pay7_eq (x : Vec Ideal S5000x512 .f32) (wa : Vec Ideal S512x256 .f32) (ba : Vec Ideal S1x256 .f32)
    (wb : Vec Ideal S256x5 .f32) (bb : Vec Ideal S1x5 .f32) :
    Gen.k7_pay1 (F := Ideal) x wa ba wb bb
      = affK (R := 5000) (K := 256) (N := 5) (φ₁ := .bf16) (φ₂ := .bf16) Cert.KernelIdeal.Facts₀.broadcasts_S1x5_S5000x5
          (reluK (affK (R := 5000) (K := 512) (N := 256) (φ₁ := .bf16) (φ₂ := .bf16) Cert.KernelIdeal.Facts₀.broadcasts_S1x256_S5000x256 x wa ba)) wb bb := by
  unfold Gen.k7_pay1
  rw [shapeCast_self, shapeCast_self, shapeCast_self]
  rfl

/-- The host's encoder in the same form. -/
theorem mlpIn_eq (X : FVec Ideal Cert.ReferenceIdeal.S50000x4652 .f32) (Wa : FVec Ideal Cert.ReferenceIdeal.S4652x256 .f32)
    (b1 : FVec Ideal Cert.ReferenceIdeal.S256 .f32) (Wb : FVec Ideal Cert.ReferenceIdeal.S256x256 .f32)
    (b2 : FVec Ideal Cert.ReferenceIdeal.S256 .f32) :
    Cert.Spell.mlpIn X Wa b1 Wb b2
      = affR (R := 50000) (K := 256) (N := 256) Cert.ReferenceIdeal.Facts₀.bcast_S256_S1x256_1 Cert.ReferenceIdeal.Facts₀.bcast_S1x256_S50000x256_0_1
          (reluR Cert.ReferenceIdeal.Facts₀.bcast_S_S50000x256
            (affR (R := 50000) (K := 4652) (N := 256) Cert.ReferenceIdeal.Facts₀.bcast_S256_S1x256_1 Cert.ReferenceIdeal.Facts₀.bcast_S1x256_S50000x256_0_1 X Wa b1)) Wb b2 := rfl

/-- The host's classifier in the same form. -/
theorem mlpOut_eq (X : FVec Ideal Cert.ReferenceIdeal.S5000x512 .f32) (Wa : FVec Ideal Cert.ReferenceIdeal.S512x256 .f32)
    (b1 : FVec Ideal Cert.ReferenceIdeal.S256 .f32) (Wb : FVec Ideal Cert.ReferenceIdeal.S256x5 .f32)
    (b2 : FVec Ideal Cert.ReferenceIdeal.S5 .f32) :
    Cert.Spell.mlpOut X Wa b1 Wb b2
      = affR (R := 5000) (K := 256) (N := 5) Cert.ReferenceIdeal.Facts₀.bcast_S5_S1x5_1 Cert.ReferenceIdeal.Facts₀.bcast_S1x5_S5000x5_0_1
          (reluR Cert.ReferenceIdeal.Facts₀.bcast_S_S5000x256
            (affR (R := 5000) (K := 512) (N := 256) Cert.ReferenceIdeal.Facts₀.bcast_S256_S1x256_1 Cert.ReferenceIdeal.Facts₀.bcast_S1x256_S5000x256_0_1 X Wa b1)) Wb b2 := rfl

/-! ## The encoder: fifty blocks of a thousand rows -/

/-- The offsets of a whole-block access are zero on both axes. -/
theorem hz : (![0, 0] : Fin 2 → Nat) = fun _ => 0 := funext fun a => by fin_cases a <;> rfl

/-- The printed index maps over the grid: at point t the input and the output are at block row t, and the weights and
    biases have their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the array that row r of the block of point t is: 1000 · t + r. -/
def row0 (t : Fin cfg0.N) (r : Fin 1000) : Fin 50000 :=
  ⟨1000 * t.val + r.val, by have := (show t.val < grid0.N from t.isLt).trans_eq Gen.N_0; have := r.isLt; omega⟩

section Region0

variable (V : (c : Dev nD) → (b : Ref sig .tc) → Buf (Elt Ideal) ((c : Thread nD τ).loc b)) (c : Dev nD)

/-- The input's block at point t holds rows 1000 · t … 1000 · t + 999 of the input. -/
theorem blk0_0 (t : Fin cfg0.N) (r : Fin 1000) (k : Fin 4652) :
    (Gen.iblk0 (F := Ideal) V c 0 t : Vec Ideal S1000x4652 .f32) (ix2 r k) = V c (Pipeline.arrRef spec0 0) (ix2 (row0 t r) k) := by
  obtain ⟨e0, e1, -⟩ := idx0 t
  show V c (Pipeline.arrRef spec0 0) (((cfg0.win 0).blk t).view.emb (ix2 r k)) = V c (Pipeline.arrRef spec0 0) (ix2 (row0 t r) k)
  refine congrArg _ (funext fun a => Fin.ext ?_)
  match a with
  | ⟨0, _⟩ => show win0_0.index t (0 : Fin 2) * 1000 + 1 * r.val = 1000 * t.val + r.val; rw [e0]; omega
  | ⟨1, _⟩ => show win0_0.index t (1 : Fin 2) * 4652 + 1 * k.val = k.val; rw [e1]; omega

/-- The first weight's one block is the weight. -/
theorem blk0_1 (t : Fin cfg0.N) (k : Fin 4652) (n : Fin 256) :
    (Gen.iblk0 (F := Ideal) V c 1 t : Vec Ideal S4652x256 .f32) (ix2 k n) = V c (Pipeline.arrRef spec0 1) (ix2 k n) := by
  obtain ⟨-, -, e0, e1, -⟩ := idx0 t
  show V c (Pipeline.arrRef spec0 1) (((cfg0.win 1).blk t).view.emb (ix2 k n)) = V c (Pipeline.arrRef spec0 1) (ix2 k n)
  refine congrArg _ (funext fun a => Fin.ext ?_)
  match a with
  | ⟨0, _⟩ => show win0_1.index t (0 : Fin 2) * 4652 + 1 * k.val = k.val; rw [e0]; omega
  | ⟨1, _⟩ => show win0_1.index t (1 : Fin 2) * 256 + 1 * n.val = n.val; rw [e1]; omega

/-- The first bias's one block is the bias row. -/
theorem blk0_2 (t : Fin cfg0.N) (n : Fin 256) :
    (Gen.iblk0 (F := Ideal) V c 2 t : Vec Ideal S1x256 .f32) (ix2 (0 : Fin 1) n) = V c (Pipeline.arrRef spec0 2) (ix2 (0 : Fin 1) n) := by
  obtain ⟨-, -, -, -, e0, e1, -⟩ := idx0 t
  show V c (Pipeline.arrRef spec0 2) (((cfg0.win 2).blk t).view.emb (ix2 (0 : Fin 1) n)) = V c (Pipeline.arrRef spec0 2) (ix2 (0 : Fin 1) n)
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * n.val = n.val; rw [e1]; omega

/-- The second weight's one block is the weight. -/
theorem blk0_3 (t : Fin cfg0.N) (k : Fin 256) (n : Fin 256) :
    (Gen.iblk0 (F := Ideal) V c 3 t : Vec Ideal S256x256 .f32) (ix2 k n) = V c (Pipeline.arrRef spec0 3) (ix2 k n) := by
  obtain ⟨-, -, -, -, -, -, e0, e1, -⟩ := idx0 t
  show V c (Pipeline.arrRef spec0 3) (((cfg0.win 3).blk t).view.emb (ix2 k n)) = V c (Pipeline.arrRef spec0 3) (ix2 k n)
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * n.val = n.val; rw [e1]; omega

/-- The second bias's one block is the bias row. -/
theorem blk0_4 (t : Fin cfg0.N) (n : Fin 256) :
    (Gen.iblk0 (F := Ideal) V c 4 t : Vec Ideal S1x256 .f32) (ix2 (0 : Fin 1) n) = V c (Pipeline.arrRef spec0 4) (ix2 (0 : Fin 1) n) := by
  obtain ⟨-, -, -, -, -, -, -, -, e0, e1, -⟩ := idx0 t
  show V c (Pipeline.arrRef spec0 4) (((cfg0.win 4).blk t).view.emb (ix2 (0 : Fin 1) n)) = V c (Pipeline.arrRef spec0 4) (ix2 (0 : Fin 1) n)
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * n.val = n.val; rw [e1]; omega

/-- Row r of the output's block at point t sits at row 1000 · t + r of the output. -/
theorem emb0_5 (t : Fin cfg0.N) (r : Fin 1000) (n : Fin 256) :
    ((cfg0.win 5).blk t).view.emb (ix2 r n) = ix2 (row0 t r) n := by
  obtain ⟨-, -, -, -, -, -, -, -, -, -, e0, e1⟩ := idx0 t
  funext a; apply Fin.ext
  match a with
  | ⟨0, _⟩ => show win0_5.index t (0 : Fin 2) * 1000 + 1 * r.val = 1000 * t.val + r.val; rw [e0]; omega
  | ⟨1, _⟩ => show win0_5.index t (1 : Fin 2) * 256 + 1 * n.val = n.val; rw [e1]; omega

/-- What point t writes back is block t of the host's two layers of the whole input. -/
theorem flushed0 (X : FVec Ideal Cert.ReferenceIdeal.S50000x4652 .f32) (Wa : FVec Ideal Cert.ReferenceIdeal.S4652x256 .f32)
    (b1 : FVec Ideal Cert.ReferenceIdeal.S256 .f32) (Wb : FVec Ideal Cert.ReferenceIdeal.S256x256 .f32)
    (b2 : FVec Ideal Cert.ReferenceIdeal.S256 .f32)
    (hX : V c (Pipeline.arrRef spec0 0) = X) (hWa : V c (Pipeline.arrRef spec0 1) = Wa)
    (hb1 : ∀ n : Fin 256, V c (Pipeline.arrRef spec0 2) (ValueIdx.ix2 (0 : Fin 1) n) = b1 (ValueIdx.ix1 n))
    (hWb : V c (Pipeline.arrRef spec0 3) = Wb)
    (hb2 : ∀ n : Fin 256, V c (Pipeline.arrRef spec0 4) (ValueIdx.ix2 (0 : Fin 1) n) = b2 (ValueIdx.ix1 n))
    (t : Fin cfg0.N) :
    (Gen.dat0 (F := Ideal) V c).flushed 5 t = ((cfg0.win 5).blk t).view.read (Elt Ideal) (Cert.Spell.mlpIn X Wa b1 Wb b2) := by
  show (cfg0.win 5).cut (grid0.coords t) ((Gen.dat0 (F := Ideal) V c).after 5 t) = _
  rw [Gen.after0_5]
  unfold Gen.out0_5
  rw [View.canon_unit_zero hz]
  simp only [View.ld_unit_zero (S := S1000x4652) hz, View.ld_unit_zero (S := S4652x256) hz, View.ld_unit_zero (S := S1x256) hz, View.ld_unit_zero (S := S256x256) hz]
  rw [pay0_eq]
  funext j
  obtain ⟨r, n, rfl⟩ : ∃ (r : Fin 1000) (n : Fin 256), j = ix2 r n := ⟨j 0, j 1, eq_ix2 j⟩
  refine Eq.trans (b := Cert.Spell.mlpIn X Wa b1 Wb b2 (ix2 (row0 t r) n)) ?_
    (congrArg (Cert.Spell.mlpIn X Wa b1 Wb b2) (emb0_5 t r n)).symm
  rw [mlpIn_eq]
  exact mlp_rows (row0 t) _ _ _ _ _ _ _ _ _ _ _ _ X Wa b1 Wb b2
    (fun r' k => (blk0_0 V c t r' k).trans (by rw [hX])) (fun k n' => (blk0_1 V c t k n').trans (by rw [hWa]))
    (fun n' => (blk0_2 V c t n').trans (hb1 n'))
    (fun k n' => (blk0_3 V c t k n').trans (by rw [hWb])) (fun n' => (blk0_4 V c t n').trans (hb2 n')) r n
/-- Row r of the array lies in the block of point r / 1000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 1000 :=
    ⟨⟨(i 0).val / 1000, by show _ < grid0.N; rw [Gen.N_0]; omega⟩, rfl⟩
  obtain ⟨-, -, -, -, -, -, -, -, -, -, e50, e51⟩ := idx0 t
  refine ⟨t, Gen.flush0_5 t, ?_⟩
  show i ∈ ((View.whole main_v10).slice (win0_5.rect t)).set
  rw [View.set_slice_whole, Rect.mem_set_unit]
  intro a
  match a with
  | ⟨0, _⟩ =>
    show win0_5.index t (0 : Fin 2) * 1000 ≤ (i 0).val ∧ (i 0).val < win0_5.index t (0 : Fin 2) * 1000 + 1000
    rw [e50, ht]; omega
  | ⟨1, _⟩ =>
    show win0_5.index t (1 : Fin 2) * 256 ≤ (i 1).val ∧ (i 1).val < win0_5.index t (1 : Fin 2) * 256 + 256
    rw [e51]; omega

/-- THE ENCODER: the array the fifty blocks leave is the host's two layers of the whole input. -/
theorem in0 (X : FVec Ideal Cert.ReferenceIdeal.S50000x4652 .f32) (Wa : FVec Ideal Cert.ReferenceIdeal.S4652x256 .f32)
    (b1 : FVec Ideal Cert.ReferenceIdeal.S256 .f32) (Wb : FVec Ideal Cert.ReferenceIdeal.S256x256 .f32)
    (b2 : FVec Ideal Cert.ReferenceIdeal.S256 .f32)
    (hX : V c (Pipeline.arrRef spec0 0) = X) (hWa : V c (Pipeline.arrRef spec0 1) = Wa)
    (hb1 : ∀ n : Fin 256, V c (Pipeline.arrRef spec0 2) (ValueIdx.ix2 (0 : Fin 1) n) = b1 (ValueIdx.ix1 n))
    (hWb : V c (Pipeline.arrRef spec0 3) = Wb)
    (hb2 : ∀ n : Fin 256, V c (Pipeline.arrRef spec0 4) (ValueIdx.ix2 (0 : Fin 1) n) = b2 (ValueIdx.ix1 n)) :
    (Gen.dat0 (F := Ideal) V c).arrAt 5 cfg0.N = Cert.Spell.mlpIn X Wa b1 Wb b2 :=
  (Gen.dat0 (F := Ideal) V c).arrAt_eq_of_cover 5 (Cert.Spell.mlpIn X Wa b1 Wb b2)
    (fun t _ => flushed0 V c X Wa b1 Wb b2 hX hWa hb1 hWb hb2 t) cover0

end Region0

/-! ## The classifier: one block, the whole array -/

/-- The printed index maps at the grid's one point: every window is at its one block. -/
theorem idx7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

section Region7

variable (V : (c : Dev nD) → (b : Ref sig .tc) → Buf (Elt Ideal) ((c : Thread nD τ).loc b)) (c : Dev nD)

/-- The input's one block is the input. -/
theorem blk7_0 (t : Fin cfg7.N) (r : Fin 5000) (k : Fin 512) :
    (Gen.iblk7 (F := Ideal) V c 0 t : Vec Ideal S5000x512 .f32) (ix2 r k) = V c (Pipeline.arrRef spec7 0) (ix2 r k) := by
  obtain ⟨e0, e1, -⟩ := idx7 t
  show V c (Pipeline.arrRef spec7 0) (((cfg7.win 0).blk t).view.emb (ix2 r k)) = V c (Pipeline.arrRef spec7 0) (ix2 r k)
  refine congrArg _ (funext fun a => Fin.ext ?_)
  match a with
  | ⟨0, _⟩ => show win7_0.index t (0 : Fin 2) * 5000 + 1 * r.val = r.val; rw [e0]; omega
  | ⟨1, _⟩ => show win7_0.index t (1 : Fin 2) * 512 + 1 * k.val = k.val; rw [e1]; omega

/-- The first weight's one block is the weight. -/
theorem blk7_1 (t : Fin cfg7.N) (k : Fin 512) (n : Fin 256) :
    (Gen.iblk7 (F := Ideal) V c 1 t : Vec Ideal S512x256 .f32) (ix2 k n) = V c (Pipeline.arrRef spec7 1) (ix2 k n) := by
  obtain ⟨-, -, e0, e1, -⟩ := idx7 t
  show V c (Pipeline.arrRef spec7 1) (((cfg7.win 1).blk t).view.emb (ix2 k n)) = V c (Pipeline.arrRef spec7 1) (ix2 k n)
  refine congrArg _ (funext fun a => Fin.ext ?_)
  match a with
  | ⟨0, _⟩ => show win7_1.index t (0 : Fin 2) * 512 + 1 * k.val = k.val; rw [e0]; omega
  | ⟨1, _⟩ => show win7_1.index t (1 : Fin 2) * 256 + 1 * n.val = n.val; rw [e1]; omega

/-- The first bias's one block is the bias row. -/
theorem blk7_2 (t : Fin cfg7.N) (n : Fin 256) :
    (Gen.iblk7 (F := Ideal) V c 2 t : Vec Ideal S1x256 .f32) (ix2 (0 : Fin 1) n) = V c (Pipeline.arrRef spec7 2) (ix2 (0 : Fin 1) n) := by
  obtain ⟨-, -, -, -, e0, e1, -⟩ := idx7 t
  show V c (Pipeline.arrRef spec7 2) (((cfg7.win 2).blk t).view.emb (ix2 (0 : Fin 1) n)) = V c (Pipeline.arrRef spec7 2) (ix2 (0 : Fin 1) n)
  refine congrArg _ (funext fun a => Fin.ext ?_)
  match a with
  | ⟨0, _⟩ => show win7_2.index t (0 : Fin 2) * 1 + 1 * 0 = 0; rw [e0]
  | ⟨1, _⟩ => show win7_2.index t (1 : Fin 2) * 256 + 1 * n.val = n.val; rw [e1]; omega

/-- The second weight's one block is the weight. -/
theorem blk7_3 (t : Fin cfg7.N) (k : Fin 256) (n : Fin 5) :
    (Gen.iblk7 (F := Ideal) V c 3 t : Vec Ideal S256x5 .f32) (ix2 k n) = V c (Pipeline.arrRef spec7 3) (ix2 k n) := by
  obtain ⟨-, -, -, -, -, -, e0, e1, -⟩ := idx7 t
  show V c (Pipeline.arrRef spec7 3) (((cfg7.win 3).blk t).view.emb (ix2 k n)) = V c (Pipeline.arrRef spec7 3) (ix2 k n)
  refine congrArg _ (funext fun a => Fin.ext ?_)
  match a with
  | ⟨0, _⟩ => show win7_3.index t (0 : Fin 2) * 256 + 1 * k.val = k.val; rw [e0]; omega
  | ⟨1, _⟩ => show win7_3.index t (1 : Fin 2) * 5 + 1 * n.val = n.val; rw [e1]; omega

/-- The second bias's one block is the bias row. -/
theorem blk7_4 (t : Fin cfg7.N) (n : Fin 5) :
    (Gen.iblk7 (F := Ideal) V c 4 t : Vec Ideal S1x5 .f32) (ix2 (0 : Fin 1) n) = V c (Pipeline.arrRef spec7 4) (ix2 (0 : Fin 1) n) := by
  obtain ⟨-, -, -, -, -, -, -, -, e0, e1, -⟩ := idx7 t
  show V c (Pipeline.arrRef spec7 4) (((cfg7.win 4).blk t).view.emb (ix2 (0 : Fin 1) n)) = V c (Pipeline.arrRef spec7 4) (ix2 (0 : Fin 1) n)
  refine congrArg _ (funext fun a => Fin.ext ?_)
  match a with
  | ⟨0, _⟩ => show win7_4.index t (0 : Fin 2) * 1 + 1 * 0 = 0; rw [e0]
  | ⟨1, _⟩ => show win7_4.index t (1 : Fin 2) * 5 + 1 * n.val = n.val; rw [e1]; omega

/-- The output's one block sits on the output, row for row. -/
theorem emb7_5 (t : Fin cfg7.N) (r : Fin 5000) (n : Fin 5) :
    ((cfg7.win 5).blk t).view.emb (ix2 r n) = ix2 r n := by
  obtain ⟨-, -, -, -, -, -, -, -, -, -, e0, e1⟩ := idx7 t
  funext a; apply Fin.ext
  match a with
  | ⟨0, _⟩ => show win7_5.index t (0 : Fin 2) * 5000 + 1 * r.val = r.val; rw [e0]; omega
  | ⟨1, _⟩ => show win7_5.index t (1 : Fin 2) * 5 + 1 * n.val = n.val; rw [e1]; omega

/-- What the one point writes back is the host's two layers of the whole input, read through the one block. -/
theorem flushed7 (X : FVec Ideal Cert.ReferenceIdeal.S5000x512 .f32) (Wa : FVec Ideal Cert.ReferenceIdeal.S512x256 .f32)
    (b1 : FVec Ideal Cert.ReferenceIdeal.S256 .f32) (Wb : FVec Ideal Cert.ReferenceIdeal.S256x5 .f32)
    (b2 : FVec Ideal Cert.ReferenceIdeal.S5 .f32)
    (hX : V c (Pipeline.arrRef spec7 0) = X) (hWa : V c (Pipeline.arrRef spec7 1) = Wa)
    (hb1 : ∀ n : Fin 256, V c (Pipeline.arrRef spec7 2) (ValueIdx.ix2 (0 : Fin 1) n) = b1 (ValueIdx.ix1 n))
    (hWb : V c (Pipeline.arrRef spec7 3) = Wb)
    (hb2 : ∀ n : Fin 5, V c (Pipeline.arrRef spec7 4) (ValueIdx.ix2 (0 : Fin 1) n) = b2 (ValueIdx.ix1 n))
    (t : Fin cfg7.N) :
    (Gen.dat7 (F := Ideal) V c).flushed 5 t = ((cfg7.win 5).blk t).view.read (Elt Ideal) (Cert.Spell.mlpOut X Wa b1 Wb b2) := by
  show (cfg7.win 5).cut (grid7.coords t) ((Gen.dat7 (F := Ideal) V c).after 5 t) = _
  rw [Gen.after7_5]
  unfold Gen.out7_5
  rw [View.canon_unit_zero hz]
  simp only [View.ld_unit_zero (S := S5000x512) hz, View.ld_unit_zero (S := S512x256) hz, View.ld_unit_zero (S := S1x256) hz, View.ld_unit_zero (S := S256x5) hz, View.ld_unit_zero (S := S1x5) hz]
  rw [pay7_eq]
  funext j
  obtain ⟨r, n, rfl⟩ : ∃ (r : Fin 5000) (n : Fin 5), j = ix2 r n := ⟨j 0, j 1, eq_ix2 j⟩
  refine Eq.trans (b := Cert.Spell.mlpOut X Wa b1 Wb b2 (ix2 r n)) ?_
    (congrArg (Cert.Spell.mlpOut X Wa b1 Wb b2) (emb7_5 t r n)).symm
  rw [mlpOut_eq]
  exact mlp_rows (fun r' : Fin 5000 => r') _ _ _ _ _ _ _ _ _ _ _ _ X Wa b1 Wb b2
    (fun r' k => (blk7_0 V c t r' k).trans (by rw [hX])) (fun k n' => (blk7_1 V c t k n').trans (by rw [hWa]))
    (fun n' => (blk7_2 V c t n').trans (hb1 n'))
    (fun k n' => (blk7_3 V c t k n').trans (by rw [hWb])) (fun n' => (blk7_4 V c t n').trans (hb2 n')) r n
/-- The one block covers the array. -/
theorem cover7 (i : S5000x5.Idx) :
    ∃ t : Fin cfg7.N, (cfg7.win 5).flush t = true ∧ i ∈ ((cfg7.win 5).blk t).view.set := by
  have hi0 : (i 0).val < 5000 := (i 0).isLt
  have hi1 : (i 1).val < 5 := (i 1).isLt
  obtain ⟨-, -, -, -, -, -, -, -, -, -, e50, e51⟩ := idx7 Gen.t7_0
  refine ⟨Gen.t7_0, Gen.flush7_5 Gen.t7_0, ?_⟩
  show i ∈ ((View.whole main_v222).slice (win7_5.rect Gen.t7_0)).set
  rw [View.set_slice_whole, Rect.mem_set_unit]
  intro a
  match a with
  | ⟨0, _⟩ =>
    show win7_5.index Gen.t7_0 (0 : Fin 2) * 5000 ≤ (i 0).val ∧ (i 0).val < win7_5.index Gen.t7_0 (0 : Fin 2) * 5000 + 5000
    rw [e50]; omega
  | ⟨1, _⟩ =>
    show win7_5.index Gen.t7_0 (1 : Fin 2) * 5 ≤ (i 1).val ∧ (i 1).val < win7_5.index Gen.t7_0 (1 : Fin 2) * 5 + 5
    rw [e51]; omega

/-- THE CLASSIFIER: the array the one block leaves is the host's two layers of the whole input. -/
theorem out7 (X : FVec Ideal Cert.ReferenceIdeal.S5000x512 .f32) (Wa : FVec Ideal Cert.ReferenceIdeal.S512x256 .f32)
    (b1 : FVec Ideal Cert.ReferenceIdeal.S256 .f32) (Wb : FVec Ideal Cert.ReferenceIdeal.S256x5 .f32)
    (b2 : FVec Ideal Cert.ReferenceIdeal.S5 .f32)
    (hX : V c (Pipeline.arrRef spec7 0) = X) (hWa : V c (Pipeline.arrRef spec7 1) = Wa)
    (hb1 : ∀ n : Fin 256, V c (Pipeline.arrRef spec7 2) (ValueIdx.ix2 (0 : Fin 1) n) = b1 (ValueIdx.ix1 n))
    (hWb : V c (Pipeline.arrRef spec7 3) = Wb)
    (hb2 : ∀ n : Fin 5, V c (Pipeline.arrRef spec7 4) (ValueIdx.ix2 (0 : Fin 1) n) = b2 (ValueIdx.ix1 n)) :
    (Gen.dat7 (F := Ideal) V c).arrAt 5 cfg7.N = Cert.Spell.mlpOut X Wa b1 Wb b2 :=
  (Gen.dat7 (F := Ideal) V c).arrAt_eq_of_cover 5 (Cert.Spell.mlpOut X Wa b1 Wb b2)
    (fun t _ => flushed7 V c X Wa b1 Wb b2 hX hWa hb1 hWb hb2 t) cover7

end Region7

end Cert.KernelIdeal.RegionEnds

end
-- ==== Proof.RowBias.lean ====
/-
  A vector laid out as a one-row matrix by a reshape reads, at (0, n), the vector's entry n: a reshape keeps the
  row-major order, and the row-major position of (0, n) in a [1, N] array is n.
-/
import Idealize.ShloMosaic.Lib.Pipeline.Value
import Idealize.ShloMosaic.Lib.ValueIdx

noncomputable section

namespace Cert.Layout

open Idealize.ShloMosaic Idealize.ShloMosaic.ValueIdx

/-- The reshape [N] → [1, N] of a vector, read at (0, n), is the vector at n. -/
theorem shapeCast_row_apply {α : Type} {N : ℕ} (v : (⟨1, ![N]⟩ : Shape).Idx → α)
    (h : (⟨1, ![N]⟩ : Shape).ShapeCasts ⟨2, ![1, N]⟩) (n : Fin N) :
    shapeCast ⟨2, ![1, N]⟩ v h (ix2 (0 : Fin 1) n) = v (ix1 n) := by
  refine (shapeCast_addUnit_apply ![N] v h (ix2 (0 : Fin 1) n)).trans (congrArg v ?_)
  funext a
  match a with
  | ⟨0, _⟩ => rfl

end Cert.Layout

end
-- ==== Proof.KernelValue.lean ====
/-
  The kernel program's buffers, boundary by boundary from the launch memory to the return: at each boundary every
  buffer that is still read later holds the value of the reference program's corresponding stage (an argument holds
  its launch contents; a bias laid out as a row holds the bias). A host stretch carries this forward because it applies
  the reference's own operations; a kernel launch because its output array is the dense layer of its input arrays.
-/
import proofs.«110263_j50620484551136_1_alg».proof.Proof.Gen.KernelIdeal.Frame
import proofs.«110263_j50620484551136_1_alg».proof.Proof.ChainHost0
import proofs.«110263_j50620484551136_1_alg».proof.Proof.ChainHost2
import proofs.«110263_j50620484551136_1_alg».proof.Proof.ChainHost3
import proofs.«110263_j50620484551136_1_alg».proof.Proof.ChainHost4
import proofs.«110263_j50620484551136_1_alg».proof.Proof.ChainHost6
import proofs.«110263_j50620484551136_1_alg».proof.Proof.ChainHost7
import proofs.«110263_j50620484551136_1_alg».proof.Proof.ChainHost8
import proofs.«110263_j50620484551136_1_alg».proof.Proof.ChainHost9
import proofs.«110263_j50620484551136_1_alg».proof.Proof.ChainHost10
import proofs.«110263_j50620484551136_1_alg».proof.Proof.ChainHost12
import proofs.«110263_j50620484551136_1_alg».proof.Proof.ChainHost13
import proofs.«110263_j50620484551136_1_alg».proof.Proof.ChainHost14
import proofs.«110263_j50620484551136_1_alg».proof.Proof.ChainHost16
import proofs.«110263_j50620484551136_1_alg».proof.Proof.ChainHost17
import proofs.«110263_j50620484551136_1_alg».proof.Proof.ChainHost18
import proofs.«110263_j50620484551136_1_alg».proof.Proof.ChainHost20
import proofs.«110263_j50620484551136_1_alg».proof.Proof.ChainHost21
import proofs.«110263_j50620484551136_1_alg».proof.Proof.ChainHost22
import proofs.«110263_j50620484551136_1_alg».proof.Proof.ChainHost23
import proofs.«110263_j50620484551136_1_alg».proof.Proof.ChainHost24
import proofs.«110263_j50620484551136_1_alg».proof.Proof.ChainHost26
import proofs.«110263_j50620484551136_1_alg».proof.Proof.ChainHost27
import proofs.«110263_j50620484551136_1_alg».proof.Proof.ChainHost28
import proofs.«110263_j50620484551136_1_alg».proof.Proof.ChainHost30
import proofs.«110263_j50620484551136_1_alg».proof.Proof.ChainHost32
import proofs.«110263_j50620484551136_1_alg».proof.Proof.RegionLin
import proofs.«110263_j50620484551136_1_alg».proof.Proof.RegionMid
import proofs.«110263_j50620484551136_1_alg».proof.Proof.RegionEnds
import proofs.«110263_j50620484551136_1_alg».proof.Proof.RowBias

noncomputable section

namespace Cert.KernelIdeal.KValue

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-! ## After the stretch hostOps0 -/

theorem I0_main_v1 : W1 m ρ c (Proc.devRef .tc main_v1) = val_main_v1 (F := Ideal) (m ((c : Thread nD τ).loc main_arg1)) :=
  Chain.g0_main_v1 (W0 m ρ c) (rfl : W0 m ρ c (Proc.devRef .tc main_arg1) = (m ((c : Thread nD τ).loc main_arg1)))

theorem I0_main_v3 : W1 m ρ c (Proc.devRef .tc main_v3) = val_main_v3 (F := Ideal) (m ((c : Thread nD τ).loc main_arg1)) :=
  Chain.g0_main_v3 (W0 m ρ c) (rfl : W0 m ρ c (Proc.devRef .tc main_arg1) = (m ((c : Thread nD τ).loc main_arg1)))

theorem I0_main_v5 : W1 m ρ c (Proc.devRef .tc main_v5) = val_main_v5 (F := Ideal) (m ((c : Thread nD τ).loc main_arg2)) :=
  Chain.g0_main_v5 (W0 m ρ c) (rfl : W0 m ρ c (Proc.devRef .tc main_arg2) = (m ((c : Thread nD τ).loc main_arg2)))

theorem I0_main_v7 : W1 m ρ c (Proc.devRef .tc main_v7) = val_main_v7 (F := Ideal) (m ((c : Thread nD τ).loc main_arg2)) :=
  Chain.g0_main_v7 (W0 m ρ c) (rfl : W0 m ρ c (Proc.devRef .tc main_arg2) = (m ((c : Thread nD τ).loc main_arg2)))

theorem I0_main_v8 : ∀ n : Fin 256, W1 m ρ c (Proc.devRef .tc main_v8) (ValueIdx.ix2 (0 : Fin 1) n) = (m ((c : Thread nD τ).loc main_arg6)) (ValueIdx.ix1 n) :=
  fun n => (congrFun (Chain.g0_main_v8 (W0 m ρ c) (rfl : W0 m ρ c (Proc.devRef .tc main_arg6) = (m ((c : Thread nD τ).loc main_arg6)))) _).trans (Cert.Layout.shapeCast_row_apply _ _ n)

theorem I0_main_v9 : ∀ n : Fin 256, W1 m ρ c (Proc.devRef .tc main_v9) (ValueIdx.ix2 (0 : Fin 1) n) = (m ((c : Thread nD τ).loc main_arg8)) (ValueIdx.ix1 n) :=
  fun n => (congrFun (Chain.g0_main_v9 (W0 m ρ c) (rfl : W0 m ρ c (Proc.devRef .tc main_arg8) = (m ((c : Thread nD τ).loc main_arg8)))) _).trans (Cert.Layout.shapeCast_row_apply _ _ n)

theorem I0_main_arg0 : W1 m ρ c (Proc.devRef .tc main_arg0) = (m ((c : Thread nD τ).loc main_arg0)) :=
  (Chain.g0_keep_main_arg0 (W0 m ρ c)).trans (rfl : W0 m ρ c (Proc.devRef .tc main_arg0) = (m ((c : Thread nD τ).loc main_arg0)))

theorem I0_main_arg3 : W1 m ρ c (Proc.devRef .tc main_arg3) = (m ((c : Thread nD τ).loc main_arg3)) :=
  (Chain.g0_keep_main_arg3 (W0 m ρ c)).trans (rfl : W0 m ρ c (Proc.devRef .tc main_arg3) = (m ((c : Thread nD τ).loc main_arg3)))

theorem I0_main_arg4 : W1 m ρ c (Proc.devRef .tc main_arg4) = (m ((c : Thread nD τ).loc main_arg4)) :=
  (Chain.g0_keep_main_arg4 (W0 m ρ c)).trans (rfl : W0 m ρ c (Proc.devRef .tc main_arg4) = (m ((c : Thread nD τ).loc main_arg4)))

theorem I0_main_arg5 : W1 m ρ c (Proc.devRef .tc main_arg5) = (m ((c : Thread nD τ).loc main_arg5)) :=
  (Chain.g0_keep_main_arg5 (W0 m ρ c)).trans (rfl : W0 m ρ c (Proc.devRef .tc main_arg5) = (m ((c : Thread nD τ).loc main_arg5)))

theorem I0_main_arg7 : W1 m ρ c (Proc.devRef .tc main_arg7) = (m ((c : Thread nD τ).loc main_arg7)) :=
  (Chain.g0_keep_main_arg7 (W0 m ρ c)).trans (rfl : W0 m ρ c (Proc.devRef .tc main_arg7) = (m ((c : Thread nD τ).loc main_arg7)))

theorem I0_main_arg9 : W1 m ρ c (Proc.devRef .tc main_arg9) = (m ((c : Thread nD τ).loc main_arg9)) :=
  (Chain.g0_keep_main_arg9 (W0 m ρ c)).trans (rfl : W0 m ρ c (Proc.devRef .tc main_arg9) = (m ((c : Thread nD τ).loc main_arg9)))

theorem I0_main_arg10 : W1 m ρ c (Proc.devRef .tc main_arg10) = (m ((c : Thread nD τ).loc main_arg10)) :=
  (Chain.g0_keep_main_arg10 (W0 m ρ c)).trans (rfl : W0 m ρ c (Proc.devRef .tc main_arg10) = (m ((c : Thread nD τ).loc main_arg10)))

theorem I0_main_arg11 : W1 m ρ c (Proc.devRef .tc main_arg11) = (m ((c : Thread nD τ).loc main_arg11)) :=
  (Chain.g0_keep_main_arg11 (W0 m ρ c)).trans (rfl : W0 m ρ c (Proc.devRef .tc main_arg11) = (m ((c : Thread nD τ).loc main_arg11)))

theorem I0_main_arg12 : W1 m ρ c (Proc.devRef .tc main_arg12) = (m ((c : Thread nD τ).loc main_arg12)) :=
  (Chain.g0_keep_main_arg12 (W0 m ρ c)).trans (rfl : W0 m ρ c (Proc.devRef .tc main_arg12) = (m ((c : Thread nD τ).loc main_arg12)))

theorem I0_main_arg13 : W1 m ρ c (Proc.devRef .tc main_arg13) = (m ((c : Thread nD τ).loc main_arg13)) :=
  (Chain.g0_keep_main_arg13 (W0 m ρ c)).trans (rfl : W0 m ρ c (Proc.devRef .tc main_arg13) = (m ((c : Thread nD τ).loc main_arg13)))

theorem I0_main_arg14 : W1 m ρ c (Proc.devRef .tc main_arg14) = (m ((c : Thread nD τ).loc main_arg14)) :=
  (Chain.g0_keep_main_arg14 (W0 m ρ c)).trans (rfl : W0 m ρ c (Proc.devRef .tc main_arg14) = (m ((c : Thread nD τ).loc main_arg14)))

theorem I0_main_arg15 : W1 m ρ c (Proc.devRef .tc main_arg15) = (m ((c : Thread nD τ).loc main_arg15)) :=
  (Chain.g0_keep_main_arg15 (W0 m ρ c)).trans (rfl : W0 m ρ c (Proc.devRef .tc main_arg15) = (m ((c : Thread nD τ).loc main_arg15)))

theorem I0_main_arg16 : W1 m ρ c (Proc.devRef .tc main_arg16) = (m ((c : Thread nD τ).loc main_arg16)) :=
  (Chain.g0_keep_main_arg16 (W0 m ρ c)).trans (rfl : W0 m ρ c (Proc.devRef .tc main_arg16) = (m ((c : Thread nD τ).loc main_arg16)))

theorem I0_main_arg17 : W1 m ρ c (Proc.devRef .tc main_arg17) = (m ((c : Thread nD τ).loc main_arg17)) :=
  (Chain.g0_keep_main_arg17 (W0 m ρ c)).trans (rfl : W0 m ρ c (Proc.devRef .tc main_arg17) = (m ((c : Thread nD τ).loc main_arg17)))

theorem I0_main_arg18 : W1 m ρ c (Proc.devRef .tc main_arg18) = (m ((c : Thread nD τ).loc main_arg18)) :=
  (Chain.g0_keep_main_arg18 (W0 m ρ c)).trans (rfl : W0 m ρ c (Proc.devRef .tc main_arg18) = (m ((c : Thread nD τ).loc main_arg18)))

theorem I0_main_arg19 : W1 m ρ c (Proc.devRef .tc main_arg19) = (m ((c : Thread nD τ).loc main_arg19)) :=
  (Chain.g0_keep_main_arg19 (W0 m ρ c)).trans (rfl : W0 m ρ c (Proc.devRef .tc main_arg19) = (m ((c : Thread nD τ).loc main_arg19)))

theorem I0_main_arg20 : W1 m ρ c (Proc.devRef .tc main_arg20) = (m ((c : Thread nD τ).loc main_arg20)) :=
  (Chain.g0_keep_main_arg20 (W0 m ρ c)).trans (rfl : W0 m ρ c (Proc.devRef .tc main_arg20) = (m ((c : Thread nD τ).loc main_arg20)))

theorem I0_main_arg21 : W1 m ρ c (Proc.devRef .tc main_arg21) = (m ((c : Thread nD τ).loc main_arg21)) :=
  (Chain.g0_keep_main_arg21 (W0 m ρ c)).trans (rfl : W0 m ρ c (Proc.devRef .tc main_arg21) = (m ((c : Thread nD τ).loc main_arg21)))

theorem I0_main_arg22 : W1 m ρ c (Proc.devRef .tc main_arg22) = (m ((c : Thread nD τ).loc main_arg22)) :=
  (Chain.g0_keep_main_arg22 (W0 m ρ c)).trans (rfl : W0 m ρ c (Proc.devRef .tc main_arg22) = (m ((c : Thread nD τ).loc main_arg22)))

theorem I0_main_arg23 : W1 m ρ c (Proc.devRef .tc main_arg23) = (m ((c : Thread nD τ).loc main_arg23)) :=
  (Chain.g0_keep_main_arg23 (W0 m ρ c)).trans (rfl : W0 m ρ c (Proc.devRef .tc main_arg23) = (m ((c : Thread nD τ).loc main_arg23)))

theorem I0_main_arg24 : W1 m ρ c (Proc.devRef .tc main_arg24) = (m ((c : Thread nD τ).loc main_arg24)) :=
  (Chain.g0_keep_main_arg24 (W0 m ρ c)).trans (rfl : W0 m ρ c (Proc.devRef .tc main_arg24) = (m ((c : Thread nD τ).loc main_arg24)))

theorem I0_main_arg25 : W1 m ρ c (Proc.devRef .tc main_arg25) = (m ((c : Thread nD τ).loc main_arg25)) :=
  (Chain.g0_keep_main_arg25 (W0 m ρ c)).trans (rfl : W0 m ρ c (Proc.devRef .tc main_arg25) = (m ((c : Thread nD τ).loc main_arg25)))

theorem I0_main_arg26 : W1 m ρ c (Proc.devRef .tc main_arg26) = (m ((c : Thread nD τ).loc main_arg26)) :=
  (Chain.g0_keep_main_arg26 (W0 m ρ c)).trans (rfl : W0 m ρ c (Proc.devRef .tc main_arg26) = (m ((c : Thread nD τ).loc main_arg26)))

theorem I0_main_arg27 : W1 m ρ c (Proc.devRef .tc main_arg27) = (m ((c : Thread nD τ).loc main_arg27)) :=
  (Chain.g0_keep_main_arg27 (W0 m ρ c)).trans (rfl : W0 m ρ c (Proc.devRef .tc main_arg27) = (m ((c : Thread nD τ).loc main_arg27)))

theorem I0_main_arg28 : W1 m ρ c (Proc.devRef .tc main_arg28) = (m ((c : Thread nD τ).loc main_arg28)) :=
  (Chain.g0_keep_main_arg28 (W0 m ρ c)).trans (rfl : W0 m ρ c (Proc.devRef .tc main_arg28) = (m ((c : Thread nD τ).loc main_arg28)))

/-! ## After launch 0 -/

theorem I1_main_v1 : W2 m ρ c (Proc.devRef .tc main_v1) = val_main_v1 (F := Ideal) (m ((c : Thread nD τ).loc main_arg1)) :=
  (W2_of_ne m ρ c main_v1 (by decide)).trans (I0_main_v1 m ρ c)

theorem I1_main_v3 : W2 m ρ c (Proc.devRef .tc main_v3) = val_main_v3 (F := Ideal) (m ((c : Thread nD τ).loc main_arg1)) :=
  (W2_of_ne m ρ c main_v3 (by decide)).trans (I0_main_v3 m ρ c)

theorem I1_main_v5 : W2 m ρ c (Proc.devRef .tc main_v5) = val_main_v5 (F := Ideal) (m ((c : Thread nD τ).loc main_arg2)) :=
  (W2_of_ne m ρ c main_v5 (by decide)).trans (I0_main_v5 m ρ c)

theorem I1_main_v7 : W2 m ρ c (Proc.devRef .tc main_v7) = val_main_v7 (F := Ideal) (m ((c : Thread nD τ).loc main_arg2)) :=
  (W2_of_ne m ρ c main_v7 (by decide)).trans (I0_main_v7 m ρ c)

theorem I1_main_v10 : W2 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (W2_arr m ρ c 5).trans ((RegionEnds.in0 (V1 m ρ) c (m ((c : Thread nD τ).loc main_arg0)) (m ((c : Thread nD τ).loc main_arg5)) (m ((c : Thread nD τ).loc main_arg6)) (m ((c : Thread nD τ).loc main_arg7)) (m ((c : Thread nD τ).loc main_arg8)) (I0_main_arg0 m ρ c) (I0_main_arg5 m ρ c) (I0_main_v8 m ρ c) (I0_main_arg7 m ρ c) (I0_main_v9 m ρ c)).trans rfl)

theorem I1_main_arg3 : W2 m ρ c (Proc.devRef .tc main_arg3) = (m ((c : Thread nD τ).loc main_arg3)) :=
  (W2_of_ne m ρ c main_arg3 (by decide)).trans (I0_main_arg3 m ρ c)

theorem I1_main_arg4 : W2 m ρ c (Proc.devRef .tc main_arg4) = (m ((c : Thread nD τ).loc main_arg4)) :=
  (W2_of_ne m ρ c main_arg4 (by decide)).trans (I0_main_arg4 m ρ c)

theorem I1_main_arg9 : W2 m ρ c (Proc.devRef .tc main_arg9) = (m ((c : Thread nD τ).loc main_arg9)) :=
  (W2_of_ne m ρ c main_arg9 (by decide)).trans (I0_main_arg9 m ρ c)

theorem I1_main_arg10 : W2 m ρ c (Proc.devRef .tc main_arg10) = (m ((c : Thread nD τ).loc main_arg10)) :=
  (W2_of_ne m ρ c main_arg10 (by decide)).trans (I0_main_arg10 m ρ c)

theorem I1_main_arg11 : W2 m ρ c (Proc.devRef .tc main_arg11) = (m ((c : Thread nD τ).loc main_arg11)) :=
  (W2_of_ne m ρ c main_arg11 (by decide)).trans (I0_main_arg11 m ρ c)

theorem I1_main_arg12 : W2 m ρ c (Proc.devRef .tc main_arg12) = (m ((c : Thread nD τ).loc main_arg12)) :=
  (W2_of_ne m ρ c main_arg12 (by decide)).trans (I0_main_arg12 m ρ c)

theorem I1_main_arg13 : W2 m ρ c (Proc.devRef .tc main_arg13) = (m ((c : Thread nD τ).loc main_arg13)) :=
  (W2_of_ne m ρ c main_arg13 (by decide)).trans (I0_main_arg13 m ρ c)

theorem I1_main_arg14 : W2 m ρ c (Proc.devRef .tc main_arg14) = (m ((c : Thread nD τ).loc main_arg14)) :=
  (W2_of_ne m ρ c main_arg14 (by decide)).trans (I0_main_arg14 m ρ c)

theorem I1_main_arg15 : W2 m ρ c (Proc.devRef .tc main_arg15) = (m ((c : Thread nD τ).loc main_arg15)) :=
  (W2_of_ne m ρ c main_arg15 (by decide)).trans (I0_main_arg15 m ρ c)

theorem I1_main_arg16 : W2 m ρ c (Proc.devRef .tc main_arg16) = (m ((c : Thread nD τ).loc main_arg16)) :=
  (W2_of_ne m ρ c main_arg16 (by decide)).trans (I0_main_arg16 m ρ c)

theorem I1_main_arg17 : W2 m ρ c (Proc.devRef .tc main_arg17) = (m ((c : Thread nD τ).loc main_arg17)) :=
  (W2_of_ne m ρ c main_arg17 (by decide)).trans (I0_main_arg17 m ρ c)

theorem I1_main_arg18 : W2 m ρ c (Proc.devRef .tc main_arg18) = (m ((c : Thread nD τ).loc main_arg18)) :=
  (W2_of_ne m ρ c main_arg18 (by decide)).trans (I0_main_arg18 m ρ c)

theorem I1_main_arg19 : W2 m ρ c (Proc.devRef .tc main_arg19) = (m ((c : Thread nD τ).loc main_arg19)) :=
  (W2_of_ne m ρ c main_arg19 (by decide)).trans (I0_main_arg19 m ρ c)

theorem I1_main_arg20 : W2 m ρ c (Proc.devRef .tc main_arg20) = (m ((c : Thread nD τ).loc main_arg20)) :=
  (W2_of_ne m ρ c main_arg20 (by decide)).trans (I0_main_arg20 m ρ c)

theorem I1_main_arg21 : W2 m ρ c (Proc.devRef .tc main_arg21) = (m ((c : Thread nD τ).loc main_arg21)) :=
  (W2_of_ne m ρ c main_arg21 (by decide)).trans (I0_main_arg21 m ρ c)

theorem I1_main_arg22 : W2 m ρ c (Proc.devRef .tc main_arg22) = (m ((c : Thread nD τ).loc main_arg22)) :=
  (W2_of_ne m ρ c main_arg22 (by decide)).trans (I0_main_arg22 m ρ c)

theorem I1_main_arg23 : W2 m ρ c (Proc.devRef .tc main_arg23) = (m ((c : Thread nD τ).loc main_arg23)) :=
  (W2_of_ne m ρ c main_arg23 (by decide)).trans (I0_main_arg23 m ρ c)

theorem I1_main_arg24 : W2 m ρ c (Proc.devRef .tc main_arg24) = (m ((c : Thread nD τ).loc main_arg24)) :=
  (W2_of_ne m ρ c main_arg24 (by decide)).trans (I0_main_arg24 m ρ c)

theorem I1_main_arg25 : W2 m ρ c (Proc.devRef .tc main_arg25) = (m ((c : Thread nD τ).loc main_arg25)) :=
  (W2_of_ne m ρ c main_arg25 (by decide)).trans (I0_main_arg25 m ρ c)

theorem I1_main_arg26 : W2 m ρ c (Proc.devRef .tc main_arg26) = (m ((c : Thread nD τ).loc main_arg26)) :=
  (W2_of_ne m ρ c main_arg26 (by decide)).trans (I0_main_arg26 m ρ c)

theorem I1_main_arg27 : W2 m ρ c (Proc.devRef .tc main_arg27) = (m ((c : Thread nD τ).loc main_arg27)) :=
  (W2_of_ne m ρ c main_arg27 (by decide)).trans (I0_main_arg27 m ρ c)

theorem I1_main_arg28 : W2 m ρ c (Proc.devRef .tc main_arg28) = (m ((c : Thread nD τ).loc main_arg28)) :=
  (W2_of_ne m ρ c main_arg28 (by decide)).trans (I0_main_arg28 m ρ c)

/-! ## After the stretch hostOps1 -/

theorem I2_main_v1 : W3 m ρ c (Proc.devRef .tc main_v1) = val_main_v1 (F := Ideal) (m ((c : Thread nD τ).loc main_arg1)) :=
  (Chain.g2_keep_main_v1 (W2 m ρ c)).trans (I1_main_v1 m ρ c)

theorem I2_main_v3 : W3 m ρ c (Proc.devRef .tc main_v3) = val_main_v3 (F := Ideal) (m ((c : Thread nD τ).loc main_arg1)) :=
  (Chain.g2_keep_main_v3 (W2 m ρ c)).trans (I1_main_v3 m ρ c)

theorem I2_main_v5 : W3 m ρ c (Proc.devRef .tc main_v5) = val_main_v5 (F := Ideal) (m ((c : Thread nD τ).loc main_arg2)) :=
  (Chain.g2_keep_main_v5 (W2 m ρ c)).trans (I1_main_v5 m ρ c)

theorem I2_main_v7 : W3 m ρ c (Proc.devRef .tc main_v7) = val_main_v7 (F := Ideal) (m ((c : Thread nD τ).loc main_arg2)) :=
  (Chain.g2_keep_main_v7 (W2 m ρ c)).trans (I1_main_v7 m ρ c)

theorem I2_main_v10 : W3 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g2_keep_main_v10 (W2 m ρ c)).trans (I1_main_v10 m ρ c)

theorem I2_main_v12 : W3 m ρ c (Proc.devRef .tc main_v12) = val_main_v18 (F := Ideal) (m ((c : Thread nD τ).loc main_arg1)) :=
  Chain.g2_main_v12 (W2 m ρ c) (I1_main_v1 m ρ c)

theorem I2_main_v13 : W3 m ρ c (Proc.devRef .tc main_v13) = val_main_v19 (F := Ideal) (m ((c : Thread nD τ).loc main_arg1)) :=
  Chain.g2_main_v13 (W2 m ρ c) (I1_main_v3 m ρ c)

theorem I2_main_v19 : W3 m ρ c (Proc.devRef .tc main_v19) = val_main_v25 (F := Ideal) (m ((c : Thread nD τ).loc main_arg1)) :=
  Chain.g2_main_v19 (W2 m ρ c) (I1_main_v3 m ρ c)

theorem I2_main_v20 : W3 m ρ c (Proc.devRef .tc main_v20) = val_main_v26 (F := Ideal) (m ((c : Thread nD τ).loc main_arg1)) :=
  Chain.g2_main_v20 (W2 m ρ c) (I1_main_v3 m ρ c)

theorem I2_main_cst_2 : W3 m ρ c (Proc.devRef .tc main_cst_2) = val_main_cst_2 (F := Ideal) :=
  Chain.g2_main_cst_2 (W2 m ρ c)

theorem I2_main_arg3 : W3 m ρ c (Proc.devRef .tc main_arg3) = (m ((c : Thread nD τ).loc main_arg3)) :=
  (Chain.g2_keep_main_arg3 (W2 m ρ c)).trans (I1_main_arg3 m ρ c)

theorem I2_main_arg4 : W3 m ρ c (Proc.devRef .tc main_arg4) = (m ((c : Thread nD τ).loc main_arg4)) :=
  (Chain.g2_keep_main_arg4 (W2 m ρ c)).trans (I1_main_arg4 m ρ c)

theorem I2_main_arg9 : W3 m ρ c (Proc.devRef .tc main_arg9) = (m ((c : Thread nD τ).loc main_arg9)) :=
  (Chain.g2_keep_main_arg9 (W2 m ρ c)).trans (I1_main_arg9 m ρ c)

theorem I2_main_arg10 : W3 m ρ c (Proc.devRef .tc main_arg10) = (m ((c : Thread nD τ).loc main_arg10)) :=
  (Chain.g2_keep_main_arg10 (W2 m ρ c)).trans (I1_main_arg10 m ρ c)

theorem I2_main_arg11 : W3 m ρ c (Proc.devRef .tc main_arg11) = (m ((c : Thread nD τ).loc main_arg11)) :=
  (Chain.g2_keep_main_arg11 (W2 m ρ c)).trans (I1_main_arg11 m ρ c)

theorem I2_main_arg12 : W3 m ρ c (Proc.devRef .tc main_arg12) = (m ((c : Thread nD τ).loc main_arg12)) :=
  (Chain.g2_keep_main_arg12 (W2 m ρ c)).trans (I1_main_arg12 m ρ c)

theorem I2_main_arg13 : W3 m ρ c (Proc.devRef .tc main_arg13) = (m ((c : Thread nD τ).loc main_arg13)) :=
  (Chain.g2_keep_main_arg13 (W2 m ρ c)).trans (I1_main_arg13 m ρ c)

theorem I2_main_arg14 : W3 m ρ c (Proc.devRef .tc main_arg14) = (m ((c : Thread nD τ).loc main_arg14)) :=
  (Chain.g2_keep_main_arg14 (W2 m ρ c)).trans (I1_main_arg14 m ρ c)

theorem I2_main_arg15 : W3 m ρ c (Proc.devRef .tc main_arg15) = (m ((c : Thread nD τ).loc main_arg15)) :=
  (Chain.g2_keep_main_arg15 (W2 m ρ c)).trans (I1_main_arg15 m ρ c)

theorem I2_main_arg16 : W3 m ρ c (Proc.devRef .tc main_arg16) = (m ((c : Thread nD τ).loc main_arg16)) :=
  (Chain.g2_keep_main_arg16 (W2 m ρ c)).trans (I1_main_arg16 m ρ c)

theorem I2_main_arg17 : W3 m ρ c (Proc.devRef .tc main_arg17) = (m ((c : Thread nD τ).loc main_arg17)) :=
  (Chain.g2_keep_main_arg17 (W2 m ρ c)).trans (I1_main_arg17 m ρ c)

theorem I2_main_arg18 : W3 m ρ c (Proc.devRef .tc main_arg18) = (m ((c : Thread nD τ).loc main_arg18)) :=
  (Chain.g2_keep_main_arg18 (W2 m ρ c)).trans (I1_main_arg18 m ρ c)

theorem I2_main_arg19 : W3 m ρ c (Proc.devRef .tc main_arg19) = (m ((c : Thread nD τ).loc main_arg19)) :=
  (Chain.g2_keep_main_arg19 (W2 m ρ c)).trans (I1_main_arg19 m ρ c)

theorem I2_main_arg20 : W3 m ρ c (Proc.devRef .tc main_arg20) = (m ((c : Thread nD τ).loc main_arg20)) :=
  (Chain.g2_keep_main_arg20 (W2 m ρ c)).trans (I1_main_arg20 m ρ c)

theorem I2_main_arg21 : W3 m ρ c (Proc.devRef .tc main_arg21) = (m ((c : Thread nD τ).loc main_arg21)) :=
  (Chain.g2_keep_main_arg21 (W2 m ρ c)).trans (I1_main_arg21 m ρ c)

theorem I2_main_arg22 : W3 m ρ c (Proc.devRef .tc main_arg22) = (m ((c : Thread nD τ).loc main_arg22)) :=
  (Chain.g2_keep_main_arg22 (W2 m ρ c)).trans (I1_main_arg22 m ρ c)

theorem I2_main_arg23 : W3 m ρ c (Proc.devRef .tc main_arg23) = (m ((c : Thread nD τ).loc main_arg23)) :=
  (Chain.g2_keep_main_arg23 (W2 m ρ c)).trans (I1_main_arg23 m ρ c)

theorem I2_main_arg24 : W3 m ρ c (Proc.devRef .tc main_arg24) = (m ((c : Thread nD τ).loc main_arg24)) :=
  (Chain.g2_keep_main_arg24 (W2 m ρ c)).trans (I1_main_arg24 m ρ c)

theorem I2_main_arg25 : W3 m ρ c (Proc.devRef .tc main_arg25) = (m ((c : Thread nD τ).loc main_arg25)) :=
  (Chain.g2_keep_main_arg25 (W2 m ρ c)).trans (I1_main_arg25 m ρ c)

theorem I2_main_arg26 : W3 m ρ c (Proc.devRef .tc main_arg26) = (m ((c : Thread nD τ).loc main_arg26)) :=
  (Chain.g2_keep_main_arg26 (W2 m ρ c)).trans (I1_main_arg26 m ρ c)

theorem I2_main_arg27 : W3 m ρ c (Proc.devRef .tc main_arg27) = (m ((c : Thread nD τ).loc main_arg27)) :=
  (Chain.g2_keep_main_arg27 (W2 m ρ c)).trans (I1_main_arg27 m ρ c)

theorem I2_main_arg28 : W3 m ρ c (Proc.devRef .tc main_arg28) = (m ((c : Thread nD τ).loc main_arg28)) :=
  (Chain.g2_keep_main_arg28 (W2 m ρ c)).trans (I1_main_arg28 m ρ c)

/-! ## After the stretch hostOps1_1 -/

theorem I3_main_v1 : W4 m ρ c (Proc.devRef .tc main_v1) = val_main_v1 (F := Ideal) (m ((c : Thread nD τ).loc main_arg1)) :=
  (Chain.g3_keep_main_v1 (W3 m ρ c)).trans (I2_main_v1 m ρ c)

theorem I3_main_v3 : W4 m ρ c (Proc.devRef .tc main_v3) = val_main_v3 (F := Ideal) (m ((c : Thread nD τ).loc main_arg1)) :=
  (Chain.g3_keep_main_v3 (W3 m ρ c)).trans (I2_main_v3 m ρ c)

theorem I3_main_v5 : W4 m ρ c (Proc.devRef .tc main_v5) = val_main_v5 (F := Ideal) (m ((c : Thread nD τ).loc main_arg2)) :=
  (Chain.g3_keep_main_v5 (W3 m ρ c)).trans (I2_main_v5 m ρ c)

theorem I3_main_v7 : W4 m ρ c (Proc.devRef .tc main_v7) = val_main_v7 (F := Ideal) (m ((c : Thread nD τ).loc main_arg2)) :=
  (Chain.g3_keep_main_v7 (W3 m ρ c)).trans (I2_main_v7 m ρ c)

theorem I3_main_v10 : W4 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g3_keep_main_v10 (W3 m ρ c)).trans (I2_main_v10 m ρ c)

theorem I3_main_v12 : W4 m ρ c (Proc.devRef .tc main_v12) = val_main_v18 (F := Ideal) (m ((c : Thread nD τ).loc main_arg1)) :=
  (Chain.g3_keep_main_v12 (W3 m ρ c)).trans (I2_main_v12 m ρ c)

theorem I3_main_v13 : W4 m ρ c (Proc.devRef .tc main_v13) = val_main_v19 (F := Ideal) (m ((c : Thread nD τ).loc main_arg1)) :=
  (Chain.g3_keep_main_v13 (W3 m ρ c)).trans (I2_main_v13 m ρ c)

theorem I3_main_v21 : W4 m ρ c (Proc.devRef .tc main_v21) = val_main_v27 (F := Ideal) (m ((c : Thread nD τ).loc main_arg1)) :=
  Chain.g3_main_v21 (W3 m ρ c) (I2_main_v19 m ρ c) (I2_main_v20 m ρ c) (I2_main_cst_2 m ρ c)

theorem I3_main_arg3 : W4 m ρ c (Proc.devRef .tc main_arg3) = (m ((c : Thread nD τ).loc main_arg3)) :=
  (Chain.g3_keep_main_arg3 (W3 m ρ c)).trans (I2_main_arg3 m ρ c)

theorem I3_main_arg4 : W4 m ρ c (Proc.devRef .tc main_arg4) = (m ((c : Thread nD τ).loc main_arg4)) :=
  (Chain.g3_keep_main_arg4 (W3 m ρ c)).trans (I2_main_arg4 m ρ c)

theorem I3_main_arg9 : W4 m ρ c (Proc.devRef .tc main_arg9) = (m ((c : Thread nD τ).loc main_arg9)) :=
  (Chain.g3_keep_main_arg9 (W3 m ρ c)).trans (I2_main_arg9 m ρ c)

theorem I3_main_arg10 : W4 m ρ c (Proc.devRef .tc main_arg10) = (m ((c : Thread nD τ).loc main_arg10)) :=
  (Chain.g3_keep_main_arg10 (W3 m ρ c)).trans (I2_main_arg10 m ρ c)

theorem I3_main_arg11 : W4 m ρ c (Proc.devRef .tc main_arg11) = (m ((c : Thread nD τ).loc main_arg11)) :=
  (Chain.g3_keep_main_arg11 (W3 m ρ c)).trans (I2_main_arg11 m ρ c)

theorem I3_main_arg12 : W4 m ρ c (Proc.devRef .tc main_arg12) = (m ((c : Thread nD τ).loc main_arg12)) :=
  (Chain.g3_keep_main_arg12 (W3 m ρ c)).trans (I2_main_arg12 m ρ c)

theorem I3_main_arg13 : W4 m ρ c (Proc.devRef .tc main_arg13) = (m ((c : Thread nD τ).loc main_arg13)) :=
  (Chain.g3_keep_main_arg13 (W3 m ρ c)).trans (I2_main_arg13 m ρ c)

theorem I3_main_arg14 : W4 m ρ c (Proc.devRef .tc main_arg14) = (m ((c : Thread nD τ).loc main_arg14)) :=
  (Chain.g3_keep_main_arg14 (W3 m ρ c)).trans (I2_main_arg14 m ρ c)

theorem I3_main_arg15 : W4 m ρ c (Proc.devRef .tc main_arg15) = (m ((c : Thread nD τ).loc main_arg15)) :=
  (Chain.g3_keep_main_arg15 (W3 m ρ c)).trans (I2_main_arg15 m ρ c)

theorem I3_main_arg16 : W4 m ρ c (Proc.devRef .tc main_arg16) = (m ((c : Thread nD τ).loc main_arg16)) :=
  (Chain.g3_keep_main_arg16 (W3 m ρ c)).trans (I2_main_arg16 m ρ c)

theorem I3_main_arg17 : W4 m ρ c (Proc.devRef .tc main_arg17) = (m ((c : Thread nD τ).loc main_arg17)) :=
  (Chain.g3_keep_main_arg17 (W3 m ρ c)).trans (I2_main_arg17 m ρ c)

theorem I3_main_arg18 : W4 m ρ c (Proc.devRef .tc main_arg18) = (m ((c : Thread nD τ).loc main_arg18)) :=
  (Chain.g3_keep_main_arg18 (W3 m ρ c)).trans (I2_main_arg18 m ρ c)

theorem I3_main_arg19 : W4 m ρ c (Proc.devRef .tc main_arg19) = (m ((c : Thread nD τ).loc main_arg19)) :=
  (Chain.g3_keep_main_arg19 (W3 m ρ c)).trans (I2_main_arg19 m ρ c)

theorem I3_main_arg20 : W4 m ρ c (Proc.devRef .tc main_arg20) = (m ((c : Thread nD τ).loc main_arg20)) :=
  (Chain.g3_keep_main_arg20 (W3 m ρ c)).trans (I2_main_arg20 m ρ c)

theorem I3_main_arg21 : W4 m ρ c (Proc.devRef .tc main_arg21) = (m ((c : Thread nD τ).loc main_arg21)) :=
  (Chain.g3_keep_main_arg21 (W3 m ρ c)).trans (I2_main_arg21 m ρ c)

theorem I3_main_arg22 : W4 m ρ c (Proc.devRef .tc main_arg22) = (m ((c : Thread nD τ).loc main_arg22)) :=
  (Chain.g3_keep_main_arg22 (W3 m ρ c)).trans (I2_main_arg22 m ρ c)

theorem I3_main_arg23 : W4 m ρ c (Proc.devRef .tc main_arg23) = (m ((c : Thread nD τ).loc main_arg23)) :=
  (Chain.g3_keep_main_arg23 (W3 m ρ c)).trans (I2_main_arg23 m ρ c)

theorem I3_main_arg24 : W4 m ρ c (Proc.devRef .tc main_arg24) = (m ((c : Thread nD τ).loc main_arg24)) :=
  (Chain.g3_keep_main_arg24 (W3 m ρ c)).trans (I2_main_arg24 m ρ c)

theorem I3_main_arg25 : W4 m ρ c (Proc.devRef .tc main_arg25) = (m ((c : Thread nD τ).loc main_arg25)) :=
  (Chain.g3_keep_main_arg25 (W3 m ρ c)).trans (I2_main_arg25 m ρ c)

theorem I3_main_arg26 : W4 m ρ c (Proc.devRef .tc main_arg26) = (m ((c : Thread nD τ).loc main_arg26)) :=
  (Chain.g3_keep_main_arg26 (W3 m ρ c)).trans (I2_main_arg26 m ρ c)

theorem I3_main_arg27 : W4 m ρ c (Proc.devRef .tc main_arg27) = (m ((c : Thread nD τ).loc main_arg27)) :=
  (Chain.g3_keep_main_arg27 (W3 m ρ c)).trans (I2_main_arg27 m ρ c)

theorem I3_main_arg28 : W4 m ρ c (Proc.devRef .tc main_arg28) = (m ((c : Thread nD τ).loc main_arg28)) :=
  (Chain.g3_keep_main_arg28 (W3 m ρ c)).trans (I2_main_arg28 m ρ c)

/-! ## After the stretch hostOps1_2 -/

theorem I4_main_v1 : W5 m ρ c (Proc.devRef .tc main_v1) = val_main_v1 (F := Ideal) (m ((c : Thread nD τ).loc main_arg1)) :=
  (Chain.g4_keep_main_v1 (W4 m ρ c)).trans (I3_main_v1 m ρ c)

theorem I4_main_v3 : W5 m ρ c (Proc.devRef .tc main_v3) = val_main_v3 (F := Ideal) (m ((c : Thread nD τ).loc main_arg1)) :=
  (Chain.g4_keep_main_v3 (W4 m ρ c)).trans (I3_main_v3 m ρ c)

theorem I4_main_v5 : W5 m ρ c (Proc.devRef .tc main_v5) = val_main_v5 (F := Ideal) (m ((c : Thread nD τ).loc main_arg2)) :=
  (Chain.g4_keep_main_v5 (W4 m ρ c)).trans (I3_main_v5 m ρ c)

theorem I4_main_v7 : W5 m ρ c (Proc.devRef .tc main_v7) = val_main_v7 (F := Ideal) (m ((c : Thread nD τ).loc main_arg2)) :=
  (Chain.g4_keep_main_v7 (W4 m ρ c)).trans (I3_main_v7 m ρ c)

theorem I4_main_v10 : W5 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g4_keep_main_v10 (W4 m ρ c)).trans (I3_main_v10 m ρ c)

theorem I4_main_v12 : W5 m ρ c (Proc.devRef .tc main_v12) = val_main_v18 (F := Ideal) (m ((c : Thread nD τ).loc main_arg1)) :=
  (Chain.g4_keep_main_v12 (W4 m ρ c)).trans (I3_main_v12 m ρ c)

theorem I4_main_v13 : W5 m ρ c (Proc.devRef .tc main_v13) = val_main_v19 (F := Ideal) (m ((c : Thread nD τ).loc main_arg1)) :=
  (Chain.g4_keep_main_v13 (W4 m ρ c)).trans (I3_main_v13 m ρ c)

theorem I4_main_v36 : W5 m ρ c (Proc.devRef .tc main_v36) = val_main_v42 (F := Ideal) (m ((c : Thread nD τ).loc main_arg1)) :=
  Chain.g4_main_v36 (W4 m ρ c) (I3_main_v21 m ρ c) (I3_main_v12 m ρ c) (I3_main_v13 m ρ c)

theorem I4_main_arg3 : W5 m ρ c (Proc.devRef .tc main_arg3) = (m ((c : Thread nD τ).loc main_arg3)) :=
  (Chain.g4_keep_main_arg3 (W4 m ρ c)).trans (I3_main_arg3 m ρ c)

theorem I4_main_arg4 : W5 m ρ c (Proc.devRef .tc main_arg4) = (m ((c : Thread nD τ).loc main_arg4)) :=
  (Chain.g4_keep_main_arg4 (W4 m ρ c)).trans (I3_main_arg4 m ρ c)

theorem I4_main_arg9 : W5 m ρ c (Proc.devRef .tc main_arg9) = (m ((c : Thread nD τ).loc main_arg9)) :=
  (Chain.g4_keep_main_arg9 (W4 m ρ c)).trans (I3_main_arg9 m ρ c)

theorem I4_main_arg10 : W5 m ρ c (Proc.devRef .tc main_arg10) = (m ((c : Thread nD τ).loc main_arg10)) :=
  (Chain.g4_keep_main_arg10 (W4 m ρ c)).trans (I3_main_arg10 m ρ c)

theorem I4_main_arg11 : W5 m ρ c (Proc.devRef .tc main_arg11) = (m ((c : Thread nD τ).loc main_arg11)) :=
  (Chain.g4_keep_main_arg11 (W4 m ρ c)).trans (I3_main_arg11 m ρ c)

theorem I4_main_arg12 : W5 m ρ c (Proc.devRef .tc main_arg12) = (m ((c : Thread nD τ).loc main_arg12)) :=
  (Chain.g4_keep_main_arg12 (W4 m ρ c)).trans (I3_main_arg12 m ρ c)

theorem I4_main_arg13 : W5 m ρ c (Proc.devRef .tc main_arg13) = (m ((c : Thread nD τ).loc main_arg13)) :=
  (Chain.g4_keep_main_arg13 (W4 m ρ c)).trans (I3_main_arg13 m ρ c)

theorem I4_main_arg14 : W5 m ρ c (Proc.devRef .tc main_arg14) = (m ((c : Thread nD τ).loc main_arg14)) :=
  (Chain.g4_keep_main_arg14 (W4 m ρ c)).trans (I3_main_arg14 m ρ c)

theorem I4_main_arg15 : W5 m ρ c (Proc.devRef .tc main_arg15) = (m ((c : Thread nD τ).loc main_arg15)) :=
  (Chain.g4_keep_main_arg15 (W4 m ρ c)).trans (I3_main_arg15 m ρ c)

theorem I4_main_arg16 : W5 m ρ c (Proc.devRef .tc main_arg16) = (m ((c : Thread nD τ).loc main_arg16)) :=
  (Chain.g4_keep_main_arg16 (W4 m ρ c)).trans (I3_main_arg16 m ρ c)

theorem I4_main_arg17 : W5 m ρ c (Proc.devRef .tc main_arg17) = (m ((c : Thread nD τ).loc main_arg17)) :=
  (Chain.g4_keep_main_arg17 (W4 m ρ c)).trans (I3_main_arg17 m ρ c)

theorem I4_main_arg18 : W5 m ρ c (Proc.devRef .tc main_arg18) = (m ((c : Thread nD τ).loc main_arg18)) :=
  (Chain.g4_keep_main_arg18 (W4 m ρ c)).trans (I3_main_arg18 m ρ c)

theorem I4_main_arg19 : W5 m ρ c (Proc.devRef .tc main_arg19) = (m ((c : Thread nD τ).loc main_arg19)) :=
  (Chain.g4_keep_main_arg19 (W4 m ρ c)).trans (I3_main_arg19 m ρ c)

theorem I4_main_arg20 : W5 m ρ c (Proc.devRef .tc main_arg20) = (m ((c : Thread nD τ).loc main_arg20)) :=
  (Chain.g4_keep_main_arg20 (W4 m ρ c)).trans (I3_main_arg20 m ρ c)

theorem I4_main_arg21 : W5 m ρ c (Proc.devRef .tc main_arg21) = (m ((c : Thread nD τ).loc main_arg21)) :=
  (Chain.g4_keep_main_arg21 (W4 m ρ c)).trans (I3_main_arg21 m ρ c)

theorem I4_main_arg22 : W5 m ρ c (Proc.devRef .tc main_arg22) = (m ((c : Thread nD τ).loc main_arg22)) :=
  (Chain.g4_keep_main_arg22 (W4 m ρ c)).trans (I3_main_arg22 m ρ c)

theorem I4_main_arg23 : W5 m ρ c (Proc.devRef .tc main_arg23) = (m ((c : Thread nD τ).loc main_arg23)) :=
  (Chain.g4_keep_main_arg23 (W4 m ρ c)).trans (I3_main_arg23 m ρ c)

theorem I4_main_arg24 : W5 m ρ c (Proc.devRef .tc main_arg24) = (m ((c : Thread nD τ).loc main_arg24)) :=
  (Chain.g4_keep_main_arg24 (W4 m ρ c)).trans (I3_main_arg24 m ρ c)

theorem I4_main_arg25 : W5 m ρ c (Proc.devRef .tc main_arg25) = (m ((c : Thread nD τ).loc main_arg25)) :=
  (Chain.g4_keep_main_arg25 (W4 m ρ c)).trans (I3_main_arg25 m ρ c)

theorem I4_main_arg26 : W5 m ρ c (Proc.devRef .tc main_arg26) = (m ((c : Thread nD τ).loc main_arg26)) :=
  (Chain.g4_keep_main_arg26 (W4 m ρ c)).trans (I3_main_arg26 m ρ c)

theorem I4_main_arg27 : W5 m ρ c (Proc.devRef .tc main_arg27) = (m ((c : Thread nD τ).loc main_arg27)) :=
  (Chain.g4_keep_main_arg27 (W4 m ρ c)).trans (I3_main_arg27 m ρ c)

theorem I4_main_arg28 : W5 m ρ c (Proc.devRef .tc main_arg28) = (m ((c : Thread nD τ).loc main_arg28)) :=
  (Chain.g4_keep_main_arg28 (W4 m ρ c)).trans (I3_main_arg28 m ρ c)

/-! ## After launch 1 -/

theorem I5_main_v1 : W6 m ρ c (Proc.devRef .tc main_v1) = val_main_v1 (F := Ideal) (m ((c : Thread nD τ).loc main_arg1)) :=
  (W6_of_ne m ρ c main_v1 (by decide)).trans (I4_main_v1 m ρ c)

theorem I5_main_v3 : W6 m ρ c (Proc.devRef .tc main_v3) = val_main_v3 (F := Ideal) (m ((c : Thread nD τ).loc main_arg1)) :=
  (W6_of_ne m ρ c main_v3 (by decide)).trans (I4_main_v3 m ρ c)

theorem I5_main_v5 : W6 m ρ c (Proc.devRef .tc main_v5) = val_main_v5 (F := Ideal) (m ((c : Thread nD τ).loc main_arg2)) :=
  (W6_of_ne m ρ c main_v5 (by decide)).trans (I4_main_v5 m ρ c)

theorem I5_main_v7 : W6 m ρ c (Proc.devRef .tc main_v7) = val_main_v7 (F := Ideal) (m ((c : Thread nD τ).loc main_arg2)) :=
  (W6_of_ne m ρ c main_v7 (by decide)).trans (I4_main_v7 m ρ c)

theorem I5_main_v10 : W6 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  ((W6_arr m ρ c 0).trans (((dat1 (V5 m ρ) c).arrAt_in 0 rfl _).trans (A_eq1 (V5 m ρ) c 0))).trans (I4_main_v10 m ρ c)

theorem I5_main_v12 : W6 m ρ c (Proc.devRef .tc main_v12) = val_main_v18 (F := Ideal) (m ((c : Thread nD τ).loc main_arg1)) :=
  (W6_of_ne m ρ c main_v12 (by decide)).trans (I4_main_v12 m ρ c)

theorem I5_main_v13 : W6 m ρ c (Proc.devRef .tc main_v13) = val_main_v19 (F := Ideal) (m ((c : Thread nD τ).loc main_arg1)) :=
  (W6_of_ne m ρ c main_v13 (by decide)).trans (I4_main_v13 m ρ c)

theorem I5_main_v36 : W6 m ρ c (Proc.devRef .tc main_v36) = val_main_v42 (F := Ideal) (m ((c : Thread nD τ).loc main_arg1)) :=
  (W6_of_ne m ρ c main_v36 (by decide)).trans (I4_main_v36 m ρ c)

theorem I5_main_v37 : W6 m ρ c (Proc.devRef .tc main_v37) = val_main_v43 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 2).trans ((RegionLin.lin1 (V5 m ρ) c (val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8))) (m ((c : Thread nD τ).loc main_arg9)) (I4_main_v10 m ρ c) (I4_main_arg9 m ρ c)).trans rfl)

theorem I5_main_arg3 : W6 m ρ c (Proc.devRef .tc main_arg3) = (m ((c : Thread nD τ).loc main_arg3)) :=
  (W6_of_ne m ρ c main_arg3 (by decide)).trans (I4_main_arg3 m ρ c)

theorem I5_main_arg4 : W6 m ρ c (Proc.devRef .tc main_arg4) = (m ((c : Thread nD τ).loc main_arg4)) :=
  (W6_of_ne m ρ c main_arg4 (by decide)).trans (I4_main_arg4 m ρ c)

theorem I5_main_arg10 : W6 m ρ c (Proc.devRef .tc main_arg10) = (m ((c : Thread nD τ).loc main_arg10)) :=
  (W6_of_ne m ρ c main_arg10 (by decide)).trans (I4_main_arg10 m ρ c)

theorem I5_main_arg11 : W6 m ρ c (Proc.devRef .tc main_arg11) = (m ((c : Thread nD τ).loc main_arg11)) :=
  (W6_of_ne m ρ c main_arg11 (by decide)).trans (I4_main_arg11 m ρ c)

theorem I5_main_arg12 : W6 m ρ c (Proc.devRef .tc main_arg12) = (m ((c : Thread nD τ).loc main_arg12)) :=
  (W6_of_ne m ρ c main_arg12 (by decide)).trans (I4_main_arg12 m ρ c)

theorem I5_main_arg13 : W6 m ρ c (Proc.devRef .tc main_arg13) = (m ((c : Thread nD τ).loc main_arg13)) :=
  (W6_of_ne m ρ c main_arg13 (by decide)).trans (I4_main_arg13 m ρ c)

theorem I5_main_arg14 : W6 m ρ c (Proc.devRef .tc main_arg14) = (m ((c : Thread nD τ).loc main_arg14)) :=
  (W6_of_ne m ρ c main_arg14 (by decide)).trans (I4_main_arg14 m ρ c)

theorem I5_main_arg15 : W6 m ρ c (Proc.devRef .tc main_arg15) = (m ((c : Thread nD τ).loc main_arg15)) :=
  (W6_of_ne m ρ c main_arg15 (by decide)).trans (I4_main_arg15 m ρ c)

theorem I5_main_arg16 : W6 m ρ c (Proc.devRef .tc main_arg16) = (m ((c : Thread nD τ).loc main_arg16)) :=
  (W6_of_ne m ρ c main_arg16 (by decide)).trans (I4_main_arg16 m ρ c)

theorem I5_main_arg17 : W6 m ρ c (Proc.devRef .tc main_arg17) = (m ((c : Thread nD τ).loc main_arg17)) :=
  (W6_of_ne m ρ c main_arg17 (by decide)).trans (I4_main_arg17 m ρ c)

theorem I5_main_arg18 : W6 m ρ c (Proc.devRef .tc main_arg18) = (m ((c : Thread nD τ).loc main_arg18)) :=
  (W6_of_ne m ρ c main_arg18 (by decide)).trans (I4_main_arg18 m ρ c)

theorem I5_main_arg19 : W6 m ρ c (Proc.devRef .tc main_arg19) = (m ((c : Thread nD τ).loc main_arg19)) :=
  (W6_of_ne m ρ c main_arg19 (by decide)).trans (I4_main_arg19 m ρ c)

theorem I5_main_arg20 : W6 m ρ c (Proc.devRef .tc main_arg20) = (m ((c : Thread nD τ).loc main_arg20)) :=
  (W6_of_ne m ρ c main_arg20 (by decide)).trans (I4_main_arg20 m ρ c)

theorem I5_main_arg21 : W6 m ρ c (Proc.devRef .tc main_arg21) = (m ((c : Thread nD τ).loc main_arg21)) :=
  (W6_of_ne m ρ c main_arg21 (by decide)).trans (I4_main_arg21 m ρ c)

theorem I5_main_arg22 : W6 m ρ c (Proc.devRef .tc main_arg22) = (m ((c : Thread nD τ).loc main_arg22)) :=
  (W6_of_ne m ρ c main_arg22 (by decide)).trans (I4_main_arg22 m ρ c)

theorem I5_main_arg23 : W6 m ρ c (Proc.devRef .tc main_arg23) = (m ((c : Thread nD τ).loc main_arg23)) :=
  (W6_of_ne m ρ c main_arg23 (by decide)).trans (I4_main_arg23 m ρ c)

theorem I5_main_arg24 : W6 m ρ c (Proc.devRef .tc main_arg24) = (m ((c : Thread nD τ).loc main_arg24)) :=
  (W6_of_ne m ρ c main_arg24 (by decide)).trans (I4_main_arg24 m ρ c)

theorem I5_main_arg25 : W6 m ρ c (Proc.devRef .tc main_arg25) = (m ((c : Thread nD τ).loc main_arg25)) :=
  (W6_of_ne m ρ c main_arg25 (by decide)).trans (I4_main_arg25 m ρ c)

theorem I5_main_arg26 : W6 m ρ c (Proc.devRef .tc main_arg26) = (m ((c : Thread nD τ).loc main_arg26)) :=
  (W6_of_ne m ρ c main_arg26 (by decide)).trans (I4_main_arg26 m ρ c)

theorem I5_main_arg27 : W6 m ρ c (Proc.devRef .tc main_arg27) = (m ((c : Thread nD τ).loc main_arg27)) :=
  (W6_of_ne m ρ c main_arg27 (by decide)).trans (I4_main_arg27 m ρ c)

theorem I5_main_arg28 : W6 m ρ c (Proc.devRef .tc main_arg28) = (m ((c : Thread nD τ).loc main_arg28)) :=
  (W6_of_ne m ρ c main_arg28 (by decide)).trans (I4_main_arg28 m ρ c)

/-! ## After the stretch hostOps2 -/

theorem I6_main_v1 : W7 m ρ c (Proc.devRef .tc main_v1) = val_main_v1 (F := Ideal) (m ((c : Thread nD τ).loc main_arg1)) :=
  (Chain.g6_keep_main_v1 (W6 m ρ c)).trans (I5_main_v1 m ρ c)

theorem I6_main_v3 : W7 m ρ c (Proc.devRef .tc main_v3) = val_main_v3 (F := Ideal) (m ((c : Thread nD τ).loc main_arg1)) :=
  (Chain.g6_keep_main_v3 (W6 m ρ c)).trans (I5_main_v3 m ρ c)

theorem I6_main_v5 : W7 m ρ c (Proc.devRef .tc main_v5) = val_main_v5 (F := Ideal) (m ((c : Thread nD τ).loc main_arg2)) :=
  (Chain.g6_keep_main_v5 (W6 m ρ c)).trans (I5_main_v5 m ρ c)

theorem I6_main_v7 : W7 m ρ c (Proc.devRef .tc main_v7) = val_main_v7 (F := Ideal) (m ((c : Thread nD τ).loc main_arg2)) :=
  (Chain.g6_keep_main_v7 (W6 m ρ c)).trans (I5_main_v7 m ρ c)

theorem I6_main_v10 : W7 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g6_keep_main_v10 (W6 m ρ c)).trans (I5_main_v10 m ρ c)

theorem I6_main_v53 : W7 m ρ c (Proc.devRef .tc main_v53) = val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Chain.g6_main_v53 (W6 m ρ c) (I5_main_v13 m ρ c) (I5_main_v37 m ρ c) (I5_main_v12 m ρ c) (I5_main_v36 m ρ c) (I5_main_arg10 m ρ c)

theorem I6_main_arg3 : W7 m ρ c (Proc.devRef .tc main_arg3) = (m ((c : Thread nD τ).loc main_arg3)) :=
  (Chain.g6_keep_main_arg3 (W6 m ρ c)).trans (I5_main_arg3 m ρ c)

theorem I6_main_arg4 : W7 m ρ c (Proc.devRef .tc main_arg4) = (m ((c : Thread nD τ).loc main_arg4)) :=
  (Chain.g6_keep_main_arg4 (W6 m ρ c)).trans (I5_main_arg4 m ρ c)

theorem I6_main_arg11 : W7 m ρ c (Proc.devRef .tc main_arg11) = (m ((c : Thread nD τ).loc main_arg11)) :=
  (Chain.g6_keep_main_arg11 (W6 m ρ c)).trans (I5_main_arg11 m ρ c)

theorem I6_main_arg12 : W7 m ρ c (Proc.devRef .tc main_arg12) = (m ((c : Thread nD τ).loc main_arg12)) :=
  (Chain.g6_keep_main_arg12 (W6 m ρ c)).trans (I5_main_arg12 m ρ c)

theorem I6_main_arg13 : W7 m ρ c (Proc.devRef .tc main_arg13) = (m ((c : Thread nD τ).loc main_arg13)) :=
  (Chain.g6_keep_main_arg13 (W6 m ρ c)).trans (I5_main_arg13 m ρ c)

theorem I6_main_arg14 : W7 m ρ c (Proc.devRef .tc main_arg14) = (m ((c : Thread nD τ).loc main_arg14)) :=
  (Chain.g6_keep_main_arg14 (W6 m ρ c)).trans (I5_main_arg14 m ρ c)

theorem I6_main_arg15 : W7 m ρ c (Proc.devRef .tc main_arg15) = (m ((c : Thread nD τ).loc main_arg15)) :=
  (Chain.g6_keep_main_arg15 (W6 m ρ c)).trans (I5_main_arg15 m ρ c)

theorem I6_main_arg16 : W7 m ρ c (Proc.devRef .tc main_arg16) = (m ((c : Thread nD τ).loc main_arg16)) :=
  (Chain.g6_keep_main_arg16 (W6 m ρ c)).trans (I5_main_arg16 m ρ c)

theorem I6_main_arg17 : W7 m ρ c (Proc.devRef .tc main_arg17) = (m ((c : Thread nD τ).loc main_arg17)) :=
  (Chain.g6_keep_main_arg17 (W6 m ρ c)).trans (I5_main_arg17 m ρ c)

theorem I6_main_arg18 : W7 m ρ c (Proc.devRef .tc main_arg18) = (m ((c : Thread nD τ).loc main_arg18)) :=
  (Chain.g6_keep_main_arg18 (W6 m ρ c)).trans (I5_main_arg18 m ρ c)

theorem I6_main_arg19 : W7 m ρ c (Proc.devRef .tc main_arg19) = (m ((c : Thread nD τ).loc main_arg19)) :=
  (Chain.g6_keep_main_arg19 (W6 m ρ c)).trans (I5_main_arg19 m ρ c)

theorem I6_main_arg20 : W7 m ρ c (Proc.devRef .tc main_arg20) = (m ((c : Thread nD τ).loc main_arg20)) :=
  (Chain.g6_keep_main_arg20 (W6 m ρ c)).trans (I5_main_arg20 m ρ c)

theorem I6_main_arg21 : W7 m ρ c (Proc.devRef .tc main_arg21) = (m ((c : Thread nD τ).loc main_arg21)) :=
  (Chain.g6_keep_main_arg21 (W6 m ρ c)).trans (I5_main_arg21 m ρ c)

theorem I6_main_arg22 : W7 m ρ c (Proc.devRef .tc main_arg22) = (m ((c : Thread nD τ).loc main_arg22)) :=
  (Chain.g6_keep_main_arg22 (W6 m ρ c)).trans (I5_main_arg22 m ρ c)

theorem I6_main_arg23 : W7 m ρ c (Proc.devRef .tc main_arg23) = (m ((c : Thread nD τ).loc main_arg23)) :=
  (Chain.g6_keep_main_arg23 (W6 m ρ c)).trans (I5_main_arg23 m ρ c)

theorem I6_main_arg24 : W7 m ρ c (Proc.devRef .tc main_arg24) = (m ((c : Thread nD τ).loc main_arg24)) :=
  (Chain.g6_keep_main_arg24 (W6 m ρ c)).trans (I5_main_arg24 m ρ c)

theorem I6_main_arg25 : W7 m ρ c (Proc.devRef .tc main_arg25) = (m ((c : Thread nD τ).loc main_arg25)) :=
  (Chain.g6_keep_main_arg25 (W6 m ρ c)).trans (I5_main_arg25 m ρ c)

theorem I6_main_arg26 : W7 m ρ c (Proc.devRef .tc main_arg26) = (m ((c : Thread nD τ).loc main_arg26)) :=
  (Chain.g6_keep_main_arg26 (W6 m ρ c)).trans (I5_main_arg26 m ρ c)

theorem I6_main_arg27 : W7 m ρ c (Proc.devRef .tc main_arg27) = (m ((c : Thread nD τ).loc main_arg27)) :=
  (Chain.g6_keep_main_arg27 (W6 m ρ c)).trans (I5_main_arg27 m ρ c)

theorem I6_main_arg28 : W7 m ρ c (Proc.devRef .tc main_arg28) = (m ((c : Thread nD τ).loc main_arg28)) :=
  (Chain.g6_keep_main_arg28 (W6 m ρ c)).trans (I5_main_arg28 m ρ c)

/-! ## After the stretch hostOps2_1 -/

theorem I7_main_v1 : W8 m ρ c (Proc.devRef .tc main_v1) = val_main_v1 (F := Ideal) (m ((c : Thread nD τ).loc main_arg1)) :=
  (Chain.g7_keep_main_v1 (W7 m ρ c)).trans (I6_main_v1 m ρ c)

theorem I7_main_v3 : W8 m ρ c (Proc.devRef .tc main_v3) = val_main_v3 (F := Ideal) (m ((c : Thread nD τ).loc main_arg1)) :=
  (Chain.g7_keep_main_v3 (W7 m ρ c)).trans (I6_main_v3 m ρ c)

theorem I7_main_v5 : W8 m ρ c (Proc.devRef .tc main_v5) = val_main_v5 (F := Ideal) (m ((c : Thread nD τ).loc main_arg2)) :=
  (Chain.g7_keep_main_v5 (W7 m ρ c)).trans (I6_main_v5 m ρ c)

theorem I7_main_v7 : W8 m ρ c (Proc.devRef .tc main_v7) = val_main_v7 (F := Ideal) (m ((c : Thread nD τ).loc main_arg2)) :=
  (Chain.g7_keep_main_v7 (W7 m ρ c)).trans (I6_main_v7 m ρ c)

theorem I7_main_v10 : W8 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g7_keep_main_v10 (W7 m ρ c)).trans (I6_main_v10 m ρ c)

theorem I7_main_v54 : W8 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Chain.g7_main_v54 (W7 m ρ c) (I6_main_v53 m ρ c)

theorem I7_main_arg3 : W8 m ρ c (Proc.devRef .tc main_arg3) = (m ((c : Thread nD τ).loc main_arg3)) :=
  (Chain.g7_keep_main_arg3 (W7 m ρ c)).trans (I6_main_arg3 m ρ c)

theorem I7_main_arg4 : W8 m ρ c (Proc.devRef .tc main_arg4) = (m ((c : Thread nD τ).loc main_arg4)) :=
  (Chain.g7_keep_main_arg4 (W7 m ρ c)).trans (I6_main_arg4 m ρ c)

theorem I7_main_arg11 : W8 m ρ c (Proc.devRef .tc main_arg11) = (m ((c : Thread nD τ).loc main_arg11)) :=
  (Chain.g7_keep_main_arg11 (W7 m ρ c)).trans (I6_main_arg11 m ρ c)

theorem I7_main_arg12 : W8 m ρ c (Proc.devRef .tc main_arg12) = (m ((c : Thread nD τ).loc main_arg12)) :=
  (Chain.g7_keep_main_arg12 (W7 m ρ c)).trans (I6_main_arg12 m ρ c)

theorem I7_main_arg13 : W8 m ρ c (Proc.devRef .tc main_arg13) = (m ((c : Thread nD τ).loc main_arg13)) :=
  (Chain.g7_keep_main_arg13 (W7 m ρ c)).trans (I6_main_arg13 m ρ c)

theorem I7_main_arg14 : W8 m ρ c (Proc.devRef .tc main_arg14) = (m ((c : Thread nD τ).loc main_arg14)) :=
  (Chain.g7_keep_main_arg14 (W7 m ρ c)).trans (I6_main_arg14 m ρ c)

theorem I7_main_arg15 : W8 m ρ c (Proc.devRef .tc main_arg15) = (m ((c : Thread nD τ).loc main_arg15)) :=
  (Chain.g7_keep_main_arg15 (W7 m ρ c)).trans (I6_main_arg15 m ρ c)

theorem I7_main_arg16 : W8 m ρ c (Proc.devRef .tc main_arg16) = (m ((c : Thread nD τ).loc main_arg16)) :=
  (Chain.g7_keep_main_arg16 (W7 m ρ c)).trans (I6_main_arg16 m ρ c)

theorem I7_main_arg17 : W8 m ρ c (Proc.devRef .tc main_arg17) = (m ((c : Thread nD τ).loc main_arg17)) :=
  (Chain.g7_keep_main_arg17 (W7 m ρ c)).trans (I6_main_arg17 m ρ c)

theorem I7_main_arg18 : W8 m ρ c (Proc.devRef .tc main_arg18) = (m ((c : Thread nD τ).loc main_arg18)) :=
  (Chain.g7_keep_main_arg18 (W7 m ρ c)).trans (I6_main_arg18 m ρ c)

theorem I7_main_arg19 : W8 m ρ c (Proc.devRef .tc main_arg19) = (m ((c : Thread nD τ).loc main_arg19)) :=
  (Chain.g7_keep_main_arg19 (W7 m ρ c)).trans (I6_main_arg19 m ρ c)

theorem I7_main_arg20 : W8 m ρ c (Proc.devRef .tc main_arg20) = (m ((c : Thread nD τ).loc main_arg20)) :=
  (Chain.g7_keep_main_arg20 (W7 m ρ c)).trans (I6_main_arg20 m ρ c)

theorem I7_main_arg21 : W8 m ρ c (Proc.devRef .tc main_arg21) = (m ((c : Thread nD τ).loc main_arg21)) :=
  (Chain.g7_keep_main_arg21 (W7 m ρ c)).trans (I6_main_arg21 m ρ c)

theorem I7_main_arg22 : W8 m ρ c (Proc.devRef .tc main_arg22) = (m ((c : Thread nD τ).loc main_arg22)) :=
  (Chain.g7_keep_main_arg22 (W7 m ρ c)).trans (I6_main_arg22 m ρ c)

theorem I7_main_arg23 : W8 m ρ c (Proc.devRef .tc main_arg23) = (m ((c : Thread nD τ).loc main_arg23)) :=
  (Chain.g7_keep_main_arg23 (W7 m ρ c)).trans (I6_main_arg23 m ρ c)

theorem I7_main_arg24 : W8 m ρ c (Proc.devRef .tc main_arg24) = (m ((c : Thread nD τ).loc main_arg24)) :=
  (Chain.g7_keep_main_arg24 (W7 m ρ c)).trans (I6_main_arg24 m ρ c)

theorem I7_main_arg25 : W8 m ρ c (Proc.devRef .tc main_arg25) = (m ((c : Thread nD τ).loc main_arg25)) :=
  (Chain.g7_keep_main_arg25 (W7 m ρ c)).trans (I6_main_arg25 m ρ c)

theorem I7_main_arg26 : W8 m ρ c (Proc.devRef .tc main_arg26) = (m ((c : Thread nD τ).loc main_arg26)) :=
  (Chain.g7_keep_main_arg26 (W7 m ρ c)).trans (I6_main_arg26 m ρ c)

theorem I7_main_arg27 : W8 m ρ c (Proc.devRef .tc main_arg27) = (m ((c : Thread nD τ).loc main_arg27)) :=
  (Chain.g7_keep_main_arg27 (W7 m ρ c)).trans (I6_main_arg27 m ρ c)

theorem I7_main_arg28 : W8 m ρ c (Proc.devRef .tc main_arg28) = (m ((c : Thread nD τ).loc main_arg28)) :=
  (Chain.g7_keep_main_arg28 (W7 m ρ c)).trans (I6_main_arg28 m ρ c)

/-! ## After the stretch hostOps2_2 -/

theorem I8_main_v1 : W9 m ρ c (Proc.devRef .tc main_v1) = val_main_v1 (F := Ideal) (m ((c : Thread nD τ).loc main_arg1)) :=
  (Chain.g8_keep_main_v1 (W8 m ρ c)).trans (I7_main_v1 m ρ c)

theorem I8_main_v3 : W9 m ρ c (Proc.devRef .tc main_v3) = val_main_v3 (F := Ideal) (m ((c : Thread nD τ).loc main_arg1)) :=
  (Chain.g8_keep_main_v3 (W8 m ρ c)).trans (I7_main_v3 m ρ c)

theorem I8_main_v5 : W9 m ρ c (Proc.devRef .tc main_v5) = val_main_v5 (F := Ideal) (m ((c : Thread nD τ).loc main_arg2)) :=
  (Chain.g8_keep_main_v5 (W8 m ρ c)).trans (I7_main_v5 m ρ c)

theorem I8_main_v7 : W9 m ρ c (Proc.devRef .tc main_v7) = val_main_v7 (F := Ideal) (m ((c : Thread nD τ).loc main_arg2)) :=
  (Chain.g8_keep_main_v7 (W8 m ρ c)).trans (I7_main_v7 m ρ c)

theorem I8_main_v10 : W9 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g8_keep_main_v10 (W8 m ρ c)).trans (I7_main_v10 m ρ c)

theorem I8_main_v54 : W9 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Chain.g8_keep_main_v54 (W8 m ρ c)).trans (I7_main_v54 m ρ c)

theorem I8_main_v56 : W9 m ρ c (Proc.devRef .tc main_v56) = val_main_v62 (F := Ideal) (m ((c : Thread nD τ).loc main_arg2)) :=
  Chain.g8_main_v56 (W8 m ρ c) (I7_main_v5 m ρ c)

theorem I8_main_v57 : W9 m ρ c (Proc.devRef .tc main_v57) = val_main_v63 (F := Ideal) (m ((c : Thread nD τ).loc main_arg2)) :=
  Chain.g8_main_v57 (W8 m ρ c) (I7_main_v7 m ρ c)

theorem I8_main_v63 : W9 m ρ c (Proc.devRef .tc main_v63) = val_main_v69 (F := Ideal) (m ((c : Thread nD τ).loc main_arg2)) :=
  Chain.g8_main_v63 (W8 m ρ c) (I7_main_v7 m ρ c)

theorem I8_main_v64 : W9 m ρ c (Proc.devRef .tc main_v64) = val_main_v70 (F := Ideal) (m ((c : Thread nD τ).loc main_arg2)) :=
  Chain.g8_main_v64 (W8 m ρ c) (I7_main_v7 m ρ c)

theorem I8_main_cst_12 : W9 m ρ c (Proc.devRef .tc main_cst_12) = val_main_cst_12 (F := Ideal) :=
  Chain.g8_main_cst_12 (W8 m ρ c)

theorem I8_main_arg3 : W9 m ρ c (Proc.devRef .tc main_arg3) = (m ((c : Thread nD τ).loc main_arg3)) :=
  (Chain.g8_keep_main_arg3 (W8 m ρ c)).trans (I7_main_arg3 m ρ c)

theorem I8_main_arg4 : W9 m ρ c (Proc.devRef .tc main_arg4) = (m ((c : Thread nD τ).loc main_arg4)) :=
  (Chain.g8_keep_main_arg4 (W8 m ρ c)).trans (I7_main_arg4 m ρ c)

theorem I8_main_arg11 : W9 m ρ c (Proc.devRef .tc main_arg11) = (m ((c : Thread nD τ).loc main_arg11)) :=
  (Chain.g8_keep_main_arg11 (W8 m ρ c)).trans (I7_main_arg11 m ρ c)

theorem I8_main_arg12 : W9 m ρ c (Proc.devRef .tc main_arg12) = (m ((c : Thread nD τ).loc main_arg12)) :=
  (Chain.g8_keep_main_arg12 (W8 m ρ c)).trans (I7_main_arg12 m ρ c)

theorem I8_main_arg13 : W9 m ρ c (Proc.devRef .tc main_arg13) = (m ((c : Thread nD τ).loc main_arg13)) :=
  (Chain.g8_keep_main_arg13 (W8 m ρ c)).trans (I7_main_arg13 m ρ c)

theorem I8_main_arg14 : W9 m ρ c (Proc.devRef .tc main_arg14) = (m ((c : Thread nD τ).loc main_arg14)) :=
  (Chain.g8_keep_main_arg14 (W8 m ρ c)).trans (I7_main_arg14 m ρ c)

theorem I8_main_arg15 : W9 m ρ c (Proc.devRef .tc main_arg15) = (m ((c : Thread nD τ).loc main_arg15)) :=
  (Chain.g8_keep_main_arg15 (W8 m ρ c)).trans (I7_main_arg15 m ρ c)

theorem I8_main_arg16 : W9 m ρ c (Proc.devRef .tc main_arg16) = (m ((c : Thread nD τ).loc main_arg16)) :=
  (Chain.g8_keep_main_arg16 (W8 m ρ c)).trans (I7_main_arg16 m ρ c)

theorem I8_main_arg17 : W9 m ρ c (Proc.devRef .tc main_arg17) = (m ((c : Thread nD τ).loc main_arg17)) :=
  (Chain.g8_keep_main_arg17 (W8 m ρ c)).trans (I7_main_arg17 m ρ c)

theorem I8_main_arg18 : W9 m ρ c (Proc.devRef .tc main_arg18) = (m ((c : Thread nD τ).loc main_arg18)) :=
  (Chain.g8_keep_main_arg18 (W8 m ρ c)).trans (I7_main_arg18 m ρ c)

theorem I8_main_arg19 : W9 m ρ c (Proc.devRef .tc main_arg19) = (m ((c : Thread nD τ).loc main_arg19)) :=
  (Chain.g8_keep_main_arg19 (W8 m ρ c)).trans (I7_main_arg19 m ρ c)

theorem I8_main_arg20 : W9 m ρ c (Proc.devRef .tc main_arg20) = (m ((c : Thread nD τ).loc main_arg20)) :=
  (Chain.g8_keep_main_arg20 (W8 m ρ c)).trans (I7_main_arg20 m ρ c)

theorem I8_main_arg21 : W9 m ρ c (Proc.devRef .tc main_arg21) = (m ((c : Thread nD τ).loc main_arg21)) :=
  (Chain.g8_keep_main_arg21 (W8 m ρ c)).trans (I7_main_arg21 m ρ c)

theorem I8_main_arg22 : W9 m ρ c (Proc.devRef .tc main_arg22) = (m ((c : Thread nD τ).loc main_arg22)) :=
  (Chain.g8_keep_main_arg22 (W8 m ρ c)).trans (I7_main_arg22 m ρ c)

theorem I8_main_arg23 : W9 m ρ c (Proc.devRef .tc main_arg23) = (m ((c : Thread nD τ).loc main_arg23)) :=
  (Chain.g8_keep_main_arg23 (W8 m ρ c)).trans (I7_main_arg23 m ρ c)

theorem I8_main_arg24 : W9 m ρ c (Proc.devRef .tc main_arg24) = (m ((c : Thread nD τ).loc main_arg24)) :=
  (Chain.g8_keep_main_arg24 (W8 m ρ c)).trans (I7_main_arg24 m ρ c)

theorem I8_main_arg25 : W9 m ρ c (Proc.devRef .tc main_arg25) = (m ((c : Thread nD τ).loc main_arg25)) :=
  (Chain.g8_keep_main_arg25 (W8 m ρ c)).trans (I7_main_arg25 m ρ c)

theorem I8_main_arg26 : W9 m ρ c (Proc.devRef .tc main_arg26) = (m ((c : Thread nD τ).loc main_arg26)) :=
  (Chain.g8_keep_main_arg26 (W8 m ρ c)).trans (I7_main_arg26 m ρ c)

theorem I8_main_arg27 : W9 m ρ c (Proc.devRef .tc main_arg27) = (m ((c : Thread nD τ).loc main_arg27)) :=
  (Chain.g8_keep_main_arg27 (W8 m ρ c)).trans (I7_main_arg27 m ρ c)

theorem I8_main_arg28 : W9 m ρ c (Proc.devRef .tc main_arg28) = (m ((c : Thread nD τ).loc main_arg28)) :=
  (Chain.g8_keep_main_arg28 (W8 m ρ c)).trans (I7_main_arg28 m ρ c)

/-! ## After the stretch hostOps2_3 -/

theorem I9_main_v1 : W10 m ρ c (Proc.devRef .tc main_v1) = val_main_v1 (F := Ideal) (m ((c : Thread nD τ).loc main_arg1)) :=
  (Chain.g9_keep_main_v1 (W9 m ρ c)).trans (I8_main_v1 m ρ c)

theorem I9_main_v3 : W10 m ρ c (Proc.devRef .tc main_v3) = val_main_v3 (F := Ideal) (m ((c : Thread nD τ).loc main_arg1)) :=
  (Chain.g9_keep_main_v3 (W9 m ρ c)).trans (I8_main_v3 m ρ c)

theorem I9_main_v5 : W10 m ρ c (Proc.devRef .tc main_v5) = val_main_v5 (F := Ideal) (m ((c : Thread nD τ).loc main_arg2)) :=
  (Chain.g9_keep_main_v5 (W9 m ρ c)).trans (I8_main_v5 m ρ c)

theorem I9_main_v7 : W10 m ρ c (Proc.devRef .tc main_v7) = val_main_v7 (F := Ideal) (m ((c : Thread nD τ).loc main_arg2)) :=
  (Chain.g9_keep_main_v7 (W9 m ρ c)).trans (I8_main_v7 m ρ c)

theorem I9_main_v10 : W10 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g9_keep_main_v10 (W9 m ρ c)).trans (I8_main_v10 m ρ c)

theorem I9_main_v54 : W10 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Chain.g9_keep_main_v54 (W9 m ρ c)).trans (I8_main_v54 m ρ c)

theorem I9_main_v56 : W10 m ρ c (Proc.devRef .tc main_v56) = val_main_v62 (F := Ideal) (m ((c : Thread nD τ).loc main_arg2)) :=
  (Chain.g9_keep_main_v56 (W9 m ρ c)).trans (I8_main_v56 m ρ c)

theorem I9_main_v57 : W10 m ρ c (Proc.devRef .tc main_v57) = val_main_v63 (F := Ideal) (m ((c : Thread nD τ).loc main_arg2)) :=
  (Chain.g9_keep_main_v57 (W9 m ρ c)).trans (I8_main_v57 m ρ c)

theorem I9_main_v65 : W10 m ρ c (Proc.devRef .tc main_v65) = val_main_v71 (F := Ideal) (m ((c : Thread nD τ).loc main_arg2)) :=
  Chain.g9_main_v65 (W9 m ρ c) (I8_main_v63 m ρ c) (I8_main_v64 m ρ c) (I8_main_cst_12 m ρ c)

theorem I9_main_arg3 : W10 m ρ c (Proc.devRef .tc main_arg3) = (m ((c : Thread nD τ).loc main_arg3)) :=
  (Chain.g9_keep_main_arg3 (W9 m ρ c)).trans (I8_main_arg3 m ρ c)

theorem I9_main_arg4 : W10 m ρ c (Proc.devRef .tc main_arg4) = (m ((c : Thread nD τ).loc main_arg4)) :=
  (Chain.g9_keep_main_arg4 (W9 m ρ c)).trans (I8_main_arg4 m ρ c)

theorem I9_main_arg11 : W10 m ρ c (Proc.devRef .tc main_arg11) = (m ((c : Thread nD τ).loc main_arg11)) :=
  (Chain.g9_keep_main_arg11 (W9 m ρ c)).trans (I8_main_arg11 m ρ c)

theorem I9_main_arg12 : W10 m ρ c (Proc.devRef .tc main_arg12) = (m ((c : Thread nD τ).loc main_arg12)) :=
  (Chain.g9_keep_main_arg12 (W9 m ρ c)).trans (I8_main_arg12 m ρ c)

theorem I9_main_arg13 : W10 m ρ c (Proc.devRef .tc main_arg13) = (m ((c : Thread nD τ).loc main_arg13)) :=
  (Chain.g9_keep_main_arg13 (W9 m ρ c)).trans (I8_main_arg13 m ρ c)

theorem I9_main_arg14 : W10 m ρ c (Proc.devRef .tc main_arg14) = (m ((c : Thread nD τ).loc main_arg14)) :=
  (Chain.g9_keep_main_arg14 (W9 m ρ c)).trans (I8_main_arg14 m ρ c)

theorem I9_main_arg15 : W10 m ρ c (Proc.devRef .tc main_arg15) = (m ((c : Thread nD τ).loc main_arg15)) :=
  (Chain.g9_keep_main_arg15 (W9 m ρ c)).trans (I8_main_arg15 m ρ c)

theorem I9_main_arg16 : W10 m ρ c (Proc.devRef .tc main_arg16) = (m ((c : Thread nD τ).loc main_arg16)) :=
  (Chain.g9_keep_main_arg16 (W9 m ρ c)).trans (I8_main_arg16 m ρ c)

theorem I9_main_arg17 : W10 m ρ c (Proc.devRef .tc main_arg17) = (m ((c : Thread nD τ).loc main_arg17)) :=
  (Chain.g9_keep_main_arg17 (W9 m ρ c)).trans (I8_main_arg17 m ρ c)

theorem I9_main_arg18 : W10 m ρ c (Proc.devRef .tc main_arg18) = (m ((c : Thread nD τ).loc main_arg18)) :=
  (Chain.g9_keep_main_arg18 (W9 m ρ c)).trans (I8_main_arg18 m ρ c)

theorem I9_main_arg19 : W10 m ρ c (Proc.devRef .tc main_arg19) = (m ((c : Thread nD τ).loc main_arg19)) :=
  (Chain.g9_keep_main_arg19 (W9 m ρ c)).trans (I8_main_arg19 m ρ c)

theorem I9_main_arg20 : W10 m ρ c (Proc.devRef .tc main_arg20) = (m ((c : Thread nD τ).loc main_arg20)) :=
  (Chain.g9_keep_main_arg20 (W9 m ρ c)).trans (I8_main_arg20 m ρ c)

theorem I9_main_arg21 : W10 m ρ c (Proc.devRef .tc main_arg21) = (m ((c : Thread nD τ).loc main_arg21)) :=
  (Chain.g9_keep_main_arg21 (W9 m ρ c)).trans (I8_main_arg21 m ρ c)

theorem I9_main_arg22 : W10 m ρ c (Proc.devRef .tc main_arg22) = (m ((c : Thread nD τ).loc main_arg22)) :=
  (Chain.g9_keep_main_arg22 (W9 m ρ c)).trans (I8_main_arg22 m ρ c)

theorem I9_main_arg23 : W10 m ρ c (Proc.devRef .tc main_arg23) = (m ((c : Thread nD τ).loc main_arg23)) :=
  (Chain.g9_keep_main_arg23 (W9 m ρ c)).trans (I8_main_arg23 m ρ c)

theorem I9_main_arg24 : W10 m ρ c (Proc.devRef .tc main_arg24) = (m ((c : Thread nD τ).loc main_arg24)) :=
  (Chain.g9_keep_main_arg24 (W9 m ρ c)).trans (I8_main_arg24 m ρ c)

theorem I9_main_arg25 : W10 m ρ c (Proc.devRef .tc main_arg25) = (m ((c : Thread nD τ).loc main_arg25)) :=
  (Chain.g9_keep_main_arg25 (W9 m ρ c)).trans (I8_main_arg25 m ρ c)

theorem I9_main_arg26 : W10 m ρ c (Proc.devRef .tc main_arg26) = (m ((c : Thread nD τ).loc main_arg26)) :=
  (Chain.g9_keep_main_arg26 (W9 m ρ c)).trans (I8_main_arg26 m ρ c)

theorem I9_main_arg27 : W10 m ρ c (Proc.devRef .tc main_arg27) = (m ((c : Thread nD τ).loc main_arg27)) :=
  (Chain.g9_keep_main_arg27 (W9 m ρ c)).trans (I8_main_arg27 m ρ c)

theorem I9_main_arg28 : W10 m ρ c (Proc.devRef .tc main_arg28) = (m ((c : Thread nD τ).loc main_arg28)) :=
  (Chain.g9_keep_main_arg28 (W9 m ρ c)).trans (I8_main_arg28 m ρ c)

/-! ## After the stretch hostOps2_4 -/

theorem I10_main_v1 : W11 m ρ c (Proc.devRef .tc main_v1) = val_main_v1 (F := Ideal) (m ((c : Thread nD τ).loc main_arg1)) :=
  (Chain.g10_keep_main_v1 (W10 m ρ c)).trans (I9_main_v1 m ρ c)

theorem I10_main_v3 : W11 m ρ c (Proc.devRef .tc main_v3) = val_main_v3 (F := Ideal) (m ((c : Thread nD τ).loc main_arg1)) :=
  (Chain.g10_keep_main_v3 (W10 m ρ c)).trans (I9_main_v3 m ρ c)

theorem I10_main_v5 : W11 m ρ c (Proc.devRef .tc main_v5) = val_main_v5 (F := Ideal) (m ((c : Thread nD τ).loc main_arg2)) :=
  (Chain.g10_keep_main_v5 (W10 m ρ c)).trans (I9_main_v5 m ρ c)

theorem I10_main_v7 : W11 m ρ c (Proc.devRef .tc main_v7) = val_main_v7 (F := Ideal) (m ((c : Thread nD τ).loc main_arg2)) :=
  (Chain.g10_keep_main_v7 (W10 m ρ c)).trans (I9_main_v7 m ρ c)

theorem I10_main_v10 : W11 m ρ c (Proc.devRef .tc main_v10) = val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (Chain.g10_keep_main_v10 (W10 m ρ c)).trans (I9_main_v10 m ρ c)

theorem I10_main_v54 : W11 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Chain.g10_keep_main_v54 (W10 m ρ c)).trans (I9_main_v54 m ρ c)

theorem I10_main_v56 : W11 m ρ c (Proc.devRef .tc main_v56) = val_main_v62 (F := Ideal) (m ((c : Thread nD τ).loc main_arg2)) :=
  (Chain.g10_keep_main_v56 (W10 m ρ c)).trans (I9_main_v56 m ρ c)

theorem I10_main_v57 : W11 m ρ c (Proc.devRef .tc main_v57) = val_main_v63 (F := Ideal) (m ((c : Thread nD τ).loc main_arg2)) :=
  (Chain.g10_keep_main_v57 (W10 m ρ c)).trans (I9_main_v57 m ρ c)

theorem I10_main_v80 : W11 m ρ c (Proc.devRef .tc main_v80) = val_main_v86 (F := Ideal) (m ((c : Thread nD τ).loc main_arg2)) :=
  Chain.g10_main_v80 (W10 m ρ c) (I9_main_v65 m ρ c) (I9_main_v56 m ρ c) (I9_main_v57 m ρ c)

theorem I10_main_arg3 : W11 m ρ c (Proc.devRef .tc main_arg3) = (m ((c : Thread nD τ).loc main_arg3)) :=
  (Chain.g10_keep_main_arg3 (W10 m ρ c)).trans (I9_main_arg3 m ρ c)

theorem I10_main_arg4 : W11 m ρ c (Proc.devRef .tc main_arg4) = (m ((c : Thread nD τ).loc main_arg4)) :=
  (Chain.g10_keep_main_arg4 (W10 m ρ c)).trans (I9_main_arg4 m ρ c)

theorem I10_main_arg11 : W11 m ρ c (Proc.devRef .tc main_arg11) = (m ((c : Thread nD τ).loc main_arg11)) :=
  (Chain.g10_keep_main_arg11 (W10 m ρ c)).trans (I9_main_arg11 m ρ c)

theorem I10_main_arg12 : W11 m ρ c (Proc.devRef .tc main_arg12) = (m ((c : Thread nD τ).loc main_arg12)) :=
  (Chain.g10_keep_main_arg12 (W10 m ρ c)).trans (I9_main_arg12 m ρ c)

theorem I10_main_arg13 : W11 m ρ c (Proc.devRef .tc main_arg13) = (m ((c : Thread nD τ).loc main_arg13)) :=
  (Chain.g10_keep_main_arg13 (W10 m ρ c)).trans (I9_main_arg13 m ρ c)

theorem I10_main_arg14 : W11 m ρ c (Proc.devRef .tc main_arg14) = (m ((c : Thread nD τ).loc main_arg14)) :=
  (Chain.g10_keep_main_arg14 (W10 m ρ c)).trans (I9_main_arg14 m ρ c)

theorem I10_main_arg15 : W11 m ρ c (Proc.devRef .tc main_arg15) = (m ((c : Thread nD τ).loc main_arg15)) :=
  (Chain.g10_keep_main_arg15 (W10 m ρ c)).trans (I9_main_arg15 m ρ c)

theorem I10_main_arg16 : W11 m ρ c (Proc.devRef .tc main_arg16) = (m ((c : Thread nD τ).loc main_arg16)) :=
  (Chain.g10_keep_main_arg16 (W10 m ρ c)).trans (I9_main_arg16 m ρ c)

theorem I10_main_arg17 : W11 m ρ c (Proc.devRef .tc main_arg17) = (m ((c : Thread nD τ).loc main_arg17)) :=
  (Chain.g10_keep_main_arg17 (W10 m ρ c)).trans (I9_main_arg17 m ρ c)

theorem I10_main_arg18 : W11 m ρ c (Proc.devRef .tc main_arg18) = (m ((c : Thread nD τ).loc main_arg18)) :=
  (Chain.g10_keep_main_arg18 (W10 m ρ c)).trans (I9_main_arg18 m ρ c)

theorem I10_main_arg19 : W11 m ρ c (Proc.devRef .tc main_arg19) = (m ((c : Thread nD τ).loc main_arg19)) :=
  (Chain.g10_keep_main_arg19 (W10 m ρ c)).trans (I9_main_arg19 m ρ c)

theorem I10_main_arg20 : W11 m ρ c (Proc.devRef .tc main_arg20) = (m ((c : Thread nD τ).loc main_arg20)) :=
  (Chain.g10_keep_main_arg20 (W10 m ρ c)).trans (I9_main_arg20 m ρ c)

theorem I10_main_arg21 : W11 m ρ c (Proc.devRef .tc main_arg21) = (m ((c : Thread nD τ).loc main_arg21)) :=
  (Chain.g10_keep_main_arg21 (W10 m ρ c)).trans (I9_main_arg21 m ρ c)

theorem I10_main_arg22 : W11 m ρ c (Proc.devRef .tc main_arg22) = (m ((c : Thread nD τ).loc main_arg22)) :=
  (Chain.g10_keep_main_arg22 (W10 m ρ c)).trans (I9_main_arg22 m ρ c)

theorem I10_main_arg23 : W11 m ρ c (Proc.devRef .tc main_arg23) = (m ((c : Thread nD τ).loc main_arg23)) :=
  (Chain.g10_keep_main_arg23 (W10 m ρ c)).trans (I9_main_arg23 m ρ c)

theorem I10_main_arg24 : W11 m ρ c (Proc.devRef .tc main_arg24) = (m ((c : Thread nD τ).loc main_arg24)) :=
  (Chain.g10_keep_main_arg24 (W10 m ρ c)).trans (I9_main_arg24 m ρ c)

theorem I10_main_arg25 : W11 m ρ c (Proc.devRef .tc main_arg25) = (m ((c : Thread nD τ).loc main_arg25)) :=
  (Chain.g10_keep_main_arg25 (W10 m ρ c)).trans (I9_main_arg25 m ρ c)

theorem I10_main_arg26 : W11 m ρ c (Proc.devRef .tc main_arg26) = (m ((c : Thread nD τ).loc main_arg26)) :=
  (Chain.g10_keep_main_arg26 (W10 m ρ c)).trans (I9_main_arg26 m ρ c)

theorem I10_main_arg27 : W11 m ρ c (Proc.devRef .tc main_arg27) = (m ((c : Thread nD τ).loc main_arg27)) :=
  (Chain.g10_keep_main_arg27 (W10 m ρ c)).trans (I9_main_arg27 m ρ c)

theorem I10_main_arg28 : W11 m ρ c (Proc.devRef .tc main_arg28) = (m ((c : Thread nD τ).loc main_arg28)) :=
  (Chain.g10_keep_main_arg28 (W10 m ρ c)).trans (I9_main_arg28 m ρ c)

/-! ## After launch 2 -/

theorem I11_main_v1 : W12 m ρ c (Proc.devRef .tc main_v1) = val_main_v1 (F := Ideal) (m ((c : Thread nD τ).loc main_arg1)) :=
  (W12_of_ne m ρ c main_v1 (by decide)).trans (I10_main_v1 m ρ c)

theorem I11_main_v3 : W12 m ρ c (Proc.devRef .tc main_v3) = val_main_v3 (F := Ideal) (m ((c : Thread nD τ).loc main_arg1)) :=
  (W12_of_ne m ρ c main_v3 (by decide)).trans (I10_main_v3 m ρ c)

theorem I11_main_v5 : W12 m ρ c (Proc.devRef .tc main_v5) = val_main_v5 (F := Ideal) (m ((c : Thread nD τ).loc main_arg2)) :=
  (W12_of_ne m ρ c main_v5 (by decide)).trans (I10_main_v5 m ρ c)

theorem I11_main_v7 : W12 m ρ c (Proc.devRef .tc main_v7) = val_main_v7 (F := Ideal) (m ((c : Thread nD τ).loc main_arg2)) :=
  (W12_of_ne m ρ c main_v7 (by decide)).trans (I10_main_v7 m ρ c)

theorem I11_main_v54 : W12 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_of_ne m ρ c main_v54 (by decide)).trans (I10_main_v54 m ρ c)

theorem I11_main_v56 : W12 m ρ c (Proc.devRef .tc main_v56) = val_main_v62 (F := Ideal) (m ((c : Thread nD τ).loc main_arg2)) :=
  (W12_of_ne m ρ c main_v56 (by decide)).trans (I10_main_v56 m ρ c)

theorem I11_main_v57 : W12 m ρ c (Proc.devRef .tc main_v57) = val_main_v63 (F := Ideal) (m ((c : Thread nD τ).loc main_arg2)) :=
  (W12_of_ne m ρ c main_v57 (by decide)).trans (I10_main_v57 m ρ c)

theorem I11_main_v80 : W12 m ρ c (Proc.devRef .tc main_v80) = val_main_v86 (F := Ideal) (m ((c : Thread nD τ).loc main_arg2)) :=
  (W12_of_ne m ρ c main_v80 (by decide)).trans (I10_main_v80 m ρ c)

theorem I11_main_v81 : W12 m ρ c (Proc.devRef .tc main_v81) = val_main_v87 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg11)) :=
  (W12_arr m ρ c 2).trans ((RegionLin.lin2 (V11 m ρ) c (val_main_v16 (F := Ideal) (m ((c : Thread nD τ).loc main_arg0)) (m ((c : Thread nD τ).loc main_arg5)) (m ((c : Thread nD τ).loc main_arg6)) (m ((c : Thread nD τ).loc main_arg7)) (m ((c : Thread nD τ).loc main_arg8))) (m ((c : Thread nD τ).loc main_arg11)) (I10_main_v10 m ρ c) (I10_main_arg11 m ρ c)).trans rfl)

theorem I11_main_arg3 : W12 m ρ c (Proc.devRef .tc main_arg3) = (m ((c : Thread nD τ).loc main_arg3)) :=
  (W12_of_ne m ρ c main_arg3 (by decide)).trans (I10_main_arg3 m ρ c)

theorem I11_main_arg4 : W12 m ρ c (Proc.devRef .tc main_arg4) = (m ((c : Thread nD τ).loc main_arg4)) :=
  (W12_of_ne m ρ c main_arg4 (by decide)).trans (I10_main_arg4 m ρ c)

theorem I11_main_arg12 : W12 m ρ c (Proc.devRef .tc main_arg12) = (m ((c : Thread nD τ).loc main_arg12)) :=
  (W12_of_ne m ρ c main_arg12 (by decide)).trans (I10_main_arg12 m ρ c)

theorem I11_main_arg13 : W12 m ρ c (Proc.devRef .tc main_arg13) = (m ((c : Thread nD τ).loc main_arg13)) :=
  (W12_of_ne m ρ c main_arg13 (by decide)).trans (I10_main_arg13 m ρ c)

theorem I11_main_arg14 : W12 m ρ c (Proc.devRef .tc main_arg14) = (m ((c : Thread nD τ).loc main_arg14)) :=
  (W12_of_ne m ρ c main_arg14 (by decide)).trans (I10_main_arg14 m ρ c)

theorem I11_main_arg15 : W12 m ρ c (Proc.devRef .tc main_arg15) = (m ((c : Thread nD τ).loc main_arg15)) :=
  (W12_of_ne m ρ c main_arg15 (by decide)).trans (I10_main_arg15 m ρ c)

theorem I11_main_arg16 : W12 m ρ c (Proc.devRef .tc main_arg16) = (m ((c : Thread nD τ).loc main_arg16)) :=
  (W12_of_ne m ρ c main_arg16 (by decide)).trans (I10_main_arg16 m ρ c)

theorem I11_main_arg17 : W12 m ρ c (Proc.devRef .tc main_arg17) = (m ((c : Thread nD τ).loc main_arg17)) :=
  (W12_of_ne m ρ c main_arg17 (by decide)).trans (I10_main_arg17 m ρ c)

theorem I11_main_arg18 : W12 m ρ c (Proc.devRef .tc main_arg18) = (m ((c : Thread nD τ).loc main_arg18)) :=
  (W12_of_ne m ρ c main_arg18 (by decide)).trans (I10_main_arg18 m ρ c)

theorem I11_main_arg19 : W12 m ρ c (Proc.devRef .tc main_arg19) = (m ((c : Thread nD τ).loc main_arg19)) :=
  (W12_of_ne m ρ c main_arg19 (by decide)).trans (I10_main_arg19 m ρ c)

theorem I11_main_arg20 : W12 m ρ c (Proc.devRef .tc main_arg20) = (m ((c : Thread nD τ).loc main_arg20)) :=
  (W12_of_ne m ρ c main_arg20 (by decide)).trans (I10_main_arg20 m ρ c)

theorem I11_main_arg21 : W12 m ρ c (Proc.devRef .tc main_arg21) = (m ((c : Thread nD τ).loc main_arg21)) :=
  (W12_of_ne m ρ c main_arg21 (by decide)).trans (I10_main_arg21 m ρ c)

theorem I11_main_arg22 : W12 m ρ c (Proc.devRef .tc main_arg22) = (m ((c : Thread nD τ).loc main_arg22)) :=
  (W12_of_ne m ρ c main_arg22 (by decide)).trans (I10_main_arg22 m ρ c)

theorem I11_main_arg23 : W12 m ρ c (Proc.devRef .tc main_arg23) = (m ((c : Thread nD τ).loc main_arg23)) :=
  (W12_of_ne m ρ c main_arg23 (by decide)).trans (I10_main_arg23 m ρ c)

theorem I11_main_arg24 : W12 m ρ c (Proc.devRef .tc main_arg24) = (m ((c : Thread nD τ).loc main_arg24)) :=
  (W12_of_ne m ρ c main_arg24 (by decide)).trans (I10_main_arg24 m ρ c)

theorem I11_main_arg25 : W12 m ρ c (Proc.devRef .tc main_arg25) = (m ((c : Thread nD τ).loc main_arg25)) :=
  (W12_of_ne m ρ c main_arg25 (by decide)).trans (I10_main_arg25 m ρ c)

theorem I11_main_arg26 : W12 m ρ c (Proc.devRef .tc main_arg26) = (m ((c : Thread nD τ).loc main_arg26)) :=
  (W12_of_ne m ρ c main_arg26 (by decide)).trans (I10_main_arg26 m ρ c)

theorem I11_main_arg27 : W12 m ρ c (Proc.devRef .tc main_arg27) = (m ((c : Thread nD τ).loc main_arg27)) :=
  (W12_of_ne m ρ c main_arg27 (by decide)).trans (I10_main_arg27 m ρ c)

theorem I11_main_arg28 : W12 m ρ c (Proc.devRef .tc main_arg28) = (m ((c : Thread nD τ).loc main_arg28)) :=
  (W12_of_ne m ρ c main_arg28 (by decide)).trans (I10_main_arg28 m ρ c)

/-! ## After the stretch hostOps3 -/

theorem I12_main_v1 : W13 m ρ c (Proc.devRef .tc main_v1) = val_main_v1 (F := Ideal) (m ((c : Thread nD τ).loc main_arg1)) :=
  (Chain.g12_keep_main_v1 (W12 m ρ c)).trans (I11_main_v1 m ρ c)

theorem I12_main_v3 : W13 m ρ c (Proc.devRef .tc main_v3) = val_main_v3 (F := Ideal) (m ((c : Thread nD τ).loc main_arg1)) :=
  (Chain.g12_keep_main_v3 (W12 m ρ c)).trans (I11_main_v3 m ρ c)

theorem I12_main_v5 : W13 m ρ c (Proc.devRef .tc main_v5) = val_main_v5 (F := Ideal) (m ((c : Thread nD τ).loc main_arg2)) :=
  (Chain.g12_keep_main_v5 (W12 m ρ c)).trans (I11_main_v5 m ρ c)

theorem I12_main_v7 : W13 m ρ c (Proc.devRef .tc main_v7) = val_main_v7 (F := Ideal) (m ((c : Thread nD τ).loc main_arg2)) :=
  (Chain.g12_keep_main_v7 (W12 m ρ c)).trans (I11_main_v7 m ρ c)

theorem I12_main_v54 : W13 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Chain.g12_keep_main_v54 (W12 m ρ c)).trans (I11_main_v54 m ρ c)

theorem I12_main_v97 : W13 m ρ c (Proc.devRef .tc main_v97) = val_main_v103 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  Chain.g12_main_v97 (W12 m ρ c) (I11_main_v57 m ρ c) (I11_main_v81 m ρ c) (I11_main_v56 m ρ c) (I11_main_v80 m ρ c) (I11_main_arg12 m ρ c)

theorem I12_main_arg3 : W13 m ρ c (Proc.devRef .tc main_arg3) = (m ((c : Thread nD τ).loc main_arg3)) :=
  (Chain.g12_keep_main_arg3 (W12 m ρ c)).trans (I11_main_arg3 m ρ c)

theorem I12_main_arg4 : W13 m ρ c (Proc.devRef .tc main_arg4) = (m ((c : Thread nD τ).loc main_arg4)) :=
  (Chain.g12_keep_main_arg4 (W12 m ρ c)).trans (I11_main_arg4 m ρ c)

theorem I12_main_arg13 : W13 m ρ c (Proc.devRef .tc main_arg13) = (m ((c : Thread nD τ).loc main_arg13)) :=
  (Chain.g12_keep_main_arg13 (W12 m ρ c)).trans (I11_main_arg13 m ρ c)

theorem I12_main_arg14 : W13 m ρ c (Proc.devRef .tc main_arg14) = (m ((c : Thread nD τ).loc main_arg14)) :=
  (Chain.g12_keep_main_arg14 (W12 m ρ c)).trans (I11_main_arg14 m ρ c)

theorem I12_main_arg15 : W13 m ρ c (Proc.devRef .tc main_arg15) = (m ((c : Thread nD τ).loc main_arg15)) :=
  (Chain.g12_keep_main_arg15 (W12 m ρ c)).trans (I11_main_arg15 m ρ c)

theorem I12_main_arg16 : W13 m ρ c (Proc.devRef .tc main_arg16) = (m ((c : Thread nD τ).loc main_arg16)) :=
  (Chain.g12_keep_main_arg16 (W12 m ρ c)).trans (I11_main_arg16 m ρ c)

theorem I12_main_arg17 : W13 m ρ c (Proc.devRef .tc main_arg17) = (m ((c : Thread nD τ).loc main_arg17)) :=
  (Chain.g12_keep_main_arg17 (W12 m ρ c)).trans (I11_main_arg17 m ρ c)

theorem I12_main_arg18 : W13 m ρ c (Proc.devRef .tc main_arg18) = (m ((c : Thread nD τ).loc main_arg18)) :=
  (Chain.g12_keep_main_arg18 (W12 m ρ c)).trans (I11_main_arg18 m ρ c)

theorem I12_main_arg19 : W13 m ρ c (Proc.devRef .tc main_arg19) = (m ((c : Thread nD τ).loc main_arg19)) :=
  (Chain.g12_keep_main_arg19 (W12 m ρ c)).trans (I11_main_arg19 m ρ c)

theorem I12_main_arg20 : W13 m ρ c (Proc.devRef .tc main_arg20) = (m ((c : Thread nD τ).loc main_arg20)) :=
  (Chain.g12_keep_main_arg20 (W12 m ρ c)).trans (I11_main_arg20 m ρ c)

theorem I12_main_arg21 : W13 m ρ c (Proc.devRef .tc main_arg21) = (m ((c : Thread nD τ).loc main_arg21)) :=
  (Chain.g12_keep_main_arg21 (W12 m ρ c)).trans (I11_main_arg21 m ρ c)

theorem I12_main_arg22 : W13 m ρ c (Proc.devRef .tc main_arg22) = (m ((c : Thread nD τ).loc main_arg22)) :=
  (Chain.g12_keep_main_arg22 (W12 m ρ c)).trans (I11_main_arg22 m ρ c)

theorem I12_main_arg23 : W13 m ρ c (Proc.devRef .tc main_arg23) = (m ((c : Thread nD τ).loc main_arg23)) :=
  (Chain.g12_keep_main_arg23 (W12 m ρ c)).trans (I11_main_arg23 m ρ c)

theorem I12_main_arg24 : W13 m ρ c (Proc.devRef .tc main_arg24) = (m ((c : Thread nD τ).loc main_arg24)) :=
  (Chain.g12_keep_main_arg24 (W12 m ρ c)).trans (I11_main_arg24 m ρ c)

theorem I12_main_arg25 : W13 m ρ c (Proc.devRef .tc main_arg25) = (m ((c : Thread nD τ).loc main_arg25)) :=
  (Chain.g12_keep_main_arg25 (W12 m ρ c)).trans (I11_main_arg25 m ρ c)

theorem I12_main_arg26 : W13 m ρ c (Proc.devRef .tc main_arg26) = (m ((c : Thread nD τ).loc main_arg26)) :=
  (Chain.g12_keep_main_arg26 (W12 m ρ c)).trans (I11_main_arg26 m ρ c)

theorem I12_main_arg27 : W13 m ρ c (Proc.devRef .tc main_arg27) = (m ((c : Thread nD τ).loc main_arg27)) :=
  (Chain.g12_keep_main_arg27 (W12 m ρ c)).trans (I11_main_arg27 m ρ c)

theorem I12_main_arg28 : W13 m ρ c (Proc.devRef .tc main_arg28) = (m ((c : Thread nD τ).loc main_arg28)) :=
  (Chain.g12_keep_main_arg28 (W12 m ρ c)).trans (I11_main_arg28 m ρ c)

/-! ## After the stretch hostOps3_1 -/

theorem I13_main_v1 : W14 m ρ c (Proc.devRef .tc main_v1) = val_main_v1 (F := Ideal) (m ((c : Thread nD τ).loc main_arg1)) :=
  (Chain.g13_keep_main_v1 (W13 m ρ c)).trans (I12_main_v1 m ρ c)

theorem I13_main_v3 : W14 m ρ c (Proc.devRef .tc main_v3) = val_main_v3 (F := Ideal) (m ((c : Thread nD τ).loc main_arg1)) :=
  (Chain.g13_keep_main_v3 (W13 m ρ c)).trans (I12_main_v3 m ρ c)

theorem I13_main_v5 : W14 m ρ c (Proc.devRef .tc main_v5) = val_main_v5 (F := Ideal) (m ((c : Thread nD τ).loc main_arg2)) :=
  (Chain.g13_keep_main_v5 (W13 m ρ c)).trans (I12_main_v5 m ρ c)

theorem I13_main_v7 : W14 m ρ c (Proc.devRef .tc main_v7) = val_main_v7 (F := Ideal) (m ((c : Thread nD τ).loc main_arg2)) :=
  (Chain.g13_keep_main_v7 (W13 m ρ c)).trans (I12_main_v7 m ρ c)

theorem I13_main_v54 : W14 m ρ c (Proc.devRef .tc main_v54) = val_main_v60 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Chain.g13_keep_main_v54 (W13 m ρ c)).trans (I12_main_v54 m ρ c)

theorem I13_main_v98 : W14 m ρ c (Proc.devRef .tc main_v98) = val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  Chain.g13_main_v98 (W13 m ρ c) (I12_main_v97 m ρ c)

theorem I13_main_arg3 : W14 m ρ c (Proc.devRef .tc main_arg3) = (m ((c : Thread nD τ).loc main_arg3)) :=
  (Chain.g13_keep_main_arg3 (W13 m ρ c)).trans (I12_main_arg3 m ρ c)

theorem I13_main_arg4 : W14 m ρ c (Proc.devRef .tc main_arg4) = (m ((c : Thread nD τ).loc main_arg4)) :=
  (Chain.g13_keep_main_arg4 (W13 m ρ c)).trans (I12_main_arg4 m ρ c)

theorem I13_main_arg13 : W14 m ρ c (Proc.devRef .tc main_arg13) = (m ((c : Thread nD τ).loc main_arg13)) :=
  (Chain.g13_keep_main_arg13 (W13 m ρ c)).trans (I12_main_arg13 m ρ c)

theorem I13_main_arg14 : W14 m ρ c (Proc.devRef .tc main_arg14) = (m ((c : Thread nD τ).loc main_arg14)) :=
  (Chain.g13_keep_main_arg14 (W13 m ρ c)).trans (I12_main_arg14 m ρ c)

theorem I13_main_arg15 : W14 m ρ c (Proc.devRef .tc main_arg15) = (m ((c : Thread nD τ).loc main_arg15)) :=
  (Chain.g13_keep_main_arg15 (W13 m ρ c)).trans (I12_main_arg15 m ρ c)

theorem I13_main_arg16 : W14 m ρ c (Proc.devRef .tc main_arg16) = (m ((c : Thread nD τ).loc main_arg16)) :=
  (Chain.g13_keep_main_arg16 (W13 m ρ c)).trans (I12_main_arg16 m ρ c)

theorem I13_main_arg17 : W14 m ρ c (Proc.devRef .tc main_arg17) = (m ((c : Thread nD τ).loc main_arg17)) :=
  (Chain.g13_keep_main_arg17 (W13 m ρ c)).trans (I12_main_arg17 m ρ c)

theorem I13_main_arg18 : W14 m ρ c (Proc.devRef .tc main_arg18) = (m ((c : Thread nD τ).loc main_arg18)) :=
  (Chain.g13_keep_main_arg18 (W13 m ρ c)).trans (I12_main_arg18 m ρ c)

theorem I13_main_arg19 : W14 m ρ c (Proc.devRef .tc main_arg19) = (m ((c : Thread nD τ).loc main_arg19)) :=
  (Chain.g13_keep_main_arg19 (W13 m ρ c)).trans (I12_main_arg19 m ρ c)

theorem I13_main_arg20 : W14 m ρ c (Proc.devRef .tc main_arg20) = (m ((c : Thread nD τ).loc main_arg20)) :=
  (Chain.g13_keep_main_arg20 (W13 m ρ c)).trans (I12_main_arg20 m ρ c)

theorem I13_main_arg21 : W14 m ρ c (Proc.devRef .tc main_arg21) = (m ((c : Thread nD τ).loc main_arg21)) :=
  (Chain.g13_keep_main_arg21 (W13 m ρ c)).trans (I12_main_arg21 m ρ c)

theorem I13_main_arg22 : W14 m ρ c (Proc.devRef .tc main_arg22) = (m ((c : Thread nD τ).loc main_arg22)) :=
  (Chain.g13_keep_main_arg22 (W13 m ρ c)).trans (I12_main_arg22 m ρ c)

theorem I13_main_arg23 : W14 m ρ c (Proc.devRef .tc main_arg23) = (m ((c : Thread nD τ).loc main_arg23)) :=
  (Chain.g13_keep_main_arg23 (W13 m ρ c)).trans (I12_main_arg23 m ρ c)

theorem I13_main_arg24 : W14 m ρ c (Proc.devRef .tc main_arg24) = (m ((c : Thread nD τ).loc main_arg24)) :=
  (Chain.g13_keep_main_arg24 (W13 m ρ c)).trans (I12_main_arg24 m ρ c)

theorem I13_main_arg25 : W14 m ρ c (Proc.devRef .tc main_arg25) = (m ((c : Thread nD τ).loc main_arg25)) :=
  (Chain.g13_keep_main_arg25 (W13 m ρ c)).trans (I12_main_arg25 m ρ c)

theorem I13_main_arg26 : W14 m ρ c (Proc.devRef .tc main_arg26) = (m ((c : Thread nD τ).loc main_arg26)) :=
  (Chain.g13_keep_main_arg26 (W13 m ρ c)).trans (I12_main_arg26 m ρ c)

theorem I13_main_arg27 : W14 m ρ c (Proc.devRef .tc main_arg27) = (m ((c : Thread nD τ).loc main_arg27)) :=
  (Chain.g13_keep_main_arg27 (W13 m ρ c)).trans (I12_main_arg27 m ρ c)

theorem I13_main_arg28 : W14 m ρ c (Proc.devRef .tc main_arg28) = (m ((c : Thread nD τ).loc main_arg28)) :=
  (Chain.g13_keep_main_arg28 (W13 m ρ c)).trans (I12_main_arg28 m ρ c)

/-! ## After the stretch hostOps3_2 -/

theorem I14_main_v1 : W15 m ρ c (Proc.devRef .tc main_v1) = val_main_v1 (F := Ideal) (m ((c : Thread nD τ).loc main_arg1)) :=
  (Chain.g14_keep_main_v1 (W14 m ρ c)).trans (I13_main_v1 m ρ c)

theorem I14_main_v3 : W15 m ρ c (Proc.devRef .tc main_v3) = val_main_v3 (F := Ideal) (m ((c : Thread nD τ).loc main_arg1)) :=
  (Chain.g14_keep_main_v3 (W14 m ρ c)).trans (I13_main_v3 m ρ c)

theorem I14_main_v5 : W15 m ρ c (Proc.devRef .tc main_v5) = val_main_v5 (F := Ideal) (m ((c : Thread nD τ).loc main_arg2)) :=
  (Chain.g14_keep_main_v5 (W14 m ρ c)).trans (I13_main_v5 m ρ c)

theorem I14_main_v7 : W15 m ρ c (Proc.devRef .tc main_v7) = val_main_v7 (F := Ideal) (m ((c : Thread nD τ).loc main_arg2)) :=
  (Chain.g14_keep_main_v7 (W14 m ρ c)).trans (I13_main_v7 m ρ c)

theorem I14_main_v99 : W15 m ρ c (Proc.devRef .tc main_v99) = val_main_v105 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  Chain.g14_main_v99 (W14 m ρ c) (I13_main_v54 m ρ c) (I13_main_v98 m ρ c)

theorem I14_main_v100 : ∀ n : Fin 256, W15 m ρ c (Proc.devRef .tc main_v100) (ValueIdx.ix2 (0 : Fin 1) n) = (m ((c : Thread nD τ).loc main_arg18)) (ValueIdx.ix1 n) :=
  fun n => (congrFun (Chain.g14_main_v100 (W14 m ρ c) (I13_main_arg18 m ρ c)) _).trans (Cert.Layout.shapeCast_row_apply _ _ n)

theorem I14_main_v101 : ∀ n : Fin 256, W15 m ρ c (Proc.devRef .tc main_v101) (ValueIdx.ix2 (0 : Fin 1) n) = (m ((c : Thread nD τ).loc main_arg20)) (ValueIdx.ix1 n) :=
  fun n => (congrFun (Chain.g14_main_v101 (W14 m ρ c) (I13_main_arg20 m ρ c)) _).trans (Cert.Layout.shapeCast_row_apply _ _ n)

theorem I14_main_arg3 : W15 m ρ c (Proc.devRef .tc main_arg3) = (m ((c : Thread nD τ).loc main_arg3)) :=
  (Chain.g14_keep_main_arg3 (W14 m ρ c)).trans (I13_main_arg3 m ρ c)

theorem I14_main_arg4 : W15 m ρ c (Proc.devRef .tc main_arg4) = (m ((c : Thread nD τ).loc main_arg4)) :=
  (Chain.g14_keep_main_arg4 (W14 m ρ c)).trans (I13_main_arg4 m ρ c)

theorem I14_main_arg13 : W15 m ρ c (Proc.devRef .tc main_arg13) = (m ((c : Thread nD τ).loc main_arg13)) :=
  (Chain.g14_keep_main_arg13 (W14 m ρ c)).trans (I13_main_arg13 m ρ c)

theorem I14_main_arg14 : W15 m ρ c (Proc.devRef .tc main_arg14) = (m ((c : Thread nD τ).loc main_arg14)) :=
  (Chain.g14_keep_main_arg14 (W14 m ρ c)).trans (I13_main_arg14 m ρ c)

theorem I14_main_arg15 : W15 m ρ c (Proc.devRef .tc main_arg15) = (m ((c : Thread nD τ).loc main_arg15)) :=
  (Chain.g14_keep_main_arg15 (W14 m ρ c)).trans (I13_main_arg15 m ρ c)

theorem I14_main_arg16 : W15 m ρ c (Proc.devRef .tc main_arg16) = (m ((c : Thread nD τ).loc main_arg16)) :=
  (Chain.g14_keep_main_arg16 (W14 m ρ c)).trans (I13_main_arg16 m ρ c)

theorem I14_main_arg17 : W15 m ρ c (Proc.devRef .tc main_arg17) = (m ((c : Thread nD τ).loc main_arg17)) :=
  (Chain.g14_keep_main_arg17 (W14 m ρ c)).trans (I13_main_arg17 m ρ c)

theorem I14_main_arg19 : W15 m ρ c (Proc.devRef .tc main_arg19) = (m ((c : Thread nD τ).loc main_arg19)) :=
  (Chain.g14_keep_main_arg19 (W14 m ρ c)).trans (I13_main_arg19 m ρ c)

theorem I14_main_arg21 : W15 m ρ c (Proc.devRef .tc main_arg21) = (m ((c : Thread nD τ).loc main_arg21)) :=
  (Chain.g14_keep_main_arg21 (W14 m ρ c)).trans (I13_main_arg21 m ρ c)

theorem I14_main_arg22 : W15 m ρ c (Proc.devRef .tc main_arg22) = (m ((c : Thread nD τ).loc main_arg22)) :=
  (Chain.g14_keep_main_arg22 (W14 m ρ c)).trans (I13_main_arg22 m ρ c)

theorem I14_main_arg23 : W15 m ρ c (Proc.devRef .tc main_arg23) = (m ((c : Thread nD τ).loc main_arg23)) :=
  (Chain.g14_keep_main_arg23 (W14 m ρ c)).trans (I13_main_arg23 m ρ c)

theorem I14_main_arg24 : W15 m ρ c (Proc.devRef .tc main_arg24) = (m ((c : Thread nD τ).loc main_arg24)) :=
  (Chain.g14_keep_main_arg24 (W14 m ρ c)).trans (I13_main_arg24 m ρ c)

theorem I14_main_arg25 : W15 m ρ c (Proc.devRef .tc main_arg25) = (m ((c : Thread nD τ).loc main_arg25)) :=
  (Chain.g14_keep_main_arg25 (W14 m ρ c)).trans (I13_main_arg25 m ρ c)

theorem I14_main_arg26 : W15 m ρ c (Proc.devRef .tc main_arg26) = (m ((c : Thread nD τ).loc main_arg26)) :=
  (Chain.g14_keep_main_arg26 (W14 m ρ c)).trans (I13_main_arg26 m ρ c)

theorem I14_main_arg27 : W15 m ρ c (Proc.devRef .tc main_arg27) = (m ((c : Thread nD τ).loc main_arg27)) :=
  (Chain.g14_keep_main_arg27 (W14 m ρ c)).trans (I13_main_arg27 m ρ c)

theorem I14_main_arg28 : W15 m ρ c (Proc.devRef .tc main_arg28) = (m ((c : Thread nD τ).loc main_arg28)) :=
  (Chain.g14_keep_main_arg28 (W14 m ρ c)).trans (I13_main_arg28 m ρ c)

/-! ## After launch 3 -/

theorem I15_main_v1 : W16 m ρ c (Proc.devRef .tc main_v1) = val_main_v1 (F := Ideal) (m ((c : Thread nD τ).loc main_arg1)) :=
  (W16_of_ne m ρ c main_v1 (by decide)).trans (I14_main_v1 m ρ c)

theorem I15_main_v3 : W16 m ρ c (Proc.devRef .tc main_v3) = val_main_v3 (F := Ideal) (m ((c : Thread nD τ).loc main_arg1)) :=
  (W16_of_ne m ρ c main_v3 (by decide)).trans (I14_main_v3 m ρ c)

theorem I15_main_v5 : W16 m ρ c (Proc.devRef .tc main_v5) = val_main_v5 (F := Ideal) (m ((c : Thread nD τ).loc main_arg2)) :=
  (W16_of_ne m ρ c main_v5 (by decide)).trans (I14_main_v5 m ρ c)

theorem I15_main_v7 : W16 m ρ c (Proc.devRef .tc main_v7) = val_main_v7 (F := Ideal) (m ((c : Thread nD τ).loc main_arg2)) :=
  (W16_of_ne m ρ c main_v7 (by decide)).trans (I14_main_v7 m ρ c)

theorem I15_main_v102 : W16 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (W16_arr m ρ c 5).trans ((RegionMid.mid3 (V15 m ρ) c (val_main_v105 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg17)) (m ((c : Thread nD τ).loc main_arg18)) (m ((c : Thread nD τ).loc main_arg19)) (m ((c : Thread nD τ).loc main_arg20)) (I14_main_v99 m ρ c) (I14_main_arg17 m ρ c) (I14_main_v100 m ρ c) (I14_main_arg19 m ρ c) (I14_main_v101 m ρ c)).trans rfl)

theorem I15_main_arg3 : W16 m ρ c (Proc.devRef .tc main_arg3) = (m ((c : Thread nD τ).loc main_arg3)) :=
  (W16_of_ne m ρ c main_arg3 (by decide)).trans (I14_main_arg3 m ρ c)

theorem I15_main_arg4 : W16 m ρ c (Proc.devRef .tc main_arg4) = (m ((c : Thread nD τ).loc main_arg4)) :=
  (W16_of_ne m ρ c main_arg4 (by decide)).trans (I14_main_arg4 m ρ c)

theorem I15_main_arg13 : W16 m ρ c (Proc.devRef .tc main_arg13) = (m ((c : Thread nD τ).loc main_arg13)) :=
  (W16_of_ne m ρ c main_arg13 (by decide)).trans (I14_main_arg13 m ρ c)

theorem I15_main_arg14 : W16 m ρ c (Proc.devRef .tc main_arg14) = (m ((c : Thread nD τ).loc main_arg14)) :=
  (W16_of_ne m ρ c main_arg14 (by decide)).trans (I14_main_arg14 m ρ c)

theorem I15_main_arg15 : W16 m ρ c (Proc.devRef .tc main_arg15) = (m ((c : Thread nD τ).loc main_arg15)) :=
  (W16_of_ne m ρ c main_arg15 (by decide)).trans (I14_main_arg15 m ρ c)

theorem I15_main_arg16 : W16 m ρ c (Proc.devRef .tc main_arg16) = (m ((c : Thread nD τ).loc main_arg16)) :=
  (W16_of_ne m ρ c main_arg16 (by decide)).trans (I14_main_arg16 m ρ c)

theorem I15_main_arg21 : W16 m ρ c (Proc.devRef .tc main_arg21) = (m ((c : Thread nD τ).loc main_arg21)) :=
  (W16_of_ne m ρ c main_arg21 (by decide)).trans (I14_main_arg21 m ρ c)

theorem I15_main_arg22 : W16 m ρ c (Proc.devRef .tc main_arg22) = (m ((c : Thread nD τ).loc main_arg22)) :=
  (W16_of_ne m ρ c main_arg22 (by decide)).trans (I14_main_arg22 m ρ c)

theorem I15_main_arg23 : W16 m ρ c (Proc.devRef .tc main_arg23) = (m ((c : Thread nD τ).loc main_arg23)) :=
  (W16_of_ne m ρ c main_arg23 (by decide)).trans (I14_main_arg23 m ρ c)

theorem I15_main_arg24 : W16 m ρ c (Proc.devRef .tc main_arg24) = (m ((c : Thread nD τ).loc main_arg24)) :=
  (W16_of_ne m ρ c main_arg24 (by decide)).trans (I14_main_arg24 m ρ c)

theorem I15_main_arg25 : W16 m ρ c (Proc.devRef .tc main_arg25) = (m ((c : Thread nD τ).loc main_arg25)) :=
  (W16_of_ne m ρ c main_arg25 (by decide)).trans (I14_main_arg25 m ρ c)

theorem I15_main_arg26 : W16 m ρ c (Proc.devRef .tc main_arg26) = (m ((c : Thread nD τ).loc main_arg26)) :=
  (W16_of_ne m ρ c main_arg26 (by decide)).trans (I14_main_arg26 m ρ c)

theorem I15_main_arg27 : W16 m ρ c (Proc.devRef .tc main_arg27) = (m ((c : Thread nD τ).loc main_arg27)) :=
  (W16_of_ne m ρ c main_arg27 (by decide)).trans (I14_main_arg27 m ρ c)

theorem I15_main_arg28 : W16 m ρ c (Proc.devRef .tc main_arg28) = (m ((c : Thread nD τ).loc main_arg28)) :=
  (W16_of_ne m ρ c main_arg28 (by decide)).trans (I14_main_arg28 m ρ c)

/-! ## After the stretch hostOps4 -/

theorem I16_main_v5 : W17 m ρ c (Proc.devRef .tc main_v5) = val_main_v5 (F := Ideal) (m ((c : Thread nD τ).loc main_arg2)) :=
  (Chain.g16_keep_main_v5 (W16 m ρ c)).trans (I15_main_v5 m ρ c)

theorem I16_main_v7 : W17 m ρ c (Proc.devRef .tc main_v7) = val_main_v7 (F := Ideal) (m ((c : Thread nD τ).loc main_arg2)) :=
  (Chain.g16_keep_main_v7 (W16 m ρ c)).trans (I15_main_v7 m ρ c)

theorem I16_main_v102 : W17 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g16_keep_main_v102 (W16 m ρ c)).trans (I15_main_v102 m ρ c)

theorem I16_main_v104 : W17 m ρ c (Proc.devRef .tc main_v104) = val_main_v116 (F := Ideal) (m ((c : Thread nD τ).loc main_arg1)) :=
  Chain.g16_main_v104 (W16 m ρ c) (I15_main_v1 m ρ c)

theorem I16_main_v105 : W17 m ρ c (Proc.devRef .tc main_v105) = val_main_v117 (F := Ideal) (m ((c : Thread nD τ).loc main_arg1)) :=
  Chain.g16_main_v105 (W16 m ρ c) (I15_main_v3 m ρ c)

theorem I16_main_v111 : W17 m ρ c (Proc.devRef .tc main_v111) = val_main_v123 (F := Ideal) (m ((c : Thread nD τ).loc main_arg1)) :=
  Chain.g16_main_v111 (W16 m ρ c) (I15_main_v3 m ρ c)

theorem I16_main_v112 : W17 m ρ c (Proc.devRef .tc main_v112) = val_main_v124 (F := Ideal) (m ((c : Thread nD τ).loc main_arg1)) :=
  Chain.g16_main_v112 (W16 m ρ c) (I15_main_v3 m ρ c)

theorem I16_main_cst_23 : W17 m ρ c (Proc.devRef .tc main_cst_23) = val_main_cst_23 (F := Ideal) :=
  Chain.g16_main_cst_23 (W16 m ρ c)

theorem I16_main_arg3 : W17 m ρ c (Proc.devRef .tc main_arg3) = (m ((c : Thread nD τ).loc main_arg3)) :=
  (Chain.g16_keep_main_arg3 (W16 m ρ c)).trans (I15_main_arg3 m ρ c)

theorem I16_main_arg4 : W17 m ρ c (Proc.devRef .tc main_arg4) = (m ((c : Thread nD τ).loc main_arg4)) :=
  (Chain.g16_keep_main_arg4 (W16 m ρ c)).trans (I15_main_arg4 m ρ c)

theorem I16_main_arg13 : W17 m ρ c (Proc.devRef .tc main_arg13) = (m ((c : Thread nD τ).loc main_arg13)) :=
  (Chain.g16_keep_main_arg13 (W16 m ρ c)).trans (I15_main_arg13 m ρ c)

theorem I16_main_arg14 : W17 m ρ c (Proc.devRef .tc main_arg14) = (m ((c : Thread nD τ).loc main_arg14)) :=
  (Chain.g16_keep_main_arg14 (W16 m ρ c)).trans (I15_main_arg14 m ρ c)

theorem I16_main_arg15 : W17 m ρ c (Proc.devRef .tc main_arg15) = (m ((c : Thread nD τ).loc main_arg15)) :=
  (Chain.g16_keep_main_arg15 (W16 m ρ c)).trans (I15_main_arg15 m ρ c)

theorem I16_main_arg16 : W17 m ρ c (Proc.devRef .tc main_arg16) = (m ((c : Thread nD τ).loc main_arg16)) :=
  (Chain.g16_keep_main_arg16 (W16 m ρ c)).trans (I15_main_arg16 m ρ c)

theorem I16_main_arg21 : W17 m ρ c (Proc.devRef .tc main_arg21) = (m ((c : Thread nD τ).loc main_arg21)) :=
  (Chain.g16_keep_main_arg21 (W16 m ρ c)).trans (I15_main_arg21 m ρ c)

theorem I16_main_arg22 : W17 m ρ c (Proc.devRef .tc main_arg22) = (m ((c : Thread nD τ).loc main_arg22)) :=
  (Chain.g16_keep_main_arg22 (W16 m ρ c)).trans (I15_main_arg22 m ρ c)

theorem I16_main_arg23 : W17 m ρ c (Proc.devRef .tc main_arg23) = (m ((c : Thread nD τ).loc main_arg23)) :=
  (Chain.g16_keep_main_arg23 (W16 m ρ c)).trans (I15_main_arg23 m ρ c)

theorem I16_main_arg24 : W17 m ρ c (Proc.devRef .tc main_arg24) = (m ((c : Thread nD τ).loc main_arg24)) :=
  (Chain.g16_keep_main_arg24 (W16 m ρ c)).trans (I15_main_arg24 m ρ c)

theorem I16_main_arg25 : W17 m ρ c (Proc.devRef .tc main_arg25) = (m ((c : Thread nD τ).loc main_arg25)) :=
  (Chain.g16_keep_main_arg25 (W16 m ρ c)).trans (I15_main_arg25 m ρ c)

theorem I16_main_arg26 : W17 m ρ c (Proc.devRef .tc main_arg26) = (m ((c : Thread nD τ).loc main_arg26)) :=
  (Chain.g16_keep_main_arg26 (W16 m ρ c)).trans (I15_main_arg26 m ρ c)

theorem I16_main_arg27 : W17 m ρ c (Proc.devRef .tc main_arg27) = (m ((c : Thread nD τ).loc main_arg27)) :=
  (Chain.g16_keep_main_arg27 (W16 m ρ c)).trans (I15_main_arg27 m ρ c)

theorem I16_main_arg28 : W17 m ρ c (Proc.devRef .tc main_arg28) = (m ((c : Thread nD τ).loc main_arg28)) :=
  (Chain.g16_keep_main_arg28 (W16 m ρ c)).trans (I15_main_arg28 m ρ c)

/-! ## After the stretch hostOps4_1 -/

theorem I17_main_v5 : W18 m ρ c (Proc.devRef .tc main_v5) = val_main_v5 (F := Ideal) (m ((c : Thread nD τ).loc main_arg2)) :=
  (Chain.g17_keep_main_v5 (W17 m ρ c)).trans (I16_main_v5 m ρ c)

theorem I17_main_v7 : W18 m ρ c (Proc.devRef .tc main_v7) = val_main_v7 (F := Ideal) (m ((c : Thread nD τ).loc main_arg2)) :=
  (Chain.g17_keep_main_v7 (W17 m ρ c)).trans (I16_main_v7 m ρ c)

theorem I17_main_v102 : W18 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g17_keep_main_v102 (W17 m ρ c)).trans (I16_main_v102 m ρ c)

theorem I17_main_v104 : W18 m ρ c (Proc.devRef .tc main_v104) = val_main_v116 (F := Ideal) (m ((c : Thread nD τ).loc main_arg1)) :=
  (Chain.g17_keep_main_v104 (W17 m ρ c)).trans (I16_main_v104 m ρ c)

theorem I17_main_v105 : W18 m ρ c (Proc.devRef .tc main_v105) = val_main_v117 (F := Ideal) (m ((c : Thread nD τ).loc main_arg1)) :=
  (Chain.g17_keep_main_v105 (W17 m ρ c)).trans (I16_main_v105 m ρ c)

theorem I17_main_v113 : W18 m ρ c (Proc.devRef .tc main_v113) = val_main_v125 (F := Ideal) (m ((c : Thread nD τ).loc main_arg1)) :=
  Chain.g17_main_v113 (W17 m ρ c) (I16_main_v111 m ρ c) (I16_main_v112 m ρ c) (I16_main_cst_23 m ρ c)

theorem I17_main_arg3 : W18 m ρ c (Proc.devRef .tc main_arg3) = (m ((c : Thread nD τ).loc main_arg3)) :=
  (Chain.g17_keep_main_arg3 (W17 m ρ c)).trans (I16_main_arg3 m ρ c)

theorem I17_main_arg4 : W18 m ρ c (Proc.devRef .tc main_arg4) = (m ((c : Thread nD τ).loc main_arg4)) :=
  (Chain.g17_keep_main_arg4 (W17 m ρ c)).trans (I16_main_arg4 m ρ c)

theorem I17_main_arg13 : W18 m ρ c (Proc.devRef .tc main_arg13) = (m ((c : Thread nD τ).loc main_arg13)) :=
  (Chain.g17_keep_main_arg13 (W17 m ρ c)).trans (I16_main_arg13 m ρ c)

theorem I17_main_arg14 : W18 m ρ c (Proc.devRef .tc main_arg14) = (m ((c : Thread nD τ).loc main_arg14)) :=
  (Chain.g17_keep_main_arg14 (W17 m ρ c)).trans (I16_main_arg14 m ρ c)

theorem I17_main_arg15 : W18 m ρ c (Proc.devRef .tc main_arg15) = (m ((c : Thread nD τ).loc main_arg15)) :=
  (Chain.g17_keep_main_arg15 (W17 m ρ c)).trans (I16_main_arg15 m ρ c)

theorem I17_main_arg16 : W18 m ρ c (Proc.devRef .tc main_arg16) = (m ((c : Thread nD τ).loc main_arg16)) :=
  (Chain.g17_keep_main_arg16 (W17 m ρ c)).trans (I16_main_arg16 m ρ c)

theorem I17_main_arg21 : W18 m ρ c (Proc.devRef .tc main_arg21) = (m ((c : Thread nD τ).loc main_arg21)) :=
  (Chain.g17_keep_main_arg21 (W17 m ρ c)).trans (I16_main_arg21 m ρ c)

theorem I17_main_arg22 : W18 m ρ c (Proc.devRef .tc main_arg22) = (m ((c : Thread nD τ).loc main_arg22)) :=
  (Chain.g17_keep_main_arg22 (W17 m ρ c)).trans (I16_main_arg22 m ρ c)

theorem I17_main_arg23 : W18 m ρ c (Proc.devRef .tc main_arg23) = (m ((c : Thread nD τ).loc main_arg23)) :=
  (Chain.g17_keep_main_arg23 (W17 m ρ c)).trans (I16_main_arg23 m ρ c)

theorem I17_main_arg24 : W18 m ρ c (Proc.devRef .tc main_arg24) = (m ((c : Thread nD τ).loc main_arg24)) :=
  (Chain.g17_keep_main_arg24 (W17 m ρ c)).trans (I16_main_arg24 m ρ c)

theorem I17_main_arg25 : W18 m ρ c (Proc.devRef .tc main_arg25) = (m ((c : Thread nD τ).loc main_arg25)) :=
  (Chain.g17_keep_main_arg25 (W17 m ρ c)).trans (I16_main_arg25 m ρ c)

theorem I17_main_arg26 : W18 m ρ c (Proc.devRef .tc main_arg26) = (m ((c : Thread nD τ).loc main_arg26)) :=
  (Chain.g17_keep_main_arg26 (W17 m ρ c)).trans (I16_main_arg26 m ρ c)

theorem I17_main_arg27 : W18 m ρ c (Proc.devRef .tc main_arg27) = (m ((c : Thread nD τ).loc main_arg27)) :=
  (Chain.g17_keep_main_arg27 (W17 m ρ c)).trans (I16_main_arg27 m ρ c)

theorem I17_main_arg28 : W18 m ρ c (Proc.devRef .tc main_arg28) = (m ((c : Thread nD τ).loc main_arg28)) :=
  (Chain.g17_keep_main_arg28 (W17 m ρ c)).trans (I16_main_arg28 m ρ c)

/-! ## After the stretch hostOps4_2 -/

theorem I18_main_v5 : W19 m ρ c (Proc.devRef .tc main_v5) = val_main_v5 (F := Ideal) (m ((c : Thread nD τ).loc main_arg2)) :=
  (Chain.g18_keep_main_v5 (W18 m ρ c)).trans (I17_main_v5 m ρ c)

theorem I18_main_v7 : W19 m ρ c (Proc.devRef .tc main_v7) = val_main_v7 (F := Ideal) (m ((c : Thread nD τ).loc main_arg2)) :=
  (Chain.g18_keep_main_v7 (W18 m ρ c)).trans (I17_main_v7 m ρ c)

theorem I18_main_v102 : W19 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g18_keep_main_v102 (W18 m ρ c)).trans (I17_main_v102 m ρ c)

theorem I18_main_v104 : W19 m ρ c (Proc.devRef .tc main_v104) = val_main_v116 (F := Ideal) (m ((c : Thread nD τ).loc main_arg1)) :=
  (Chain.g18_keep_main_v104 (W18 m ρ c)).trans (I17_main_v104 m ρ c)

theorem I18_main_v105 : W19 m ρ c (Proc.devRef .tc main_v105) = val_main_v117 (F := Ideal) (m ((c : Thread nD τ).loc main_arg1)) :=
  (Chain.g18_keep_main_v105 (W18 m ρ c)).trans (I17_main_v105 m ρ c)

theorem I18_main_v128 : W19 m ρ c (Proc.devRef .tc main_v128) = val_main_v140 (F := Ideal) (m ((c : Thread nD τ).loc main_arg1)) :=
  Chain.g18_main_v128 (W18 m ρ c) (I17_main_v113 m ρ c) (I17_main_v104 m ρ c) (I17_main_v105 m ρ c)

theorem I18_main_arg3 : W19 m ρ c (Proc.devRef .tc main_arg3) = (m ((c : Thread nD τ).loc main_arg3)) :=
  (Chain.g18_keep_main_arg3 (W18 m ρ c)).trans (I17_main_arg3 m ρ c)

theorem I18_main_arg4 : W19 m ρ c (Proc.devRef .tc main_arg4) = (m ((c : Thread nD τ).loc main_arg4)) :=
  (Chain.g18_keep_main_arg4 (W18 m ρ c)).trans (I17_main_arg4 m ρ c)

theorem I18_main_arg13 : W19 m ρ c (Proc.devRef .tc main_arg13) = (m ((c : Thread nD τ).loc main_arg13)) :=
  (Chain.g18_keep_main_arg13 (W18 m ρ c)).trans (I17_main_arg13 m ρ c)

theorem I18_main_arg14 : W19 m ρ c (Proc.devRef .tc main_arg14) = (m ((c : Thread nD τ).loc main_arg14)) :=
  (Chain.g18_keep_main_arg14 (W18 m ρ c)).trans (I17_main_arg14 m ρ c)

theorem I18_main_arg15 : W19 m ρ c (Proc.devRef .tc main_arg15) = (m ((c : Thread nD τ).loc main_arg15)) :=
  (Chain.g18_keep_main_arg15 (W18 m ρ c)).trans (I17_main_arg15 m ρ c)

theorem I18_main_arg16 : W19 m ρ c (Proc.devRef .tc main_arg16) = (m ((c : Thread nD τ).loc main_arg16)) :=
  (Chain.g18_keep_main_arg16 (W18 m ρ c)).trans (I17_main_arg16 m ρ c)

theorem I18_main_arg21 : W19 m ρ c (Proc.devRef .tc main_arg21) = (m ((c : Thread nD τ).loc main_arg21)) :=
  (Chain.g18_keep_main_arg21 (W18 m ρ c)).trans (I17_main_arg21 m ρ c)

theorem I18_main_arg22 : W19 m ρ c (Proc.devRef .tc main_arg22) = (m ((c : Thread nD τ).loc main_arg22)) :=
  (Chain.g18_keep_main_arg22 (W18 m ρ c)).trans (I17_main_arg22 m ρ c)

theorem I18_main_arg23 : W19 m ρ c (Proc.devRef .tc main_arg23) = (m ((c : Thread nD τ).loc main_arg23)) :=
  (Chain.g18_keep_main_arg23 (W18 m ρ c)).trans (I17_main_arg23 m ρ c)

theorem I18_main_arg24 : W19 m ρ c (Proc.devRef .tc main_arg24) = (m ((c : Thread nD τ).loc main_arg24)) :=
  (Chain.g18_keep_main_arg24 (W18 m ρ c)).trans (I17_main_arg24 m ρ c)

theorem I18_main_arg25 : W19 m ρ c (Proc.devRef .tc main_arg25) = (m ((c : Thread nD τ).loc main_arg25)) :=
  (Chain.g18_keep_main_arg25 (W18 m ρ c)).trans (I17_main_arg25 m ρ c)

theorem I18_main_arg26 : W19 m ρ c (Proc.devRef .tc main_arg26) = (m ((c : Thread nD τ).loc main_arg26)) :=
  (Chain.g18_keep_main_arg26 (W18 m ρ c)).trans (I17_main_arg26 m ρ c)

theorem I18_main_arg27 : W19 m ρ c (Proc.devRef .tc main_arg27) = (m ((c : Thread nD τ).loc main_arg27)) :=
  (Chain.g18_keep_main_arg27 (W18 m ρ c)).trans (I17_main_arg27 m ρ c)

theorem I18_main_arg28 : W19 m ρ c (Proc.devRef .tc main_arg28) = (m ((c : Thread nD τ).loc main_arg28)) :=
  (Chain.g18_keep_main_arg28 (W18 m ρ c)).trans (I17_main_arg28 m ρ c)

/-! ## After launch 4 -/

theorem I19_main_v5 : W20 m ρ c (Proc.devRef .tc main_v5) = val_main_v5 (F := Ideal) (m ((c : Thread nD τ).loc main_arg2)) :=
  (W20_of_ne m ρ c main_v5 (by decide)).trans (I18_main_v5 m ρ c)

theorem I19_main_v7 : W20 m ρ c (Proc.devRef .tc main_v7) = val_main_v7 (F := Ideal) (m ((c : Thread nD τ).loc main_arg2)) :=
  (W20_of_ne m ρ c main_v7 (by decide)).trans (I18_main_v7 m ρ c)

theorem I19_main_v102 : W20 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  ((W20_arr m ρ c 0).trans (((dat4 (V19 m ρ) c).arrAt_in 0 rfl _).trans (A_eq4 (V19 m ρ) c 0))).trans (I18_main_v102 m ρ c)

theorem I19_main_v104 : W20 m ρ c (Proc.devRef .tc main_v104) = val_main_v116 (F := Ideal) (m ((c : Thread nD τ).loc main_arg1)) :=
  (W20_of_ne m ρ c main_v104 (by decide)).trans (I18_main_v104 m ρ c)

theorem I19_main_v105 : W20 m ρ c (Proc.devRef .tc main_v105) = val_main_v117 (F := Ideal) (m ((c : Thread nD τ).loc main_arg1)) :=
  (W20_of_ne m ρ c main_v105 (by decide)).trans (I18_main_v105 m ρ c)

theorem I19_main_v128 : W20 m ρ c (Proc.devRef .tc main_v128) = val_main_v140 (F := Ideal) (m ((c : Thread nD τ).loc main_arg1)) :=
  (W20_of_ne m ρ c main_v128 (by decide)).trans (I18_main_v128 m ρ c)

theorem I19_main_v129 : W20 m ρ c (Proc.devRef .tc main_v129) = val_main_v141 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) :=
  (W20_arr m ρ c 2).trans ((RegionLin.lin4 (V19 m ρ) c (val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20))) (m ((c : Thread nD τ).loc main_arg13)) (I18_main_v102 m ρ c) (I18_main_arg13 m ρ c)).trans rfl)

theorem I19_main_arg3 : W20 m ρ c (Proc.devRef .tc main_arg3) = (m ((c : Thread nD τ).loc main_arg3)) :=
  (W20_of_ne m ρ c main_arg3 (by decide)).trans (I18_main_arg3 m ρ c)

theorem I19_main_arg4 : W20 m ρ c (Proc.devRef .tc main_arg4) = (m ((c : Thread nD τ).loc main_arg4)) :=
  (W20_of_ne m ρ c main_arg4 (by decide)).trans (I18_main_arg4 m ρ c)

theorem I19_main_arg14 : W20 m ρ c (Proc.devRef .tc main_arg14) = (m ((c : Thread nD τ).loc main_arg14)) :=
  (W20_of_ne m ρ c main_arg14 (by decide)).trans (I18_main_arg14 m ρ c)

theorem I19_main_arg15 : W20 m ρ c (Proc.devRef .tc main_arg15) = (m ((c : Thread nD τ).loc main_arg15)) :=
  (W20_of_ne m ρ c main_arg15 (by decide)).trans (I18_main_arg15 m ρ c)

theorem I19_main_arg16 : W20 m ρ c (Proc.devRef .tc main_arg16) = (m ((c : Thread nD τ).loc main_arg16)) :=
  (W20_of_ne m ρ c main_arg16 (by decide)).trans (I18_main_arg16 m ρ c)

theorem I19_main_arg21 : W20 m ρ c (Proc.devRef .tc main_arg21) = (m ((c : Thread nD τ).loc main_arg21)) :=
  (W20_of_ne m ρ c main_arg21 (by decide)).trans (I18_main_arg21 m ρ c)

theorem I19_main_arg22 : W20 m ρ c (Proc.devRef .tc main_arg22) = (m ((c : Thread nD τ).loc main_arg22)) :=
  (W20_of_ne m ρ c main_arg22 (by decide)).trans (I18_main_arg22 m ρ c)

theorem I19_main_arg23 : W20 m ρ c (Proc.devRef .tc main_arg23) = (m ((c : Thread nD τ).loc main_arg23)) :=
  (W20_of_ne m ρ c main_arg23 (by decide)).trans (I18_main_arg23 m ρ c)

theorem I19_main_arg24 : W20 m ρ c (Proc.devRef .tc main_arg24) = (m ((c : Thread nD τ).loc main_arg24)) :=
  (W20_of_ne m ρ c main_arg24 (by decide)).trans (I18_main_arg24 m ρ c)

theorem I19_main_arg25 : W20 m ρ c (Proc.devRef .tc main_arg25) = (m ((c : Thread nD τ).loc main_arg25)) :=
  (W20_of_ne m ρ c main_arg25 (by decide)).trans (I18_main_arg25 m ρ c)

theorem I19_main_arg26 : W20 m ρ c (Proc.devRef .tc main_arg26) = (m ((c : Thread nD τ).loc main_arg26)) :=
  (W20_of_ne m ρ c main_arg26 (by decide)).trans (I18_main_arg26 m ρ c)

theorem I19_main_arg27 : W20 m ρ c (Proc.devRef .tc main_arg27) = (m ((c : Thread nD τ).loc main_arg27)) :=
  (W20_of_ne m ρ c main_arg27 (by decide)).trans (I18_main_arg27 m ρ c)

theorem I19_main_arg28 : W20 m ρ c (Proc.devRef .tc main_arg28) = (m ((c : Thread nD τ).loc main_arg28)) :=
  (W20_of_ne m ρ c main_arg28 (by decide)).trans (I18_main_arg28 m ρ c)

/-! ## After the stretch hostOps5 -/

theorem I20_main_v5 : W21 m ρ c (Proc.devRef .tc main_v5) = val_main_v5 (F := Ideal) (m ((c : Thread nD τ).loc main_arg2)) :=
  (Chain.g20_keep_main_v5 (W20 m ρ c)).trans (I19_main_v5 m ρ c)

theorem I20_main_v7 : W21 m ρ c (Proc.devRef .tc main_v7) = val_main_v7 (F := Ideal) (m ((c : Thread nD τ).loc main_arg2)) :=
  (Chain.g20_keep_main_v7 (W20 m ρ c)).trans (I19_main_v7 m ρ c)

theorem I20_main_v102 : W21 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g20_keep_main_v102 (W20 m ρ c)).trans (I19_main_v102 m ρ c)

theorem I20_main_v145 : W21 m ρ c (Proc.devRef .tc main_v145) = val_main_v157 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  Chain.g20_main_v145 (W20 m ρ c) (I19_main_v105 m ρ c) (I19_main_v129 m ρ c) (I19_main_v104 m ρ c) (I19_main_v128 m ρ c) (I19_main_arg14 m ρ c)

theorem I20_main_arg3 : W21 m ρ c (Proc.devRef .tc main_arg3) = (m ((c : Thread nD τ).loc main_arg3)) :=
  (Chain.g20_keep_main_arg3 (W20 m ρ c)).trans (I19_main_arg3 m ρ c)

theorem I20_main_arg4 : W21 m ρ c (Proc.devRef .tc main_arg4) = (m ((c : Thread nD τ).loc main_arg4)) :=
  (Chain.g20_keep_main_arg4 (W20 m ρ c)).trans (I19_main_arg4 m ρ c)

theorem I20_main_arg15 : W21 m ρ c (Proc.devRef .tc main_arg15) = (m ((c : Thread nD τ).loc main_arg15)) :=
  (Chain.g20_keep_main_arg15 (W20 m ρ c)).trans (I19_main_arg15 m ρ c)

theorem I20_main_arg16 : W21 m ρ c (Proc.devRef .tc main_arg16) = (m ((c : Thread nD τ).loc main_arg16)) :=
  (Chain.g20_keep_main_arg16 (W20 m ρ c)).trans (I19_main_arg16 m ρ c)

theorem I20_main_arg21 : W21 m ρ c (Proc.devRef .tc main_arg21) = (m ((c : Thread nD τ).loc main_arg21)) :=
  (Chain.g20_keep_main_arg21 (W20 m ρ c)).trans (I19_main_arg21 m ρ c)

theorem I20_main_arg22 : W21 m ρ c (Proc.devRef .tc main_arg22) = (m ((c : Thread nD τ).loc main_arg22)) :=
  (Chain.g20_keep_main_arg22 (W20 m ρ c)).trans (I19_main_arg22 m ρ c)

theorem I20_main_arg23 : W21 m ρ c (Proc.devRef .tc main_arg23) = (m ((c : Thread nD τ).loc main_arg23)) :=
  (Chain.g20_keep_main_arg23 (W20 m ρ c)).trans (I19_main_arg23 m ρ c)

theorem I20_main_arg24 : W21 m ρ c (Proc.devRef .tc main_arg24) = (m ((c : Thread nD τ).loc main_arg24)) :=
  (Chain.g20_keep_main_arg24 (W20 m ρ c)).trans (I19_main_arg24 m ρ c)

theorem I20_main_arg25 : W21 m ρ c (Proc.devRef .tc main_arg25) = (m ((c : Thread nD τ).loc main_arg25)) :=
  (Chain.g20_keep_main_arg25 (W20 m ρ c)).trans (I19_main_arg25 m ρ c)

theorem I20_main_arg26 : W21 m ρ c (Proc.devRef .tc main_arg26) = (m ((c : Thread nD τ).loc main_arg26)) :=
  (Chain.g20_keep_main_arg26 (W20 m ρ c)).trans (I19_main_arg26 m ρ c)

theorem I20_main_arg27 : W21 m ρ c (Proc.devRef .tc main_arg27) = (m ((c : Thread nD τ).loc main_arg27)) :=
  (Chain.g20_keep_main_arg27 (W20 m ρ c)).trans (I19_main_arg27 m ρ c)

theorem I20_main_arg28 : W21 m ρ c (Proc.devRef .tc main_arg28) = (m ((c : Thread nD τ).loc main_arg28)) :=
  (Chain.g20_keep_main_arg28 (W20 m ρ c)).trans (I19_main_arg28 m ρ c)

/-! ## After the stretch hostOps5_1 -/

theorem I21_main_v5 : W22 m ρ c (Proc.devRef .tc main_v5) = val_main_v5 (F := Ideal) (m ((c : Thread nD τ).loc main_arg2)) :=
  (Chain.g21_keep_main_v5 (W21 m ρ c)).trans (I20_main_v5 m ρ c)

theorem I21_main_v7 : W22 m ρ c (Proc.devRef .tc main_v7) = val_main_v7 (F := Ideal) (m ((c : Thread nD τ).loc main_arg2)) :=
  (Chain.g21_keep_main_v7 (W21 m ρ c)).trans (I20_main_v7 m ρ c)

theorem I21_main_v102 : W22 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g21_keep_main_v102 (W21 m ρ c)).trans (I20_main_v102 m ρ c)

theorem I21_main_v146 : W22 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  Chain.g21_main_v146 (W21 m ρ c) (I20_main_v145 m ρ c)

theorem I21_main_arg3 : W22 m ρ c (Proc.devRef .tc main_arg3) = (m ((c : Thread nD τ).loc main_arg3)) :=
  (Chain.g21_keep_main_arg3 (W21 m ρ c)).trans (I20_main_arg3 m ρ c)

theorem I21_main_arg4 : W22 m ρ c (Proc.devRef .tc main_arg4) = (m ((c : Thread nD τ).loc main_arg4)) :=
  (Chain.g21_keep_main_arg4 (W21 m ρ c)).trans (I20_main_arg4 m ρ c)

theorem I21_main_arg15 : W22 m ρ c (Proc.devRef .tc main_arg15) = (m ((c : Thread nD τ).loc main_arg15)) :=
  (Chain.g21_keep_main_arg15 (W21 m ρ c)).trans (I20_main_arg15 m ρ c)

theorem I21_main_arg16 : W22 m ρ c (Proc.devRef .tc main_arg16) = (m ((c : Thread nD τ).loc main_arg16)) :=
  (Chain.g21_keep_main_arg16 (W21 m ρ c)).trans (I20_main_arg16 m ρ c)

theorem I21_main_arg21 : W22 m ρ c (Proc.devRef .tc main_arg21) = (m ((c : Thread nD τ).loc main_arg21)) :=
  (Chain.g21_keep_main_arg21 (W21 m ρ c)).trans (I20_main_arg21 m ρ c)

theorem I21_main_arg22 : W22 m ρ c (Proc.devRef .tc main_arg22) = (m ((c : Thread nD τ).loc main_arg22)) :=
  (Chain.g21_keep_main_arg22 (W21 m ρ c)).trans (I20_main_arg22 m ρ c)

theorem I21_main_arg23 : W22 m ρ c (Proc.devRef .tc main_arg23) = (m ((c : Thread nD τ).loc main_arg23)) :=
  (Chain.g21_keep_main_arg23 (W21 m ρ c)).trans (I20_main_arg23 m ρ c)

theorem I21_main_arg24 : W22 m ρ c (Proc.devRef .tc main_arg24) = (m ((c : Thread nD τ).loc main_arg24)) :=
  (Chain.g21_keep_main_arg24 (W21 m ρ c)).trans (I20_main_arg24 m ρ c)

theorem I21_main_arg25 : W22 m ρ c (Proc.devRef .tc main_arg25) = (m ((c : Thread nD τ).loc main_arg25)) :=
  (Chain.g21_keep_main_arg25 (W21 m ρ c)).trans (I20_main_arg25 m ρ c)

theorem I21_main_arg26 : W22 m ρ c (Proc.devRef .tc main_arg26) = (m ((c : Thread nD τ).loc main_arg26)) :=
  (Chain.g21_keep_main_arg26 (W21 m ρ c)).trans (I20_main_arg26 m ρ c)

theorem I21_main_arg27 : W22 m ρ c (Proc.devRef .tc main_arg27) = (m ((c : Thread nD τ).loc main_arg27)) :=
  (Chain.g21_keep_main_arg27 (W21 m ρ c)).trans (I20_main_arg27 m ρ c)

theorem I21_main_arg28 : W22 m ρ c (Proc.devRef .tc main_arg28) = (m ((c : Thread nD τ).loc main_arg28)) :=
  (Chain.g21_keep_main_arg28 (W21 m ρ c)).trans (I20_main_arg28 m ρ c)

/-! ## After the stretch hostOps5_2 -/

theorem I22_main_v102 : W23 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g22_keep_main_v102 (W22 m ρ c)).trans (I21_main_v102 m ρ c)

theorem I22_main_v146 : W23 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (Chain.g22_keep_main_v146 (W22 m ρ c)).trans (I21_main_v146 m ρ c)

theorem I22_main_v148 : W23 m ρ c (Proc.devRef .tc main_v148) = val_main_v160 (F := Ideal) (m ((c : Thread nD τ).loc main_arg2)) :=
  Chain.g22_main_v148 (W22 m ρ c) (I21_main_v5 m ρ c)

theorem I22_main_v149 : W23 m ρ c (Proc.devRef .tc main_v149) = val_main_v161 (F := Ideal) (m ((c : Thread nD τ).loc main_arg2)) :=
  Chain.g22_main_v149 (W22 m ρ c) (I21_main_v7 m ρ c)

theorem I22_main_v155 : W23 m ρ c (Proc.devRef .tc main_v155) = val_main_v167 (F := Ideal) (m ((c : Thread nD τ).loc main_arg2)) :=
  Chain.g22_main_v155 (W22 m ρ c) (I21_main_v7 m ρ c)

theorem I22_main_v156 : W23 m ρ c (Proc.devRef .tc main_v156) = val_main_v168 (F := Ideal) (m ((c : Thread nD τ).loc main_arg2)) :=
  Chain.g22_main_v156 (W22 m ρ c) (I21_main_v7 m ρ c)

theorem I22_main_cst_34 : W23 m ρ c (Proc.devRef .tc main_cst_34) = val_main_cst_34 (F := Ideal) :=
  Chain.g22_main_cst_34 (W22 m ρ c)

theorem I22_main_arg3 : W23 m ρ c (Proc.devRef .tc main_arg3) = (m ((c : Thread nD τ).loc main_arg3)) :=
  (Chain.g22_keep_main_arg3 (W22 m ρ c)).trans (I21_main_arg3 m ρ c)

theorem I22_main_arg4 : W23 m ρ c (Proc.devRef .tc main_arg4) = (m ((c : Thread nD τ).loc main_arg4)) :=
  (Chain.g22_keep_main_arg4 (W22 m ρ c)).trans (I21_main_arg4 m ρ c)

theorem I22_main_arg15 : W23 m ρ c (Proc.devRef .tc main_arg15) = (m ((c : Thread nD τ).loc main_arg15)) :=
  (Chain.g22_keep_main_arg15 (W22 m ρ c)).trans (I21_main_arg15 m ρ c)

theorem I22_main_arg16 : W23 m ρ c (Proc.devRef .tc main_arg16) = (m ((c : Thread nD τ).loc main_arg16)) :=
  (Chain.g22_keep_main_arg16 (W22 m ρ c)).trans (I21_main_arg16 m ρ c)

theorem I22_main_arg21 : W23 m ρ c (Proc.devRef .tc main_arg21) = (m ((c : Thread nD τ).loc main_arg21)) :=
  (Chain.g22_keep_main_arg21 (W22 m ρ c)).trans (I21_main_arg21 m ρ c)

theorem I22_main_arg22 : W23 m ρ c (Proc.devRef .tc main_arg22) = (m ((c : Thread nD τ).loc main_arg22)) :=
  (Chain.g22_keep_main_arg22 (W22 m ρ c)).trans (I21_main_arg22 m ρ c)

theorem I22_main_arg23 : W23 m ρ c (Proc.devRef .tc main_arg23) = (m ((c : Thread nD τ).loc main_arg23)) :=
  (Chain.g22_keep_main_arg23 (W22 m ρ c)).trans (I21_main_arg23 m ρ c)

theorem I22_main_arg24 : W23 m ρ c (Proc.devRef .tc main_arg24) = (m ((c : Thread nD τ).loc main_arg24)) :=
  (Chain.g22_keep_main_arg24 (W22 m ρ c)).trans (I21_main_arg24 m ρ c)

theorem I22_main_arg25 : W23 m ρ c (Proc.devRef .tc main_arg25) = (m ((c : Thread nD τ).loc main_arg25)) :=
  (Chain.g22_keep_main_arg25 (W22 m ρ c)).trans (I21_main_arg25 m ρ c)

theorem I22_main_arg26 : W23 m ρ c (Proc.devRef .tc main_arg26) = (m ((c : Thread nD τ).loc main_arg26)) :=
  (Chain.g22_keep_main_arg26 (W22 m ρ c)).trans (I21_main_arg26 m ρ c)

theorem I22_main_arg27 : W23 m ρ c (Proc.devRef .tc main_arg27) = (m ((c : Thread nD τ).loc main_arg27)) :=
  (Chain.g22_keep_main_arg27 (W22 m ρ c)).trans (I21_main_arg27 m ρ c)

theorem I22_main_arg28 : W23 m ρ c (Proc.devRef .tc main_arg28) = (m ((c : Thread nD τ).loc main_arg28)) :=
  (Chain.g22_keep_main_arg28 (W22 m ρ c)).trans (I21_main_arg28 m ρ c)

/-! ## After the stretch hostOps5_3 -/

theorem I23_main_v102 : W24 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g23_keep_main_v102 (W23 m ρ c)).trans (I22_main_v102 m ρ c)

theorem I23_main_v146 : W24 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (Chain.g23_keep_main_v146 (W23 m ρ c)).trans (I22_main_v146 m ρ c)

theorem I23_main_v148 : W24 m ρ c (Proc.devRef .tc main_v148) = val_main_v160 (F := Ideal) (m ((c : Thread nD τ).loc main_arg2)) :=
  (Chain.g23_keep_main_v148 (W23 m ρ c)).trans (I22_main_v148 m ρ c)

theorem I23_main_v149 : W24 m ρ c (Proc.devRef .tc main_v149) = val_main_v161 (F := Ideal) (m ((c : Thread nD τ).loc main_arg2)) :=
  (Chain.g23_keep_main_v149 (W23 m ρ c)).trans (I22_main_v149 m ρ c)

theorem I23_main_v157 : W24 m ρ c (Proc.devRef .tc main_v157) = val_main_v169 (F := Ideal) (m ((c : Thread nD τ).loc main_arg2)) :=
  Chain.g23_main_v157 (W23 m ρ c) (I22_main_v155 m ρ c) (I22_main_v156 m ρ c) (I22_main_cst_34 m ρ c)

theorem I23_main_arg3 : W24 m ρ c (Proc.devRef .tc main_arg3) = (m ((c : Thread nD τ).loc main_arg3)) :=
  (Chain.g23_keep_main_arg3 (W23 m ρ c)).trans (I22_main_arg3 m ρ c)

theorem I23_main_arg4 : W24 m ρ c (Proc.devRef .tc main_arg4) = (m ((c : Thread nD τ).loc main_arg4)) :=
  (Chain.g23_keep_main_arg4 (W23 m ρ c)).trans (I22_main_arg4 m ρ c)

theorem I23_main_arg15 : W24 m ρ c (Proc.devRef .tc main_arg15) = (m ((c : Thread nD τ).loc main_arg15)) :=
  (Chain.g23_keep_main_arg15 (W23 m ρ c)).trans (I22_main_arg15 m ρ c)

theorem I23_main_arg16 : W24 m ρ c (Proc.devRef .tc main_arg16) = (m ((c : Thread nD τ).loc main_arg16)) :=
  (Chain.g23_keep_main_arg16 (W23 m ρ c)).trans (I22_main_arg16 m ρ c)

theorem I23_main_arg21 : W24 m ρ c (Proc.devRef .tc main_arg21) = (m ((c : Thread nD τ).loc main_arg21)) :=
  (Chain.g23_keep_main_arg21 (W23 m ρ c)).trans (I22_main_arg21 m ρ c)

theorem I23_main_arg22 : W24 m ρ c (Proc.devRef .tc main_arg22) = (m ((c : Thread nD τ).loc main_arg22)) :=
  (Chain.g23_keep_main_arg22 (W23 m ρ c)).trans (I22_main_arg22 m ρ c)

theorem I23_main_arg23 : W24 m ρ c (Proc.devRef .tc main_arg23) = (m ((c : Thread nD τ).loc main_arg23)) :=
  (Chain.g23_keep_main_arg23 (W23 m ρ c)).trans (I22_main_arg23 m ρ c)

theorem I23_main_arg24 : W24 m ρ c (Proc.devRef .tc main_arg24) = (m ((c : Thread nD τ).loc main_arg24)) :=
  (Chain.g23_keep_main_arg24 (W23 m ρ c)).trans (I22_main_arg24 m ρ c)

theorem I23_main_arg25 : W24 m ρ c (Proc.devRef .tc main_arg25) = (m ((c : Thread nD τ).loc main_arg25)) :=
  (Chain.g23_keep_main_arg25 (W23 m ρ c)).trans (I22_main_arg25 m ρ c)

theorem I23_main_arg26 : W24 m ρ c (Proc.devRef .tc main_arg26) = (m ((c : Thread nD τ).loc main_arg26)) :=
  (Chain.g23_keep_main_arg26 (W23 m ρ c)).trans (I22_main_arg26 m ρ c)

theorem I23_main_arg27 : W24 m ρ c (Proc.devRef .tc main_arg27) = (m ((c : Thread nD τ).loc main_arg27)) :=
  (Chain.g23_keep_main_arg27 (W23 m ρ c)).trans (I22_main_arg27 m ρ c)

theorem I23_main_arg28 : W24 m ρ c (Proc.devRef .tc main_arg28) = (m ((c : Thread nD τ).loc main_arg28)) :=
  (Chain.g23_keep_main_arg28 (W23 m ρ c)).trans (I22_main_arg28 m ρ c)

/-! ## After the stretch hostOps5_4 -/

theorem I24_main_v102 : W25 m ρ c (Proc.devRef .tc main_v102) = val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20)) :=
  (Chain.g24_keep_main_v102 (W24 m ρ c)).trans (I23_main_v102 m ρ c)

theorem I24_main_v146 : W25 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (Chain.g24_keep_main_v146 (W24 m ρ c)).trans (I23_main_v146 m ρ c)

theorem I24_main_v148 : W25 m ρ c (Proc.devRef .tc main_v148) = val_main_v160 (F := Ideal) (m ((c : Thread nD τ).loc main_arg2)) :=
  (Chain.g24_keep_main_v148 (W24 m ρ c)).trans (I23_main_v148 m ρ c)

theorem I24_main_v149 : W25 m ρ c (Proc.devRef .tc main_v149) = val_main_v161 (F := Ideal) (m ((c : Thread nD τ).loc main_arg2)) :=
  (Chain.g24_keep_main_v149 (W24 m ρ c)).trans (I23_main_v149 m ρ c)

theorem I24_main_v172 : W25 m ρ c (Proc.devRef .tc main_v172) = val_main_v184 (F := Ideal) (m ((c : Thread nD τ).loc main_arg2)) :=
  Chain.g24_main_v172 (W24 m ρ c) (I23_main_v157 m ρ c) (I23_main_v148 m ρ c) (I23_main_v149 m ρ c)

theorem I24_main_arg3 : W25 m ρ c (Proc.devRef .tc main_arg3) = (m ((c : Thread nD τ).loc main_arg3)) :=
  (Chain.g24_keep_main_arg3 (W24 m ρ c)).trans (I23_main_arg3 m ρ c)

theorem I24_main_arg4 : W25 m ρ c (Proc.devRef .tc main_arg4) = (m ((c : Thread nD τ).loc main_arg4)) :=
  (Chain.g24_keep_main_arg4 (W24 m ρ c)).trans (I23_main_arg4 m ρ c)

theorem I24_main_arg15 : W25 m ρ c (Proc.devRef .tc main_arg15) = (m ((c : Thread nD τ).loc main_arg15)) :=
  (Chain.g24_keep_main_arg15 (W24 m ρ c)).trans (I23_main_arg15 m ρ c)

theorem I24_main_arg16 : W25 m ρ c (Proc.devRef .tc main_arg16) = (m ((c : Thread nD τ).loc main_arg16)) :=
  (Chain.g24_keep_main_arg16 (W24 m ρ c)).trans (I23_main_arg16 m ρ c)

theorem I24_main_arg21 : W25 m ρ c (Proc.devRef .tc main_arg21) = (m ((c : Thread nD τ).loc main_arg21)) :=
  (Chain.g24_keep_main_arg21 (W24 m ρ c)).trans (I23_main_arg21 m ρ c)

theorem I24_main_arg22 : W25 m ρ c (Proc.devRef .tc main_arg22) = (m ((c : Thread nD τ).loc main_arg22)) :=
  (Chain.g24_keep_main_arg22 (W24 m ρ c)).trans (I23_main_arg22 m ρ c)

theorem I24_main_arg23 : W25 m ρ c (Proc.devRef .tc main_arg23) = (m ((c : Thread nD τ).loc main_arg23)) :=
  (Chain.g24_keep_main_arg23 (W24 m ρ c)).trans (I23_main_arg23 m ρ c)

theorem I24_main_arg24 : W25 m ρ c (Proc.devRef .tc main_arg24) = (m ((c : Thread nD τ).loc main_arg24)) :=
  (Chain.g24_keep_main_arg24 (W24 m ρ c)).trans (I23_main_arg24 m ρ c)

theorem I24_main_arg25 : W25 m ρ c (Proc.devRef .tc main_arg25) = (m ((c : Thread nD τ).loc main_arg25)) :=
  (Chain.g24_keep_main_arg25 (W24 m ρ c)).trans (I23_main_arg25 m ρ c)

theorem I24_main_arg26 : W25 m ρ c (Proc.devRef .tc main_arg26) = (m ((c : Thread nD τ).loc main_arg26)) :=
  (Chain.g24_keep_main_arg26 (W24 m ρ c)).trans (I23_main_arg26 m ρ c)

theorem I24_main_arg27 : W25 m ρ c (Proc.devRef .tc main_arg27) = (m ((c : Thread nD τ).loc main_arg27)) :=
  (Chain.g24_keep_main_arg27 (W24 m ρ c)).trans (I23_main_arg27 m ρ c)

theorem I24_main_arg28 : W25 m ρ c (Proc.devRef .tc main_arg28) = (m ((c : Thread nD τ).loc main_arg28)) :=
  (Chain.g24_keep_main_arg28 (W24 m ρ c)).trans (I23_main_arg28 m ρ c)

/-! ## After launch 5 -/

theorem I25_main_v146 : W26 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (W26_of_ne m ρ c main_v146 (by decide)).trans (I24_main_v146 m ρ c)

theorem I25_main_v148 : W26 m ρ c (Proc.devRef .tc main_v148) = val_main_v160 (F := Ideal) (m ((c : Thread nD τ).loc main_arg2)) :=
  (W26_of_ne m ρ c main_v148 (by decide)).trans (I24_main_v148 m ρ c)

theorem I25_main_v149 : W26 m ρ c (Proc.devRef .tc main_v149) = val_main_v161 (F := Ideal) (m ((c : Thread nD τ).loc main_arg2)) :=
  (W26_of_ne m ρ c main_v149 (by decide)).trans (I24_main_v149 m ρ c)

theorem I25_main_v172 : W26 m ρ c (Proc.devRef .tc main_v172) = val_main_v184 (F := Ideal) (m ((c : Thread nD τ).loc main_arg2)) :=
  (W26_of_ne m ρ c main_v172 (by decide)).trans (I24_main_v172 m ρ c)

theorem I25_main_v173 : W26 m ρ c (Proc.devRef .tc main_v173) = val_main_v185 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg17)) (m ((c : Thread nD τ).loc main_arg18)) (m ((c : Thread nD τ).loc main_arg19)) (m ((c : Thread nD τ).loc main_arg20)) :=
  (W26_arr m ρ c 2).trans ((RegionLin.lin5 (V25 m ρ) c (val_main_v114 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) (m ((c : Thread nD τ).loc main_arg19)) (m ((c : Thread nD τ).loc main_arg20))) (m ((c : Thread nD τ).loc main_arg15)) (I24_main_v102 m ρ c) (I24_main_arg15 m ρ c)).trans rfl)

theorem I25_main_arg3 : W26 m ρ c (Proc.devRef .tc main_arg3) = (m ((c : Thread nD τ).loc main_arg3)) :=
  (W26_of_ne m ρ c main_arg3 (by decide)).trans (I24_main_arg3 m ρ c)

theorem I25_main_arg4 : W26 m ρ c (Proc.devRef .tc main_arg4) = (m ((c : Thread nD τ).loc main_arg4)) :=
  (W26_of_ne m ρ c main_arg4 (by decide)).trans (I24_main_arg4 m ρ c)

theorem I25_main_arg16 : W26 m ρ c (Proc.devRef .tc main_arg16) = (m ((c : Thread nD τ).loc main_arg16)) :=
  (W26_of_ne m ρ c main_arg16 (by decide)).trans (I24_main_arg16 m ρ c)

theorem I25_main_arg21 : W26 m ρ c (Proc.devRef .tc main_arg21) = (m ((c : Thread nD τ).loc main_arg21)) :=
  (W26_of_ne m ρ c main_arg21 (by decide)).trans (I24_main_arg21 m ρ c)

theorem I25_main_arg22 : W26 m ρ c (Proc.devRef .tc main_arg22) = (m ((c : Thread nD τ).loc main_arg22)) :=
  (W26_of_ne m ρ c main_arg22 (by decide)).trans (I24_main_arg22 m ρ c)

theorem I25_main_arg23 : W26 m ρ c (Proc.devRef .tc main_arg23) = (m ((c : Thread nD τ).loc main_arg23)) :=
  (W26_of_ne m ρ c main_arg23 (by decide)).trans (I24_main_arg23 m ρ c)

theorem I25_main_arg24 : W26 m ρ c (Proc.devRef .tc main_arg24) = (m ((c : Thread nD τ).loc main_arg24)) :=
  (W26_of_ne m ρ c main_arg24 (by decide)).trans (I24_main_arg24 m ρ c)

theorem I25_main_arg25 : W26 m ρ c (Proc.devRef .tc main_arg25) = (m ((c : Thread nD τ).loc main_arg25)) :=
  (W26_of_ne m ρ c main_arg25 (by decide)).trans (I24_main_arg25 m ρ c)

theorem I25_main_arg26 : W26 m ρ c (Proc.devRef .tc main_arg26) = (m ((c : Thread nD τ).loc main_arg26)) :=
  (W26_of_ne m ρ c main_arg26 (by decide)).trans (I24_main_arg26 m ρ c)

theorem I25_main_arg27 : W26 m ρ c (Proc.devRef .tc main_arg27) = (m ((c : Thread nD τ).loc main_arg27)) :=
  (W26_of_ne m ρ c main_arg27 (by decide)).trans (I24_main_arg27 m ρ c)

theorem I25_main_arg28 : W26 m ρ c (Proc.devRef .tc main_arg28) = (m ((c : Thread nD τ).loc main_arg28)) :=
  (W26_of_ne m ρ c main_arg28 (by decide)).trans (I24_main_arg28 m ρ c)

/-! ## After the stretch hostOps6 -/

theorem I26_main_v146 : W27 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (Chain.g26_keep_main_v146 (W26 m ρ c)).trans (I25_main_v146 m ρ c)

theorem I26_main_v189 : W27 m ρ c (Proc.devRef .tc main_v189) = val_main_v201 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  Chain.g26_main_v189 (W26 m ρ c) (I25_main_v149 m ρ c) (I25_main_v173 m ρ c) (I25_main_v148 m ρ c) (I25_main_v172 m ρ c) (I25_main_arg16 m ρ c)

theorem I26_main_arg3 : W27 m ρ c (Proc.devRef .tc main_arg3) = (m ((c : Thread nD τ).loc main_arg3)) :=
  (Chain.g26_keep_main_arg3 (W26 m ρ c)).trans (I25_main_arg3 m ρ c)

theorem I26_main_arg4 : W27 m ρ c (Proc.devRef .tc main_arg4) = (m ((c : Thread nD τ).loc main_arg4)) :=
  (Chain.g26_keep_main_arg4 (W26 m ρ c)).trans (I25_main_arg4 m ρ c)

theorem I26_main_arg21 : W27 m ρ c (Proc.devRef .tc main_arg21) = (m ((c : Thread nD τ).loc main_arg21)) :=
  (Chain.g26_keep_main_arg21 (W26 m ρ c)).trans (I25_main_arg21 m ρ c)

theorem I26_main_arg22 : W27 m ρ c (Proc.devRef .tc main_arg22) = (m ((c : Thread nD τ).loc main_arg22)) :=
  (Chain.g26_keep_main_arg22 (W26 m ρ c)).trans (I25_main_arg22 m ρ c)

theorem I26_main_arg23 : W27 m ρ c (Proc.devRef .tc main_arg23) = (m ((c : Thread nD τ).loc main_arg23)) :=
  (Chain.g26_keep_main_arg23 (W26 m ρ c)).trans (I25_main_arg23 m ρ c)

theorem I26_main_arg24 : W27 m ρ c (Proc.devRef .tc main_arg24) = (m ((c : Thread nD τ).loc main_arg24)) :=
  (Chain.g26_keep_main_arg24 (W26 m ρ c)).trans (I25_main_arg24 m ρ c)

theorem I26_main_arg25 : W27 m ρ c (Proc.devRef .tc main_arg25) = (m ((c : Thread nD τ).loc main_arg25)) :=
  (Chain.g26_keep_main_arg25 (W26 m ρ c)).trans (I25_main_arg25 m ρ c)

theorem I26_main_arg26 : W27 m ρ c (Proc.devRef .tc main_arg26) = (m ((c : Thread nD τ).loc main_arg26)) :=
  (Chain.g26_keep_main_arg26 (W26 m ρ c)).trans (I25_main_arg26 m ρ c)

theorem I26_main_arg27 : W27 m ρ c (Proc.devRef .tc main_arg27) = (m ((c : Thread nD τ).loc main_arg27)) :=
  (Chain.g26_keep_main_arg27 (W26 m ρ c)).trans (I25_main_arg27 m ρ c)

theorem I26_main_arg28 : W27 m ρ c (Proc.devRef .tc main_arg28) = (m ((c : Thread nD τ).loc main_arg28)) :=
  (Chain.g26_keep_main_arg28 (W26 m ρ c)).trans (I25_main_arg28 m ρ c)

/-! ## After the stretch hostOps6_1 -/

theorem I27_main_v146 : W28 m ρ c (Proc.devRef .tc main_v146) = val_main_v158 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) :=
  (Chain.g27_keep_main_v146 (W27 m ρ c)).trans (I26_main_v146 m ρ c)

theorem I27_main_v190 : W28 m ρ c (Proc.devRef .tc main_v190) = val_main_v202 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  Chain.g27_main_v190 (W27 m ρ c) (I26_main_v189 m ρ c)

theorem I27_main_arg3 : W28 m ρ c (Proc.devRef .tc main_arg3) = (m ((c : Thread nD τ).loc main_arg3)) :=
  (Chain.g27_keep_main_arg3 (W27 m ρ c)).trans (I26_main_arg3 m ρ c)

theorem I27_main_arg4 : W28 m ρ c (Proc.devRef .tc main_arg4) = (m ((c : Thread nD τ).loc main_arg4)) :=
  (Chain.g27_keep_main_arg4 (W27 m ρ c)).trans (I26_main_arg4 m ρ c)

theorem I27_main_arg21 : W28 m ρ c (Proc.devRef .tc main_arg21) = (m ((c : Thread nD τ).loc main_arg21)) :=
  (Chain.g27_keep_main_arg21 (W27 m ρ c)).trans (I26_main_arg21 m ρ c)

theorem I27_main_arg22 : W28 m ρ c (Proc.devRef .tc main_arg22) = (m ((c : Thread nD τ).loc main_arg22)) :=
  (Chain.g27_keep_main_arg22 (W27 m ρ c)).trans (I26_main_arg22 m ρ c)

theorem I27_main_arg23 : W28 m ρ c (Proc.devRef .tc main_arg23) = (m ((c : Thread nD τ).loc main_arg23)) :=
  (Chain.g27_keep_main_arg23 (W27 m ρ c)).trans (I26_main_arg23 m ρ c)

theorem I27_main_arg24 : W28 m ρ c (Proc.devRef .tc main_arg24) = (m ((c : Thread nD τ).loc main_arg24)) :=
  (Chain.g27_keep_main_arg24 (W27 m ρ c)).trans (I26_main_arg24 m ρ c)

theorem I27_main_arg25 : W28 m ρ c (Proc.devRef .tc main_arg25) = (m ((c : Thread nD τ).loc main_arg25)) :=
  (Chain.g27_keep_main_arg25 (W27 m ρ c)).trans (I26_main_arg25 m ρ c)

theorem I27_main_arg26 : W28 m ρ c (Proc.devRef .tc main_arg26) = (m ((c : Thread nD τ).loc main_arg26)) :=
  (Chain.g27_keep_main_arg26 (W27 m ρ c)).trans (I26_main_arg26 m ρ c)

theorem I27_main_arg27 : W28 m ρ c (Proc.devRef .tc main_arg27) = (m ((c : Thread nD τ).loc main_arg27)) :=
  (Chain.g27_keep_main_arg27 (W27 m ρ c)).trans (I26_main_arg27 m ρ c)

theorem I27_main_arg28 : W28 m ρ c (Proc.devRef .tc main_arg28) = (m ((c : Thread nD τ).loc main_arg28)) :=
  (Chain.g27_keep_main_arg28 (W27 m ρ c)).trans (I26_main_arg28 m ρ c)

/-! ## After the stretch hostOps6_2 -/

theorem I28_main_v191 : W29 m ρ c (Proc.devRef .tc main_v191) = val_main_v203 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  Chain.g28_main_v191 (W28 m ρ c) (I27_main_v146 m ρ c) (I27_main_v190 m ρ c)

theorem I28_main_v192 : ∀ n : Fin 256, W29 m ρ c (Proc.devRef .tc main_v192) (ValueIdx.ix2 (0 : Fin 1) n) = (m ((c : Thread nD τ).loc main_arg22)) (ValueIdx.ix1 n) :=
  fun n => (congrFun (Chain.g28_main_v192 (W28 m ρ c) (I27_main_arg22 m ρ c)) _).trans (Cert.Layout.shapeCast_row_apply _ _ n)

theorem I28_main_v193 : ∀ n : Fin 256, W29 m ρ c (Proc.devRef .tc main_v193) (ValueIdx.ix2 (0 : Fin 1) n) = (m ((c : Thread nD τ).loc main_arg24)) (ValueIdx.ix1 n) :=
  fun n => (congrFun (Chain.g28_main_v193 (W28 m ρ c) (I27_main_arg24 m ρ c)) _).trans (Cert.Layout.shapeCast_row_apply _ _ n)

theorem I28_main_arg3 : W29 m ρ c (Proc.devRef .tc main_arg3) = (m ((c : Thread nD τ).loc main_arg3)) :=
  (Chain.g28_keep_main_arg3 (W28 m ρ c)).trans (I27_main_arg3 m ρ c)

theorem I28_main_arg4 : W29 m ρ c (Proc.devRef .tc main_arg4) = (m ((c : Thread nD τ).loc main_arg4)) :=
  (Chain.g28_keep_main_arg4 (W28 m ρ c)).trans (I27_main_arg4 m ρ c)

theorem I28_main_arg21 : W29 m ρ c (Proc.devRef .tc main_arg21) = (m ((c : Thread nD τ).loc main_arg21)) :=
  (Chain.g28_keep_main_arg21 (W28 m ρ c)).trans (I27_main_arg21 m ρ c)

theorem I28_main_arg23 : W29 m ρ c (Proc.devRef .tc main_arg23) = (m ((c : Thread nD τ).loc main_arg23)) :=
  (Chain.g28_keep_main_arg23 (W28 m ρ c)).trans (I27_main_arg23 m ρ c)

theorem I28_main_arg25 : W29 m ρ c (Proc.devRef .tc main_arg25) = (m ((c : Thread nD τ).loc main_arg25)) :=
  (Chain.g28_keep_main_arg25 (W28 m ρ c)).trans (I27_main_arg25 m ρ c)

theorem I28_main_arg26 : W29 m ρ c (Proc.devRef .tc main_arg26) = (m ((c : Thread nD τ).loc main_arg26)) :=
  (Chain.g28_keep_main_arg26 (W28 m ρ c)).trans (I27_main_arg26 m ρ c)

theorem I28_main_arg27 : W29 m ρ c (Proc.devRef .tc main_arg27) = (m ((c : Thread nD τ).loc main_arg27)) :=
  (Chain.g28_keep_main_arg27 (W28 m ρ c)).trans (I27_main_arg27 m ρ c)

theorem I28_main_arg28 : W29 m ρ c (Proc.devRef .tc main_arg28) = (m ((c : Thread nD τ).loc main_arg28)) :=
  (Chain.g28_keep_main_arg28 (W28 m ρ c)).trans (I27_main_arg28 m ρ c)

/-! ## After launch 6 -/

theorem I29_main_v194 : W30 m ρ c (Proc.devRef .tc main_v194) = val_main_v212 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (W30_arr m ρ c 5).trans ((RegionMid.mid6 (V29 m ρ) c (val_main_v203 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (m ((c : Thread nD τ).loc main_arg21)) (m ((c : Thread nD τ).loc main_arg22)) (m ((c : Thread nD τ).loc main_arg23)) (m ((c : Thread nD τ).loc main_arg24)) (I28_main_v191 m ρ c) (I28_main_arg21 m ρ c) (I28_main_v192 m ρ c) (I28_main_arg23 m ρ c) (I28_main_v193 m ρ c)).trans rfl)

theorem I29_main_arg3 : W30 m ρ c (Proc.devRef .tc main_arg3) = (m ((c : Thread nD τ).loc main_arg3)) :=
  (W30_of_ne m ρ c main_arg3 (by decide)).trans (I28_main_arg3 m ρ c)

theorem I29_main_arg4 : W30 m ρ c (Proc.devRef .tc main_arg4) = (m ((c : Thread nD τ).loc main_arg4)) :=
  (W30_of_ne m ρ c main_arg4 (by decide)).trans (I28_main_arg4 m ρ c)

theorem I29_main_arg25 : W30 m ρ c (Proc.devRef .tc main_arg25) = (m ((c : Thread nD τ).loc main_arg25)) :=
  (W30_of_ne m ρ c main_arg25 (by decide)).trans (I28_main_arg25 m ρ c)

theorem I29_main_arg26 : W30 m ρ c (Proc.devRef .tc main_arg26) = (m ((c : Thread nD τ).loc main_arg26)) :=
  (W30_of_ne m ρ c main_arg26 (by decide)).trans (I28_main_arg26 m ρ c)

theorem I29_main_arg27 : W30 m ρ c (Proc.devRef .tc main_arg27) = (m ((c : Thread nD τ).loc main_arg27)) :=
  (W30_of_ne m ρ c main_arg27 (by decide)).trans (I28_main_arg27 m ρ c)

theorem I29_main_arg28 : W30 m ρ c (Proc.devRef .tc main_arg28) = (m ((c : Thread nD τ).loc main_arg28)) :=
  (W30_of_ne m ρ c main_arg28 (by decide)).trans (I28_main_arg28 m ρ c)

/-! ## After the stretch hostOps7 -/

theorem I30_main_v219 : W31 m ρ c (Proc.devRef .tc main_v219) = val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  Chain.g30_main_v219 (W30 m ρ c) (I29_main_arg3 m ρ c) (I29_main_v194 m ρ c) (I29_main_arg4 m ρ c)

theorem I30_main_v220 : ∀ n : Fin 256, W31 m ρ c (Proc.devRef .tc main_v220) (ValueIdx.ix2 (0 : Fin 1) n) = (m ((c : Thread nD τ).loc main_arg26)) (ValueIdx.ix1 n) :=
  fun n => (congrFun (Chain.g30_main_v220 (W30 m ρ c) (I29_main_arg26 m ρ c)) _).trans (Cert.Layout.shapeCast_row_apply _ _ n)

theorem I30_main_v221 : ∀ n : Fin 5, W31 m ρ c (Proc.devRef .tc main_v221) (ValueIdx.ix2 (0 : Fin 1) n) = (m ((c : Thread nD τ).loc main_arg28)) (ValueIdx.ix1 n) :=
  fun n => (congrFun (Chain.g30_main_v221 (W30 m ρ c) (I29_main_arg28 m ρ c)) _).trans (Cert.Layout.shapeCast_row_apply _ _ n)

theorem I30_main_arg25 : W31 m ρ c (Proc.devRef .tc main_arg25) = (m ((c : Thread nD τ).loc main_arg25)) :=
  (Chain.g30_keep_main_arg25 (W30 m ρ c)).trans (I29_main_arg25 m ρ c)

theorem I30_main_arg27 : W31 m ρ c (Proc.devRef .tc main_arg27) = (m ((c : Thread nD τ).loc main_arg27)) :=
  (Chain.g30_keep_main_arg27 (W30 m ρ c)).trans (I29_main_arg27 m ρ c)

/-! ## After launch 7 -/

theorem I31_main_v222 : W32 m ρ c (Proc.devRef .tc main_v222) = val_main_v246 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
  (W32_arr m ρ c 5).trans ((RegionEnds.out7 (V31 m ρ) c (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) (m ((c : Thread nD τ).loc main_arg25)) (m ((c : Thread nD τ).loc main_arg26)) (m ((c : Thread nD τ).loc main_arg27)) (m ((c : Thread nD τ).loc main_arg28)) (I30_main_v219 m ρ c) (I30_main_arg25 m ρ c) (I30_main_v220 m ρ c) (I30_main_arg27 m ρ c) (I30_main_v221 m ρ c)).trans rfl)

/-! ## After the stretch hostOps8 -/

theorem I32_main_v223 : W33 m ρ c (Proc.devRef .tc main_v223) = val_main_v247 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
  Chain.g32_main_v223 (W32 m ρ c) (I31_main_v222 m ρ c)

/-- The kernel program's result buffer at the return holds the reference's last stage of the launch contents of the arguments. -/
theorem kernel_value : W33 m ρ c (Proc.devRef .tc main_v223) = val_main_v247 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
  I32_main_v223 m ρ c

end Cert.KernelIdeal.KValue

end
-- ==== Proof.RefChunks.lean ====
/-
  The reference program's operations cut into the stretches that the kernel program's launches mark off (a launch's
  place taken by the dense layers it stands for): the program's list of operations is the stretches one after the other.
-/
import proofs.«110263_j50620484551136_1_alg».proof.Proof.RefOps

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Stretch 0: 8 operations. -/
abbrev c0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((extractStridedSlice S1x800000 ![0, 0] · slices_S2x800000_S1x800000_0_0) : (⟨S2x800000, .i32⟩ : BufTy).Contents (Elt F) → (⟨S1x800000, .i32⟩ : BufTy).Contents (Elt F)),
    reshape main_v4 main_v5 rfl shapeCasts_S1x800000_S800000,
    unary main_arg2 main_v6 ((extractStridedSlice S1x800000 ![1, 0] · slices_S2x800000_S1x800000_1_0) : (⟨S2x800000, .i32⟩ : BufTy).Contents (Elt F) → (⟨S1x800000, .i32⟩ : BufTy).Contents (Elt F)),
    reshape main_v6 main_v7 rfl shapeCasts_S1x800000_S800000 ]

/-- Stretch 1: 4 operations. -/
abbrev c1 : List (HloOp τ sig (Elt F)) :=
  [ binary main_arg0 main_arg5 main_v8 ((fun l r => Host.dotGeneral dot_S50000x4652_S4652x256_S50000x256_1_0_0_1_n_n none l r) : (⟨S50000x4652, .f32⟩ : BufTy).Contents (Elt F) → (⟨S4652x256, .f32⟩ : BufTy).Contents (Elt F) → (⟨S50000x256, .f32⟩ : BufTy).Contents (Elt F)),
    unary main_arg6 main_v9 (broadcastInDim S1x256 ![1] bcast_S256_S1x256_1 : (⟨S256, .f32⟩ : BufTy).Contents (Elt F) → (⟨S1x256, .f32⟩ : BufTy).Contents (Elt F)),
    unary main_v9 main_v10 (broadcastInDim S50000x256 ![0, 1] bcast_S1x256_S50000x256_0_1 : (⟨S1x256, .f32⟩ : BufTy).Contents (Elt F) → (⟨S50000x256, .f32⟩ : BufTy).Contents (Elt F)),
    binary main_v8 main_v10 main_v11 (addf : (⟨S50000x256, .f32⟩ : BufTy).Contents (Elt F) → (⟨S50000x256, .f32⟩ : BufTy).Contents (Elt F) → (⟨S50000x256, .f32⟩ : BufTy).Contents (Elt F)) ]

/-- Stretch 2: 3 operations. -/
abbrev c2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v11) (TRef.of (T := ⟨S50000x256, .f32⟩) main_call0_v0) (TRef.of (T := ⟨S50000x256, .f32⟩) main_v12) maximumf ]

/-- Stretch 3: 4 operations. -/
abbrev c3 : List (HloOp τ sig (Elt F)) :=
  [ binary main_v12 main_arg7 main_v13 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg8 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)) ]

/-- Stretch 4: 14 operations. -/
abbrev c4 : List (HloOp τ sig (Elt F)) :=
  [ nullary main_v17 (iotaInDim S50000 32 0),
    binary main_v1 main_v17 main_v18 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v17 main_v19 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v20 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v21 (broadcastInDim S50000 ![] bcast_S_S50000 : (⟨S_, .f32⟩ : BufTy).Contents (Elt F) → (⟨S50000, .f32⟩ : BufTy).Contents (Elt F)),
    unary main_v19 main_v22 (broadcastInDim S850000x1 ![0] bcast_S850000_S850000x1_0 : (⟨S850000, .i32⟩ : BufTy).Contents (Elt F) → (⟨S850000x1, .i32⟩ : BufTy).Contents (Elt F)),
    ternary main_v21 main_v22 main_v20 main_v23 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v24 (broadcastInDim S50000 ![] bcast_S_S50000 : (⟨S_, .f32⟩ : BufTy).Contents (Elt F) → (⟨S50000, .f32⟩ : BufTy).Contents (Elt F)),
    binary main_v23 main_v24 main_v25 (cmpf .ogt : (⟨S50000, .f32⟩ : BufTy).Contents (Elt F) → (⟨S50000, .f32⟩ : BufTy).Contents (Elt F) → (⟨S50000, .i1⟩ : BufTy).Contents (Elt F)),
    unary main_v23 main_v26 (Host.rsqrt : (⟨S50000, .f32⟩ : BufTy).Contents (Elt F) → (⟨S50000, .f32⟩ : BufTy).Contents (Elt F)),
    nullary main_cst_2 (constant S_ .f32 0x00000000#32) ]

/-- Stretch 5: 3 operations. -/
abbrev c5 : List (HloOp τ sig (Elt F)) :=
  [ TRef.unary (TRef.of (T := ⟨S_, .f32⟩) main_cst_2) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v25) (TRef.of (T := ⟨S50000, .f32⟩) main_v26) (TRef.of (T := ⟨S50000, .f32⟩) main_call1_v1) (TRef.of (T := ⟨S50000, .f32⟩) main_v27) select ]

/-- Stretch 6: 19 operations. -/
abbrev c6 : List (HloOp τ sig (Elt F)) :=
  [ nullary main_c (constantI S_ 32 0#32),
    unary main_c main_v28 (broadcastInDim S850000 ![] bcast_S_S850000 : (⟨S_, .i32⟩ : BufTy).Contents (Elt F) → (⟨S850000, .i32⟩ : BufTy).Contents (Elt F)),
    binary main_v18 main_v28 main_v29 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v30 (broadcastInDim S850000 ![] bcast_S_S850000 : (⟨S_, .i32⟩ : BufTy).Contents (Elt F) → (⟨S850000, .i32⟩ : BufTy).Contents (Elt F)),
    binary main_v18 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v18 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v27 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v35 (broadcastInDim S850000 ![] bcast_S_S850000 : (⟨S_, .i32⟩ : BufTy).Contents (Elt F) → (⟨S850000, .i32⟩ : BufTy).Contents (Elt F)),
    binary main_v19 main_v35 main_v36 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v37 (broadcastInDim S850000 ![] bcast_S_S850000 : (⟨S_, .i32⟩ : BufTy).Contents (Elt F) → (⟨S850000, .i32⟩ : BufTy).Contents (Elt F)),
    binary main_v19 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v19 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_v27 main_v40 main_v41 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v34 main_v41 main_v42 (mulf : (⟨S850000, .f32⟩ : BufTy).Contents (Elt F) → (⟨S850000, .f32⟩ : BufTy).Contents (Elt F) → (⟨S850000, .f32⟩ : BufTy).Contents (Elt F)) ]

/-- Stretch 7: 1 operations. -/
abbrev c7 : List (HloOp τ sig (Elt F)) :=
  [ binary main_v16 main_arg9 main_v43 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 8: 19 operations. -/
abbrev c8 : List (HloOp τ sig (Elt F)) :=
  [ nullary main_c_6 (constantI S_ 32 0#32),
    unary main_c_6 main_v44 (broadcastInDim S850000 ![] bcast_S_S850000 : (⟨S_, .i32⟩ : BufTy).Contents (Elt F) → (⟨S850000, .i32⟩ : BufTy).Contents (Elt F)),
    binary main_v18 main_v44 main_v45 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v46 (broadcastInDim S850000 ![] bcast_S_S850000 : (⟨S_, .i32⟩ : BufTy).Contents (Elt F) → (⟨S850000, .i32⟩ : BufTy).Contents (Elt F)),
    binary main_v18 main_v46 main_v47 (addi : (⟨S850000, .i32⟩ : BufTy).Contents (Elt F) → (⟨S850000, .i32⟩ : BufTy).Contents (Elt F) → (⟨S850000, .i32⟩ : BufTy).Contents (Elt F)),
    ternary main_v45 main_v47 main_v18 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v48 main_v49 (broadcastInDim S850000x1 ![0] bcast_S850000_S850000x1_0 : (⟨S850000, .i32⟩ : BufTy).Contents (Elt F) → (⟨S850000x1, .i32⟩ : BufTy).Contents (Elt F)),
    binary main_v43 main_v49 main_v50 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v42 main_v51 (broadcastInDim S850000x1 ![0] bcast_S850000_S850000x1_0 : (⟨S850000, .f32⟩ : BufTy).Contents (Elt F) → (⟨S850000x1, .f32⟩ : BufTy).Contents (Elt F)),
    unary main_v51 main_v52 (broadcastInDim S850000x256 ![0, 1] bcast_S850000x1_S850000x256_0_1 : (⟨S850000x1, .f32⟩ : BufTy).Contents (Elt F) → (⟨S850000x256, .f32⟩ : BufTy).Contents (Elt F)),
    binary main_v50 main_v52 main_v53 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v54 (broadcastInDim S50000x256 ![] bcast_S_S50000x256 : (⟨S_, .f32⟩ : BufTy).Contents (Elt F) → (⟨S50000x256, .f32⟩ : BufTy).Contents (Elt F)),
    unary main_v19 main_v55 (broadcastInDim S850000x1 ![0] bcast_S850000_S850000x1_0 : (⟨S850000, .i32⟩ : BufTy).Contents (Elt F) → (⟨S850000x1, .i32⟩ : BufTy).Contents (Elt F)),
    ternary main_v54 main_v55 main_v53 main_v56 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg10 main_v57 (broadcastInDim S1x256 ![1] bcast_S256_S1x256_1 : (⟨S256, .f32⟩ : BufTy).Contents (Elt F) → (⟨S1x256, .f32⟩ : BufTy).Contents (Elt F)),
    unary main_v57 main_v58 (broadcastInDim S50000x256 ![0, 1] bcast_S1x256_S50000x256_0_1 : (⟨S1x256, .f32⟩ : BufTy).Contents (Elt F) → (⟨S50000x256, .f32⟩ : BufTy).Contents (Elt F)),
    binary main_v56 main_v58 main_v59 (addf : (⟨S50000x256, .f32⟩ : BufTy).Contents (Elt F) → (⟨S50000x256, .f32⟩ : BufTy).Contents (Elt F) → (⟨S50000x256, .f32⟩ : BufTy).Contents (Elt F)) ]

/-- Stretch 9: 3 operations. -/
abbrev c9 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v59) (TRef.of (T := ⟨S50000x256, .f32⟩) main_call2_v0) (TRef.of (T := ⟨S50000x256, .f32⟩) main_v60) maximumf ]

/-- Stretch 10: 14 operations. -/
abbrev c10 : List (HloOp τ sig (Elt F)) :=
  [ nullary main_v61 (iotaInDim S50000 32 0),
    binary main_v5 main_v61 main_v62 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v7 main_v61 main_v63 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v64 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v65 (broadcastInDim S50000 ![] bcast_S_S50000 : (⟨S_, .f32⟩ : BufTy).Contents (Elt F) → (⟨S50000, .f32⟩ : BufTy).Contents (Elt F)),
    unary main_v63 main_v66 (broadcastInDim S850000x1 ![0] bcast_S850000_S850000x1_0 : (⟨S850000, .i32⟩ : BufTy).Contents (Elt F) → (⟨S850000x1, .i32⟩ : BufTy).Contents (Elt F)),
    ternary main_v65 main_v66 main_v64 main_v67 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v68 (broadcastInDim S50000 ![] bcast_S_S50000 : (⟨S_, .f32⟩ : BufTy).Contents (Elt F) → (⟨S50000, .f32⟩ : BufTy).Contents (Elt F)),
    binary main_v67 main_v68 main_v69 (cmpf .ogt : (⟨S50000, .f32⟩ : BufTy).Contents (Elt F) → (⟨S50000, .f32⟩ : BufTy).Contents (Elt F) → (⟨S50000, .i1⟩ : BufTy).Contents (Elt F)),
    unary main_v67 main_v70 (Host.rsqrt : (⟨S50000, .f32⟩ : BufTy).Contents (Elt F) → (⟨S50000, .f32⟩ : BufTy).Contents (Elt F)),
    nullary main_cst_12 (constant S_ .f32 0x00000000#32) ]

/-- Stretch 11: 3 operations. -/
abbrev c11 : List (HloOp τ sig (Elt F)) :=
  [ TRef.unary (TRef.of (T := ⟨S_, .f32⟩) main_cst_12) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v69) (TRef.of (T := ⟨S50000, .f32⟩) main_v70) (TRef.of (T := ⟨S50000, .f32⟩) main_call3_v1) (TRef.of (T := ⟨S50000, .f32⟩) main_v71) select ]

/-- Stretch 12: 19 operations. -/
abbrev c12 : List (HloOp τ sig (Elt F)) :=
  [ nullary main_c_13 (constantI S_ 32 0#32),
    unary main_c_13 main_v72 (broadcastInDim S850000 ![] bcast_S_S850000 : (⟨S_, .i32⟩ : BufTy).Contents (Elt F) → (⟨S850000, .i32⟩ : BufTy).Contents (Elt F)),
    binary main_v62 main_v72 main_v73 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v74 (broadcastInDim S850000 ![] bcast_S_S850000 : (⟨S_, .i32⟩ : BufTy).Contents (Elt F) → (⟨S850000, .i32⟩ : BufTy).Contents (Elt F)),
    binary main_v62 main_v74 main_v75 (addi : (⟨S850000, .i32⟩ : BufTy).Contents (Elt F) → (⟨S850000, .i32⟩ : BufTy).Contents (Elt F) → (⟨S850000, .i32⟩ : BufTy).Contents (Elt F)),
    ternary main_v73 main_v75 main_v62 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v76 main_v77 (broadcastInDim S850000x1 ![0] bcast_S850000_S850000x1_0 : (⟨S850000, .i32⟩ : BufTy).Contents (Elt F) → (⟨S850000x1, .i32⟩ : BufTy).Contents (Elt F)),
    binary main_v71 main_v77 main_v78 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v79 (broadcastInDim S850000 ![] bcast_S_S850000 : (⟨S_, .i32⟩ : BufTy).Contents (Elt F) → (⟨S850000, .i32⟩ : BufTy).Contents (Elt F)),
    binary main_v63 main_v79 main_v80 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v81 (broadcastInDim S850000 ![] bcast_S_S850000 : (⟨S_, .i32⟩ : BufTy).Contents (Elt F) → (⟨S850000, .i32⟩ : BufTy).Contents (Elt F)),
    binary main_v63 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v63 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v71 main_v84 main_v85 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v78 main_v85 main_v86 (mulf : (⟨S850000, .f32⟩ : BufTy).Contents (Elt F) → (⟨S850000, .f32⟩ : BufTy).Contents (Elt F) → (⟨S850000, .f32⟩ : BufTy).Contents (Elt F)) ]

/-- Stretch 13: 1 operations. -/
abbrev c13 : List (HloOp τ sig (Elt F)) :=
  [ binary main_v16 main_arg11 main_v87 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 14: 19 operations. -/
abbrev c14 : List (HloOp τ sig (Elt F)) :=
  [ nullary main_c_17 (constantI S_ 32 0#32),
    unary main_c_17 main_v88 (broadcastInDim S850000 ![] bcast_S_S850000 : (⟨S_, .i32⟩ : BufTy).Contents (Elt F) → (⟨S850000, .i32⟩ : BufTy).Contents (Elt F)),
    binary main_v62 main_v88 main_v89 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v90 (broadcastInDim S850000 ![] bcast_S_S850000 : (⟨S_, .i32⟩ : BufTy).Contents (Elt F) → (⟨S850000, .i32⟩ : BufTy).Contents (Elt F)),
    binary main_v62 main_v90 main_v91 (addi : (⟨S850000, .i32⟩ : BufTy).Contents (Elt F) → (⟨S850000, .i32⟩ : BufTy).Contents (Elt F) → (⟨S850000, .i32⟩ : BufTy).Contents (Elt F)),
    ternary main_v89 main_v91 main_v62 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v92 main_v93 (broadcastInDim S850000x1 ![0] bcast_S850000_S850000x1_0 : (⟨S850000, .i32⟩ : BufTy).Contents (Elt F) → (⟨S850000x1, .i32⟩ : BufTy).Contents (Elt F)),
    binary main_v87 main_v93 main_v94 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v86 main_v95 (broadcastInDim S850000x1 ![0] bcast_S850000_S850000x1_0 : (⟨S850000, .f32⟩ : BufTy).Contents (Elt F) → (⟨S850000x1, .f32⟩ : BufTy).Contents (Elt F)),
    unary main_v95 main_v96 (broadcastInDim S850000x256 ![0, 1] bcast_S850000x1_S850000x256_0_1 : (⟨S850000x1, .f32⟩ : BufTy).Contents (Elt F) → (⟨S850000x256, .f32⟩ : BufTy).Contents (Elt F)),
    binary main_v94 main_v96 main_v97 (mulf : (⟨S850000x256, .f32⟩ : BufTy).Contents (Elt F) → (⟨S850000x256, .f32⟩ : BufTy).Contents (Elt F) → (⟨S850000x256, .f32⟩ : BufTy).Contents (Elt F)),
    nullary main_cst_19 (constant S_ .f32 0x00000000#32),
    unary main_cst_19 main_v98 (broadcastInDim S50000x256 ![] bcast_S_S50000x256 : (⟨S_, .f32⟩ : BufTy).Contents (Elt F) → (⟨S50000x256, .f32⟩ : BufTy).Contents (Elt F)),
    unary main_v63 main_v99 (broadcastInDim S850000x1 ![0] bcast_S850000_S850000x1_0 : (⟨S850000, .i32⟩ : BufTy).Contents (Elt F) → (⟨S850000x1, .i32⟩ : BufTy).Contents (Elt F)),
    ternary main_v98 main_v99 main_v97 main_v100 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg12 main_v101 (broadcastInDim S1x256 ![1] bcast_S256_S1x256_1 : (⟨S256, .f32⟩ : BufTy).Contents (Elt F) → (⟨S1x256, .f32⟩ : BufTy).Contents (Elt F)),
    unary main_v101 main_v102 (broadcastInDim S50000x256 ![0, 1] bcast_S1x256_S50000x256_0_1 : (⟨S1x256, .f32⟩ : BufTy).Contents (Elt F) → (⟨S50000x256, .f32⟩ : BufTy).Contents (Elt F)),
    binary main_v100 main_v102 main_v103 (addf : (⟨S50000x256, .f32⟩ : BufTy).Contents (Elt F) → (⟨S50000x256, .f32⟩ : BufTy).Contents (Elt F) → (⟨S50000x256, .f32⟩ : BufTy).Contents (Elt F)) ]

/-- Stretch 15: 3 operations. -/
abbrev c15 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v103) (TRef.of (T := ⟨S50000x256, .f32⟩) main_call4_v0) (TRef.of (T := ⟨S50000x256, .f32⟩) main_v104) maximumf ]

/-- Stretch 16: 1 operations. -/
abbrev c16 : List (HloOp τ sig (Elt F)) :=
  [ binary main_v60 main_v104 main_v105 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)) ]

/-- Stretch 17: 4 operations. -/
abbrev c17 : List (HloOp τ sig (Elt F)) :=
  [ binary main_v105 main_arg17 main_v106 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg18 main_v107 (broadcastInDim S1x256 ![1] bcast_S256_S1x256_1 : (⟨S256, .f32⟩ : BufTy).Contents (Elt F) → (⟨S1x256, .f32⟩ : BufTy).Contents (Elt F)),
    unary main_v107 main_v108 (broadcastInDim S50000x256 ![0, 1] bcast_S1x256_S50000x256_0_1 : (⟨S1x256, .f32⟩ : BufTy).Contents (Elt F) → (⟨S50000x256, .f32⟩ : BufTy).Contents (Elt F)),
    binary main_v106 main_v108 main_v109 (addf : (⟨S50000x256, .f32⟩ : BufTy).Contents (Elt F) → (⟨S50000x256, .f32⟩ : BufTy).Contents (Elt F) → (⟨S50000x256, .f32⟩ : BufTy).Contents (Elt F)) ]

/-- Stretch 18: 3 operations. -/
abbrev c18 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v109) (TRef.of (T := ⟨S50000x256, .f32⟩) main_call5_v0) (TRef.of (T := ⟨S50000x256, .f32⟩) main_v110) maximumf ]

/-- Stretch 19: 4 operations. -/
abbrev c19 : List (HloOp τ sig (Elt F)) :=
  [ binary main_v110 main_arg19 main_v111 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg20 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v111 main_v113 main_v114 (addf : (⟨S50000x256, .f32⟩ : BufTy).Contents (Elt F) → (⟨S50000x256, .f32⟩ : BufTy).Contents (Elt F) → (⟨S50000x256, .f32⟩ : BufTy).Contents (Elt F)) ]

/-- Stretch 20: 14 operations. -/
abbrev c20 : List (HloOp τ sig (Elt F)) :=
  [ nullary main_v115 (iotaInDim S50000 32 0),
    binary main_v1 main_v115 main_v116 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v115 main_v117 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_20 (constant S_ .f32 0x3F800000#32),
    unary main_cst_20 main_v118 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v119 (broadcastInDim S50000 ![] bcast_S_S50000 : (⟨S_, .f32⟩ : BufTy).Contents (Elt F) → (⟨S50000, .f32⟩ : BufTy).Contents (Elt F)),
    unary main_v117 main_v120 (broadcastInDim S850000x1 ![0] bcast_S850000_S850000x1_0 : (⟨S850000, .i32⟩ : BufTy).Contents (Elt F) → (⟨S850000x1, .i32⟩ : BufTy).Contents (Elt F)),
    ternary main_v119 main_v120 main_v118 main_v121 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v122 (broadcastInDim S50000 ![] bcast_S_S50000 : (⟨S_, .f32⟩ : BufTy).Contents (Elt F) → (⟨S50000, .f32⟩ : BufTy).Contents (Elt F)),
    binary main_v121 main_v122 main_v123 (cmpf .ogt : (⟨S50000, .f32⟩ : BufTy).Contents (Elt F) → (⟨S50000, .f32⟩ : BufTy).Contents (Elt F) → (⟨S50000, .i1⟩ : BufTy).Contents (Elt F)),
    unary main_v121 main_v124 (Host.rsqrt : (⟨S50000, .f32⟩ : BufTy).Contents (Elt F) → (⟨S50000, .f32⟩ : BufTy).Contents (Elt F)),
    nullary main_cst_23 (constant S_ .f32 0x00000000#32) ]

/-- Stretch 21: 3 operations. -/
abbrev c21 : List (HloOp τ sig (Elt F)) :=
  [ TRef.unary (TRef.of (T := ⟨S_, .f32⟩) main_cst_23) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v123) (TRef.of (T := ⟨S50000, .f32⟩) main_v124) (TRef.of (T := ⟨S50000, .f32⟩) main_call6_v1) (TRef.of (T := ⟨S50000, .f32⟩) main_v125) select ]

/-- Stretch 22: 19 operations. -/
abbrev c22 : List (HloOp τ sig (Elt F)) :=
  [ nullary main_c_24 (constantI S_ 32 0#32),
    unary main_c_24 main_v126 (broadcastInDim S850000 ![] bcast_S_S850000 : (⟨S_, .i32⟩ : BufTy).Contents (Elt F) → (⟨S850000, .i32⟩ : BufTy).Contents (Elt F)),
    binary main_v116 main_v126 main_v127 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v128 (broadcastInDim S850000 ![] bcast_S_S850000 : (⟨S_, .i32⟩ : BufTy).Contents (Elt F) → (⟨S850000, .i32⟩ : BufTy).Contents (Elt F)),
    binary main_v116 main_v128 main_v129 (addi : (⟨S850000, .i32⟩ : BufTy).Contents (Elt F) → (⟨S850000, .i32⟩ : BufTy).Contents (Elt F) → (⟨S850000, .i32⟩ : BufTy).Contents (Elt F)),
    ternary main_v127 main_v129 main_v116 main_v130 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v130 main_v131 (broadcastInDim S850000x1 ![0] bcast_S850000_S850000x1_0 : (⟨S850000, .i32⟩ : BufTy).Contents (Elt F) → (⟨S850000x1, .i32⟩ : BufTy).Contents (Elt F)),
    binary main_v125 main_v131 main_v132 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v133 (broadcastInDim S850000 ![] bcast_S_S850000 : (⟨S_, .i32⟩ : BufTy).Contents (Elt F) → (⟨S850000, .i32⟩ : BufTy).Contents (Elt F)),
    binary main_v117 main_v133 main_v134 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v135 (broadcastInDim S850000 ![] bcast_S_S850000 : (⟨S_, .i32⟩ : BufTy).Contents (Elt F) → (⟨S850000, .i32⟩ : BufTy).Contents (Elt F)),
    binary main_v117 main_v135 main_v136 (addi : (⟨S850000, .i32⟩ : BufTy).Contents (Elt F) → (⟨S850000, .i32⟩ : BufTy).Contents (Elt F) → (⟨S850000, .i32⟩ : BufTy).Contents (Elt F)),
    ternary main_v134 main_v136 main_v117 main_v137 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v137 main_v138 (broadcastInDim S850000x1 ![0] bcast_S850000_S850000x1_0 : (⟨S850000, .i32⟩ : BufTy).Contents (Elt F) → (⟨S850000x1, .i32⟩ : BufTy).Contents (Elt F)),
    binary main_v125 main_v138 main_v139 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v132 main_v139 main_v140 (mulf : (⟨S850000, .f32⟩ : BufTy).Contents (Elt F) → (⟨S850000, .f32⟩ : BufTy).Contents (Elt F) → (⟨S850000, .f32⟩ : BufTy).Contents (Elt F)) ]

/-- Stretch 23: 1 operations. -/
abbrev c23 : List (HloOp τ sig (Elt F)) :=
  [ binary main_v114 main_arg13 main_v141 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 24: 19 operations. -/
abbrev c24 : List (HloOp τ sig (Elt F)) :=
  [ nullary main_c_28 (constantI S_ 32 0#32),
    unary main_c_28 main_v142 (broadcastInDim S850000 ![] bcast_S_S850000 : (⟨S_, .i32⟩ : BufTy).Contents (Elt F) → (⟨S850000, .i32⟩ : BufTy).Contents (Elt F)),
    binary main_v116 main_v142 main_v143 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v144 (broadcastInDim S850000 ![] bcast_S_S850000 : (⟨S_, .i32⟩ : BufTy).Contents (Elt F) → (⟨S850000, .i32⟩ : BufTy).Contents (Elt F)),
    binary main_v116 main_v144 main_v145 (addi : (⟨S850000, .i32⟩ : BufTy).Contents (Elt F) → (⟨S850000, .i32⟩ : BufTy).Contents (Elt F) → (⟨S850000, .i32⟩ : BufTy).Contents (Elt F)),
    ternary main_v143 main_v145 main_v116 main_v146 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v146 main_v147 (broadcastInDim S850000x1 ![0] bcast_S850000_S850000x1_0 : (⟨S850000, .i32⟩ : BufTy).Contents (Elt F) → (⟨S850000x1, .i32⟩ : BufTy).Contents (Elt F)),
    binary main_v141 main_v147 main_v148 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v140 main_v149 (broadcastInDim S850000x1 ![0] bcast_S850000_S850000x1_0 : (⟨S850000, .f32⟩ : BufTy).Contents (Elt F) → (⟨S850000x1, .f32⟩ : BufTy).Contents (Elt F)),
    unary main_v149 main_v150 (broadcastInDim S850000x256 ![0, 1] bcast_S850000x1_S850000x256_0_1 : (⟨S850000x1, .f32⟩ : BufTy).Contents (Elt F) → (⟨S850000x256, .f32⟩ : BufTy).Contents (Elt F)),
    binary main_v148 main_v150 main_v151 (mulf : (⟨S850000x256, .f32⟩ : BufTy).Contents (Elt F) → (⟨S850000x256, .f32⟩ : BufTy).Contents (Elt F) → (⟨S850000x256, .f32⟩ : BufTy).Contents (Elt F)),
    nullary main_cst_30 (constant S_ .f32 0x00000000#32),
    unary main_cst_30 main_v152 (broadcastInDim S50000x256 ![] bcast_S_S50000x256 : (⟨S_, .f32⟩ : BufTy).Contents (Elt F) → (⟨S50000x256, .f32⟩ : BufTy).Contents (Elt F)),
    unary main_v117 main_v153 (broadcastInDim S850000x1 ![0] bcast_S850000_S850000x1_0 : (⟨S850000, .i32⟩ : BufTy).Contents (Elt F) → (⟨S850000x1, .i32⟩ : BufTy).Contents (Elt F)),
    ternary main_v152 main_v153 main_v151 main_v154 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg14 main_v155 (broadcastInDim S1x256 ![1] bcast_S256_S1x256_1 : (⟨S256, .f32⟩ : BufTy).Contents (Elt F) → (⟨S1x256, .f32⟩ : BufTy).Contents (Elt F)),
    unary main_v155 main_v156 (broadcastInDim S50000x256 ![0, 1] bcast_S1x256_S50000x256_0_1 : (⟨S1x256, .f32⟩ : BufTy).Contents (Elt F) → (⟨S50000x256, .f32⟩ : BufTy).Contents (Elt F)),
    binary main_v154 main_v156 main_v157 (addf : (⟨S50000x256, .f32⟩ : BufTy).Contents (Elt F) → (⟨S50000x256, .f32⟩ : BufTy).Contents (Elt F) → (⟨S50000x256, .f32⟩ : BufTy).Contents (Elt F)) ]

/-- Stretch 25: 3 operations. -/
abbrev c25 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v157) (TRef.of (T := ⟨S50000x256, .f32⟩) main_call7_v0) (TRef.of (T := ⟨S50000x256, .f32⟩) main_v158) maximumf ]

/-- Stretch 26: 14 operations. -/
abbrev c26 : List (HloOp τ sig (Elt F)) :=
  [ nullary main_v159 (iotaInDim S50000 32 0),
    binary main_v5 main_v159 main_v160 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v7 main_v159 main_v161 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_31 (constant S_ .f32 0x3F800000#32),
    unary main_cst_31 main_v162 (broadcastInDim S850000 ![] bcast_S_S850000 : (⟨S_, .f32⟩ : BufTy).Contents (Elt F) → (⟨S850000, .f32⟩ : BufTy).Contents (Elt F)),
    nullary main_cst_32 (constant S_ .f32 0x00000000#32),
    unary main_cst_32 main_v163 (broadcastInDim S50000 ![] bcast_S_S50000 : (⟨S_, .f32⟩ : BufTy).Contents (Elt F) → (⟨S50000, .f32⟩ : BufTy).Contents (Elt F)),
    unary main_v161 main_v164 (broadcastInDim S850000x1 ![0] bcast_S850000_S850000x1_0 : (⟨S850000, .i32⟩ : BufTy).Contents (Elt F) → (⟨S850000x1, .i32⟩ : BufTy).Contents (Elt F)),
    ternary main_v163 main_v164 main_v162 main_v165 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_33 (constant S_ .f32 0x00000000#32),
    unary main_cst_33 main_v166 (broadcastInDim S50000 ![] bcast_S_S50000 : (⟨S_, .f32⟩ : BufTy).Contents (Elt F) → (⟨S50000, .f32⟩ : BufTy).Contents (Elt F)),
    binary main_v165 main_v166 main_v167 (cmpf .ogt : (⟨S50000, .f32⟩ : BufTy).Contents (Elt F) → (⟨S50000, .f32⟩ : BufTy).Contents (Elt F) → (⟨S50000, .i1⟩ : BufTy).Contents (Elt F)),
    unary main_v165 main_v168 (Host.rsqrt : (⟨S50000, .f32⟩ : BufTy).Contents (Elt F) → (⟨S50000, .f32⟩ : BufTy).Contents (Elt F)),
    nullary main_cst_34 (constant S_ .f32 0x00000000#32) ]

/-- Stretch 27: 3 operations. -/
abbrev c27 : List (HloOp τ sig (Elt F)) :=
  [ TRef.unary (TRef.of (T := ⟨S_, .f32⟩) main_cst_34) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v167) (TRef.of (T := ⟨S50000, .f32⟩) main_v168) (TRef.of (T := ⟨S50000, .f32⟩) main_call8_v1) (TRef.of (T := ⟨S50000, .f32⟩) main_v169) select ]

/-- Stretch 28: 19 operations. -/
abbrev c28 : List (HloOp τ sig (Elt F)) :=
  [ nullary main_c_35 (constantI S_ 32 0#32),
    unary main_c_35 main_v170 (broadcastInDim S850000 ![] bcast_S_S850000 : (⟨S_, .i32⟩ : BufTy).Contents (Elt F) → (⟨S850000, .i32⟩ : BufTy).Contents (Elt F)),
    binary main_v160 main_v170 main_v171 (cmpi .slt : (⟨S850000, .i32⟩ : BufTy).Contents (Elt F) → (⟨S850000, .i32⟩ : BufTy).Contents (Elt F) → (⟨S850000, .i1⟩ : BufTy).Contents (Elt F)),
    nullary main_c_36 (constantI S_ 32 50000#32),
    unary main_c_36 main_v172 (broadcastInDim S850000 ![] bcast_S_S850000 : (⟨S_, .i32⟩ : BufTy).Contents (Elt F) → (⟨S850000, .i32⟩ : BufTy).Contents (Elt F)),
    binary main_v160 main_v172 main_v173 (addi : (⟨S850000, .i32⟩ : BufTy).Contents (Elt F) → (⟨S850000, .i32⟩ : BufTy).Contents (Elt F) → (⟨S850000, .i32⟩ : BufTy).Contents (Elt F)),
    ternary main_v171 main_v173 main_v160 main_v174 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v174 main_v175 (broadcastInDim S850000x1 ![0] bcast_S850000_S850000x1_0 : (⟨S850000, .i32⟩ : BufTy).Contents (Elt F) → (⟨S850000x1, .i32⟩ : BufTy).Contents (Elt F)),
    binary main_v169 main_v175 main_v176 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_37 (constantI S_ 32 0#32),
    unary main_c_37 main_v177 (broadcastInDim S850000 ![] bcast_S_S850000 : (⟨S_, .i32⟩ : BufTy).Contents (Elt F) → (⟨S850000, .i32⟩ : BufTy).Contents (Elt F)),
    binary main_v161 main_v177 main_v178 (cmpi .slt : (⟨S850000, .i32⟩ : BufTy).Contents (Elt F) → (⟨S850000, .i32⟩ : BufTy).Contents (Elt F) → (⟨S850000, .i1⟩ : BufTy).Contents (Elt F)),
    nullary main_c_38 (constantI S_ 32 50000#32),
    unary main_c_38 main_v179 (broadcastInDim S850000 ![] bcast_S_S850000 : (⟨S_, .i32⟩ : BufTy).Contents (Elt F) → (⟨S850000, .i32⟩ : BufTy).Contents (Elt F)),
    binary main_v161 main_v179 main_v180 (addi : (⟨S850000, .i32⟩ : BufTy).Contents (Elt F) → (⟨S850000, .i32⟩ : BufTy).Contents (Elt F) → (⟨S850000, .i32⟩ : BufTy).Contents (Elt F)),
    ternary main_v178 main_v180 main_v161 main_v181 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v181 main_v182 (broadcastInDim S850000x1 ![0] bcast_S850000_S850000x1_0 : (⟨S850000, .i32⟩ : BufTy).Contents (Elt F) → (⟨S850000x1, .i32⟩ : BufTy).Contents (Elt F)),
    binary main_v169 main_v182 main_v183 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v176 main_v183 main_v184 (mulf : (⟨S850000, .f32⟩ : BufTy).Contents (Elt F) → (⟨S850000, .f32⟩ : BufTy).Contents (Elt F) → (⟨S850000, .f32⟩ : BufTy).Contents (Elt F)) ]

/-- Stretch 29: 1 operations. -/
abbrev c29 : List (HloOp τ sig (Elt F)) :=
  [ binary main_v114 main_arg15 main_v185 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 30: 19 operations. -/
abbrev c30 : List (HloOp τ sig (Elt F)) :=
  [ nullary main_c_39 (constantI S_ 32 0#32),
    unary main_c_39 main_v186 (broadcastInDim S850000 ![] bcast_S_S850000 : (⟨S_, .i32⟩ : BufTy).Contents (Elt F) → (⟨S850000, .i32⟩ : BufTy).Contents (Elt F)),
    binary main_v160 main_v186 main_v187 (cmpi .slt : (⟨S850000, .i32⟩ : BufTy).Contents (Elt F) → (⟨S850000, .i32⟩ : BufTy).Contents (Elt F) → (⟨S850000, .i1⟩ : BufTy).Contents (Elt F)),
    nullary main_c_40 (constantI S_ 32 50000#32),
    unary main_c_40 main_v188 (broadcastInDim S850000 ![] bcast_S_S850000 : (⟨S_, .i32⟩ : BufTy).Contents (Elt F) → (⟨S850000, .i32⟩ : BufTy).Contents (Elt F)),
    binary main_v160 main_v188 main_v189 (addi : (⟨S850000, .i32⟩ : BufTy).Contents (Elt F) → (⟨S850000, .i32⟩ : BufTy).Contents (Elt F) → (⟨S850000, .i32⟩ : BufTy).Contents (Elt F)),
    ternary main_v187 main_v189 main_v160 main_v190 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v190 main_v191 (broadcastInDim S850000x1 ![0] bcast_S850000_S850000x1_0 : (⟨S850000, .i32⟩ : BufTy).Contents (Elt F) → (⟨S850000x1, .i32⟩ : BufTy).Contents (Elt F)),
    binary main_v185 main_v191 main_v192 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v184 main_v193 (broadcastInDim S850000x1 ![0] bcast_S850000_S850000x1_0 : (⟨S850000, .f32⟩ : BufTy).Contents (Elt F) → (⟨S850000x1, .f32⟩ : BufTy).Contents (Elt F)),
    unary main_v193 main_v194 (broadcastInDim S850000x256 ![0, 1] bcast_S850000x1_S850000x256_0_1 : (⟨S850000x1, .f32⟩ : BufTy).Contents (Elt F) → (⟨S850000x256, .f32⟩ : BufTy).Contents (Elt F)),
    binary main_v192 main_v194 main_v195 (mulf : (⟨S850000x256, .f32⟩ : BufTy).Contents (Elt F) → (⟨S850000x256, .f32⟩ : BufTy).Contents (Elt F) → (⟨S850000x256, .f32⟩ : BufTy).Contents (Elt F)),
    nullary main_cst_41 (constant S_ .f32 0x00000000#32),
    unary main_cst_41 main_v196 (broadcastInDim S50000x256 ![] bcast_S_S50000x256 : (⟨S_, .f32⟩ : BufTy).Contents (Elt F) → (⟨S50000x256, .f32⟩ : BufTy).Contents (Elt F)),
    unary main_v161 main_v197 (broadcastInDim S850000x1 ![0] bcast_S850000_S850000x1_0 : (⟨S850000, .i32⟩ : BufTy).Contents (Elt F) → (⟨S850000x1, .i32⟩ : BufTy).Contents (Elt F)),
    ternary main_v196 main_v197 main_v195 main_v198 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg16 main_v199 (broadcastInDim S1x256 ![1] bcast_S256_S1x256_1 : (⟨S256, .f32⟩ : BufTy).Contents (Elt F) → (⟨S1x256, .f32⟩ : BufTy).Contents (Elt F)),
    unary main_v199 main_v200 (broadcastInDim S50000x256 ![0, 1] bcast_S1x256_S50000x256_0_1 : (⟨S1x256, .f32⟩ : BufTy).Contents (Elt F) → (⟨S50000x256, .f32⟩ : BufTy).Contents (Elt F)),
    binary main_v198 main_v200 main_v201 (addf : (⟨S50000x256, .f32⟩ : BufTy).Contents (Elt F) → (⟨S50000x256, .f32⟩ : BufTy).Contents (Elt F) → (⟨S50000x256, .f32⟩ : BufTy).Contents (Elt F)) ]

/-- Stretch 31: 3 operations. -/
abbrev c31 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S50000x256, .f32⟩) main_call9_v0) (broadcastInDim S50000x256 ![] bcast_S_S50000x256),
    TRef.binary (TRef.of (T := ⟨S50000x256, .f32⟩) main_v201) (TRef.of (T := ⟨S50000x256, .f32⟩) main_call9_v0) (TRef.of (T := ⟨S50000x256, .f32⟩) main_v202) maximumf ]

/-- Stretch 32: 1 operations. -/
abbrev c32 : List (HloOp τ sig (Elt F)) :=
  [ binary main_v158 main_v202 main_v203 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)) ]

/-- Stretch 33: 4 operations. -/
abbrev c33 : List (HloOp τ sig (Elt F)) :=
  [ binary main_v203 main_arg21 main_v204 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg22 main_v205 (broadcastInDim S1x256 ![1] bcast_S256_S1x256_1 : (⟨S256, .f32⟩ : BufTy).Contents (Elt F) → (⟨S1x256, .f32⟩ : BufTy).Contents (Elt F)),
    unary main_v205 main_v206 (broadcastInDim S50000x256 ![0, 1] bcast_S1x256_S50000x256_0_1 : (⟨S1x256, .f32⟩ : BufTy).Contents (Elt F) → (⟨S50000x256, .f32⟩ : BufTy).Contents (Elt F)),
    binary main_v204 main_v206 main_v207 (addf : (⟨S50000x256, .f32⟩ : BufTy).Contents (Elt F) → (⟨S50000x256, .f32⟩ : BufTy).Contents (Elt F) → (⟨S50000x256, .f32⟩ : BufTy).Contents (Elt F)) ]

/-- Stretch 34: 3 operations. -/
abbrev c34 : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S50000x256, .f32⟩) main_call10_v0) (broadcastInDim S50000x256 ![] bcast_S_S50000x256),
    TRef.binary (TRef.of (T := ⟨S50000x256, .f32⟩) main_v207) (TRef.of (T := ⟨S50000x256, .f32⟩) main_call10_v0) (TRef.of (T := ⟨S50000x256, .f32⟩) main_v208) maximumf ]

/-- Stretch 35: 4 operations. -/
abbrev c35 : List (HloOp τ sig (Elt F)) :=
  [ binary main_v208 main_arg23 main_v209 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg24 main_v210 (broadcastInDim S1x256 ![1] bcast_S256_S1x256_1 : (⟨S256, .f32⟩ : BufTy).Contents (Elt F) → (⟨S1x256, .f32⟩ : BufTy).Contents (Elt F)),
    unary main_v210 main_v211 (broadcastInDim S50000x256 ![0, 1] bcast_S1x256_S50000x256_0_1 : (⟨S1x256, .f32⟩ : BufTy).Contents (Elt F) → (⟨S50000x256, .f32⟩ : BufTy).Contents (Elt F)),
    binary main_v209 main_v211 main_v212 (addf : (⟨S50000x256, .f32⟩ : BufTy).Contents (Elt F) → (⟨S50000x256, .f32⟩ : BufTy).Contents (Elt F) → (⟨S50000x256, .f32⟩ : BufTy).Contents (Elt F)) ]

/-- Stretch 36: 33 operations. -/
abbrev c36 : List (HloOp τ sig (Elt F)) :=
  [ nullary main_cst_42 (constant S_ .f32 0x00000000#32),
    unary main_cst_42 main_v213 (broadcastInDim S5000x256 ![] bcast_S_S5000x256 : (⟨S_, .f32⟩ : BufTy).Contents (Elt F) → (⟨S5000x256, .f32⟩ : BufTy).Contents (Elt F)),
    unary main_arg3 main_v214 (broadcastInDim S50000x1 ![0] bcast_S50000_S50000x1_0 : (⟨S50000, .i32⟩ : BufTy).Contents (Elt F) → (⟨S50000x1, .i32⟩ : BufTy).Contents (Elt F)),
    ternary main_v213 main_v214 main_v212 main_v215 ((fun x i u => Host.scatterAdd scatter_S5000x256_S50000x1_S50000x256_1_0_0_1 x i u) : (⟨S5000x256, .f32⟩ : BufTy).Contents (Elt F) → (⟨S50000x1, .i32⟩ : BufTy).Contents (Elt F) → (⟨S50000x256, .f32⟩ : BufTy).Contents (Elt F) → (⟨S5000x256, .f32⟩ : BufTy).Contents (Elt F)),
    nullary main_cst_43 (constant S_ .f32 0x3F800000#32),
    unary main_cst_43 main_v216 (broadcastInDim S50000 ![] bcast_S_S50000 : (⟨S_, .f32⟩ : BufTy).Contents (Elt F) → (⟨S50000, .f32⟩ : BufTy).Contents (Elt F)),
    nullary main_cst_44 (constant S_ .f32 0x00000000#32),
    unary main_cst_44 main_v217 (broadcastInDim S5000 ![] bcast_S_S5000 : (⟨S_, .f32⟩ : BufTy).Contents (Elt F) → (⟨S5000, .f32⟩ : BufTy).Contents (Elt F)),
    unary main_arg3 main_v218 (broadcastInDim S50000x1 ![0] bcast_S50000_S50000x1_0 : (⟨S50000, .i32⟩ : BufTy).Contents (Elt F) → (⟨S50000x1, .i32⟩ : BufTy).Contents (Elt F)),
    ternary main_v217 main_v218 main_v216 main_v219 ((fun x i u => Host.scatterAdd scatter_S5000_S50000x1_S50000_n_0_0_1 x i u) : (⟨S5000, .f32⟩ : BufTy).Contents (Elt F) → (⟨S50000x1, .i32⟩ : BufTy).Contents (Elt F) → (⟨S50000, .f32⟩ : BufTy).Contents (Elt F) → (⟨S5000, .f32⟩ : BufTy).Contents (Elt F)),
    nullary main_cst_45 (constant S_ .f32 0x3F800000#32),
    unary main_cst_45 main_v220 (broadcastInDim S5000 ![] bcast_S_S5000 : (⟨S_, .f32⟩ : BufTy).Contents (Elt F) → (⟨S5000, .f32⟩ : BufTy).Contents (Elt F)),
    binary main_v219 main_v220 main_v221 (maximumf : (⟨S5000, .f32⟩ : BufTy).Contents (Elt F) → (⟨S5000, .f32⟩ : BufTy).Contents (Elt F) → (⟨S5000, .f32⟩ : BufTy).Contents (Elt F)),
    unary main_v221 main_v222 (broadcastInDim S5000x1 ![0] bcast_S5000_S5000x1_0 : (⟨S5000, .f32⟩ : BufTy).Contents (Elt F) → (⟨S5000x1, .f32⟩ : BufTy).Contents (Elt F)),
    unary main_v222 main_v223 (broadcastInDim S5000x256 ![0, 1] bcast_S5000x1_S5000x256_0_1 : (⟨S5000x1, .f32⟩ : BufTy).Contents (Elt F) → (⟨S5000x256, .f32⟩ : BufTy).Contents (Elt F)),
    binary main_v215 main_v223 main_v224 (Host.divf : (⟨S5000x256, .f32⟩ : BufTy).Contents (Elt F) → (⟨S5000x256, .f32⟩ : BufTy).Contents (Elt F) → (⟨S5000x256, .f32⟩ : BufTy).Contents (Elt F)),
    nullary main_cst_46 (constant S_ .f32 0x00000000#32),
    unary main_cst_46 main_v225 (broadcastInDim S5000x256 ![] bcast_S_S5000x256 : (⟨S_, .f32⟩ : BufTy).Contents (Elt F) → (⟨S5000x256, .f32⟩ : BufTy).Contents (Elt F)),
    unary main_arg4 main_v226 (broadcastInDim S50000x1 ![0] bcast_S50000_S50000x1_0 : (⟨S50000, .i32⟩ : BufTy).Contents (Elt F) → (⟨S50000x1, .i32⟩ : BufTy).Contents (Elt F)),
    ternary main_v225 main_v226 main_v212 main_v227 ((fun x i u => Host.scatterAdd scatter_S5000x256_S50000x1_S50000x256_1_0_0_1 x i u) : (⟨S5000x256, .f32⟩ : BufTy).Contents (Elt F) → (⟨S50000x1, .i32⟩ : BufTy).Contents (Elt F) → (⟨S50000x256, .f32⟩ : BufTy).Contents (Elt F) → (⟨S5000x256, .f32⟩ : BufTy).Contents (Elt F)),
    nullary main_cst_47 (constant S_ .f32 0x3F800000#32),
    unary main_cst_47 main_v228 (broadcastInDim S50000 ![] bcast_S_S50000 : (⟨S_, .f32⟩ : BufTy).Contents (Elt F) → (⟨S50000, .f32⟩ : BufTy).Contents (Elt F)),
    nullary main_cst_48 (constant S_ .f32 0x00000000#32),
    unary main_cst_48 main_v229 (broadcastInDim S5000 ![] bcast_S_S5000 : (⟨S_, .f32⟩ : BufTy).Contents (Elt F) → (⟨S5000, .f32⟩ : BufTy).Contents (Elt F)),
    unary main_arg4 main_v230 (broadcastInDim S50000x1 ![0] bcast_S50000_S50000x1_0 : (⟨S50000, .i32⟩ : BufTy).Contents (Elt F) → (⟨S50000x1, .i32⟩ : BufTy).Contents (Elt F)),
    ternary main_v229 main_v230 main_v228 main_v231 ((fun x i u => Host.scatterAdd scatter_S5000_S50000x1_S50000_n_0_0_1 x i u) : (⟨S5000, .f32⟩ : BufTy).Contents (Elt F) → (⟨S50000x1, .i32⟩ : BufTy).Contents (Elt F) → (⟨S50000, .f32⟩ : BufTy).Contents (Elt F) → (⟨S5000, .f32⟩ : BufTy).Contents (Elt F)),
    nullary main_cst_49 (constant S_ .f32 0x3F800000#32),
    unary main_cst_49 main_v232 (broadcastInDim S5000 ![] bcast_S_S5000 : (⟨S_, .f32⟩ : BufTy).Contents (Elt F) → (⟨S5000, .f32⟩ : BufTy).Contents (Elt F)),
    binary main_v231 main_v232 main_v233 (maximumf : (⟨S5000, .f32⟩ : BufTy).Contents (Elt F) → (⟨S5000, .f32⟩ : BufTy).Contents (Elt F) → (⟨S5000, .f32⟩ : BufTy).Contents (Elt F)),
    unary main_v233 main_v234 (broadcastInDim S5000x1 ![0] bcast_S5000_S5000x1_0 : (⟨S5000, .f32⟩ : BufTy).Contents (Elt F) → (⟨S5000x1, .f32⟩ : BufTy).Contents (Elt F)),
    unary main_v234 main_v235 (broadcastInDim S5000x256 ![0, 1] bcast_S5000x1_S5000x256_0_1 : (⟨S5000x1, .f32⟩ : BufTy).Contents (Elt F) → (⟨S5000x256, .f32⟩ : BufTy).Contents (Elt F)),
    binary main_v227 main_v235 main_v236 (Host.divf : (⟨S5000x256, .f32⟩ : BufTy).Contents (Elt F) → (⟨S5000x256, .f32⟩ : BufTy).Contents (Elt F) → (⟨S5000x256, .f32⟩ : BufTy).Contents (Elt F)),
    binary main_v224 main_v236 main_v237 ((fun a b => concatenate S5000x512 1 [⟨S5000x256, a⟩, ⟨S5000x256, b⟩] concatenates_S5000x256_S5000x256_S5000x512_d1) : (⟨S5000x256, .f32⟩ : BufTy).Contents (Elt F) → (⟨S5000x256, .f32⟩ : BufTy).Contents (Elt F) → (⟨S5000x512, .f32⟩ : BufTy).Contents (Elt F)) ]

/-- Stretch 37: 4 operations. -/
abbrev c37 : List (HloOp τ sig (Elt F)) :=
  [ binary main_v237 main_arg25 main_v238 ((fun l r => Host.dotGeneral dot_S5000x512_S512x256_S5000x256_1_0_0_1_n_n none l r) : (⟨S5000x512, .f32⟩ : BufTy).Contents (Elt F) → (⟨S512x256, .f32⟩ : BufTy).Contents (Elt F) → (⟨S5000x256, .f32⟩ : BufTy).Contents (Elt F)),
    unary main_arg26 main_v239 (broadcastInDim S1x256 ![1] bcast_S256_S1x256_1 : (⟨S256, .f32⟩ : BufTy).Contents (Elt F) → (⟨S1x256, .f32⟩ : BufTy).Contents (Elt F)),
    unary main_v239 main_v240 (broadcastInDim S5000x256 ![0, 1] bcast_S1x256_S5000x256_0_1 : (⟨S1x256, .f32⟩ : BufTy).Contents (Elt F) → (⟨S5000x256, .f32⟩ : BufTy).Contents (Elt F)),
    binary main_v238 main_v240 main_v241 (addf : (⟨S5000x256, .f32⟩ : BufTy).Contents (Elt F) → (⟨S5000x256, .f32⟩ : BufTy).Contents (Elt F) → (⟨S5000x256, .f32⟩ : BufTy).Contents (Elt F)) ]

/-- Stretch 38: 3 operations. -/
abbrev c38 : List (HloOp τ sig (Elt F)) :=
  [ TRef.nullary (TRef.of (T := ⟨S_, .f32⟩) main_call11_cst) (constant S_ .f32 0x00000000#32),
    TRef.unary (TRef.of (T := ⟨S_, .f32⟩) main_call11_cst) (TRef.of (T := ⟨S5000x256, .f32⟩) main_call11_v0) (broadcastInDim S5000x256 ![] bcast_S_S5000x256),
    TRef.binary (TRef.of (T := ⟨S5000x256, .f32⟩) main_v241) (TRef.of (T := ⟨S5000x256, .f32⟩) main_call11_v0) (TRef.of (T := ⟨S5000x256, .f32⟩) main_v242) maximumf ]

/-- Stretch 39: 4 operations. -/
abbrev c39 : List (HloOp τ sig (Elt F)) :=
  [ binary main_v242 main_arg27 main_v243 ((fun l r => Host.dotGeneral dot_S5000x256_S256x5_S5000x5_1_0_0_1_n_n none l r) : (⟨S5000x256, .f32⟩ : BufTy).Contents (Elt F) → (⟨S256x5, .f32⟩ : BufTy).Contents (Elt F) → (⟨S5000x5, .f32⟩ : BufTy).Contents (Elt F)),
    unary main_arg28 main_v244 (broadcastInDim S1x5 ![1] bcast_S5_S1x5_1 : (⟨S5, .f32⟩ : BufTy).Contents (Elt F) → (⟨S1x5, .f32⟩ : BufTy).Contents (Elt F)),
    unary main_v244 main_v245 (broadcastInDim S5000x5 ![0, 1] bcast_S1x5_S5000x5_0_1 : (⟨S1x5, .f32⟩ : BufTy).Contents (Elt F) → (⟨S5000x5, .f32⟩ : BufTy).Contents (Elt F)),
    binary main_v243 main_v245 main_v246 (addf : (⟨S5000x5, .f32⟩ : BufTy).Contents (Elt F) → (⟨S5000x5, .f32⟩ : BufTy).Contents (Elt F) → (⟨S5000x5, .f32⟩ : BufTy).Contents (Elt F)) ]

/-- Stretch 40: 15 operations. -/
abbrev c40 : List (HloOp τ sig (Elt F)) :=
  [ TRef.nullary (TRef.of (T := ⟨S_, .f32⟩) main_call12_cst) (constant S_ .f32 0xFF800000#32),
    TRef.binary (TRef.of (T := ⟨S5000x5, .f32⟩) main_v246) (TRef.of (T := ⟨S_, .f32⟩) main_call12_cst) (TRef.of (T := ⟨S5000, .f32⟩) main_call12_v0) (fun x v => Host.reduce FloatOps.maximumf x v reducesTo_S5000x5_S5000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S5000, .f32⟩) main_call12_v1) (broadcastInDim S5000 ![] bcast_S_S5000),
    TRef.binary (TRef.of (T := ⟨S5000, .f32⟩) main_call12_v1) (TRef.of (T := ⟨S5000, .f32⟩) main_call12_v0) (TRef.of (T := ⟨S5000, .f32⟩) main_call12_v2) maximumf,
    TRef.unary (TRef.of (T := ⟨S5000, .f32⟩) main_call12_v2) (TRef.of (T := ⟨S5000x1, .f32⟩) main_call12_v3) (broadcastInDim S5000x1 ![0] bcast_S5000_S5000x1_0),
    TRef.unary (TRef.of (T := ⟨S5000x1, .f32⟩) main_call12_v3) (TRef.of (T := ⟨S5000x5, .f32⟩) main_call12_v4) (broadcastInDim S5000x5 ![0, 1] bcast_S5000x1_S5000x5_0_1),
    TRef.binary (TRef.of (T := ⟨S5000x5, .f32⟩) main_v246) (TRef.of (T := ⟨S5000x5, .f32⟩) main_call12_v4) (TRef.of (T := ⟨S5000x5, .f32⟩) main_call12_v5) subf,
    TRef.unary (TRef.of (T := ⟨S5000x5, .f32⟩) main_call12_v5) (TRef.of (T := ⟨S5000x5, .f32⟩) main_call12_v6) Host.exp,
    TRef.nullary (TRef.of (T := ⟨S_, .f32⟩) main_call12_cst_1) (constant S_ .f32 0x00000000#32),
    TRef.binary (TRef.of (T := ⟨S5000x5, .f32⟩) main_call12_v6) (TRef.of (T := ⟨S_, .f32⟩) main_call12_cst_1) (TRef.of (T := ⟨S5000, .f32⟩) main_call12_v7) (fun x v => Host.reduceAdd x v reducesTo_S5000x5_S5000_d1 h_S_),
    TRef.unary (TRef.of (T := ⟨S5000, .f32⟩) main_call12_v7) (TRef.of (T := ⟨S5000x1, .f32⟩) main_call12_v8) (broadcastInDim S5000x1 ![0] bcast_S5000_S5000x1_0),
    TRef.unary (TRef.of (T := ⟨S5000x1, .f32⟩) main_call12_v8) (TRef.of (T := ⟨S5000x1, .f32⟩) main_call12_v9) Host.log,
    TRef.unary (TRef.of (T := ⟨S5000x1, .f32⟩) main_call12_v9) (TRef.of (T := ⟨S5000x5, .f32⟩) main_call12_v10) (broadcastInDim S5000x5 ![0, 1] bcast_S5000x1_S5000x5_0_1),
    TRef.binary (TRef.of (T := ⟨S5000x5, .f32⟩) main_call12_v5) (TRef.of (T := ⟨S5000x5, .f32⟩) main_call12_v10) (TRef.of (T := ⟨S5000x5, .f32⟩) main_v247) subf ]

set_option maxRecDepth 65536 in
set_option maxHeartbeats 40000000 in
/-- The program's operations are the stretches one after the other. -/
theorem ops_eq : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15 ++ (c16 ++ (c17 ++ (c18 ++ (c19 ++ (c20 ++ (c21 ++ (c22 ++ (c23 ++ (c24 ++ (c25 ++ (c26 ++ (c27 ++ (c28 ++ (c29 ++ (c30 ++ (c31 ++ (c32 ++ (c33 ++ (c34 ++ (c35 ++ (c36 ++ (c37 ++ (c38 ++ (c39 ++ (c40)))))))))))))))))))))))))))))))))))))))) := rfl

end Cert.ReferenceIdeal.ChainR

end
-- ==== Proof.ChainRef0.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r0_main_v1 (h_main_arg1 : W (Proc.devRef .tc main_arg1) = x1) :
    StableHlo.after (c0 (F := Ideal)) W (Proc.devRef .tc main_v1) = val_main_v1 (F := Ideal) x1 := by
  after_results_simp
  try simp only [cast_eq]
  rw [h_main_arg1]
  rfl

theorem r0_main_v3 (h_main_arg1 : W (Proc.devRef .tc main_arg1) = x1) :
    StableHlo.after (c0 (F := Ideal)) W (Proc.devRef .tc main_v3) = val_main_v3 (F := Ideal) x1 := by
  after_results_simp
  try simp only [cast_eq]
  rw [h_main_arg1]
  rfl

theorem r0_main_v5 (h_main_arg2 : W (Proc.devRef .tc main_arg2) = x2) :
    StableHlo.after (c0 (F := Ideal)) W (Proc.devRef .tc main_v5) = val_main_v5 (F := Ideal) x2 := by
  after_results_simp
  try simp only [cast_eq]
  rw [h_main_arg2]
  rfl

theorem r0_main_v7 (h_main_arg2 : W (Proc.devRef .tc main_arg2) = x2) :
    StableHlo.after (c0 (F := Ideal)) W (Proc.devRef .tc main_v7) = val_main_v7 (F := Ideal) x2 := by
  after_results_simp
  try simp only [cast_eq]
  rw [h_main_arg2]
  rfl

theorem r0_keep_main_arg0 : StableHlo.after (c0 (F := Ideal)) W (Proc.devRef .tc main_arg0) = W (Proc.devRef .tc main_arg0) := by
  after_results_simp

theorem r0_keep_main_arg1 : StableHlo.after (c0 (F := Ideal)) W (Proc.devRef .tc main_arg1) = W (Proc.devRef .tc main_arg1) := by
  after_results_simp

theorem r0_keep_main_arg2 : StableHlo.after (c0 (F := Ideal)) W (Proc.devRef .tc main_arg2) = W (Proc.devRef .tc main_arg2) := by
  after_results_simp

theorem r0_keep_main_arg3 : StableHlo.after (c0 (F := Ideal)) W (Proc.devRef .tc main_arg3) = W (Proc.devRef .tc main_arg3) := by
  after_results_simp

theorem r0_keep_main_arg4 : StableHlo.after (c0 (F := Ideal)) W (Proc.devRef .tc main_arg4) = W (Proc.devRef .tc main_arg4) := by
  after_results_simp

theorem r0_keep_main_arg5 : StableHlo.after (c0 (F := Ideal)) W (Proc.devRef .tc main_arg5) = W (Proc.devRef .tc main_arg5) := by
  after_results_simp

theorem r0_keep_main_arg6 : StableHlo.after (c0 (F := Ideal)) W (Proc.devRef .tc main_arg6) = W (Proc.devRef .tc main_arg6) := by
  after_results_simp

theorem r0_keep_main_arg7 : StableHlo.after (c0 (F := Ideal)) W (Proc.devRef .tc main_arg7) = W (Proc.devRef .tc main_arg7) := by
  after_results_simp

theorem r0_keep_main_arg8 : StableHlo.after (c0 (F := Ideal)) W (Proc.devRef .tc main_arg8) = W (Proc.devRef .tc main_arg8) := by
  after_results_simp

theorem r0_keep_main_arg9 : StableHlo.after (c0 (F := Ideal)) W (Proc.devRef .tc main_arg9) = W (Proc.devRef .tc main_arg9) := by
  after_results_simp

theorem r0_keep_main_arg10 : StableHlo.after (c0 (F := Ideal)) W (Proc.devRef .tc main_arg10) = W (Proc.devRef .tc main_arg10) := by
  after_results_simp

theorem r0_keep_main_arg11 : StableHlo.after (c0 (F := Ideal)) W (Proc.devRef .tc main_arg11) = W (Proc.devRef .tc main_arg11) := by
  after_results_simp

theorem r0_keep_main_arg12 : StableHlo.after (c0 (F := Ideal)) W (Proc.devRef .tc main_arg12) = W (Proc.devRef .tc main_arg12) := by
  after_results_simp

theorem r0_keep_main_arg13 : StableHlo.after (c0 (F := Ideal)) W (Proc.devRef .tc main_arg13) = W (Proc.devRef .tc main_arg13) := by
  after_results_simp

theorem r0_keep_main_arg14 : StableHlo.after (c0 (F := Ideal)) W (Proc.devRef .tc main_arg14) = W (Proc.devRef .tc main_arg14) := by
  after_results_simp

theorem r0_keep_main_arg15 : StableHlo.after (c0 (F := Ideal)) W (Proc.devRef .tc main_arg15) = W (Proc.devRef .tc main_arg15) := by
  after_results_simp

theorem r0_keep_main_arg16 : StableHlo.after (c0 (F := Ideal)) W (Proc.devRef .tc main_arg16) = W (Proc.devRef .tc main_arg16) := by
  after_results_simp

theorem r0_keep_main_arg17 : StableHlo.after (c0 (F := Ideal)) W (Proc.devRef .tc main_arg17) = W (Proc.devRef .tc main_arg17) := by
  after_results_simp

theorem r0_keep_main_arg18 : StableHlo.after (c0 (F := Ideal)) W (Proc.devRef .tc main_arg18) = W (Proc.devRef .tc main_arg18) := by
  after_results_simp

theorem r0_keep_main_arg19 : StableHlo.after (c0 (F := Ideal)) W (Proc.devRef .tc main_arg19) = W (Proc.devRef .tc main_arg19) := by
  after_results_simp

theorem r0_keep_main_arg20 : StableHlo.after (c0 (F := Ideal)) W (Proc.devRef .tc main_arg20) = W (Proc.devRef .tc main_arg20) := by
  after_results_simp

theorem r0_keep_main_arg21 : StableHlo.after (c0 (F := Ideal)) W (Proc.devRef .tc main_arg21) = W (Proc.devRef .tc main_arg21) := by
  after_results_simp

theorem r0_keep_main_arg22 : StableHlo.after (c0 (F := Ideal)) W (Proc.devRef .tc main_arg22) = W (Proc.devRef .tc main_arg22) := by
  after_results_simp

theorem r0_keep_main_arg23 : StableHlo.after (c0 (F := Ideal)) W (Proc.devRef .tc main_arg23) = W (Proc.devRef .tc main_arg23) := by
  after_results_simp

theorem r0_keep_main_arg24 : StableHlo.after (c0 (F := Ideal)) W (Proc.devRef .tc main_arg24) = W (Proc.devRef .tc main_arg24) := by
  after_results_simp

theorem r0_keep_main_arg25 : StableHlo.after (c0 (F := Ideal)) W (Proc.devRef .tc main_arg25) = W (Proc.devRef .tc main_arg25) := by
  after_results_simp

theorem r0_keep_main_arg26 : StableHlo.after (c0 (F := Ideal)) W (Proc.devRef .tc main_arg26) = W (Proc.devRef .tc main_arg26) := by
  after_results_simp

theorem r0_keep_main_arg27 : StableHlo.after (c0 (F := Ideal)) W (Proc.devRef .tc main_arg27) = W (Proc.devRef .tc main_arg27) := by
  after_results_simp

theorem r0_keep_main_arg28 : StableHlo.after (c0 (F := Ideal)) W (Proc.devRef .tc main_arg28) = W (Proc.devRef .tc main_arg28) := by
  after_results_simp

end Cert.ReferenceIdeal.ChainR

end
-- ==== Proof.ChainRef1.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r1_main_v11 (h_main_arg0 : W (Proc.devRef .tc main_arg0) = x0) (h_main_arg5 : W (Proc.devRef .tc main_arg5) = x5) (h_main_arg6 : W (Proc.devRef .tc main_arg6) = x6) :
    StableHlo.after (c1 (F := Ideal)) W (Proc.devRef .tc main_v11) = val_main_v11 (F := Ideal) x0 x5 x6 := by
  after_results_simp
  try simp only [cast_eq]
  rw [h_main_arg0, h_main_arg5, h_main_arg6]
  rfl

theorem r1_keep_main_v1 : StableHlo.after (c1 (F := Ideal)) W (Proc.devRef .tc main_v1) = W (Proc.devRef .tc main_v1) := by
  after_results_simp

theorem r1_keep_main_v3 : StableHlo.after (c1 (F := Ideal)) W (Proc.devRef .tc main_v3) = W (Proc.devRef .tc main_v3) := by
  after_results_simp

theorem r1_keep_main_v5 : StableHlo.after (c1 (F := Ideal)) W (Proc.devRef .tc main_v5) = W (Proc.devRef .tc main_v5) := by
  after_results_simp

theorem r1_keep_main_v7 : StableHlo.after (c1 (F := Ideal)) W (Proc.devRef .tc main_v7) = W (Proc.devRef .tc main_v7) := by
  after_results_simp

theorem r1_keep_main_arg0 : StableHlo.after (c1 (F := Ideal)) W (Proc.devRef .tc main_arg0) = W (Proc.devRef .tc main_arg0) := by
  after_results_simp

theorem r1_keep_main_arg1 : StableHlo.after (c1 (F := Ideal)) W (Proc.devRef .tc main_arg1) = W (Proc.devRef .tc main_arg1) := by
  after_results_simp

theorem r1_keep_main_arg2 : StableHlo.after (c1 (F := Ideal)) W (Proc.devRef .tc main_arg2) = W (Proc.devRef .tc main_arg2) := by
  after_results_simp

theorem r1_keep_main_arg3 : StableHlo.after (c1 (F := Ideal)) W (Proc.devRef .tc main_arg3) = W (Proc.devRef .tc main_arg3) := by
  after_results_simp

theorem r1_keep_main_arg4 : StableHlo.after (c1 (F := Ideal)) W (Proc.devRef .tc main_arg4) = W (Proc.devRef .tc main_arg4) := by
  after_results_simp

theorem r1_keep_main_arg5 : StableHlo.after (c1 (F := Ideal)) W (Proc.devRef .tc main_arg5) = W (Proc.devRef .tc main_arg5) := by
  after_results_simp

theorem r1_keep_main_arg6 : StableHlo.after (c1 (F := Ideal)) W (Proc.devRef .tc main_arg6) = W (Proc.devRef .tc main_arg6) := by
  after_results_simp

theorem r1_keep_main_arg7 : StableHlo.after (c1 (F := Ideal)) W (Proc.devRef .tc main_arg7) = W (Proc.devRef .tc main_arg7) := by
  after_results_simp

theorem r1_keep_main_arg8 : StableHlo.after (c1 (F := Ideal)) W (Proc.devRef .tc main_arg8) = W (Proc.devRef .tc main_arg8) := by
  after_results_simp

theorem r1_keep_main_arg9 : StableHlo.after (c1 (F := Ideal)) W (Proc.devRef .tc main_arg9) = W (Proc.devRef .tc main_arg9) := by
  after_results_simp

theorem r1_keep_main_arg10 : StableHlo.after (c1 (F := Ideal)) W (Proc.devRef .tc main_arg10) = W (Proc.devRef .tc main_arg10) := by
  after_results_simp

theorem r1_keep_main_arg11 : StableHlo.after (c1 (F := Ideal)) W (Proc.devRef .tc main_arg11) = W (Proc.devRef .tc main_arg11) := by
  after_results_simp

theorem r1_keep_main_arg12 : StableHlo.after (c1 (F := Ideal)) W (Proc.devRef .tc main_arg12) = W (Proc.devRef .tc main_arg12) := by
  after_results_simp

theorem r1_keep_main_arg13 : StableHlo.after (c1 (F := Ideal)) W (Proc.devRef .tc main_arg13) = W (Proc.devRef .tc main_arg13) := by
  after_results_simp

theorem r1_keep_main_arg14 : StableHlo.after (c1 (F := Ideal)) W (Proc.devRef .tc main_arg14) = W (Proc.devRef .tc main_arg14) := by
  after_results_simp

theorem r1_keep_main_arg15 : StableHlo.after (c1 (F := Ideal)) W (Proc.devRef .tc main_arg15) = W (Proc.devRef .tc main_arg15) := by
  after_results_simp

theorem r1_keep_main_arg16 : StableHlo.after (c1 (F := Ideal)) W (Proc.devRef .tc main_arg16) = W (Proc.devRef .tc main_arg16) := by
  after_results_simp

theorem r1_keep_main_arg17 : StableHlo.after (c1 (F := Ideal)) W (Proc.devRef .tc main_arg17) = W (Proc.devRef .tc main_arg17) := by
  after_results_simp

theorem r1_keep_main_arg18 : StableHlo.after (c1 (F := Ideal)) W (Proc.devRef .tc main_arg18) = W (Proc.devRef .tc main_arg18) := by
  after_results_simp

theorem r1_keep_main_arg19 : StableHlo.after (c1 (F := Ideal)) W (Proc.devRef .tc main_arg19) = W (Proc.devRef .tc main_arg19) := by
  after_results_simp

theorem r1_keep_main_arg20 : StableHlo.after (c1 (F := Ideal)) W (Proc.devRef .tc main_arg20) = W (Proc.devRef .tc main_arg20) := by
  after_results_simp

theorem r1_keep_main_arg21 : StableHlo.after (c1 (F := Ideal)) W (Proc.devRef .tc main_arg21) = W (Proc.devRef .tc main_arg21) := by
  after_results_simp

theorem r1_keep_main_arg22 : StableHlo.after (c1 (F := Ideal)) W (Proc.devRef .tc main_arg22) = W (Proc.devRef .tc main_arg22) := by
  after_results_simp

theorem r1_keep_main_arg23 : StableHlo.after (c1 (F := Ideal)) W (Proc.devRef .tc main_arg23) = W (Proc.devRef .tc main_arg23) := by
  after_results_simp

theorem r1_keep_main_arg24 : StableHlo.after (c1 (F := Ideal)) W (Proc.devRef .tc main_arg24) = W (Proc.devRef .tc main_arg24) := by
  after_results_simp

theorem r1_keep_main_arg25 : StableHlo.after (c1 (F := Ideal)) W (Proc.devRef .tc main_arg25) = W (Proc.devRef .tc main_arg25) := by
  after_results_simp

theorem r1_keep_main_arg26 : StableHlo.after (c1 (F := Ideal)) W (Proc.devRef .tc main_arg26) = W (Proc.devRef .tc main_arg26) := by
  after_results_simp

theorem r1_keep_main_arg27 : StableHlo.after (c1 (F := Ideal)) W (Proc.devRef .tc main_arg27) = W (Proc.devRef .tc main_arg27) := by
  after_results_simp

theorem r1_keep_main_arg28 : StableHlo.after (c1 (F := Ideal)) W (Proc.devRef .tc main_arg28) = W (Proc.devRef .tc main_arg28) := by
  after_results_simp

end Cert.ReferenceIdeal.ChainR

end
-- ==== Proof.ChainRef2.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r2_main_v12 (h_main_v11 : W (Proc.devRef .tc main_v11) = val_main_v11 (F := Ideal) x0 x5 x6) :
    StableHlo.after (c2 (F := Ideal)) W (Proc.devRef .tc main_v12) = val_main_v12 (F := Ideal) x0 x5 x6 := by
  after_results_simp
  try simp only [cast_eq]
  rw [h_main_v11]
  rfl

theorem r2_keep_main_v1 : StableHlo.after (c2 (F := Ideal)) W (Proc.devRef .tc main_v1) = W (Proc.devRef .tc main_v1) := by
  after_results_simp

theorem r2_keep_main_v3 : StableHlo.after (c2 (F := Ideal)) W (Proc.devRef .tc main_v3) = W (Proc.devRef .tc main_v3) := by
  after_results_simp

theorem r2_keep_main_v5 : StableHlo.after (c2 (F := Ideal)) W (Proc.devRef .tc main_v5) = W (Proc.devRef .tc main_v5) := by
  after_results_simp

theorem r2_keep_main_v7 : StableHlo.after (c2 (F := Ideal)) W (Proc.devRef .tc main_v7) = W (Proc.devRef .tc main_v7) := by
  after_results_simp

theorem r2_keep_main_arg0 : StableHlo.after (c2 (F := Ideal)) W (Proc.devRef .tc main_arg0) = W (Proc.devRef .tc main_arg0) := by
  after_results_simp

theorem r2_keep_main_arg1 : StableHlo.after (c2 (F := Ideal)) W (Proc.devRef .tc main_arg1) = W (Proc.devRef .tc main_arg1) := by
  after_results_simp

theorem r2_keep_main_arg2 : StableHlo.after (c2 (F := Ideal)) W (Proc.devRef .tc main_arg2) = W (Proc.devRef .tc main_arg2) := by
  after_results_simp

theorem r2_keep_main_arg3 : StableHlo.after (c2 (F := Ideal)) W (Proc.devRef .tc main_arg3) = W (Proc.devRef .tc main_arg3) := by
  after_results_simp

theorem r2_keep_main_arg4 : StableHlo.after (c2 (F := Ideal)) W (Proc.devRef .tc main_arg4) = W (Proc.devRef .tc main_arg4) := by
  after_results_simp

theorem r2_keep_main_arg5 : StableHlo.after (c2 (F := Ideal)) W (Proc.devRef .tc main_arg5) = W (Proc.devRef .tc main_arg5) := by
  after_results_simp

theorem r2_keep_main_arg6 : StableHlo.after (c2 (F := Ideal)) W (Proc.devRef .tc main_arg6) = W (Proc.devRef .tc main_arg6) := by
  after_results_simp

theorem r2_keep_main_arg7 : StableHlo.after (c2 (F := Ideal)) W (Proc.devRef .tc main_arg7) = W (Proc.devRef .tc main_arg7) := by
  after_results_simp

theorem r2_keep_main_arg8 : StableHlo.after (c2 (F := Ideal)) W (Proc.devRef .tc main_arg8) = W (Proc.devRef .tc main_arg8) := by
  after_results_simp

theorem r2_keep_main_arg9 : StableHlo.after (c2 (F := Ideal)) W (Proc.devRef .tc main_arg9) = W (Proc.devRef .tc main_arg9) := by
  after_results_simp

theorem r2_keep_main_arg10 : StableHlo.after (c2 (F := Ideal)) W (Proc.devRef .tc main_arg10) = W (Proc.devRef .tc main_arg10) := by
  after_results_simp

theorem r2_keep_main_arg11 : StableHlo.after (c2 (F := Ideal)) W (Proc.devRef .tc main_arg11) = W (Proc.devRef .tc main_arg11) := by
  after_results_simp

theorem r2_keep_main_arg12 : StableHlo.after (c2 (F := Ideal)) W (Proc.devRef .tc main_arg12) = W (Proc.devRef .tc main_arg12) := by
  after_results_simp

theorem r2_keep_main_arg13 : StableHlo.after (c2 (F := Ideal)) W (Proc.devRef .tc main_arg13) = W (Proc.devRef .tc main_arg13) := by
  after_results_simp

theorem r2_keep_main_arg14 : StableHlo.after (c2 (F := Ideal)) W (Proc.devRef .tc main_arg14) = W (Proc.devRef .tc main_arg14) := by
  after_results_simp

theorem r2_keep_main_arg15 : StableHlo.after (c2 (F := Ideal)) W (Proc.devRef .tc main_arg15) = W (Proc.devRef .tc main_arg15) := by
  after_results_simp

theorem r2_keep_main_arg16 : StableHlo.after (c2 (F := Ideal)) W (Proc.devRef .tc main_arg16) = W (Proc.devRef .tc main_arg16) := by
  after_results_simp

theorem r2_keep_main_arg17 : StableHlo.after (c2 (F := Ideal)) W (Proc.devRef .tc main_arg17) = W (Proc.devRef .tc main_arg17) := by
  after_results_simp

theorem r2_keep_main_arg18 : StableHlo.after (c2 (F := Ideal)) W (Proc.devRef .tc main_arg18) = W (Proc.devRef .tc main_arg18) := by
  after_results_simp

theorem r2_keep_main_arg19 : StableHlo.after (c2 (F := Ideal)) W (Proc.devRef .tc main_arg19) = W (Proc.devRef .tc main_arg19) := by
  after_results_simp

theorem r2_keep_main_arg20 : StableHlo.after (c2 (F := Ideal)) W (Proc.devRef .tc main_arg20) = W (Proc.devRef .tc main_arg20) := by
  after_results_simp

theorem r2_keep_main_arg21 : StableHlo.after (c2 (F := Ideal)) W (Proc.devRef .tc main_arg21) = W (Proc.devRef .tc main_arg21) := by
  after_results_simp

theorem r2_keep_main_arg22 : StableHlo.after (c2 (F := Ideal)) W (Proc.devRef .tc main_arg22) = W (Proc.devRef .tc main_arg22) := by
  after_results_simp

theorem r2_keep_main_arg23 : StableHlo.after (c2 (F := Ideal)) W (Proc.devRef .tc main_arg23) = W (Proc.devRef .tc main_arg23) := by
  after_results_simp

theorem r2_keep_main_arg24 : StableHlo.after (c2 (F := Ideal)) W (Proc.devRef .tc main_arg24) = W (Proc.devRef .tc main_arg24) := by
  after_results_simp

theorem r2_keep_main_arg25 : StableHlo.after (c2 (F := Ideal)) W (Proc.devRef .tc main_arg25) = W (Proc.devRef .tc main_arg25) := by
  after_results_simp

theorem r2_keep_main_arg26 : StableHlo.after (c2 (F := Ideal)) W (Proc.devRef .tc main_arg26) = W (Proc.devRef .tc main_arg26) := by
  after_results_simp

theorem r2_keep_main_arg27 : StableHlo.after (c2 (F := Ideal)) W (Proc.devRef .tc main_arg27) = W (Proc.devRef .tc main_arg27) := by
  after_results_simp

theorem r2_keep_main_arg28 : StableHlo.after (c2 (F := Ideal)) W (Proc.devRef .tc main_arg28) = W (Proc.devRef .tc main_arg28) := by
  after_results_simp

end Cert.ReferenceIdeal.ChainR

end
-- ==== Proof.ChainRef3.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r3_main_v16 (h_main_v12 : W (Proc.devRef .tc main_v12) = val_main_v12 (F := Ideal) x0 x5 x6) (h_main_arg7 : W (Proc.devRef .tc main_arg7) = x7) (h_main_arg8 : W (Proc.devRef .tc main_arg8) = x8) :
    StableHlo.after (c3 (F := Ideal)) W (Proc.devRef .tc main_v16) = val_main_v16 (F := Ideal) x0 x5 x6 x7 x8 := by
  after_results_simp
  try simp only [cast_eq]
  rw [h_main_v12, h_main_arg7, h_main_arg8]
  rfl

theorem r3_keep_main_v1 : StableHlo.after (c3 (F := Ideal)) W (Proc.devRef .tc main_v1) = W (Proc.devRef .tc main_v1) := by
  after_results_simp

theorem r3_keep_main_v3 : StableHlo.after (c3 (F := Ideal)) W (Proc.devRef .tc main_v3) = W (Proc.devRef .tc main_v3) := by
  after_results_simp

theorem r3_keep_main_v5 : StableHlo.after (c3 (F := Ideal)) W (Proc.devRef .tc main_v5) = W (Proc.devRef .tc main_v5) := by
  after_results_simp

theorem r3_keep_main_v7 : StableHlo.after (c3 (F := Ideal)) W (Proc.devRef .tc main_v7) = W (Proc.devRef .tc main_v7) := by
  after_results_simp

theorem r3_keep_main_arg0 : StableHlo.after (c3 (F := Ideal)) W (Proc.devRef .tc main_arg0) = W (Proc.devRef .tc main_arg0) := by
  after_results_simp

theorem r3_keep_main_arg1 : StableHlo.after (c3 (F := Ideal)) W (Proc.devRef .tc main_arg1) = W (Proc.devRef .tc main_arg1) := by
  after_results_simp

theorem r3_keep_main_arg2 : StableHlo.after (c3 (F := Ideal)) W (Proc.devRef .tc main_arg2) = W (Proc.devRef .tc main_arg2) := by
  after_results_simp

theorem r3_keep_main_arg3 : StableHlo.after (c3 (F := Ideal)) W (Proc.devRef .tc main_arg3) = W (Proc.devRef .tc main_arg3) := by
  after_results_simp

theorem r3_keep_main_arg4 : StableHlo.after (c3 (F := Ideal)) W (Proc.devRef .tc main_arg4) = W (Proc.devRef .tc main_arg4) := by
  after_results_simp

theorem r3_keep_main_arg5 : StableHlo.after (c3 (F := Ideal)) W (Proc.devRef .tc main_arg5) = W (Proc.devRef .tc main_arg5) := by
  after_results_simp

theorem r3_keep_main_arg6 : StableHlo.after (c3 (F := Ideal)) W (Proc.devRef .tc main_arg6) = W (Proc.devRef .tc main_arg6) := by
  after_results_simp

theorem r3_keep_main_arg7 : StableHlo.after (c3 (F := Ideal)) W (Proc.devRef .tc main_arg7) = W (Proc.devRef .tc main_arg7) := by
  after_results_simp

theorem r3_keep_main_arg8 : StableHlo.after (c3 (F := Ideal)) W (Proc.devRef .tc main_arg8) = W (Proc.devRef .tc main_arg8) := by
  after_results_simp

theorem r3_keep_main_arg9 : StableHlo.after (c3 (F := Ideal)) W (Proc.devRef .tc main_arg9) = W (Proc.devRef .tc main_arg9) := by
  after_results_simp

theorem r3_keep_main_arg10 : StableHlo.after (c3 (F := Ideal)) W (Proc.devRef .tc main_arg10) = W (Proc.devRef .tc main_arg10) := by
  after_results_simp

theorem r3_keep_main_arg11 : StableHlo.after (c3 (F := Ideal)) W (Proc.devRef .tc main_arg11) = W (Proc.devRef .tc main_arg11) := by
  after_results_simp

theorem r3_keep_main_arg12 : StableHlo.after (c3 (F := Ideal)) W (Proc.devRef .tc main_arg12) = W (Proc.devRef .tc main_arg12) := by
  after_results_simp

theorem r3_keep_main_arg13 : StableHlo.after (c3 (F := Ideal)) W (Proc.devRef .tc main_arg13) = W (Proc.devRef .tc main_arg13) := by
  after_results_simp

theorem r3_keep_main_arg14 : StableHlo.after (c3 (F := Ideal)) W (Proc.devRef .tc main_arg14) = W (Proc.devRef .tc main_arg14) := by
  after_results_simp

theorem r3_keep_main_arg15 : StableHlo.after (c3 (F := Ideal)) W (Proc.devRef .tc main_arg15) = W (Proc.devRef .tc main_arg15) := by
  after_results_simp

theorem r3_keep_main_arg16 : StableHlo.after (c3 (F := Ideal)) W (Proc.devRef .tc main_arg16) = W (Proc.devRef .tc main_arg16) := by
  after_results_simp

theorem r3_keep_main_arg17 : StableHlo.after (c3 (F := Ideal)) W (Proc.devRef .tc main_arg17) = W (Proc.devRef .tc main_arg17) := by
  after_results_simp

theorem r3_keep_main_arg18 : StableHlo.after (c3 (F := Ideal)) W (Proc.devRef .tc main_arg18) = W (Proc.devRef .tc main_arg18) := by
  after_results_simp

theorem r3_keep_main_arg19 : StableHlo.after (c3 (F := Ideal)) W (Proc.devRef .tc main_arg19) = W (Proc.devRef .tc main_arg19) := by
  after_results_simp

theorem r3_keep_main_arg20 : StableHlo.after (c3 (F := Ideal)) W (Proc.devRef .tc main_arg20) = W (Proc.devRef .tc main_arg20) := by
  after_results_simp

theorem r3_keep_main_arg21 : StableHlo.after (c3 (F := Ideal)) W (Proc.devRef .tc main_arg21) = W (Proc.devRef .tc main_arg21) := by
  after_results_simp

theorem r3_keep_main_arg22 : StableHlo.after (c3 (F := Ideal)) W (Proc.devRef .tc main_arg22) = W (Proc.devRef .tc main_arg22) := by
  after_results_simp

theorem r3_keep_main_arg23 : StableHlo.after (c3 (F := Ideal)) W (Proc.devRef .tc main_arg23) = W (Proc.devRef .tc main_arg23) := by
  after_results_simp

theorem r3_keep_main_arg24 : StableHlo.after (c3 (F := Ideal)) W (Proc.devRef .tc main_arg24) = W (Proc.devRef .tc main_arg24) := by
  after_results_simp

theorem r3_keep_main_arg25 : StableHlo.after (c3 (F := Ideal)) W (Proc.devRef .tc main_arg25) = W (Proc.devRef .tc main_arg25) := by
  after_results_simp

theorem r3_keep_main_arg26 : StableHlo.after (c3 (F := Ideal)) W (Proc.devRef .tc main_arg26) = W (Proc.devRef .tc main_arg26) := by
  after_results_simp

theorem r3_keep_main_arg27 : StableHlo.after (c3 (F := Ideal)) W (Proc.devRef .tc main_arg27) = W (Proc.devRef .tc main_arg27) := by
  after_results_simp

theorem r3_keep_main_arg28 : StableHlo.after (c3 (F := Ideal)) W (Proc.devRef .tc main_arg28) = W (Proc.devRef .tc main_arg28) := by
  after_results_simp

end Cert.ReferenceIdeal.ChainR

end
-- ==== Proof.ChainRef4.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r4_main_v18 (h_main_v1 : W (Proc.devRef .tc main_v1) = val_main_v1 (F := Ideal) x1) :
    StableHlo.after (c4 (F := Ideal)) W (Proc.devRef .tc main_v18) = val_main_v18 (F := Ideal) x1 := by
  after_results_simp
  try simp only [cast_eq]
  rw [h_main_v1]
  rfl

theorem r4_main_v19 (h_main_v3 : W (Proc.devRef .tc main_v3) = val_main_v3 (F := Ideal) x1) :
    StableHlo.after (c4 (F := Ideal)) W (Proc.devRef .tc main_v19) = val_main_v19 (F := Ideal) x1 := by
  after_results_simp
  try simp only [cast_eq]
  rw [h_main_v3]
  rfl

theorem r4_main_v25 (h_main_v3 : W (Proc.devRef .tc main_v3) = val_main_v3 (F := Ideal) x1) :
    StableHlo.after (c4 (F := Ideal)) W (Proc.devRef .tc main_v25) = val_main_v25 (F := Ideal) x1 := by
  after_results_simp
  try simp only [cast_eq]
  rw [h_main_v3]
  rfl

theorem r4_main_v26 (h_main_v3 : W (Proc.devRef .tc main_v3) = val_main_v3 (F := Ideal) x1) :
    StableHlo.after (c4 (F := Ideal)) W (Proc.devRef .tc main_v26) = val_main_v26 (F := Ideal) x1 := by
  after_results_simp
  try simp only [cast_eq]
  rw [h_main_v3]
  rfl

theorem r4_main_cst_2  :
    StableHlo.after (c4 (F := Ideal)) W (Proc.devRef .tc main_cst_2) = val_main_cst_2 (F := Ideal) := by
  after_results_simp
  try simp only [cast_eq]
  rfl

theorem r4_keep_main_v1 : StableHlo.after (c4 (F := Ideal)) W (Proc.devRef .tc main_v1) = W (Proc.devRef .tc main_v1) := by
  after_results_simp

theorem r4_keep_main_v3 : StableHlo.after (c4 (F := Ideal)) W (Proc.devRef .tc main_v3) = W (Proc.devRef .tc main_v3) := by
  after_results_simp

theorem r4_keep_main_v5 : StableHlo.after (c4 (F := Ideal)) W (Proc.devRef .tc main_v5) = W (Proc.devRef .tc main_v5) := by
  after_results_simp

theorem r4_keep_main_v7 : StableHlo.after (c4 (F := Ideal)) W (Proc.devRef .tc main_v7) = W (Proc.devRef .tc main_v7) := by
  after_results_simp

theorem r4_keep_main_v16 : StableHlo.after (c4 (F := Ideal)) W (Proc.devRef .tc main_v16) = W (Proc.devRef .tc main_v16) := by
  after_results_simp

theorem r4_keep_main_arg0 : StableHlo.after (c4 (F := Ideal)) W (Proc.devRef .tc main_arg0) = W (Proc.devRef .tc main_arg0) := by
  after_results_simp

theorem r4_keep_main_arg1 : StableHlo.after (c4 (F := Ideal)) W (Proc.devRef .tc main_arg1) = W (Proc.devRef .tc main_arg1) := by
  after_results_simp

theorem r4_keep_main_arg2 : StableHlo.after (c4 (F := Ideal)) W (Proc.devRef .tc main_arg2) = W (Proc.devRef .tc main_arg2) := by
  after_results_simp

theorem r4_keep_main_arg3 : StableHlo.after (c4 (F := Ideal)) W (Proc.devRef .tc main_arg3) = W (Proc.devRef .tc main_arg3) := by
  after_results_simp

theorem r4_keep_main_arg4 : StableHlo.after (c4 (F := Ideal)) W (Proc.devRef .tc main_arg4) = W (Proc.devRef .tc main_arg4) := by
  after_results_simp

theorem r4_keep_main_arg5 : StableHlo.after (c4 (F := Ideal)) W (Proc.devRef .tc main_arg5) = W (Proc.devRef .tc main_arg5) := by
  after_results_simp

theorem r4_keep_main_arg6 : StableHlo.after (c4 (F := Ideal)) W (Proc.devRef .tc main_arg6) = W (Proc.devRef .tc main_arg6) := by
  after_results_simp

theorem r4_keep_main_arg7 : StableHlo.after (c4 (F := Ideal)) W (Proc.devRef .tc main_arg7) = W (Proc.devRef .tc main_arg7) := by
  after_results_simp

theorem r4_keep_main_arg8 : StableHlo.after (c4 (F := Ideal)) W (Proc.devRef .tc main_arg8) = W (Proc.devRef .tc main_arg8) := by
  after_results_simp

theorem r4_keep_main_arg9 : StableHlo.after (c4 (F := Ideal)) W (Proc.devRef .tc main_arg9) = W (Proc.devRef .tc main_arg9) := by
  after_results_simp

theorem r4_keep_main_arg10 : StableHlo.after (c4 (F := Ideal)) W (Proc.devRef .tc main_arg10) = W (Proc.devRef .tc main_arg10) := by
  after_results_simp

theorem r4_keep_main_arg11 : StableHlo.after (c4 (F := Ideal)) W (Proc.devRef .tc main_arg11) = W (Proc.devRef .tc main_arg11) := by
  after_results_simp

theorem r4_keep_main_arg12 : StableHlo.after (c4 (F := Ideal)) W (Proc.devRef .tc main_arg12) = W (Proc.devRef .tc main_arg12) := by
  after_results_simp

theorem r4_keep_main_arg13 : StableHlo.after (c4 (F := Ideal)) W (Proc.devRef .tc main_arg13) = W (Proc.devRef .tc main_arg13) := by
  after_results_simp

theorem r4_keep_main_arg14 : StableHlo.after (c4 (F := Ideal)) W (Proc.devRef .tc main_arg14) = W (Proc.devRef .tc main_arg14) := by
  after_results_simp

theorem r4_keep_main_arg15 : StableHlo.after (c4 (F := Ideal)) W (Proc.devRef .tc main_arg15) = W (Proc.devRef .tc main_arg15) := by
  after_results_simp

theorem r4_keep_main_arg16 : StableHlo.after (c4 (F := Ideal)) W (Proc.devRef .tc main_arg16) = W (Proc.devRef .tc main_arg16) := by
  after_results_simp

theorem r4_keep_main_arg17 : StableHlo.after (c4 (F := Ideal)) W (Proc.devRef .tc main_arg17) = W (Proc.devRef .tc main_arg17) := by
  after_results_simp

theorem r4_keep_main_arg18 : StableHlo.after (c4 (F := Ideal)) W (Proc.devRef .tc main_arg18) = W (Proc.devRef .tc main_arg18) := by
  after_results_simp

theorem r4_keep_main_arg19 : StableHlo.after (c4 (F := Ideal)) W (Proc.devRef .tc main_arg19) = W (Proc.devRef .tc main_arg19) := by
  after_results_simp

theorem r4_keep_main_arg20 : StableHlo.after (c4 (F := Ideal)) W (Proc.devRef .tc main_arg20) = W (Proc.devRef .tc main_arg20) := by
  after_results_simp

theorem r4_keep_main_arg21 : StableHlo.after (c4 (F := Ideal)) W (Proc.devRef .tc main_arg21) = W (Proc.devRef .tc main_arg21) := by
  after_results_simp

theorem r4_keep_main_arg22 : StableHlo.after (c4 (F := Ideal)) W (Proc.devRef .tc main_arg22) = W (Proc.devRef .tc main_arg22) := by
  after_results_simp

theorem r4_keep_main_arg23 : StableHlo.after (c4 (F := Ideal)) W (Proc.devRef .tc main_arg23) = W (Proc.devRef .tc main_arg23) := by
  after_results_simp

theorem r4_keep_main_arg24 : StableHlo.after (c4 (F := Ideal)) W (Proc.devRef .tc main_arg24) = W (Proc.devRef .tc main_arg24) := by
  after_results_simp

theorem r4_keep_main_arg25 : StableHlo.after (c4 (F := Ideal)) W (Proc.devRef .tc main_arg25) = W (Proc.devRef .tc main_arg25) := by
  after_results_simp

theorem r4_keep_main_arg26 : StableHlo.after (c4 (F := Ideal)) W (Proc.devRef .tc main_arg26) = W (Proc.devRef .tc main_arg26) := by
  after_results_simp

theorem r4_keep_main_arg27 : StableHlo.after (c4 (F := Ideal)) W (Proc.devRef .tc main_arg27) = W (Proc.devRef .tc main_arg27) := by
  after_results_simp

theorem r4_keep_main_arg28 : StableHlo.after (c4 (F := Ideal)) W (Proc.devRef .tc main_arg28) = W (Proc.devRef .tc main_arg28) := by
  after_results_simp

end Cert.ReferenceIdeal.ChainR

end
-- ==== Proof.ChainRef5.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r5_main_v27 (h_main_v25 : W (Proc.devRef .tc main_v25) = val_main_v25 (F := Ideal) x1) (h_main_v26 : W (Proc.devRef .tc main_v26) = val_main_v26 (F := Ideal) x1) (h_main_cst_2 : W (Proc.devRef .tc main_cst_2) = val_main_cst_2 (F := Ideal)) :
    StableHlo.after (c5 (F := Ideal)) W (Proc.devRef .tc main_v27) = val_main_v27 (F := Ideal) x1 := by
  after_results_simp
  try simp only [cast_eq]
  rw [h_main_v25, h_main_v26, h_main_cst_2]
  rfl

theorem r5_keep_main_v1 : StableHlo.after (c5 (F := Ideal)) W (Proc.devRef .tc main_v1) = W (Proc.devRef .tc main_v1) := by
  after_results_simp

theorem r5_keep_main_v3 : StableHlo.after (c5 (F := Ideal)) W (Proc.devRef .tc main_v3) = W (Proc.devRef .tc main_v3) := by
  after_results_simp

theorem r5_keep_main_v5 : StableHlo.after (c5 (F := Ideal)) W (Proc.devRef .tc main_v5) = W (Proc.devRef .tc main_v5) := by
  after_results_simp

theorem r5_keep_main_v7 : StableHlo.after (c5 (F := Ideal)) W (Proc.devRef .tc main_v7) = W (Proc.devRef .tc main_v7) := by
  after_results_simp

theorem r5_keep_main_v16 : StableHlo.after (c5 (F := Ideal)) W (Proc.devRef .tc main_v16) = W (Proc.devRef .tc main_v16) := by
  after_results_simp

theorem r5_keep_main_v18 : StableHlo.after (c5 (F := Ideal)) W (Proc.devRef .tc main_v18) = W (Proc.devRef .tc main_v18) := by
  after_results_simp

theorem r5_keep_main_v19 : StableHlo.after (c5 (F := Ideal)) W (Proc.devRef .tc main_v19) = W (Proc.devRef .tc main_v19) := by
  after_results_simp

theorem r5_keep_main_arg0 : StableHlo.after (c5 (F := Ideal)) W (Proc.devRef .tc main_arg0) = W (Proc.devRef .tc main_arg0) := by
  after_results_simp

theorem r5_keep_main_arg1 : StableHlo.after (c5 (F := Ideal)) W (Proc.devRef .tc main_arg1) = W (Proc.devRef .tc main_arg1) := by
  after_results_simp

theorem r5_keep_main_arg2 : StableHlo.after (c5 (F := Ideal)) W (Proc.devRef .tc main_arg2) = W (Proc.devRef .tc main_arg2) := by
  after_results_simp

theorem r5_keep_main_arg3 : StableHlo.after (c5 (F := Ideal)) W (Proc.devRef .tc main_arg3) = W (Proc.devRef .tc main_arg3) := by
  after_results_simp

theorem r5_keep_main_arg4 : StableHlo.after (c5 (F := Ideal)) W (Proc.devRef .tc main_arg4) = W (Proc.devRef .tc main_arg4) := by
  after_results_simp

theorem r5_keep_main_arg5 : StableHlo.after (c5 (F := Ideal)) W (Proc.devRef .tc main_arg5) = W (Proc.devRef .tc main_arg5) := by
  after_results_simp

theorem r5_keep_main_arg6 : StableHlo.after (c5 (F := Ideal)) W (Proc.devRef .tc main_arg6) = W (Proc.devRef .tc main_arg6) := by
  after_results_simp

theorem r5_keep_main_arg7 : StableHlo.after (c5 (F := Ideal)) W (Proc.devRef .tc main_arg7) = W (Proc.devRef .tc main_arg7) := by
  after_results_simp

theorem r5_keep_main_arg8 : StableHlo.after (c5 (F := Ideal)) W (Proc.devRef .tc main_arg8) = W (Proc.devRef .tc main_arg8) := by
  after_results_simp

theorem r5_keep_main_arg9 : StableHlo.after (c5 (F := Ideal)) W (Proc.devRef .tc main_arg9) = W (Proc.devRef .tc main_arg9) := by
  after_results_simp

theorem r5_keep_main_arg10 : StableHlo.after (c5 (F := Ideal)) W (Proc.devRef .tc main_arg10) = W (Proc.devRef .tc main_arg10) := by
  after_results_simp

theorem r5_keep_main_arg11 : StableHlo.after (c5 (F := Ideal)) W (Proc.devRef .tc main_arg11) = W (Proc.devRef .tc main_arg11) := by
  after_results_simp

theorem r5_keep_main_arg12 : StableHlo.after (c5 (F := Ideal)) W (Proc.devRef .tc main_arg12) = W (Proc.devRef .tc main_arg12) := by
  after_results_simp

theorem r5_keep_main_arg13 : StableHlo.after (c5 (F := Ideal)) W (Proc.devRef .tc main_arg13) = W (Proc.devRef .tc main_arg13) := by
  after_results_simp

theorem r5_keep_main_arg14 : StableHlo.after (c5 (F := Ideal)) W (Proc.devRef .tc main_arg14) = W (Proc.devRef .tc main_arg14) := by
  after_results_simp

theorem r5_keep_main_arg15 : StableHlo.after (c5 (F := Ideal)) W (Proc.devRef .tc main_arg15) = W (Proc.devRef .tc main_arg15) := by
  after_results_simp

theorem r5_keep_main_arg16 : StableHlo.after (c5 (F := Ideal)) W (Proc.devRef .tc main_arg16) = W (Proc.devRef .tc main_arg16) := by
  after_results_simp

theorem r5_keep_main_arg17 : StableHlo.after (c5 (F := Ideal)) W (Proc.devRef .tc main_arg17) = W (Proc.devRef .tc main_arg17) := by
  after_results_simp

theorem r5_keep_main_arg18 : StableHlo.after (c5 (F := Ideal)) W (Proc.devRef .tc main_arg18) = W (Proc.devRef .tc main_arg18) := by
  after_results_simp

theorem r5_keep_main_arg19 : StableHlo.after (c5 (F := Ideal)) W (Proc.devRef .tc main_arg19) = W (Proc.devRef .tc main_arg19) := by
  after_results_simp

theorem r5_keep_main_arg20 : StableHlo.after (c5 (F := Ideal)) W (Proc.devRef .tc main_arg20) = W (Proc.devRef .tc main_arg20) := by
  after_results_simp

theorem r5_keep_main_arg21 : StableHlo.after (c5 (F := Ideal)) W (Proc.devRef .tc main_arg21) = W (Proc.devRef .tc main_arg21) := by
  after_results_simp

theorem r5_keep_main_arg22 : StableHlo.after (c5 (F := Ideal)) W (Proc.devRef .tc main_arg22) = W (Proc.devRef .tc main_arg22) := by
  after_results_simp

theorem r5_keep_main_arg23 : StableHlo.after (c5 (F := Ideal)) W (Proc.devRef .tc main_arg23) = W (Proc.devRef .tc main_arg23) := by
  after_results_simp

theorem r5_keep_main_arg24 : StableHlo.after (c5 (F := Ideal)) W (Proc.devRef .tc main_arg24) = W (Proc.devRef .tc main_arg24) := by
  after_results_simp

theorem r5_keep_main_arg25 : StableHlo.after (c5 (F := Ideal)) W (Proc.devRef .tc main_arg25) = W (Proc.devRef .tc main_arg25) := by
  after_results_simp

theorem r5_keep_main_arg26 : StableHlo.after (c5 (F := Ideal)) W (Proc.devRef .tc main_arg26) = W (Proc.devRef .tc main_arg26) := by
  after_results_simp

theorem r5_keep_main_arg27 : StableHlo.after (c5 (F := Ideal)) W (Proc.devRef .tc main_arg27) = W (Proc.devRef .tc main_arg27) := by
  after_results_simp

theorem r5_keep_main_arg28 : StableHlo.after (c5 (F := Ideal)) W (Proc.devRef .tc main_arg28) = W (Proc.devRef .tc main_arg28) := by
  after_results_simp

end Cert.ReferenceIdeal.ChainR

end
-- ==== Proof.ChainRef6.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r6_main_v42 (h_main_v27 : W (Proc.devRef .tc main_v27) = val_main_v27 (F := Ideal) x1) (h_main_v18 : W (Proc.devRef .tc main_v18) = val_main_v18 (F := Ideal) x1) (h_main_v19 : W (Proc.devRef .tc main_v19) = val_main_v19 (F := Ideal) x1) :
    StableHlo.after (c6 (F := Ideal)) W (Proc.devRef .tc main_v42) = val_main_v42 (F := Ideal) x1 := by
  after_results_simp
  try simp only [cast_eq]
  rw [h_main_v27, h_main_v18, h_main_v19]
  rfl

theorem r6_keep_main_v1 : StableHlo.after (c6 (F := Ideal)) W (Proc.devRef .tc main_v1) = W (Proc.devRef .tc main_v1) := by
  after_results_simp

theorem r6_keep_main_v3 : StableHlo.after (c6 (F := Ideal)) W (Proc.devRef .tc main_v3) = W (Proc.devRef .tc main_v3) := by
  after_results_simp

theorem r6_keep_main_v5 : StableHlo.after (c6 (F := Ideal)) W (Proc.devRef .tc main_v5) = W (Proc.devRef .tc main_v5) := by
  after_results_simp

theorem r6_keep_main_v7 : StableHlo.after (c6 (F := Ideal)) W (Proc.devRef .tc main_v7) = W (Proc.devRef .tc main_v7) := by
  after_results_simp

theorem r6_keep_main_v16 : StableHlo.after (c6 (F := Ideal)) W (Proc.devRef .tc main_v16) = W (Proc.devRef .tc main_v16) := by
  after_results_simp

theorem r6_keep_main_v18 : StableHlo.after (c6 (F := Ideal)) W (Proc.devRef .tc main_v18) = W (Proc.devRef .tc main_v18) := by
  after_results_simp

theorem r6_keep_main_v19 : StableHlo.after (c6 (F := Ideal)) W (Proc.devRef .tc main_v19) = W (Proc.devRef .tc main_v19) := by
  after_results_simp

theorem r6_keep_main_arg0 : StableHlo.after (c6 (F := Ideal)) W (Proc.devRef .tc main_arg0) = W (Proc.devRef .tc main_arg0) := by
  after_results_simp

theorem r6_keep_main_arg1 : StableHlo.after (c6 (F := Ideal)) W (Proc.devRef .tc main_arg1) = W (Proc.devRef .tc main_arg1) := by
  after_results_simp

theorem r6_keep_main_arg2 : StableHlo.after (c6 (F := Ideal)) W (Proc.devRef .tc main_arg2) = W (Proc.devRef .tc main_arg2) := by
  after_results_simp

theorem r6_keep_main_arg3 : StableHlo.after (c6 (F := Ideal)) W (Proc.devRef .tc main_arg3) = W (Proc.devRef .tc main_arg3) := by
  after_results_simp

theorem r6_keep_main_arg4 : StableHlo.after (c6 (F := Ideal)) W (Proc.devRef .tc main_arg4) = W (Proc.devRef .tc main_arg4) := by
  after_results_simp

theorem r6_keep_main_arg5 : StableHlo.after (c6 (F := Ideal)) W (Proc.devRef .tc main_arg5) = W (Proc.devRef .tc main_arg5) := by
  after_results_simp

theorem r6_keep_main_arg6 : StableHlo.after (c6 (F := Ideal)) W (Proc.devRef .tc main_arg6) = W (Proc.devRef .tc main_arg6) := by
  after_results_simp

theorem r6_keep_main_arg7 : StableHlo.after (c6 (F := Ideal)) W (Proc.devRef .tc main_arg7) = W (Proc.devRef .tc main_arg7) := by
  after_results_simp

theorem r6_keep_main_arg8 : StableHlo.after (c6 (F := Ideal)) W (Proc.devRef .tc main_arg8) = W (Proc.devRef .tc main_arg8) := by
  after_results_simp

theorem r6_keep_main_arg9 : StableHlo.after (c6 (F := Ideal)) W (Proc.devRef .tc main_arg9) = W (Proc.devRef .tc main_arg9) := by
  after_results_simp

theorem r6_keep_main_arg10 : StableHlo.after (c6 (F := Ideal)) W (Proc.devRef .tc main_arg10) = W (Proc.devRef .tc main_arg10) := by
  after_results_simp

theorem r6_keep_main_arg11 : StableHlo.after (c6 (F := Ideal)) W (Proc.devRef .tc main_arg11) = W (Proc.devRef .tc main_arg11) := by
  after_results_simp

theorem r6_keep_main_arg12 : StableHlo.after (c6 (F := Ideal)) W (Proc.devRef .tc main_arg12) = W (Proc.devRef .tc main_arg12) := by
  after_results_simp

theorem r6_keep_main_arg13 : StableHlo.after (c6 (F := Ideal)) W (Proc.devRef .tc main_arg13) = W (Proc.devRef .tc main_arg13) := by
  after_results_simp

theorem r6_keep_main_arg14 : StableHlo.after (c6 (F := Ideal)) W (Proc.devRef .tc main_arg14) = W (Proc.devRef .tc main_arg14) := by
  after_results_simp

theorem r6_keep_main_arg15 : StableHlo.after (c6 (F := Ideal)) W (Proc.devRef .tc main_arg15) = W (Proc.devRef .tc main_arg15) := by
  after_results_simp

theorem r6_keep_main_arg16 : StableHlo.after (c6 (F := Ideal)) W (Proc.devRef .tc main_arg16) = W (Proc.devRef .tc main_arg16) := by
  after_results_simp

theorem r6_keep_main_arg17 : StableHlo.after (c6 (F := Ideal)) W (Proc.devRef .tc main_arg17) = W (Proc.devRef .tc main_arg17) := by
  after_results_simp

theorem r6_keep_main_arg18 : StableHlo.after (c6 (F := Ideal)) W (Proc.devRef .tc main_arg18) = W (Proc.devRef .tc main_arg18) := by
  after_results_simp

theorem r6_keep_main_arg19 : StableHlo.after (c6 (F := Ideal)) W (Proc.devRef .tc main_arg19) = W (Proc.devRef .tc main_arg19) := by
  after_results_simp

theorem r6_keep_main_arg20 : StableHlo.after (c6 (F := Ideal)) W (Proc.devRef .tc main_arg20) = W (Proc.devRef .tc main_arg20) := by
  after_results_simp

theorem r6_keep_main_arg21 : StableHlo.after (c6 (F := Ideal)) W (Proc.devRef .tc main_arg21) = W (Proc.devRef .tc main_arg21) := by
  after_results_simp

theorem r6_keep_main_arg22 : StableHlo.after (c6 (F := Ideal)) W (Proc.devRef .tc main_arg22) = W (Proc.devRef .tc main_arg22) := by
  after_results_simp

theorem r6_keep_main_arg23 : StableHlo.after (c6 (F := Ideal)) W (Proc.devRef .tc main_arg23) = W (Proc.devRef .tc main_arg23) := by
  after_results_simp

theorem r6_keep_main_arg24 : StableHlo.after (c6 (F := Ideal)) W (Proc.devRef .tc main_arg24) = W (Proc.devRef .tc main_arg24) := by
  after_results_simp

theorem r6_keep_main_arg25 : StableHlo.after (c6 (F := Ideal)) W (Proc.devRef .tc main_arg25) = W (Proc.devRef .tc main_arg25) := by
  after_results_simp

theorem r6_keep_main_arg26 : StableHlo.after (c6 (F := Ideal)) W (Proc.devRef .tc main_arg26) = W (Proc.devRef .tc main_arg26) := by
  after_results_simp

theorem r6_keep_main_arg27 : StableHlo.after (c6 (F := Ideal)) W (Proc.devRef .tc main_arg27) = W (Proc.devRef .tc main_arg27) := by
  after_results_simp

theorem r6_keep_main_arg28 : StableHlo.after (c6 (F := Ideal)) W (Proc.devRef .tc main_arg28) = W (Proc.devRef .tc main_arg28) := by
  after_results_simp

end Cert.ReferenceIdeal.ChainR

end
-- ==== Proof.ChainRef7.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r7_main_v43 (h_main_v16 : W (Proc.devRef .tc main_v16) = val_main_v16 (F := Ideal) x0 x5 x6 x7 x8) (h_main_arg9 : W (Proc.devRef .tc main_arg9) = x9) :
    StableHlo.after (c7 (F := Ideal)) W (Proc.devRef .tc main_v43) = val_main_v43 (F := Ideal) x0 x5 x6 x7 x8 x9 := by
  after_results_simp
  try simp only [cast_eq]
  rw [h_main_v16, h_main_arg9]
  rfl

theorem r7_keep_main_v1 : StableHlo.after (c7 (F := Ideal)) W (Proc.devRef .tc main_v1) = W (Proc.devRef .tc main_v1) := by
  after_results_simp

theorem r7_keep_main_v3 : StableHlo.after (c7 (F := Ideal)) W (Proc.devRef .tc main_v3) = W (Proc.devRef .tc main_v3) := by
  after_results_simp

theorem r7_keep_main_v5 : StableHlo.after (c7 (F := Ideal)) W (Proc.devRef .tc main_v5) = W (Proc.devRef .tc main_v5) := by
  after_results_simp

theorem r7_keep_main_v7 : StableHlo.after (c7 (F := Ideal)) W (Proc.devRef .tc main_v7) = W (Proc.devRef .tc main_v7) := by
  after_results_simp

theorem r7_keep_main_v16 : StableHlo.after (c7 (F := Ideal)) W (Proc.devRef .tc main_v16) = W (Proc.devRef .tc main_v16) := by
  after_results_simp

theorem r7_keep_main_v18 : StableHlo.after (c7 (F := Ideal)) W (Proc.devRef .tc main_v18) = W (Proc.devRef .tc main_v18) := by
  after_results_simp

theorem r7_keep_main_v19 : StableHlo.after (c7 (F := Ideal)) W (Proc.devRef .tc main_v19) = W (Proc.devRef .tc main_v19) := by
  after_results_simp

theorem r7_keep_main_v42 : StableHlo.after (c7 (F := Ideal)) W (Proc.devRef .tc main_v42) = W (Proc.devRef .tc main_v42) := by
  after_results_simp

theorem r7_keep_main_arg0 : StableHlo.after (c7 (F := Ideal)) W (Proc.devRef .tc main_arg0) = W (Proc.devRef .tc main_arg0) := by
  after_results_simp

theorem r7_keep_main_arg1 : StableHlo.after (c7 (F := Ideal)) W (Proc.devRef .tc main_arg1) = W (Proc.devRef .tc main_arg1) := by
  after_results_simp

theorem r7_keep_main_arg2 : StableHlo.after (c7 (F := Ideal)) W (Proc.devRef .tc main_arg2) = W (Proc.devRef .tc main_arg2) := by
  after_results_simp

theorem r7_keep_main_arg3 : StableHlo.after (c7 (F := Ideal)) W (Proc.devRef .tc main_arg3) = W (Proc.devRef .tc main_arg3) := by
  after_results_simp

theorem r7_keep_main_arg4 : StableHlo.after (c7 (F := Ideal)) W (Proc.devRef .tc main_arg4) = W (Proc.devRef .tc main_arg4) := by
  after_results_simp

theorem r7_keep_main_arg5 : StableHlo.after (c7 (F := Ideal)) W (Proc.devRef .tc main_arg5) = W (Proc.devRef .tc main_arg5) := by
  after_results_simp

theorem r7_keep_main_arg6 : StableHlo.after (c7 (F := Ideal)) W (Proc.devRef .tc main_arg6) = W (Proc.devRef .tc main_arg6) := by
  after_results_simp

theorem r7_keep_main_arg7 : StableHlo.after (c7 (F := Ideal)) W (Proc.devRef .tc main_arg7) = W (Proc.devRef .tc main_arg7) := by
  after_results_simp

theorem r7_keep_main_arg8 : StableHlo.after (c7 (F := Ideal)) W (Proc.devRef .tc main_arg8) = W (Proc.devRef .tc main_arg8) := by
  after_results_simp

theorem r7_keep_main_arg9 : StableHlo.after (c7 (F := Ideal)) W (Proc.devRef .tc main_arg9) = W (Proc.devRef .tc main_arg9) := by
  after_results_simp

theorem r7_keep_main_arg10 : StableHlo.after (c7 (F := Ideal)) W (Proc.devRef .tc main_arg10) = W (Proc.devRef .tc main_arg10) := by
  after_results_simp

theorem r7_keep_main_arg11 : StableHlo.after (c7 (F := Ideal)) W (Proc.devRef .tc main_arg11) = W (Proc.devRef .tc main_arg11) := by
  after_results_simp

theorem r7_keep_main_arg12 : StableHlo.after (c7 (F := Ideal)) W (Proc.devRef .tc main_arg12) = W (Proc.devRef .tc main_arg12) := by
  after_results_simp

theorem r7_keep_main_arg13 : StableHlo.after (c7 (F := Ideal)) W (Proc.devRef .tc main_arg13) = W (Proc.devRef .tc main_arg13) := by
  after_results_simp

theorem r7_keep_main_arg14 : StableHlo.after (c7 (F := Ideal)) W (Proc.devRef .tc main_arg14) = W (Proc.devRef .tc main_arg14) := by
  after_results_simp

theorem r7_keep_main_arg15 : StableHlo.after (c7 (F := Ideal)) W (Proc.devRef .tc main_arg15) = W (Proc.devRef .tc main_arg15) := by
  after_results_simp

theorem r7_keep_main_arg16 : StableHlo.after (c7 (F := Ideal)) W (Proc.devRef .tc main_arg16) = W (Proc.devRef .tc main_arg16) := by
  after_results_simp

theorem r7_keep_main_arg17 : StableHlo.after (c7 (F := Ideal)) W (Proc.devRef .tc main_arg17) = W (Proc.devRef .tc main_arg17) := by
  after_results_simp

theorem r7_keep_main_arg18 : StableHlo.after (c7 (F := Ideal)) W (Proc.devRef .tc main_arg18) = W (Proc.devRef .tc main_arg18) := by
  after_results_simp

theorem r7_keep_main_arg19 : StableHlo.after (c7 (F := Ideal)) W (Proc.devRef .tc main_arg19) = W (Proc.devRef .tc main_arg19) := by
  after_results_simp

theorem r7_keep_main_arg20 : StableHlo.after (c7 (F := Ideal)) W (Proc.devRef .tc main_arg20) = W (Proc.devRef .tc main_arg20) := by
  after_results_simp

theorem r7_keep_main_arg21 : StableHlo.after (c7 (F := Ideal)) W (Proc.devRef .tc main_arg21) = W (Proc.devRef .tc main_arg21) := by
  after_results_simp

theorem r7_keep_main_arg22 : StableHlo.after (c7 (F := Ideal)) W (Proc.devRef .tc main_arg22) = W (Proc.devRef .tc main_arg22) := by
  after_results_simp

theorem r7_keep_main_arg23 : StableHlo.after (c7 (F := Ideal)) W (Proc.devRef .tc main_arg23) = W (Proc.devRef .tc main_arg23) := by
  after_results_simp

theorem r7_keep_main_arg24 : StableHlo.after (c7 (F := Ideal)) W (Proc.devRef .tc main_arg24) = W (Proc.devRef .tc main_arg24) := by
  after_results_simp

theorem r7_keep_main_arg25 : StableHlo.after (c7 (F := Ideal)) W (Proc.devRef .tc main_arg25) = W (Proc.devRef .tc main_arg25) := by
  after_results_simp

theorem r7_keep_main_arg26 : StableHlo.after (c7 (F := Ideal)) W (Proc.devRef .tc main_arg26) = W (Proc.devRef .tc main_arg26) := by
  after_results_simp

theorem r7_keep_main_arg27 : StableHlo.after (c7 (F := Ideal)) W (Proc.devRef .tc main_arg27) = W (Proc.devRef .tc main_arg27) := by
  after_results_simp

theorem r7_keep_main_arg28 : StableHlo.after (c7 (F := Ideal)) W (Proc.devRef .tc main_arg28) = W (Proc.devRef .tc main_arg28) := by
  after_results_simp

end Cert.ReferenceIdeal.ChainR

end
-- ==== Proof.ChainRef8.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r8_main_v59 (h_main_v19 : W (Proc.devRef .tc main_v19) = val_main_v19 (F := Ideal) x1) (h_main_v43 : W (Proc.devRef .tc main_v43) = val_main_v43 (F := Ideal) x0 x5 x6 x7 x8 x9) (h_main_v18 : W (Proc.devRef .tc main_v18) = val_main_v18 (F := Ideal) x1) (h_main_v42 : W (Proc.devRef .tc main_v42) = val_main_v42 (F := Ideal) x1) (h_main_arg10 : W (Proc.devRef .tc main_arg10) = x10) :
    StableHlo.after (c8 (F := Ideal)) W (Proc.devRef .tc main_v59) = val_main_v59 (F := Ideal) x0 x1 x5 x6 x7 x8 x9 x10 := by
  after_results_simp
  try simp only [cast_eq]
  rw [h_main_v19, h_main_v43, h_main_v18, h_main_v42, h_main_arg10]
  rfl

theorem r8_keep_main_v1 : StableHlo.after (c8 (F := Ideal)) W (Proc.devRef .tc main_v1) = W (Proc.devRef .tc main_v1) := by
  after_results_simp

theorem r8_keep_main_v3 : StableHlo.after (c8 (F := Ideal)) W (Proc.devRef .tc main_v3) = W (Proc.devRef .tc main_v3) := by
  after_results_simp

theorem r8_keep_main_v5 : StableHlo.after (c8 (F := Ideal)) W (Proc.devRef .tc main_v5) = W (Proc.devRef .tc main_v5) := by
  after_results_simp

theorem r8_keep_main_v7 : StableHlo.after (c8 (F := Ideal)) W (Proc.devRef .tc main_v7) = W (Proc.devRef .tc main_v7) := by
  after_results_simp

theorem r8_keep_main_v16 : StableHlo.after (c8 (F := Ideal)) W (Proc.devRef .tc main_v16) = W (Proc.devRef .tc main_v16) := by
  after_results_simp

theorem r8_keep_main_arg0 : StableHlo.after (c8 (F := Ideal)) W (Proc.devRef .tc main_arg0) = W (Proc.devRef .tc main_arg0) := by
  after_results_simp

theorem r8_keep_main_arg1 : StableHlo.after (c8 (F := Ideal)) W (Proc.devRef .tc main_arg1) = W (Proc.devRef .tc main_arg1) := by
  after_results_simp

theorem r8_keep_main_arg2 : StableHlo.after (c8 (F := Ideal)) W (Proc.devRef .tc main_arg2) = W (Proc.devRef .tc main_arg2) := by
  after_results_simp

theorem r8_keep_main_arg3 : StableHlo.after (c8 (F := Ideal)) W (Proc.devRef .tc main_arg3) = W (Proc.devRef .tc main_arg3) := by
  after_results_simp

theorem r8_keep_main_arg4 : StableHlo.after (c8 (F := Ideal)) W (Proc.devRef .tc main_arg4) = W (Proc.devRef .tc main_arg4) := by
  after_results_simp

theorem r8_keep_main_arg5 : StableHlo.after (c8 (F := Ideal)) W (Proc.devRef .tc main_arg5) = W (Proc.devRef .tc main_arg5) := by
  after_results_simp

theorem r8_keep_main_arg6 : StableHlo.after (c8 (F := Ideal)) W (Proc.devRef .tc main_arg6) = W (Proc.devRef .tc main_arg6) := by
  after_results_simp

theorem r8_keep_main_arg7 : StableHlo.after (c8 (F := Ideal)) W (Proc.devRef .tc main_arg7) = W (Proc.devRef .tc main_arg7) := by
  after_results_simp

theorem r8_keep_main_arg8 : StableHlo.after (c8 (F := Ideal)) W (Proc.devRef .tc main_arg8) = W (Proc.devRef .tc main_arg8) := by
  after_results_simp

theorem r8_keep_main_arg9 : StableHlo.after (c8 (F := Ideal)) W (Proc.devRef .tc main_arg9) = W (Proc.devRef .tc main_arg9) := by
  after_results_simp

theorem r8_keep_main_arg10 : StableHlo.after (c8 (F := Ideal)) W (Proc.devRef .tc main_arg10) = W (Proc.devRef .tc main_arg10) := by
  after_results_simp

theorem r8_keep_main_arg11 : StableHlo.after (c8 (F := Ideal)) W (Proc.devRef .tc main_arg11) = W (Proc.devRef .tc main_arg11) := by
  after_results_simp

theorem r8_keep_main_arg12 : StableHlo.after (c8 (F := Ideal)) W (Proc.devRef .tc main_arg12) = W (Proc.devRef .tc main_arg12) := by
  after_results_simp

theorem r8_keep_main_arg13 : StableHlo.after (c8 (F := Ideal)) W (Proc.devRef .tc main_arg13) = W (Proc.devRef .tc main_arg13) := by
  after_results_simp

theorem r8_keep_main_arg14 : StableHlo.after (c8 (F := Ideal)) W (Proc.devRef .tc main_arg14) = W (Proc.devRef .tc main_arg14) := by
  after_results_simp

theorem r8_keep_main_arg15 : StableHlo.after (c8 (F := Ideal)) W (Proc.devRef .tc main_arg15) = W (Proc.devRef .tc main_arg15) := by
  after_results_simp

theorem r8_keep_main_arg16 : StableHlo.after (c8 (F := Ideal)) W (Proc.devRef .tc main_arg16) = W (Proc.devRef .tc main_arg16) := by
  after_results_simp

theorem r8_keep_main_arg17 : StableHlo.after (c8 (F := Ideal)) W (Proc.devRef .tc main_arg17) = W (Proc.devRef .tc main_arg17) := by
  after_results_simp

theorem r8_keep_main_arg18 : StableHlo.after (c8 (F := Ideal)) W (Proc.devRef .tc main_arg18) = W (Proc.devRef .tc main_arg18) := by
  after_results_simp

theorem r8_keep_main_arg19 : StableHlo.after (c8 (F := Ideal)) W (Proc.devRef .tc main_arg19) = W (Proc.devRef .tc main_arg19) := by
  after_results_simp

theorem r8_keep_main_arg20 : StableHlo.after (c8 (F := Ideal)) W (Proc.devRef .tc main_arg20) = W (Proc.devRef .tc main_arg20) := by
  after_results_simp

theorem r8_keep_main_arg21 : StableHlo.after (c8 (F := Ideal)) W (Proc.devRef .tc main_arg21) = W (Proc.devRef .tc main_arg21) := by
  after_results_simp

theorem r8_keep_main_arg22 : StableHlo.after (c8 (F := Ideal)) W (Proc.devRef .tc main_arg22) = W (Proc.devRef .tc main_arg22) := by
  after_results_simp

theorem r8_keep_main_arg23 : StableHlo.after (c8 (F := Ideal)) W (Proc.devRef .tc main_arg23) = W (Proc.devRef .tc main_arg23) := by
  after_results_simp

theorem r8_keep_main_arg24 : StableHlo.after (c8 (F := Ideal)) W (Proc.devRef .tc main_arg24) = W (Proc.devRef .tc main_arg24) := by
  after_results_simp

theorem r8_keep_main_arg25 : StableHlo.after (c8 (F := Ideal)) W (Proc.devRef .tc main_arg25) = W (Proc.devRef .tc main_arg25) := by
  after_results_simp

theorem r8_keep_main_arg26 : StableHlo.after (c8 (F := Ideal)) W (Proc.devRef .tc main_arg26) = W (Proc.devRef .tc main_arg26) := by
  after_results_simp

theorem r8_keep_main_arg27 : StableHlo.after (c8 (F := Ideal)) W (Proc.devRef .tc main_arg27) = W (Proc.devRef .tc main_arg27) := by
  after_results_simp

theorem r8_keep_main_arg28 : StableHlo.after (c8 (F := Ideal)) W (Proc.devRef .tc main_arg28) = W (Proc.devRef .tc main_arg28) := by
  after_results_simp

end Cert.ReferenceIdeal.ChainR

end
-- ==== Proof.ChainRef9.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r9_main_v60 (h_main_v59 : W (Proc.devRef .tc main_v59) = val_main_v59 (F := Ideal) x0 x1 x5 x6 x7 x8 x9 x10) :
    StableHlo.after (c9 (F := Ideal)) W (Proc.devRef .tc main_v60) = val_main_v60 (F := Ideal) x0 x1 x5 x6 x7 x8 x9 x10 := by
  after_results_simp
  try simp only [cast_eq]
  rw [h_main_v59]
  rfl

theorem r9_keep_main_v1 : StableHlo.after (c9 (F := Ideal)) W (Proc.devRef .tc main_v1) = W (Proc.devRef .tc main_v1) := by
  after_results_simp

theorem r9_keep_main_v3 : StableHlo.after (c9 (F := Ideal)) W (Proc.devRef .tc main_v3) = W (Proc.devRef .tc main_v3) := by
  after_results_simp

theorem r9_keep_main_v5 : StableHlo.after (c9 (F := Ideal)) W (Proc.devRef .tc main_v5) = W (Proc.devRef .tc main_v5) := by
  after_results_simp

theorem r9_keep_main_v7 : StableHlo.after (c9 (F := Ideal)) W (Proc.devRef .tc main_v7) = W (Proc.devRef .tc main_v7) := by
  after_results_simp

theorem r9_keep_main_v16 : StableHlo.after (c9 (F := Ideal)) W (Proc.devRef .tc main_v16) = W (Proc.devRef .tc main_v16) := by
  after_results_simp

theorem r9_keep_main_arg0 : StableHlo.after (c9 (F := Ideal)) W (Proc.devRef .tc main_arg0) = W (Proc.devRef .tc main_arg0) := by
  after_results_simp

theorem r9_keep_main_arg1 : StableHlo.after (c9 (F := Ideal)) W (Proc.devRef .tc main_arg1) = W (Proc.devRef .tc main_arg1) := by
  after_results_simp

theorem r9_keep_main_arg2 : StableHlo.after (c9 (F := Ideal)) W (Proc.devRef .tc main_arg2) = W (Proc.devRef .tc main_arg2) := by
  after_results_simp

theorem r9_keep_main_arg3 : StableHlo.after (c9 (F := Ideal)) W (Proc.devRef .tc main_arg3) = W (Proc.devRef .tc main_arg3) := by
  after_results_simp

theorem r9_keep_main_arg4 : StableHlo.after (c9 (F := Ideal)) W (Proc.devRef .tc main_arg4) = W (Proc.devRef .tc main_arg4) := by
  after_results_simp

theorem r9_keep_main_arg5 : StableHlo.after (c9 (F := Ideal)) W (Proc.devRef .tc main_arg5) = W (Proc.devRef .tc main_arg5) := by
  after_results_simp

theorem r9_keep_main_arg6 : StableHlo.after (c9 (F := Ideal)) W (Proc.devRef .tc main_arg6) = W (Proc.devRef .tc main_arg6) := by
  after_results_simp

theorem r9_keep_main_arg7 : StableHlo.after (c9 (F := Ideal)) W (Proc.devRef .tc main_arg7) = W (Proc.devRef .tc main_arg7) := by
  after_results_simp

theorem r9_keep_main_arg8 : StableHlo.after (c9 (F := Ideal)) W (Proc.devRef .tc main_arg8) = W (Proc.devRef .tc main_arg8) := by
  after_results_simp

theorem r9_keep_main_arg9 : StableHlo.after (c9 (F := Ideal)) W (Proc.devRef .tc main_arg9) = W (Proc.devRef .tc main_arg9) := by
  after_results_simp

theorem r9_keep_main_arg10 : StableHlo.after (c9 (F := Ideal)) W (Proc.devRef .tc main_arg10) = W (Proc.devRef .tc main_arg10) := by
  after_results_simp

theorem r9_keep_main_arg11 : StableHlo.after (c9 (F := Ideal)) W (Proc.devRef .tc main_arg11) = W (Proc.devRef .tc main_arg11) := by
  after_results_simp

theorem r9_keep_main_arg12 : StableHlo.after (c9 (F := Ideal)) W (Proc.devRef .tc main_arg12) = W (Proc.devRef .tc main_arg12) := by
  after_results_simp

theorem r9_keep_main_arg13 : StableHlo.after (c9 (F := Ideal)) W (Proc.devRef .tc main_arg13) = W (Proc.devRef .tc main_arg13) := by
  after_results_simp

theorem r9_keep_main_arg14 : StableHlo.after (c9 (F := Ideal)) W (Proc.devRef .tc main_arg14) = W (Proc.devRef .tc main_arg14) := by
  after_results_simp

theorem r9_keep_main_arg15 : StableHlo.after (c9 (F := Ideal)) W (Proc.devRef .tc main_arg15) = W (Proc.devRef .tc main_arg15) := by
  after_results_simp

theorem r9_keep_main_arg16 : StableHlo.after (c9 (F := Ideal)) W (Proc.devRef .tc main_arg16) = W (Proc.devRef .tc main_arg16) := by
  after_results_simp

theorem r9_keep_main_arg17 : StableHlo.after (c9 (F := Ideal)) W (Proc.devRef .tc main_arg17) = W (Proc.devRef .tc main_arg17) := by
  after_results_simp

theorem r9_keep_main_arg18 : StableHlo.after (c9 (F := Ideal)) W (Proc.devRef .tc main_arg18) = W (Proc.devRef .tc main_arg18) := by
  after_results_simp

theorem r9_keep_main_arg19 : StableHlo.after (c9 (F := Ideal)) W (Proc.devRef .tc main_arg19) = W (Proc.devRef .tc main_arg19) := by
  after_results_simp

theorem r9_keep_main_arg20 : StableHlo.after (c9 (F := Ideal)) W (Proc.devRef .tc main_arg20) = W (Proc.devRef .tc main_arg20) := by
  after_results_simp

theorem r9_keep_main_arg21 : StableHlo.after (c9 (F := Ideal)) W (Proc.devRef .tc main_arg21) = W (Proc.devRef .tc main_arg21) := by
  after_results_simp

theorem r9_keep_main_arg22 : StableHlo.after (c9 (F := Ideal)) W (Proc.devRef .tc main_arg22) = W (Proc.devRef .tc main_arg22) := by
  after_results_simp

theorem r9_keep_main_arg23 : StableHlo.after (c9 (F := Ideal)) W (Proc.devRef .tc main_arg23) = W (Proc.devRef .tc main_arg23) := by
  after_results_simp

theorem r9_keep_main_arg24 : StableHlo.after (c9 (F := Ideal)) W (Proc.devRef .tc main_arg24) = W (Proc.devRef .tc main_arg24) := by
  after_results_simp

theorem r9_keep_main_arg25 : StableHlo.after (c9 (F := Ideal)) W (Proc.devRef .tc main_arg25) = W (Proc.devRef .tc main_arg25) := by
  after_results_simp

theorem r9_keep_main_arg26 : StableHlo.after (c9 (F := Ideal)) W (Proc.devRef .tc main_arg26) = W (Proc.devRef .tc main_arg26) := by
  after_results_simp

theorem r9_keep_main_arg27 : StableHlo.after (c9 (F := Ideal)) W (Proc.devRef .tc main_arg27) = W (Proc.devRef .tc main_arg27) := by
  after_results_simp

theorem r9_keep_main_arg28 : StableHlo.after (c9 (F := Ideal)) W (Proc.devRef .tc main_arg28) = W (Proc.devRef .tc main_arg28) := by
  after_results_simp

end Cert.ReferenceIdeal.ChainR

end
-- ==== Proof.ChainRef10.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r10_main_v62 (h_main_v5 : W (Proc.devRef .tc main_v5) = val_main_v5 (F := Ideal) x2) :
    StableHlo.after (c10 (F := Ideal)) W (Proc.devRef .tc main_v62) = val_main_v62 (F := Ideal) x2 := by
  after_results_simp
  try simp only [cast_eq]
  rw [h_main_v5]
  rfl

theorem r10_main_v63 (h_main_v7 : W (Proc.devRef .tc main_v7) = val_main_v7 (F := Ideal) x2) :
    StableHlo.after (c10 (F := Ideal)) W (Proc.devRef .tc main_v63) = val_main_v63 (F := Ideal) x2 := by
  after_results_simp
  try simp only [cast_eq]
  rw [h_main_v7]
  rfl

theorem r10_main_v69 (h_main_v7 : W (Proc.devRef .tc main_v7) = val_main_v7 (F := Ideal) x2) :
    StableHlo.after (c10 (F := Ideal)) W (Proc.devRef .tc main_v69) = val_main_v69 (F := Ideal) x2 := by
  after_results_simp
  try simp only [cast_eq]
  rw [h_main_v7]
  rfl

theorem r10_main_v70 (h_main_v7 : W (Proc.devRef .tc main_v7) = val_main_v7 (F := Ideal) x2) :
    StableHlo.after (c10 (F := Ideal)) W (Proc.devRef .tc main_v70) = val_main_v70 (F := Ideal) x2 := by
  after_results_simp
  try simp only [cast_eq]
  rw [h_main_v7]
  rfl

theorem r10_main_cst_12  :
    StableHlo.after (c10 (F := Ideal)) W (Proc.devRef .tc main_cst_12) = val_main_cst_12 (F := Ideal) := by
  after_results_simp
  try simp only [cast_eq]
  rfl

theorem r10_keep_main_v1 : StableHlo.after (c10 (F := Ideal)) W (Proc.devRef .tc main_v1) = W (Proc.devRef .tc main_v1) := by
  after_results_simp

theorem r10_keep_main_v3 : StableHlo.after (c10 (F := Ideal)) W (Proc.devRef .tc main_v3) = W (Proc.devRef .tc main_v3) := by
  after_results_simp

theorem r10_keep_main_v5 : StableHlo.after (c10 (F := Ideal)) W (Proc.devRef .tc main_v5) = W (Proc.devRef .tc main_v5) := by
  after_results_simp

theorem r10_keep_main_v7 : StableHlo.after (c10 (F := Ideal)) W (Proc.devRef .tc main_v7) = W (Proc.devRef .tc main_v7) := by
  after_results_simp

theorem r10_keep_main_v16 : StableHlo.after (c10 (F := Ideal)) W (Proc.devRef .tc main_v16) = W (Proc.devRef .tc main_v16) := by
  after_results_simp

theorem r10_keep_main_v60 : StableHlo.after (c10 (F := Ideal)) W (Proc.devRef .tc main_v60) = W (Proc.devRef .tc main_v60) := by
  after_results_simp

theorem r10_keep_main_arg0 : StableHlo.after (c10 (F := Ideal)) W (Proc.devRef .tc main_arg0) = W (Proc.devRef .tc main_arg0) := by
  after_results_simp

theorem r10_keep_main_arg1 : StableHlo.after (c10 (F := Ideal)) W (Proc.devRef .tc main_arg1) = W (Proc.devRef .tc main_arg1) := by
  after_results_simp

theorem r10_keep_main_arg2 : StableHlo.after (c10 (F := Ideal)) W (Proc.devRef .tc main_arg2) = W (Proc.devRef .tc main_arg2) := by
  after_results_simp

theorem r10_keep_main_arg3 : StableHlo.after (c10 (F := Ideal)) W (Proc.devRef .tc main_arg3) = W (Proc.devRef .tc main_arg3) := by
  after_results_simp

theorem r10_keep_main_arg4 : StableHlo.after (c10 (F := Ideal)) W (Proc.devRef .tc main_arg4) = W (Proc.devRef .tc main_arg4) := by
  after_results_simp

theorem r10_keep_main_arg5 : StableHlo.after (c10 (F := Ideal)) W (Proc.devRef .tc main_arg5) = W (Proc.devRef .tc main_arg5) := by
  after_results_simp

theorem r10_keep_main_arg6 : StableHlo.after (c10 (F := Ideal)) W (Proc.devRef .tc main_arg6) = W (Proc.devRef .tc main_arg6) := by
  after_results_simp

theorem r10_keep_main_arg7 : StableHlo.after (c10 (F := Ideal)) W (Proc.devRef .tc main_arg7) = W (Proc.devRef .tc main_arg7) := by
  after_results_simp

theorem r10_keep_main_arg8 : StableHlo.after (c10 (F := Ideal)) W (Proc.devRef .tc main_arg8) = W (Proc.devRef .tc main_arg8) := by
  after_results_simp

theorem r10_keep_main_arg9 : StableHlo.after (c10 (F := Ideal)) W (Proc.devRef .tc main_arg9) = W (Proc.devRef .tc main_arg9) := by
  after_results_simp

theorem r10_keep_main_arg10 : StableHlo.after (c10 (F := Ideal)) W (Proc.devRef .tc main_arg10) = W (Proc.devRef .tc main_arg10) := by
  after_results_simp

theorem r10_keep_main_arg11 : StableHlo.after (c10 (F := Ideal)) W (Proc.devRef .tc main_arg11) = W (Proc.devRef .tc main_arg11) := by
  after_results_simp

theorem r10_keep_main_arg12 : StableHlo.after (c10 (F := Ideal)) W (Proc.devRef .tc main_arg12) = W (Proc.devRef .tc main_arg12) := by
  after_results_simp

theorem r10_keep_main_arg13 : StableHlo.after (c10 (F := Ideal)) W (Proc.devRef .tc main_arg13) = W (Proc.devRef .tc main_arg13) := by
  after_results_simp

theorem r10_keep_main_arg14 : StableHlo.after (c10 (F := Ideal)) W (Proc.devRef .tc main_arg14) = W (Proc.devRef .tc main_arg14) := by
  after_results_simp

theorem r10_keep_main_arg15 : StableHlo.after (c10 (F := Ideal)) W (Proc.devRef .tc main_arg15) = W (Proc.devRef .tc main_arg15) := by
  after_results_simp

theorem r10_keep_main_arg16 : StableHlo.after (c10 (F := Ideal)) W (Proc.devRef .tc main_arg16) = W (Proc.devRef .tc main_arg16) := by
  after_results_simp

theorem r10_keep_main_arg17 : StableHlo.after (c10 (F := Ideal)) W (Proc.devRef .tc main_arg17) = W (Proc.devRef .tc main_arg17) := by
  after_results_simp

theorem r10_keep_main_arg18 : StableHlo.after (c10 (F := Ideal)) W (Proc.devRef .tc main_arg18) = W (Proc.devRef .tc main_arg18) := by
  after_results_simp

theorem r10_keep_main_arg19 : StableHlo.after (c10 (F := Ideal)) W (Proc.devRef .tc main_arg19) = W (Proc.devRef .tc main_arg19) := by
  after_results_simp

theorem r10_keep_main_arg20 : StableHlo.after (c10 (F := Ideal)) W (Proc.devRef .tc main_arg20) = W (Proc.devRef .tc main_arg20) := by
  after_results_simp

theorem r10_keep_main_arg21 : StableHlo.after (c10 (F := Ideal)) W (Proc.devRef .tc main_arg21) = W (Proc.devRef .tc main_arg21) := by
  after_results_simp

theorem r10_keep_main_arg22 : StableHlo.after (c10 (F := Ideal)) W (Proc.devRef .tc main_arg22) = W (Proc.devRef .tc main_arg22) := by
  after_results_simp

theorem r10_keep_main_arg23 : StableHlo.after (c10 (F := Ideal)) W (Proc.devRef .tc main_arg23) = W (Proc.devRef .tc main_arg23) := by
  after_results_simp

theorem r10_keep_main_arg24 : StableHlo.after (c10 (F := Ideal)) W (Proc.devRef .tc main_arg24) = W (Proc.devRef .tc main_arg24) := by
  after_results_simp

theorem r10_keep_main_arg25 : StableHlo.after (c10 (F := Ideal)) W (Proc.devRef .tc main_arg25) = W (Proc.devRef .tc main_arg25) := by
  after_results_simp

theorem r10_keep_main_arg26 : StableHlo.after (c10 (F := Ideal)) W (Proc.devRef .tc main_arg26) = W (Proc.devRef .tc main_arg26) := by
  after_results_simp

theorem r10_keep_main_arg27 : StableHlo.after (c10 (F := Ideal)) W (Proc.devRef .tc main_arg27) = W (Proc.devRef .tc main_arg27) := by
  after_results_simp

theorem r10_keep_main_arg28 : StableHlo.after (c10 (F := Ideal)) W (Proc.devRef .tc main_arg28) = W (Proc.devRef .tc main_arg28) := by
  after_results_simp

end Cert.ReferenceIdeal.ChainR

end
-- ==== Proof.ChainRef11.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r11_main_v71 (h_main_v69 : W (Proc.devRef .tc main_v69) = val_main_v69 (F := Ideal) x2) (h_main_v70 : W (Proc.devRef .tc main_v70) = val_main_v70 (F := Ideal) x2) (h_main_cst_12 : W (Proc.devRef .tc main_cst_12) = val_main_cst_12 (F := Ideal)) :
    StableHlo.after (c11 (F := Ideal)) W (Proc.devRef .tc main_v71) = val_main_v71 (F := Ideal) x2 := by
  after_results_simp
  try simp only [cast_eq]
  rw [h_main_v69, h_main_v70, h_main_cst_12]
  rfl

theorem r11_keep_main_v1 : StableHlo.after (c11 (F := Ideal)) W (Proc.devRef .tc main_v1) = W (Proc.devRef .tc main_v1) := by
  after_results_simp

theorem r11_keep_main_v3 : StableHlo.after (c11 (F := Ideal)) W (Proc.devRef .tc main_v3) = W (Proc.devRef .tc main_v3) := by
  after_results_simp

theorem r11_keep_main_v5 : StableHlo.after (c11 (F := Ideal)) W (Proc.devRef .tc main_v5) = W (Proc.devRef .tc main_v5) := by
  after_results_simp

theorem r11_keep_main_v7 : StableHlo.after (c11 (F := Ideal)) W (Proc.devRef .tc main_v7) = W (Proc.devRef .tc main_v7) := by
  after_results_simp

theorem r11_keep_main_v16 : StableHlo.after (c11 (F := Ideal)) W (Proc.devRef .tc main_v16) = W (Proc.devRef .tc main_v16) := by
  after_results_simp

theorem r11_keep_main_v60 : StableHlo.after (c11 (F := Ideal)) W (Proc.devRef .tc main_v60) = W (Proc.devRef .tc main_v60) := by
  after_results_simp

theorem r11_keep_main_v62 : StableHlo.after (c11 (F := Ideal)) W (Proc.devRef .tc main_v62) = W (Proc.devRef .tc main_v62) := by
  after_results_simp

theorem r11_keep_main_v63 : StableHlo.after (c11 (F := Ideal)) W (Proc.devRef .tc main_v63) = W (Proc.devRef .tc main_v63) := by
  after_results_simp

theorem r11_keep_main_arg0 : StableHlo.after (c11 (F := Ideal)) W (Proc.devRef .tc main_arg0) = W (Proc.devRef .tc main_arg0) := by
  after_results_simp

theorem r11_keep_main_arg1 : StableHlo.after (c11 (F := Ideal)) W (Proc.devRef .tc main_arg1) = W (Proc.devRef .tc main_arg1) := by
  after_results_simp

theorem r11_keep_main_arg2 : StableHlo.after (c11 (F := Ideal)) W (Proc.devRef .tc main_arg2) = W (Proc.devRef .tc main_arg2) := by
  after_results_simp

theorem r11_keep_main_arg3 : StableHlo.after (c11 (F := Ideal)) W (Proc.devRef .tc main_arg3) = W (Proc.devRef .tc main_arg3) := by
  after_results_simp

theorem r11_keep_main_arg4 : StableHlo.after (c11 (F := Ideal)) W (Proc.devRef .tc main_arg4) = W (Proc.devRef .tc main_arg4) := by
  after_results_simp

theorem r11_keep_main_arg5 : StableHlo.after (c11 (F := Ideal)) W (Proc.devRef .tc main_arg5) = W (Proc.devRef .tc main_arg5) := by
  after_results_simp

theorem r11_keep_main_arg6 : StableHlo.after (c11 (F := Ideal)) W (Proc.devRef .tc main_arg6) = W (Proc.devRef .tc main_arg6) := by
  after_results_simp

theorem r11_keep_main_arg7 : StableHlo.after (c11 (F := Ideal)) W (Proc.devRef .tc main_arg7) = W (Proc.devRef .tc main_arg7) := by
  after_results_simp

theorem r11_keep_main_arg8 : StableHlo.after (c11 (F := Ideal)) W (Proc.devRef .tc main_arg8) = W (Proc.devRef .tc main_arg8) := by
  after_results_simp

theorem r11_keep_main_arg9 : StableHlo.after (c11 (F := Ideal)) W (Proc.devRef .tc main_arg9) = W (Proc.devRef .tc main_arg9) := by
  after_results_simp

theorem r11_keep_main_arg10 : StableHlo.after (c11 (F := Ideal)) W (Proc.devRef .tc main_arg10) = W (Proc.devRef .tc main_arg10) := by
  after_results_simp

theorem r11_keep_main_arg11 : StableHlo.after (c11 (F := Ideal)) W (Proc.devRef .tc main_arg11) = W (Proc.devRef .tc main_arg11) := by
  after_results_simp

theorem r11_keep_main_arg12 : StableHlo.after (c11 (F := Ideal)) W (Proc.devRef .tc main_arg12) = W (Proc.devRef .tc main_arg12) := by
  after_results_simp

theorem r11_keep_main_arg13 : StableHlo.after (c11 (F := Ideal)) W (Proc.devRef .tc main_arg13) = W (Proc.devRef .tc main_arg13) := by
  after_results_simp

theorem r11_keep_main_arg14 : StableHlo.after (c11 (F := Ideal)) W (Proc.devRef .tc main_arg14) = W (Proc.devRef .tc main_arg14) := by
  after_results_simp

theorem r11_keep_main_arg15 : StableHlo.after (c11 (F := Ideal)) W (Proc.devRef .tc main_arg15) = W (Proc.devRef .tc main_arg15) := by
  after_results_simp

theorem r11_keep_main_arg16 : StableHlo.after (c11 (F := Ideal)) W (Proc.devRef .tc main_arg16) = W (Proc.devRef .tc main_arg16) := by
  after_results_simp

theorem r11_keep_main_arg17 : StableHlo.after (c11 (F := Ideal)) W (Proc.devRef .tc main_arg17) = W (Proc.devRef .tc main_arg17) := by
  after_results_simp

theorem r11_keep_main_arg18 : StableHlo.after (c11 (F := Ideal)) W (Proc.devRef .tc main_arg18) = W (Proc.devRef .tc main_arg18) := by
  after_results_simp

theorem r11_keep_main_arg19 : StableHlo.after (c11 (F := Ideal)) W (Proc.devRef .tc main_arg19) = W (Proc.devRef .tc main_arg19) := by
  after_results_simp

theorem r11_keep_main_arg20 : StableHlo.after (c11 (F := Ideal)) W (Proc.devRef .tc main_arg20) = W (Proc.devRef .tc main_arg20) := by
  after_results_simp

theorem r11_keep_main_arg21 : StableHlo.after (c11 (F := Ideal)) W (Proc.devRef .tc main_arg21) = W (Proc.devRef .tc main_arg21) := by
  after_results_simp

theorem r11_keep_main_arg22 : StableHlo.after (c11 (F := Ideal)) W (Proc.devRef .tc main_arg22) = W (Proc.devRef .tc main_arg22) := by
  after_results_simp

theorem r11_keep_main_arg23 : StableHlo.after (c11 (F := Ideal)) W (Proc.devRef .tc main_arg23) = W (Proc.devRef .tc main_arg23) := by
  after_results_simp

theorem r11_keep_main_arg24 : StableHlo.after (c11 (F := Ideal)) W (Proc.devRef .tc main_arg24) = W (Proc.devRef .tc main_arg24) := by
  after_results_simp

theorem r11_keep_main_arg25 : StableHlo.after (c11 (F := Ideal)) W (Proc.devRef .tc main_arg25) = W (Proc.devRef .tc main_arg25) := by
  after_results_simp

theorem r11_keep_main_arg26 : StableHlo.after (c11 (F := Ideal)) W (Proc.devRef .tc main_arg26) = W (Proc.devRef .tc main_arg26) := by
  after_results_simp

theorem r11_keep_main_arg27 : StableHlo.after (c11 (F := Ideal)) W (Proc.devRef .tc main_arg27) = W (Proc.devRef .tc main_arg27) := by
  after_results_simp

theorem r11_keep_main_arg28 : StableHlo.after (c11 (F := Ideal)) W (Proc.devRef .tc main_arg28) = W (Proc.devRef .tc main_arg28) := by
  after_results_simp

end Cert.ReferenceIdeal.ChainR

end
-- ==== Proof.ChainRef12.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r12_main_v86 (h_main_v71 : W (Proc.devRef .tc main_v71) = val_main_v71 (F := Ideal) x2) (h_main_v62 : W (Proc.devRef .tc main_v62) = val_main_v62 (F := Ideal) x2) (h_main_v63 : W (Proc.devRef .tc main_v63) = val_main_v63 (F := Ideal) x2) :
    StableHlo.after (c12 (F := Ideal)) W (Proc.devRef .tc main_v86) = val_main_v86 (F := Ideal) x2 := by
  after_results_simp
  try simp only [cast_eq]
  rw [h_main_v71, h_main_v62, h_main_v63]
  rfl

theorem r12_keep_main_v1 : StableHlo.after (c12 (F := Ideal)) W (Proc.devRef .tc main_v1) = W (Proc.devRef .tc main_v1) := by
  after_results_simp

theorem r12_keep_main_v3 : StableHlo.after (c12 (F := Ideal)) W (Proc.devRef .tc main_v3) = W (Proc.devRef .tc main_v3) := by
  after_results_simp

theorem r12_keep_main_v5 : StableHlo.after (c12 (F := Ideal)) W (Proc.devRef .tc main_v5) = W (Proc.devRef .tc main_v5) := by
  after_results_simp

theorem r12_keep_main_v7 : StableHlo.after (c12 (F := Ideal)) W (Proc.devRef .tc main_v7) = W (Proc.devRef .tc main_v7) := by
  after_results_simp

theorem r12_keep_main_v16 : StableHlo.after (c12 (F := Ideal)) W (Proc.devRef .tc main_v16) = W (Proc.devRef .tc main_v16) := by
  after_results_simp

theorem r12_keep_main_v60 : StableHlo.after (c12 (F := Ideal)) W (Proc.devRef .tc main_v60) = W (Proc.devRef .tc main_v60) := by
  after_results_simp

theorem r12_keep_main_v62 : StableHlo.after (c12 (F := Ideal)) W (Proc.devRef .tc main_v62) = W (Proc.devRef .tc main_v62) := by
  after_results_simp

theorem r12_keep_main_v63 : StableHlo.after (c12 (F := Ideal)) W (Proc.devRef .tc main_v63) = W (Proc.devRef .tc main_v63) := by
  after_results_simp

theorem r12_keep_main_arg0 : StableHlo.after (c12 (F := Ideal)) W (Proc.devRef .tc main_arg0) = W (Proc.devRef .tc main_arg0) := by
  after_results_simp

theorem r12_keep_main_arg1 : StableHlo.after (c12 (F := Ideal)) W (Proc.devRef .tc main_arg1) = W (Proc.devRef .tc main_arg1) := by
  after_results_simp

theorem r12_keep_main_arg2 : StableHlo.after (c12 (F := Ideal)) W (Proc.devRef .tc main_arg2) = W (Proc.devRef .tc main_arg2) := by
  after_results_simp

theorem r12_keep_main_arg3 : StableHlo.after (c12 (F := Ideal)) W (Proc.devRef .tc main_arg3) = W (Proc.devRef .tc main_arg3) := by
  after_results_simp

theorem r12_keep_main_arg4 : StableHlo.after (c12 (F := Ideal)) W (Proc.devRef .tc main_arg4) = W (Proc.devRef .tc main_arg4) := by
  after_results_simp

theorem r12_keep_main_arg5 : StableHlo.after (c12 (F := Ideal)) W (Proc.devRef .tc main_arg5) = W (Proc.devRef .tc main_arg5) := by
  after_results_simp

theorem r12_keep_main_arg6 : StableHlo.after (c12 (F := Ideal)) W (Proc.devRef .tc main_arg6) = W (Proc.devRef .tc main_arg6) := by
  after_results_simp

theorem r12_keep_main_arg7 : StableHlo.after (c12 (F := Ideal)) W (Proc.devRef .tc main_arg7) = W (Proc.devRef .tc main_arg7) := by
  after_results_simp

theorem r12_keep_main_arg8 : StableHlo.after (c12 (F := Ideal)) W (Proc.devRef .tc main_arg8) = W (Proc.devRef .tc main_arg8) := by
  after_results_simp

theorem r12_keep_main_arg9 : StableHlo.after (c12 (F := Ideal)) W (Proc.devRef .tc main_arg9) = W (Proc.devRef .tc main_arg9) := by
  after_results_simp

theorem r12_keep_main_arg10 : StableHlo.after (c12 (F := Ideal)) W (Proc.devRef .tc main_arg10) = W (Proc.devRef .tc main_arg10) := by
  after_results_simp

theorem r12_keep_main_arg11 : StableHlo.after (c12 (F := Ideal)) W (Proc.devRef .tc main_arg11) = W (Proc.devRef .tc main_arg11) := by
  after_results_simp

theorem r12_keep_main_arg12 : StableHlo.after (c12 (F := Ideal)) W (Proc.devRef .tc main_arg12) = W (Proc.devRef .tc main_arg12) := by
  after_results_simp

theorem r12_keep_main_arg13 : StableHlo.after (c12 (F := Ideal)) W (Proc.devRef .tc main_arg13) = W (Proc.devRef .tc main_arg13) := by
  after_results_simp

theorem r12_keep_main_arg14 : StableHlo.after (c12 (F := Ideal)) W (Proc.devRef .tc main_arg14) = W (Proc.devRef .tc main_arg14) := by
  after_results_simp

theorem r12_keep_main_arg15 : StableHlo.after (c12 (F := Ideal)) W (Proc.devRef .tc main_arg15) = W (Proc.devRef .tc main_arg15) := by
  after_results_simp

theorem r12_keep_main_arg16 : StableHlo.after (c12 (F := Ideal)) W (Proc.devRef .tc main_arg16) = W (Proc.devRef .tc main_arg16) := by
  after_results_simp

theorem r12_keep_main_arg17 : StableHlo.after (c12 (F := Ideal)) W (Proc.devRef .tc main_arg17) = W (Proc.devRef .tc main_arg17) := by
  after_results_simp

theorem r12_keep_main_arg18 : StableHlo.after (c12 (F := Ideal)) W (Proc.devRef .tc main_arg18) = W (Proc.devRef .tc main_arg18) := by
  after_results_simp

theorem r12_keep_main_arg19 : StableHlo.after (c12 (F := Ideal)) W (Proc.devRef .tc main_arg19) = W (Proc.devRef .tc main_arg19) := by
  after_results_simp

theorem r12_keep_main_arg20 : StableHlo.after (c12 (F := Ideal)) W (Proc.devRef .tc main_arg20) = W (Proc.devRef .tc main_arg20) := by
  after_results_simp

theorem r12_keep_main_arg21 : StableHlo.after (c12 (F := Ideal)) W (Proc.devRef .tc main_arg21) = W (Proc.devRef .tc main_arg21) := by
  after_results_simp

theorem r12_keep_main_arg22 : StableHlo.after (c12 (F := Ideal)) W (Proc.devRef .tc main_arg22) = W (Proc.devRef .tc main_arg22) := by
  after_results_simp

theorem r12_keep_main_arg23 : StableHlo.after (c12 (F := Ideal)) W (Proc.devRef .tc main_arg23) = W (Proc.devRef .tc main_arg23) := by
  after_results_simp

theorem r12_keep_main_arg24 : StableHlo.after (c12 (F := Ideal)) W (Proc.devRef .tc main_arg24) = W (Proc.devRef .tc main_arg24) := by
  after_results_simp

theorem r12_keep_main_arg25 : StableHlo.after (c12 (F := Ideal)) W (Proc.devRef .tc main_arg25) = W (Proc.devRef .tc main_arg25) := by
  after_results_simp

theorem r12_keep_main_arg26 : StableHlo.after (c12 (F := Ideal)) W (Proc.devRef .tc main_arg26) = W (Proc.devRef .tc main_arg26) := by
  after_results_simp

theorem r12_keep_main_arg27 : StableHlo.after (c12 (F := Ideal)) W (Proc.devRef .tc main_arg27) = W (Proc.devRef .tc main_arg27) := by
  after_results_simp

theorem r12_keep_main_arg28 : StableHlo.after (c12 (F := Ideal)) W (Proc.devRef .tc main_arg28) = W (Proc.devRef .tc main_arg28) := by
  after_results_simp

end Cert.ReferenceIdeal.ChainR

end
-- ==== Proof.ChainRef13.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r13_main_v87 (h_main_v16 : W (Proc.devRef .tc main_v16) = val_main_v16 (F := Ideal) x0 x5 x6 x7 x8) (h_main_arg11 : W (Proc.devRef .tc main_arg11) = x11) :
    StableHlo.after (c13 (F := Ideal)) W (Proc.devRef .tc main_v87) = val_main_v87 (F := Ideal) x0 x5 x6 x7 x8 x11 := by
  after_results_simp
  try simp only [cast_eq]
  rw [h_main_v16, h_main_arg11]
  rfl

theorem r13_keep_main_v1 : StableHlo.after (c13 (F := Ideal)) W (Proc.devRef .tc main_v1) = W (Proc.devRef .tc main_v1) := by
  after_results_simp

theorem r13_keep_main_v3 : StableHlo.after (c13 (F := Ideal)) W (Proc.devRef .tc main_v3) = W (Proc.devRef .tc main_v3) := by
  after_results_simp

theorem r13_keep_main_v5 : StableHlo.after (c13 (F := Ideal)) W (Proc.devRef .tc main_v5) = W (Proc.devRef .tc main_v5) := by
  after_results_simp

theorem r13_keep_main_v7 : StableHlo.after (c13 (F := Ideal)) W (Proc.devRef .tc main_v7) = W (Proc.devRef .tc main_v7) := by
  after_results_simp

theorem r13_keep_main_v60 : StableHlo.after (c13 (F := Ideal)) W (Proc.devRef .tc main_v60) = W (Proc.devRef .tc main_v60) := by
  after_results_simp

theorem r13_keep_main_v62 : StableHlo.after (c13 (F := Ideal)) W (Proc.devRef .tc main_v62) = W (Proc.devRef .tc main_v62) := by
  after_results_simp

theorem r13_keep_main_v63 : StableHlo.after (c13 (F := Ideal)) W (Proc.devRef .tc main_v63) = W (Proc.devRef .tc main_v63) := by
  after_results_simp

theorem r13_keep_main_v86 : StableHlo.after (c13 (F := Ideal)) W (Proc.devRef .tc main_v86) = W (Proc.devRef .tc main_v86) := by
  after_results_simp

theorem r13_keep_main_arg0 : StableHlo.after (c13 (F := Ideal)) W (Proc.devRef .tc main_arg0) = W (Proc.devRef .tc main_arg0) := by
  after_results_simp

theorem r13_keep_main_arg1 : StableHlo.after (c13 (F := Ideal)) W (Proc.devRef .tc main_arg1) = W (Proc.devRef .tc main_arg1) := by
  after_results_simp

theorem r13_keep_main_arg2 : StableHlo.after (c13 (F := Ideal)) W (Proc.devRef .tc main_arg2) = W (Proc.devRef .tc main_arg2) := by
  after_results_simp

theorem r13_keep_main_arg3 : StableHlo.after (c13 (F := Ideal)) W (Proc.devRef .tc main_arg3) = W (Proc.devRef .tc main_arg3) := by
  after_results_simp

theorem r13_keep_main_arg4 : StableHlo.after (c13 (F := Ideal)) W (Proc.devRef .tc main_arg4) = W (Proc.devRef .tc main_arg4) := by
  after_results_simp

theorem r13_keep_main_arg5 : StableHlo.after (c13 (F := Ideal)) W (Proc.devRef .tc main_arg5) = W (Proc.devRef .tc main_arg5) := by
  after_results_simp

theorem r13_keep_main_arg6 : StableHlo.after (c13 (F := Ideal)) W (Proc.devRef .tc main_arg6) = W (Proc.devRef .tc main_arg6) := by
  after_results_simp

theorem r13_keep_main_arg7 : StableHlo.after (c13 (F := Ideal)) W (Proc.devRef .tc main_arg7) = W (Proc.devRef .tc main_arg7) := by
  after_results_simp

theorem r13_keep_main_arg8 : StableHlo.after (c13 (F := Ideal)) W (Proc.devRef .tc main_arg8) = W (Proc.devRef .tc main_arg8) := by
  after_results_simp

theorem r13_keep_main_arg9 : StableHlo.after (c13 (F := Ideal)) W (Proc.devRef .tc main_arg9) = W (Proc.devRef .tc main_arg9) := by
  after_results_simp

theorem r13_keep_main_arg10 : StableHlo.after (c13 (F := Ideal)) W (Proc.devRef .tc main_arg10) = W (Proc.devRef .tc main_arg10) := by
  after_results_simp

theorem r13_keep_main_arg11 : StableHlo.after (c13 (F := Ideal)) W (Proc.devRef .tc main_arg11) = W (Proc.devRef .tc main_arg11) := by
  after_results_simp

theorem r13_keep_main_arg12 : StableHlo.after (c13 (F := Ideal)) W (Proc.devRef .tc main_arg12) = W (Proc.devRef .tc main_arg12) := by
  after_results_simp

theorem r13_keep_main_arg13 : StableHlo.after (c13 (F := Ideal)) W (Proc.devRef .tc main_arg13) = W (Proc.devRef .tc main_arg13) := by
  after_results_simp

theorem r13_keep_main_arg14 : StableHlo.after (c13 (F := Ideal)) W (Proc.devRef .tc main_arg14) = W (Proc.devRef .tc main_arg14) := by
  after_results_simp

theorem r13_keep_main_arg15 : StableHlo.after (c13 (F := Ideal)) W (Proc.devRef .tc main_arg15) = W (Proc.devRef .tc main_arg15) := by
  after_results_simp

theorem r13_keep_main_arg16 : StableHlo.after (c13 (F := Ideal)) W (Proc.devRef .tc main_arg16) = W (Proc.devRef .tc main_arg16) := by
  after_results_simp

theorem r13_keep_main_arg17 : StableHlo.after (c13 (F := Ideal)) W (Proc.devRef .tc main_arg17) = W (Proc.devRef .tc main_arg17) := by
  after_results_simp

theorem r13_keep_main_arg18 : StableHlo.after (c13 (F := Ideal)) W (Proc.devRef .tc main_arg18) = W (Proc.devRef .tc main_arg18) := by
  after_results_simp

theorem r13_keep_main_arg19 : StableHlo.after (c13 (F := Ideal)) W (Proc.devRef .tc main_arg19) = W (Proc.devRef .tc main_arg19) := by
  after_results_simp

theorem r13_keep_main_arg20 : StableHlo.after (c13 (F := Ideal)) W (Proc.devRef .tc main_arg20) = W (Proc.devRef .tc main_arg20) := by
  after_results_simp

theorem r13_keep_main_arg21 : StableHlo.after (c13 (F := Ideal)) W (Proc.devRef .tc main_arg21) = W (Proc.devRef .tc main_arg21) := by
  after_results_simp

theorem r13_keep_main_arg22 : StableHlo.after (c13 (F := Ideal)) W (Proc.devRef .tc main_arg22) = W (Proc.devRef .tc main_arg22) := by
  after_results_simp

theorem r13_keep_main_arg23 : StableHlo.after (c13 (F := Ideal)) W (Proc.devRef .tc main_arg23) = W (Proc.devRef .tc main_arg23) := by
  after_results_simp

theorem r13_keep_main_arg24 : StableHlo.after (c13 (F := Ideal)) W (Proc.devRef .tc main_arg24) = W (Proc.devRef .tc main_arg24) := by
  after_results_simp

theorem r13_keep_main_arg25 : StableHlo.after (c13 (F := Ideal)) W (Proc.devRef .tc main_arg25) = W (Proc.devRef .tc main_arg25) := by
  after_results_simp

theorem r13_keep_main_arg26 : StableHlo.after (c13 (F := Ideal)) W (Proc.devRef .tc main_arg26) = W (Proc.devRef .tc main_arg26) := by
  after_results_simp

theorem r13_keep_main_arg27 : StableHlo.after (c13 (F := Ideal)) W (Proc.devRef .tc main_arg27) = W (Proc.devRef .tc main_arg27) := by
  after_results_simp

theorem r13_keep_main_arg28 : StableHlo.after (c13 (F := Ideal)) W (Proc.devRef .tc main_arg28) = W (Proc.devRef .tc main_arg28) := by
  after_results_simp

end Cert.ReferenceIdeal.ChainR

end
-- ==== Proof.ChainRef14.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r14_main_v103 (h_main_v63 : W (Proc.devRef .tc main_v63) = val_main_v63 (F := Ideal) x2) (h_main_v87 : W (Proc.devRef .tc main_v87) = val_main_v87 (F := Ideal) x0 x5 x6 x7 x8 x11) (h_main_v62 : W (Proc.devRef .tc main_v62) = val_main_v62 (F := Ideal) x2) (h_main_v86 : W (Proc.devRef .tc main_v86) = val_main_v86 (F := Ideal) x2) (h_main_arg12 : W (Proc.devRef .tc main_arg12) = x12) :
    StableHlo.after (c14 (F := Ideal)) W (Proc.devRef .tc main_v103) = val_main_v103 (F := Ideal) x0 x2 x5 x6 x7 x8 x11 x12 := by
  after_results_simp
  try simp only [cast_eq]
  rw [h_main_v63, h_main_v87, h_main_v62, h_main_v86, h_main_arg12]
  rfl

theorem r14_keep_main_v1 : StableHlo.after (c14 (F := Ideal)) W (Proc.devRef .tc main_v1) = W (Proc.devRef .tc main_v1) := by
  after_results_simp

theorem r14_keep_main_v3 : StableHlo.after (c14 (F := Ideal)) W (Proc.devRef .tc main_v3) = W (Proc.devRef .tc main_v3) := by
  after_results_simp

theorem r14_keep_main_v5 : StableHlo.after (c14 (F := Ideal)) W (Proc.devRef .tc main_v5) = W (Proc.devRef .tc main_v5) := by
  after_results_simp

theorem r14_keep_main_v7 : StableHlo.after (c14 (F := Ideal)) W (Proc.devRef .tc main_v7) = W (Proc.devRef .tc main_v7) := by
  after_results_simp

theorem r14_keep_main_v60 : StableHlo.after (c14 (F := Ideal)) W (Proc.devRef .tc main_v60) = W (Proc.devRef .tc main_v60) := by
  after_results_simp

theorem r14_keep_main_arg0 : StableHlo.after (c14 (F := Ideal)) W (Proc.devRef .tc main_arg0) = W (Proc.devRef .tc main_arg0) := by
  after_results_simp

theorem r14_keep_main_arg1 : StableHlo.after (c14 (F := Ideal)) W (Proc.devRef .tc main_arg1) = W (Proc.devRef .tc main_arg1) := by
  after_results_simp

theorem r14_keep_main_arg2 : StableHlo.after (c14 (F := Ideal)) W (Proc.devRef .tc main_arg2) = W (Proc.devRef .tc main_arg2) := by
  after_results_simp

theorem r14_keep_main_arg3 : StableHlo.after (c14 (F := Ideal)) W (Proc.devRef .tc main_arg3) = W (Proc.devRef .tc main_arg3) := by
  after_results_simp

theorem r14_keep_main_arg4 : StableHlo.after (c14 (F := Ideal)) W (Proc.devRef .tc main_arg4) = W (Proc.devRef .tc main_arg4) := by
  after_results_simp

theorem r14_keep_main_arg5 : StableHlo.after (c14 (F := Ideal)) W (Proc.devRef .tc main_arg5) = W (Proc.devRef .tc main_arg5) := by
  after_results_simp

theorem r14_keep_main_arg6 : StableHlo.after (c14 (F := Ideal)) W (Proc.devRef .tc main_arg6) = W (Proc.devRef .tc main_arg6) := by
  after_results_simp

theorem r14_keep_main_arg7 : StableHlo.after (c14 (F := Ideal)) W (Proc.devRef .tc main_arg7) = W (Proc.devRef .tc main_arg7) := by
  after_results_simp

theorem r14_keep_main_arg8 : StableHlo.after (c14 (F := Ideal)) W (Proc.devRef .tc main_arg8) = W (Proc.devRef .tc main_arg8) := by
  after_results_simp

theorem r14_keep_main_arg9 : StableHlo.after (c14 (F := Ideal)) W (Proc.devRef .tc main_arg9) = W (Proc.devRef .tc main_arg9) := by
  after_results_simp

theorem r14_keep_main_arg10 : StableHlo.after (c14 (F := Ideal)) W (Proc.devRef .tc main_arg10) = W (Proc.devRef .tc main_arg10) := by
  after_results_simp

theorem r14_keep_main_arg11 : StableHlo.after (c14 (F := Ideal)) W (Proc.devRef .tc main_arg11) = W (Proc.devRef .tc main_arg11) := by
  after_results_simp

theorem r14_keep_main_arg12 : StableHlo.after (c14 (F := Ideal)) W (Proc.devRef .tc main_arg12) = W (Proc.devRef .tc main_arg12) := by
  after_results_simp

theorem r14_keep_main_arg13 : StableHlo.after (c14 (F := Ideal)) W (Proc.devRef .tc main_arg13) = W (Proc.devRef .tc main_arg13) := by
  after_results_simp

theorem r14_keep_main_arg14 : StableHlo.after (c14 (F := Ideal)) W (Proc.devRef .tc main_arg14) = W (Proc.devRef .tc main_arg14) := by
  after_results_simp

theorem r14_keep_main_arg15 : StableHlo.after (c14 (F := Ideal)) W (Proc.devRef .tc main_arg15) = W (Proc.devRef .tc main_arg15) := by
  after_results_simp

theorem r14_keep_main_arg16 : StableHlo.after (c14 (F := Ideal)) W (Proc.devRef .tc main_arg16) = W (Proc.devRef .tc main_arg16) := by
  after_results_simp

theorem r14_keep_main_arg17 : StableHlo.after (c14 (F := Ideal)) W (Proc.devRef .tc main_arg17) = W (Proc.devRef .tc main_arg17) := by
  after_results_simp

theorem r14_keep_main_arg18 : StableHlo.after (c14 (F := Ideal)) W (Proc.devRef .tc main_arg18) = W (Proc.devRef .tc main_arg18) := by
  after_results_simp

theorem r14_keep_main_arg19 : StableHlo.after (c14 (F := Ideal)) W (Proc.devRef .tc main_arg19) = W (Proc.devRef .tc main_arg19) := by
  after_results_simp

theorem r14_keep_main_arg20 : StableHlo.after (c14 (F := Ideal)) W (Proc.devRef .tc main_arg20) = W (Proc.devRef .tc main_arg20) := by
  after_results_simp

theorem r14_keep_main_arg21 : StableHlo.after (c14 (F := Ideal)) W (Proc.devRef .tc main_arg21) = W (Proc.devRef .tc main_arg21) := by
  after_results_simp

theorem r14_keep_main_arg22 : StableHlo.after (c14 (F := Ideal)) W (Proc.devRef .tc main_arg22) = W (Proc.devRef .tc main_arg22) := by
  after_results_simp

theorem r14_keep_main_arg23 : StableHlo.after (c14 (F := Ideal)) W (Proc.devRef .tc main_arg23) = W (Proc.devRef .tc main_arg23) := by
  after_results_simp

theorem r14_keep_main_arg24 : StableHlo.after (c14 (F := Ideal)) W (Proc.devRef .tc main_arg24) = W (Proc.devRef .tc main_arg24) := by
  after_results_simp

theorem r14_keep_main_arg25 : StableHlo.after (c14 (F := Ideal)) W (Proc.devRef .tc main_arg25) = W (Proc.devRef .tc main_arg25) := by
  after_results_simp

theorem r14_keep_main_arg26 : StableHlo.after (c14 (F := Ideal)) W (Proc.devRef .tc main_arg26) = W (Proc.devRef .tc main_arg26) := by
  after_results_simp

theorem r14_keep_main_arg27 : StableHlo.after (c14 (F := Ideal)) W (Proc.devRef .tc main_arg27) = W (Proc.devRef .tc main_arg27) := by
  after_results_simp

theorem r14_keep_main_arg28 : StableHlo.after (c14 (F := Ideal)) W (Proc.devRef .tc main_arg28) = W (Proc.devRef .tc main_arg28) := by
  after_results_simp

end Cert.ReferenceIdeal.ChainR

end
-- ==== Proof.ChainRef15.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r15_main_v104 (h_main_v103 : W (Proc.devRef .tc main_v103) = val_main_v103 (F := Ideal) x0 x2 x5 x6 x7 x8 x11 x12) :
    StableHlo.after (c15 (F := Ideal)) W (Proc.devRef .tc main_v104) = val_main_v104 (F := Ideal) x0 x2 x5 x6 x7 x8 x11 x12 := by
  after_results_simp
  try simp only [cast_eq]
  rw [h_main_v103]
  rfl

theorem r15_keep_main_v1 : StableHlo.after (c15 (F := Ideal)) W (Proc.devRef .tc main_v1) = W (Proc.devRef .tc main_v1) := by
  after_results_simp

theorem r15_keep_main_v3 : StableHlo.after (c15 (F := Ideal)) W (Proc.devRef .tc main_v3) = W (Proc.devRef .tc main_v3) := by
  after_results_simp

theorem r15_keep_main_v5 : StableHlo.after (c15 (F := Ideal)) W (Proc.devRef .tc main_v5) = W (Proc.devRef .tc main_v5) := by
  after_results_simp

theorem r15_keep_main_v7 : StableHlo.after (c15 (F := Ideal)) W (Proc.devRef .tc main_v7) = W (Proc.devRef .tc main_v7) := by
  after_results_simp

theorem r15_keep_main_v60 : StableHlo.after (c15 (F := Ideal)) W (Proc.devRef .tc main_v60) = W (Proc.devRef .tc main_v60) := by
  after_results_simp

theorem r15_keep_main_arg0 : StableHlo.after (c15 (F := Ideal)) W (Proc.devRef .tc main_arg0) = W (Proc.devRef .tc main_arg0) := by
  after_results_simp

theorem r15_keep_main_arg1 : StableHlo.after (c15 (F := Ideal)) W (Proc.devRef .tc main_arg1) = W (Proc.devRef .tc main_arg1) := by
  after_results_simp

theorem r15_keep_main_arg2 : StableHlo.after (c15 (F := Ideal)) W (Proc.devRef .tc main_arg2) = W (Proc.devRef .tc main_arg2) := by
  after_results_simp

theorem r15_keep_main_arg3 : StableHlo.after (c15 (F := Ideal)) W (Proc.devRef .tc main_arg3) = W (Proc.devRef .tc main_arg3) := by
  after_results_simp

theorem r15_keep_main_arg4 : StableHlo.after (c15 (F := Ideal)) W (Proc.devRef .tc main_arg4) = W (Proc.devRef .tc main_arg4) := by
  after_results_simp

theorem r15_keep_main_arg5 : StableHlo.after (c15 (F := Ideal)) W (Proc.devRef .tc main_arg5) = W (Proc.devRef .tc main_arg5) := by
  after_results_simp

theorem r15_keep_main_arg6 : StableHlo.after (c15 (F := Ideal)) W (Proc.devRef .tc main_arg6) = W (Proc.devRef .tc main_arg6) := by
  after_results_simp

theorem r15_keep_main_arg7 : StableHlo.after (c15 (F := Ideal)) W (Proc.devRef .tc main_arg7) = W (Proc.devRef .tc main_arg7) := by
  after_results_simp

theorem r15_keep_main_arg8 : StableHlo.after (c15 (F := Ideal)) W (Proc.devRef .tc main_arg8) = W (Proc.devRef .tc main_arg8) := by
  after_results_simp

theorem r15_keep_main_arg9 : StableHlo.after (c15 (F := Ideal)) W (Proc.devRef .tc main_arg9) = W (Proc.devRef .tc main_arg9) := by
  after_results_simp

theorem r15_keep_main_arg10 : StableHlo.after (c15 (F := Ideal)) W (Proc.devRef .tc main_arg10) = W (Proc.devRef .tc main_arg10) := by
  after_results_simp

theorem r15_keep_main_arg11 : StableHlo.after (c15 (F := Ideal)) W (Proc.devRef .tc main_arg11) = W (Proc.devRef .tc main_arg11) := by
  after_results_simp

theorem r15_keep_main_arg12 : StableHlo.after (c15 (F := Ideal)) W (Proc.devRef .tc main_arg12) = W (Proc.devRef .tc main_arg12) := by
  after_results_simp

theorem r15_keep_main_arg13 : StableHlo.after (c15 (F := Ideal)) W (Proc.devRef .tc main_arg13) = W (Proc.devRef .tc main_arg13) := by
  after_results_simp

theorem r15_keep_main_arg14 : StableHlo.after (c15 (F := Ideal)) W (Proc.devRef .tc main_arg14) = W (Proc.devRef .tc main_arg14) := by
  after_results_simp

theorem r15_keep_main_arg15 : StableHlo.after (c15 (F := Ideal)) W (Proc.devRef .tc main_arg15) = W (Proc.devRef .tc main_arg15) := by
  after_results_simp

theorem r15_keep_main_arg16 : StableHlo.after (c15 (F := Ideal)) W (Proc.devRef .tc main_arg16) = W (Proc.devRef .tc main_arg16) := by
  after_results_simp

theorem r15_keep_main_arg17 : StableHlo.after (c15 (F := Ideal)) W (Proc.devRef .tc main_arg17) = W (Proc.devRef .tc main_arg17) := by
  after_results_simp

theorem r15_keep_main_arg18 : StableHlo.after (c15 (F := Ideal)) W (Proc.devRef .tc main_arg18) = W (Proc.devRef .tc main_arg18) := by
  after_results_simp

theorem r15_keep_main_arg19 : StableHlo.after (c15 (F := Ideal)) W (Proc.devRef .tc main_arg19) = W (Proc.devRef .tc main_arg19) := by
  after_results_simp

theorem r15_keep_main_arg20 : StableHlo.after (c15 (F := Ideal)) W (Proc.devRef .tc main_arg20) = W (Proc.devRef .tc main_arg20) := by
  after_results_simp

theorem r15_keep_main_arg21 : StableHlo.after (c15 (F := Ideal)) W (Proc.devRef .tc main_arg21) = W (Proc.devRef .tc main_arg21) := by
  after_results_simp

theorem r15_keep_main_arg22 : StableHlo.after (c15 (F := Ideal)) W (Proc.devRef .tc main_arg22) = W (Proc.devRef .tc main_arg22) := by
  after_results_simp

theorem r15_keep_main_arg23 : StableHlo.after (c15 (F := Ideal)) W (Proc.devRef .tc main_arg23) = W (Proc.devRef .tc main_arg23) := by
  after_results_simp

theorem r15_keep_main_arg24 : StableHlo.after (c15 (F := Ideal)) W (Proc.devRef .tc main_arg24) = W (Proc.devRef .tc main_arg24) := by
  after_results_simp

theorem r15_keep_main_arg25 : StableHlo.after (c15 (F := Ideal)) W (Proc.devRef .tc main_arg25) = W (Proc.devRef .tc main_arg25) := by
  after_results_simp

theorem r15_keep_main_arg26 : StableHlo.after (c15 (F := Ideal)) W (Proc.devRef .tc main_arg26) = W (Proc.devRef .tc main_arg26) := by
  after_results_simp

theorem r15_keep_main_arg27 : StableHlo.after (c15 (F := Ideal)) W (Proc.devRef .tc main_arg27) = W (Proc.devRef .tc main_arg27) := by
  after_results_simp

theorem r15_keep_main_arg28 : StableHlo.after (c15 (F := Ideal)) W (Proc.devRef .tc main_arg28) = W (Proc.devRef .tc main_arg28) := by
  after_results_simp

end Cert.ReferenceIdeal.ChainR

end
-- ==== Proof.ChainRef16.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r16_main_v105 (h_main_v60 : W (Proc.devRef .tc main_v60) = val_main_v60 (F := Ideal) x0 x1 x5 x6 x7 x8 x9 x10) (h_main_v104 : W (Proc.devRef .tc main_v104) = val_main_v104 (F := Ideal) x0 x2 x5 x6 x7 x8 x11 x12) :
    StableHlo.after (c16 (F := Ideal)) W (Proc.devRef .tc main_v105) = val_main_v105 (F := Ideal) x0 x1 x2 x5 x6 x7 x8 x9 x10 x11 x12 := by
  after_results_simp
  try simp only [cast_eq]
  rw [h_main_v60, h_main_v104]
  rfl

theorem r16_keep_main_v1 : StableHlo.after (c16 (F := Ideal)) W (Proc.devRef .tc main_v1) = W (Proc.devRef .tc main_v1) := by
  after_results_simp

theorem r16_keep_main_v3 : StableHlo.after (c16 (F := Ideal)) W (Proc.devRef .tc main_v3) = W (Proc.devRef .tc main_v3) := by
  after_results_simp

theorem r16_keep_main_v5 : StableHlo.after (c16 (F := Ideal)) W (Proc.devRef .tc main_v5) = W (Proc.devRef .tc main_v5) := by
  after_results_simp

theorem r16_keep_main_v7 : StableHlo.after (c16 (F := Ideal)) W (Proc.devRef .tc main_v7) = W (Proc.devRef .tc main_v7) := by
  after_results_simp

theorem r16_keep_main_arg0 : StableHlo.after (c16 (F := Ideal)) W (Proc.devRef .tc main_arg0) = W (Proc.devRef .tc main_arg0) := by
  after_results_simp

theorem r16_keep_main_arg1 : StableHlo.after (c16 (F := Ideal)) W (Proc.devRef .tc main_arg1) = W (Proc.devRef .tc main_arg1) := by
  after_results_simp

theorem r16_keep_main_arg2 : StableHlo.after (c16 (F := Ideal)) W (Proc.devRef .tc main_arg2) = W (Proc.devRef .tc main_arg2) := by
  after_results_simp

theorem r16_keep_main_arg3 : StableHlo.after (c16 (F := Ideal)) W (Proc.devRef .tc main_arg3) = W (Proc.devRef .tc main_arg3) := by
  after_results_simp

theorem r16_keep_main_arg4 : StableHlo.after (c16 (F := Ideal)) W (Proc.devRef .tc main_arg4) = W (Proc.devRef .tc main_arg4) := by
  after_results_simp

theorem r16_keep_main_arg5 : StableHlo.after (c16 (F := Ideal)) W (Proc.devRef .tc main_arg5) = W (Proc.devRef .tc main_arg5) := by
  after_results_simp

theorem r16_keep_main_arg6 : StableHlo.after (c16 (F := Ideal)) W (Proc.devRef .tc main_arg6) = W (Proc.devRef .tc main_arg6) := by
  after_results_simp

theorem r16_keep_main_arg7 : StableHlo.after (c16 (F := Ideal)) W (Proc.devRef .tc main_arg7) = W (Proc.devRef .tc main_arg7) := by
  after_results_simp

theorem r16_keep_main_arg8 : StableHlo.after (c16 (F := Ideal)) W (Proc.devRef .tc main_arg8) = W (Proc.devRef .tc main_arg8) := by
  after_results_simp

theorem r16_keep_main_arg9 : StableHlo.after (c16 (F := Ideal)) W (Proc.devRef .tc main_arg9) = W (Proc.devRef .tc main_arg9) := by
  after_results_simp

theorem r16_keep_main_arg10 : StableHlo.after (c16 (F := Ideal)) W (Proc.devRef .tc main_arg10) = W (Proc.devRef .tc main_arg10) := by
  after_results_simp

theorem r16_keep_main_arg11 : StableHlo.after (c16 (F := Ideal)) W (Proc.devRef .tc main_arg11) = W (Proc.devRef .tc main_arg11) := by
  after_results_simp

theorem r16_keep_main_arg12 : StableHlo.after (c16 (F := Ideal)) W (Proc.devRef .tc main_arg12) = W (Proc.devRef .tc main_arg12) := by
  after_results_simp

theorem r16_keep_main_arg13 : StableHlo.after (c16 (F := Ideal)) W (Proc.devRef .tc main_arg13) = W (Proc.devRef .tc main_arg13) := by
  after_results_simp

theorem r16_keep_main_arg14 : StableHlo.after (c16 (F := Ideal)) W (Proc.devRef .tc main_arg14) = W (Proc.devRef .tc main_arg14) := by
  after_results_simp

theorem r16_keep_main_arg15 : StableHlo.after (c16 (F := Ideal)) W (Proc.devRef .tc main_arg15) = W (Proc.devRef .tc main_arg15) := by
  after_results_simp

theorem r16_keep_main_arg16 : StableHlo.after (c16 (F := Ideal)) W (Proc.devRef .tc main_arg16) = W (Proc.devRef .tc main_arg16) := by
  after_results_simp

theorem r16_keep_main_arg17 : StableHlo.after (c16 (F := Ideal)) W (Proc.devRef .tc main_arg17) = W (Proc.devRef .tc main_arg17) := by
  after_results_simp

theorem r16_keep_main_arg18 : StableHlo.after (c16 (F := Ideal)) W (Proc.devRef .tc main_arg18) = W (Proc.devRef .tc main_arg18) := by
  after_results_simp

theorem r16_keep_main_arg19 : StableHlo.after (c16 (F := Ideal)) W (Proc.devRef .tc main_arg19) = W (Proc.devRef .tc main_arg19) := by
  after_results_simp

theorem r16_keep_main_arg20 : StableHlo.after (c16 (F := Ideal)) W (Proc.devRef .tc main_arg20) = W (Proc.devRef .tc main_arg20) := by
  after_results_simp

theorem r16_keep_main_arg21 : StableHlo.after (c16 (F := Ideal)) W (Proc.devRef .tc main_arg21) = W (Proc.devRef .tc main_arg21) := by
  after_results_simp

theorem r16_keep_main_arg22 : StableHlo.after (c16 (F := Ideal)) W (Proc.devRef .tc main_arg22) = W (Proc.devRef .tc main_arg22) := by
  after_results_simp

theorem r16_keep_main_arg23 : StableHlo.after (c16 (F := Ideal)) W (Proc.devRef .tc main_arg23) = W (Proc.devRef .tc main_arg23) := by
  after_results_simp

theorem r16_keep_main_arg24 : StableHlo.after (c16 (F := Ideal)) W (Proc.devRef .tc main_arg24) = W (Proc.devRef .tc main_arg24) := by
  after_results_simp

theorem r16_keep_main_arg25 : StableHlo.after (c16 (F := Ideal)) W (Proc.devRef .tc main_arg25) = W (Proc.devRef .tc main_arg25) := by
  after_results_simp

theorem r16_keep_main_arg26 : StableHlo.after (c16 (F := Ideal)) W (Proc.devRef .tc main_arg26) = W (Proc.devRef .tc main_arg26) := by
  after_results_simp

theorem r16_keep_main_arg27 : StableHlo.after (c16 (F := Ideal)) W (Proc.devRef .tc main_arg27) = W (Proc.devRef .tc main_arg27) := by
  after_results_simp

theorem r16_keep_main_arg28 : StableHlo.after (c16 (F := Ideal)) W (Proc.devRef .tc main_arg28) = W (Proc.devRef .tc main_arg28) := by
  after_results_simp

end Cert.ReferenceIdeal.ChainR

end
-- ==== Proof.ChainRef17.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r17_main_v109 (h_main_v105 : W (Proc.devRef .tc main_v105) = val_main_v105 (F := Ideal) x0 x1 x2 x5 x6 x7 x8 x9 x10 x11 x12) (h_main_arg17 : W (Proc.devRef .tc main_arg17) = x17) (h_main_arg18 : W (Proc.devRef .tc main_arg18) = x18) :
    StableHlo.after (c17 (F := Ideal)) W (Proc.devRef .tc main_v109) = val_main_v109 (F := Ideal) x0 x1 x2 x5 x6 x7 x8 x9 x10 x11 x12 x17 x18 := by
  after_results_simp
  try simp only [cast_eq]
  rw [h_main_v105, h_main_arg17, h_main_arg18]
  rfl

theorem r17_keep_main_v1 : StableHlo.after (c17 (F := Ideal)) W (Proc.devRef .tc main_v1) = W (Proc.devRef .tc main_v1) := by
  after_results_simp

theorem r17_keep_main_v3 : StableHlo.after (c17 (F := Ideal)) W (Proc.devRef .tc main_v3) = W (Proc.devRef .tc main_v3) := by
  after_results_simp

theorem r17_keep_main_v5 : StableHlo.after (c17 (F := Ideal)) W (Proc.devRef .tc main_v5) = W (Proc.devRef .tc main_v5) := by
  after_results_simp

theorem r17_keep_main_v7 : StableHlo.after (c17 (F := Ideal)) W (Proc.devRef .tc main_v7) = W (Proc.devRef .tc main_v7) := by
  after_results_simp

theorem r17_keep_main_arg0 : StableHlo.after (c17 (F := Ideal)) W (Proc.devRef .tc main_arg0) = W (Proc.devRef .tc main_arg0) := by
  after_results_simp

theorem r17_keep_main_arg1 : StableHlo.after (c17 (F := Ideal)) W (Proc.devRef .tc main_arg1) = W (Proc.devRef .tc main_arg1) := by
  after_results_simp

theorem r17_keep_main_arg2 : StableHlo.after (c17 (F := Ideal)) W (Proc.devRef .tc main_arg2) = W (Proc.devRef .tc main_arg2) := by
  after_results_simp

theorem r17_keep_main_arg3 : StableHlo.after (c17 (F := Ideal)) W (Proc.devRef .tc main_arg3) = W (Proc.devRef .tc main_arg3) := by
  after_results_simp

theorem r17_keep_main_arg4 : StableHlo.after (c17 (F := Ideal)) W (Proc.devRef .tc main_arg4) = W (Proc.devRef .tc main_arg4) := by
  after_results_simp

theorem r17_keep_main_arg5 : StableHlo.after (c17 (F := Ideal)) W (Proc.devRef .tc main_arg5) = W (Proc.devRef .tc main_arg5) := by
  after_results_simp

theorem r17_keep_main_arg6 : StableHlo.after (c17 (F := Ideal)) W (Proc.devRef .tc main_arg6) = W (Proc.devRef .tc main_arg6) := by
  after_results_simp

theorem r17_keep_main_arg7 : StableHlo.after (c17 (F := Ideal)) W (Proc.devRef .tc main_arg7) = W (Proc.devRef .tc main_arg7) := by
  after_results_simp

theorem r17_keep_main_arg8 : StableHlo.after (c17 (F := Ideal)) W (Proc.devRef .tc main_arg8) = W (Proc.devRef .tc main_arg8) := by
  after_results_simp

theorem r17_keep_main_arg9 : StableHlo.after (c17 (F := Ideal)) W (Proc.devRef .tc main_arg9) = W (Proc.devRef .tc main_arg9) := by
  after_results_simp

theorem r17_keep_main_arg10 : StableHlo.after (c17 (F := Ideal)) W (Proc.devRef .tc main_arg10) = W (Proc.devRef .tc main_arg10) := by
  after_results_simp

theorem r17_keep_main_arg11 : StableHlo.after (c17 (F := Ideal)) W (Proc.devRef .tc main_arg11) = W (Proc.devRef .tc main_arg11) := by
  after_results_simp

theorem r17_keep_main_arg12 : StableHlo.after (c17 (F := Ideal)) W (Proc.devRef .tc main_arg12) = W (Proc.devRef .tc main_arg12) := by
  after_results_simp

theorem r17_keep_main_arg13 : StableHlo.after (c17 (F := Ideal)) W (Proc.devRef .tc main_arg13) = W (Proc.devRef .tc main_arg13) := by
  after_results_simp

theorem r17_keep_main_arg14 : StableHlo.after (c17 (F := Ideal)) W (Proc.devRef .tc main_arg14) = W (Proc.devRef .tc main_arg14) := by
  after_results_simp

theorem r17_keep_main_arg15 : StableHlo.after (c17 (F := Ideal)) W (Proc.devRef .tc main_arg15) = W (Proc.devRef .tc main_arg15) := by
  after_results_simp

theorem r17_keep_main_arg16 : StableHlo.after (c17 (F := Ideal)) W (Proc.devRef .tc main_arg16) = W (Proc.devRef .tc main_arg16) := by
  after_results_simp

theorem r17_keep_main_arg17 : StableHlo.after (c17 (F := Ideal)) W (Proc.devRef .tc main_arg17) = W (Proc.devRef .tc main_arg17) := by
  after_results_simp

theorem r17_keep_main_arg18 : StableHlo.after (c17 (F := Ideal)) W (Proc.devRef .tc main_arg18) = W (Proc.devRef .tc main_arg18) := by
  after_results_simp

theorem r17_keep_main_arg19 : StableHlo.after (c17 (F := Ideal)) W (Proc.devRef .tc main_arg19) = W (Proc.devRef .tc main_arg19) := by
  after_results_simp

theorem r17_keep_main_arg20 : StableHlo.after (c17 (F := Ideal)) W (Proc.devRef .tc main_arg20) = W (Proc.devRef .tc main_arg20) := by
  after_results_simp

theorem r17_keep_main_arg21 : StableHlo.after (c17 (F := Ideal)) W (Proc.devRef .tc main_arg21) = W (Proc.devRef .tc main_arg21) := by
  after_results_simp

theorem r17_keep_main_arg22 : StableHlo.after (c17 (F := Ideal)) W (Proc.devRef .tc main_arg22) = W (Proc.devRef .tc main_arg22) := by
  after_results_simp

theorem r17_keep_main_arg23 : StableHlo.after (c17 (F := Ideal)) W (Proc.devRef .tc main_arg23) = W (Proc.devRef .tc main_arg23) := by
  after_results_simp

theorem r17_keep_main_arg24 : StableHlo.after (c17 (F := Ideal)) W (Proc.devRef .tc main_arg24) = W (Proc.devRef .tc main_arg24) := by
  after_results_simp

theorem r17_keep_main_arg25 : StableHlo.after (c17 (F := Ideal)) W (Proc.devRef .tc main_arg25) = W (Proc.devRef .tc main_arg25) := by
  after_results_simp

theorem r17_keep_main_arg26 : StableHlo.after (c17 (F := Ideal)) W (Proc.devRef .tc main_arg26) = W (Proc.devRef .tc main_arg26) := by
  after_results_simp

theorem r17_keep_main_arg27 : StableHlo.after (c17 (F := Ideal)) W (Proc.devRef .tc main_arg27) = W (Proc.devRef .tc main_arg27) := by
  after_results_simp

theorem r17_keep_main_arg28 : StableHlo.after (c17 (F := Ideal)) W (Proc.devRef .tc main_arg28) = W (Proc.devRef .tc main_arg28) := by
  after_results_simp

end Cert.ReferenceIdeal.ChainR

end
-- ==== Proof.ChainRef18.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r18_main_v110 (h_main_v109 : W (Proc.devRef .tc main_v109) = val_main_v109 (F := Ideal) x0 x1 x2 x5 x6 x7 x8 x9 x10 x11 x12 x17 x18) :
    StableHlo.after (c18 (F := Ideal)) W (Proc.devRef .tc main_v110) = val_main_v110 (F := Ideal) x0 x1 x2 x5 x6 x7 x8 x9 x10 x11 x12 x17 x18 := by
  after_results_simp
  try simp only [cast_eq]
  rw [h_main_v109]
  rfl

theorem r18_keep_main_v1 : StableHlo.after (c18 (F := Ideal)) W (Proc.devRef .tc main_v1) = W (Proc.devRef .tc main_v1) := by
  after_results_simp

theorem r18_keep_main_v3 : StableHlo.after (c18 (F := Ideal)) W (Proc.devRef .tc main_v3) = W (Proc.devRef .tc main_v3) := by
  after_results_simp

theorem r18_keep_main_v5 : StableHlo.after (c18 (F := Ideal)) W (Proc.devRef .tc main_v5) = W (Proc.devRef .tc main_v5) := by
  after_results_simp

theorem r18_keep_main_v7 : StableHlo.after (c18 (F := Ideal)) W (Proc.devRef .tc main_v7) = W (Proc.devRef .tc main_v7) := by
  after_results_simp

theorem r18_keep_main_arg0 : StableHlo.after (c18 (F := Ideal)) W (Proc.devRef .tc main_arg0) = W (Proc.devRef .tc main_arg0) := by
  after_results_simp

theorem r18_keep_main_arg1 : StableHlo.after (c18 (F := Ideal)) W (Proc.devRef .tc main_arg1) = W (Proc.devRef .tc main_arg1) := by
  after_results_simp

theorem r18_keep_main_arg2 : StableHlo.after (c18 (F := Ideal)) W (Proc.devRef .tc main_arg2) = W (Proc.devRef .tc main_arg2) := by
  after_results_simp

theorem r18_keep_main_arg3 : StableHlo.after (c18 (F := Ideal)) W (Proc.devRef .tc main_arg3) = W (Proc.devRef .tc main_arg3) := by
  after_results_simp

theorem r18_keep_main_arg4 : StableHlo.after (c18 (F := Ideal)) W (Proc.devRef .tc main_arg4) = W (Proc.devRef .tc main_arg4) := by
  after_results_simp

theorem r18_keep_main_arg5 : StableHlo.after (c18 (F := Ideal)) W (Proc.devRef .tc main_arg5) = W (Proc.devRef .tc main_arg5) := by
  after_results_simp

theorem r18_keep_main_arg6 : StableHlo.after (c18 (F := Ideal)) W (Proc.devRef .tc main_arg6) = W (Proc.devRef .tc main_arg6) := by
  after_results_simp

theorem r18_keep_main_arg7 : StableHlo.after (c18 (F := Ideal)) W (Proc.devRef .tc main_arg7) = W (Proc.devRef .tc main_arg7) := by
  after_results_simp

theorem r18_keep_main_arg8 : StableHlo.after (c18 (F := Ideal)) W (Proc.devRef .tc main_arg8) = W (Proc.devRef .tc main_arg8) := by
  after_results_simp

theorem r18_keep_main_arg9 : StableHlo.after (c18 (F := Ideal)) W (Proc.devRef .tc main_arg9) = W (Proc.devRef .tc main_arg9) := by
  after_results_simp

theorem r18_keep_main_arg10 : StableHlo.after (c18 (F := Ideal)) W (Proc.devRef .tc main_arg10) = W (Proc.devRef .tc main_arg10) := by
  after_results_simp

theorem r18_keep_main_arg11 : StableHlo.after (c18 (F := Ideal)) W (Proc.devRef .tc main_arg11) = W (Proc.devRef .tc main_arg11) := by
  after_results_simp

theorem r18_keep_main_arg12 : StableHlo.after (c18 (F := Ideal)) W (Proc.devRef .tc main_arg12) = W (Proc.devRef .tc main_arg12) := by
  after_results_simp

theorem r18_keep_main_arg13 : StableHlo.after (c18 (F := Ideal)) W (Proc.devRef .tc main_arg13) = W (Proc.devRef .tc main_arg13) := by
  after_results_simp

theorem r18_keep_main_arg14 : StableHlo.after (c18 (F := Ideal)) W (Proc.devRef .tc main_arg14) = W (Proc.devRef .tc main_arg14) := by
  after_results_simp

theorem r18_keep_main_arg15 : StableHlo.after (c18 (F := Ideal)) W (Proc.devRef .tc main_arg15) = W (Proc.devRef .tc main_arg15) := by
  after_results_simp

theorem r18_keep_main_arg16 : StableHlo.after (c18 (F := Ideal)) W (Proc.devRef .tc main_arg16) = W (Proc.devRef .tc main_arg16) := by
  after_results_simp

theorem r18_keep_main_arg17 : StableHlo.after (c18 (F := Ideal)) W (Proc.devRef .tc main_arg17) = W (Proc.devRef .tc main_arg17) := by
  after_results_simp

theorem r18_keep_main_arg18 : StableHlo.after (c18 (F := Ideal)) W (Proc.devRef .tc main_arg18) = W (Proc.devRef .tc main_arg18) := by
  after_results_simp

theorem r18_keep_main_arg19 : StableHlo.after (c18 (F := Ideal)) W (Proc.devRef .tc main_arg19) = W (Proc.devRef .tc main_arg19) := by
  after_results_simp

theorem r18_keep_main_arg20 : StableHlo.after (c18 (F := Ideal)) W (Proc.devRef .tc main_arg20) = W (Proc.devRef .tc main_arg20) := by
  after_results_simp

theorem r18_keep_main_arg21 : StableHlo.after (c18 (F := Ideal)) W (Proc.devRef .tc main_arg21) = W (Proc.devRef .tc main_arg21) := by
  after_results_simp

theorem r18_keep_main_arg22 : StableHlo.after (c18 (F := Ideal)) W (Proc.devRef .tc main_arg22) = W (Proc.devRef .tc main_arg22) := by
  after_results_simp

theorem r18_keep_main_arg23 : StableHlo.after (c18 (F := Ideal)) W (Proc.devRef .tc main_arg23) = W (Proc.devRef .tc main_arg23) := by
  after_results_simp

theorem r18_keep_main_arg24 : StableHlo.after (c18 (F := Ideal)) W (Proc.devRef .tc main_arg24) = W (Proc.devRef .tc main_arg24) := by
  after_results_simp

theorem r18_keep_main_arg25 : StableHlo.after (c18 (F := Ideal)) W (Proc.devRef .tc main_arg25) = W (Proc.devRef .tc main_arg25) := by
  after_results_simp

theorem r18_keep_main_arg26 : StableHlo.after (c18 (F := Ideal)) W (Proc.devRef .tc main_arg26) = W (Proc.devRef .tc main_arg26) := by
  after_results_simp

theorem r18_keep_main_arg27 : StableHlo.after (c18 (F := Ideal)) W (Proc.devRef .tc main_arg27) = W (Proc.devRef .tc main_arg27) := by
  after_results_simp

theorem r18_keep_main_arg28 : StableHlo.after (c18 (F := Ideal)) W (Proc.devRef .tc main_arg28) = W (Proc.devRef .tc main_arg28) := by
  after_results_simp

end Cert.ReferenceIdeal.ChainR

end
-- ==== Proof.ChainRef19.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r19_main_v114 (h_main_v110 : W (Proc.devRef .tc main_v110) = val_main_v110 (F := Ideal) x0 x1 x2 x5 x6 x7 x8 x9 x10 x11 x12 x17 x18) (h_main_arg19 : W (Proc.devRef .tc main_arg19) = x19) (h_main_arg20 : W (Proc.devRef .tc main_arg20) = x20) :
    StableHlo.after (c19 (F := Ideal)) W (Proc.devRef .tc main_v114) = val_main_v114 (F := Ideal) x0 x1 x2 x5 x6 x7 x8 x9 x10 x11 x12 x17 x18 x19 x20 := by
  after_results_simp
  try simp only [cast_eq]
  rw [h_main_v110, h_main_arg19, h_main_arg20]
  rfl

theorem r19_keep_main_v1 : StableHlo.after (c19 (F := Ideal)) W (Proc.devRef .tc main_v1) = W (Proc.devRef .tc main_v1) := by
  after_results_simp

theorem r19_keep_main_v3 : StableHlo.after (c19 (F := Ideal)) W (Proc.devRef .tc main_v3) = W (Proc.devRef .tc main_v3) := by
  after_results_simp

theorem r19_keep_main_v5 : StableHlo.after (c19 (F := Ideal)) W (Proc.devRef .tc main_v5) = W (Proc.devRef .tc main_v5) := by
  after_results_simp

theorem r19_keep_main_v7 : StableHlo.after (c19 (F := Ideal)) W (Proc.devRef .tc main_v7) = W (Proc.devRef .tc main_v7) := by
  after_results_simp

theorem r19_keep_main_arg0 : StableHlo.after (c19 (F := Ideal)) W (Proc.devRef .tc main_arg0) = W (Proc.devRef .tc main_arg0) := by
  after_results_simp

theorem r19_keep_main_arg1 : StableHlo.after (c19 (F := Ideal)) W (Proc.devRef .tc main_arg1) = W (Proc.devRef .tc main_arg1) := by
  after_results_simp

theorem r19_keep_main_arg2 : StableHlo.after (c19 (F := Ideal)) W (Proc.devRef .tc main_arg2) = W (Proc.devRef .tc main_arg2) := by
  after_results_simp

theorem r19_keep_main_arg3 : StableHlo.after (c19 (F := Ideal)) W (Proc.devRef .tc main_arg3) = W (Proc.devRef .tc main_arg3) := by
  after_results_simp

theorem r19_keep_main_arg4 : StableHlo.after (c19 (F := Ideal)) W (Proc.devRef .tc main_arg4) = W (Proc.devRef .tc main_arg4) := by
  after_results_simp

theorem r19_keep_main_arg5 : StableHlo.after (c19 (F := Ideal)) W (Proc.devRef .tc main_arg5) = W (Proc.devRef .tc main_arg5) := by
  after_results_simp

theorem r19_keep_main_arg6 : StableHlo.after (c19 (F := Ideal)) W (Proc.devRef .tc main_arg6) = W (Proc.devRef .tc main_arg6) := by
  after_results_simp

theorem r19_keep_main_arg7 : StableHlo.after (c19 (F := Ideal)) W (Proc.devRef .tc main_arg7) = W (Proc.devRef .tc main_arg7) := by
  after_results_simp

theorem r19_keep_main_arg8 : StableHlo.after (c19 (F := Ideal)) W (Proc.devRef .tc main_arg8) = W (Proc.devRef .tc main_arg8) := by
  after_results_simp

theorem r19_keep_main_arg9 : StableHlo.after (c19 (F := Ideal)) W (Proc.devRef .tc main_arg9) = W (Proc.devRef .tc main_arg9) := by
  after_results_simp

theorem r19_keep_main_arg10 : StableHlo.after (c19 (F := Ideal)) W (Proc.devRef .tc main_arg10) = W (Proc.devRef .tc main_arg10) := by
  after_results_simp

theorem r19_keep_main_arg11 : StableHlo.after (c19 (F := Ideal)) W (Proc.devRef .tc main_arg11) = W (Proc.devRef .tc main_arg11) := by
  after_results_simp

theorem r19_keep_main_arg12 : StableHlo.after (c19 (F := Ideal)) W (Proc.devRef .tc main_arg12) = W (Proc.devRef .tc main_arg12) := by
  after_results_simp

theorem r19_keep_main_arg13 : StableHlo.after (c19 (F := Ideal)) W (Proc.devRef .tc main_arg13) = W (Proc.devRef .tc main_arg13) := by
  after_results_simp

theorem r19_keep_main_arg14 : StableHlo.after (c19 (F := Ideal)) W (Proc.devRef .tc main_arg14) = W (Proc.devRef .tc main_arg14) := by
  after_results_simp

theorem r19_keep_main_arg15 : StableHlo.after (c19 (F := Ideal)) W (Proc.devRef .tc main_arg15) = W (Proc.devRef .tc main_arg15) := by
  after_results_simp

theorem r19_keep_main_arg16 : StableHlo.after (c19 (F := Ideal)) W (Proc.devRef .tc main_arg16) = W (Proc.devRef .tc main_arg16) := by
  after_results_simp

theorem r19_keep_main_arg17 : StableHlo.after (c19 (F := Ideal)) W (Proc.devRef .tc main_arg17) = W (Proc.devRef .tc main_arg17) := by
  after_results_simp

theorem r19_keep_main_arg18 : StableHlo.after (c19 (F := Ideal)) W (Proc.devRef .tc main_arg18) = W (Proc.devRef .tc main_arg18) := by
  after_results_simp

theorem r19_keep_main_arg19 : StableHlo.after (c19 (F := Ideal)) W (Proc.devRef .tc main_arg19) = W (Proc.devRef .tc main_arg19) := by
  after_results_simp

theorem r19_keep_main_arg20 : StableHlo.after (c19 (F := Ideal)) W (Proc.devRef .tc main_arg20) = W (Proc.devRef .tc main_arg20) := by
  after_results_simp

theorem r19_keep_main_arg21 : StableHlo.after (c19 (F := Ideal)) W (Proc.devRef .tc main_arg21) = W (Proc.devRef .tc main_arg21) := by
  after_results_simp

theorem r19_keep_main_arg22 : StableHlo.after (c19 (F := Ideal)) W (Proc.devRef .tc main_arg22) = W (Proc.devRef .tc main_arg22) := by
  after_results_simp

theorem r19_keep_main_arg23 : StableHlo.after (c19 (F := Ideal)) W (Proc.devRef .tc main_arg23) = W (Proc.devRef .tc main_arg23) := by
  after_results_simp

theorem r19_keep_main_arg24 : StableHlo.after (c19 (F := Ideal)) W (Proc.devRef .tc main_arg24) = W (Proc.devRef .tc main_arg24) := by
  after_results_simp

theorem r19_keep_main_arg25 : StableHlo.after (c19 (F := Ideal)) W (Proc.devRef .tc main_arg25) = W (Proc.devRef .tc main_arg25) := by
  after_results_simp

theorem r19_keep_main_arg26 : StableHlo.after (c19 (F := Ideal)) W (Proc.devRef .tc main_arg26) = W (Proc.devRef .tc main_arg26) := by
  after_results_simp

theorem r19_keep_main_arg27 : StableHlo.after (c19 (F := Ideal)) W (Proc.devRef .tc main_arg27) = W (Proc.devRef .tc main_arg27) := by
  after_results_simp

theorem r19_keep_main_arg28 : StableHlo.after (c19 (F := Ideal)) W (Proc.devRef .tc main_arg28) = W (Proc.devRef .tc main_arg28) := by
  after_results_simp

end Cert.ReferenceIdeal.ChainR

end
-- ==== Proof.ChainRef20.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r20_main_v116 (h_main_v1 : W (Proc.devRef .tc main_v1) = val_main_v1 (F := Ideal) x1) :
    StableHlo.after (c20 (F := Ideal)) W (Proc.devRef .tc main_v116) = val_main_v116 (F := Ideal) x1 := by
  after_results_simp
  try simp only [cast_eq]
  rw [h_main_v1]
  rfl

theorem r20_main_v117 (h_main_v3 : W (Proc.devRef .tc main_v3) = val_main_v3 (F := Ideal) x1) :
    StableHlo.after (c20 (F := Ideal)) W (Proc.devRef .tc main_v117) = val_main_v117 (F := Ideal) x1 := by
  after_results_simp
  try simp only [cast_eq]
  rw [h_main_v3]
  rfl

theorem r20_main_v123 (h_main_v3 : W (Proc.devRef .tc main_v3) = val_main_v3 (F := Ideal) x1) :
    StableHlo.after (c20 (F := Ideal)) W (Proc.devRef .tc main_v123) = val_main_v123 (F := Ideal) x1 := by
  after_results_simp
  try simp only [cast_eq]
  rw [h_main_v3]
  rfl

theorem r20_main_v124 (h_main_v3 : W (Proc.devRef .tc main_v3) = val_main_v3 (F := Ideal) x1) :
    StableHlo.after (c20 (F := Ideal)) W (Proc.devRef .tc main_v124) = val_main_v124 (F := Ideal) x1 := by
  after_results_simp
  try simp only [cast_eq]
  rw [h_main_v3]
  rfl

theorem r20_main_cst_23  :
    StableHlo.after (c20 (F := Ideal)) W (Proc.devRef .tc main_cst_23) = val_main_cst_23 (F := Ideal) := by
  after_results_simp
  try simp only [cast_eq]
  rfl

theorem r20_keep_main_v5 : StableHlo.after (c20 (F := Ideal)) W (Proc.devRef .tc main_v5) = W (Proc.devRef .tc main_v5) := by
  after_results_simp

theorem r20_keep_main_v7 : StableHlo.after (c20 (F := Ideal)) W (Proc.devRef .tc main_v7) = W (Proc.devRef .tc main_v7) := by
  after_results_simp

theorem r20_keep_main_v114 : StableHlo.after (c20 (F := Ideal)) W (Proc.devRef .tc main_v114) = W (Proc.devRef .tc main_v114) := by
  after_results_simp

theorem r20_keep_main_arg0 : StableHlo.after (c20 (F := Ideal)) W (Proc.devRef .tc main_arg0) = W (Proc.devRef .tc main_arg0) := by
  after_results_simp

theorem r20_keep_main_arg1 : StableHlo.after (c20 (F := Ideal)) W (Proc.devRef .tc main_arg1) = W (Proc.devRef .tc main_arg1) := by
  after_results_simp

theorem r20_keep_main_arg2 : StableHlo.after (c20 (F := Ideal)) W (Proc.devRef .tc main_arg2) = W (Proc.devRef .tc main_arg2) := by
  after_results_simp

theorem r20_keep_main_arg3 : StableHlo.after (c20 (F := Ideal)) W (Proc.devRef .tc main_arg3) = W (Proc.devRef .tc main_arg3) := by
  after_results_simp

theorem r20_keep_main_arg4 : StableHlo.after (c20 (F := Ideal)) W (Proc.devRef .tc main_arg4) = W (Proc.devRef .tc main_arg4) := by
  after_results_simp

theorem r20_keep_main_arg5 : StableHlo.after (c20 (F := Ideal)) W (Proc.devRef .tc main_arg5) = W (Proc.devRef .tc main_arg5) := by
  after_results_simp

theorem r20_keep_main_arg6 : StableHlo.after (c20 (F := Ideal)) W (Proc.devRef .tc main_arg6) = W (Proc.devRef .tc main_arg6) := by
  after_results_simp

theorem r20_keep_main_arg7 : StableHlo.after (c20 (F := Ideal)) W (Proc.devRef .tc main_arg7) = W (Proc.devRef .tc main_arg7) := by
  after_results_simp

theorem r20_keep_main_arg8 : StableHlo.after (c20 (F := Ideal)) W (Proc.devRef .tc main_arg8) = W (Proc.devRef .tc main_arg8) := by
  after_results_simp

theorem r20_keep_main_arg9 : StableHlo.after (c20 (F := Ideal)) W (Proc.devRef .tc main_arg9) = W (Proc.devRef .tc main_arg9) := by
  after_results_simp

theorem r20_keep_main_arg10 : StableHlo.after (c20 (F := Ideal)) W (Proc.devRef .tc main_arg10) = W (Proc.devRef .tc main_arg10) := by
  after_results_simp

theorem r20_keep_main_arg11 : StableHlo.after (c20 (F := Ideal)) W (Proc.devRef .tc main_arg11) = W (Proc.devRef .tc main_arg11) := by
  after_results_simp

theorem r20_keep_main_arg12 : StableHlo.after (c20 (F := Ideal)) W (Proc.devRef .tc main_arg12) = W (Proc.devRef .tc main_arg12) := by
  after_results_simp

theorem r20_keep_main_arg13 : StableHlo.after (c20 (F := Ideal)) W (Proc.devRef .tc main_arg13) = W (Proc.devRef .tc main_arg13) := by
  after_results_simp

theorem r20_keep_main_arg14 : StableHlo.after (c20 (F := Ideal)) W (Proc.devRef .tc main_arg14) = W (Proc.devRef .tc main_arg14) := by
  after_results_simp

theorem r20_keep_main_arg15 : StableHlo.after (c20 (F := Ideal)) W (Proc.devRef .tc main_arg15) = W (Proc.devRef .tc main_arg15) := by
  after_results_simp

theorem r20_keep_main_arg16 : StableHlo.after (c20 (F := Ideal)) W (Proc.devRef .tc main_arg16) = W (Proc.devRef .tc main_arg16) := by
  after_results_simp

theorem r20_keep_main_arg17 : StableHlo.after (c20 (F := Ideal)) W (Proc.devRef .tc main_arg17) = W (Proc.devRef .tc main_arg17) := by
  after_results_simp

theorem r20_keep_main_arg18 : StableHlo.after (c20 (F := Ideal)) W (Proc.devRef .tc main_arg18) = W (Proc.devRef .tc main_arg18) := by
  after_results_simp

theorem r20_keep_main_arg19 : StableHlo.after (c20 (F := Ideal)) W (Proc.devRef .tc main_arg19) = W (Proc.devRef .tc main_arg19) := by
  after_results_simp

theorem r20_keep_main_arg20 : StableHlo.after (c20 (F := Ideal)) W (Proc.devRef .tc main_arg20) = W (Proc.devRef .tc main_arg20) := by
  after_results_simp

theorem r20_keep_main_arg21 : StableHlo.after (c20 (F := Ideal)) W (Proc.devRef .tc main_arg21) = W (Proc.devRef .tc main_arg21) := by
  after_results_simp

theorem r20_keep_main_arg22 : StableHlo.after (c20 (F := Ideal)) W (Proc.devRef .tc main_arg22) = W (Proc.devRef .tc main_arg22) := by
  after_results_simp

theorem r20_keep_main_arg23 : StableHlo.after (c20 (F := Ideal)) W (Proc.devRef .tc main_arg23) = W (Proc.devRef .tc main_arg23) := by
  after_results_simp

theorem r20_keep_main_arg24 : StableHlo.after (c20 (F := Ideal)) W (Proc.devRef .tc main_arg24) = W (Proc.devRef .tc main_arg24) := by
  after_results_simp

theorem r20_keep_main_arg25 : StableHlo.after (c20 (F := Ideal)) W (Proc.devRef .tc main_arg25) = W (Proc.devRef .tc main_arg25) := by
  after_results_simp

theorem r20_keep_main_arg26 : StableHlo.after (c20 (F := Ideal)) W (Proc.devRef .tc main_arg26) = W (Proc.devRef .tc main_arg26) := by
  after_results_simp

theorem r20_keep_main_arg27 : StableHlo.after (c20 (F := Ideal)) W (Proc.devRef .tc main_arg27) = W (Proc.devRef .tc main_arg27) := by
  after_results_simp

theorem r20_keep_main_arg28 : StableHlo.after (c20 (F := Ideal)) W (Proc.devRef .tc main_arg28) = W (Proc.devRef .tc main_arg28) := by
  after_results_simp

end Cert.ReferenceIdeal.ChainR

end
-- ==== Proof.ChainRef21.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r21_main_v125 (h_main_v123 : W (Proc.devRef .tc main_v123) = val_main_v123 (F := Ideal) x1) (h_main_v124 : W (Proc.devRef .tc main_v124) = val_main_v124 (F := Ideal) x1) (h_main_cst_23 : W (Proc.devRef .tc main_cst_23) = val_main_cst_23 (F := Ideal)) :
    StableHlo.after (c21 (F := Ideal)) W (Proc.devRef .tc main_v125) = val_main_v125 (F := Ideal) x1 := by
  after_results_simp
  try simp only [cast_eq]
  rw [h_main_v123, h_main_v124, h_main_cst_23]
  rfl

theorem r21_keep_main_v5 : StableHlo.after (c21 (F := Ideal)) W (Proc.devRef .tc main_v5) = W (Proc.devRef .tc main_v5) := by
  after_results_simp

theorem r21_keep_main_v7 : StableHlo.after (c21 (F := Ideal)) W (Proc.devRef .tc main_v7) = W (Proc.devRef .tc main_v7) := by
  after_results_simp

theorem r21_keep_main_v114 : StableHlo.after (c21 (F := Ideal)) W (Proc.devRef .tc main_v114) = W (Proc.devRef .tc main_v114) := by
  after_results_simp

theorem r21_keep_main_v116 : StableHlo.after (c21 (F := Ideal)) W (Proc.devRef .tc main_v116) = W (Proc.devRef .tc main_v116) := by
  after_results_simp

theorem r21_keep_main_v117 : StableHlo.after (c21 (F := Ideal)) W (Proc.devRef .tc main_v117) = W (Proc.devRef .tc main_v117) := by
  after_results_simp

theorem r21_keep_main_arg0 : StableHlo.after (c21 (F := Ideal)) W (Proc.devRef .tc main_arg0) = W (Proc.devRef .tc main_arg0) := by
  after_results_simp

theorem r21_keep_main_arg1 : StableHlo.after (c21 (F := Ideal)) W (Proc.devRef .tc main_arg1) = W (Proc.devRef .tc main_arg1) := by
  after_results_simp

theorem r21_keep_main_arg2 : StableHlo.after (c21 (F := Ideal)) W (Proc.devRef .tc main_arg2) = W (Proc.devRef .tc main_arg2) := by
  after_results_simp

theorem r21_keep_main_arg3 : StableHlo.after (c21 (F := Ideal)) W (Proc.devRef .tc main_arg3) = W (Proc.devRef .tc main_arg3) := by
  after_results_simp

theorem r21_keep_main_arg4 : StableHlo.after (c21 (F := Ideal)) W (Proc.devRef .tc main_arg4) = W (Proc.devRef .tc main_arg4) := by
  after_results_simp

theorem r21_keep_main_arg5 : StableHlo.after (c21 (F := Ideal)) W (Proc.devRef .tc main_arg5) = W (Proc.devRef .tc main_arg5) := by
  after_results_simp

theorem r21_keep_main_arg6 : StableHlo.after (c21 (F := Ideal)) W (Proc.devRef .tc main_arg6) = W (Proc.devRef .tc main_arg6) := by
  after_results_simp

theorem r21_keep_main_arg7 : StableHlo.after (c21 (F := Ideal)) W (Proc.devRef .tc main_arg7) = W (Proc.devRef .tc main_arg7) := by
  after_results_simp

theorem r21_keep_main_arg8 : StableHlo.after (c21 (F := Ideal)) W (Proc.devRef .tc main_arg8) = W (Proc.devRef .tc main_arg8) := by
  after_results_simp

theorem r21_keep_main_arg9 : StableHlo.after (c21 (F := Ideal)) W (Proc.devRef .tc main_arg9) = W (Proc.devRef .tc main_arg9) := by
  after_results_simp

theorem r21_keep_main_arg10 : StableHlo.after (c21 (F := Ideal)) W (Proc.devRef .tc main_arg10) = W (Proc.devRef .tc main_arg10) := by
  after_results_simp

theorem r21_keep_main_arg11 : StableHlo.after (c21 (F := Ideal)) W (Proc.devRef .tc main_arg11) = W (Proc.devRef .tc main_arg11) := by
  after_results_simp

theorem r21_keep_main_arg12 : StableHlo.after (c21 (F := Ideal)) W (Proc.devRef .tc main_arg12) = W (Proc.devRef .tc main_arg12) := by
  after_results_simp

theorem r21_keep_main_arg13 : StableHlo.after (c21 (F := Ideal)) W (Proc.devRef .tc main_arg13) = W (Proc.devRef .tc main_arg13) := by
  after_results_simp

theorem r21_keep_main_arg14 : StableHlo.after (c21 (F := Ideal)) W (Proc.devRef .tc main_arg14) = W (Proc.devRef .tc main_arg14) := by
  after_results_simp

theorem r21_keep_main_arg15 : StableHlo.after (c21 (F := Ideal)) W (Proc.devRef .tc main_arg15) = W (Proc.devRef .tc main_arg15) := by
  after_results_simp

theorem r21_keep_main_arg16 : StableHlo.after (c21 (F := Ideal)) W (Proc.devRef .tc main_arg16) = W (Proc.devRef .tc main_arg16) := by
  after_results_simp

theorem r21_keep_main_arg17 : StableHlo.after (c21 (F := Ideal)) W (Proc.devRef .tc main_arg17) = W (Proc.devRef .tc main_arg17) := by
  after_results_simp

theorem r21_keep_main_arg18 : StableHlo.after (c21 (F := Ideal)) W (Proc.devRef .tc main_arg18) = W (Proc.devRef .tc main_arg18) := by
  after_results_simp

theorem r21_keep_main_arg19 : StableHlo.after (c21 (F := Ideal)) W (Proc.devRef .tc main_arg19) = W (Proc.devRef .tc main_arg19) := by
  after_results_simp

theorem r21_keep_main_arg20 : StableHlo.after (c21 (F := Ideal)) W (Proc.devRef .tc main_arg20) = W (Proc.devRef .tc main_arg20) := by
  after_results_simp

theorem r21_keep_main_arg21 : StableHlo.after (c21 (F := Ideal)) W (Proc.devRef .tc main_arg21) = W (Proc.devRef .tc main_arg21) := by
  after_results_simp

theorem r21_keep_main_arg22 : StableHlo.after (c21 (F := Ideal)) W (Proc.devRef .tc main_arg22) = W (Proc.devRef .tc main_arg22) := by
  after_results_simp

theorem r21_keep_main_arg23 : StableHlo.after (c21 (F := Ideal)) W (Proc.devRef .tc main_arg23) = W (Proc.devRef .tc main_arg23) := by
  after_results_simp

theorem r21_keep_main_arg24 : StableHlo.after (c21 (F := Ideal)) W (Proc.devRef .tc main_arg24) = W (Proc.devRef .tc main_arg24) := by
  after_results_simp

theorem r21_keep_main_arg25 : StableHlo.after (c21 (F := Ideal)) W (Proc.devRef .tc main_arg25) = W (Proc.devRef .tc main_arg25) := by
  after_results_simp

theorem r21_keep_main_arg26 : StableHlo.after (c21 (F := Ideal)) W (Proc.devRef .tc main_arg26) = W (Proc.devRef .tc main_arg26) := by
  after_results_simp

theorem r21_keep_main_arg27 : StableHlo.after (c21 (F := Ideal)) W (Proc.devRef .tc main_arg27) = W (Proc.devRef .tc main_arg27) := by
  after_results_simp

theorem r21_keep_main_arg28 : StableHlo.after (c21 (F := Ideal)) W (Proc.devRef .tc main_arg28) = W (Proc.devRef .tc main_arg28) := by
  after_results_simp

end Cert.ReferenceIdeal.ChainR

end
-- ==== Proof.ChainRef22.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r22_main_v140 (h_main_v125 : W (Proc.devRef .tc main_v125) = val_main_v125 (F := Ideal) x1) (h_main_v116 : W (Proc.devRef .tc main_v116) = val_main_v116 (F := Ideal) x1) (h_main_v117 : W (Proc.devRef .tc main_v117) = val_main_v117 (F := Ideal) x1) :
    StableHlo.after (c22 (F := Ideal)) W (Proc.devRef .tc main_v140) = val_main_v140 (F := Ideal) x1 := by
  after_results_simp
  try simp only [cast_eq]
  rw [h_main_v125, h_main_v116, h_main_v117]
  rfl

theorem r22_keep_main_v5 : StableHlo.after (c22 (F := Ideal)) W (Proc.devRef .tc main_v5) = W (Proc.devRef .tc main_v5) := by
  after_results_simp

theorem r22_keep_main_v7 : StableHlo.after (c22 (F := Ideal)) W (Proc.devRef .tc main_v7) = W (Proc.devRef .tc main_v7) := by
  after_results_simp

theorem r22_keep_main_v114 : StableHlo.after (c22 (F := Ideal)) W (Proc.devRef .tc main_v114) = W (Proc.devRef .tc main_v114) := by
  after_results_simp

theorem r22_keep_main_v116 : StableHlo.after (c22 (F := Ideal)) W (Proc.devRef .tc main_v116) = W (Proc.devRef .tc main_v116) := by
  after_results_simp

theorem r22_keep_main_v117 : StableHlo.after (c22 (F := Ideal)) W (Proc.devRef .tc main_v117) = W (Proc.devRef .tc main_v117) := by
  after_results_simp

theorem r22_keep_main_arg0 : StableHlo.after (c22 (F := Ideal)) W (Proc.devRef .tc main_arg0) = W (Proc.devRef .tc main_arg0) := by
  after_results_simp

theorem r22_keep_main_arg1 : StableHlo.after (c22 (F := Ideal)) W (Proc.devRef .tc main_arg1) = W (Proc.devRef .tc main_arg1) := by
  after_results_simp

theorem r22_keep_main_arg2 : StableHlo.after (c22 (F := Ideal)) W (Proc.devRef .tc main_arg2) = W (Proc.devRef .tc main_arg2) := by
  after_results_simp

theorem r22_keep_main_arg3 : StableHlo.after (c22 (F := Ideal)) W (Proc.devRef .tc main_arg3) = W (Proc.devRef .tc main_arg3) := by
  after_results_simp

theorem r22_keep_main_arg4 : StableHlo.after (c22 (F := Ideal)) W (Proc.devRef .tc main_arg4) = W (Proc.devRef .tc main_arg4) := by
  after_results_simp

theorem r22_keep_main_arg5 : StableHlo.after (c22 (F := Ideal)) W (Proc.devRef .tc main_arg5) = W (Proc.devRef .tc main_arg5) := by
  after_results_simp

theorem r22_keep_main_arg6 : StableHlo.after (c22 (F := Ideal)) W (Proc.devRef .tc main_arg6) = W (Proc.devRef .tc main_arg6) := by
  after_results_simp

theorem r22_keep_main_arg7 : StableHlo.after (c22 (F := Ideal)) W (Proc.devRef .tc main_arg7) = W (Proc.devRef .tc main_arg7) := by
  after_results_simp

theorem r22_keep_main_arg8 : StableHlo.after (c22 (F := Ideal)) W (Proc.devRef .tc main_arg8) = W (Proc.devRef .tc main_arg8) := by
  after_results_simp

theorem r22_keep_main_arg9 : StableHlo.after (c22 (F := Ideal)) W (Proc.devRef .tc main_arg9) = W (Proc.devRef .tc main_arg9) := by
  after_results_simp

theorem r22_keep_main_arg10 : StableHlo.after (c22 (F := Ideal)) W (Proc.devRef .tc main_arg10) = W (Proc.devRef .tc main_arg10) := by
  after_results_simp

theorem r22_keep_main_arg11 : StableHlo.after (c22 (F := Ideal)) W (Proc.devRef .tc main_arg11) = W (Proc.devRef .tc main_arg11) := by
  after_results_simp

theorem r22_keep_main_arg12 : StableHlo.after (c22 (F := Ideal)) W (Proc.devRef .tc main_arg12) = W (Proc.devRef .tc main_arg12) := by
  after_results_simp

theorem r22_keep_main_arg13 : StableHlo.after (c22 (F := Ideal)) W (Proc.devRef .tc main_arg13) = W (Proc.devRef .tc main_arg13) := by
  after_results_simp

theorem r22_keep_main_arg14 : StableHlo.after (c22 (F := Ideal)) W (Proc.devRef .tc main_arg14) = W (Proc.devRef .tc main_arg14) := by
  after_results_simp

theorem r22_keep_main_arg15 : StableHlo.after (c22 (F := Ideal)) W (Proc.devRef .tc main_arg15) = W (Proc.devRef .tc main_arg15) := by
  after_results_simp

theorem r22_keep_main_arg16 : StableHlo.after (c22 (F := Ideal)) W (Proc.devRef .tc main_arg16) = W (Proc.devRef .tc main_arg16) := by
  after_results_simp

theorem r22_keep_main_arg17 : StableHlo.after (c22 (F := Ideal)) W (Proc.devRef .tc main_arg17) = W (Proc.devRef .tc main_arg17) := by
  after_results_simp

theorem r22_keep_main_arg18 : StableHlo.after (c22 (F := Ideal)) W (Proc.devRef .tc main_arg18) = W (Proc.devRef .tc main_arg18) := by
  after_results_simp

theorem r22_keep_main_arg19 : StableHlo.after (c22 (F := Ideal)) W (Proc.devRef .tc main_arg19) = W (Proc.devRef .tc main_arg19) := by
  after_results_simp

theorem r22_keep_main_arg20 : StableHlo.after (c22 (F := Ideal)) W (Proc.devRef .tc main_arg20) = W (Proc.devRef .tc main_arg20) := by
  after_results_simp

theorem r22_keep_main_arg21 : StableHlo.after (c22 (F := Ideal)) W (Proc.devRef .tc main_arg21) = W (Proc.devRef .tc main_arg21) := by
  after_results_simp

theorem r22_keep_main_arg22 : StableHlo.after (c22 (F := Ideal)) W (Proc.devRef .tc main_arg22) = W (Proc.devRef .tc main_arg22) := by
  after_results_simp

theorem r22_keep_main_arg23 : StableHlo.after (c22 (F := Ideal)) W (Proc.devRef .tc main_arg23) = W (Proc.devRef .tc main_arg23) := by
  after_results_simp

theorem r22_keep_main_arg24 : StableHlo.after (c22 (F := Ideal)) W (Proc.devRef .tc main_arg24) = W (Proc.devRef .tc main_arg24) := by
  after_results_simp

theorem r22_keep_main_arg25 : StableHlo.after (c22 (F := Ideal)) W (Proc.devRef .tc main_arg25) = W (Proc.devRef .tc main_arg25) := by
  after_results_simp

theorem r22_keep_main_arg26 : StableHlo.after (c22 (F := Ideal)) W (Proc.devRef .tc main_arg26) = W (Proc.devRef .tc main_arg26) := by
  after_results_simp

theorem r22_keep_main_arg27 : StableHlo.after (c22 (F := Ideal)) W (Proc.devRef .tc main_arg27) = W (Proc.devRef .tc main_arg27) := by
  after_results_simp

theorem r22_keep_main_arg28 : StableHlo.after (c22 (F := Ideal)) W (Proc.devRef .tc main_arg28) = W (Proc.devRef .tc main_arg28) := by
  after_results_simp

end Cert.ReferenceIdeal.ChainR

end
-- ==== Proof.ChainRef23.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r23_main_v141 (h_main_v114 : W (Proc.devRef .tc main_v114) = val_main_v114 (F := Ideal) x0 x1 x2 x5 x6 x7 x8 x9 x10 x11 x12 x17 x18 x19 x20) (h_main_arg13 : W (Proc.devRef .tc main_arg13) = x13) :
    StableHlo.after (c23 (F := Ideal)) W (Proc.devRef .tc main_v141) = val_main_v141 (F := Ideal) x0 x1 x2 x5 x6 x7 x8 x9 x10 x11 x12 x13 x17 x18 x19 x20 := by
  after_results_simp
  try simp only [cast_eq]
  rw [h_main_v114, h_main_arg13]
  rfl

theorem r23_keep_main_v5 : StableHlo.after (c23 (F := Ideal)) W (Proc.devRef .tc main_v5) = W (Proc.devRef .tc main_v5) := by
  after_results_simp

theorem r23_keep_main_v7 : StableHlo.after (c23 (F := Ideal)) W (Proc.devRef .tc main_v7) = W (Proc.devRef .tc main_v7) := by
  after_results_simp

theorem r23_keep_main_v114 : StableHlo.after (c23 (F := Ideal)) W (Proc.devRef .tc main_v114) = W (Proc.devRef .tc main_v114) := by
  after_results_simp

theorem r23_keep_main_v116 : StableHlo.after (c23 (F := Ideal)) W (Proc.devRef .tc main_v116) = W (Proc.devRef .tc main_v116) := by
  after_results_simp

theorem r23_keep_main_v117 : StableHlo.after (c23 (F := Ideal)) W (Proc.devRef .tc main_v117) = W (Proc.devRef .tc main_v117) := by
  after_results_simp

theorem r23_keep_main_v140 : StableHlo.after (c23 (F := Ideal)) W (Proc.devRef .tc main_v140) = W (Proc.devRef .tc main_v140) := by
  after_results_simp

theorem r23_keep_main_arg0 : StableHlo.after (c23 (F := Ideal)) W (Proc.devRef .tc main_arg0) = W (Proc.devRef .tc main_arg0) := by
  after_results_simp

theorem r23_keep_main_arg1 : StableHlo.after (c23 (F := Ideal)) W (Proc.devRef .tc main_arg1) = W (Proc.devRef .tc main_arg1) := by
  after_results_simp

theorem r23_keep_main_arg2 : StableHlo.after (c23 (F := Ideal)) W (Proc.devRef .tc main_arg2) = W (Proc.devRef .tc main_arg2) := by
  after_results_simp

theorem r23_keep_main_arg3 : StableHlo.after (c23 (F := Ideal)) W (Proc.devRef .tc main_arg3) = W (Proc.devRef .tc main_arg3) := by
  after_results_simp

theorem r23_keep_main_arg4 : StableHlo.after (c23 (F := Ideal)) W (Proc.devRef .tc main_arg4) = W (Proc.devRef .tc main_arg4) := by
  after_results_simp

theorem r23_keep_main_arg5 : StableHlo.after (c23 (F := Ideal)) W (Proc.devRef .tc main_arg5) = W (Proc.devRef .tc main_arg5) := by
  after_results_simp

theorem r23_keep_main_arg6 : StableHlo.after (c23 (F := Ideal)) W (Proc.devRef .tc main_arg6) = W (Proc.devRef .tc main_arg6) := by
  after_results_simp

theorem r23_keep_main_arg7 : StableHlo.after (c23 (F := Ideal)) W (Proc.devRef .tc main_arg7) = W (Proc.devRef .tc main_arg7) := by
  after_results_simp

theorem r23_keep_main_arg8 : StableHlo.after (c23 (F := Ideal)) W (Proc.devRef .tc main_arg8) = W (Proc.devRef .tc main_arg8) := by
  after_results_simp

theorem r23_keep_main_arg9 : StableHlo.after (c23 (F := Ideal)) W (Proc.devRef .tc main_arg9) = W (Proc.devRef .tc main_arg9) := by
  after_results_simp

theorem r23_keep_main_arg10 : StableHlo.after (c23 (F := Ideal)) W (Proc.devRef .tc main_arg10) = W (Proc.devRef .tc main_arg10) := by
  after_results_simp

theorem r23_keep_main_arg11 : StableHlo.after (c23 (F := Ideal)) W (Proc.devRef .tc main_arg11) = W (Proc.devRef .tc main_arg11) := by
  after_results_simp

theorem r23_keep_main_arg12 : StableHlo.after (c23 (F := Ideal)) W (Proc.devRef .tc main_arg12) = W (Proc.devRef .tc main_arg12) := by
  after_results_simp

theorem r23_keep_main_arg13 : StableHlo.after (c23 (F := Ideal)) W (Proc.devRef .tc main_arg13) = W (Proc.devRef .tc main_arg13) := by
  after_results_simp

theorem r23_keep_main_arg14 : StableHlo.after (c23 (F := Ideal)) W (Proc.devRef .tc main_arg14) = W (Proc.devRef .tc main_arg14) := by
  after_results_simp

theorem r23_keep_main_arg15 : StableHlo.after (c23 (F := Ideal)) W (Proc.devRef .tc main_arg15) = W (Proc.devRef .tc main_arg15) := by
  after_results_simp

theorem r23_keep_main_arg16 : StableHlo.after (c23 (F := Ideal)) W (Proc.devRef .tc main_arg16) = W (Proc.devRef .tc main_arg16) := by
  after_results_simp

theorem r23_keep_main_arg17 : StableHlo.after (c23 (F := Ideal)) W (Proc.devRef .tc main_arg17) = W (Proc.devRef .tc main_arg17) := by
  after_results_simp

theorem r23_keep_main_arg18 : StableHlo.after (c23 (F := Ideal)) W (Proc.devRef .tc main_arg18) = W (Proc.devRef .tc main_arg18) := by
  after_results_simp

theorem r23_keep_main_arg19 : StableHlo.after (c23 (F := Ideal)) W (Proc.devRef .tc main_arg19) = W (Proc.devRef .tc main_arg19) := by
  after_results_simp

theorem r23_keep_main_arg20 : StableHlo.after (c23 (F := Ideal)) W (Proc.devRef .tc main_arg20) = W (Proc.devRef .tc main_arg20) := by
  after_results_simp

theorem r23_keep_main_arg21 : StableHlo.after (c23 (F := Ideal)) W (Proc.devRef .tc main_arg21) = W (Proc.devRef .tc main_arg21) := by
  after_results_simp

theorem r23_keep_main_arg22 : StableHlo.after (c23 (F := Ideal)) W (Proc.devRef .tc main_arg22) = W (Proc.devRef .tc main_arg22) := by
  after_results_simp

theorem r23_keep_main_arg23 : StableHlo.after (c23 (F := Ideal)) W (Proc.devRef .tc main_arg23) = W (Proc.devRef .tc main_arg23) := by
  after_results_simp

theorem r23_keep_main_arg24 : StableHlo.after (c23 (F := Ideal)) W (Proc.devRef .tc main_arg24) = W (Proc.devRef .tc main_arg24) := by
  after_results_simp

theorem r23_keep_main_arg25 : StableHlo.after (c23 (F := Ideal)) W (Proc.devRef .tc main_arg25) = W (Proc.devRef .tc main_arg25) := by
  after_results_simp

theorem r23_keep_main_arg26 : StableHlo.after (c23 (F := Ideal)) W (Proc.devRef .tc main_arg26) = W (Proc.devRef .tc main_arg26) := by
  after_results_simp

theorem r23_keep_main_arg27 : StableHlo.after (c23 (F := Ideal)) W (Proc.devRef .tc main_arg27) = W (Proc.devRef .tc main_arg27) := by
  after_results_simp

theorem r23_keep_main_arg28 : StableHlo.after (c23 (F := Ideal)) W (Proc.devRef .tc main_arg28) = W (Proc.devRef .tc main_arg28) := by
  after_results_simp

end Cert.ReferenceIdeal.ChainR

end
-- ==== Proof.ChainRef24.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r24_main_v157 (h_main_v117 : W (Proc.devRef .tc main_v117) = val_main_v117 (F := Ideal) x1) (h_main_v141 : W (Proc.devRef .tc main_v141) = val_main_v141 (F := Ideal) x0 x1 x2 x5 x6 x7 x8 x9 x10 x11 x12 x13 x17 x18 x19 x20) (h_main_v116 : W (Proc.devRef .tc main_v116) = val_main_v116 (F := Ideal) x1) (h_main_v140 : W (Proc.devRef .tc main_v140) = val_main_v140 (F := Ideal) x1) (h_main_arg14 : W (Proc.devRef .tc main_arg14) = x14) :
    StableHlo.after (c24 (F := Ideal)) W (Proc.devRef .tc main_v157) = val_main_v157 (F := Ideal) x0 x1 x2 x5 x6 x7 x8 x9 x10 x11 x12 x13 x14 x17 x18 x19 x20 := by
  after_results_simp
  try simp only [cast_eq]
  rw [h_main_v117, h_main_v141, h_main_v116, h_main_v140, h_main_arg14]
  rfl

theorem r24_keep_main_v5 : StableHlo.after (c24 (F := Ideal)) W (Proc.devRef .tc main_v5) = W (Proc.devRef .tc main_v5) := by
  after_results_simp

theorem r24_keep_main_v7 : StableHlo.after (c24 (F := Ideal)) W (Proc.devRef .tc main_v7) = W (Proc.devRef .tc main_v7) := by
  after_results_simp

theorem r24_keep_main_v114 : StableHlo.after (c24 (F := Ideal)) W (Proc.devRef .tc main_v114) = W (Proc.devRef .tc main_v114) := by
  after_results_simp

theorem r24_keep_main_arg0 : StableHlo.after (c24 (F := Ideal)) W (Proc.devRef .tc main_arg0) = W (Proc.devRef .tc main_arg0) := by
  after_results_simp

theorem r24_keep_main_arg1 : StableHlo.after (c24 (F := Ideal)) W (Proc.devRef .tc main_arg1) = W (Proc.devRef .tc main_arg1) := by
  after_results_simp

theorem r24_keep_main_arg2 : StableHlo.after (c24 (F := Ideal)) W (Proc.devRef .tc main_arg2) = W (Proc.devRef .tc main_arg2) := by
  after_results_simp

theorem r24_keep_main_arg3 : StableHlo.after (c24 (F := Ideal)) W (Proc.devRef .tc main_arg3) = W (Proc.devRef .tc main_arg3) := by
  after_results_simp

theorem r24_keep_main_arg4 : StableHlo.after (c24 (F := Ideal)) W (Proc.devRef .tc main_arg4) = W (Proc.devRef .tc main_arg4) := by
  after_results_simp

theorem r24_keep_main_arg5 : StableHlo.after (c24 (F := Ideal)) W (Proc.devRef .tc main_arg5) = W (Proc.devRef .tc main_arg5) := by
  after_results_simp

theorem r24_keep_main_arg6 : StableHlo.after (c24 (F := Ideal)) W (Proc.devRef .tc main_arg6) = W (Proc.devRef .tc main_arg6) := by
  after_results_simp

theorem r24_keep_main_arg7 : StableHlo.after (c24 (F := Ideal)) W (Proc.devRef .tc main_arg7) = W (Proc.devRef .tc main_arg7) := by
  after_results_simp

theorem r24_keep_main_arg8 : StableHlo.after (c24 (F := Ideal)) W (Proc.devRef .tc main_arg8) = W (Proc.devRef .tc main_arg8) := by
  after_results_simp

theorem r24_keep_main_arg9 : StableHlo.after (c24 (F := Ideal)) W (Proc.devRef .tc main_arg9) = W (Proc.devRef .tc main_arg9) := by
  after_results_simp

theorem r24_keep_main_arg10 : StableHlo.after (c24 (F := Ideal)) W (Proc.devRef .tc main_arg10) = W (Proc.devRef .tc main_arg10) := by
  after_results_simp

theorem r24_keep_main_arg11 : StableHlo.after (c24 (F := Ideal)) W (Proc.devRef .tc main_arg11) = W (Proc.devRef .tc main_arg11) := by
  after_results_simp

theorem r24_keep_main_arg12 : StableHlo.after (c24 (F := Ideal)) W (Proc.devRef .tc main_arg12) = W (Proc.devRef .tc main_arg12) := by
  after_results_simp

theorem r24_keep_main_arg13 : StableHlo.after (c24 (F := Ideal)) W (Proc.devRef .tc main_arg13) = W (Proc.devRef .tc main_arg13) := by
  after_results_simp

theorem r24_keep_main_arg14 : StableHlo.after (c24 (F := Ideal)) W (Proc.devRef .tc main_arg14) = W (Proc.devRef .tc main_arg14) := by
  after_results_simp

theorem r24_keep_main_arg15 : StableHlo.after (c24 (F := Ideal)) W (Proc.devRef .tc main_arg15) = W (Proc.devRef .tc main_arg15) := by
  after_results_simp

theorem r24_keep_main_arg16 : StableHlo.after (c24 (F := Ideal)) W (Proc.devRef .tc main_arg16) = W (Proc.devRef .tc main_arg16) := by
  after_results_simp

theorem r24_keep_main_arg17 : StableHlo.after (c24 (F := Ideal)) W (Proc.devRef .tc main_arg17) = W (Proc.devRef .tc main_arg17) := by
  after_results_simp

theorem r24_keep_main_arg18 : StableHlo.after (c24 (F := Ideal)) W (Proc.devRef .tc main_arg18) = W (Proc.devRef .tc main_arg18) := by
  after_results_simp

theorem r24_keep_main_arg19 : StableHlo.after (c24 (F := Ideal)) W (Proc.devRef .tc main_arg19) = W (Proc.devRef .tc main_arg19) := by
  after_results_simp

theorem r24_keep_main_arg20 : StableHlo.after (c24 (F := Ideal)) W (Proc.devRef .tc main_arg20) = W (Proc.devRef .tc main_arg20) := by
  after_results_simp

theorem r24_keep_main_arg21 : StableHlo.after (c24 (F := Ideal)) W (Proc.devRef .tc main_arg21) = W (Proc.devRef .tc main_arg21) := by
  after_results_simp

theorem r24_keep_main_arg22 : StableHlo.after (c24 (F := Ideal)) W (Proc.devRef .tc main_arg22) = W (Proc.devRef .tc main_arg22) := by
  after_results_simp

theorem r24_keep_main_arg23 : StableHlo.after (c24 (F := Ideal)) W (Proc.devRef .tc main_arg23) = W (Proc.devRef .tc main_arg23) := by
  after_results_simp

theorem r24_keep_main_arg24 : StableHlo.after (c24 (F := Ideal)) W (Proc.devRef .tc main_arg24) = W (Proc.devRef .tc main_arg24) := by
  after_results_simp

theorem r24_keep_main_arg25 : StableHlo.after (c24 (F := Ideal)) W (Proc.devRef .tc main_arg25) = W (Proc.devRef .tc main_arg25) := by
  after_results_simp

theorem r24_keep_main_arg26 : StableHlo.after (c24 (F := Ideal)) W (Proc.devRef .tc main_arg26) = W (Proc.devRef .tc main_arg26) := by
  after_results_simp

theorem r24_keep_main_arg27 : StableHlo.after (c24 (F := Ideal)) W (Proc.devRef .tc main_arg27) = W (Proc.devRef .tc main_arg27) := by
  after_results_simp

theorem r24_keep_main_arg28 : StableHlo.after (c24 (F := Ideal)) W (Proc.devRef .tc main_arg28) = W (Proc.devRef .tc main_arg28) := by
  after_results_simp

end Cert.ReferenceIdeal.ChainR

end
-- ==== Proof.ChainRef25.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r25_main_v158 (h_main_v157 : W (Proc.devRef .tc main_v157) = val_main_v157 (F := Ideal) x0 x1 x2 x5 x6 x7 x8 x9 x10 x11 x12 x13 x14 x17 x18 x19 x20) :
    StableHlo.after (c25 (F := Ideal)) W (Proc.devRef .tc main_v158) = val_main_v158 (F := Ideal) x0 x1 x2 x5 x6 x7 x8 x9 x10 x11 x12 x13 x14 x17 x18 x19 x20 := by
  after_results_simp
  try simp only [cast_eq]
  rw [h_main_v157]
  rfl

theorem r25_keep_main_v5 : StableHlo.after (c25 (F := Ideal)) W (Proc.devRef .tc main_v5) = W (Proc.devRef .tc main_v5) := by
  after_results_simp

theorem r25_keep_main_v7 : StableHlo.after (c25 (F := Ideal)) W (Proc.devRef .tc main_v7) = W (Proc.devRef .tc main_v7) := by
  after_results_simp

theorem r25_keep_main_v114 : StableHlo.after (c25 (F := Ideal)) W (Proc.devRef .tc main_v114) = W (Proc.devRef .tc main_v114) := by
  after_results_simp

theorem r25_keep_main_arg0 : StableHlo.after (c25 (F := Ideal)) W (Proc.devRef .tc main_arg0) = W (Proc.devRef .tc main_arg0) := by
  after_results_simp

theorem r25_keep_main_arg1 : StableHlo.after (c25 (F := Ideal)) W (Proc.devRef .tc main_arg1) = W (Proc.devRef .tc main_arg1) := by
  after_results_simp

theorem r25_keep_main_arg2 : StableHlo.after (c25 (F := Ideal)) W (Proc.devRef .tc main_arg2) = W (Proc.devRef .tc main_arg2) := by
  after_results_simp

theorem r25_keep_main_arg3 : StableHlo.after (c25 (F := Ideal)) W (Proc.devRef .tc main_arg3) = W (Proc.devRef .tc main_arg3) := by
  after_results_simp

theorem r25_keep_main_arg4 : StableHlo.after (c25 (F := Ideal)) W (Proc.devRef .tc main_arg4) = W (Proc.devRef .tc main_arg4) := by
  after_results_simp

theorem r25_keep_main_arg5 : StableHlo.after (c25 (F := Ideal)) W (Proc.devRef .tc main_arg5) = W (Proc.devRef .tc main_arg5) := by
  after_results_simp

theorem r25_keep_main_arg6 : StableHlo.after (c25 (F := Ideal)) W (Proc.devRef .tc main_arg6) = W (Proc.devRef .tc main_arg6) := by
  after_results_simp

theorem r25_keep_main_arg7 : StableHlo.after (c25 (F := Ideal)) W (Proc.devRef .tc main_arg7) = W (Proc.devRef .tc main_arg7) := by
  after_results_simp

theorem r25_keep_main_arg8 : StableHlo.after (c25 (F := Ideal)) W (Proc.devRef .tc main_arg8) = W (Proc.devRef .tc main_arg8) := by
  after_results_simp

theorem r25_keep_main_arg9 : StableHlo.after (c25 (F := Ideal)) W (Proc.devRef .tc main_arg9) = W (Proc.devRef .tc main_arg9) := by
  after_results_simp

theorem r25_keep_main_arg10 : StableHlo.after (c25 (F := Ideal)) W (Proc.devRef .tc main_arg10) = W (Proc.devRef .tc main_arg10) := by
  after_results_simp

theorem r25_keep_main_arg11 : StableHlo.after (c25 (F := Ideal)) W (Proc.devRef .tc main_arg11) = W (Proc.devRef .tc main_arg11) := by
  after_results_simp

theorem r25_keep_main_arg12 : StableHlo.after (c25 (F := Ideal)) W (Proc.devRef .tc main_arg12) = W (Proc.devRef .tc main_arg12) := by
  after_results_simp

theorem r25_keep_main_arg13 : StableHlo.after (c25 (F := Ideal)) W (Proc.devRef .tc main_arg13) = W (Proc.devRef .tc main_arg13) := by
  after_results_simp

theorem r25_keep_main_arg14 : StableHlo.after (c25 (F := Ideal)) W (Proc.devRef .tc main_arg14) = W (Proc.devRef .tc main_arg14) := by
  after_results_simp

theorem r25_keep_main_arg15 : StableHlo.after (c25 (F := Ideal)) W (Proc.devRef .tc main_arg15) = W (Proc.devRef .tc main_arg15) := by
  after_results_simp

theorem r25_keep_main_arg16 : StableHlo.after (c25 (F := Ideal)) W (Proc.devRef .tc main_arg16) = W (Proc.devRef .tc main_arg16) := by
  after_results_simp

theorem r25_keep_main_arg17 : StableHlo.after (c25 (F := Ideal)) W (Proc.devRef .tc main_arg17) = W (Proc.devRef .tc main_arg17) := by
  after_results_simp

theorem r25_keep_main_arg18 : StableHlo.after (c25 (F := Ideal)) W (Proc.devRef .tc main_arg18) = W (Proc.devRef .tc main_arg18) := by
  after_results_simp

theorem r25_keep_main_arg19 : StableHlo.after (c25 (F := Ideal)) W (Proc.devRef .tc main_arg19) = W (Proc.devRef .tc main_arg19) := by
  after_results_simp

theorem r25_keep_main_arg20 : StableHlo.after (c25 (F := Ideal)) W (Proc.devRef .tc main_arg20) = W (Proc.devRef .tc main_arg20) := by
  after_results_simp

theorem r25_keep_main_arg21 : StableHlo.after (c25 (F := Ideal)) W (Proc.devRef .tc main_arg21) = W (Proc.devRef .tc main_arg21) := by
  after_results_simp

theorem r25_keep_main_arg22 : StableHlo.after (c25 (F := Ideal)) W (Proc.devRef .tc main_arg22) = W (Proc.devRef .tc main_arg22) := by
  after_results_simp

theorem r25_keep_main_arg23 : StableHlo.after (c25 (F := Ideal)) W (Proc.devRef .tc main_arg23) = W (Proc.devRef .tc main_arg23) := by
  after_results_simp

theorem r25_keep_main_arg24 : StableHlo.after (c25 (F := Ideal)) W (Proc.devRef .tc main_arg24) = W (Proc.devRef .tc main_arg24) := by
  after_results_simp

theorem r25_keep_main_arg25 : StableHlo.after (c25 (F := Ideal)) W (Proc.devRef .tc main_arg25) = W (Proc.devRef .tc main_arg25) := by
  after_results_simp

theorem r25_keep_main_arg26 : StableHlo.after (c25 (F := Ideal)) W (Proc.devRef .tc main_arg26) = W (Proc.devRef .tc main_arg26) := by
  after_results_simp

theorem r25_keep_main_arg27 : StableHlo.after (c25 (F := Ideal)) W (Proc.devRef .tc main_arg27) = W (Proc.devRef .tc main_arg27) := by
  after_results_simp

theorem r25_keep_main_arg28 : StableHlo.after (c25 (F := Ideal)) W (Proc.devRef .tc main_arg28) = W (Proc.devRef .tc main_arg28) := by
  after_results_simp

end Cert.ReferenceIdeal.ChainR

end
-- ==== Proof.ChainRef26.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r26_main_v160 (h_main_v5 : W (Proc.devRef .tc main_v5) = val_main_v5 (F := Ideal) x2) :
    StableHlo.after (c26 (F := Ideal)) W (Proc.devRef .tc main_v160) = val_main_v160 (F := Ideal) x2 := by
  after_results_simp
  try simp only [cast_eq]
  rw [h_main_v5]
  rfl

theorem r26_main_v161 (h_main_v7 : W (Proc.devRef .tc main_v7) = val_main_v7 (F := Ideal) x2) :
    StableHlo.after (c26 (F := Ideal)) W (Proc.devRef .tc main_v161) = val_main_v161 (F := Ideal) x2 := by
  after_results_simp
  try simp only [cast_eq]
  rw [h_main_v7]
  rfl

theorem r26_main_v167 (h_main_v7 : W (Proc.devRef .tc main_v7) = val_main_v7 (F := Ideal) x2) :
    StableHlo.after (c26 (F := Ideal)) W (Proc.devRef .tc main_v167) = val_main_v167 (F := Ideal) x2 := by
  after_results_simp
  try simp only [cast_eq]
  rw [h_main_v7]
  rfl

theorem r26_main_v168 (h_main_v7 : W (Proc.devRef .tc main_v7) = val_main_v7 (F := Ideal) x2) :
    StableHlo.after (c26 (F := Ideal)) W (Proc.devRef .tc main_v168) = val_main_v168 (F := Ideal) x2 := by
  after_results_simp
  try simp only [cast_eq]
  rw [h_main_v7]
  rfl

theorem r26_main_cst_34  :
    StableHlo.after (c26 (F := Ideal)) W (Proc.devRef .tc main_cst_34) = val_main_cst_34 (F := Ideal) := by
  after_results_simp
  try simp only [cast_eq]
  rfl

theorem r26_keep_main_v114 : StableHlo.after (c26 (F := Ideal)) W (Proc.devRef .tc main_v114) = W (Proc.devRef .tc main_v114) := by
  after_results_simp

theorem r26_keep_main_v158 : StableHlo.after (c26 (F := Ideal)) W (Proc.devRef .tc main_v158) = W (Proc.devRef .tc main_v158) := by
  after_results_simp

theorem r26_keep_main_arg0 : StableHlo.after (c26 (F := Ideal)) W (Proc.devRef .tc main_arg0) = W (Proc.devRef .tc main_arg0) := by
  after_results_simp

theorem r26_keep_main_arg1 : StableHlo.after (c26 (F := Ideal)) W (Proc.devRef .tc main_arg1) = W (Proc.devRef .tc main_arg1) := by
  after_results_simp

theorem r26_keep_main_arg2 : StableHlo.after (c26 (F := Ideal)) W (Proc.devRef .tc main_arg2) = W (Proc.devRef .tc main_arg2) := by
  after_results_simp

theorem r26_keep_main_arg3 : StableHlo.after (c26 (F := Ideal)) W (Proc.devRef .tc main_arg3) = W (Proc.devRef .tc main_arg3) := by
  after_results_simp

theorem r26_keep_main_arg4 : StableHlo.after (c26 (F := Ideal)) W (Proc.devRef .tc main_arg4) = W (Proc.devRef .tc main_arg4) := by
  after_results_simp

theorem r26_keep_main_arg5 : StableHlo.after (c26 (F := Ideal)) W (Proc.devRef .tc main_arg5) = W (Proc.devRef .tc main_arg5) := by
  after_results_simp

theorem r26_keep_main_arg6 : StableHlo.after (c26 (F := Ideal)) W (Proc.devRef .tc main_arg6) = W (Proc.devRef .tc main_arg6) := by
  after_results_simp

theorem r26_keep_main_arg7 : StableHlo.after (c26 (F := Ideal)) W (Proc.devRef .tc main_arg7) = W (Proc.devRef .tc main_arg7) := by
  after_results_simp

theorem r26_keep_main_arg8 : StableHlo.after (c26 (F := Ideal)) W (Proc.devRef .tc main_arg8) = W (Proc.devRef .tc main_arg8) := by
  after_results_simp

theorem r26_keep_main_arg9 : StableHlo.after (c26 (F := Ideal)) W (Proc.devRef .tc main_arg9) = W (Proc.devRef .tc main_arg9) := by
  after_results_simp

theorem r26_keep_main_arg10 : StableHlo.after (c26 (F := Ideal)) W (Proc.devRef .tc main_arg10) = W (Proc.devRef .tc main_arg10) := by
  after_results_simp

theorem r26_keep_main_arg11 : StableHlo.after (c26 (F := Ideal)) W (Proc.devRef .tc main_arg11) = W (Proc.devRef .tc main_arg11) := by
  after_results_simp

theorem r26_keep_main_arg12 : StableHlo.after (c26 (F := Ideal)) W (Proc.devRef .tc main_arg12) = W (Proc.devRef .tc main_arg12) := by
  after_results_simp

theorem r26_keep_main_arg13 : StableHlo.after (c26 (F := Ideal)) W (Proc.devRef .tc main_arg13) = W (Proc.devRef .tc main_arg13) := by
  after_results_simp

theorem r26_keep_main_arg14 : StableHlo.after (c26 (F := Ideal)) W (Proc.devRef .tc main_arg14) = W (Proc.devRef .tc main_arg14) := by
  after_results_simp

theorem r26_keep_main_arg15 : StableHlo.after (c26 (F := Ideal)) W (Proc.devRef .tc main_arg15) = W (Proc.devRef .tc main_arg15) := by
  after_results_simp

theorem r26_keep_main_arg16 : StableHlo.after (c26 (F := Ideal)) W (Proc.devRef .tc main_arg16) = W (Proc.devRef .tc main_arg16) := by
  after_results_simp

theorem r26_keep_main_arg17 : StableHlo.after (c26 (F := Ideal)) W (Proc.devRef .tc main_arg17) = W (Proc.devRef .tc main_arg17) := by
  after_results_simp

theorem r26_keep_main_arg18 : StableHlo.after (c26 (F := Ideal)) W (Proc.devRef .tc main_arg18) = W (Proc.devRef .tc main_arg18) := by
  after_results_simp

theorem r26_keep_main_arg19 : StableHlo.after (c26 (F := Ideal)) W (Proc.devRef .tc main_arg19) = W (Proc.devRef .tc main_arg19) := by
  after_results_simp

theorem r26_keep_main_arg20 : StableHlo.after (c26 (F := Ideal)) W (Proc.devRef .tc main_arg20) = W (Proc.devRef .tc main_arg20) := by
  after_results_simp

theorem r26_keep_main_arg21 : StableHlo.after (c26 (F := Ideal)) W (Proc.devRef .tc main_arg21) = W (Proc.devRef .tc main_arg21) := by
  after_results_simp

theorem r26_keep_main_arg22 : StableHlo.after (c26 (F := Ideal)) W (Proc.devRef .tc main_arg22) = W (Proc.devRef .tc main_arg22) := by
  after_results_simp

theorem r26_keep_main_arg23 : StableHlo.after (c26 (F := Ideal)) W (Proc.devRef .tc main_arg23) = W (Proc.devRef .tc main_arg23) := by
  after_results_simp

theorem r26_keep_main_arg24 : StableHlo.after (c26 (F := Ideal)) W (Proc.devRef .tc main_arg24) = W (Proc.devRef .tc main_arg24) := by
  after_results_simp

theorem r26_keep_main_arg25 : StableHlo.after (c26 (F := Ideal)) W (Proc.devRef .tc main_arg25) = W (Proc.devRef .tc main_arg25) := by
  after_results_simp

theorem r26_keep_main_arg26 : StableHlo.after (c26 (F := Ideal)) W (Proc.devRef .tc main_arg26) = W (Proc.devRef .tc main_arg26) := by
  after_results_simp

theorem r26_keep_main_arg27 : StableHlo.after (c26 (F := Ideal)) W (Proc.devRef .tc main_arg27) = W (Proc.devRef .tc main_arg27) := by
  after_results_simp

theorem r26_keep_main_arg28 : StableHlo.after (c26 (F := Ideal)) W (Proc.devRef .tc main_arg28) = W (Proc.devRef .tc main_arg28) := by
  after_results_simp

end Cert.ReferenceIdeal.ChainR

end
-- ==== Proof.ChainRef27.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r27_main_v169 (h_main_v167 : W (Proc.devRef .tc main_v167) = val_main_v167 (F := Ideal) x2) (h_main_v168 : W (Proc.devRef .tc main_v168) = val_main_v168 (F := Ideal) x2) (h_main_cst_34 : W (Proc.devRef .tc main_cst_34) = val_main_cst_34 (F := Ideal)) :
    StableHlo.after (c27 (F := Ideal)) W (Proc.devRef .tc main_v169) = val_main_v169 (F := Ideal) x2 := by
  after_results_simp
  try simp only [cast_eq]
  rw [h_main_v167, h_main_v168, h_main_cst_34]
  rfl

theorem r27_keep_main_v114 : StableHlo.after (c27 (F := Ideal)) W (Proc.devRef .tc main_v114) = W (Proc.devRef .tc main_v114) := by
  after_results_simp

theorem r27_keep_main_v158 : StableHlo.after (c27 (F := Ideal)) W (Proc.devRef .tc main_v158) = W (Proc.devRef .tc main_v158) := by
  after_results_simp

theorem r27_keep_main_v160 : StableHlo.after (c27 (F := Ideal)) W (Proc.devRef .tc main_v160) = W (Proc.devRef .tc main_v160) := by
  after_results_simp

theorem r27_keep_main_v161 : StableHlo.after (c27 (F := Ideal)) W (Proc.devRef .tc main_v161) = W (Proc.devRef .tc main_v161) := by
  after_results_simp

theorem r27_keep_main_arg0 : StableHlo.after (c27 (F := Ideal)) W (Proc.devRef .tc main_arg0) = W (Proc.devRef .tc main_arg0) := by
  after_results_simp

theorem r27_keep_main_arg1 : StableHlo.after (c27 (F := Ideal)) W (Proc.devRef .tc main_arg1) = W (Proc.devRef .tc main_arg1) := by
  after_results_simp

theorem r27_keep_main_arg2 : StableHlo.after (c27 (F := Ideal)) W (Proc.devRef .tc main_arg2) = W (Proc.devRef .tc main_arg2) := by
  after_results_simp

theorem r27_keep_main_arg3 : StableHlo.after (c27 (F := Ideal)) W (Proc.devRef .tc main_arg3) = W (Proc.devRef .tc main_arg3) := by
  after_results_simp

theorem r27_keep_main_arg4 : StableHlo.after (c27 (F := Ideal)) W (Proc.devRef .tc main_arg4) = W (Proc.devRef .tc main_arg4) := by
  after_results_simp

theorem r27_keep_main_arg5 : StableHlo.after (c27 (F := Ideal)) W (Proc.devRef .tc main_arg5) = W (Proc.devRef .tc main_arg5) := by
  after_results_simp

theorem r27_keep_main_arg6 : StableHlo.after (c27 (F := Ideal)) W (Proc.devRef .tc main_arg6) = W (Proc.devRef .tc main_arg6) := by
  after_results_simp

theorem r27_keep_main_arg7 : StableHlo.after (c27 (F := Ideal)) W (Proc.devRef .tc main_arg7) = W (Proc.devRef .tc main_arg7) := by
  after_results_simp

theorem r27_keep_main_arg8 : StableHlo.after (c27 (F := Ideal)) W (Proc.devRef .tc main_arg8) = W (Proc.devRef .tc main_arg8) := by
  after_results_simp

theorem r27_keep_main_arg9 : StableHlo.after (c27 (F := Ideal)) W (Proc.devRef .tc main_arg9) = W (Proc.devRef .tc main_arg9) := by
  after_results_simp

theorem r27_keep_main_arg10 : StableHlo.after (c27 (F := Ideal)) W (Proc.devRef .tc main_arg10) = W (Proc.devRef .tc main_arg10) := by
  after_results_simp

theorem r27_keep_main_arg11 : StableHlo.after (c27 (F := Ideal)) W (Proc.devRef .tc main_arg11) = W (Proc.devRef .tc main_arg11) := by
  after_results_simp

theorem r27_keep_main_arg12 : StableHlo.after (c27 (F := Ideal)) W (Proc.devRef .tc main_arg12) = W (Proc.devRef .tc main_arg12) := by
  after_results_simp

theorem r27_keep_main_arg13 : StableHlo.after (c27 (F := Ideal)) W (Proc.devRef .tc main_arg13) = W (Proc.devRef .tc main_arg13) := by
  after_results_simp

theorem r27_keep_main_arg14 : StableHlo.after (c27 (F := Ideal)) W (Proc.devRef .tc main_arg14) = W (Proc.devRef .tc main_arg14) := by
  after_results_simp

theorem r27_keep_main_arg15 : StableHlo.after (c27 (F := Ideal)) W (Proc.devRef .tc main_arg15) = W (Proc.devRef .tc main_arg15) := by
  after_results_simp

theorem r27_keep_main_arg16 : StableHlo.after (c27 (F := Ideal)) W (Proc.devRef .tc main_arg16) = W (Proc.devRef .tc main_arg16) := by
  after_results_simp

theorem r27_keep_main_arg17 : StableHlo.after (c27 (F := Ideal)) W (Proc.devRef .tc main_arg17) = W (Proc.devRef .tc main_arg17) := by
  after_results_simp

theorem r27_keep_main_arg18 : StableHlo.after (c27 (F := Ideal)) W (Proc.devRef .tc main_arg18) = W (Proc.devRef .tc main_arg18) := by
  after_results_simp

theorem r27_keep_main_arg19 : StableHlo.after (c27 (F := Ideal)) W (Proc.devRef .tc main_arg19) = W (Proc.devRef .tc main_arg19) := by
  after_results_simp

theorem r27_keep_main_arg20 : StableHlo.after (c27 (F := Ideal)) W (Proc.devRef .tc main_arg20) = W (Proc.devRef .tc main_arg20) := by
  after_results_simp

theorem r27_keep_main_arg21 : StableHlo.after (c27 (F := Ideal)) W (Proc.devRef .tc main_arg21) = W (Proc.devRef .tc main_arg21) := by
  after_results_simp

theorem r27_keep_main_arg22 : StableHlo.after (c27 (F := Ideal)) W (Proc.devRef .tc main_arg22) = W (Proc.devRef .tc main_arg22) := by
  after_results_simp

theorem r27_keep_main_arg23 : StableHlo.after (c27 (F := Ideal)) W (Proc.devRef .tc main_arg23) = W (Proc.devRef .tc main_arg23) := by
  after_results_simp

theorem r27_keep_main_arg24 : StableHlo.after (c27 (F := Ideal)) W (Proc.devRef .tc main_arg24) = W (Proc.devRef .tc main_arg24) := by
  after_results_simp

theorem r27_keep_main_arg25 : StableHlo.after (c27 (F := Ideal)) W (Proc.devRef .tc main_arg25) = W (Proc.devRef .tc main_arg25) := by
  after_results_simp

theorem r27_keep_main_arg26 : StableHlo.after (c27 (F := Ideal)) W (Proc.devRef .tc main_arg26) = W (Proc.devRef .tc main_arg26) := by
  after_results_simp

theorem r27_keep_main_arg27 : StableHlo.after (c27 (F := Ideal)) W (Proc.devRef .tc main_arg27) = W (Proc.devRef .tc main_arg27) := by
  after_results_simp

theorem r27_keep_main_arg28 : StableHlo.after (c27 (F := Ideal)) W (Proc.devRef .tc main_arg28) = W (Proc.devRef .tc main_arg28) := by
  after_results_simp

end Cert.ReferenceIdeal.ChainR

end
-- ==== Proof.ChainRef28.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r28_main_v184 (h_main_v169 : W (Proc.devRef .tc main_v169) = val_main_v169 (F := Ideal) x2) (h_main_v160 : W (Proc.devRef .tc main_v160) = val_main_v160 (F := Ideal) x2) (h_main_v161 : W (Proc.devRef .tc main_v161) = val_main_v161 (F := Ideal) x2) :
    StableHlo.after (c28 (F := Ideal)) W (Proc.devRef .tc main_v184) = val_main_v184 (F := Ideal) x2 := by
  after_results_simp
  try simp only [cast_eq]
  rw [h_main_v169, h_main_v160, h_main_v161]
  rfl

theorem r28_keep_main_v114 : StableHlo.after (c28 (F := Ideal)) W (Proc.devRef .tc main_v114) = W (Proc.devRef .tc main_v114) := by
  after_results_simp

theorem r28_keep_main_v158 : StableHlo.after (c28 (F := Ideal)) W (Proc.devRef .tc main_v158) = W (Proc.devRef .tc main_v158) := by
  after_results_simp

theorem r28_keep_main_v160 : StableHlo.after (c28 (F := Ideal)) W (Proc.devRef .tc main_v160) = W (Proc.devRef .tc main_v160) := by
  after_results_simp

theorem r28_keep_main_v161 : StableHlo.after (c28 (F := Ideal)) W (Proc.devRef .tc main_v161) = W (Proc.devRef .tc main_v161) := by
  after_results_simp

theorem r28_keep_main_arg0 : StableHlo.after (c28 (F := Ideal)) W (Proc.devRef .tc main_arg0) = W (Proc.devRef .tc main_arg0) := by
  after_results_simp

theorem r28_keep_main_arg1 : StableHlo.after (c28 (F := Ideal)) W (Proc.devRef .tc main_arg1) = W (Proc.devRef .tc main_arg1) := by
  after_results_simp

theorem r28_keep_main_arg2 : StableHlo.after (c28 (F := Ideal)) W (Proc.devRef .tc main_arg2) = W (Proc.devRef .tc main_arg2) := by
  after_results_simp

theorem r28_keep_main_arg3 : StableHlo.after (c28 (F := Ideal)) W (Proc.devRef .tc main_arg3) = W (Proc.devRef .tc main_arg3) := by
  after_results_simp

theorem r28_keep_main_arg4 : StableHlo.after (c28 (F := Ideal)) W (Proc.devRef .tc main_arg4) = W (Proc.devRef .tc main_arg4) := by
  after_results_simp

theorem r28_keep_main_arg5 : StableHlo.after (c28 (F := Ideal)) W (Proc.devRef .tc main_arg5) = W (Proc.devRef .tc main_arg5) := by
  after_results_simp

theorem r28_keep_main_arg6 : StableHlo.after (c28 (F := Ideal)) W (Proc.devRef .tc main_arg6) = W (Proc.devRef .tc main_arg6) := by
  after_results_simp

theorem r28_keep_main_arg7 : StableHlo.after (c28 (F := Ideal)) W (Proc.devRef .tc main_arg7) = W (Proc.devRef .tc main_arg7) := by
  after_results_simp

theorem r28_keep_main_arg8 : StableHlo.after (c28 (F := Ideal)) W (Proc.devRef .tc main_arg8) = W (Proc.devRef .tc main_arg8) := by
  after_results_simp

theorem r28_keep_main_arg9 : StableHlo.after (c28 (F := Ideal)) W (Proc.devRef .tc main_arg9) = W (Proc.devRef .tc main_arg9) := by
  after_results_simp

theorem r28_keep_main_arg10 : StableHlo.after (c28 (F := Ideal)) W (Proc.devRef .tc main_arg10) = W (Proc.devRef .tc main_arg10) := by
  after_results_simp

theorem r28_keep_main_arg11 : StableHlo.after (c28 (F := Ideal)) W (Proc.devRef .tc main_arg11) = W (Proc.devRef .tc main_arg11) := by
  after_results_simp

theorem r28_keep_main_arg12 : StableHlo.after (c28 (F := Ideal)) W (Proc.devRef .tc main_arg12) = W (Proc.devRef .tc main_arg12) := by
  after_results_simp

theorem r28_keep_main_arg13 : StableHlo.after (c28 (F := Ideal)) W (Proc.devRef .tc main_arg13) = W (Proc.devRef .tc main_arg13) := by
  after_results_simp

theorem r28_keep_main_arg14 : StableHlo.after (c28 (F := Ideal)) W (Proc.devRef .tc main_arg14) = W (Proc.devRef .tc main_arg14) := by
  after_results_simp

theorem r28_keep_main_arg15 : StableHlo.after (c28 (F := Ideal)) W (Proc.devRef .tc main_arg15) = W (Proc.devRef .tc main_arg15) := by
  after_results_simp

theorem r28_keep_main_arg16 : StableHlo.after (c28 (F := Ideal)) W (Proc.devRef .tc main_arg16) = W (Proc.devRef .tc main_arg16) := by
  after_results_simp

theorem r28_keep_main_arg17 : StableHlo.after (c28 (F := Ideal)) W (Proc.devRef .tc main_arg17) = W (Proc.devRef .tc main_arg17) := by
  after_results_simp

theorem r28_keep_main_arg18 : StableHlo.after (c28 (F := Ideal)) W (Proc.devRef .tc main_arg18) = W (Proc.devRef .tc main_arg18) := by
  after_results_simp

theorem r28_keep_main_arg19 : StableHlo.after (c28 (F := Ideal)) W (Proc.devRef .tc main_arg19) = W (Proc.devRef .tc main_arg19) := by
  after_results_simp

theorem r28_keep_main_arg20 : StableHlo.after (c28 (F := Ideal)) W (Proc.devRef .tc main_arg20) = W (Proc.devRef .tc main_arg20) := by
  after_results_simp

theorem r28_keep_main_arg21 : StableHlo.after (c28 (F := Ideal)) W (Proc.devRef .tc main_arg21) = W (Proc.devRef .tc main_arg21) := by
  after_results_simp

theorem r28_keep_main_arg22 : StableHlo.after (c28 (F := Ideal)) W (Proc.devRef .tc main_arg22) = W (Proc.devRef .tc main_arg22) := by
  after_results_simp

theorem r28_keep_main_arg23 : StableHlo.after (c28 (F := Ideal)) W (Proc.devRef .tc main_arg23) = W (Proc.devRef .tc main_arg23) := by
  after_results_simp

theorem r28_keep_main_arg24 : StableHlo.after (c28 (F := Ideal)) W (Proc.devRef .tc main_arg24) = W (Proc.devRef .tc main_arg24) := by
  after_results_simp

theorem r28_keep_main_arg25 : StableHlo.after (c28 (F := Ideal)) W (Proc.devRef .tc main_arg25) = W (Proc.devRef .tc main_arg25) := by
  after_results_simp

theorem r28_keep_main_arg26 : StableHlo.after (c28 (F := Ideal)) W (Proc.devRef .tc main_arg26) = W (Proc.devRef .tc main_arg26) := by
  after_results_simp

theorem r28_keep_main_arg27 : StableHlo.after (c28 (F := Ideal)) W (Proc.devRef .tc main_arg27) = W (Proc.devRef .tc main_arg27) := by
  after_results_simp

theorem r28_keep_main_arg28 : StableHlo.after (c28 (F := Ideal)) W (Proc.devRef .tc main_arg28) = W (Proc.devRef .tc main_arg28) := by
  after_results_simp

end Cert.ReferenceIdeal.ChainR

end
-- ==== Proof.ChainRef29.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r29_main_v185 (h_main_v114 : W (Proc.devRef .tc main_v114) = val_main_v114 (F := Ideal) x0 x1 x2 x5 x6 x7 x8 x9 x10 x11 x12 x17 x18 x19 x20) (h_main_arg15 : W (Proc.devRef .tc main_arg15) = x15) :
    StableHlo.after (c29 (F := Ideal)) W (Proc.devRef .tc main_v185) = val_main_v185 (F := Ideal) x0 x1 x2 x5 x6 x7 x8 x9 x10 x11 x12 x15 x17 x18 x19 x20 := by
  after_results_simp
  try simp only [cast_eq]
  rw [h_main_v114, h_main_arg15]
  rfl

theorem r29_keep_main_v158 : StableHlo.after (c29 (F := Ideal)) W (Proc.devRef .tc main_v158) = W (Proc.devRef .tc main_v158) := by
  after_results_simp

theorem r29_keep_main_v160 : StableHlo.after (c29 (F := Ideal)) W (Proc.devRef .tc main_v160) = W (Proc.devRef .tc main_v160) := by
  after_results_simp

theorem r29_keep_main_v161 : StableHlo.after (c29 (F := Ideal)) W (Proc.devRef .tc main_v161) = W (Proc.devRef .tc main_v161) := by
  after_results_simp

theorem r29_keep_main_v184 : StableHlo.after (c29 (F := Ideal)) W (Proc.devRef .tc main_v184) = W (Proc.devRef .tc main_v184) := by
  after_results_simp

theorem r29_keep_main_arg0 : StableHlo.after (c29 (F := Ideal)) W (Proc.devRef .tc main_arg0) = W (Proc.devRef .tc main_arg0) := by
  after_results_simp

theorem r29_keep_main_arg1 : StableHlo.after (c29 (F := Ideal)) W (Proc.devRef .tc main_arg1) = W (Proc.devRef .tc main_arg1) := by
  after_results_simp

theorem r29_keep_main_arg2 : StableHlo.after (c29 (F := Ideal)) W (Proc.devRef .tc main_arg2) = W (Proc.devRef .tc main_arg2) := by
  after_results_simp

theorem r29_keep_main_arg3 : StableHlo.after (c29 (F := Ideal)) W (Proc.devRef .tc main_arg3) = W (Proc.devRef .tc main_arg3) := by
  after_results_simp

theorem r29_keep_main_arg4 : StableHlo.after (c29 (F := Ideal)) W (Proc.devRef .tc main_arg4) = W (Proc.devRef .tc main_arg4) := by
  after_results_simp

theorem r29_keep_main_arg5 : StableHlo.after (c29 (F := Ideal)) W (Proc.devRef .tc main_arg5) = W (Proc.devRef .tc main_arg5) := by
  after_results_simp

theorem r29_keep_main_arg6 : StableHlo.after (c29 (F := Ideal)) W (Proc.devRef .tc main_arg6) = W (Proc.devRef .tc main_arg6) := by
  after_results_simp

theorem r29_keep_main_arg7 : StableHlo.after (c29 (F := Ideal)) W (Proc.devRef .tc main_arg7) = W (Proc.devRef .tc main_arg7) := by
  after_results_simp

theorem r29_keep_main_arg8 : StableHlo.after (c29 (F := Ideal)) W (Proc.devRef .tc main_arg8) = W (Proc.devRef .tc main_arg8) := by
  after_results_simp

theorem r29_keep_main_arg9 : StableHlo.after (c29 (F := Ideal)) W (Proc.devRef .tc main_arg9) = W (Proc.devRef .tc main_arg9) := by
  after_results_simp

theorem r29_keep_main_arg10 : StableHlo.after (c29 (F := Ideal)) W (Proc.devRef .tc main_arg10) = W (Proc.devRef .tc main_arg10) := by
  after_results_simp

theorem r29_keep_main_arg11 : StableHlo.after (c29 (F := Ideal)) W (Proc.devRef .tc main_arg11) = W (Proc.devRef .tc main_arg11) := by
  after_results_simp

theorem r29_keep_main_arg12 : StableHlo.after (c29 (F := Ideal)) W (Proc.devRef .tc main_arg12) = W (Proc.devRef .tc main_arg12) := by
  after_results_simp

theorem r29_keep_main_arg13 : StableHlo.after (c29 (F := Ideal)) W (Proc.devRef .tc main_arg13) = W (Proc.devRef .tc main_arg13) := by
  after_results_simp

theorem r29_keep_main_arg14 : StableHlo.after (c29 (F := Ideal)) W (Proc.devRef .tc main_arg14) = W (Proc.devRef .tc main_arg14) := by
  after_results_simp

theorem r29_keep_main_arg15 : StableHlo.after (c29 (F := Ideal)) W (Proc.devRef .tc main_arg15) = W (Proc.devRef .tc main_arg15) := by
  after_results_simp

theorem r29_keep_main_arg16 : StableHlo.after (c29 (F := Ideal)) W (Proc.devRef .tc main_arg16) = W (Proc.devRef .tc main_arg16) := by
  after_results_simp

theorem r29_keep_main_arg17 : StableHlo.after (c29 (F := Ideal)) W (Proc.devRef .tc main_arg17) = W (Proc.devRef .tc main_arg17) := by
  after_results_simp

theorem r29_keep_main_arg18 : StableHlo.after (c29 (F := Ideal)) W (Proc.devRef .tc main_arg18) = W (Proc.devRef .tc main_arg18) := by
  after_results_simp

theorem r29_keep_main_arg19 : StableHlo.after (c29 (F := Ideal)) W (Proc.devRef .tc main_arg19) = W (Proc.devRef .tc main_arg19) := by
  after_results_simp

theorem r29_keep_main_arg20 : StableHlo.after (c29 (F := Ideal)) W (Proc.devRef .tc main_arg20) = W (Proc.devRef .tc main_arg20) := by
  after_results_simp

theorem r29_keep_main_arg21 : StableHlo.after (c29 (F := Ideal)) W (Proc.devRef .tc main_arg21) = W (Proc.devRef .tc main_arg21) := by
  after_results_simp

theorem r29_keep_main_arg22 : StableHlo.after (c29 (F := Ideal)) W (Proc.devRef .tc main_arg22) = W (Proc.devRef .tc main_arg22) := by
  after_results_simp

theorem r29_keep_main_arg23 : StableHlo.after (c29 (F := Ideal)) W (Proc.devRef .tc main_arg23) = W (Proc.devRef .tc main_arg23) := by
  after_results_simp

theorem r29_keep_main_arg24 : StableHlo.after (c29 (F := Ideal)) W (Proc.devRef .tc main_arg24) = W (Proc.devRef .tc main_arg24) := by
  after_results_simp

theorem r29_keep_main_arg25 : StableHlo.after (c29 (F := Ideal)) W (Proc.devRef .tc main_arg25) = W (Proc.devRef .tc main_arg25) := by
  after_results_simp

theorem r29_keep_main_arg26 : StableHlo.after (c29 (F := Ideal)) W (Proc.devRef .tc main_arg26) = W (Proc.devRef .tc main_arg26) := by
  after_results_simp

theorem r29_keep_main_arg27 : StableHlo.after (c29 (F := Ideal)) W (Proc.devRef .tc main_arg27) = W (Proc.devRef .tc main_arg27) := by
  after_results_simp

theorem r29_keep_main_arg28 : StableHlo.after (c29 (F := Ideal)) W (Proc.devRef .tc main_arg28) = W (Proc.devRef .tc main_arg28) := by
  after_results_simp

end Cert.ReferenceIdeal.ChainR

end
-- ==== Proof.ChainRef30.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r30_main_v201 (h_main_v161 : W (Proc.devRef .tc main_v161) = val_main_v161 (F := Ideal) x2) (h_main_v185 : W (Proc.devRef .tc main_v185) = val_main_v185 (F := Ideal) x0 x1 x2 x5 x6 x7 x8 x9 x10 x11 x12 x15 x17 x18 x19 x20) (h_main_v160 : W (Proc.devRef .tc main_v160) = val_main_v160 (F := Ideal) x2) (h_main_v184 : W (Proc.devRef .tc main_v184) = val_main_v184 (F := Ideal) x2) (h_main_arg16 : W (Proc.devRef .tc main_arg16) = x16) :
    StableHlo.after (c30 (F := Ideal)) W (Proc.devRef .tc main_v201) = val_main_v201 (F := Ideal) x0 x1 x2 x5 x6 x7 x8 x9 x10 x11 x12 x15 x16 x17 x18 x19 x20 := by
  after_results_simp
  try simp only [cast_eq]
  rw [h_main_v161, h_main_v185, h_main_v160, h_main_v184, h_main_arg16]
  rfl

theorem r30_keep_main_v158 : StableHlo.after (c30 (F := Ideal)) W (Proc.devRef .tc main_v158) = W (Proc.devRef .tc main_v158) := by
  after_results_simp

theorem r30_keep_main_arg0 : StableHlo.after (c30 (F := Ideal)) W (Proc.devRef .tc main_arg0) = W (Proc.devRef .tc main_arg0) := by
  after_results_simp

theorem r30_keep_main_arg1 : StableHlo.after (c30 (F := Ideal)) W (Proc.devRef .tc main_arg1) = W (Proc.devRef .tc main_arg1) := by
  after_results_simp

theorem r30_keep_main_arg2 : StableHlo.after (c30 (F := Ideal)) W (Proc.devRef .tc main_arg2) = W (Proc.devRef .tc main_arg2) := by
  after_results_simp

theorem r30_keep_main_arg3 : StableHlo.after (c30 (F := Ideal)) W (Proc.devRef .tc main_arg3) = W (Proc.devRef .tc main_arg3) := by
  after_results_simp

theorem r30_keep_main_arg4 : StableHlo.after (c30 (F := Ideal)) W (Proc.devRef .tc main_arg4) = W (Proc.devRef .tc main_arg4) := by
  after_results_simp

theorem r30_keep_main_arg5 : StableHlo.after (c30 (F := Ideal)) W (Proc.devRef .tc main_arg5) = W (Proc.devRef .tc main_arg5) := by
  after_results_simp

theorem r30_keep_main_arg6 : StableHlo.after (c30 (F := Ideal)) W (Proc.devRef .tc main_arg6) = W (Proc.devRef .tc main_arg6) := by
  after_results_simp

theorem r30_keep_main_arg7 : StableHlo.after (c30 (F := Ideal)) W (Proc.devRef .tc main_arg7) = W (Proc.devRef .tc main_arg7) := by
  after_results_simp

theorem r30_keep_main_arg8 : StableHlo.after (c30 (F := Ideal)) W (Proc.devRef .tc main_arg8) = W (Proc.devRef .tc main_arg8) := by
  after_results_simp

theorem r30_keep_main_arg9 : StableHlo.after (c30 (F := Ideal)) W (Proc.devRef .tc main_arg9) = W (Proc.devRef .tc main_arg9) := by
  after_results_simp

theorem r30_keep_main_arg10 : StableHlo.after (c30 (F := Ideal)) W (Proc.devRef .tc main_arg10) = W (Proc.devRef .tc main_arg10) := by
  after_results_simp

theorem r30_keep_main_arg11 : StableHlo.after (c30 (F := Ideal)) W (Proc.devRef .tc main_arg11) = W (Proc.devRef .tc main_arg11) := by
  after_results_simp

theorem r30_keep_main_arg12 : StableHlo.after (c30 (F := Ideal)) W (Proc.devRef .tc main_arg12) = W (Proc.devRef .tc main_arg12) := by
  after_results_simp

theorem r30_keep_main_arg13 : StableHlo.after (c30 (F := Ideal)) W (Proc.devRef .tc main_arg13) = W (Proc.devRef .tc main_arg13) := by
  after_results_simp

theorem r30_keep_main_arg14 : StableHlo.after (c30 (F := Ideal)) W (Proc.devRef .tc main_arg14) = W (Proc.devRef .tc main_arg14) := by
  after_results_simp

theorem r30_keep_main_arg15 : StableHlo.after (c30 (F := Ideal)) W (Proc.devRef .tc main_arg15) = W (Proc.devRef .tc main_arg15) := by
  after_results_simp

theorem r30_keep_main_arg16 : StableHlo.after (c30 (F := Ideal)) W (Proc.devRef .tc main_arg16) = W (Proc.devRef .tc main_arg16) := by
  after_results_simp

theorem r30_keep_main_arg17 : StableHlo.after (c30 (F := Ideal)) W (Proc.devRef .tc main_arg17) = W (Proc.devRef .tc main_arg17) := by
  after_results_simp

theorem r30_keep_main_arg18 : StableHlo.after (c30 (F := Ideal)) W (Proc.devRef .tc main_arg18) = W (Proc.devRef .tc main_arg18) := by
  after_results_simp

theorem r30_keep_main_arg19 : StableHlo.after (c30 (F := Ideal)) W (Proc.devRef .tc main_arg19) = W (Proc.devRef .tc main_arg19) := by
  after_results_simp

theorem r30_keep_main_arg20 : StableHlo.after (c30 (F := Ideal)) W (Proc.devRef .tc main_arg20) = W (Proc.devRef .tc main_arg20) := by
  after_results_simp

theorem r30_keep_main_arg21 : StableHlo.after (c30 (F := Ideal)) W (Proc.devRef .tc main_arg21) = W (Proc.devRef .tc main_arg21) := by
  after_results_simp

theorem r30_keep_main_arg22 : StableHlo.after (c30 (F := Ideal)) W (Proc.devRef .tc main_arg22) = W (Proc.devRef .tc main_arg22) := by
  after_results_simp

theorem r30_keep_main_arg23 : StableHlo.after (c30 (F := Ideal)) W (Proc.devRef .tc main_arg23) = W (Proc.devRef .tc main_arg23) := by
  after_results_simp

theorem r30_keep_main_arg24 : StableHlo.after (c30 (F := Ideal)) W (Proc.devRef .tc main_arg24) = W (Proc.devRef .tc main_arg24) := by
  after_results_simp

theorem r30_keep_main_arg25 : StableHlo.after (c30 (F := Ideal)) W (Proc.devRef .tc main_arg25) = W (Proc.devRef .tc main_arg25) := by
  after_results_simp

theorem r30_keep_main_arg26 : StableHlo.after (c30 (F := Ideal)) W (Proc.devRef .tc main_arg26) = W (Proc.devRef .tc main_arg26) := by
  after_results_simp

theorem r30_keep_main_arg27 : StableHlo.after (c30 (F := Ideal)) W (Proc.devRef .tc main_arg27) = W (Proc.devRef .tc main_arg27) := by
  after_results_simp

theorem r30_keep_main_arg28 : StableHlo.after (c30 (F := Ideal)) W (Proc.devRef .tc main_arg28) = W (Proc.devRef .tc main_arg28) := by
  after_results_simp

end Cert.ReferenceIdeal.ChainR

end
-- ==== Proof.ChainRef31.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r31_main_v202 (h_main_v201 : W (Proc.devRef .tc main_v201) = val_main_v201 (F := Ideal) x0 x1 x2 x5 x6 x7 x8 x9 x10 x11 x12 x15 x16 x17 x18 x19 x20) :
    StableHlo.after (c31 (F := Ideal)) W (Proc.devRef .tc main_v202) = val_main_v202 (F := Ideal) x0 x1 x2 x5 x6 x7 x8 x9 x10 x11 x12 x15 x16 x17 x18 x19 x20 := by
  after_results_simp
  try simp only [cast_eq]
  rw [h_main_v201]
  rfl

theorem r31_keep_main_v158 : StableHlo.after (c31 (F := Ideal)) W (Proc.devRef .tc main_v158) = W (Proc.devRef .tc main_v158) := by
  after_results_simp

theorem r31_keep_main_arg0 : StableHlo.after (c31 (F := Ideal)) W (Proc.devRef .tc main_arg0) = W (Proc.devRef .tc main_arg0) := by
  after_results_simp

theorem r31_keep_main_arg1 : StableHlo.after (c31 (F := Ideal)) W (Proc.devRef .tc main_arg1) = W (Proc.devRef .tc main_arg1) := by
  after_results_simp

theorem r31_keep_main_arg2 : StableHlo.after (c31 (F := Ideal)) W (Proc.devRef .tc main_arg2) = W (Proc.devRef .tc main_arg2) := by
  after_results_simp

theorem r31_keep_main_arg3 : StableHlo.after (c31 (F := Ideal)) W (Proc.devRef .tc main_arg3) = W (Proc.devRef .tc main_arg3) := by
  after_results_simp

theorem r31_keep_main_arg4 : StableHlo.after (c31 (F := Ideal)) W (Proc.devRef .tc main_arg4) = W (Proc.devRef .tc main_arg4) := by
  after_results_simp

theorem r31_keep_main_arg5 : StableHlo.after (c31 (F := Ideal)) W (Proc.devRef .tc main_arg5) = W (Proc.devRef .tc main_arg5) := by
  after_results_simp

theorem r31_keep_main_arg6 : StableHlo.after (c31 (F := Ideal)) W (Proc.devRef .tc main_arg6) = W (Proc.devRef .tc main_arg6) := by
  after_results_simp

theorem r31_keep_main_arg7 : StableHlo.after (c31 (F := Ideal)) W (Proc.devRef .tc main_arg7) = W (Proc.devRef .tc main_arg7) := by
  after_results_simp

theorem r31_keep_main_arg8 : StableHlo.after (c31 (F := Ideal)) W (Proc.devRef .tc main_arg8) = W (Proc.devRef .tc main_arg8) := by
  after_results_simp

theorem r31_keep_main_arg9 : StableHlo.after (c31 (F := Ideal)) W (Proc.devRef .tc main_arg9) = W (Proc.devRef .tc main_arg9) := by
  after_results_simp

theorem r31_keep_main_arg10 : StableHlo.after (c31 (F := Ideal)) W (Proc.devRef .tc main_arg10) = W (Proc.devRef .tc main_arg10) := by
  after_results_simp

theorem r31_keep_main_arg11 : StableHlo.after (c31 (F := Ideal)) W (Proc.devRef .tc main_arg11) = W (Proc.devRef .tc main_arg11) := by
  after_results_simp

theorem r31_keep_main_arg12 : StableHlo.after (c31 (F := Ideal)) W (Proc.devRef .tc main_arg12) = W (Proc.devRef .tc main_arg12) := by
  after_results_simp

theorem r31_keep_main_arg13 : StableHlo.after (c31 (F := Ideal)) W (Proc.devRef .tc main_arg13) = W (Proc.devRef .tc main_arg13) := by
  after_results_simp

theorem r31_keep_main_arg14 : StableHlo.after (c31 (F := Ideal)) W (Proc.devRef .tc main_arg14) = W (Proc.devRef .tc main_arg14) := by
  after_results_simp

theorem r31_keep_main_arg15 : StableHlo.after (c31 (F := Ideal)) W (Proc.devRef .tc main_arg15) = W (Proc.devRef .tc main_arg15) := by
  after_results_simp

theorem r31_keep_main_arg16 : StableHlo.after (c31 (F := Ideal)) W (Proc.devRef .tc main_arg16) = W (Proc.devRef .tc main_arg16) := by
  after_results_simp

theorem r31_keep_main_arg17 : StableHlo.after (c31 (F := Ideal)) W (Proc.devRef .tc main_arg17) = W (Proc.devRef .tc main_arg17) := by
  after_results_simp

theorem r31_keep_main_arg18 : StableHlo.after (c31 (F := Ideal)) W (Proc.devRef .tc main_arg18) = W (Proc.devRef .tc main_arg18) := by
  after_results_simp

theorem r31_keep_main_arg19 : StableHlo.after (c31 (F := Ideal)) W (Proc.devRef .tc main_arg19) = W (Proc.devRef .tc main_arg19) := by
  after_results_simp

theorem r31_keep_main_arg20 : StableHlo.after (c31 (F := Ideal)) W (Proc.devRef .tc main_arg20) = W (Proc.devRef .tc main_arg20) := by
  after_results_simp

theorem r31_keep_main_arg21 : StableHlo.after (c31 (F := Ideal)) W (Proc.devRef .tc main_arg21) = W (Proc.devRef .tc main_arg21) := by
  after_results_simp

theorem r31_keep_main_arg22 : StableHlo.after (c31 (F := Ideal)) W (Proc.devRef .tc main_arg22) = W (Proc.devRef .tc main_arg22) := by
  after_results_simp

theorem r31_keep_main_arg23 : StableHlo.after (c31 (F := Ideal)) W (Proc.devRef .tc main_arg23) = W (Proc.devRef .tc main_arg23) := by
  after_results_simp

theorem r31_keep_main_arg24 : StableHlo.after (c31 (F := Ideal)) W (Proc.devRef .tc main_arg24) = W (Proc.devRef .tc main_arg24) := by
  after_results_simp

theorem r31_keep_main_arg25 : StableHlo.after (c31 (F := Ideal)) W (Proc.devRef .tc main_arg25) = W (Proc.devRef .tc main_arg25) := by
  after_results_simp

theorem r31_keep_main_arg26 : StableHlo.after (c31 (F := Ideal)) W (Proc.devRef .tc main_arg26) = W (Proc.devRef .tc main_arg26) := by
  after_results_simp

theorem r31_keep_main_arg27 : StableHlo.after (c31 (F := Ideal)) W (Proc.devRef .tc main_arg27) = W (Proc.devRef .tc main_arg27) := by
  after_results_simp

theorem r31_keep_main_arg28 : StableHlo.after (c31 (F := Ideal)) W (Proc.devRef .tc main_arg28) = W (Proc.devRef .tc main_arg28) := by
  after_results_simp

end Cert.ReferenceIdeal.ChainR

end
-- ==== Proof.ChainRef32.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r32_main_v203 (h_main_v158 : W (Proc.devRef .tc main_v158) = val_main_v158 (F := Ideal) x0 x1 x2 x5 x6 x7 x8 x9 x10 x11 x12 x13 x14 x17 x18 x19 x20) (h_main_v202 : W (Proc.devRef .tc main_v202) = val_main_v202 (F := Ideal) x0 x1 x2 x5 x6 x7 x8 x9 x10 x11 x12 x15 x16 x17 x18 x19 x20) :
    StableHlo.after (c32 (F := Ideal)) W (Proc.devRef .tc main_v203) = val_main_v203 (F := Ideal) x0 x1 x2 x5 x6 x7 x8 x9 x10 x11 x12 x13 x14 x15 x16 x17 x18 x19 x20 := by
  after_results_simp
  try simp only [cast_eq]
  rw [h_main_v158, h_main_v202]
  rfl

theorem r32_keep_main_arg0 : StableHlo.after (c32 (F := Ideal)) W (Proc.devRef .tc main_arg0) = W (Proc.devRef .tc main_arg0) := by
  after_results_simp

theorem r32_keep_main_arg1 : StableHlo.after (c32 (F := Ideal)) W (Proc.devRef .tc main_arg1) = W (Proc.devRef .tc main_arg1) := by
  after_results_simp

theorem r32_keep_main_arg2 : StableHlo.after (c32 (F := Ideal)) W (Proc.devRef .tc main_arg2) = W (Proc.devRef .tc main_arg2) := by
  after_results_simp

theorem r32_keep_main_arg3 : StableHlo.after (c32 (F := Ideal)) W (Proc.devRef .tc main_arg3) = W (Proc.devRef .tc main_arg3) := by
  after_results_simp

theorem r32_keep_main_arg4 : StableHlo.after (c32 (F := Ideal)) W (Proc.devRef .tc main_arg4) = W (Proc.devRef .tc main_arg4) := by
  after_results_simp

theorem r32_keep_main_arg5 : StableHlo.after (c32 (F := Ideal)) W (Proc.devRef .tc main_arg5) = W (Proc.devRef .tc main_arg5) := by
  after_results_simp

theorem r32_keep_main_arg6 : StableHlo.after (c32 (F := Ideal)) W (Proc.devRef .tc main_arg6) = W (Proc.devRef .tc main_arg6) := by
  after_results_simp

theorem r32_keep_main_arg7 : StableHlo.after (c32 (F := Ideal)) W (Proc.devRef .tc main_arg7) = W (Proc.devRef .tc main_arg7) := by
  after_results_simp

theorem r32_keep_main_arg8 : StableHlo.after (c32 (F := Ideal)) W (Proc.devRef .tc main_arg8) = W (Proc.devRef .tc main_arg8) := by
  after_results_simp

theorem r32_keep_main_arg9 : StableHlo.after (c32 (F := Ideal)) W (Proc.devRef .tc main_arg9) = W (Proc.devRef .tc main_arg9) := by
  after_results_simp

theorem r32_keep_main_arg10 : StableHlo.after (c32 (F := Ideal)) W (Proc.devRef .tc main_arg10) = W (Proc.devRef .tc main_arg10) := by
  after_results_simp

theorem r32_keep_main_arg11 : StableHlo.after (c32 (F := Ideal)) W (Proc.devRef .tc main_arg11) = W (Proc.devRef .tc main_arg11) := by
  after_results_simp

theorem r32_keep_main_arg12 : StableHlo.after (c32 (F := Ideal)) W (Proc.devRef .tc main_arg12) = W (Proc.devRef .tc main_arg12) := by
  after_results_simp

theorem r32_keep_main_arg13 : StableHlo.after (c32 (F := Ideal)) W (Proc.devRef .tc main_arg13) = W (Proc.devRef .tc main_arg13) := by
  after_results_simp

theorem r32_keep_main_arg14 : StableHlo.after (c32 (F := Ideal)) W (Proc.devRef .tc main_arg14) = W (Proc.devRef .tc main_arg14) := by
  after_results_simp

theorem r32_keep_main_arg15 : StableHlo.after (c32 (F := Ideal)) W (Proc.devRef .tc main_arg15) = W (Proc.devRef .tc main_arg15) := by
  after_results_simp

theorem r32_keep_main_arg16 : StableHlo.after (c32 (F := Ideal)) W (Proc.devRef .tc main_arg16) = W (Proc.devRef .tc main_arg16) := by
  after_results_simp

theorem r32_keep_main_arg17 : StableHlo.after (c32 (F := Ideal)) W (Proc.devRef .tc main_arg17) = W (Proc.devRef .tc main_arg17) := by
  after_results_simp

theorem r32_keep_main_arg18 : StableHlo.after (c32 (F := Ideal)) W (Proc.devRef .tc main_arg18) = W (Proc.devRef .tc main_arg18) := by
  after_results_simp

theorem r32_keep_main_arg19 : StableHlo.after (c32 (F := Ideal)) W (Proc.devRef .tc main_arg19) = W (Proc.devRef .tc main_arg19) := by
  after_results_simp

theorem r32_keep_main_arg20 : StableHlo.after (c32 (F := Ideal)) W (Proc.devRef .tc main_arg20) = W (Proc.devRef .tc main_arg20) := by
  after_results_simp

theorem r32_keep_main_arg21 : StableHlo.after (c32 (F := Ideal)) W (Proc.devRef .tc main_arg21) = W (Proc.devRef .tc main_arg21) := by
  after_results_simp

theorem r32_keep_main_arg22 : StableHlo.after (c32 (F := Ideal)) W (Proc.devRef .tc main_arg22) = W (Proc.devRef .tc main_arg22) := by
  after_results_simp

theorem r32_keep_main_arg23 : StableHlo.after (c32 (F := Ideal)) W (Proc.devRef .tc main_arg23) = W (Proc.devRef .tc main_arg23) := by
  after_results_simp

theorem r32_keep_main_arg24 : StableHlo.after (c32 (F := Ideal)) W (Proc.devRef .tc main_arg24) = W (Proc.devRef .tc main_arg24) := by
  after_results_simp

theorem r32_keep_main_arg25 : StableHlo.after (c32 (F := Ideal)) W (Proc.devRef .tc main_arg25) = W (Proc.devRef .tc main_arg25) := by
  after_results_simp

theorem r32_keep_main_arg26 : StableHlo.after (c32 (F := Ideal)) W (Proc.devRef .tc main_arg26) = W (Proc.devRef .tc main_arg26) := by
  after_results_simp

theorem r32_keep_main_arg27 : StableHlo.after (c32 (F := Ideal)) W (Proc.devRef .tc main_arg27) = W (Proc.devRef .tc main_arg27) := by
  after_results_simp

theorem r32_keep_main_arg28 : StableHlo.after (c32 (F := Ideal)) W (Proc.devRef .tc main_arg28) = W (Proc.devRef .tc main_arg28) := by
  after_results_simp

end Cert.ReferenceIdeal.ChainR

end
-- ==== Proof.ChainRef33.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r33_main_v207 (h_main_v203 : W (Proc.devRef .tc main_v203) = val_main_v203 (F := Ideal) x0 x1 x2 x5 x6 x7 x8 x9 x10 x11 x12 x13 x14 x15 x16 x17 x18 x19 x20) (h_main_arg21 : W (Proc.devRef .tc main_arg21) = x21) (h_main_arg22 : W (Proc.devRef .tc main_arg22) = x22) :
    StableHlo.after (c33 (F := Ideal)) W (Proc.devRef .tc main_v207) = val_main_v207 (F := Ideal) x0 x1 x2 x5 x6 x7 x8 x9 x10 x11 x12 x13 x14 x15 x16 x17 x18 x19 x20 x21 x22 := by
  after_results_simp
  try simp only [cast_eq]
  rw [h_main_v203, h_main_arg21, h_main_arg22]
  rfl

theorem r33_keep_main_arg0 : StableHlo.after (c33 (F := Ideal)) W (Proc.devRef .tc main_arg0) = W (Proc.devRef .tc main_arg0) := by
  after_results_simp

theorem r33_keep_main_arg1 : StableHlo.after (c33 (F := Ideal)) W (Proc.devRef .tc main_arg1) = W (Proc.devRef .tc main_arg1) := by
  after_results_simp

theorem r33_keep_main_arg2 : StableHlo.after (c33 (F := Ideal)) W (Proc.devRef .tc main_arg2) = W (Proc.devRef .tc main_arg2) := by
  after_results_simp

theorem r33_keep_main_arg3 : StableHlo.after (c33 (F := Ideal)) W (Proc.devRef .tc main_arg3) = W (Proc.devRef .tc main_arg3) := by
  after_results_simp

theorem r33_keep_main_arg4 : StableHlo.after (c33 (F := Ideal)) W (Proc.devRef .tc main_arg4) = W (Proc.devRef .tc main_arg4) := by
  after_results_simp

theorem r33_keep_main_arg5 : StableHlo.after (c33 (F := Ideal)) W (Proc.devRef .tc main_arg5) = W (Proc.devRef .tc main_arg5) := by
  after_results_simp

theorem r33_keep_main_arg6 : StableHlo.after (c33 (F := Ideal)) W (Proc.devRef .tc main_arg6) = W (Proc.devRef .tc main_arg6) := by
  after_results_simp

theorem r33_keep_main_arg7 : StableHlo.after (c33 (F := Ideal)) W (Proc.devRef .tc main_arg7) = W (Proc.devRef .tc main_arg7) := by
  after_results_simp

theorem r33_keep_main_arg8 : StableHlo.after (c33 (F := Ideal)) W (Proc.devRef .tc main_arg8) = W (Proc.devRef .tc main_arg8) := by
  after_results_simp

theorem r33_keep_main_arg9 : StableHlo.after (c33 (F := Ideal)) W (Proc.devRef .tc main_arg9) = W (Proc.devRef .tc main_arg9) := by
  after_results_simp

theorem r33_keep_main_arg10 : StableHlo.after (c33 (F := Ideal)) W (Proc.devRef .tc main_arg10) = W (Proc.devRef .tc main_arg10) := by
  after_results_simp

theorem r33_keep_main_arg11 : StableHlo.after (c33 (F := Ideal)) W (Proc.devRef .tc main_arg11) = W (Proc.devRef .tc main_arg11) := by
  after_results_simp

theorem r33_keep_main_arg12 : StableHlo.after (c33 (F := Ideal)) W (Proc.devRef .tc main_arg12) = W (Proc.devRef .tc main_arg12) := by
  after_results_simp

theorem r33_keep_main_arg13 : StableHlo.after (c33 (F := Ideal)) W (Proc.devRef .tc main_arg13) = W (Proc.devRef .tc main_arg13) := by
  after_results_simp

theorem r33_keep_main_arg14 : StableHlo.after (c33 (F := Ideal)) W (Proc.devRef .tc main_arg14) = W (Proc.devRef .tc main_arg14) := by
  after_results_simp

theorem r33_keep_main_arg15 : StableHlo.after (c33 (F := Ideal)) W (Proc.devRef .tc main_arg15) = W (Proc.devRef .tc main_arg15) := by
  after_results_simp

theorem r33_keep_main_arg16 : StableHlo.after (c33 (F := Ideal)) W (Proc.devRef .tc main_arg16) = W (Proc.devRef .tc main_arg16) := by
  after_results_simp

theorem r33_keep_main_arg17 : StableHlo.after (c33 (F := Ideal)) W (Proc.devRef .tc main_arg17) = W (Proc.devRef .tc main_arg17) := by
  after_results_simp

theorem r33_keep_main_arg18 : StableHlo.after (c33 (F := Ideal)) W (Proc.devRef .tc main_arg18) = W (Proc.devRef .tc main_arg18) := by
  after_results_simp

theorem r33_keep_main_arg19 : StableHlo.after (c33 (F := Ideal)) W (Proc.devRef .tc main_arg19) = W (Proc.devRef .tc main_arg19) := by
  after_results_simp

theorem r33_keep_main_arg20 : StableHlo.after (c33 (F := Ideal)) W (Proc.devRef .tc main_arg20) = W (Proc.devRef .tc main_arg20) := by
  after_results_simp

theorem r33_keep_main_arg21 : StableHlo.after (c33 (F := Ideal)) W (Proc.devRef .tc main_arg21) = W (Proc.devRef .tc main_arg21) := by
  after_results_simp

theorem r33_keep_main_arg22 : StableHlo.after (c33 (F := Ideal)) W (Proc.devRef .tc main_arg22) = W (Proc.devRef .tc main_arg22) := by
  after_results_simp

theorem r33_keep_main_arg23 : StableHlo.after (c33 (F := Ideal)) W (Proc.devRef .tc main_arg23) = W (Proc.devRef .tc main_arg23) := by
  after_results_simp

theorem r33_keep_main_arg24 : StableHlo.after (c33 (F := Ideal)) W (Proc.devRef .tc main_arg24) = W (Proc.devRef .tc main_arg24) := by
  after_results_simp

theorem r33_keep_main_arg25 : StableHlo.after (c33 (F := Ideal)) W (Proc.devRef .tc main_arg25) = W (Proc.devRef .tc main_arg25) := by
  after_results_simp

theorem r33_keep_main_arg26 : StableHlo.after (c33 (F := Ideal)) W (Proc.devRef .tc main_arg26) = W (Proc.devRef .tc main_arg26) := by
  after_results_simp

theorem r33_keep_main_arg27 : StableHlo.after (c33 (F := Ideal)) W (Proc.devRef .tc main_arg27) = W (Proc.devRef .tc main_arg27) := by
  after_results_simp

theorem r33_keep_main_arg28 : StableHlo.after (c33 (F := Ideal)) W (Proc.devRef .tc main_arg28) = W (Proc.devRef .tc main_arg28) := by
  after_results_simp

end Cert.ReferenceIdeal.ChainR

end
-- ==== Proof.ChainRef34.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r34_main_v208 (h_main_v207 : W (Proc.devRef .tc main_v207) = val_main_v207 (F := Ideal) x0 x1 x2 x5 x6 x7 x8 x9 x10 x11 x12 x13 x14 x15 x16 x17 x18 x19 x20 x21 x22) :
    StableHlo.after (c34 (F := Ideal)) W (Proc.devRef .tc main_v208) = val_main_v208 (F := Ideal) x0 x1 x2 x5 x6 x7 x8 x9 x10 x11 x12 x13 x14 x15 x16 x17 x18 x19 x20 x21 x22 := by
  after_results_simp
  try simp only [cast_eq]
  rw [h_main_v207]
  rfl

theorem r34_keep_main_arg0 : StableHlo.after (c34 (F := Ideal)) W (Proc.devRef .tc main_arg0) = W (Proc.devRef .tc main_arg0) := by
  after_results_simp

theorem r34_keep_main_arg1 : StableHlo.after (c34 (F := Ideal)) W (Proc.devRef .tc main_arg1) = W (Proc.devRef .tc main_arg1) := by
  after_results_simp

theorem r34_keep_main_arg2 : StableHlo.after (c34 (F := Ideal)) W (Proc.devRef .tc main_arg2) = W (Proc.devRef .tc main_arg2) := by
  after_results_simp

theorem r34_keep_main_arg3 : StableHlo.after (c34 (F := Ideal)) W (Proc.devRef .tc main_arg3) = W (Proc.devRef .tc main_arg3) := by
  after_results_simp

theorem r34_keep_main_arg4 : StableHlo.after (c34 (F := Ideal)) W (Proc.devRef .tc main_arg4) = W (Proc.devRef .tc main_arg4) := by
  after_results_simp

theorem r34_keep_main_arg5 : StableHlo.after (c34 (F := Ideal)) W (Proc.devRef .tc main_arg5) = W (Proc.devRef .tc main_arg5) := by
  after_results_simp

theorem r34_keep_main_arg6 : StableHlo.after (c34 (F := Ideal)) W (Proc.devRef .tc main_arg6) = W (Proc.devRef .tc main_arg6) := by
  after_results_simp

theorem r34_keep_main_arg7 : StableHlo.after (c34 (F := Ideal)) W (Proc.devRef .tc main_arg7) = W (Proc.devRef .tc main_arg7) := by
  after_results_simp

theorem r34_keep_main_arg8 : StableHlo.after (c34 (F := Ideal)) W (Proc.devRef .tc main_arg8) = W (Proc.devRef .tc main_arg8) := by
  after_results_simp

theorem r34_keep_main_arg9 : StableHlo.after (c34 (F := Ideal)) W (Proc.devRef .tc main_arg9) = W (Proc.devRef .tc main_arg9) := by
  after_results_simp

theorem r34_keep_main_arg10 : StableHlo.after (c34 (F := Ideal)) W (Proc.devRef .tc main_arg10) = W (Proc.devRef .tc main_arg10) := by
  after_results_simp

theorem r34_keep_main_arg11 : StableHlo.after (c34 (F := Ideal)) W (Proc.devRef .tc main_arg11) = W (Proc.devRef .tc main_arg11) := by
  after_results_simp

theorem r34_keep_main_arg12 : StableHlo.after (c34 (F := Ideal)) W (Proc.devRef .tc main_arg12) = W (Proc.devRef .tc main_arg12) := by
  after_results_simp

theorem r34_keep_main_arg13 : StableHlo.after (c34 (F := Ideal)) W (Proc.devRef .tc main_arg13) = W (Proc.devRef .tc main_arg13) := by
  after_results_simp

theorem r34_keep_main_arg14 : StableHlo.after (c34 (F := Ideal)) W (Proc.devRef .tc main_arg14) = W (Proc.devRef .tc main_arg14) := by
  after_results_simp

theorem r34_keep_main_arg15 : StableHlo.after (c34 (F := Ideal)) W (Proc.devRef .tc main_arg15) = W (Proc.devRef .tc main_arg15) := by
  after_results_simp

theorem r34_keep_main_arg16 : StableHlo.after (c34 (F := Ideal)) W (Proc.devRef .tc main_arg16) = W (Proc.devRef .tc main_arg16) := by
  after_results_simp

theorem r34_keep_main_arg17 : StableHlo.after (c34 (F := Ideal)) W (Proc.devRef .tc main_arg17) = W (Proc.devRef .tc main_arg17) := by
  after_results_simp

theorem r34_keep_main_arg18 : StableHlo.after (c34 (F := Ideal)) W (Proc.devRef .tc main_arg18) = W (Proc.devRef .tc main_arg18) := by
  after_results_simp

theorem r34_keep_main_arg19 : StableHlo.after (c34 (F := Ideal)) W (Proc.devRef .tc main_arg19) = W (Proc.devRef .tc main_arg19) := by
  after_results_simp

theorem r34_keep_main_arg20 : StableHlo.after (c34 (F := Ideal)) W (Proc.devRef .tc main_arg20) = W (Proc.devRef .tc main_arg20) := by
  after_results_simp

theorem r34_keep_main_arg21 : StableHlo.after (c34 (F := Ideal)) W (Proc.devRef .tc main_arg21) = W (Proc.devRef .tc main_arg21) := by
  after_results_simp

theorem r34_keep_main_arg22 : StableHlo.after (c34 (F := Ideal)) W (Proc.devRef .tc main_arg22) = W (Proc.devRef .tc main_arg22) := by
  after_results_simp

theorem r34_keep_main_arg23 : StableHlo.after (c34 (F := Ideal)) W (Proc.devRef .tc main_arg23) = W (Proc.devRef .tc main_arg23) := by
  after_results_simp

theorem r34_keep_main_arg24 : StableHlo.after (c34 (F := Ideal)) W (Proc.devRef .tc main_arg24) = W (Proc.devRef .tc main_arg24) := by
  after_results_simp

theorem r34_keep_main_arg25 : StableHlo.after (c34 (F := Ideal)) W (Proc.devRef .tc main_arg25) = W (Proc.devRef .tc main_arg25) := by
  after_results_simp

theorem r34_keep_main_arg26 : StableHlo.after (c34 (F := Ideal)) W (Proc.devRef .tc main_arg26) = W (Proc.devRef .tc main_arg26) := by
  after_results_simp

theorem r34_keep_main_arg27 : StableHlo.after (c34 (F := Ideal)) W (Proc.devRef .tc main_arg27) = W (Proc.devRef .tc main_arg27) := by
  after_results_simp

theorem r34_keep_main_arg28 : StableHlo.after (c34 (F := Ideal)) W (Proc.devRef .tc main_arg28) = W (Proc.devRef .tc main_arg28) := by
  after_results_simp

end Cert.ReferenceIdeal.ChainR

end
-- ==== Proof.ChainRef35.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r35_main_v212 (h_main_v208 : W (Proc.devRef .tc main_v208) = val_main_v208 (F := Ideal) x0 x1 x2 x5 x6 x7 x8 x9 x10 x11 x12 x13 x14 x15 x16 x17 x18 x19 x20 x21 x22) (h_main_arg23 : W (Proc.devRef .tc main_arg23) = x23) (h_main_arg24 : W (Proc.devRef .tc main_arg24) = x24) :
    StableHlo.after (c35 (F := Ideal)) W (Proc.devRef .tc main_v212) = val_main_v212 (F := Ideal) x0 x1 x2 x5 x6 x7 x8 x9 x10 x11 x12 x13 x14 x15 x16 x17 x18 x19 x20 x21 x22 x23 x24 := by
  after_results_simp
  try simp only [cast_eq]
  rw [h_main_v208, h_main_arg23, h_main_arg24]
  rfl

theorem r35_keep_main_arg0 : StableHlo.after (c35 (F := Ideal)) W (Proc.devRef .tc main_arg0) = W (Proc.devRef .tc main_arg0) := by
  after_results_simp

theorem r35_keep_main_arg1 : StableHlo.after (c35 (F := Ideal)) W (Proc.devRef .tc main_arg1) = W (Proc.devRef .tc main_arg1) := by
  after_results_simp

theorem r35_keep_main_arg2 : StableHlo.after (c35 (F := Ideal)) W (Proc.devRef .tc main_arg2) = W (Proc.devRef .tc main_arg2) := by
  after_results_simp

theorem r35_keep_main_arg3 : StableHlo.after (c35 (F := Ideal)) W (Proc.devRef .tc main_arg3) = W (Proc.devRef .tc main_arg3) := by
  after_results_simp

theorem r35_keep_main_arg4 : StableHlo.after (c35 (F := Ideal)) W (Proc.devRef .tc main_arg4) = W (Proc.devRef .tc main_arg4) := by
  after_results_simp

theorem r35_keep_main_arg5 : StableHlo.after (c35 (F := Ideal)) W (Proc.devRef .tc main_arg5) = W (Proc.devRef .tc main_arg5) := by
  after_results_simp

theorem r35_keep_main_arg6 : StableHlo.after (c35 (F := Ideal)) W (Proc.devRef .tc main_arg6) = W (Proc.devRef .tc main_arg6) := by
  after_results_simp

theorem r35_keep_main_arg7 : StableHlo.after (c35 (F := Ideal)) W (Proc.devRef .tc main_arg7) = W (Proc.devRef .tc main_arg7) := by
  after_results_simp

theorem r35_keep_main_arg8 : StableHlo.after (c35 (F := Ideal)) W (Proc.devRef .tc main_arg8) = W (Proc.devRef .tc main_arg8) := by
  after_results_simp

theorem r35_keep_main_arg9 : StableHlo.after (c35 (F := Ideal)) W (Proc.devRef .tc main_arg9) = W (Proc.devRef .tc main_arg9) := by
  after_results_simp

theorem r35_keep_main_arg10 : StableHlo.after (c35 (F := Ideal)) W (Proc.devRef .tc main_arg10) = W (Proc.devRef .tc main_arg10) := by
  after_results_simp

theorem r35_keep_main_arg11 : StableHlo.after (c35 (F := Ideal)) W (Proc.devRef .tc main_arg11) = W (Proc.devRef .tc main_arg11) := by
  after_results_simp

theorem r35_keep_main_arg12 : StableHlo.after (c35 (F := Ideal)) W (Proc.devRef .tc main_arg12) = W (Proc.devRef .tc main_arg12) := by
  after_results_simp

theorem r35_keep_main_arg13 : StableHlo.after (c35 (F := Ideal)) W (Proc.devRef .tc main_arg13) = W (Proc.devRef .tc main_arg13) := by
  after_results_simp

theorem r35_keep_main_arg14 : StableHlo.after (c35 (F := Ideal)) W (Proc.devRef .tc main_arg14) = W (Proc.devRef .tc main_arg14) := by
  after_results_simp

theorem r35_keep_main_arg15 : StableHlo.after (c35 (F := Ideal)) W (Proc.devRef .tc main_arg15) = W (Proc.devRef .tc main_arg15) := by
  after_results_simp

theorem r35_keep_main_arg16 : StableHlo.after (c35 (F := Ideal)) W (Proc.devRef .tc main_arg16) = W (Proc.devRef .tc main_arg16) := by
  after_results_simp

theorem r35_keep_main_arg17 : StableHlo.after (c35 (F := Ideal)) W (Proc.devRef .tc main_arg17) = W (Proc.devRef .tc main_arg17) := by
  after_results_simp

theorem r35_keep_main_arg18 : StableHlo.after (c35 (F := Ideal)) W (Proc.devRef .tc main_arg18) = W (Proc.devRef .tc main_arg18) := by
  after_results_simp

theorem r35_keep_main_arg19 : StableHlo.after (c35 (F := Ideal)) W (Proc.devRef .tc main_arg19) = W (Proc.devRef .tc main_arg19) := by
  after_results_simp

theorem r35_keep_main_arg20 : StableHlo.after (c35 (F := Ideal)) W (Proc.devRef .tc main_arg20) = W (Proc.devRef .tc main_arg20) := by
  after_results_simp

theorem r35_keep_main_arg21 : StableHlo.after (c35 (F := Ideal)) W (Proc.devRef .tc main_arg21) = W (Proc.devRef .tc main_arg21) := by
  after_results_simp

theorem r35_keep_main_arg22 : StableHlo.after (c35 (F := Ideal)) W (Proc.devRef .tc main_arg22) = W (Proc.devRef .tc main_arg22) := by
  after_results_simp

theorem r35_keep_main_arg23 : StableHlo.after (c35 (F := Ideal)) W (Proc.devRef .tc main_arg23) = W (Proc.devRef .tc main_arg23) := by
  after_results_simp

theorem r35_keep_main_arg24 : StableHlo.after (c35 (F := Ideal)) W (Proc.devRef .tc main_arg24) = W (Proc.devRef .tc main_arg24) := by
  after_results_simp

theorem r35_keep_main_arg25 : StableHlo.after (c35 (F := Ideal)) W (Proc.devRef .tc main_arg25) = W (Proc.devRef .tc main_arg25) := by
  after_results_simp

theorem r35_keep_main_arg26 : StableHlo.after (c35 (F := Ideal)) W (Proc.devRef .tc main_arg26) = W (Proc.devRef .tc main_arg26) := by
  after_results_simp

theorem r35_keep_main_arg27 : StableHlo.after (c35 (F := Ideal)) W (Proc.devRef .tc main_arg27) = W (Proc.devRef .tc main_arg27) := by
  after_results_simp

theorem r35_keep_main_arg28 : StableHlo.after (c35 (F := Ideal)) W (Proc.devRef .tc main_arg28) = W (Proc.devRef .tc main_arg28) := by
  after_results_simp

end Cert.ReferenceIdeal.ChainR

end
-- ==== Proof.ChainRef36.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r36_main_v237 (h_main_arg3 : W (Proc.devRef .tc main_arg3) = x3) (h_main_v212 : W (Proc.devRef .tc main_v212) = val_main_v212 (F := Ideal) x0 x1 x2 x5 x6 x7 x8 x9 x10 x11 x12 x13 x14 x15 x16 x17 x18 x19 x20 x21 x22 x23 x24) (h_main_arg4 : W (Proc.devRef .tc main_arg4) = x4) :
    StableHlo.after (c36 (F := Ideal)) W (Proc.devRef .tc main_v237) = val_main_v237 (F := Ideal) x0 x1 x2 x3 x4 x5 x6 x7 x8 x9 x10 x11 x12 x13 x14 x15 x16 x17 x18 x19 x20 x21 x22 x23 x24 := by
  after_results_simp
  try simp only [cast_eq]
  rw [h_main_arg3, h_main_v212, h_main_arg4]
  rfl

theorem r36_keep_main_arg0 : StableHlo.after (c36 (F := Ideal)) W (Proc.devRef .tc main_arg0) = W (Proc.devRef .tc main_arg0) := by
  after_results_simp

theorem r36_keep_main_arg1 : StableHlo.after (c36 (F := Ideal)) W (Proc.devRef .tc main_arg1) = W (Proc.devRef .tc main_arg1) := by
  after_results_simp

theorem r36_keep_main_arg2 : StableHlo.after (c36 (F := Ideal)) W (Proc.devRef .tc main_arg2) = W (Proc.devRef .tc main_arg2) := by
  after_results_simp

theorem r36_keep_main_arg3 : StableHlo.after (c36 (F := Ideal)) W (Proc.devRef .tc main_arg3) = W (Proc.devRef .tc main_arg3) := by
  after_results_simp

theorem r36_keep_main_arg4 : StableHlo.after (c36 (F := Ideal)) W (Proc.devRef .tc main_arg4) = W (Proc.devRef .tc main_arg4) := by
  after_results_simp

theorem r36_keep_main_arg5 : StableHlo.after (c36 (F := Ideal)) W (Proc.devRef .tc main_arg5) = W (Proc.devRef .tc main_arg5) := by
  after_results_simp

theorem r36_keep_main_arg6 : StableHlo.after (c36 (F := Ideal)) W (Proc.devRef .tc main_arg6) = W (Proc.devRef .tc main_arg6) := by
  after_results_simp

theorem r36_keep_main_arg7 : StableHlo.after (c36 (F := Ideal)) W (Proc.devRef .tc main_arg7) = W (Proc.devRef .tc main_arg7) := by
  after_results_simp

theorem r36_keep_main_arg8 : StableHlo.after (c36 (F := Ideal)) W (Proc.devRef .tc main_arg8) = W (Proc.devRef .tc main_arg8) := by
  after_results_simp

theorem r36_keep_main_arg9 : StableHlo.after (c36 (F := Ideal)) W (Proc.devRef .tc main_arg9) = W (Proc.devRef .tc main_arg9) := by
  after_results_simp

theorem r36_keep_main_arg10 : StableHlo.after (c36 (F := Ideal)) W (Proc.devRef .tc main_arg10) = W (Proc.devRef .tc main_arg10) := by
  after_results_simp

theorem r36_keep_main_arg11 : StableHlo.after (c36 (F := Ideal)) W (Proc.devRef .tc main_arg11) = W (Proc.devRef .tc main_arg11) := by
  after_results_simp

theorem r36_keep_main_arg12 : StableHlo.after (c36 (F := Ideal)) W (Proc.devRef .tc main_arg12) = W (Proc.devRef .tc main_arg12) := by
  after_results_simp

theorem r36_keep_main_arg13 : StableHlo.after (c36 (F := Ideal)) W (Proc.devRef .tc main_arg13) = W (Proc.devRef .tc main_arg13) := by
  after_results_simp

theorem r36_keep_main_arg14 : StableHlo.after (c36 (F := Ideal)) W (Proc.devRef .tc main_arg14) = W (Proc.devRef .tc main_arg14) := by
  after_results_simp

theorem r36_keep_main_arg15 : StableHlo.after (c36 (F := Ideal)) W (Proc.devRef .tc main_arg15) = W (Proc.devRef .tc main_arg15) := by
  after_results_simp

theorem r36_keep_main_arg16 : StableHlo.after (c36 (F := Ideal)) W (Proc.devRef .tc main_arg16) = W (Proc.devRef .tc main_arg16) := by
  after_results_simp

theorem r36_keep_main_arg17 : StableHlo.after (c36 (F := Ideal)) W (Proc.devRef .tc main_arg17) = W (Proc.devRef .tc main_arg17) := by
  after_results_simp

theorem r36_keep_main_arg18 : StableHlo.after (c36 (F := Ideal)) W (Proc.devRef .tc main_arg18) = W (Proc.devRef .tc main_arg18) := by
  after_results_simp

theorem r36_keep_main_arg19 : StableHlo.after (c36 (F := Ideal)) W (Proc.devRef .tc main_arg19) = W (Proc.devRef .tc main_arg19) := by
  after_results_simp

theorem r36_keep_main_arg20 : StableHlo.after (c36 (F := Ideal)) W (Proc.devRef .tc main_arg20) = W (Proc.devRef .tc main_arg20) := by
  after_results_simp

theorem r36_keep_main_arg21 : StableHlo.after (c36 (F := Ideal)) W (Proc.devRef .tc main_arg21) = W (Proc.devRef .tc main_arg21) := by
  after_results_simp

theorem r36_keep_main_arg22 : StableHlo.after (c36 (F := Ideal)) W (Proc.devRef .tc main_arg22) = W (Proc.devRef .tc main_arg22) := by
  after_results_simp

theorem r36_keep_main_arg23 : StableHlo.after (c36 (F := Ideal)) W (Proc.devRef .tc main_arg23) = W (Proc.devRef .tc main_arg23) := by
  after_results_simp

theorem r36_keep_main_arg24 : StableHlo.after (c36 (F := Ideal)) W (Proc.devRef .tc main_arg24) = W (Proc.devRef .tc main_arg24) := by
  after_results_simp

theorem r36_keep_main_arg25 : StableHlo.after (c36 (F := Ideal)) W (Proc.devRef .tc main_arg25) = W (Proc.devRef .tc main_arg25) := by
  after_results_simp

theorem r36_keep_main_arg26 : StableHlo.after (c36 (F := Ideal)) W (Proc.devRef .tc main_arg26) = W (Proc.devRef .tc main_arg26) := by
  after_results_simp

theorem r36_keep_main_arg27 : StableHlo.after (c36 (F := Ideal)) W (Proc.devRef .tc main_arg27) = W (Proc.devRef .tc main_arg27) := by
  after_results_simp

theorem r36_keep_main_arg28 : StableHlo.after (c36 (F := Ideal)) W (Proc.devRef .tc main_arg28) = W (Proc.devRef .tc main_arg28) := by
  after_results_simp

end Cert.ReferenceIdeal.ChainR

end
-- ==== Proof.ChainRef37.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r37_main_v241 (h_main_v237 : W (Proc.devRef .tc main_v237) = val_main_v237 (F := Ideal) x0 x1 x2 x3 x4 x5 x6 x7 x8 x9 x10 x11 x12 x13 x14 x15 x16 x17 x18 x19 x20 x21 x22 x23 x24) (h_main_arg25 : W (Proc.devRef .tc main_arg25) = x25) (h_main_arg26 : W (Proc.devRef .tc main_arg26) = x26) :
    StableHlo.after (c37 (F := Ideal)) W (Proc.devRef .tc main_v241) = val_main_v241 (F := Ideal) x0 x1 x2 x3 x4 x5 x6 x7 x8 x9 x10 x11 x12 x13 x14 x15 x16 x17 x18 x19 x20 x21 x22 x23 x24 x25 x26 := by
  after_results_simp
  try simp only [cast_eq]
  rw [h_main_v237, h_main_arg25, h_main_arg26]
  rfl

theorem r37_keep_main_arg0 : StableHlo.after (c37 (F := Ideal)) W (Proc.devRef .tc main_arg0) = W (Proc.devRef .tc main_arg0) := by
  after_results_simp

theorem r37_keep_main_arg1 : StableHlo.after (c37 (F := Ideal)) W (Proc.devRef .tc main_arg1) = W (Proc.devRef .tc main_arg1) := by
  after_results_simp

theorem r37_keep_main_arg2 : StableHlo.after (c37 (F := Ideal)) W (Proc.devRef .tc main_arg2) = W (Proc.devRef .tc main_arg2) := by
  after_results_simp

theorem r37_keep_main_arg3 : StableHlo.after (c37 (F := Ideal)) W (Proc.devRef .tc main_arg3) = W (Proc.devRef .tc main_arg3) := by
  after_results_simp

theorem r37_keep_main_arg4 : StableHlo.after (c37 (F := Ideal)) W (Proc.devRef .tc main_arg4) = W (Proc.devRef .tc main_arg4) := by
  after_results_simp

theorem r37_keep_main_arg5 : StableHlo.after (c37 (F := Ideal)) W (Proc.devRef .tc main_arg5) = W (Proc.devRef .tc main_arg5) := by
  after_results_simp

theorem r37_keep_main_arg6 : StableHlo.after (c37 (F := Ideal)) W (Proc.devRef .tc main_arg6) = W (Proc.devRef .tc main_arg6) := by
  after_results_simp

theorem r37_keep_main_arg7 : StableHlo.after (c37 (F := Ideal)) W (Proc.devRef .tc main_arg7) = W (Proc.devRef .tc main_arg7) := by
  after_results_simp

theorem r37_keep_main_arg8 : StableHlo.after (c37 (F := Ideal)) W (Proc.devRef .tc main_arg8) = W (Proc.devRef .tc main_arg8) := by
  after_results_simp

theorem r37_keep_main_arg9 : StableHlo.after (c37 (F := Ideal)) W (Proc.devRef .tc main_arg9) = W (Proc.devRef .tc main_arg9) := by
  after_results_simp

theorem r37_keep_main_arg10 : StableHlo.after (c37 (F := Ideal)) W (Proc.devRef .tc main_arg10) = W (Proc.devRef .tc main_arg10) := by
  after_results_simp

theorem r37_keep_main_arg11 : StableHlo.after (c37 (F := Ideal)) W (Proc.devRef .tc main_arg11) = W (Proc.devRef .tc main_arg11) := by
  after_results_simp

theorem r37_keep_main_arg12 : StableHlo.after (c37 (F := Ideal)) W (Proc.devRef .tc main_arg12) = W (Proc.devRef .tc main_arg12) := by
  after_results_simp

theorem r37_keep_main_arg13 : StableHlo.after (c37 (F := Ideal)) W (Proc.devRef .tc main_arg13) = W (Proc.devRef .tc main_arg13) := by
  after_results_simp

theorem r37_keep_main_arg14 : StableHlo.after (c37 (F := Ideal)) W (Proc.devRef .tc main_arg14) = W (Proc.devRef .tc main_arg14) := by
  after_results_simp

theorem r37_keep_main_arg15 : StableHlo.after (c37 (F := Ideal)) W (Proc.devRef .tc main_arg15) = W (Proc.devRef .tc main_arg15) := by
  after_results_simp

theorem r37_keep_main_arg16 : StableHlo.after (c37 (F := Ideal)) W (Proc.devRef .tc main_arg16) = W (Proc.devRef .tc main_arg16) := by
  after_results_simp

theorem r37_keep_main_arg17 : StableHlo.after (c37 (F := Ideal)) W (Proc.devRef .tc main_arg17) = W (Proc.devRef .tc main_arg17) := by
  after_results_simp

theorem r37_keep_main_arg18 : StableHlo.after (c37 (F := Ideal)) W (Proc.devRef .tc main_arg18) = W (Proc.devRef .tc main_arg18) := by
  after_results_simp

theorem r37_keep_main_arg19 : StableHlo.after (c37 (F := Ideal)) W (Proc.devRef .tc main_arg19) = W (Proc.devRef .tc main_arg19) := by
  after_results_simp

theorem r37_keep_main_arg20 : StableHlo.after (c37 (F := Ideal)) W (Proc.devRef .tc main_arg20) = W (Proc.devRef .tc main_arg20) := by
  after_results_simp

theorem r37_keep_main_arg21 : StableHlo.after (c37 (F := Ideal)) W (Proc.devRef .tc main_arg21) = W (Proc.devRef .tc main_arg21) := by
  after_results_simp

theorem r37_keep_main_arg22 : StableHlo.after (c37 (F := Ideal)) W (Proc.devRef .tc main_arg22) = W (Proc.devRef .tc main_arg22) := by
  after_results_simp

theorem r37_keep_main_arg23 : StableHlo.after (c37 (F := Ideal)) W (Proc.devRef .tc main_arg23) = W (Proc.devRef .tc main_arg23) := by
  after_results_simp

theorem r37_keep_main_arg24 : StableHlo.after (c37 (F := Ideal)) W (Proc.devRef .tc main_arg24) = W (Proc.devRef .tc main_arg24) := by
  after_results_simp

theorem r37_keep_main_arg25 : StableHlo.after (c37 (F := Ideal)) W (Proc.devRef .tc main_arg25) = W (Proc.devRef .tc main_arg25) := by
  after_results_simp

theorem r37_keep_main_arg26 : StableHlo.after (c37 (F := Ideal)) W (Proc.devRef .tc main_arg26) = W (Proc.devRef .tc main_arg26) := by
  after_results_simp

theorem r37_keep_main_arg27 : StableHlo.after (c37 (F := Ideal)) W (Proc.devRef .tc main_arg27) = W (Proc.devRef .tc main_arg27) := by
  after_results_simp

theorem r37_keep_main_arg28 : StableHlo.after (c37 (F := Ideal)) W (Proc.devRef .tc main_arg28) = W (Proc.devRef .tc main_arg28) := by
  after_results_simp

end Cert.ReferenceIdeal.ChainR

end
-- ==== Proof.ChainRef38.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r38_main_v242 (h_main_v241 : W (Proc.devRef .tc main_v241) = val_main_v241 (F := Ideal) x0 x1 x2 x3 x4 x5 x6 x7 x8 x9 x10 x11 x12 x13 x14 x15 x16 x17 x18 x19 x20 x21 x22 x23 x24 x25 x26) :
    StableHlo.after (c38 (F := Ideal)) W (Proc.devRef .tc main_v242) = val_main_v242 (F := Ideal) x0 x1 x2 x3 x4 x5 x6 x7 x8 x9 x10 x11 x12 x13 x14 x15 x16 x17 x18 x19 x20 x21 x22 x23 x24 x25 x26 := by
  after_results_simp
  try simp only [cast_eq]
  rw [h_main_v241]
  rfl

theorem r38_keep_main_arg0 : StableHlo.after (c38 (F := Ideal)) W (Proc.devRef .tc main_arg0) = W (Proc.devRef .tc main_arg0) := by
  after_results_simp

theorem r38_keep_main_arg1 : StableHlo.after (c38 (F := Ideal)) W (Proc.devRef .tc main_arg1) = W (Proc.devRef .tc main_arg1) := by
  after_results_simp

theorem r38_keep_main_arg2 : StableHlo.after (c38 (F := Ideal)) W (Proc.devRef .tc main_arg2) = W (Proc.devRef .tc main_arg2) := by
  after_results_simp

theorem r38_keep_main_arg3 : StableHlo.after (c38 (F := Ideal)) W (Proc.devRef .tc main_arg3) = W (Proc.devRef .tc main_arg3) := by
  after_results_simp

theorem r38_keep_main_arg4 : StableHlo.after (c38 (F := Ideal)) W (Proc.devRef .tc main_arg4) = W (Proc.devRef .tc main_arg4) := by
  after_results_simp

theorem r38_keep_main_arg5 : StableHlo.after (c38 (F := Ideal)) W (Proc.devRef .tc main_arg5) = W (Proc.devRef .tc main_arg5) := by
  after_results_simp

theorem r38_keep_main_arg6 : StableHlo.after (c38 (F := Ideal)) W (Proc.devRef .tc main_arg6) = W (Proc.devRef .tc main_arg6) := by
  after_results_simp

theorem r38_keep_main_arg7 : StableHlo.after (c38 (F := Ideal)) W (Proc.devRef .tc main_arg7) = W (Proc.devRef .tc main_arg7) := by
  after_results_simp

theorem r38_keep_main_arg8 : StableHlo.after (c38 (F := Ideal)) W (Proc.devRef .tc main_arg8) = W (Proc.devRef .tc main_arg8) := by
  after_results_simp

theorem r38_keep_main_arg9 : StableHlo.after (c38 (F := Ideal)) W (Proc.devRef .tc main_arg9) = W (Proc.devRef .tc main_arg9) := by
  after_results_simp

theorem r38_keep_main_arg10 : StableHlo.after (c38 (F := Ideal)) W (Proc.devRef .tc main_arg10) = W (Proc.devRef .tc main_arg10) := by
  after_results_simp

theorem r38_keep_main_arg11 : StableHlo.after (c38 (F := Ideal)) W (Proc.devRef .tc main_arg11) = W (Proc.devRef .tc main_arg11) := by
  after_results_simp

theorem r38_keep_main_arg12 : StableHlo.after (c38 (F := Ideal)) W (Proc.devRef .tc main_arg12) = W (Proc.devRef .tc main_arg12) := by
  after_results_simp

theorem r38_keep_main_arg13 : StableHlo.after (c38 (F := Ideal)) W (Proc.devRef .tc main_arg13) = W (Proc.devRef .tc main_arg13) := by
  after_results_simp

theorem r38_keep_main_arg14 : StableHlo.after (c38 (F := Ideal)) W (Proc.devRef .tc main_arg14) = W (Proc.devRef .tc main_arg14) := by
  after_results_simp

theorem r38_keep_main_arg15 : StableHlo.after (c38 (F := Ideal)) W (Proc.devRef .tc main_arg15) = W (Proc.devRef .tc main_arg15) := by
  after_results_simp

theorem r38_keep_main_arg16 : StableHlo.after (c38 (F := Ideal)) W (Proc.devRef .tc main_arg16) = W (Proc.devRef .tc main_arg16) := by
  after_results_simp

theorem r38_keep_main_arg17 : StableHlo.after (c38 (F := Ideal)) W (Proc.devRef .tc main_arg17) = W (Proc.devRef .tc main_arg17) := by
  after_results_simp

theorem r38_keep_main_arg18 : StableHlo.after (c38 (F := Ideal)) W (Proc.devRef .tc main_arg18) = W (Proc.devRef .tc main_arg18) := by
  after_results_simp

theorem r38_keep_main_arg19 : StableHlo.after (c38 (F := Ideal)) W (Proc.devRef .tc main_arg19) = W (Proc.devRef .tc main_arg19) := by
  after_results_simp

theorem r38_keep_main_arg20 : StableHlo.after (c38 (F := Ideal)) W (Proc.devRef .tc main_arg20) = W (Proc.devRef .tc main_arg20) := by
  after_results_simp

theorem r38_keep_main_arg21 : StableHlo.after (c38 (F := Ideal)) W (Proc.devRef .tc main_arg21) = W (Proc.devRef .tc main_arg21) := by
  after_results_simp

theorem r38_keep_main_arg22 : StableHlo.after (c38 (F := Ideal)) W (Proc.devRef .tc main_arg22) = W (Proc.devRef .tc main_arg22) := by
  after_results_simp

theorem r38_keep_main_arg23 : StableHlo.after (c38 (F := Ideal)) W (Proc.devRef .tc main_arg23) = W (Proc.devRef .tc main_arg23) := by
  after_results_simp

theorem r38_keep_main_arg24 : StableHlo.after (c38 (F := Ideal)) W (Proc.devRef .tc main_arg24) = W (Proc.devRef .tc main_arg24) := by
  after_results_simp

theorem r38_keep_main_arg25 : StableHlo.after (c38 (F := Ideal)) W (Proc.devRef .tc main_arg25) = W (Proc.devRef .tc main_arg25) := by
  after_results_simp

theorem r38_keep_main_arg26 : StableHlo.after (c38 (F := Ideal)) W (Proc.devRef .tc main_arg26) = W (Proc.devRef .tc main_arg26) := by
  after_results_simp

theorem r38_keep_main_arg27 : StableHlo.after (c38 (F := Ideal)) W (Proc.devRef .tc main_arg27) = W (Proc.devRef .tc main_arg27) := by
  after_results_simp

theorem r38_keep_main_arg28 : StableHlo.after (c38 (F := Ideal)) W (Proc.devRef .tc main_arg28) = W (Proc.devRef .tc main_arg28) := by
  after_results_simp

end Cert.ReferenceIdeal.ChainR

end
-- ==== Proof.ChainRef39.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r39_main_v246 (h_main_v242 : W (Proc.devRef .tc main_v242) = val_main_v242 (F := Ideal) x0 x1 x2 x3 x4 x5 x6 x7 x8 x9 x10 x11 x12 x13 x14 x15 x16 x17 x18 x19 x20 x21 x22 x23 x24 x25 x26) (h_main_arg27 : W (Proc.devRef .tc main_arg27) = x27) (h_main_arg28 : W (Proc.devRef .tc main_arg28) = x28) :
    StableHlo.after (c39 (F := Ideal)) W (Proc.devRef .tc main_v246) = val_main_v246 (F := Ideal) x0 x1 x2 x3 x4 x5 x6 x7 x8 x9 x10 x11 x12 x13 x14 x15 x16 x17 x18 x19 x20 x21 x22 x23 x24 x25 x26 x27 x28 := by
  after_results_simp
  try simp only [cast_eq]
  rw [h_main_v242, h_main_arg27, h_main_arg28]
  rfl

theorem r39_keep_main_arg0 : StableHlo.after (c39 (F := Ideal)) W (Proc.devRef .tc main_arg0) = W (Proc.devRef .tc main_arg0) := by
  after_results_simp

theorem r39_keep_main_arg1 : StableHlo.after (c39 (F := Ideal)) W (Proc.devRef .tc main_arg1) = W (Proc.devRef .tc main_arg1) := by
  after_results_simp

theorem r39_keep_main_arg2 : StableHlo.after (c39 (F := Ideal)) W (Proc.devRef .tc main_arg2) = W (Proc.devRef .tc main_arg2) := by
  after_results_simp

theorem r39_keep_main_arg3 : StableHlo.after (c39 (F := Ideal)) W (Proc.devRef .tc main_arg3) = W (Proc.devRef .tc main_arg3) := by
  after_results_simp

theorem r39_keep_main_arg4 : StableHlo.after (c39 (F := Ideal)) W (Proc.devRef .tc main_arg4) = W (Proc.devRef .tc main_arg4) := by
  after_results_simp

theorem r39_keep_main_arg5 : StableHlo.after (c39 (F := Ideal)) W (Proc.devRef .tc main_arg5) = W (Proc.devRef .tc main_arg5) := by
  after_results_simp

theorem r39_keep_main_arg6 : StableHlo.after (c39 (F := Ideal)) W (Proc.devRef .tc main_arg6) = W (Proc.devRef .tc main_arg6) := by
  after_results_simp

theorem r39_keep_main_arg7 : StableHlo.after (c39 (F := Ideal)) W (Proc.devRef .tc main_arg7) = W (Proc.devRef .tc main_arg7) := by
  after_results_simp

theorem r39_keep_main_arg8 : StableHlo.after (c39 (F := Ideal)) W (Proc.devRef .tc main_arg8) = W (Proc.devRef .tc main_arg8) := by
  after_results_simp

theorem r39_keep_main_arg9 : StableHlo.after (c39 (F := Ideal)) W (Proc.devRef .tc main_arg9) = W (Proc.devRef .tc main_arg9) := by
  after_results_simp

theorem r39_keep_main_arg10 : StableHlo.after (c39 (F := Ideal)) W (Proc.devRef .tc main_arg10) = W (Proc.devRef .tc main_arg10) := by
  after_results_simp

theorem r39_keep_main_arg11 : StableHlo.after (c39 (F := Ideal)) W (Proc.devRef .tc main_arg11) = W (Proc.devRef .tc main_arg11) := by
  after_results_simp

theorem r39_keep_main_arg12 : StableHlo.after (c39 (F := Ideal)) W (Proc.devRef .tc main_arg12) = W (Proc.devRef .tc main_arg12) := by
  after_results_simp

theorem r39_keep_main_arg13 : StableHlo.after (c39 (F := Ideal)) W (Proc.devRef .tc main_arg13) = W (Proc.devRef .tc main_arg13) := by
  after_results_simp

theorem r39_keep_main_arg14 : StableHlo.after (c39 (F := Ideal)) W (Proc.devRef .tc main_arg14) = W (Proc.devRef .tc main_arg14) := by
  after_results_simp

theorem r39_keep_main_arg15 : StableHlo.after (c39 (F := Ideal)) W (Proc.devRef .tc main_arg15) = W (Proc.devRef .tc main_arg15) := by
  after_results_simp

theorem r39_keep_main_arg16 : StableHlo.after (c39 (F := Ideal)) W (Proc.devRef .tc main_arg16) = W (Proc.devRef .tc main_arg16) := by
  after_results_simp

theorem r39_keep_main_arg17 : StableHlo.after (c39 (F := Ideal)) W (Proc.devRef .tc main_arg17) = W (Proc.devRef .tc main_arg17) := by
  after_results_simp

theorem r39_keep_main_arg18 : StableHlo.after (c39 (F := Ideal)) W (Proc.devRef .tc main_arg18) = W (Proc.devRef .tc main_arg18) := by
  after_results_simp

theorem r39_keep_main_arg19 : StableHlo.after (c39 (F := Ideal)) W (Proc.devRef .tc main_arg19) = W (Proc.devRef .tc main_arg19) := by
  after_results_simp

theorem r39_keep_main_arg20 : StableHlo.after (c39 (F := Ideal)) W (Proc.devRef .tc main_arg20) = W (Proc.devRef .tc main_arg20) := by
  after_results_simp

theorem r39_keep_main_arg21 : StableHlo.after (c39 (F := Ideal)) W (Proc.devRef .tc main_arg21) = W (Proc.devRef .tc main_arg21) := by
  after_results_simp

theorem r39_keep_main_arg22 : StableHlo.after (c39 (F := Ideal)) W (Proc.devRef .tc main_arg22) = W (Proc.devRef .tc main_arg22) := by
  after_results_simp

theorem r39_keep_main_arg23 : StableHlo.after (c39 (F := Ideal)) W (Proc.devRef .tc main_arg23) = W (Proc.devRef .tc main_arg23) := by
  after_results_simp

theorem r39_keep_main_arg24 : StableHlo.after (c39 (F := Ideal)) W (Proc.devRef .tc main_arg24) = W (Proc.devRef .tc main_arg24) := by
  after_results_simp

theorem r39_keep_main_arg25 : StableHlo.after (c39 (F := Ideal)) W (Proc.devRef .tc main_arg25) = W (Proc.devRef .tc main_arg25) := by
  after_results_simp

theorem r39_keep_main_arg26 : StableHlo.after (c39 (F := Ideal)) W (Proc.devRef .tc main_arg26) = W (Proc.devRef .tc main_arg26) := by
  after_results_simp

theorem r39_keep_main_arg27 : StableHlo.after (c39 (F := Ideal)) W (Proc.devRef .tc main_arg27) = W (Proc.devRef .tc main_arg27) := by
  after_results_simp

theorem r39_keep_main_arg28 : StableHlo.after (c39 (F := Ideal)) W (Proc.devRef .tc main_arg28) = W (Proc.devRef .tc main_arg28) := by
  after_results_simp

end Cert.ReferenceIdeal.ChainR

end
-- ==== Proof.ChainRef40.lean ====
/-
  One stretch of the reference program's operations read over ANY contents of the buffers: from buffers holding the
  stages' values it leaves buffers holding the stages' values, and what it does not write it keeps.
-/
import proofs.«110263_j50620484551136_1_alg».proof.Proof.RefChunks
import proofs.«110263_j50620484551136_1_alg».proof.Proof.RefRead
import proofs.«110263_j50620484551136_1_alg».proof.Proof.LibConcatCongr

noncomputable section

namespace Cert.ReferenceIdeal.ChainR

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

attribute [local congr] Idealize.ShloMosaic.concatenate_pair_congr

variable (W : Valuation τ sig (Elt Ideal))
variable {x0 : (⟨S50000x4652, .f32⟩ : BufTy).Contents (Elt Ideal)}
variable {x1 : (⟨S2x800000, .i32⟩ : BufTy).Contents (Elt Ideal)}
variable {x2 : (⟨S2x800000, .i32⟩ : BufTy).Contents (Elt Ideal)}
variable {x3 : (⟨S50000, .i32⟩ : BufTy).Contents (Elt Ideal)}
variable {x4 : (⟨S50000, .i32⟩ : BufTy).Contents (Elt Ideal)}
variable {x5 : (⟨S4652x256, .f32⟩ : BufTy).Contents (Elt Ideal)}
variable {x6 : (⟨S256, .f32⟩ : BufTy).Contents (Elt Ideal)}
variable {x7 : (⟨S256x256, .f32⟩ : BufTy).Contents (Elt Ideal)}
variable {x8 : (⟨S256, .f32⟩ : BufTy).Contents (Elt Ideal)}
variable {x9 : (⟨S256x256, .f32⟩ : BufTy).Contents (Elt Ideal)}
variable {x10 : (⟨S256, .f32⟩ : BufTy).Contents (Elt Ideal)}
variable {x11 : (⟨S256x256, .f32⟩ : BufTy).Contents (Elt Ideal)}
variable {x12 : (⟨S256, .f32⟩ : BufTy).Contents (Elt Ideal)}
variable {x13 : (⟨S256x256, .f32⟩ : BufTy).Contents (Elt Ideal)}
variable {x14 : (⟨S256, .f32⟩ : BufTy).Contents (Elt Ideal)}
variable {x15 : (⟨S256x256, .f32⟩ : BufTy).Contents (Elt Ideal)}
variable {x16 : (⟨S256, .f32⟩ : BufTy).Contents (Elt Ideal)}
variable {x17 : (⟨S512x256, .f32⟩ : BufTy).Contents (Elt Ideal)}
variable {x18 : (⟨S256, .f32⟩ : BufTy).Contents (Elt Ideal)}
variable {x19 : (⟨S256x256, .f32⟩ : BufTy).Contents (Elt Ideal)}
variable {x20 : (⟨S256, .f32⟩ : BufTy).Contents (Elt Ideal)}
variable {x21 : (⟨S512x256, .f32⟩ : BufTy).Contents (Elt Ideal)}
variable {x22 : (⟨S256, .f32⟩ : BufTy).Contents (Elt Ideal)}
variable {x23 : (⟨S256x256, .f32⟩ : BufTy).Contents (Elt Ideal)}
variable {x24 : (⟨S256, .f32⟩ : BufTy).Contents (Elt Ideal)}
variable {x25 : (⟨S512x256, .f32⟩ : BufTy).Contents (Elt Ideal)}
variable {x26 : (⟨S256, .f32⟩ : BufTy).Contents (Elt Ideal)}
variable {x27 : (⟨S256x5, .f32⟩ : BufTy).Contents (Elt Ideal)}
variable {x28 : (⟨S5, .f32⟩ : BufTy).Contents (Elt Ideal)}

theorem r40_main_v247 (h_main_v246 : W (Proc.devRef .tc main_v246) = val_main_v246 (F := Ideal) x0 x1 x2 x3 x4 x5 x6 x7 x8 x9 x10 x11 x12 x13 x14 x15 x16 x17 x18 x19 x20 x21 x22 x23 x24 x25 x26 x27 x28) :
    StableHlo.after (c40 (F := Ideal)) W (Proc.devRef .tc main_v247) = val_main_v247 (F := Ideal) x0 x1 x2 x3 x4 x5 x6 x7 x8 x9 x10 x11 x12 x13 x14 x15 x16 x17 x18 x19 x20 x21 x22 x23 x24 x25 x26 x27 x28 := by
  after_results_simp
  try simp only [cast_eq]
  rw [h_main_v246]
  rfl

theorem r40_keep_main_arg0 : StableHlo.after (c40 (F := Ideal)) W (Proc.devRef .tc main_arg0) = W (Proc.devRef .tc main_arg0) := by
  after_results_simp

theorem r40_keep_main_arg1 : StableHlo.after (c40 (F := Ideal)) W (Proc.devRef .tc main_arg1) = W (Proc.devRef .tc main_arg1) := by
  after_results_simp

theorem r40_keep_main_arg2 : StableHlo.after (c40 (F := Ideal)) W (Proc.devRef .tc main_arg2) = W (Proc.devRef .tc main_arg2) := by
  after_results_simp

theorem r40_keep_main_arg3 : StableHlo.after (c40 (F := Ideal)) W (Proc.devRef .tc main_arg3) = W (Proc.devRef .tc main_arg3) := by
  after_results_simp

theorem r40_keep_main_arg4 : StableHlo.after (c40 (F := Ideal)) W (Proc.devRef .tc main_arg4) = W (Proc.devRef .tc main_arg4) := by
  after_results_simp

theorem r40_keep_main_arg5 : StableHlo.after (c40 (F := Ideal)) W (Proc.devRef .tc main_arg5) = W (Proc.devRef .tc main_arg5) := by
  after_results_simp

theorem r40_keep_main_arg6 : StableHlo.after (c40 (F := Ideal)) W (Proc.devRef .tc main_arg6) = W (Proc.devRef .tc main_arg6) := by
  after_results_simp

theorem r40_keep_main_arg7 : StableHlo.after (c40 (F := Ideal)) W (Proc.devRef .tc main_arg7) = W (Proc.devRef .tc main_arg7) := by
  after_results_simp

theorem r40_keep_main_arg8 : StableHlo.after (c40 (F := Ideal)) W (Proc.devRef .tc main_arg8) = W (Proc.devRef .tc main_arg8) := by
  after_results_simp

theorem r40_keep_main_arg9 : StableHlo.after (c40 (F := Ideal)) W (Proc.devRef .tc main_arg9) = W (Proc.devRef .tc main_arg9) := by
  after_results_simp

theorem r40_keep_main_arg10 : StableHlo.after (c40 (F := Ideal)) W (Proc.devRef .tc main_arg10) = W (Proc.devRef .tc main_arg10) := by
  after_results_simp

theorem r40_keep_main_arg11 : StableHlo.after (c40 (F := Ideal)) W (Proc.devRef .tc main_arg11) = W (Proc.devRef .tc main_arg11) := by
  after_results_simp

theorem r40_keep_main_arg12 : StableHlo.after (c40 (F := Ideal)) W (Proc.devRef .tc main_arg12) = W (Proc.devRef .tc main_arg12) := by
  after_results_simp

theorem r40_keep_main_arg13 : StableHlo.after (c40 (F := Ideal)) W (Proc.devRef .tc main_arg13) = W (Proc.devRef .tc main_arg13) := by
  after_results_simp

theorem r40_keep_main_arg14 : StableHlo.after (c40 (F := Ideal)) W (Proc.devRef .tc main_arg14) = W (Proc.devRef .tc main_arg14) := by
  after_results_simp

theorem r40_keep_main_arg15 : StableHlo.after (c40 (F := Ideal)) W (Proc.devRef .tc main_arg15) = W (Proc.devRef .tc main_arg15) := by
  after_results_simp

theorem r40_keep_main_arg16 : StableHlo.after (c40 (F := Ideal)) W (Proc.devRef .tc main_arg16) = W (Proc.devRef .tc main_arg16) := by
  after_results_simp

theorem r40_keep_main_arg17 : StableHlo.after (c40 (F := Ideal)) W (Proc.devRef .tc main_arg17) = W (Proc.devRef .tc main_arg17) := by
  after_results_simp

theorem r40_keep_main_arg18 : StableHlo.after (c40 (F := Ideal)) W (Proc.devRef .tc main_arg18) = W (Proc.devRef .tc main_arg18) := by
  after_results_simp

theorem r40_keep_main_arg19 : StableHlo.after (c40 (F := Ideal)) W (Proc.devRef .tc main_arg19) = W (Proc.devRef .tc main_arg19) := by
  after_results_simp

theorem r40_keep_main_arg20 : StableHlo.after (c40 (F := Ideal)) W (Proc.devRef .tc main_arg20) = W (Proc.devRef .tc main_arg20) := by
  after_results_simp

theorem r40_keep_main_arg21 : StableHlo.after (c40 (F := Ideal)) W (Proc.devRef .tc main_arg21) = W (Proc.devRef .tc main_arg21) := by
  after_results_simp

theorem r40_keep_main_arg22 : StableHlo.after (c40 (F := Ideal)) W (Proc.devRef .tc main_arg22) = W (Proc.devRef .tc main_arg22) := by
  after_results_simp

theorem r40_keep_main_arg23 : StableHlo.after (c40 (F := Ideal)) W (Proc.devRef .tc main_arg23) = W (Proc.devRef .tc main_arg23) := by
  after_results_simp

theorem r40_keep_main_arg24 : StableHlo.after (c40 (F := Ideal)) W (Proc.devRef .tc main_arg24) = W (Proc.devRef .tc main_arg24) := by
  after_results_simp

theorem r40_keep_main_arg25 : StableHlo.after (c40 (F := Ideal)) W (Proc.devRef .tc main_arg25) = W (Proc.devRef .tc main_arg25) := by
  after_results_simp

theorem r40_keep_main_arg26 : StableHlo.after (c40 (F := Ideal)) W (Proc.devRef .tc main_arg26) = W (Proc.devRef .tc main_arg26) := by
  after_results_simp

theorem r40_keep_main_arg27 : StableHlo.after (c40 (F := Ideal)) W (Proc.devRef .tc main_arg27) = W (Proc.devRef .tc main_arg27) := by
  after_results_simp

theorem r40_keep_main_arg28 : StableHlo.after (c40 (F := Ideal)) W (Proc.devRef .tc main_arg28) = W (Proc.devRef .tc main_arg28) := by
  after_results_simp

end Cert.ReferenceIdeal.ChainR

end
-- ==== Proof.RefValue.lean ====
/-
  The reference program's buffers after each stretch of its operations, from the launch memory on: every buffer that
  is still read later holds its stage's value of the launch contents of the arguments; so the result buffer after
  all the operations holds the last stage.
-/
import proofs.«110263_j50620484551136_1_alg».proof.Proof.ChainRef0
import proofs.«110263_j50620484551136_1_alg».proof.Proof.ChainRef1
import proofs.«110263_j50620484551136_1_alg».proof.Proof.ChainRef2
import proofs.«110263_j50620484551136_1_alg».proof.Proof.ChainRef3
import proofs.«110263_j50620484551136_1_alg».proof.Proof.ChainRef4
import proofs.«110263_j50620484551136_1_alg».proof.Proof.ChainRef5
import proofs.«110263_j50620484551136_1_alg».proof.Proof.ChainRef6
import proofs.«110263_j50620484551136_1_alg».proof.Proof.ChainRef7
import proofs.«110263_j50620484551136_1_alg».proof.Proof.ChainRef8
import proofs.«110263_j50620484551136_1_alg».proof.Proof.ChainRef9
import proofs.«110263_j50620484551136_1_alg».proof.Proof.ChainRef10
import proofs.«110263_j50620484551136_1_alg».proof.Proof.ChainRef11
import proofs.«110263_j50620484551136_1_alg».proof.Proof.ChainRef12
import proofs.«110263_j50620484551136_1_alg».proof.Proof.ChainRef13
import proofs.«110263_j50620484551136_1_alg».proof.Proof.ChainRef14
import proofs.«110263_j50620484551136_1_alg».proof.Proof.ChainRef15
import proofs.«110263_j50620484551136_1_alg».proof.Proof.ChainRef16
import proofs.«110263_j50620484551136_1_alg».proof.Proof.ChainRef17
import proofs.«110263_j50620484551136_1_alg».proof.Proof.ChainRef18
import proofs.«110263_j50620484551136_1_alg».proof.Proof.ChainRef19
import proofs.«110263_j50620484551136_1_alg».proof.Proof.ChainRef20
import proofs.«110263_j50620484551136_1_alg».proof.Proof.ChainRef21
import proofs.«110263_j50620484551136_1_alg».proof.Proof.ChainRef22
import proofs.«110263_j50620484551136_1_alg».proof.Proof.ChainRef23
import proofs.«110263_j50620484551136_1_alg».proof.Proof.ChainRef24
import proofs.«110263_j50620484551136_1_alg».proof.Proof.ChainRef25
import proofs.«110263_j50620484551136_1_alg».proof.Proof.ChainRef26
import proofs.«110263_j50620484551136_1_alg».proof.Proof.ChainRef27
import proofs.«110263_j50620484551136_1_alg».proof.Proof.ChainRef28
import proofs.«110263_j50620484551136_1_alg».proof.Proof.ChainRef29
import proofs.«110263_j50620484551136_1_alg».proof.Proof.ChainRef30
import proofs.«110263_j50620484551136_1_alg».proof.Proof.ChainRef31
import proofs.«110263_j50620484551136_1_alg».proof.Proof.ChainRef32
import proofs.«110263_j50620484551136_1_alg».proof.Proof.ChainRef33
import proofs.«110263_j50620484551136_1_alg».proof.Proof.ChainRef34
import proofs.«110263_j50620484551136_1_alg».proof.Proof.ChainRef35
import proofs.«110263_j50620484551136_1_alg».proof.Proof.ChainRef36
import proofs.«110263_j50620484551136_1_alg».proof.Proof.ChainRef37
import proofs.«110263_j50620484551136_1_alg».proof.Proof.ChainRef38
import proofs.«110263_j50620484551136_1_alg».proof.Proof.ChainRef39
import proofs.«110263_j50620484551136_1_alg».proof.Proof.ChainRef40
import Idealize.ShloMosaic.Lib.Pipeline.Frame

noncomputable section

namespace Cert.ReferenceIdeal.RValue

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP Cert.ReferenceIdeal.ChainR

variable (m : (ℓ : Loc nD τ sig) → Buf (Elt Ideal) ℓ) (c : Dev nD)

/-- The buffers at launch. -/
abbrev Q0 : Valuation τ sig (Elt Ideal) := launchContents m c
/-- The buffers after stretch 0. -/
abbrev Q1 : Valuation τ sig (Elt Ideal) := StableHlo.after (c0 (F := Ideal)) (Q0 m c)
/-- The buffers after stretch 1. -/
abbrev Q2 : Valuation τ sig (Elt Ideal) := StableHlo.after (c1 (F := Ideal)) (Q1 m c)
/-- The buffers after stretch 2. -/
abbrev Q3 : Valuation τ sig (Elt Ideal) := StableHlo.after (c2 (F := Ideal)) (Q2 m c)
/-- The buffers after stretch 3. -/
abbrev Q4 : Valuation τ sig (Elt Ideal) := StableHlo.after (c3 (F := Ideal)) (Q3 m c)
/-- The buffers after stretch 4. -/
abbrev Q5 : Valuation τ sig (Elt Ideal) := StableHlo.after (c4 (F := Ideal)) (Q4 m c)
/-- The buffers after stretch 5. -/
abbrev Q6 : Valuation τ sig (Elt Ideal) := StableHlo.after (c5 (F := Ideal)) (Q5 m c)
/-- The buffers after stretch 6. -/
abbrev Q7 : Valuation τ sig (Elt Ideal) := StableHlo.after (c6 (F := Ideal)) (Q6 m c)
/-- The buffers after stretch 7. -/
abbrev Q8 : Valuation τ sig (Elt Ideal) := StableHlo.after (c7 (F := Ideal)) (Q7 m c)
/-- The buffers after stretch 8. -/
abbrev Q9 : Valuation τ sig (Elt Ideal) := StableHlo.after (c8 (F := Ideal)) (Q8 m c)
/-- The buffers after stretch 9. -/
abbrev Q10 : Valuation τ sig (Elt Ideal) := StableHlo.after (c9 (F := Ideal)) (Q9 m c)
/-- The buffers after stretch 10. -/
abbrev Q11 : Valuation τ sig (Elt Ideal) := StableHlo.after (c10 (F := Ideal)) (Q10 m c)
/-- The buffers after stretch 11. -/
abbrev Q12 : Valuation τ sig (Elt Ideal) := StableHlo.after (c11 (F := Ideal)) (Q11 m c)
/-- The buffers after stretch 12. -/
abbrev Q13 : Valuation τ sig (Elt Ideal) := StableHlo.after (c12 (F := Ideal)) (Q12 m c)
/-- The buffers after stretch 13. -/
abbrev Q14 : Valuation τ sig (Elt Ideal) := StableHlo.after (c13 (F := Ideal)) (Q13 m c)
/-- The buffers after stretch 14. -/
abbrev Q15 : Valuation τ sig (Elt Ideal) := StableHlo.after (c14 (F := Ideal)) (Q14 m c)
/-- The buffers after stretch 15. -/
abbrev Q16 : Valuation τ sig (Elt Ideal) := StableHlo.after (c15 (F := Ideal)) (Q15 m c)
/-- The buffers after stretch 16. -/
abbrev Q17 : Valuation τ sig (Elt Ideal) := StableHlo.after (c16 (F := Ideal)) (Q16 m c)
/-- The buffers after stretch 17. -/
abbrev Q18 : Valuation τ sig (Elt Ideal) := StableHlo.after (c17 (F := Ideal)) (Q17 m c)
/-- The buffers after stretch 18. -/
abbrev Q19 : Valuation τ sig (Elt Ideal) := StableHlo.after (c18 (F := Ideal)) (Q18 m c)
/-- The buffers after stretch 19. -/
abbrev Q20 : Valuation τ sig (Elt Ideal) := StableHlo.after (c19 (F := Ideal)) (Q19 m c)
/-- The buffers after stretch 20. -/
abbrev Q21 : Valuation τ sig (Elt Ideal) := StableHlo.after (c20 (F := Ideal)) (Q20 m c)
/-- The buffers after stretch 21. -/
abbrev Q22 : Valuation τ sig (Elt Ideal) := StableHlo.after (c21 (F := Ideal)) (Q21 m c)
/-- The buffers after stretch 22. -/
abbrev Q23 : Valuation τ sig (Elt Ideal) := StableHlo.after (c22 (F := Ideal)) (Q22 m c)
/-- The buffers after stretch 23. -/
abbrev Q24 : Valuation τ sig (Elt Ideal) := StableHlo.after (c23 (F := Ideal)) (Q23 m c)
/-- The buffers after stretch 24. -/
abbrev Q25 : Valuation τ sig (Elt Ideal) := StableHlo.after (c24 (F := Ideal)) (Q24 m c)
/-- The buffers after stretch 25. -/
abbrev Q26 : Valuation τ sig (Elt Ideal) := StableHlo.after (c25 (F := Ideal)) (Q25 m c)
/-- The buffers after stretch 26. -/
abbrev Q27 : Valuation τ sig (Elt Ideal) := StableHlo.after (c26 (F := Ideal)) (Q26 m c)
/-- The buffers after stretch 27. -/
abbrev Q28 : Valuation τ sig (Elt Ideal) := StableHlo.after (c27 (F := Ideal)) (Q27 m c)
/-- The buffers after stretch 28. -/
abbrev Q29 : Valuation τ sig (Elt Ideal) := StableHlo.after (c28 (F := Ideal)) (Q28 m c)
/-- The buffers after stretch 29. -/
abbrev Q30 : Valuation τ sig (Elt Ideal) := StableHlo.after (c29 (F := Ideal)) (Q29 m c)
/-- The buffers after stretch 30. -/
abbrev Q31 : Valuation τ sig (Elt Ideal) := StableHlo.after (c30 (F := Ideal)) (Q30 m c)
/-- The buffers after stretch 31. -/
abbrev Q32 : Valuation τ sig (Elt Ideal) := StableHlo.after (c31 (F := Ideal)) (Q31 m c)
/-- The buffers after stretch 32. -/
abbrev Q33 : Valuation τ sig (Elt Ideal) := StableHlo.after (c32 (F := Ideal)) (Q32 m c)
/-- The buffers after stretch 33. -/
abbrev Q34 : Valuation τ sig (Elt Ideal) := StableHlo.after (c33 (F := Ideal)) (Q33 m c)
/-- The buffers after stretch 34. -/
abbrev Q35 : Valuation τ sig (Elt Ideal) := StableHlo.after (c34 (F := Ideal)) (Q34 m c)
/-- The buffers after stretch 35. -/
abbrev Q36 : Valuation τ sig (Elt Ideal) := StableHlo.after (c35 (F := Ideal)) (Q35 m c)
/-- The buffers after stretch 36. -/
abbrev Q37 : Valuation τ sig (Elt Ideal) := StableHlo.after (c36 (F := Ideal)) (Q36 m c)
/-- The buffers after stretch 37. -/
abbrev Q38 : Valuation τ sig (Elt Ideal) := StableHlo.after (c37 (F := Ideal)) (Q37 m c)
/-- The buffers after stretch 38. -/
abbrev Q39 : Valuation τ sig (Elt Ideal) := StableHlo.after (c38 (F := Ideal)) (Q38 m c)
/-- The buffers after stretch 39. -/
abbrev Q40 : Valuation τ sig (Elt Ideal) := StableHlo.after (c39 (F := Ideal)) (Q39 m c)
/-- The buffers after stretch 40. -/
abbrev Q41 : Valuation τ sig (Elt Ideal) := StableHlo.after (c40 (F := Ideal)) (Q40 m c)

theorem J0_main_v1 : Q1 m c (Proc.devRef .tc main_v1) = val_main_v1 (F := Ideal) (m ((c.tc : Thread nD τ).loc main_arg1)) :=
  r0_main_v1 (Q0 m c) (rfl : Q0 m c (Proc.devRef .tc main_arg1) = (m ((c.tc : Thread nD τ).loc main_arg1)))

theorem J0_main_v3 : Q1 m c (Proc.devRef .tc main_v3) = val_main_v3 (F := Ideal) (m ((c.tc : Thread nD τ).loc main_arg1)) :=
  r0_main_v3 (Q0 m c) (rfl : Q0 m c (Proc.devRef .tc main_arg1) = (m ((c.tc : Thread nD τ).loc main_arg1)))

theorem J0_main_v5 : Q1 m c (Proc.devRef .tc main_v5) = val_main_v5 (F := Ideal) (m ((c.tc : Thread nD τ).loc main_arg2)) :=
  r0_main_v5 (Q0 m c) (rfl : Q0 m c (Proc.devRef .tc main_arg2) = (m ((c.tc : Thread nD τ).loc main_arg2)))

theorem J0_main_v7 : Q1 m c (Proc.devRef .tc main_v7) = val_main_v7 (F := Ideal) (m ((c.tc : Thread nD τ).loc main_arg2)) :=
  r0_main_v7 (Q0 m c) (rfl : Q0 m c (Proc.devRef .tc main_arg2) = (m ((c.tc : Thread nD τ).loc main_arg2)))

theorem J0_main_arg0 : Q1 m c (Proc.devRef .tc main_arg0) = (m ((c.tc : Thread nD τ).loc main_arg0)) :=
  (r0_keep_main_arg0 (Q0 m c)).trans (rfl : Q0 m c (Proc.devRef .tc main_arg0) = (m ((c.tc : Thread nD τ).loc main_arg0)))

theorem J0_main_arg1 : Q1 m c (Proc.devRef .tc main_arg1) = (m ((c.tc : Thread nD τ).loc main_arg1)) :=
  (r0_keep_main_arg1 (Q0 m c)).trans (rfl : Q0 m c (Proc.devRef .tc main_arg1) = (m ((c.tc : Thread nD τ).loc main_arg1)))

theorem J0_main_arg2 : Q1 m c (Proc.devRef .tc main_arg2) = (m ((c.tc : Thread nD τ).loc main_arg2)) :=
  (r0_keep_main_arg2 (Q0 m c)).trans (rfl : Q0 m c (Proc.devRef .tc main_arg2) = (m ((c.tc : Thread nD τ).loc main_arg2)))

theorem J0_main_arg3 : Q1 m c (Proc.devRef .tc main_arg3) = (m ((c.tc : Thread nD τ).loc main_arg3)) :=
  (r0_keep_main_arg3 (Q0 m c)).trans (rfl : Q0 m c (Proc.devRef .tc main_arg3) = (m ((c.tc : Thread nD τ).loc main_arg3)))

theorem J0_main_arg4 : Q1 m c (Proc.devRef .tc main_arg4) = (m ((c.tc : Thread nD τ).loc main_arg4)) :=
  (r0_keep_main_arg4 (Q0 m c)).trans (rfl : Q0 m c (Proc.devRef .tc main_arg4) = (m ((c.tc : Thread nD τ).loc main_arg4)))

theorem J0_main_arg5 : Q1 m c (Proc.devRef .tc main_arg5) = (m ((c.tc : Thread nD τ).loc main_arg5)) :=
  (r0_keep_main_arg5 (Q0 m c)).trans (rfl : Q0 m c (Proc.devRef .tc main_arg5) = (m ((c.tc : Thread nD τ).loc main_arg5)))

theorem J0_main_arg6 : Q1 m c (Proc.devRef .tc main_arg6) = (m ((c.tc : Thread nD τ).loc main_arg6)) :=
  (r0_keep_main_arg6 (Q0 m c)).trans (rfl : Q0 m c (Proc.devRef .tc main_arg6) = (m ((c.tc : Thread nD τ).loc main_arg6)))

theorem J0_main_arg7 : Q1 m c (Proc.devRef .tc main_arg7) = (m ((c.tc : Thread nD τ).loc main_arg7)) :=
  (r0_keep_main_arg7 (Q0 m c)).trans (rfl : Q0 m c (Proc.devRef .tc main_arg7) = (m ((c.tc : Thread nD τ).loc main_arg7)))

theorem J0_main_arg8 : Q1 m c (Proc.devRef .tc main_arg8) = (m ((c.tc : Thread nD τ).loc main_arg8)) :=
  (r0_keep_main_arg8 (Q0 m c)).trans (rfl : Q0 m c (Proc.devRef .tc main_arg8) = (m ((c.tc : Thread nD τ).loc main_arg8)))

theorem J0_main_arg9 : Q1 m c (Proc.devRef .tc main_arg9) = (m ((c.tc : Thread nD τ).loc main_arg9)) :=
  (r0_keep_main_arg9 (Q0 m c)).trans (rfl : Q0 m c (Proc.devRef .tc main_arg9) = (m ((c.tc : Thread nD τ).loc main_arg9)))

theorem J0_main_arg10 : Q1 m c (Proc.devRef .tc main_arg10) = (m ((c.tc : Thread nD τ).loc main_arg10)) :=
  (r0_keep_main_arg10 (Q0 m c)).trans (rfl : Q0 m c (Proc.devRef .tc main_arg10) = (m ((c.tc : Thread nD τ).loc main_arg10)))

theorem J0_main_arg11 : Q1 m c (Proc.devRef .tc main_arg11) = (m ((c.tc : Thread nD τ).loc main_arg11)) :=
  (r0_keep_main_arg11 (Q0 m c)).trans (rfl : Q0 m c (Proc.devRef .tc main_arg11) = (m ((c.tc : Thread nD τ).loc main_arg11)))

theorem J0_main_arg12 : Q1 m c (Proc.devRef .tc main_arg12) = (m ((c.tc : Thread nD τ).loc main_arg12)) :=
  (r0_keep_main_arg12 (Q0 m c)).trans (rfl : Q0 m c (Proc.devRef .tc main_arg12) = (m ((c.tc : Thread nD τ).loc main_arg12)))

theorem J0_main_arg13 : Q1 m c (Proc.devRef .tc main_arg13) = (m ((c.tc : Thread nD τ).loc main_arg13)) :=
  (r0_keep_main_arg13 (Q0 m c)).trans (rfl : Q0 m c (Proc.devRef .tc main_arg13) = (m ((c.tc : Thread nD τ).loc main_arg13)))

theorem J0_main_arg14 : Q1 m c (Proc.devRef .tc main_arg14) = (m ((c.tc : Thread nD τ).loc main_arg14)) :=
  (r0_keep_main_arg14 (Q0 m c)).trans (rfl : Q0 m c (Proc.devRef .tc main_arg14) = (m ((c.tc : Thread nD τ).loc main_arg14)))

theorem J0_main_arg15 : Q1 m c (Proc.devRef .tc main_arg15) = (m ((c.tc : Thread nD τ).loc main_arg15)) :=
  (r0_keep_main_arg15 (Q0 m c)).trans (rfl : Q0 m c (Proc.devRef .tc main_arg15) = (m ((c.tc : Thread nD τ).loc main_arg15)))

theorem J0_main_arg16 : Q1 m c (Proc.devRef .tc main_arg16) = (m ((c.tc : Thread nD τ).loc main_arg16)) :=
  (r0_keep_main_arg16 (Q0 m c)).trans (rfl : Q0 m c (Proc.devRef .tc main_arg16) = (m ((c.tc : Thread nD τ).loc main_arg16)))

theorem J0_main_arg17 : Q1 m c (Proc.devRef .tc main_arg17) = (m ((c.tc : Thread nD τ).loc main_arg17)) :=
  (r0_keep_main_arg17 (Q0 m c)).trans (rfl : Q0 m c (Proc.devRef .tc main_arg17) = (m ((c.tc : Thread nD τ).loc main_arg17)))

theorem J0_main_arg18 : Q1 m c (Proc.devRef .tc main_arg18) = (m ((c.tc : Thread nD τ).loc main_arg18)) :=
  (r0_keep_main_arg18 (Q0 m c)).trans (rfl : Q0 m c (Proc.devRef .tc main_arg18) = (m ((c.tc : Thread nD τ).loc main_arg18)))

theorem J0_main_arg19 : Q1 m c (Proc.devRef .tc main_arg19) = (m ((c.tc : Thread nD τ).loc main_arg19)) :=
  (r0_keep_main_arg19 (Q0 m c)).trans (rfl : Q0 m c (Proc.devRef .tc main_arg19) = (m ((c.tc : Thread nD τ).loc main_arg19)))

theorem J0_main_arg20 : Q1 m c (Proc.devRef .tc main_arg20) = (m ((c.tc : Thread nD τ).loc main_arg20)) :=
  (r0_keep_main_arg20 (Q0 m c)).trans (rfl : Q0 m c (Proc.devRef .tc main_arg20) = (m ((c.tc : Thread nD τ).loc main_arg20)))

theorem J0_main_arg21 : Q1 m c (Proc.devRef .tc main_arg21) = (m ((c.tc : Thread nD τ).loc main_arg21)) :=
  (r0_keep_main_arg21 (Q0 m c)).trans (rfl : Q0 m c (Proc.devRef .tc main_arg21) = (m ((c.tc : Thread nD τ).loc main_arg21)))

theorem J0_main_arg22 : Q1 m c (Proc.devRef .tc main_arg22) = (m ((c.tc : Thread nD τ).loc main_arg22)) :=
  (r0_keep_main_arg22 (Q0 m c)).trans (rfl : Q0 m c (Proc.devRef .tc main_arg22) = (m ((c.tc : Thread nD τ).loc main_arg22)))

theorem J0_main_arg23 : Q1 m c (Proc.devRef .tc main_arg23) = (m ((c.tc : Thread nD τ).loc main_arg23)) :=
  (r0_keep_main_arg23 (Q0 m c)).trans (rfl : Q0 m c (Proc.devRef .tc main_arg23) = (m ((c.tc : Thread nD τ).loc main_arg23)))

theorem J0_main_arg24 : Q1 m c (Proc.devRef .tc main_arg24) = (m ((c.tc : Thread nD τ).loc main_arg24)) :=
  (r0_keep_main_arg24 (Q0 m c)).trans (rfl : Q0 m c (Proc.devRef .tc main_arg24) = (m ((c.tc : Thread nD τ).loc main_arg24)))

theorem J0_main_arg25 : Q1 m c (Proc.devRef .tc main_arg25) = (m ((c.tc : Thread nD τ).loc main_arg25)) :=
  (r0_keep_main_arg25 (Q0 m c)).trans (rfl : Q0 m c (Proc.devRef .tc main_arg25) = (m ((c.tc : Thread nD τ).loc main_arg25)))

theorem J0_main_arg26 : Q1 m c (Proc.devRef .tc main_arg26) = (m ((c.tc : Thread nD τ).loc main_arg26)) :=
  (r0_keep_main_arg26 (Q0 m c)).trans (rfl : Q0 m c (Proc.devRef .tc main_arg26) = (m ((c.tc : Thread nD τ).loc main_arg26)))

theorem J0_main_arg27 : Q1 m c (Proc.devRef .tc main_arg27) = (m ((c.tc : Thread nD τ).loc main_arg27)) :=
  (r0_keep_main_arg27 (Q0 m c)).trans (rfl : Q0 m c (Proc.devRef .tc main_arg27) = (m ((c.tc : Thread nD τ).loc main_arg27)))

theorem J0_main_arg28 : Q1 m c (Proc.devRef .tc main_arg28) = (m ((c.tc : Thread nD τ).loc main_arg28)) :=
  (r0_keep_main_arg28 (Q0 m c)).trans (rfl : Q0 m c (Proc.devRef .tc main_arg28) = (m ((c.tc : Thread nD τ).loc main_arg28)))

theorem J1_main_v1 : Q2 m c (Proc.devRef .tc main_v1) = val_main_v1 (F := Ideal) (m ((c.tc : Thread nD τ).loc main_arg1)) :=
  (r1_keep_main_v1 (Q1 m c)).trans (J0_main_v1 m c)

theorem J1_main_v3 : Q2 m c (Proc.devRef .tc main_v3) = val_main_v3 (F := Ideal) (m ((c.tc : Thread nD τ).loc main_arg1)) :=
  (r1_keep_main_v3 (Q1 m c)).trans (J0_main_v3 m c)

theorem J1_main_v5 : Q2 m c (Proc.devRef .tc main_v5) = val_main_v5 (F := Ideal) (m ((c.tc : Thread nD τ).loc main_arg2)) :=
  (r1_keep_main_v5 (Q1 m c)).trans (J0_main_v5 m c)

theorem J1_main_v7 : Q2 m c (Proc.devRef .tc main_v7) = val_main_v7 (F := Ideal) (m ((c.tc : Thread nD τ).loc main_arg2)) :=
  (r1_keep_main_v7 (Q1 m c)).trans (J0_main_v7 m c)

theorem J1_main_v11 : Q2 m c (Proc.devRef .tc main_v11) = val_main_v11 (F := Ideal) (m ((c.tc : Thread nD τ).loc main_arg0)) (m ((c.tc : Thread nD τ).loc main_arg5)) (m ((c.tc : Thread nD τ).loc main_arg6)) :=
  r1_main_v11 (Q1 m c) (J0_main_arg0 m c) (J0_main_arg5 m c) (J0_main_arg6 m c)

theorem J1_main_arg0 : Q2 m c (Proc.devRef .tc main_arg0) = (m ((c.tc : Thread nD τ).loc main_arg0)) :=
  (r1_keep_main_arg0 (Q1 m c)).trans (J0_main_arg0 m c)

theorem J1_main_arg1 : Q2 m c (Proc.devRef .tc main_arg1) = (m ((c.tc : Thread nD τ).loc main_arg1)) :=
  (r1_keep_main_arg1 (Q1 m c)).trans (J0_main_arg1 m c)

theorem J1_main_arg2 : Q2 m c (Proc.devRef .tc main_arg2) = (m ((c.tc : Thread nD τ).loc main_arg2)) :=
  (r1_keep_main_arg2 (Q1 m c)).trans (J0_main_arg2 m c)

theorem J1_main_arg3 : Q2 m c (Proc.devRef .tc main_arg3) = (m ((c.tc : Thread nD τ).loc main_arg3)) :=
  (r1_keep_main_arg3 (Q1 m c)).trans (J0_main_arg3 m c)

theorem J1_main_arg4 : Q2 m c (Proc.devRef .tc main_arg4) = (m ((c.tc : Thread nD τ).loc main_arg4)) :=
  (r1_keep_main_arg4 (Q1 m c)).trans (J0_main_arg4 m c)

theorem J1_main_arg5 : Q2 m c (Proc.devRef .tc main_arg5) = (m ((c.tc : Thread nD τ).loc main_arg5)) :=
  (r1_keep_main_arg5 (Q1 m c)).trans (J0_main_arg5 m c)

theorem J1_main_arg6 : Q2 m c (Proc.devRef .tc main_arg6) = (m ((c.tc : Thread nD τ).loc main_arg6)) :=
  (r1_keep_main_arg6 (Q1 m c)).trans (J0_main_arg6 m c)

theorem J1_main_arg7 : Q2 m c (Proc.devRef .tc main_arg7) = (m ((c.tc : Thread nD τ).loc main_arg7)) :=
  (r1_keep_main_arg7 (Q1 m c)).trans (J0_main_arg7 m c)

theorem J1_main_arg8 : Q2 m c (Proc.devRef .tc main_arg8) = (m ((c.tc : Thread nD τ).loc main_arg8)) :=
  (r1_keep_main_arg8 (Q1 m c)).trans (J0_main_arg8 m c)

theorem J1_main_arg9 : Q2 m c (Proc.devRef .tc main_arg9) = (m ((c.tc : Thread nD τ).loc main_arg9)) :=
  (r1_keep_main_arg9 (Q1 m c)).trans (J0_main_arg9 m c)

theorem J1_main_arg10 : Q2 m c (Proc.devRef .tc main_arg10) = (m ((c.tc : Thread nD τ).loc main_arg10)) :=
  (r1_keep_main_arg10 (Q1 m c)).trans (J0_main_arg10 m c)

theorem J1_main_arg11 : Q2 m c (Proc.devRef .tc main_arg11) = (m ((c.tc : Thread nD τ).loc main_arg11)) :=
  (r1_keep_main_arg11 (Q1 m c)).trans (J0_main_arg11 m c)

theorem J1_main_arg12 : Q2 m c (Proc.devRef .tc main_arg12) = (m ((c.tc : Thread nD τ).loc main_arg12)) :=
  (r1_keep_main_arg12 (Q1 m c)).trans (J0_main_arg12 m c)

theorem J1_main_arg13 : Q2 m c (Proc.devRef .tc main_arg13) = (m ((c.tc : Thread nD τ).loc main_arg13)) :=
  (r1_keep_main_arg13 (Q1 m c)).trans (J0_main_arg13 m c)

theorem J1_main_arg14 : Q2 m c (Proc.devRef .tc main_arg14) = (m ((c.tc : Thread nD τ).loc main_arg14)) :=
  (r1_keep_main_arg14 (Q1 m c)).trans (J0_main_arg14 m c)

theorem J1_main_arg15 : Q2 m c (Proc.devRef .tc main_arg15) = (m ((c.tc : Thread nD τ).loc main_arg15)) :=
  (r1_keep_main_arg15 (Q1 m c)).trans (J0_main_arg15 m c)

theorem J1_main_arg16 : Q2 m c (Proc.devRef .tc main_arg16) = (m ((c.tc : Thread nD τ).loc main_arg16)) :=
  (r1_keep_main_arg16 (Q1 m c)).trans (J0_main_arg16 m c)

theorem J1_main_arg17 : Q2 m c (Proc.devRef .tc main_arg17) = (m ((c.tc : Thread nD τ).loc main_arg17)) :=
  (r1_keep_main_arg17 (Q1 m c)).trans (J0_main_arg17 m c)

theorem J1_main_arg18 : Q2 m c (Proc.devRef .tc main_arg18) = (m ((c.tc : Thread nD τ).loc main_arg18)) :=
  (r1_keep_main_arg18 (Q1 m c)).trans (J0_main_arg18 m c)

theorem J1_main_arg19 : Q2 m c (Proc.devRef .tc main_arg19) = (m ((c.tc : Thread nD τ).loc main_arg19)) :=
  (r1_keep_main_arg19 (Q1 m c)).trans (J0_main_arg19 m c)

theorem J1_main_arg20 : Q2 m c (Proc.devRef .tc main_arg20) = (m ((c.tc : Thread nD τ).loc main_arg20)) :=
  (r1_keep_main_arg20 (Q1 m c)).trans (J0_main_arg20 m c)

theorem J1_main_arg21 : Q2 m c (Proc.devRef .tc main_arg21) = (m ((c.tc : Thread nD τ).loc main_arg21)) :=
  (r1_keep_main_arg21 (Q1 m c)).trans (J0_main_arg21 m c)

theorem J1_main_arg22 : Q2 m c (Proc.devRef .tc main_arg22) = (m ((c.tc : Thread nD τ).loc main_arg22)) :=
  (r1_keep_main_arg22 (Q1 m c)).trans (J0_main_arg22 m c)

theorem J1_main_arg23 : Q2 m c (Proc.devRef .tc main_arg23) = (m ((c.tc : Thread nD τ).loc main_arg23)) :=
  (r1_keep_main_arg23 (Q1 m c)).trans (J0_main_arg23 m c)

theorem J1_main_arg24 : Q2 m c (Proc.devRef .tc main_arg24) = (m ((c.tc : Thread nD τ).loc main_arg24)) :=
  (r1_keep_main_arg24 (Q1 m c)).trans (J0_main_arg24 m c)

theorem J1_main_arg25 : Q2 m c (Proc.devRef .tc main_arg25) = (m ((c.tc : Thread nD τ).loc main_arg25)) :=
  (r1_keep_main_arg25 (Q1 m c)).trans (J0_main_arg25 m c)

theorem J1_main_arg26 : Q2 m c (Proc.devRef .tc main_arg26) = (m ((c.tc : Thread nD τ).loc main_arg26)) :=
  (r1_keep_main_arg26 (Q1 m c)).trans (J0_main_arg26 m c)

theorem J1_main_arg27 : Q2 m c (Proc.devRef .tc main_arg27) = (m ((c.tc : Thread nD τ).loc main_arg27)) :=
  (r1_keep_main_arg27 (Q1 m c)).trans (J0_main_arg27 m c)

theorem J1_main_arg28 : Q2 m c (Proc.devRef .tc main_arg28) = (m ((c.tc : Thread nD τ).loc main_arg28)) :=
  (r1_keep_main_arg28 (Q1 m c)).trans (J0_main_arg28 m c)

theorem J2_main_v1 : Q3 m c (Proc.devRef .tc main_v1) = val_main_v1 (F := Ideal) (m ((c.tc : Thread nD τ).loc main_arg1)) :=
  (r2_keep_main_v1 (Q2 m c)).trans (J1_main_v1 m c)

theorem J2_main_v3 : Q3 m c (Proc.devRef .tc main_v3) = val_main_v3 (F := Ideal) (m ((c.tc : Thread nD τ).loc main_arg1)) :=
  (r2_keep_main_v3 (Q2 m c)).trans (J1_main_v3 m c)

theorem J2_main_v5 : Q3 m c (Proc.devRef .tc main_v5) = val_main_v5 (F := Ideal) (m ((c.tc : Thread nD τ).loc main_arg2)) :=
  (r2_keep_main_v5 (Q2 m c)).trans (J1_main_v5 m c)

theorem J2_main_v7 : Q3 m c (Proc.devRef .tc main_v7) = val_main_v7 (F := Ideal) (m ((c.tc : Thread nD τ).loc main_arg2)) :=
  (r2_keep_main_v7 (Q2 m c)).trans (J1_main_v7 m c)

theorem J2_main_v12 : Q3 m c (Proc.devRef .tc main_v12) = val_main_v12 (F := Ideal) (m ((c.tc : Thread nD τ).loc main_arg0)) (m ((c.tc : Thread nD τ).loc main_arg5)) (m ((c.tc : Thread nD τ).loc main_arg6)) :=
  r2_main_v12 (Q2 m c) (J1_main_v11 m c)

theorem J2_main_arg0 : Q3 m c (Proc.devRef .tc main_arg0) = (m ((c.tc : Thread nD τ).loc main_arg0)) :=
  (r2_keep_main_arg0 (Q2 m c)).trans (J1_main_arg0 m c)

theorem J2_main_arg1 : Q3 m c (Proc.devRef .tc main_arg1) = (m ((c.tc : Thread nD τ).loc main_arg1)) :=
  (r2_keep_main_arg1 (Q2 m c)).trans (J1_main_arg1 m c)

theorem J2_main_arg2 : Q3 m c (Proc.devRef .tc main_arg2) = (m ((c.tc : Thread nD τ).loc main_arg2)) :=
  (r2_keep_main_arg2 (Q2 m c)).trans (J1_main_arg2 m c)

theorem J2_main_arg3 : Q3 m c (Proc.devRef .tc main_arg3) = (m ((c.tc : Thread nD τ).loc main_arg3)) :=
  (r2_keep_main_arg3 (Q2 m c)).trans (J1_main_arg3 m c)

theorem J2_main_arg4 : Q3 m c (Proc.devRef .tc main_arg4) = (m ((c.tc : Thread nD τ).loc main_arg4)) :=
  (r2_keep_main_arg4 (Q2 m c)).trans (J1_main_arg4 m c)

theorem J2_main_arg5 : Q3 m c (Proc.devRef .tc main_arg5) = (m ((c.tc : Thread nD τ).loc main_arg5)) :=
  (r2_keep_main_arg5 (Q2 m c)).trans (J1_main_arg5 m c)

theorem J2_main_arg6 : Q3 m c (Proc.devRef .tc main_arg6) = (m ((c.tc : Thread nD τ).loc main_arg6)) :=
  (r2_keep_main_arg6 (Q2 m c)).trans (J1_main_arg6 m c)

theorem J2_main_arg7 : Q3 m c (Proc.devRef .tc main_arg7) = (m ((c.tc : Thread nD τ).loc main_arg7)) :=
  (r2_keep_main_arg7 (Q2 m c)).trans (J1_main_arg7 m c)

theorem J2_main_arg8 : Q3 m c (Proc.devRef .tc main_arg8) = (m ((c.tc : Thread nD τ).loc main_arg8)) :=
  (r2_keep_main_arg8 (Q2 m c)).trans (J1_main_arg8 m c)

theorem J2_main_arg9 : Q3 m c (Proc.devRef .tc main_arg9) = (m ((c.tc : Thread nD τ).loc main_arg9)) :=
  (r2_keep_main_arg9 (Q2 m c)).trans (J1_main_arg9 m c)

theorem J2_main_arg10 : Q3 m c (Proc.devRef .tc main_arg10) = (m ((c.tc : Thread nD τ).loc main_arg10)) :=
  (r2_keep_main_arg10 (Q2 m c)).trans (J1_main_arg10 m c)

theorem J2_main_arg11 : Q3 m c (Proc.devRef .tc main_arg11) = (m ((c.tc : Thread nD τ).loc main_arg11)) :=
  (r2_keep_main_arg11 (Q2 m c)).trans (J1_main_arg11 m c)

theorem J2_main_arg12 : Q3 m c (Proc.devRef .tc main_arg12) = (m ((c.tc : Thread nD τ).loc main_arg12)) :=
  (r2_keep_main_arg12 (Q2 m c)).trans (J1_main_arg12 m c)

theorem J2_main_arg13 : Q3 m c (Proc.devRef .tc main_arg13) = (m ((c.tc : Thread nD τ).loc main_arg13)) :=
  (r2_keep_main_arg13 (Q2 m c)).trans (J1_main_arg13 m c)

theorem J2_main_arg14 : Q3 m c (Proc.devRef .tc main_arg14) = (m ((c.tc : Thread nD τ).loc main_arg14)) :=
  (r2_keep_main_arg14 (Q2 m c)).trans (J1_main_arg14 m c)

theorem J2_main_arg15 : Q3 m c (Proc.devRef .tc main_arg15) = (m ((c.tc : Thread nD τ).loc main_arg15)) :=
  (r2_keep_main_arg15 (Q2 m c)).trans (J1_main_arg15 m c)

theorem J2_main_arg16 : Q3 m c (Proc.devRef .tc main_arg16) = (m ((c.tc : Thread nD τ).loc main_arg16)) :=
  (r2_keep_main_arg16 (Q2 m c)).trans (J1_main_arg16 m c)

theorem J2_main_arg17 : Q3 m c (Proc.devRef .tc main_arg17) = (m ((c.tc : Thread nD τ).loc main_arg17)) :=
  (r2_keep_main_arg17 (Q2 m c)).trans (J1_main_arg17 m c)

theorem J2_main_arg18 : Q3 m c (Proc.devRef .tc main_arg18) = (m ((c.tc : Thread nD τ).loc main_arg18)) :=
  (r2_keep_main_arg18 (Q2 m c)).trans (J1_main_arg18 m c)

theorem J2_main_arg19 : Q3 m c (Proc.devRef .tc main_arg19) = (m ((c.tc : Thread nD τ).loc main_arg19)) :=
  (r2_keep_main_arg19 (Q2 m c)).trans (J1_main_arg19 m c)

theorem J2_main_arg20 : Q3 m c (Proc.devRef .tc main_arg20) = (m ((c.tc : Thread nD τ).loc main_arg20)) :=
  (r2_keep_main_arg20 (Q2 m c)).trans (J1_main_arg20 m c)

theorem J2_main_arg21 : Q3 m c (Proc.devRef .tc main_arg21) = (m ((c.tc : Thread nD τ).loc main_arg21)) :=
  (r2_keep_main_arg21 (Q2 m c)).trans (J1_main_arg21 m c)

theorem J2_main_arg22 : Q3 m c (Proc.devRef .tc main_arg22) = (m ((c.tc : Thread nD τ).loc main_arg22)) :=
  (r2_keep_main_arg22 (Q2 m c)).trans (J1_main_arg22 m c)

theorem J2_main_arg23 : Q3 m c (Proc.devRef .tc main_arg23) = (m ((c.tc : Thread nD τ).loc main_arg23)) :=
  (r2_keep_main_arg23 (Q2 m c)).trans (J1_main_arg23 m c)

theorem J2_main_arg24 : Q3 m c (Proc.devRef .tc main_arg24) = (m ((c.tc : Thread nD τ).loc main_arg24)) :=
  (r2_keep_main_arg24 (Q2 m c)).trans (J1_main_arg24 m c)

theorem J2_main_arg25 : Q3 m c (Proc.devRef .tc main_arg25) = (m ((c.tc : Thread nD τ).loc main_arg25)) :=
  (r2_keep_main_arg25 (Q2 m c)).trans (J1_main_arg25 m c)

theorem J2_main_arg26 : Q3 m c (Proc.devRef .tc main_arg26) = (m ((c.tc : Thread nD τ).loc main_arg26)) :=
  (r2_keep_main_arg26 (Q2 m c)).trans (J1_main_arg26 m c)

theorem J2_main_arg27 : Q3 m c (Proc.devRef .tc main_arg27) = (m ((c.tc : Thread nD τ).loc main_arg27)) :=
  (r2_keep_main_arg27 (Q2 m c)).trans (J1_main_arg27 m c)

theorem J2_main_arg28 : Q3 m c (Proc.devRef .tc main_arg28) = (m ((c.tc : Thread nD τ).loc main_arg28)) :=
  (r2_keep_main_arg28 (Q2 m c)).trans (J1_main_arg28 m c)

theorem J3_main_v1 : Q4 m c (Proc.devRef .tc main_v1) = val_main_v1 (F := Ideal) (m ((c.tc : Thread nD τ).loc main_arg1)) :=
  (r3_keep_main_v1 (Q3 m c)).trans (J2_main_v1 m c)

theorem J3_main_v3 : Q4 m c (Proc.devRef .tc main_v3) = val_main_v3 (F := Ideal) (m ((c.tc : Thread nD τ).loc main_arg1)) :=
  (r3_keep_main_v3 (Q3 m c)).trans (J2_main_v3 m c)

theorem J3_main_v5 : Q4 m c (Proc.devRef .tc main_v5) = val_main_v5 (F := Ideal) (m ((c.tc : Thread nD τ).loc main_arg2)) :=
  (r3_keep_main_v5 (Q3 m c)).trans (J2_main_v5 m c)

theorem J3_main_v7 : Q4 m c (Proc.devRef .tc main_v7) = val_main_v7 (F := Ideal) (m ((c.tc : Thread nD τ).loc main_arg2)) :=
  (r3_keep_main_v7 (Q3 m c)).trans (J2_main_v7 m c)

theorem J3_main_v16 : Q4 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  r3_main_v16 (Q3 m c) (J2_main_v12 m c) (J2_main_arg7 m c) (J2_main_arg8 m c)

theorem J3_main_arg0 : Q4 m c (Proc.devRef .tc main_arg0) = (m ((c.tc : Thread nD τ).loc main_arg0)) :=
  (r3_keep_main_arg0 (Q3 m c)).trans (J2_main_arg0 m c)

theorem J3_main_arg1 : Q4 m c (Proc.devRef .tc main_arg1) = (m ((c.tc : Thread nD τ).loc main_arg1)) :=
  (r3_keep_main_arg1 (Q3 m c)).trans (J2_main_arg1 m c)

theorem J3_main_arg2 : Q4 m c (Proc.devRef .tc main_arg2) = (m ((c.tc : Thread nD τ).loc main_arg2)) :=
  (r3_keep_main_arg2 (Q3 m c)).trans (J2_main_arg2 m c)

theorem J3_main_arg3 : Q4 m c (Proc.devRef .tc main_arg3) = (m ((c.tc : Thread nD τ).loc main_arg3)) :=
  (r3_keep_main_arg3 (Q3 m c)).trans (J2_main_arg3 m c)

theorem J3_main_arg4 : Q4 m c (Proc.devRef .tc main_arg4) = (m ((c.tc : Thread nD τ).loc main_arg4)) :=
  (r3_keep_main_arg4 (Q3 m c)).trans (J2_main_arg4 m c)

theorem J3_main_arg5 : Q4 m c (Proc.devRef .tc main_arg5) = (m ((c.tc : Thread nD τ).loc main_arg5)) :=
  (r3_keep_main_arg5 (Q3 m c)).trans (J2_main_arg5 m c)

theorem J3_main_arg6 : Q4 m c (Proc.devRef .tc main_arg6) = (m ((c.tc : Thread nD τ).loc main_arg6)) :=
  (r3_keep_main_arg6 (Q3 m c)).trans (J2_main_arg6 m c)

theorem J3_main_arg7 : Q4 m c (Proc.devRef .tc main_arg7) = (m ((c.tc : Thread nD τ).loc main_arg7)) :=
  (r3_keep_main_arg7 (Q3 m c)).trans (J2_main_arg7 m c)

theorem J3_main_arg8 : Q4 m c (Proc.devRef .tc main_arg8) = (m ((c.tc : Thread nD τ).loc main_arg8)) :=
  (r3_keep_main_arg8 (Q3 m c)).trans (J2_main_arg8 m c)

theorem J3_main_arg9 : Q4 m c (Proc.devRef .tc main_arg9) = (m ((c.tc : Thread nD τ).loc main_arg9)) :=
  (r3_keep_main_arg9 (Q3 m c)).trans (J2_main_arg9 m c)

theorem J3_main_arg10 : Q4 m c (Proc.devRef .tc main_arg10) = (m ((c.tc : Thread nD τ).loc main_arg10)) :=
  (r3_keep_main_arg10 (Q3 m c)).trans (J2_main_arg10 m c)

theorem J3_main_arg11 : Q4 m c (Proc.devRef .tc main_arg11) = (m ((c.tc : Thread nD τ).loc main_arg11)) :=
  (r3_keep_main_arg11 (Q3 m c)).trans (J2_main_arg11 m c)

theorem J3_main_arg12 : Q4 m c (Proc.devRef .tc main_arg12) = (m ((c.tc : Thread nD τ).loc main_arg12)) :=
  (r3_keep_main_arg12 (Q3 m c)).trans (J2_main_arg12 m c)

theorem J3_main_arg13 : Q4 m c (Proc.devRef .tc main_arg13) = (m ((c.tc : Thread nD τ).loc main_arg13)) :=
  (r3_keep_main_arg13 (Q3 m c)).trans (J2_main_arg13 m c)

theorem J3_main_arg14 : Q4 m c (Proc.devRef .tc main_arg14) = (m ((c.tc : Thread nD τ).loc main_arg14)) :=
  (r3_keep_main_arg14 (Q3 m c)).trans (J2_main_arg14 m c)

theorem J3_main_arg15 : Q4 m c (Proc.devRef .tc main_arg15) = (m ((c.tc : Thread nD τ).loc main_arg15)) :=
  (r3_keep_main_arg15 (Q3 m c)).trans (J2_main_arg15 m c)

theorem J3_main_arg16 : Q4 m c (Proc.devRef .tc main_arg16) = (m ((c.tc : Thread nD τ).loc main_arg16)) :=
  (r3_keep_main_arg16 (Q3 m c)).trans (J2_main_arg16 m c)

theorem J3_main_arg17 : Q4 m c (Proc.devRef .tc main_arg17) = (m ((c.tc : Thread nD τ).loc main_arg17)) :=
  (r3_keep_main_arg17 (Q3 m c)).trans (J2_main_arg17 m c)

theorem J3_main_arg18 : Q4 m c (Proc.devRef .tc main_arg18) = (m ((c.tc : Thread nD τ).loc main_arg18)) :=
  (r3_keep_main_arg18 (Q3 m c)).trans (J2_main_arg18 m c)

theorem J3_main_arg19 : Q4 m c (Proc.devRef .tc main_arg19) = (m ((c.tc : Thread nD τ).loc main_arg19)) :=
  (r3_keep_main_arg19 (Q3 m c)).trans (J2_main_arg19 m c)

theorem J3_main_arg20 : Q4 m c (Proc.devRef .tc main_arg20) = (m ((c.tc : Thread nD τ).loc main_arg20)) :=
  (r3_keep_main_arg20 (Q3 m c)).trans (J2_main_arg20 m c)

theorem J3_main_arg21 : Q4 m c (Proc.devRef .tc main_arg21) = (m ((c.tc : Thread nD τ).loc main_arg21)) :=
  (r3_keep_main_arg21 (Q3 m c)).trans (J2_main_arg21 m c)

theorem J3_main_arg22 : Q4 m c (Proc.devRef .tc main_arg22) = (m ((c.tc : Thread nD τ).loc main_arg22)) :=
  (r3_keep_main_arg22 (Q3 m c)).trans (J2_main_arg22 m c)

theorem J3_main_arg23 : Q4 m c (Proc.devRef .tc main_arg23) = (m ((c.tc : Thread nD τ).loc main_arg23)) :=
  (r3_keep_main_arg23 (Q3 m c)).trans (J2_main_arg23 m c)

theorem J3_main_arg24 : Q4 m c (Proc.devRef .tc main_arg24) = (m ((c.tc : Thread nD τ).loc main_arg24)) :=
  (r3_keep_main_arg24 (Q3 m c)).trans (J2_main_arg24 m c)

theorem J3_main_arg25 : Q4 m c (Proc.devRef .tc main_arg25) = (m ((c.tc : Thread nD τ).loc main_arg25)) :=
  (r3_keep_main_arg25 (Q3 m c)).trans (J2_main_arg25 m c)

theorem J3_main_arg26 : Q4 m c (Proc.devRef .tc main_arg26) = (m ((c.tc : Thread nD τ).loc main_arg26)) :=
  (r3_keep_main_arg26 (Q3 m c)).trans (J2_main_arg26 m c)

theorem J3_main_arg27 : Q4 m c (Proc.devRef .tc main_arg27) = (m ((c.tc : Thread nD τ).loc main_arg27)) :=
  (r3_keep_main_arg27 (Q3 m c)).trans (J2_main_arg27 m c)

theorem J3_main_arg28 : Q4 m c (Proc.devRef .tc main_arg28) = (m ((c.tc : Thread nD τ).loc main_arg28)) :=
  (r3_keep_main_arg28 (Q3 m c)).trans (J2_main_arg28 m c)

theorem J4_main_v1 : Q5 m c (Proc.devRef .tc main_v1) = val_main_v1 (F := Ideal) (m ((c.tc : Thread nD τ).loc main_arg1)) :=
  (r4_keep_main_v1 (Q4 m c)).trans (J3_main_v1 m c)

theorem J4_main_v3 : Q5 m c (Proc.devRef .tc main_v3) = val_main_v3 (F := Ideal) (m ((c.tc : Thread nD τ).loc main_arg1)) :=
  (r4_keep_main_v3 (Q4 m c)).trans (J3_main_v3 m c)

theorem J4_main_v5 : Q5 m c (Proc.devRef .tc main_v5) = val_main_v5 (F := Ideal) (m ((c.tc : Thread nD τ).loc main_arg2)) :=
  (r4_keep_main_v5 (Q4 m c)).trans (J3_main_v5 m c)

theorem J4_main_v7 : Q5 m c (Proc.devRef .tc main_v7) = val_main_v7 (F := Ideal) (m ((c.tc : Thread nD τ).loc main_arg2)) :=
  (r4_keep_main_v7 (Q4 m c)).trans (J3_main_v7 m c)

theorem J4_main_v16 : Q5 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r4_keep_main_v16 (Q4 m c)).trans (J3_main_v16 m c)

theorem J4_main_v18 : Q5 m c (Proc.devRef .tc main_v18) = val_main_v18 (F := Ideal) (m ((c.tc : Thread nD τ).loc main_arg1)) :=
  r4_main_v18 (Q4 m c) (J3_main_v1 m c)

theorem J4_main_v19 : Q5 m c (Proc.devRef .tc main_v19) = val_main_v19 (F := Ideal) (m ((c.tc : Thread nD τ).loc main_arg1)) :=
  r4_main_v19 (Q4 m c) (J3_main_v3 m c)

theorem J4_main_v25 : Q5 m c (Proc.devRef .tc main_v25) = val_main_v25 (F := Ideal) (m ((c.tc : Thread nD τ).loc main_arg1)) :=
  r4_main_v25 (Q4 m c) (J3_main_v3 m c)

theorem J4_main_v26 : Q5 m c (Proc.devRef .tc main_v26) = val_main_v26 (F := Ideal) (m ((c.tc : Thread nD τ).loc main_arg1)) :=
  r4_main_v26 (Q4 m c) (J3_main_v3 m c)

theorem J4_main_cst_2 : Q5 m c (Proc.devRef .tc main_cst_2) = val_main_cst_2 (F := Ideal) :=
  r4_main_cst_2 (Q4 m c)

theorem J4_main_arg0 : Q5 m c (Proc.devRef .tc main_arg0) = (m ((c.tc : Thread nD τ).loc main_arg0)) :=
  (r4_keep_main_arg0 (Q4 m c)).trans (J3_main_arg0 m c)

theorem J4_main_arg1 : Q5 m c (Proc.devRef .tc main_arg1) = (m ((c.tc : Thread nD τ).loc main_arg1)) :=
  (r4_keep_main_arg1 (Q4 m c)).trans (J3_main_arg1 m c)

theorem J4_main_arg2 : Q5 m c (Proc.devRef .tc main_arg2) = (m ((c.tc : Thread nD τ).loc main_arg2)) :=
  (r4_keep_main_arg2 (Q4 m c)).trans (J3_main_arg2 m c)

theorem J4_main_arg3 : Q5 m c (Proc.devRef .tc main_arg3) = (m ((c.tc : Thread nD τ).loc main_arg3)) :=
  (r4_keep_main_arg3 (Q4 m c)).trans (J3_main_arg3 m c)

theorem J4_main_arg4 : Q5 m c (Proc.devRef .tc main_arg4) = (m ((c.tc : Thread nD τ).loc main_arg4)) :=
  (r4_keep_main_arg4 (Q4 m c)).trans (J3_main_arg4 m c)

theorem J4_main_arg5 : Q5 m c (Proc.devRef .tc main_arg5) = (m ((c.tc : Thread nD τ).loc main_arg5)) :=
  (r4_keep_main_arg5 (Q4 m c)).trans (J3_main_arg5 m c)

theorem J4_main_arg6 : Q5 m c (Proc.devRef .tc main_arg6) = (m ((c.tc : Thread nD τ).loc main_arg6)) :=
  (r4_keep_main_arg6 (Q4 m c)).trans (J3_main_arg6 m c)

theorem J4_main_arg7 : Q5 m c (Proc.devRef .tc main_arg7) = (m ((c.tc : Thread nD τ).loc main_arg7)) :=
  (r4_keep_main_arg7 (Q4 m c)).trans (J3_main_arg7 m c)

theorem J4_main_arg8 : Q5 m c (Proc.devRef .tc main_arg8) = (m ((c.tc : Thread nD τ).loc main_arg8)) :=
  (r4_keep_main_arg8 (Q4 m c)).trans (J3_main_arg8 m c)

theorem J4_main_arg9 : Q5 m c (Proc.devRef .tc main_arg9) = (m ((c.tc : Thread nD τ).loc main_arg9)) :=
  (r4_keep_main_arg9 (Q4 m c)).trans (J3_main_arg9 m c)

theorem J4_main_arg10 : Q5 m c (Proc.devRef .tc main_arg10) = (m ((c.tc : Thread nD τ).loc main_arg10)) :=
  (r4_keep_main_arg10 (Q4 m c)).trans (J3_main_arg10 m c)

theorem J4_main_arg11 : Q5 m c (Proc.devRef .tc main_arg11) = (m ((c.tc : Thread nD τ).loc main_arg11)) :=
  (r4_keep_main_arg11 (Q4 m c)).trans (J3_main_arg11 m c)

theorem J4_main_arg12 : Q5 m c (Proc.devRef .tc main_arg12) = (m ((c.tc : Thread nD τ).loc main_arg12)) :=
  (r4_keep_main_arg12 (Q4 m c)).trans (J3_main_arg12 m c)

theorem J4_main_arg13 : Q5 m c (Proc.devRef .tc main_arg13) = (m ((c.tc : Thread nD τ).loc main_arg13)) :=
  (r4_keep_main_arg13 (Q4 m c)).trans (J3_main_arg13 m c)

theorem J4_main_arg14 : Q5 m c (Proc.devRef .tc main_arg14) = (m ((c.tc : Thread nD τ).loc main_arg14)) :=
  (r4_keep_main_arg14 (Q4 m c)).trans (J3_main_arg14 m c)

theorem J4_main_arg15 : Q5 m c (Proc.devRef .tc main_arg15) = (m ((c.tc : Thread nD τ).loc main_arg15)) :=
  (r4_keep_main_arg15 (Q4 m c)).trans (J3_main_arg15 m c)

theorem J4_main_arg16 : Q5 m c (Proc.devRef .tc main_arg16) = (m ((c.tc : Thread nD τ).loc main_arg16)) :=
  (r4_keep_main_arg16 (Q4 m c)).trans (J3_main_arg16 m c)

theorem J4_main_arg17 : Q5 m c (Proc.devRef .tc main_arg17) = (m ((c.tc : Thread nD τ).loc main_arg17)) :=
  (r4_keep_main_arg17 (Q4 m c)).trans (J3_main_arg17 m c)

theorem J4_main_arg18 : Q5 m c (Proc.devRef .tc main_arg18) = (m ((c.tc : Thread nD τ).loc main_arg18)) :=
  (r4_keep_main_arg18 (Q4 m c)).trans (J3_main_arg18 m c)

theorem J4_main_arg19 : Q5 m c (Proc.devRef .tc main_arg19) = (m ((c.tc : Thread nD τ).loc main_arg19)) :=
  (r4_keep_main_arg19 (Q4 m c)).trans (J3_main_arg19 m c)

theorem J4_main_arg20 : Q5 m c (Proc.devRef .tc main_arg20) = (m ((c.tc : Thread nD τ).loc main_arg20)) :=
  (r4_keep_main_arg20 (Q4 m c)).trans (J3_main_arg20 m c)

theorem J4_main_arg21 : Q5 m c (Proc.devRef .tc main_arg21) = (m ((c.tc : Thread nD τ).loc main_arg21)) :=
  (r4_keep_main_arg21 (Q4 m c)).trans (J3_main_arg21 m c)

theorem J4_main_arg22 : Q5 m c (Proc.devRef .tc main_arg22) = (m ((c.tc : Thread nD τ).loc main_arg22)) :=
  (r4_keep_main_arg22 (Q4 m c)).trans (J3_main_arg22 m c)

theorem J4_main_arg23 : Q5 m c (Proc.devRef .tc main_arg23) = (m ((c.tc : Thread nD τ).loc main_arg23)) :=
  (r4_keep_main_arg23 (Q4 m c)).trans (J3_main_arg23 m c)

theorem J4_main_arg24 : Q5 m c (Proc.devRef .tc main_arg24) = (m ((c.tc : Thread nD τ).loc main_arg24)) :=
  (r4_keep_main_arg24 (Q4 m c)).trans (J3_main_arg24 m c)

theorem J4_main_arg25 : Q5 m c (Proc.devRef .tc main_arg25) = (m ((c.tc : Thread nD τ).loc main_arg25)) :=
  (r4_keep_main_arg25 (Q4 m c)).trans (J3_main_arg25 m c)

theorem J4_main_arg26 : Q5 m c (Proc.devRef .tc main_arg26) = (m ((c.tc : Thread nD τ).loc main_arg26)) :=
  (r4_keep_main_arg26 (Q4 m c)).trans (J3_main_arg26 m c)

theorem J4_main_arg27 : Q5 m c (Proc.devRef .tc main_arg27) = (m ((c.tc : Thread nD τ).loc main_arg27)) :=
  (r4_keep_main_arg27 (Q4 m c)).trans (J3_main_arg27 m c)

theorem J4_main_arg28 : Q5 m c (Proc.devRef .tc main_arg28) = (m ((c.tc : Thread nD τ).loc main_arg28)) :=
  (r4_keep_main_arg28 (Q4 m c)).trans (J3_main_arg28 m c)

theorem J5_main_v1 : Q6 m c (Proc.devRef .tc main_v1) = val_main_v1 (F := Ideal) (m ((c.tc : Thread nD τ).loc main_arg1)) :=
  (r5_keep_main_v1 (Q5 m c)).trans (J4_main_v1 m c)

theorem J5_main_v3 : Q6 m c (Proc.devRef .tc main_v3) = val_main_v3 (F := Ideal) (m ((c.tc : Thread nD τ).loc main_arg1)) :=
  (r5_keep_main_v3 (Q5 m c)).trans (J4_main_v3 m c)

theorem J5_main_v5 : Q6 m c (Proc.devRef .tc main_v5) = val_main_v5 (F := Ideal) (m ((c.tc : Thread nD τ).loc main_arg2)) :=
  (r5_keep_main_v5 (Q5 m c)).trans (J4_main_v5 m c)

theorem J5_main_v7 : Q6 m c (Proc.devRef .tc main_v7) = val_main_v7 (F := Ideal) (m ((c.tc : Thread nD τ).loc main_arg2)) :=
  (r5_keep_main_v7 (Q5 m c)).trans (J4_main_v7 m c)

theorem J5_main_v16 : Q6 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r5_keep_main_v16 (Q5 m c)).trans (J4_main_v16 m c)

theorem J5_main_v18 : Q6 m c (Proc.devRef .tc main_v18) = val_main_v18 (F := Ideal) (m ((c.tc : Thread nD τ).loc main_arg1)) :=
  (r5_keep_main_v18 (Q5 m c)).trans (J4_main_v18 m c)

theorem J5_main_v19 : Q6 m c (Proc.devRef .tc main_v19) = val_main_v19 (F := Ideal) (m ((c.tc : Thread nD τ).loc main_arg1)) :=
  (r5_keep_main_v19 (Q5 m c)).trans (J4_main_v19 m c)

theorem J5_main_v27 : Q6 m c (Proc.devRef .tc main_v27) = val_main_v27 (F := Ideal) (m ((c.tc : Thread nD τ).loc main_arg1)) :=
  r5_main_v27 (Q5 m c) (J4_main_v25 m c) (J4_main_v26 m c) (J4_main_cst_2 m c)

theorem J5_main_arg0 : Q6 m c (Proc.devRef .tc main_arg0) = (m ((c.tc : Thread nD τ).loc main_arg0)) :=
  (r5_keep_main_arg0 (Q5 m c)).trans (J4_main_arg0 m c)

theorem J5_main_arg1 : Q6 m c (Proc.devRef .tc main_arg1) = (m ((c.tc : Thread nD τ).loc main_arg1)) :=
  (r5_keep_main_arg1 (Q5 m c)).trans (J4_main_arg1 m c)

theorem J5_main_arg2 : Q6 m c (Proc.devRef .tc main_arg2) = (m ((c.tc : Thread nD τ).loc main_arg2)) :=
  (r5_keep_main_arg2 (Q5 m c)).trans (J4_main_arg2 m c)

theorem J5_main_arg3 : Q6 m c (Proc.devRef .tc main_arg3) = (m ((c.tc : Thread nD τ).loc main_arg3)) :=
  (r5_keep_main_arg3 (Q5 m c)).trans (J4_main_arg3 m c)

theorem J5_main_arg4 : Q6 m c (Proc.devRef .tc main_arg4) = (m ((c.tc : Thread nD τ).loc main_arg4)) :=
  (r5_keep_main_arg4 (Q5 m c)).trans (J4_main_arg4 m c)

theorem J5_main_arg5 : Q6 m c (Proc.devRef .tc main_arg5) = (m ((c.tc : Thread nD τ).loc main_arg5)) :=
  (r5_keep_main_arg5 (Q5 m c)).trans (J4_main_arg5 m c)

theorem J5_main_arg6 : Q6 m c (Proc.devRef .tc main_arg6) = (m ((c.tc : Thread nD τ).loc main_arg6)) :=
  (r5_keep_main_arg6 (Q5 m c)).trans (J4_main_arg6 m c)

theorem J5_main_arg7 : Q6 m c (Proc.devRef .tc main_arg7) = (m ((c.tc : Thread nD τ).loc main_arg7)) :=
  (r5_keep_main_arg7 (Q5 m c)).trans (J4_main_arg7 m c)

theorem J5_main_arg8 : Q6 m c (Proc.devRef .tc main_arg8) = (m ((c.tc : Thread nD τ).loc main_arg8)) :=
  (r5_keep_main_arg8 (Q5 m c)).trans (J4_main_arg8 m c)

theorem J5_main_arg9 : Q6 m c (Proc.devRef .tc main_arg9) = (m ((c.tc : Thread nD τ).loc main_arg9)) :=
  (r5_keep_main_arg9 (Q5 m c)).trans (J4_main_arg9 m c)

theorem J5_main_arg10 : Q6 m c (Proc.devRef .tc main_arg10) = (m ((c.tc : Thread nD τ).loc main_arg10)) :=
  (r5_keep_main_arg10 (Q5 m c)).trans (J4_main_arg10 m c)

theorem J5_main_arg11 : Q6 m c (Proc.devRef .tc main_arg11) = (m ((c.tc : Thread nD τ).loc main_arg11)) :=
  (r5_keep_main_arg11 (Q5 m c)).trans (J4_main_arg11 m c)

theorem J5_main_arg12 : Q6 m c (Proc.devRef .tc main_arg12) = (m ((c.tc : Thread nD τ).loc main_arg12)) :=
  (r5_keep_main_arg12 (Q5 m c)).trans (J4_main_arg12 m c)

theorem J5_main_arg13 : Q6 m c (Proc.devRef .tc main_arg13) = (m ((c.tc : Thread nD τ).loc main_arg13)) :=
  (r5_keep_main_arg13 (Q5 m c)).trans (J4_main_arg13 m c)

theorem J5_main_arg14 : Q6 m c (Proc.devRef .tc main_arg14) = (m ((c.tc : Thread nD τ).loc main_arg14)) :=
  (r5_keep_main_arg14 (Q5 m c)).trans (J4_main_arg14 m c)

theorem J5_main_arg15 : Q6 m c (Proc.devRef .tc main_arg15) = (m ((c.tc : Thread nD τ).loc main_arg15)) :=
  (r5_keep_main_arg15 (Q5 m c)).trans (J4_main_arg15 m c)

theorem J5_main_arg16 : Q6 m c (Proc.devRef .tc main_arg16) = (m ((c.tc : Thread nD τ).loc main_arg16)) :=
  (r5_keep_main_arg16 (Q5 m c)).trans (J4_main_arg16 m c)

theorem J5_main_arg17 : Q6 m c (Proc.devRef .tc main_arg17) = (m ((c.tc : Thread nD τ).loc main_arg17)) :=
  (r5_keep_main_arg17 (Q5 m c)).trans (J4_main_arg17 m c)

theorem J5_main_arg18 : Q6 m c (Proc.devRef .tc main_arg18) = (m ((c.tc : Thread nD τ).loc main_arg18)) :=
  (r5_keep_main_arg18 (Q5 m c)).trans (J4_main_arg18 m c)

theorem J5_main_arg19 : Q6 m c (Proc.devRef .tc main_arg19) = (m ((c.tc : Thread nD τ).loc main_arg19)) :=
  (r5_keep_main_arg19 (Q5 m c)).trans (J4_main_arg19 m c)

theorem J5_main_arg20 : Q6 m c (Proc.devRef .tc main_arg20) = (m ((c.tc : Thread nD τ).loc main_arg20)) :=
  (r5_keep_main_arg20 (Q5 m c)).trans (J4_main_arg20 m c)

theorem J5_main_arg21 : Q6 m c (Proc.devRef .tc main_arg21) = (m ((c.tc : Thread nD τ).loc main_arg21)) :=
  (r5_keep_main_arg21 (Q5 m c)).trans (J4_main_arg21 m c)

theorem J5_main_arg22 : Q6 m c (Proc.devRef .tc main_arg22) = (m ((c.tc : Thread nD τ).loc main_arg22)) :=
  (r5_keep_main_arg22 (Q5 m c)).trans (J4_main_arg22 m c)

theorem J5_main_arg23 : Q6 m c (Proc.devRef .tc main_arg23) = (m ((c.tc : Thread nD τ).loc main_arg23)) :=
  (r5_keep_main_arg23 (Q5 m c)).trans (J4_main_arg23 m c)

theorem J5_main_arg24 : Q6 m c (Proc.devRef .tc main_arg24) = (m ((c.tc : Thread nD τ).loc main_arg24)) :=
  (r5_keep_main_arg24 (Q5 m c)).trans (J4_main_arg24 m c)

theorem J5_main_arg25 : Q6 m c (Proc.devRef .tc main_arg25) = (m ((c.tc : Thread nD τ).loc main_arg25)) :=
  (r5_keep_main_arg25 (Q5 m c)).trans (J4_main_arg25 m c)

theorem J5_main_arg26 : Q6 m c (Proc.devRef .tc main_arg26) = (m ((c.tc : Thread nD τ).loc main_arg26)) :=
  (r5_keep_main_arg26 (Q5 m c)).trans (J4_main_arg26 m c)

theorem J5_main_arg27 : Q6 m c (Proc.devRef .tc main_arg27) = (m ((c.tc : Thread nD τ).loc main_arg27)) :=
  (r5_keep_main_arg27 (Q5 m c)).trans (J4_main_arg27 m c)

theorem J5_main_arg28 : Q6 m c (Proc.devRef .tc main_arg28) = (m ((c.tc : Thread nD τ).loc main_arg28)) :=
  (r5_keep_main_arg28 (Q5 m c)).trans (J4_main_arg28 m c)

theorem J6_main_v1 : Q7 m c (Proc.devRef .tc main_v1) = val_main_v1 (F := Ideal) (m ((c.tc : Thread nD τ).loc main_arg1)) :=
  (r6_keep_main_v1 (Q6 m c)).trans (J5_main_v1 m c)

theorem J6_main_v3 : Q7 m c (Proc.devRef .tc main_v3) = val_main_v3 (F := Ideal) (m ((c.tc : Thread nD τ).loc main_arg1)) :=
  (r6_keep_main_v3 (Q6 m c)).trans (J5_main_v3 m c)

theorem J6_main_v5 : Q7 m c (Proc.devRef .tc main_v5) = val_main_v5 (F := Ideal) (m ((c.tc : Thread nD τ).loc main_arg2)) :=
  (r6_keep_main_v5 (Q6 m c)).trans (J5_main_v5 m c)

theorem J6_main_v7 : Q7 m c (Proc.devRef .tc main_v7) = val_main_v7 (F := Ideal) (m ((c.tc : Thread nD τ).loc main_arg2)) :=
  (r6_keep_main_v7 (Q6 m c)).trans (J5_main_v7 m c)

theorem J6_main_v16 : Q7 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r6_keep_main_v16 (Q6 m c)).trans (J5_main_v16 m c)

theorem J6_main_v18 : Q7 m c (Proc.devRef .tc main_v18) = val_main_v18 (F := Ideal) (m ((c.tc : Thread nD τ).loc main_arg1)) :=
  (r6_keep_main_v18 (Q6 m c)).trans (J5_main_v18 m c)

theorem J6_main_v19 : Q7 m c (Proc.devRef .tc main_v19) = val_main_v19 (F := Ideal) (m ((c.tc : Thread nD τ).loc main_arg1)) :=
  (r6_keep_main_v19 (Q6 m c)).trans (J5_main_v19 m c)

theorem J6_main_v42 : Q7 m c (Proc.devRef .tc main_v42) = val_main_v42 (F := Ideal) (m ((c.tc : Thread nD τ).loc main_arg1)) :=
  r6_main_v42 (Q6 m c) (J5_main_v27 m c) (J5_main_v18 m c) (J5_main_v19 m c)

theorem J6_main_arg0 : Q7 m c (Proc.devRef .tc main_arg0) = (m ((c.tc : Thread nD τ).loc main_arg0)) :=
  (r6_keep_main_arg0 (Q6 m c)).trans (J5_main_arg0 m c)

theorem J6_main_arg1 : Q7 m c (Proc.devRef .tc main_arg1) = (m ((c.tc : Thread nD τ).loc main_arg1)) :=
  (r6_keep_main_arg1 (Q6 m c)).trans (J5_main_arg1 m c)

theorem J6_main_arg2 : Q7 m c (Proc.devRef .tc main_arg2) = (m ((c.tc : Thread nD τ).loc main_arg2)) :=
  (r6_keep_main_arg2 (Q6 m c)).trans (J5_main_arg2 m c)

theorem J6_main_arg3 : Q7 m c (Proc.devRef .tc main_arg3) = (m ((c.tc : Thread nD τ).loc main_arg3)) :=
  (r6_keep_main_arg3 (Q6 m c)).trans (J5_main_arg3 m c)

theorem J6_main_arg4 : Q7 m c (Proc.devRef .tc main_arg4) = (m ((c.tc : Thread nD τ).loc main_arg4)) :=
  (r6_keep_main_arg4 (Q6 m c)).trans (J5_main_arg4 m c)

theorem J6_main_arg5 : Q7 m c (Proc.devRef .tc main_arg5) = (m ((c.tc : Thread nD τ).loc main_arg5)) :=
  (r6_keep_main_arg5 (Q6 m c)).trans (J5_main_arg5 m c)

theorem J6_main_arg6 : Q7 m c (Proc.devRef .tc main_arg6) = (m ((c.tc : Thread nD τ).loc main_arg6)) :=
  (r6_keep_main_arg6 (Q6 m c)).trans (J5_main_arg6 m c)

theorem J6_main_arg7 : Q7 m c (Proc.devRef .tc main_arg7) = (m ((c.tc : Thread nD τ).loc main_arg7)) :=
  (r6_keep_main_arg7 (Q6 m c)).trans (J5_main_arg7 m c)

theorem J6_main_arg8 : Q7 m c (Proc.devRef .tc main_arg8) = (m ((c.tc : Thread nD τ).loc main_arg8)) :=
  (r6_keep_main_arg8 (Q6 m c)).trans (J5_main_arg8 m c)

theorem J6_main_arg9 : Q7 m c (Proc.devRef .tc main_arg9) = (m ((c.tc : Thread nD τ).loc main_arg9)) :=
  (r6_keep_main_arg9 (Q6 m c)).trans (J5_main_arg9 m c)

theorem J6_main_arg10 : Q7 m c (Proc.devRef .tc main_arg10) = (m ((c.tc : Thread nD τ).loc main_arg10)) :=
  (r6_keep_main_arg10 (Q6 m c)).trans (J5_main_arg10 m c)

theorem J6_main_arg11 : Q7 m c (Proc.devRef .tc main_arg11) = (m ((c.tc : Thread nD τ).loc main_arg11)) :=
  (r6_keep_main_arg11 (Q6 m c)).trans (J5_main_arg11 m c)

theorem J6_main_arg12 : Q7 m c (Proc.devRef .tc main_arg12) = (m ((c.tc : Thread nD τ).loc main_arg12)) :=
  (r6_keep_main_arg12 (Q6 m c)).trans (J5_main_arg12 m c)

theorem J6_main_arg13 : Q7 m c (Proc.devRef .tc main_arg13) = (m ((c.tc : Thread nD τ).loc main_arg13)) :=
  (r6_keep_main_arg13 (Q6 m c)).trans (J5_main_arg13 m c)

theorem J6_main_arg14 : Q7 m c (Proc.devRef .tc main_arg14) = (m ((c.tc : Thread nD τ).loc main_arg14)) :=
  (r6_keep_main_arg14 (Q6 m c)).trans (J5_main_arg14 m c)

theorem J6_main_arg15 : Q7 m c (Proc.devRef .tc main_arg15) = (m ((c.tc : Thread nD τ).loc main_arg15)) :=
  (r6_keep_main_arg15 (Q6 m c)).trans (J5_main_arg15 m c)

theorem J6_main_arg16 : Q7 m c (Proc.devRef .tc main_arg16) = (m ((c.tc : Thread nD τ).loc main_arg16)) :=
  (r6_keep_main_arg16 (Q6 m c)).trans (J5_main_arg16 m c)

theorem J6_main_arg17 : Q7 m c (Proc.devRef .tc main_arg17) = (m ((c.tc : Thread nD τ).loc main_arg17)) :=
  (r6_keep_main_arg17 (Q6 m c)).trans (J5_main_arg17 m c)

theorem J6_main_arg18 : Q7 m c (Proc.devRef .tc main_arg18) = (m ((c.tc : Thread nD τ).loc main_arg18)) :=
  (r6_keep_main_arg18 (Q6 m c)).trans (J5_main_arg18 m c)

theorem J6_main_arg19 : Q7 m c (Proc.devRef .tc main_arg19) = (m ((c.tc : Thread nD τ).loc main_arg19)) :=
  (r6_keep_main_arg19 (Q6 m c)).trans (J5_main_arg19 m c)

theorem J6_main_arg20 : Q7 m c (Proc.devRef .tc main_arg20) = (m ((c.tc : Thread nD τ).loc main_arg20)) :=
  (r6_keep_main_arg20 (Q6 m c)).trans (J5_main_arg20 m c)

theorem J6_main_arg21 : Q7 m c (Proc.devRef .tc main_arg21) = (m ((c.tc : Thread nD τ).loc main_arg21)) :=
  (r6_keep_main_arg21 (Q6 m c)).trans (J5_main_arg21 m c)

theorem J6_main_arg22 : Q7 m c (Proc.devRef .tc main_arg22) = (m ((c.tc : Thread nD τ).loc main_arg22)) :=
  (r6_keep_main_arg22 (Q6 m c)).trans (J5_main_arg22 m c)

theorem J6_main_arg23 : Q7 m c (Proc.devRef .tc main_arg23) = (m ((c.tc : Thread nD τ).loc main_arg23)) :=
  (r6_keep_main_arg23 (Q6 m c)).trans (J5_main_arg23 m c)

theorem J6_main_arg24 : Q7 m c (Proc.devRef .tc main_arg24) = (m ((c.tc : Thread nD τ).loc main_arg24)) :=
  (r6_keep_main_arg24 (Q6 m c)).trans (J5_main_arg24 m c)

theorem J6_main_arg25 : Q7 m c (Proc.devRef .tc main_arg25) = (m ((c.tc : Thread nD τ).loc main_arg25)) :=
  (r6_keep_main_arg25 (Q6 m c)).trans (J5_main_arg25 m c)

theorem J6_main_arg26 : Q7 m c (Proc.devRef .tc main_arg26) = (m ((c.tc : Thread nD τ).loc main_arg26)) :=
  (r6_keep_main_arg26 (Q6 m c)).trans (J5_main_arg26 m c)

theorem J6_main_arg27 : Q7 m c (Proc.devRef .tc main_arg27) = (m ((c.tc : Thread nD τ).loc main_arg27)) :=
  (r6_keep_main_arg27 (Q6 m c)).trans (J5_main_arg27 m c)

theorem J6_main_arg28 : Q7 m c (Proc.devRef .tc main_arg28) = (m ((c.tc : Thread nD τ).loc main_arg28)) :=
  (r6_keep_main_arg28 (Q6 m c)).trans (J5_main_arg28 m c)

theorem J7_main_v1 : Q8 m c (Proc.devRef .tc main_v1) = val_main_v1 (F := Ideal) (m ((c.tc : Thread nD τ).loc main_arg1)) :=
  (r7_keep_main_v1 (Q7 m c)).trans (J6_main_v1 m c)

theorem J7_main_v3 : Q8 m c (Proc.devRef .tc main_v3) = val_main_v3 (F := Ideal) (m ((c.tc : Thread nD τ).loc main_arg1)) :=
  (r7_keep_main_v3 (Q7 m c)).trans (J6_main_v3 m c)

theorem J7_main_v5 : Q8 m c (Proc.devRef .tc main_v5) = val_main_v5 (F := Ideal) (m ((c.tc : Thread nD τ).loc main_arg2)) :=
  (r7_keep_main_v5 (Q7 m c)).trans (J6_main_v5 m c)

theorem J7_main_v7 : Q8 m c (Proc.devRef .tc main_v7) = val_main_v7 (F := Ideal) (m ((c.tc : Thread nD τ).loc main_arg2)) :=
  (r7_keep_main_v7 (Q7 m c)).trans (J6_main_v7 m c)

theorem J7_main_v16 : Q8 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r7_keep_main_v16 (Q7 m c)).trans (J6_main_v16 m c)

theorem J7_main_v18 : Q8 m c (Proc.devRef .tc main_v18) = val_main_v18 (F := Ideal) (m ((c.tc : Thread nD τ).loc main_arg1)) :=
  (r7_keep_main_v18 (Q7 m c)).trans (J6_main_v18 m c)

theorem J7_main_v19 : Q8 m c (Proc.devRef .tc main_v19) = val_main_v19 (F := Ideal) (m ((c.tc : Thread nD τ).loc main_arg1)) :=
  (r7_keep_main_v19 (Q7 m c)).trans (J6_main_v19 m c)

theorem J7_main_v42 : Q8 m c (Proc.devRef .tc main_v42) = val_main_v42 (F := Ideal) (m ((c.tc : Thread nD τ).loc main_arg1)) :=
  (r7_keep_main_v42 (Q7 m c)).trans (J6_main_v42 m c)

theorem J7_main_v43 : Q8 m c (Proc.devRef .tc main_v43) = val_main_v43 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  r7_main_v43 (Q7 m c) (J6_main_v16 m c) (J6_main_arg9 m c)

theorem J7_main_arg0 : Q8 m c (Proc.devRef .tc main_arg0) = (m ((c.tc : Thread nD τ).loc main_arg0)) :=
  (r7_keep_main_arg0 (Q7 m c)).trans (J6_main_arg0 m c)

theorem J7_main_arg1 : Q8 m c (Proc.devRef .tc main_arg1) = (m ((c.tc : Thread nD τ).loc main_arg1)) :=
  (r7_keep_main_arg1 (Q7 m c)).trans (J6_main_arg1 m c)

theorem J7_main_arg2 : Q8 m c (Proc.devRef .tc main_arg2) = (m ((c.tc : Thread nD τ).loc main_arg2)) :=
  (r7_keep_main_arg2 (Q7 m c)).trans (J6_main_arg2 m c)

theorem J7_main_arg3 : Q8 m c (Proc.devRef .tc main_arg3) = (m ((c.tc : Thread nD τ).loc main_arg3)) :=
  (r7_keep_main_arg3 (Q7 m c)).trans (J6_main_arg3 m c)

theorem J7_main_arg4 : Q8 m c (Proc.devRef .tc main_arg4) = (m ((c.tc : Thread nD τ).loc main_arg4)) :=
  (r7_keep_main_arg4 (Q7 m c)).trans (J6_main_arg4 m c)

theorem J7_main_arg5 : Q8 m c (Proc.devRef .tc main_arg5) = (m ((c.tc : Thread nD τ).loc main_arg5)) :=
  (r7_keep_main_arg5 (Q7 m c)).trans (J6_main_arg5 m c)

theorem J7_main_arg6 : Q8 m c (Proc.devRef .tc main_arg6) = (m ((c.tc : Thread nD τ).loc main_arg6)) :=
  (r7_keep_main_arg6 (Q7 m c)).trans (J6_main_arg6 m c)

theorem J7_main_arg7 : Q8 m c (Proc.devRef .tc main_arg7) = (m ((c.tc : Thread nD τ).loc main_arg7)) :=
  (r7_keep_main_arg7 (Q7 m c)).trans (J6_main_arg7 m c)

theorem J7_main_arg8 : Q8 m c (Proc.devRef .tc main_arg8) = (m ((c.tc : Thread nD τ).loc main_arg8)) :=
  (r7_keep_main_arg8 (Q7 m c)).trans (J6_main_arg8 m c)

theorem J7_main_arg9 : Q8 m c (Proc.devRef .tc main_arg9) = (m ((c.tc : Thread nD τ).loc main_arg9)) :=
  (r7_keep_main_arg9 (Q7 m c)).trans (J6_main_arg9 m c)

theorem J7_main_arg10 : Q8 m c (Proc.devRef .tc main_arg10) = (m ((c.tc : Thread nD τ).loc main_arg10)) :=
  (r7_keep_main_arg10 (Q7 m c)).trans (J6_main_arg10 m c)

theorem J7_main_arg11 : Q8 m c (Proc.devRef .tc main_arg11) = (m ((c.tc : Thread nD τ).loc main_arg11)) :=
  (r7_keep_main_arg11 (Q7 m c)).trans (J6_main_arg11 m c)

theorem J7_main_arg12 : Q8 m c (Proc.devRef .tc main_arg12) = (m ((c.tc : Thread nD τ).loc main_arg12)) :=
  (r7_keep_main_arg12 (Q7 m c)).trans (J6_main_arg12 m c)

theorem J7_main_arg13 : Q8 m c (Proc.devRef .tc main_arg13) = (m ((c.tc : Thread nD τ).loc main_arg13)) :=
  (r7_keep_main_arg13 (Q7 m c)).trans (J6_main_arg13 m c)

theorem J7_main_arg14 : Q8 m c (Proc.devRef .tc main_arg14) = (m ((c.tc : Thread nD τ).loc main_arg14)) :=
  (r7_keep_main_arg14 (Q7 m c)).trans (J6_main_arg14 m c)

theorem J7_main_arg15 : Q8 m c (Proc.devRef .tc main_arg15) = (m ((c.tc : Thread nD τ).loc main_arg15)) :=
  (r7_keep_main_arg15 (Q7 m c)).trans (J6_main_arg15 m c)

theorem J7_main_arg16 : Q8 m c (Proc.devRef .tc main_arg16) = (m ((c.tc : Thread nD τ).loc main_arg16)) :=
  (r7_keep_main_arg16 (Q7 m c)).trans (J6_main_arg16 m c)

theorem J7_main_arg17 : Q8 m c (Proc.devRef .tc main_arg17) = (m ((c.tc : Thread nD τ).loc main_arg17)) :=
  (r7_keep_main_arg17 (Q7 m c)).trans (J6_main_arg17 m c)

theorem J7_main_arg18 : Q8 m c (Proc.devRef .tc main_arg18) = (m ((c.tc : Thread nD τ).loc main_arg18)) :=
  (r7_keep_main_arg18 (Q7 m c)).trans (J6_main_arg18 m c)

theorem J7_main_arg19 : Q8 m c (Proc.devRef .tc main_arg19) = (m ((c.tc : Thread nD τ).loc main_arg19)) :=
  (r7_keep_main_arg19 (Q7 m c)).trans (J6_main_arg19 m c)

theorem J7_main_arg20 : Q8 m c (Proc.devRef .tc main_arg20) = (m ((c.tc : Thread nD τ).loc main_arg20)) :=
  (r7_keep_main_arg20 (Q7 m c)).trans (J6_main_arg20 m c)

theorem J7_main_arg21 : Q8 m c (Proc.devRef .tc main_arg21) = (m ((c.tc : Thread nD τ).loc main_arg21)) :=
  (r7_keep_main_arg21 (Q7 m c)).trans (J6_main_arg21 m c)

theorem J7_main_arg22 : Q8 m c (Proc.devRef .tc main_arg22) = (m ((c.tc : Thread nD τ).loc main_arg22)) :=
  (r7_keep_main_arg22 (Q7 m c)).trans (J6_main_arg22 m c)

theorem J7_main_arg23 : Q8 m c (Proc.devRef .tc main_arg23) = (m ((c.tc : Thread nD τ).loc main_arg23)) :=
  (r7_keep_main_arg23 (Q7 m c)).trans (J6_main_arg23 m c)

theorem J7_main_arg24 : Q8 m c (Proc.devRef .tc main_arg24) = (m ((c.tc : Thread nD τ).loc main_arg24)) :=
  (r7_keep_main_arg24 (Q7 m c)).trans (J6_main_arg24 m c)

theorem J7_main_arg25 : Q8 m c (Proc.devRef .tc main_arg25) = (m ((c.tc : Thread nD τ).loc main_arg25)) :=
  (r7_keep_main_arg25 (Q7 m c)).trans (J6_main_arg25 m c)

theorem J7_main_arg26 : Q8 m c (Proc.devRef .tc main_arg26) = (m ((c.tc : Thread nD τ).loc main_arg26)) :=
  (r7_keep_main_arg26 (Q7 m c)).trans (J6_main_arg26 m c)

theorem J7_main_arg27 : Q8 m c (Proc.devRef .tc main_arg27) = (m ((c.tc : Thread nD τ).loc main_arg27)) :=
  (r7_keep_main_arg27 (Q7 m c)).trans (J6_main_arg27 m c)

theorem J7_main_arg28 : Q8 m c (Proc.devRef .tc main_arg28) = (m ((c.tc : Thread nD τ).loc main_arg28)) :=
  (r7_keep_main_arg28 (Q7 m c)).trans (J6_main_arg28 m c)

theorem J8_main_v1 : Q9 m c (Proc.devRef .tc main_v1) = val_main_v1 (F := Ideal) (m ((c.tc : Thread nD τ).loc main_arg1)) :=
  (r8_keep_main_v1 (Q8 m c)).trans (J7_main_v1 m c)

theorem J8_main_v3 : Q9 m c (Proc.devRef .tc main_v3) = val_main_v3 (F := Ideal) (m ((c.tc : Thread nD τ).loc main_arg1)) :=
  (r8_keep_main_v3 (Q8 m c)).trans (J7_main_v3 m c)

theorem J8_main_v5 : Q9 m c (Proc.devRef .tc main_v5) = val_main_v5 (F := Ideal) (m ((c.tc : Thread nD τ).loc main_arg2)) :=
  (r8_keep_main_v5 (Q8 m c)).trans (J7_main_v5 m c)

theorem J8_main_v7 : Q9 m c (Proc.devRef .tc main_v7) = val_main_v7 (F := Ideal) (m ((c.tc : Thread nD τ).loc main_arg2)) :=
  (r8_keep_main_v7 (Q8 m c)).trans (J7_main_v7 m c)

theorem J8_main_v16 : Q9 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r8_keep_main_v16 (Q8 m c)).trans (J7_main_v16 m c)

theorem J8_main_v59 : Q9 m c (Proc.devRef .tc main_v59) = val_main_v59 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  r8_main_v59 (Q8 m c) (J7_main_v19 m c) (J7_main_v43 m c) (J7_main_v18 m c) (J7_main_v42 m c) (J7_main_arg10 m c)

theorem J8_main_arg0 : Q9 m c (Proc.devRef .tc main_arg0) = (m ((c.tc : Thread nD τ).loc main_arg0)) :=
  (r8_keep_main_arg0 (Q8 m c)).trans (J7_main_arg0 m c)

theorem J8_main_arg1 : Q9 m c (Proc.devRef .tc main_arg1) = (m ((c.tc : Thread nD τ).loc main_arg1)) :=
  (r8_keep_main_arg1 (Q8 m c)).trans (J7_main_arg1 m c)

theorem J8_main_arg2 : Q9 m c (Proc.devRef .tc main_arg2) = (m ((c.tc : Thread nD τ).loc main_arg2)) :=
  (r8_keep_main_arg2 (Q8 m c)).trans (J7_main_arg2 m c)

theorem J8_main_arg3 : Q9 m c (Proc.devRef .tc main_arg3) = (m ((c.tc : Thread nD τ).loc main_arg3)) :=
  (r8_keep_main_arg3 (Q8 m c)).trans (J7_main_arg3 m c)

theorem J8_main_arg4 : Q9 m c (Proc.devRef .tc main_arg4) = (m ((c.tc : Thread nD τ).loc main_arg4)) :=
  (r8_keep_main_arg4 (Q8 m c)).trans (J7_main_arg4 m c)

theorem J8_main_arg5 : Q9 m c (Proc.devRef .tc main_arg5) = (m ((c.tc : Thread nD τ).loc main_arg5)) :=
  (r8_keep_main_arg5 (Q8 m c)).trans (J7_main_arg5 m c)

theorem J8_main_arg6 : Q9 m c (Proc.devRef .tc main_arg6) = (m ((c.tc : Thread nD τ).loc main_arg6)) :=
  (r8_keep_main_arg6 (Q8 m c)).trans (J7_main_arg6 m c)

theorem J8_main_arg7 : Q9 m c (Proc.devRef .tc main_arg7) = (m ((c.tc : Thread nD τ).loc main_arg7)) :=
  (r8_keep_main_arg7 (Q8 m c)).trans (J7_main_arg7 m c)

theorem J8_main_arg8 : Q9 m c (Proc.devRef .tc main_arg8) = (m ((c.tc : Thread nD τ).loc main_arg8)) :=
  (r8_keep_main_arg8 (Q8 m c)).trans (J7_main_arg8 m c)

theorem J8_main_arg9 : Q9 m c (Proc.devRef .tc main_arg9) = (m ((c.tc : Thread nD τ).loc main_arg9)) :=
  (r8_keep_main_arg9 (Q8 m c)).trans (J7_main_arg9 m c)

theorem J8_main_arg10 : Q9 m c (Proc.devRef .tc main_arg10) = (m ((c.tc : Thread nD τ).loc main_arg10)) :=
  (r8_keep_main_arg10 (Q8 m c)).trans (J7_main_arg10 m c)

theorem J8_main_arg11 : Q9 m c (Proc.devRef .tc main_arg11) = (m ((c.tc : Thread nD τ).loc main_arg11)) :=
  (r8_keep_main_arg11 (Q8 m c)).trans (J7_main_arg11 m c)

theorem J8_main_arg12 : Q9 m c (Proc.devRef .tc main_arg12) = (m ((c.tc : Thread nD τ).loc main_arg12)) :=
  (r8_keep_main_arg12 (Q8 m c)).trans (J7_main_arg12 m c)

theorem J8_main_arg13 : Q9 m c (Proc.devRef .tc main_arg13) = (m ((c.tc : Thread nD τ).loc main_arg13)) :=
  (r8_keep_main_arg13 (Q8 m c)).trans (J7_main_arg13 m c)

theorem J8_main_arg14 : Q9 m c (Proc.devRef .tc main_arg14) = (m ((c.tc : Thread nD τ).loc main_arg14)) :=
  (r8_keep_main_arg14 (Q8 m c)).trans (J7_main_arg14 m c)

theorem J8_main_arg15 : Q9 m c (Proc.devRef .tc main_arg15) = (m ((c.tc : Thread nD τ).loc main_arg15)) :=
  (r8_keep_main_arg15 (Q8 m c)).trans (J7_main_arg15 m c)

theorem J8_main_arg16 : Q9 m c (Proc.devRef .tc main_arg16) = (m ((c.tc : Thread nD τ).loc main_arg16)) :=
  (r8_keep_main_arg16 (Q8 m c)).trans (J7_main_arg16 m c)

theorem J8_main_arg17 : Q9 m c (Proc.devRef .tc main_arg17) = (m ((c.tc : Thread nD τ).loc main_arg17)) :=
  (r8_keep_main_arg17 (Q8 m c)).trans (J7_main_arg17 m c)

theorem J8_main_arg18 : Q9 m c (Proc.devRef .tc main_arg18) = (m ((c.tc : Thread nD τ).loc main_arg18)) :=
  (r8_keep_main_arg18 (Q8 m c)).trans (J7_main_arg18 m c)

theorem J8_main_arg19 : Q9 m c (Proc.devRef .tc main_arg19) = (m ((c.tc : Thread nD τ).loc main_arg19)) :=
  (r8_keep_main_arg19 (Q8 m c)).trans (J7_main_arg19 m c)

theorem J8_main_arg20 : Q9 m c (Proc.devRef .tc main_arg20) = (m ((c.tc : Thread nD τ).loc main_arg20)) :=
  (r8_keep_main_arg20 (Q8 m c)).trans (J7_main_arg20 m c)

theorem J8_main_arg21 : Q9 m c (Proc.devRef .tc main_arg21) = (m ((c.tc : Thread nD τ).loc main_arg21)) :=
  (r8_keep_main_arg21 (Q8 m c)).trans (J7_main_arg21 m c)

theorem J8_main_arg22 : Q9 m c (Proc.devRef .tc main_arg22) = (m ((c.tc : Thread nD τ).loc main_arg22)) :=
  (r8_keep_main_arg22 (Q8 m c)).trans (J7_main_arg22 m c)

theorem J8_main_arg23 : Q9 m c (Proc.devRef .tc main_arg23) = (m ((c.tc : Thread nD τ).loc main_arg23)) :=
  (r8_keep_main_arg23 (Q8 m c)).trans (J7_main_arg23 m c)

theorem J8_main_arg24 : Q9 m c (Proc.devRef .tc main_arg24) = (m ((c.tc : Thread nD τ).loc main_arg24)) :=
  (r8_keep_main_arg24 (Q8 m c)).trans (J7_main_arg24 m c)

theorem J8_main_arg25 : Q9 m c (Proc.devRef .tc main_arg25) = (m ((c.tc : Thread nD τ).loc main_arg25)) :=
  (r8_keep_main_arg25 (Q8 m c)).trans (J7_main_arg25 m c)

theorem J8_main_arg26 : Q9 m c (Proc.devRef .tc main_arg26) = (m ((c.tc : Thread nD τ).loc main_arg26)) :=
  (r8_keep_main_arg26 (Q8 m c)).trans (J7_main_arg26 m c)

theorem J8_main_arg27 : Q9 m c (Proc.devRef .tc main_arg27) = (m ((c.tc : Thread nD τ).loc main_arg27)) :=
  (r8_keep_main_arg27 (Q8 m c)).trans (J7_main_arg27 m c)

theorem J8_main_arg28 : Q9 m c (Proc.devRef .tc main_arg28) = (m ((c.tc : Thread nD τ).loc main_arg28)) :=
  (r8_keep_main_arg28 (Q8 m c)).trans (J7_main_arg28 m c)

theorem J9_main_v1 : Q10 m c (Proc.devRef .tc main_v1) = val_main_v1 (F := Ideal) (m ((c.tc : Thread nD τ).loc main_arg1)) :=
  (r9_keep_main_v1 (Q9 m c)).trans (J8_main_v1 m c)

theorem J9_main_v3 : Q10 m c (Proc.devRef .tc main_v3) = val_main_v3 (F := Ideal) (m ((c.tc : Thread nD τ).loc main_arg1)) :=
  (r9_keep_main_v3 (Q9 m c)).trans (J8_main_v3 m c)

theorem J9_main_v5 : Q10 m c (Proc.devRef .tc main_v5) = val_main_v5 (F := Ideal) (m ((c.tc : Thread nD τ).loc main_arg2)) :=
  (r9_keep_main_v5 (Q9 m c)).trans (J8_main_v5 m c)

theorem J9_main_v7 : Q10 m c (Proc.devRef .tc main_v7) = val_main_v7 (F := Ideal) (m ((c.tc : Thread nD τ).loc main_arg2)) :=
  (r9_keep_main_v7 (Q9 m c)).trans (J8_main_v7 m c)

theorem J9_main_v16 : Q10 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r9_keep_main_v16 (Q9 m c)).trans (J8_main_v16 m c)

theorem J9_main_v60 : Q10 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  r9_main_v60 (Q9 m c) (J8_main_v59 m c)

theorem J9_main_arg0 : Q10 m c (Proc.devRef .tc main_arg0) = (m ((c.tc : Thread nD τ).loc main_arg0)) :=
  (r9_keep_main_arg0 (Q9 m c)).trans (J8_main_arg0 m c)

theorem J9_main_arg1 : Q10 m c (Proc.devRef .tc main_arg1) = (m ((c.tc : Thread nD τ).loc main_arg1)) :=
  (r9_keep_main_arg1 (Q9 m c)).trans (J8_main_arg1 m c)

theorem J9_main_arg2 : Q10 m c (Proc.devRef .tc main_arg2) = (m ((c.tc : Thread nD τ).loc main_arg2)) :=
  (r9_keep_main_arg2 (Q9 m c)).trans (J8_main_arg2 m c)

theorem J9_main_arg3 : Q10 m c (Proc.devRef .tc main_arg3) = (m ((c.tc : Thread nD τ).loc main_arg3)) :=
  (r9_keep_main_arg3 (Q9 m c)).trans (J8_main_arg3 m c)

theorem J9_main_arg4 : Q10 m c (Proc.devRef .tc main_arg4) = (m ((c.tc : Thread nD τ).loc main_arg4)) :=
  (r9_keep_main_arg4 (Q9 m c)).trans (J8_main_arg4 m c)

theorem J9_main_arg5 : Q10 m c (Proc.devRef .tc main_arg5) = (m ((c.tc : Thread nD τ).loc main_arg5)) :=
  (r9_keep_main_arg5 (Q9 m c)).trans (J8_main_arg5 m c)

theorem J9_main_arg6 : Q10 m c (Proc.devRef .tc main_arg6) = (m ((c.tc : Thread nD τ).loc main_arg6)) :=
  (r9_keep_main_arg6 (Q9 m c)).trans (J8_main_arg6 m c)

theorem J9_main_arg7 : Q10 m c (Proc.devRef .tc main_arg7) = (m ((c.tc : Thread nD τ).loc main_arg7)) :=
  (r9_keep_main_arg7 (Q9 m c)).trans (J8_main_arg7 m c)

theorem J9_main_arg8 : Q10 m c (Proc.devRef .tc main_arg8) = (m ((c.tc : Thread nD τ).loc main_arg8)) :=
  (r9_keep_main_arg8 (Q9 m c)).trans (J8_main_arg8 m c)

theorem J9_main_arg9 : Q10 m c (Proc.devRef .tc main_arg9) = (m ((c.tc : Thread nD τ).loc main_arg9)) :=
  (r9_keep_main_arg9 (Q9 m c)).trans (J8_main_arg9 m c)

theorem J9_main_arg10 : Q10 m c (Proc.devRef .tc main_arg10) = (m ((c.tc : Thread nD τ).loc main_arg10)) :=
  (r9_keep_main_arg10 (Q9 m c)).trans (J8_main_arg10 m c)

theorem J9_main_arg11 : Q10 m c (Proc.devRef .tc main_arg11) = (m ((c.tc : Thread nD τ).loc main_arg11)) :=
  (r9_keep_main_arg11 (Q9 m c)).trans (J8_main_arg11 m c)

theorem J9_main_arg12 : Q10 m c (Proc.devRef .tc main_arg12) = (m ((c.tc : Thread nD τ).loc main_arg12)) :=
  (r9_keep_main_arg12 (Q9 m c)).trans (J8_main_arg12 m c)

theorem J9_main_arg13 : Q10 m c (Proc.devRef .tc main_arg13) = (m ((c.tc : Thread nD τ).loc main_arg13)) :=
  (r9_keep_main_arg13 (Q9 m c)).trans (J8_main_arg13 m c)

theorem J9_main_arg14 : Q10 m c (Proc.devRef .tc main_arg14) = (m ((c.tc : Thread nD τ).loc main_arg14)) :=
  (r9_keep_main_arg14 (Q9 m c)).trans (J8_main_arg14 m c)

theorem J9_main_arg15 : Q10 m c (Proc.devRef .tc main_arg15) = (m ((c.tc : Thread nD τ).loc main_arg15)) :=
  (r9_keep_main_arg15 (Q9 m c)).trans (J8_main_arg15 m c)

theorem J9_main_arg16 : Q10 m c (Proc.devRef .tc main_arg16) = (m ((c.tc : Thread nD τ).loc main_arg16)) :=
  (r9_keep_main_arg16 (Q9 m c)).trans (J8_main_arg16 m c)

theorem J9_main_arg17 : Q10 m c (Proc.devRef .tc main_arg17) = (m ((c.tc : Thread nD τ).loc main_arg17)) :=
  (r9_keep_main_arg17 (Q9 m c)).trans (J8_main_arg17 m c)

theorem J9_main_arg18 : Q10 m c (Proc.devRef .tc main_arg18) = (m ((c.tc : Thread nD τ).loc main_arg18)) :=
  (r9_keep_main_arg18 (Q9 m c)).trans (J8_main_arg18 m c)

theorem J9_main_arg19 : Q10 m c (Proc.devRef .tc main_arg19) = (m ((c.tc : Thread nD τ).loc main_arg19)) :=
  (r9_keep_main_arg19 (Q9 m c)).trans (J8_main_arg19 m c)

theorem J9_main_arg20 : Q10 m c (Proc.devRef .tc main_arg20) = (m ((c.tc : Thread nD τ).loc main_arg20)) :=
  (r9_keep_main_arg20 (Q9 m c)).trans (J8_main_arg20 m c)

theorem J9_main_arg21 : Q10 m c (Proc.devRef .tc main_arg21) = (m ((c.tc : Thread nD τ).loc main_arg21)) :=
  (r9_keep_main_arg21 (Q9 m c)).trans (J8_main_arg21 m c)

theorem J9_main_arg22 : Q10 m c (Proc.devRef .tc main_arg22) = (m ((c.tc : Thread nD τ).loc main_arg22)) :=
  (r9_keep_main_arg22 (Q9 m c)).trans (J8_main_arg22 m c)

theorem J9_main_arg23 : Q10 m c (Proc.devRef .tc main_arg23) = (m ((c.tc : Thread nD τ).loc main_arg23)) :=
  (r9_keep_main_arg23 (Q9 m c)).trans (J8_main_arg23 m c)

theorem J9_main_arg24 : Q10 m c (Proc.devRef .tc main_arg24) = (m ((c.tc : Thread nD τ).loc main_arg24)) :=
  (r9_keep_main_arg24 (Q9 m c)).trans (J8_main_arg24 m c)

theorem J9_main_arg25 : Q10 m c (Proc.devRef .tc main_arg25) = (m ((c.tc : Thread nD τ).loc main_arg25)) :=
  (r9_keep_main_arg25 (Q9 m c)).trans (J8_main_arg25 m c)

theorem J9_main_arg26 : Q10 m c (Proc.devRef .tc main_arg26) = (m ((c.tc : Thread nD τ).loc main_arg26)) :=
  (r9_keep_main_arg26 (Q9 m c)).trans (J8_main_arg26 m c)

theorem J9_main_arg27 : Q10 m c (Proc.devRef .tc main_arg27) = (m ((c.tc : Thread nD τ).loc main_arg27)) :=
  (r9_keep_main_arg27 (Q9 m c)).trans (J8_main_arg27 m c)

theorem J9_main_arg28 : Q10 m c (Proc.devRef .tc main_arg28) = (m ((c.tc : Thread nD τ).loc main_arg28)) :=
  (r9_keep_main_arg28 (Q9 m c)).trans (J8_main_arg28 m c)

theorem J10_main_v1 : Q11 m c (Proc.devRef .tc main_v1) = val_main_v1 (F := Ideal) (m ((c.tc : Thread nD τ).loc main_arg1)) :=
  (r10_keep_main_v1 (Q10 m c)).trans (J9_main_v1 m c)

theorem J10_main_v3 : Q11 m c (Proc.devRef .tc main_v3) = val_main_v3 (F := Ideal) (m ((c.tc : Thread nD τ).loc main_arg1)) :=
  (r10_keep_main_v3 (Q10 m c)).trans (J9_main_v3 m c)

theorem J10_main_v5 : Q11 m c (Proc.devRef .tc main_v5) = val_main_v5 (F := Ideal) (m ((c.tc : Thread nD τ).loc main_arg2)) :=
  (r10_keep_main_v5 (Q10 m c)).trans (J9_main_v5 m c)

theorem J10_main_v7 : Q11 m c (Proc.devRef .tc main_v7) = val_main_v7 (F := Ideal) (m ((c.tc : Thread nD τ).loc main_arg2)) :=
  (r10_keep_main_v7 (Q10 m c)).trans (J9_main_v7 m c)

theorem J10_main_v16 : Q11 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r10_keep_main_v16 (Q10 m c)).trans (J9_main_v16 m c)

theorem J10_main_v60 : Q11 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r10_keep_main_v60 (Q10 m c)).trans (J9_main_v60 m c)

theorem J10_main_v62 : Q11 m c (Proc.devRef .tc main_v62) = val_main_v62 (F := Ideal) (m ((c.tc : Thread nD τ).loc main_arg2)) :=
  r10_main_v62 (Q10 m c) (J9_main_v5 m c)

theorem J10_main_v63 : Q11 m c (Proc.devRef .tc main_v63) = val_main_v63 (F := Ideal) (m ((c.tc : Thread nD τ).loc main_arg2)) :=
  r10_main_v63 (Q10 m c) (J9_main_v7 m c)

theorem J10_main_v69 : Q11 m c (Proc.devRef .tc main_v69) = val_main_v69 (F := Ideal) (m ((c.tc : Thread nD τ).loc main_arg2)) :=
  r10_main_v69 (Q10 m c) (J9_main_v7 m c)

theorem J10_main_v70 : Q11 m c (Proc.devRef .tc main_v70) = val_main_v70 (F := Ideal) (m ((c.tc : Thread nD τ).loc main_arg2)) :=
  r10_main_v70 (Q10 m c) (J9_main_v7 m c)

theorem J10_main_cst_12 : Q11 m c (Proc.devRef .tc main_cst_12) = val_main_cst_12 (F := Ideal) :=
  r10_main_cst_12 (Q10 m c)

theorem J10_main_arg0 : Q11 m c (Proc.devRef .tc main_arg0) = (m ((c.tc : Thread nD τ).loc main_arg0)) :=
  (r10_keep_main_arg0 (Q10 m c)).trans (J9_main_arg0 m c)

theorem J10_main_arg1 : Q11 m c (Proc.devRef .tc main_arg1) = (m ((c.tc : Thread nD τ).loc main_arg1)) :=
  (r10_keep_main_arg1 (Q10 m c)).trans (J9_main_arg1 m c)

theorem J10_main_arg2 : Q11 m c (Proc.devRef .tc main_arg2) = (m ((c.tc : Thread nD τ).loc main_arg2)) :=
  (r10_keep_main_arg2 (Q10 m c)).trans (J9_main_arg2 m c)

theorem J10_main_arg3 : Q11 m c (Proc.devRef .tc main_arg3) = (m ((c.tc : Thread nD τ).loc main_arg3)) :=
  (r10_keep_main_arg3 (Q10 m c)).trans (J9_main_arg3 m c)

theorem J10_main_arg4 : Q11 m c (Proc.devRef .tc main_arg4) = (m ((c.tc : Thread nD τ).loc main_arg4)) :=
  (r10_keep_main_arg4 (Q10 m c)).trans (J9_main_arg4 m c)

theorem J10_main_arg5 : Q11 m c (Proc.devRef .tc main_arg5) = (m ((c.tc : Thread nD τ).loc main_arg5)) :=
  (r10_keep_main_arg5 (Q10 m c)).trans (J9_main_arg5 m c)

theorem J10_main_arg6 : Q11 m c (Proc.devRef .tc main_arg6) = (m ((c.tc : Thread nD τ).loc main_arg6)) :=
  (r10_keep_main_arg6 (Q10 m c)).trans (J9_main_arg6 m c)

theorem J10_main_arg7 : Q11 m c (Proc.devRef .tc main_arg7) = (m ((c.tc : Thread nD τ).loc main_arg7)) :=
  (r10_keep_main_arg7 (Q10 m c)).trans (J9_main_arg7 m c)

theorem J10_main_arg8 : Q11 m c (Proc.devRef .tc main_arg8) = (m ((c.tc : Thread nD τ).loc main_arg8)) :=
  (r10_keep_main_arg8 (Q10 m c)).trans (J9_main_arg8 m c)

theorem J10_main_arg9 : Q11 m c (Proc.devRef .tc main_arg9) = (m ((c.tc : Thread nD τ).loc main_arg9)) :=
  (r10_keep_main_arg9 (Q10 m c)).trans (J9_main_arg9 m c)

theorem J10_main_arg10 : Q11 m c (Proc.devRef .tc main_arg10) = (m ((c.tc : Thread nD τ).loc main_arg10)) :=
  (r10_keep_main_arg10 (Q10 m c)).trans (J9_main_arg10 m c)

theorem J10_main_arg11 : Q11 m c (Proc.devRef .tc main_arg11) = (m ((c.tc : Thread nD τ).loc main_arg11)) :=
  (r10_keep_main_arg11 (Q10 m c)).trans (J9_main_arg11 m c)

theorem J10_main_arg12 : Q11 m c (Proc.devRef .tc main_arg12) = (m ((c.tc : Thread nD τ).loc main_arg12)) :=
  (r10_keep_main_arg12 (Q10 m c)).trans (J9_main_arg12 m c)

theorem J10_main_arg13 : Q11 m c (Proc.devRef .tc main_arg13) = (m ((c.tc : Thread nD τ).loc main_arg13)) :=
  (r10_keep_main_arg13 (Q10 m c)).trans (J9_main_arg13 m c)

theorem J10_main_arg14 : Q11 m c (Proc.devRef .tc main_arg14) = (m ((c.tc : Thread nD τ).loc main_arg14)) :=
  (r10_keep_main_arg14 (Q10 m c)).trans (J9_main_arg14 m c)

theorem J10_main_arg15 : Q11 m c (Proc.devRef .tc main_arg15) = (m ((c.tc : Thread nD τ).loc main_arg15)) :=
  (r10_keep_main_arg15 (Q10 m c)).trans (J9_main_arg15 m c)

theorem J10_main_arg16 : Q11 m c (Proc.devRef .tc main_arg16) = (m ((c.tc : Thread nD τ).loc main_arg16)) :=
  (r10_keep_main_arg16 (Q10 m c)).trans (J9_main_arg16 m c)

theorem J10_main_arg17 : Q11 m c (Proc.devRef .tc main_arg17) = (m ((c.tc : Thread nD τ).loc main_arg17)) :=
  (r10_keep_main_arg17 (Q10 m c)).trans (J9_main_arg17 m c)

theorem J10_main_arg18 : Q11 m c (Proc.devRef .tc main_arg18) = (m ((c.tc : Thread nD τ).loc main_arg18)) :=
  (r10_keep_main_arg18 (Q10 m c)).trans (J9_main_arg18 m c)

theorem J10_main_arg19 : Q11 m c (Proc.devRef .tc main_arg19) = (m ((c.tc : Thread nD τ).loc main_arg19)) :=
  (r10_keep_main_arg19 (Q10 m c)).trans (J9_main_arg19 m c)

theorem J10_main_arg20 : Q11 m c (Proc.devRef .tc main_arg20) = (m ((c.tc : Thread nD τ).loc main_arg20)) :=
  (r10_keep_main_arg20 (Q10 m c)).trans (J9_main_arg20 m c)

theorem J10_main_arg21 : Q11 m c (Proc.devRef .tc main_arg21) = (m ((c.tc : Thread nD τ).loc main_arg21)) :=
  (r10_keep_main_arg21 (Q10 m c)).trans (J9_main_arg21 m c)

theorem J10_main_arg22 : Q11 m c (Proc.devRef .tc main_arg22) = (m ((c.tc : Thread nD τ).loc main_arg22)) :=
  (r10_keep_main_arg22 (Q10 m c)).trans (J9_main_arg22 m c)

theorem J10_main_arg23 : Q11 m c (Proc.devRef .tc main_arg23) = (m ((c.tc : Thread nD τ).loc main_arg23)) :=
  (r10_keep_main_arg23 (Q10 m c)).trans (J9_main_arg23 m c)

theorem J10_main_arg24 : Q11 m c (Proc.devRef .tc main_arg24) = (m ((c.tc : Thread nD τ).loc main_arg24)) :=
  (r10_keep_main_arg24 (Q10 m c)).trans (J9_main_arg24 m c)

theorem J10_main_arg25 : Q11 m c (Proc.devRef .tc main_arg25) = (m ((c.tc : Thread nD τ).loc main_arg25)) :=
  (r10_keep_main_arg25 (Q10 m c)).trans (J9_main_arg25 m c)

theorem J10_main_arg26 : Q11 m c (Proc.devRef .tc main_arg26) = (m ((c.tc : Thread nD τ).loc main_arg26)) :=
  (r10_keep_main_arg26 (Q10 m c)).trans (J9_main_arg26 m c)

theorem J10_main_arg27 : Q11 m c (Proc.devRef .tc main_arg27) = (m ((c.tc : Thread nD τ).loc main_arg27)) :=
  (r10_keep_main_arg27 (Q10 m c)).trans (J9_main_arg27 m c)

theorem J10_main_arg28 : Q11 m c (Proc.devRef .tc main_arg28) = (m ((c.tc : Thread nD τ).loc main_arg28)) :=
  (r10_keep_main_arg28 (Q10 m c)).trans (J9_main_arg28 m c)

theorem J11_main_v1 : Q12 m c (Proc.devRef .tc main_v1) = val_main_v1 (F := Ideal) (m ((c.tc : Thread nD τ).loc main_arg1)) :=
  (r11_keep_main_v1 (Q11 m c)).trans (J10_main_v1 m c)

theorem J11_main_v3 : Q12 m c (Proc.devRef .tc main_v3) = val_main_v3 (F := Ideal) (m ((c.tc : Thread nD τ).loc main_arg1)) :=
  (r11_keep_main_v3 (Q11 m c)).trans (J10_main_v3 m c)

theorem J11_main_v5 : Q12 m c (Proc.devRef .tc main_v5) = val_main_v5 (F := Ideal) (m ((c.tc : Thread nD τ).loc main_arg2)) :=
  (r11_keep_main_v5 (Q11 m c)).trans (J10_main_v5 m c)

theorem J11_main_v7 : Q12 m c (Proc.devRef .tc main_v7) = val_main_v7 (F := Ideal) (m ((c.tc : Thread nD τ).loc main_arg2)) :=
  (r11_keep_main_v7 (Q11 m c)).trans (J10_main_v7 m c)

theorem J11_main_v16 : Q12 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r11_keep_main_v16 (Q11 m c)).trans (J10_main_v16 m c)

theorem J11_main_v60 : Q12 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r11_keep_main_v60 (Q11 m c)).trans (J10_main_v60 m c)

theorem J11_main_v62 : Q12 m c (Proc.devRef .tc main_v62) = val_main_v62 (F := Ideal) (m ((c.tc : Thread nD τ).loc main_arg2)) :=
  (r11_keep_main_v62 (Q11 m c)).trans (J10_main_v62 m c)

theorem J11_main_v63 : Q12 m c (Proc.devRef .tc main_v63) = val_main_v63 (F := Ideal) (m ((c.tc : Thread nD τ).loc main_arg2)) :=
  (r11_keep_main_v63 (Q11 m c)).trans (J10_main_v63 m c)

theorem J11_main_v71 : Q12 m c (Proc.devRef .tc main_v71) = val_main_v71 (F := Ideal) (m ((c.tc : Thread nD τ).loc main_arg2)) :=
  r11_main_v71 (Q11 m c) (J10_main_v69 m c) (J10_main_v70 m c) (J10_main_cst_12 m c)

theorem J11_main_arg0 : Q12 m c (Proc.devRef .tc main_arg0) = (m ((c.tc : Thread nD τ).loc main_arg0)) :=
  (r11_keep_main_arg0 (Q11 m c)).trans (J10_main_arg0 m c)

theorem J11_main_arg1 : Q12 m c (Proc.devRef .tc main_arg1) = (m ((c.tc : Thread nD τ).loc main_arg1)) :=
  (r11_keep_main_arg1 (Q11 m c)).trans (J10_main_arg1 m c)

theorem J11_main_arg2 : Q12 m c (Proc.devRef .tc main_arg2) = (m ((c.tc : Thread nD τ).loc main_arg2)) :=
  (r11_keep_main_arg2 (Q11 m c)).trans (J10_main_arg2 m c)

theorem J11_main_arg3 : Q12 m c (Proc.devRef .tc main_arg3) = (m ((c.tc : Thread nD τ).loc main_arg3)) :=
  (r11_keep_main_arg3 (Q11 m c)).trans (J10_main_arg3 m c)

theorem J11_main_arg4 : Q12 m c (Proc.devRef .tc main_arg4) = (m ((c.tc : Thread nD τ).loc main_arg4)) :=
  (r11_keep_main_arg4 (Q11 m c)).trans (J10_main_arg4 m c)

theorem J11_main_arg5 : Q12 m c (Proc.devRef .tc main_arg5) = (m ((c.tc : Thread nD τ).loc main_arg5)) :=
  (r11_keep_main_arg5 (Q11 m c)).trans (J10_main_arg5 m c)

theorem J11_main_arg6 : Q12 m c (Proc.devRef .tc main_arg6) = (m ((c.tc : Thread nD τ).loc main_arg6)) :=
  (r11_keep_main_arg6 (Q11 m c)).trans (J10_main_arg6 m c)

theorem J11_main_arg7 : Q12 m c (Proc.devRef .tc main_arg7) = (m ((c.tc : Thread nD τ).loc main_arg7)) :=
  (r11_keep_main_arg7 (Q11 m c)).trans (J10_main_arg7 m c)

theorem J11_main_arg8 : Q12 m c (Proc.devRef .tc main_arg8) = (m ((c.tc : Thread nD τ).loc main_arg8)) :=
  (r11_keep_main_arg8 (Q11 m c)).trans (J10_main_arg8 m c)

theorem J11_main_arg9 : Q12 m c (Proc.devRef .tc main_arg9) = (m ((c.tc : Thread nD τ).loc main_arg9)) :=
  (r11_keep_main_arg9 (Q11 m c)).trans (J10_main_arg9 m c)

theorem J11_main_arg10 : Q12 m c (Proc.devRef .tc main_arg10) = (m ((c.tc : Thread nD τ).loc main_arg10)) :=
  (r11_keep_main_arg10 (Q11 m c)).trans (J10_main_arg10 m c)

theorem J11_main_arg11 : Q12 m c (Proc.devRef .tc main_arg11) = (m ((c.tc : Thread nD τ).loc main_arg11)) :=
  (r11_keep_main_arg11 (Q11 m c)).trans (J10_main_arg11 m c)

theorem J11_main_arg12 : Q12 m c (Proc.devRef .tc main_arg12) = (m ((c.tc : Thread nD τ).loc main_arg12)) :=
  (r11_keep_main_arg12 (Q11 m c)).trans (J10_main_arg12 m c)

theorem J11_main_arg13 : Q12 m c (Proc.devRef .tc main_arg13) = (m ((c.tc : Thread nD τ).loc main_arg13)) :=
  (r11_keep_main_arg13 (Q11 m c)).trans (J10_main_arg13 m c)

theorem J11_main_arg14 : Q12 m c (Proc.devRef .tc main_arg14) = (m ((c.tc : Thread nD τ).loc main_arg14)) :=
  (r11_keep_main_arg14 (Q11 m c)).trans (J10_main_arg14 m c)

theorem J11_main_arg15 : Q12 m c (Proc.devRef .tc main_arg15) = (m ((c.tc : Thread nD τ).loc main_arg15)) :=
  (r11_keep_main_arg15 (Q11 m c)).trans (J10_main_arg15 m c)

theorem J11_main_arg16 : Q12 m c (Proc.devRef .tc main_arg16) = (m ((c.tc : Thread nD τ).loc main_arg16)) :=
  (r11_keep_main_arg16 (Q11 m c)).trans (J10_main_arg16 m c)

theorem J11_main_arg17 : Q12 m c (Proc.devRef .tc main_arg17) = (m ((c.tc : Thread nD τ).loc main_arg17)) :=
  (r11_keep_main_arg17 (Q11 m c)).trans (J10_main_arg17 m c)

theorem J11_main_arg18 : Q12 m c (Proc.devRef .tc main_arg18) = (m ((c.tc : Thread nD τ).loc main_arg18)) :=
  (r11_keep_main_arg18 (Q11 m c)).trans (J10_main_arg18 m c)

theorem J11_main_arg19 : Q12 m c (Proc.devRef .tc main_arg19) = (m ((c.tc : Thread nD τ).loc main_arg19)) :=
  (r11_keep_main_arg19 (Q11 m c)).trans (J10_main_arg19 m c)

theorem J11_main_arg20 : Q12 m c (Proc.devRef .tc main_arg20) = (m ((c.tc : Thread nD τ).loc main_arg20)) :=
  (r11_keep_main_arg20 (Q11 m c)).trans (J10_main_arg20 m c)

theorem J11_main_arg21 : Q12 m c (Proc.devRef .tc main_arg21) = (m ((c.tc : Thread nD τ).loc main_arg21)) :=
  (r11_keep_main_arg21 (Q11 m c)).trans (J10_main_arg21 m c)

theorem J11_main_arg22 : Q12 m c (Proc.devRef .tc main_arg22) = (m ((c.tc : Thread nD τ).loc main_arg22)) :=
  (r11_keep_main_arg22 (Q11 m c)).trans (J10_main_arg22 m c)

theorem J11_main_arg23 : Q12 m c (Proc.devRef .tc main_arg23) = (m ((c.tc : Thread nD τ).loc main_arg23)) :=
  (r11_keep_main_arg23 (Q11 m c)).trans (J10_main_arg23 m c)

theorem J11_main_arg24 : Q12 m c (Proc.devRef .tc main_arg24) = (m ((c.tc : Thread nD τ).loc main_arg24)) :=
  (r11_keep_main_arg24 (Q11 m c)).trans (J10_main_arg24 m c)

theorem J11_main_arg25 : Q12 m c (Proc.devRef .tc main_arg25) = (m ((c.tc : Thread nD τ).loc main_arg25)) :=
  (r11_keep_main_arg25 (Q11 m c)).trans (J10_main_arg25 m c)

theorem J11_main_arg26 : Q12 m c (Proc.devRef .tc main_arg26) = (m ((c.tc : Thread nD τ).loc main_arg26)) :=
  (r11_keep_main_arg26 (Q11 m c)).trans (J10_main_arg26 m c)

theorem J11_main_arg27 : Q12 m c (Proc.devRef .tc main_arg27) = (m ((c.tc : Thread nD τ).loc main_arg27)) :=
  (r11_keep_main_arg27 (Q11 m c)).trans (J10_main_arg27 m c)

theorem J11_main_arg28 : Q12 m c (Proc.devRef .tc main_arg28) = (m ((c.tc : Thread nD τ).loc main_arg28)) :=
  (r11_keep_main_arg28 (Q11 m c)).trans (J10_main_arg28 m c)

theorem J12_main_v1 : Q13 m c (Proc.devRef .tc main_v1) = val_main_v1 (F := Ideal) (m ((c.tc : Thread nD τ).loc main_arg1)) :=
  (r12_keep_main_v1 (Q12 m c)).trans (J11_main_v1 m c)

theorem J12_main_v3 : Q13 m c (Proc.devRef .tc main_v3) = val_main_v3 (F := Ideal) (m ((c.tc : Thread nD τ).loc main_arg1)) :=
  (r12_keep_main_v3 (Q12 m c)).trans (J11_main_v3 m c)

theorem J12_main_v5 : Q13 m c (Proc.devRef .tc main_v5) = val_main_v5 (F := Ideal) (m ((c.tc : Thread nD τ).loc main_arg2)) :=
  (r12_keep_main_v5 (Q12 m c)).trans (J11_main_v5 m c)

theorem J12_main_v7 : Q13 m c (Proc.devRef .tc main_v7) = val_main_v7 (F := Ideal) (m ((c.tc : Thread nD τ).loc main_arg2)) :=
  (r12_keep_main_v7 (Q12 m c)).trans (J11_main_v7 m c)

theorem J12_main_v16 : Q13 m c (Proc.devRef .tc main_v16) = val_main_v16 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (r12_keep_main_v16 (Q12 m c)).trans (J11_main_v16 m c)

theorem J12_main_v60 : Q13 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r12_keep_main_v60 (Q12 m c)).trans (J11_main_v60 m c)

theorem J12_main_v62 : Q13 m c (Proc.devRef .tc main_v62) = val_main_v62 (F := Ideal) (m ((c.tc : Thread nD τ).loc main_arg2)) :=
  (r12_keep_main_v62 (Q12 m c)).trans (J11_main_v62 m c)

theorem J12_main_v63 : Q13 m c (Proc.devRef .tc main_v63) = val_main_v63 (F := Ideal) (m ((c.tc : Thread nD τ).loc main_arg2)) :=
  (r12_keep_main_v63 (Q12 m c)).trans (J11_main_v63 m c)

theorem J12_main_v86 : Q13 m c (Proc.devRef .tc main_v86) = val_main_v86 (F := Ideal) (m ((c.tc : Thread nD τ).loc main_arg2)) :=
  r12_main_v86 (Q12 m c) (J11_main_v71 m c) (J11_main_v62 m c) (J11_main_v63 m c)

theorem J12_main_arg0 : Q13 m c (Proc.devRef .tc main_arg0) = (m ((c.tc : Thread nD τ).loc main_arg0)) :=
  (r12_keep_main_arg0 (Q12 m c)).trans (J11_main_arg0 m c)

theorem J12_main_arg1 : Q13 m c (Proc.devRef .tc main_arg1) = (m ((c.tc : Thread nD τ).loc main_arg1)) :=
  (r12_keep_main_arg1 (Q12 m c)).trans (J11_main_arg1 m c)

theorem J12_main_arg2 : Q13 m c (Proc.devRef .tc main_arg2) = (m ((c.tc : Thread nD τ).loc main_arg2)) :=
  (r12_keep_main_arg2 (Q12 m c)).trans (J11_main_arg2 m c)

theorem J12_main_arg3 : Q13 m c (Proc.devRef .tc main_arg3) = (m ((c.tc : Thread nD τ).loc main_arg3)) :=
  (r12_keep_main_arg3 (Q12 m c)).trans (J11_main_arg3 m c)

theorem J12_main_arg4 : Q13 m c (Proc.devRef .tc main_arg4) = (m ((c.tc : Thread nD τ).loc main_arg4)) :=
  (r12_keep_main_arg4 (Q12 m c)).trans (J11_main_arg4 m c)

theorem J12_main_arg5 : Q13 m c (Proc.devRef .tc main_arg5) = (m ((c.tc : Thread nD τ).loc main_arg5)) :=
  (r12_keep_main_arg5 (Q12 m c)).trans (J11_main_arg5 m c)

theorem J12_main_arg6 : Q13 m c (Proc.devRef .tc main_arg6) = (m ((c.tc : Thread nD τ).loc main_arg6)) :=
  (r12_keep_main_arg6 (Q12 m c)).trans (J11_main_arg6 m c)

theorem J12_main_arg7 : Q13 m c (Proc.devRef .tc main_arg7) = (m ((c.tc : Thread nD τ).loc main_arg7)) :=
  (r12_keep_main_arg7 (Q12 m c)).trans (J11_main_arg7 m c)

theorem J12_main_arg8 : Q13 m c (Proc.devRef .tc main_arg8) = (m ((c.tc : Thread nD τ).loc main_arg8)) :=
  (r12_keep_main_arg8 (Q12 m c)).trans (J11_main_arg8 m c)

theorem J12_main_arg9 : Q13 m c (Proc.devRef .tc main_arg9) = (m ((c.tc : Thread nD τ).loc main_arg9)) :=
  (r12_keep_main_arg9 (Q12 m c)).trans (J11_main_arg9 m c)

theorem J12_main_arg10 : Q13 m c (Proc.devRef .tc main_arg10) = (m ((c.tc : Thread nD τ).loc main_arg10)) :=
  (r12_keep_main_arg10 (Q12 m c)).trans (J11_main_arg10 m c)

theorem J12_main_arg11 : Q13 m c (Proc.devRef .tc main_arg11) = (m ((c.tc : Thread nD τ).loc main_arg11)) :=
  (r12_keep_main_arg11 (Q12 m c)).trans (J11_main_arg11 m c)

theorem J12_main_arg12 : Q13 m c (Proc.devRef .tc main_arg12) = (m ((c.tc : Thread nD τ).loc main_arg12)) :=
  (r12_keep_main_arg12 (Q12 m c)).trans (J11_main_arg12 m c)

theorem J12_main_arg13 : Q13 m c (Proc.devRef .tc main_arg13) = (m ((c.tc : Thread nD τ).loc main_arg13)) :=
  (r12_keep_main_arg13 (Q12 m c)).trans (J11_main_arg13 m c)

theorem J12_main_arg14 : Q13 m c (Proc.devRef .tc main_arg14) = (m ((c.tc : Thread nD τ).loc main_arg14)) :=
  (r12_keep_main_arg14 (Q12 m c)).trans (J11_main_arg14 m c)

theorem J12_main_arg15 : Q13 m c (Proc.devRef .tc main_arg15) = (m ((c.tc : Thread nD τ).loc main_arg15)) :=
  (r12_keep_main_arg15 (Q12 m c)).trans (J11_main_arg15 m c)

theorem J12_main_arg16 : Q13 m c (Proc.devRef .tc main_arg16) = (m ((c.tc : Thread nD τ).loc main_arg16)) :=
  (r12_keep_main_arg16 (Q12 m c)).trans (J11_main_arg16 m c)

theorem J12_main_arg17 : Q13 m c (Proc.devRef .tc main_arg17) = (m ((c.tc : Thread nD τ).loc main_arg17)) :=
  (r12_keep_main_arg17 (Q12 m c)).trans (J11_main_arg17 m c)

theorem J12_main_arg18 : Q13 m c (Proc.devRef .tc main_arg18) = (m ((c.tc : Thread nD τ).loc main_arg18)) :=
  (r12_keep_main_arg18 (Q12 m c)).trans (J11_main_arg18 m c)

theorem J12_main_arg19 : Q13 m c (Proc.devRef .tc main_arg19) = (m ((c.tc : Thread nD τ).loc main_arg19)) :=
  (r12_keep_main_arg19 (Q12 m c)).trans (J11_main_arg19 m c)

theorem J12_main_arg20 : Q13 m c (Proc.devRef .tc main_arg20) = (m ((c.tc : Thread nD τ).loc main_arg20)) :=
  (r12_keep_main_arg20 (Q12 m c)).trans (J11_main_arg20 m c)

theorem J12_main_arg21 : Q13 m c (Proc.devRef .tc main_arg21) = (m ((c.tc : Thread nD τ).loc main_arg21)) :=
  (r12_keep_main_arg21 (Q12 m c)).trans (J11_main_arg21 m c)

theorem J12_main_arg22 : Q13 m c (Proc.devRef .tc main_arg22) = (m ((c.tc : Thread nD τ).loc main_arg22)) :=
  (r12_keep_main_arg22 (Q12 m c)).trans (J11_main_arg22 m c)

theorem J12_main_arg23 : Q13 m c (Proc.devRef .tc main_arg23) = (m ((c.tc : Thread nD τ).loc main_arg23)) :=
  (r12_keep_main_arg23 (Q12 m c)).trans (J11_main_arg23 m c)

theorem J12_main_arg24 : Q13 m c (Proc.devRef .tc main_arg24) = (m ((c.tc : Thread nD τ).loc main_arg24)) :=
  (r12_keep_main_arg24 (Q12 m c)).trans (J11_main_arg24 m c)

theorem J12_main_arg25 : Q13 m c (Proc.devRef .tc main_arg25) = (m ((c.tc : Thread nD τ).loc main_arg25)) :=
  (r12_keep_main_arg25 (Q12 m c)).trans (J11_main_arg25 m c)

theorem J12_main_arg26 : Q13 m c (Proc.devRef .tc main_arg26) = (m ((c.tc : Thread nD τ).loc main_arg26)) :=
  (r12_keep_main_arg26 (Q12 m c)).trans (J11_main_arg26 m c)

theorem J12_main_arg27 : Q13 m c (Proc.devRef .tc main_arg27) = (m ((c.tc : Thread nD τ).loc main_arg27)) :=
  (r12_keep_main_arg27 (Q12 m c)).trans (J11_main_arg27 m c)

theorem J12_main_arg28 : Q13 m c (Proc.devRef .tc main_arg28) = (m ((c.tc : Thread nD τ).loc main_arg28)) :=
  (r12_keep_main_arg28 (Q12 m c)).trans (J11_main_arg28 m c)

theorem J13_main_v1 : Q14 m c (Proc.devRef .tc main_v1) = val_main_v1 (F := Ideal) (m ((c.tc : Thread nD τ).loc main_arg1)) :=
  (r13_keep_main_v1 (Q13 m c)).trans (J12_main_v1 m c)

theorem J13_main_v3 : Q14 m c (Proc.devRef .tc main_v3) = val_main_v3 (F := Ideal) (m ((c.tc : Thread nD τ).loc main_arg1)) :=
  (r13_keep_main_v3 (Q13 m c)).trans (J12_main_v3 m c)

theorem J13_main_v5 : Q14 m c (Proc.devRef .tc main_v5) = val_main_v5 (F := Ideal) (m ((c.tc : Thread nD τ).loc main_arg2)) :=
  (r13_keep_main_v5 (Q13 m c)).trans (J12_main_v5 m c)

theorem J13_main_v7 : Q14 m c (Proc.devRef .tc main_v7) = val_main_v7 (F := Ideal) (m ((c.tc : Thread nD τ).loc main_arg2)) :=
  (r13_keep_main_v7 (Q13 m c)).trans (J12_main_v7 m c)

theorem J13_main_v60 : Q14 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r13_keep_main_v60 (Q13 m c)).trans (J12_main_v60 m c)

theorem J13_main_v62 : Q14 m c (Proc.devRef .tc main_v62) = val_main_v62 (F := Ideal) (m ((c.tc : Thread nD τ).loc main_arg2)) :=
  (r13_keep_main_v62 (Q13 m c)).trans (J12_main_v62 m c)

theorem J13_main_v63 : Q14 m c (Proc.devRef .tc main_v63) = val_main_v63 (F := Ideal) (m ((c.tc : Thread nD τ).loc main_arg2)) :=
  (r13_keep_main_v63 (Q13 m c)).trans (J12_main_v63 m c)

theorem J13_main_v86 : Q14 m c (Proc.devRef .tc main_v86) = val_main_v86 (F := Ideal) (m ((c.tc : Thread nD τ).loc main_arg2)) :=
  (r13_keep_main_v86 (Q13 m c)).trans (J12_main_v86 m c)

theorem J13_main_v87 : Q14 m c (Proc.devRef .tc main_v87) = val_main_v87 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) :=
  r13_main_v87 (Q13 m c) (J12_main_v16 m c) (J12_main_arg11 m c)

theorem J13_main_arg0 : Q14 m c (Proc.devRef .tc main_arg0) = (m ((c.tc : Thread nD τ).loc main_arg0)) :=
  (r13_keep_main_arg0 (Q13 m c)).trans (J12_main_arg0 m c)

theorem J13_main_arg1 : Q14 m c (Proc.devRef .tc main_arg1) = (m ((c.tc : Thread nD τ).loc main_arg1)) :=
  (r13_keep_main_arg1 (Q13 m c)).trans (J12_main_arg1 m c)

theorem J13_main_arg2 : Q14 m c (Proc.devRef .tc main_arg2) = (m ((c.tc : Thread nD τ).loc main_arg2)) :=
  (r13_keep_main_arg2 (Q13 m c)).trans (J12_main_arg2 m c)

theorem J13_main_arg3 : Q14 m c (Proc.devRef .tc main_arg3) = (m ((c.tc : Thread nD τ).loc main_arg3)) :=
  (r13_keep_main_arg3 (Q13 m c)).trans (J12_main_arg3 m c)

theorem J13_main_arg4 : Q14 m c (Proc.devRef .tc main_arg4) = (m ((c.tc : Thread nD τ).loc main_arg4)) :=
  (r13_keep_main_arg4 (Q13 m c)).trans (J12_main_arg4 m c)

theorem J13_main_arg5 : Q14 m c (Proc.devRef .tc main_arg5) = (m ((c.tc : Thread nD τ).loc main_arg5)) :=
  (r13_keep_main_arg5 (Q13 m c)).trans (J12_main_arg5 m c)

theorem J13_main_arg6 : Q14 m c (Proc.devRef .tc main_arg6) = (m ((c.tc : Thread nD τ).loc main_arg6)) :=
  (r13_keep_main_arg6 (Q13 m c)).trans (J12_main_arg6 m c)

theorem J13_main_arg7 : Q14 m c (Proc.devRef .tc main_arg7) = (m ((c.tc : Thread nD τ).loc main_arg7)) :=
  (r13_keep_main_arg7 (Q13 m c)).trans (J12_main_arg7 m c)

theorem J13_main_arg8 : Q14 m c (Proc.devRef .tc main_arg8) = (m ((c.tc : Thread nD τ).loc main_arg8)) :=
  (r13_keep_main_arg8 (Q13 m c)).trans (J12_main_arg8 m c)

theorem J13_main_arg9 : Q14 m c (Proc.devRef .tc main_arg9) = (m ((c.tc : Thread nD τ).loc main_arg9)) :=
  (r13_keep_main_arg9 (Q13 m c)).trans (J12_main_arg9 m c)

theorem J13_main_arg10 : Q14 m c (Proc.devRef .tc main_arg10) = (m ((c.tc : Thread nD τ).loc main_arg10)) :=
  (r13_keep_main_arg10 (Q13 m c)).trans (J12_main_arg10 m c)

theorem J13_main_arg11 : Q14 m c (Proc.devRef .tc main_arg11) = (m ((c.tc : Thread nD τ).loc main_arg11)) :=
  (r13_keep_main_arg11 (Q13 m c)).trans (J12_main_arg11 m c)

theorem J13_main_arg12 : Q14 m c (Proc.devRef .tc main_arg12) = (m ((c.tc : Thread nD τ).loc main_arg12)) :=
  (r13_keep_main_arg12 (Q13 m c)).trans (J12_main_arg12 m c)

theorem J13_main_arg13 : Q14 m c (Proc.devRef .tc main_arg13) = (m ((c.tc : Thread nD τ).loc main_arg13)) :=
  (r13_keep_main_arg13 (Q13 m c)).trans (J12_main_arg13 m c)

theorem J13_main_arg14 : Q14 m c (Proc.devRef .tc main_arg14) = (m ((c.tc : Thread nD τ).loc main_arg14)) :=
  (r13_keep_main_arg14 (Q13 m c)).trans (J12_main_arg14 m c)

theorem J13_main_arg15 : Q14 m c (Proc.devRef .tc main_arg15) = (m ((c.tc : Thread nD τ).loc main_arg15)) :=
  (r13_keep_main_arg15 (Q13 m c)).trans (J12_main_arg15 m c)

theorem J13_main_arg16 : Q14 m c (Proc.devRef .tc main_arg16) = (m ((c.tc : Thread nD τ).loc main_arg16)) :=
  (r13_keep_main_arg16 (Q13 m c)).trans (J12_main_arg16 m c)

theorem J13_main_arg17 : Q14 m c (Proc.devRef .tc main_arg17) = (m ((c.tc : Thread nD τ).loc main_arg17)) :=
  (r13_keep_main_arg17 (Q13 m c)).trans (J12_main_arg17 m c)

theorem J13_main_arg18 : Q14 m c (Proc.devRef .tc main_arg18) = (m ((c.tc : Thread nD τ).loc main_arg18)) :=
  (r13_keep_main_arg18 (Q13 m c)).trans (J12_main_arg18 m c)

theorem J13_main_arg19 : Q14 m c (Proc.devRef .tc main_arg19) = (m ((c.tc : Thread nD τ).loc main_arg19)) :=
  (r13_keep_main_arg19 (Q13 m c)).trans (J12_main_arg19 m c)

theorem J13_main_arg20 : Q14 m c (Proc.devRef .tc main_arg20) = (m ((c.tc : Thread nD τ).loc main_arg20)) :=
  (r13_keep_main_arg20 (Q13 m c)).trans (J12_main_arg20 m c)

theorem J13_main_arg21 : Q14 m c (Proc.devRef .tc main_arg21) = (m ((c.tc : Thread nD τ).loc main_arg21)) :=
  (r13_keep_main_arg21 (Q13 m c)).trans (J12_main_arg21 m c)

theorem J13_main_arg22 : Q14 m c (Proc.devRef .tc main_arg22) = (m ((c.tc : Thread nD τ).loc main_arg22)) :=
  (r13_keep_main_arg22 (Q13 m c)).trans (J12_main_arg22 m c)

theorem J13_main_arg23 : Q14 m c (Proc.devRef .tc main_arg23) = (m ((c.tc : Thread nD τ).loc main_arg23)) :=
  (r13_keep_main_arg23 (Q13 m c)).trans (J12_main_arg23 m c)

theorem J13_main_arg24 : Q14 m c (Proc.devRef .tc main_arg24) = (m ((c.tc : Thread nD τ).loc main_arg24)) :=
  (r13_keep_main_arg24 (Q13 m c)).trans (J12_main_arg24 m c)

theorem J13_main_arg25 : Q14 m c (Proc.devRef .tc main_arg25) = (m ((c.tc : Thread nD τ).loc main_arg25)) :=
  (r13_keep_main_arg25 (Q13 m c)).trans (J12_main_arg25 m c)

theorem J13_main_arg26 : Q14 m c (Proc.devRef .tc main_arg26) = (m ((c.tc : Thread nD τ).loc main_arg26)) :=
  (r13_keep_main_arg26 (Q13 m c)).trans (J12_main_arg26 m c)

theorem J13_main_arg27 : Q14 m c (Proc.devRef .tc main_arg27) = (m ((c.tc : Thread nD τ).loc main_arg27)) :=
  (r13_keep_main_arg27 (Q13 m c)).trans (J12_main_arg27 m c)

theorem J13_main_arg28 : Q14 m c (Proc.devRef .tc main_arg28) = (m ((c.tc : Thread nD τ).loc main_arg28)) :=
  (r13_keep_main_arg28 (Q13 m c)).trans (J12_main_arg28 m c)

theorem J14_main_v1 : Q15 m c (Proc.devRef .tc main_v1) = val_main_v1 (F := Ideal) (m ((c.tc : Thread nD τ).loc main_arg1)) :=
  (r14_keep_main_v1 (Q14 m c)).trans (J13_main_v1 m c)

theorem J14_main_v3 : Q15 m c (Proc.devRef .tc main_v3) = val_main_v3 (F := Ideal) (m ((c.tc : Thread nD τ).loc main_arg1)) :=
  (r14_keep_main_v3 (Q14 m c)).trans (J13_main_v3 m c)

theorem J14_main_v5 : Q15 m c (Proc.devRef .tc main_v5) = val_main_v5 (F := Ideal) (m ((c.tc : Thread nD τ).loc main_arg2)) :=
  (r14_keep_main_v5 (Q14 m c)).trans (J13_main_v5 m c)

theorem J14_main_v7 : Q15 m c (Proc.devRef .tc main_v7) = val_main_v7 (F := Ideal) (m ((c.tc : Thread nD τ).loc main_arg2)) :=
  (r14_keep_main_v7 (Q14 m c)).trans (J13_main_v7 m c)

theorem J14_main_v60 : Q15 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r14_keep_main_v60 (Q14 m c)).trans (J13_main_v60 m c)

theorem J14_main_v103 : Q15 m c (Proc.devRef .tc main_v103) = val_main_v103 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  r14_main_v103 (Q14 m c) (J13_main_v63 m c) (J13_main_v87 m c) (J13_main_v62 m c) (J13_main_v86 m c) (J13_main_arg12 m c)

theorem J14_main_arg0 : Q15 m c (Proc.devRef .tc main_arg0) = (m ((c.tc : Thread nD τ).loc main_arg0)) :=
  (r14_keep_main_arg0 (Q14 m c)).trans (J13_main_arg0 m c)

theorem J14_main_arg1 : Q15 m c (Proc.devRef .tc main_arg1) = (m ((c.tc : Thread nD τ).loc main_arg1)) :=
  (r14_keep_main_arg1 (Q14 m c)).trans (J13_main_arg1 m c)

theorem J14_main_arg2 : Q15 m c (Proc.devRef .tc main_arg2) = (m ((c.tc : Thread nD τ).loc main_arg2)) :=
  (r14_keep_main_arg2 (Q14 m c)).trans (J13_main_arg2 m c)

theorem J14_main_arg3 : Q15 m c (Proc.devRef .tc main_arg3) = (m ((c.tc : Thread nD τ).loc main_arg3)) :=
  (r14_keep_main_arg3 (Q14 m c)).trans (J13_main_arg3 m c)

theorem J14_main_arg4 : Q15 m c (Proc.devRef .tc main_arg4) = (m ((c.tc : Thread nD τ).loc main_arg4)) :=
  (r14_keep_main_arg4 (Q14 m c)).trans (J13_main_arg4 m c)

theorem J14_main_arg5 : Q15 m c (Proc.devRef .tc main_arg5) = (m ((c.tc : Thread nD τ).loc main_arg5)) :=
  (r14_keep_main_arg5 (Q14 m c)).trans (J13_main_arg5 m c)

theorem J14_main_arg6 : Q15 m c (Proc.devRef .tc main_arg6) = (m ((c.tc : Thread nD τ).loc main_arg6)) :=
  (r14_keep_main_arg6 (Q14 m c)).trans (J13_main_arg6 m c)

theorem J14_main_arg7 : Q15 m c (Proc.devRef .tc main_arg7) = (m ((c.tc : Thread nD τ).loc main_arg7)) :=
  (r14_keep_main_arg7 (Q14 m c)).trans (J13_main_arg7 m c)

theorem J14_main_arg8 : Q15 m c (Proc.devRef .tc main_arg8) = (m ((c.tc : Thread nD τ).loc main_arg8)) :=
  (r14_keep_main_arg8 (Q14 m c)).trans (J13_main_arg8 m c)

theorem J14_main_arg9 : Q15 m c (Proc.devRef .tc main_arg9) = (m ((c.tc : Thread nD τ).loc main_arg9)) :=
  (r14_keep_main_arg9 (Q14 m c)).trans (J13_main_arg9 m c)

theorem J14_main_arg10 : Q15 m c (Proc.devRef .tc main_arg10) = (m ((c.tc : Thread nD τ).loc main_arg10)) :=
  (r14_keep_main_arg10 (Q14 m c)).trans (J13_main_arg10 m c)

theorem J14_main_arg11 : Q15 m c (Proc.devRef .tc main_arg11) = (m ((c.tc : Thread nD τ).loc main_arg11)) :=
  (r14_keep_main_arg11 (Q14 m c)).trans (J13_main_arg11 m c)

theorem J14_main_arg12 : Q15 m c (Proc.devRef .tc main_arg12) = (m ((c.tc : Thread nD τ).loc main_arg12)) :=
  (r14_keep_main_arg12 (Q14 m c)).trans (J13_main_arg12 m c)

theorem J14_main_arg13 : Q15 m c (Proc.devRef .tc main_arg13) = (m ((c.tc : Thread nD τ).loc main_arg13)) :=
  (r14_keep_main_arg13 (Q14 m c)).trans (J13_main_arg13 m c)

theorem J14_main_arg14 : Q15 m c (Proc.devRef .tc main_arg14) = (m ((c.tc : Thread nD τ).loc main_arg14)) :=
  (r14_keep_main_arg14 (Q14 m c)).trans (J13_main_arg14 m c)

theorem J14_main_arg15 : Q15 m c (Proc.devRef .tc main_arg15) = (m ((c.tc : Thread nD τ).loc main_arg15)) :=
  (r14_keep_main_arg15 (Q14 m c)).trans (J13_main_arg15 m c)

theorem J14_main_arg16 : Q15 m c (Proc.devRef .tc main_arg16) = (m ((c.tc : Thread nD τ).loc main_arg16)) :=
  (r14_keep_main_arg16 (Q14 m c)).trans (J13_main_arg16 m c)

theorem J14_main_arg17 : Q15 m c (Proc.devRef .tc main_arg17) = (m ((c.tc : Thread nD τ).loc main_arg17)) :=
  (r14_keep_main_arg17 (Q14 m c)).trans (J13_main_arg17 m c)

theorem J14_main_arg18 : Q15 m c (Proc.devRef .tc main_arg18) = (m ((c.tc : Thread nD τ).loc main_arg18)) :=
  (r14_keep_main_arg18 (Q14 m c)).trans (J13_main_arg18 m c)

theorem J14_main_arg19 : Q15 m c (Proc.devRef .tc main_arg19) = (m ((c.tc : Thread nD τ).loc main_arg19)) :=
  (r14_keep_main_arg19 (Q14 m c)).trans (J13_main_arg19 m c)

theorem J14_main_arg20 : Q15 m c (Proc.devRef .tc main_arg20) = (m ((c.tc : Thread nD τ).loc main_arg20)) :=
  (r14_keep_main_arg20 (Q14 m c)).trans (J13_main_arg20 m c)

theorem J14_main_arg21 : Q15 m c (Proc.devRef .tc main_arg21) = (m ((c.tc : Thread nD τ).loc main_arg21)) :=
  (r14_keep_main_arg21 (Q14 m c)).trans (J13_main_arg21 m c)

theorem J14_main_arg22 : Q15 m c (Proc.devRef .tc main_arg22) = (m ((c.tc : Thread nD τ).loc main_arg22)) :=
  (r14_keep_main_arg22 (Q14 m c)).trans (J13_main_arg22 m c)

theorem J14_main_arg23 : Q15 m c (Proc.devRef .tc main_arg23) = (m ((c.tc : Thread nD τ).loc main_arg23)) :=
  (r14_keep_main_arg23 (Q14 m c)).trans (J13_main_arg23 m c)

theorem J14_main_arg24 : Q15 m c (Proc.devRef .tc main_arg24) = (m ((c.tc : Thread nD τ).loc main_arg24)) :=
  (r14_keep_main_arg24 (Q14 m c)).trans (J13_main_arg24 m c)

theorem J14_main_arg25 : Q15 m c (Proc.devRef .tc main_arg25) = (m ((c.tc : Thread nD τ).loc main_arg25)) :=
  (r14_keep_main_arg25 (Q14 m c)).trans (J13_main_arg25 m c)

theorem J14_main_arg26 : Q15 m c (Proc.devRef .tc main_arg26) = (m ((c.tc : Thread nD τ).loc main_arg26)) :=
  (r14_keep_main_arg26 (Q14 m c)).trans (J13_main_arg26 m c)

theorem J14_main_arg27 : Q15 m c (Proc.devRef .tc main_arg27) = (m ((c.tc : Thread nD τ).loc main_arg27)) :=
  (r14_keep_main_arg27 (Q14 m c)).trans (J13_main_arg27 m c)

theorem J14_main_arg28 : Q15 m c (Proc.devRef .tc main_arg28) = (m ((c.tc : Thread nD τ).loc main_arg28)) :=
  (r14_keep_main_arg28 (Q14 m c)).trans (J13_main_arg28 m c)

theorem J15_main_v1 : Q16 m c (Proc.devRef .tc main_v1) = val_main_v1 (F := Ideal) (m ((c.tc : Thread nD τ).loc main_arg1)) :=
  (r15_keep_main_v1 (Q15 m c)).trans (J14_main_v1 m c)

theorem J15_main_v3 : Q16 m c (Proc.devRef .tc main_v3) = val_main_v3 (F := Ideal) (m ((c.tc : Thread nD τ).loc main_arg1)) :=
  (r15_keep_main_v3 (Q15 m c)).trans (J14_main_v3 m c)

theorem J15_main_v5 : Q16 m c (Proc.devRef .tc main_v5) = val_main_v5 (F := Ideal) (m ((c.tc : Thread nD τ).loc main_arg2)) :=
  (r15_keep_main_v5 (Q15 m c)).trans (J14_main_v5 m c)

theorem J15_main_v7 : Q16 m c (Proc.devRef .tc main_v7) = val_main_v7 (F := Ideal) (m ((c.tc : Thread nD τ).loc main_arg2)) :=
  (r15_keep_main_v7 (Q15 m c)).trans (J14_main_v7 m c)

theorem J15_main_v60 : Q16 m c (Proc.devRef .tc main_v60) = val_main_v60 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r15_keep_main_v60 (Q15 m c)).trans (J14_main_v60 m c)

theorem J15_main_v104 : Q16 m c (Proc.devRef .tc main_v104) = val_main_v104 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  r15_main_v104 (Q15 m c) (J14_main_v103 m c)

theorem J15_main_arg0 : Q16 m c (Proc.devRef .tc main_arg0) = (m ((c.tc : Thread nD τ).loc main_arg0)) :=
  (r15_keep_main_arg0 (Q15 m c)).trans (J14_main_arg0 m c)

theorem J15_main_arg1 : Q16 m c (Proc.devRef .tc main_arg1) = (m ((c.tc : Thread nD τ).loc main_arg1)) :=
  (r15_keep_main_arg1 (Q15 m c)).trans (J14_main_arg1 m c)

theorem J15_main_arg2 : Q16 m c (Proc.devRef .tc main_arg2) = (m ((c.tc : Thread nD τ).loc main_arg2)) :=
  (r15_keep_main_arg2 (Q15 m c)).trans (J14_main_arg2 m c)

theorem J15_main_arg3 : Q16 m c (Proc.devRef .tc main_arg3) = (m ((c.tc : Thread nD τ).loc main_arg3)) :=
  (r15_keep_main_arg3 (Q15 m c)).trans (J14_main_arg3 m c)

theorem J15_main_arg4 : Q16 m c (Proc.devRef .tc main_arg4) = (m ((c.tc : Thread nD τ).loc main_arg4)) :=
  (r15_keep_main_arg4 (Q15 m c)).trans (J14_main_arg4 m c)

theorem J15_main_arg5 : Q16 m c (Proc.devRef .tc main_arg5) = (m ((c.tc : Thread nD τ).loc main_arg5)) :=
  (r15_keep_main_arg5 (Q15 m c)).trans (J14_main_arg5 m c)

theorem J15_main_arg6 : Q16 m c (Proc.devRef .tc main_arg6) = (m ((c.tc : Thread nD τ).loc main_arg6)) :=
  (r15_keep_main_arg6 (Q15 m c)).trans (J14_main_arg6 m c)

theorem J15_main_arg7 : Q16 m c (Proc.devRef .tc main_arg7) = (m ((c.tc : Thread nD τ).loc main_arg7)) :=
  (r15_keep_main_arg7 (Q15 m c)).trans (J14_main_arg7 m c)

theorem J15_main_arg8 : Q16 m c (Proc.devRef .tc main_arg8) = (m ((c.tc : Thread nD τ).loc main_arg8)) :=
  (r15_keep_main_arg8 (Q15 m c)).trans (J14_main_arg8 m c)

theorem J15_main_arg9 : Q16 m c (Proc.devRef .tc main_arg9) = (m ((c.tc : Thread nD τ).loc main_arg9)) :=
  (r15_keep_main_arg9 (Q15 m c)).trans (J14_main_arg9 m c)

theorem J15_main_arg10 : Q16 m c (Proc.devRef .tc main_arg10) = (m ((c.tc : Thread nD τ).loc main_arg10)) :=
  (r15_keep_main_arg10 (Q15 m c)).trans (J14_main_arg10 m c)

theorem J15_main_arg11 : Q16 m c (Proc.devRef .tc main_arg11) = (m ((c.tc : Thread nD τ).loc main_arg11)) :=
  (r15_keep_main_arg11 (Q15 m c)).trans (J14_main_arg11 m c)

theorem J15_main_arg12 : Q16 m c (Proc.devRef .tc main_arg12) = (m ((c.tc : Thread nD τ).loc main_arg12)) :=
  (r15_keep_main_arg12 (Q15 m c)).trans (J14_main_arg12 m c)

theorem J15_main_arg13 : Q16 m c (Proc.devRef .tc main_arg13) = (m ((c.tc : Thread nD τ).loc main_arg13)) :=
  (r15_keep_main_arg13 (Q15 m c)).trans (J14_main_arg13 m c)

theorem J15_main_arg14 : Q16 m c (Proc.devRef .tc main_arg14) = (m ((c.tc : Thread nD τ).loc main_arg14)) :=
  (r15_keep_main_arg14 (Q15 m c)).trans (J14_main_arg14 m c)

theorem J15_main_arg15 : Q16 m c (Proc.devRef .tc main_arg15) = (m ((c.tc : Thread nD τ).loc main_arg15)) :=
  (r15_keep_main_arg15 (Q15 m c)).trans (J14_main_arg15 m c)

theorem J15_main_arg16 : Q16 m c (Proc.devRef .tc main_arg16) = (m ((c.tc : Thread nD τ).loc main_arg16)) :=
  (r15_keep_main_arg16 (Q15 m c)).trans (J14_main_arg16 m c)

theorem J15_main_arg17 : Q16 m c (Proc.devRef .tc main_arg17) = (m ((c.tc : Thread nD τ).loc main_arg17)) :=
  (r15_keep_main_arg17 (Q15 m c)).trans (J14_main_arg17 m c)

theorem J15_main_arg18 : Q16 m c (Proc.devRef .tc main_arg18) = (m ((c.tc : Thread nD τ).loc main_arg18)) :=
  (r15_keep_main_arg18 (Q15 m c)).trans (J14_main_arg18 m c)

theorem J15_main_arg19 : Q16 m c (Proc.devRef .tc main_arg19) = (m ((c.tc : Thread nD τ).loc main_arg19)) :=
  (r15_keep_main_arg19 (Q15 m c)).trans (J14_main_arg19 m c)

theorem J15_main_arg20 : Q16 m c (Proc.devRef .tc main_arg20) = (m ((c.tc : Thread nD τ).loc main_arg20)) :=
  (r15_keep_main_arg20 (Q15 m c)).trans (J14_main_arg20 m c)

theorem J15_main_arg21 : Q16 m c (Proc.devRef .tc main_arg21) = (m ((c.tc : Thread nD τ).loc main_arg21)) :=
  (r15_keep_main_arg21 (Q15 m c)).trans (J14_main_arg21 m c)

theorem J15_main_arg22 : Q16 m c (Proc.devRef .tc main_arg22) = (m ((c.tc : Thread nD τ).loc main_arg22)) :=
  (r15_keep_main_arg22 (Q15 m c)).trans (J14_main_arg22 m c)

theorem J15_main_arg23 : Q16 m c (Proc.devRef .tc main_arg23) = (m ((c.tc : Thread nD τ).loc main_arg23)) :=
  (r15_keep_main_arg23 (Q15 m c)).trans (J14_main_arg23 m c)

theorem J15_main_arg24 : Q16 m c (Proc.devRef .tc main_arg24) = (m ((c.tc : Thread nD τ).loc main_arg24)) :=
  (r15_keep_main_arg24 (Q15 m c)).trans (J14_main_arg24 m c)

theorem J15_main_arg25 : Q16 m c (Proc.devRef .tc main_arg25) = (m ((c.tc : Thread nD τ).loc main_arg25)) :=
  (r15_keep_main_arg25 (Q15 m c)).trans (J14_main_arg25 m c)

theorem J15_main_arg26 : Q16 m c (Proc.devRef .tc main_arg26) = (m ((c.tc : Thread nD τ).loc main_arg26)) :=
  (r15_keep_main_arg26 (Q15 m c)).trans (J14_main_arg26 m c)

theorem J15_main_arg27 : Q16 m c (Proc.devRef .tc main_arg27) = (m ((c.tc : Thread nD τ).loc main_arg27)) :=
  (r15_keep_main_arg27 (Q15 m c)).trans (J14_main_arg27 m c)

theorem J15_main_arg28 : Q16 m c (Proc.devRef .tc main_arg28) = (m ((c.tc : Thread nD τ).loc main_arg28)) :=
  (r15_keep_main_arg28 (Q15 m c)).trans (J14_main_arg28 m c)

theorem J16_main_v1 : Q17 m c (Proc.devRef .tc main_v1) = val_main_v1 (F := Ideal) (m ((c.tc : Thread nD τ).loc main_arg1)) :=
  (r16_keep_main_v1 (Q16 m c)).trans (J15_main_v1 m c)

theorem J16_main_v3 : Q17 m c (Proc.devRef .tc main_v3) = val_main_v3 (F := Ideal) (m ((c.tc : Thread nD τ).loc main_arg1)) :=
  (r16_keep_main_v3 (Q16 m c)).trans (J15_main_v3 m c)

theorem J16_main_v5 : Q17 m c (Proc.devRef .tc main_v5) = val_main_v5 (F := Ideal) (m ((c.tc : Thread nD τ).loc main_arg2)) :=
  (r16_keep_main_v5 (Q16 m c)).trans (J15_main_v5 m c)

theorem J16_main_v7 : Q17 m c (Proc.devRef .tc main_v7) = val_main_v7 (F := Ideal) (m ((c.tc : Thread nD τ).loc main_arg2)) :=
  (r16_keep_main_v7 (Q16 m c)).trans (J15_main_v7 m c)

theorem J16_main_v105 : Q17 m c (Proc.devRef .tc main_v105) = val_main_v105 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  r16_main_v105 (Q16 m c) (J15_main_v60 m c) (J15_main_v104 m c)

theorem J16_main_arg0 : Q17 m c (Proc.devRef .tc main_arg0) = (m ((c.tc : Thread nD τ).loc main_arg0)) :=
  (r16_keep_main_arg0 (Q16 m c)).trans (J15_main_arg0 m c)

theorem J16_main_arg1 : Q17 m c (Proc.devRef .tc main_arg1) = (m ((c.tc : Thread nD τ).loc main_arg1)) :=
  (r16_keep_main_arg1 (Q16 m c)).trans (J15_main_arg1 m c)

theorem J16_main_arg2 : Q17 m c (Proc.devRef .tc main_arg2) = (m ((c.tc : Thread nD τ).loc main_arg2)) :=
  (r16_keep_main_arg2 (Q16 m c)).trans (J15_main_arg2 m c)

theorem J16_main_arg3 : Q17 m c (Proc.devRef .tc main_arg3) = (m ((c.tc : Thread nD τ).loc main_arg3)) :=
  (r16_keep_main_arg3 (Q16 m c)).trans (J15_main_arg3 m c)

theorem J16_main_arg4 : Q17 m c (Proc.devRef .tc main_arg4) = (m ((c.tc : Thread nD τ).loc main_arg4)) :=
  (r16_keep_main_arg4 (Q16 m c)).trans (J15_main_arg4 m c)

theorem J16_main_arg5 : Q17 m c (Proc.devRef .tc main_arg5) = (m ((c.tc : Thread nD τ).loc main_arg5)) :=
  (r16_keep_main_arg5 (Q16 m c)).trans (J15_main_arg5 m c)

theorem J16_main_arg6 : Q17 m c (Proc.devRef .tc main_arg6) = (m ((c.tc : Thread nD τ).loc main_arg6)) :=
  (r16_keep_main_arg6 (Q16 m c)).trans (J15_main_arg6 m c)

theorem J16_main_arg7 : Q17 m c (Proc.devRef .tc main_arg7) = (m ((c.tc : Thread nD τ).loc main_arg7)) :=
  (r16_keep_main_arg7 (Q16 m c)).trans (J15_main_arg7 m c)

theorem J16_main_arg8 : Q17 m c (Proc.devRef .tc main_arg8) = (m ((c.tc : Thread nD τ).loc main_arg8)) :=
  (r16_keep_main_arg8 (Q16 m c)).trans (J15_main_arg8 m c)

theorem J16_main_arg9 : Q17 m c (Proc.devRef .tc main_arg9) = (m ((c.tc : Thread nD τ).loc main_arg9)) :=
  (r16_keep_main_arg9 (Q16 m c)).trans (J15_main_arg9 m c)

theorem J16_main_arg10 : Q17 m c (Proc.devRef .tc main_arg10) = (m ((c.tc : Thread nD τ).loc main_arg10)) :=
  (r16_keep_main_arg10 (Q16 m c)).trans (J15_main_arg10 m c)

theorem J16_main_arg11 : Q17 m c (Proc.devRef .tc main_arg11) = (m ((c.tc : Thread nD τ).loc main_arg11)) :=
  (r16_keep_main_arg11 (Q16 m c)).trans (J15_main_arg11 m c)

theorem J16_main_arg12 : Q17 m c (Proc.devRef .tc main_arg12) = (m ((c.tc : Thread nD τ).loc main_arg12)) :=
  (r16_keep_main_arg12 (Q16 m c)).trans (J15_main_arg12 m c)

theorem J16_main_arg13 : Q17 m c (Proc.devRef .tc main_arg13) = (m ((c.tc : Thread nD τ).loc main_arg13)) :=
  (r16_keep_main_arg13 (Q16 m c)).trans (J15_main_arg13 m c)

theorem J16_main_arg14 : Q17 m c (Proc.devRef .tc main_arg14) = (m ((c.tc : Thread nD τ).loc main_arg14)) :=
  (r16_keep_main_arg14 (Q16 m c)).trans (J15_main_arg14 m c)

theorem J16_main_arg15 : Q17 m c (Proc.devRef .tc main_arg15) = (m ((c.tc : Thread nD τ).loc main_arg15)) :=
  (r16_keep_main_arg15 (Q16 m c)).trans (J15_main_arg15 m c)

theorem J16_main_arg16 : Q17 m c (Proc.devRef .tc main_arg16) = (m ((c.tc : Thread nD τ).loc main_arg16)) :=
  (r16_keep_main_arg16 (Q16 m c)).trans (J15_main_arg16 m c)

theorem J16_main_arg17 : Q17 m c (Proc.devRef .tc main_arg17) = (m ((c.tc : Thread nD τ).loc main_arg17)) :=
  (r16_keep_main_arg17 (Q16 m c)).trans (J15_main_arg17 m c)

theorem J16_main_arg18 : Q17 m c (Proc.devRef .tc main_arg18) = (m ((c.tc : Thread nD τ).loc main_arg18)) :=
  (r16_keep_main_arg18 (Q16 m c)).trans (J15_main_arg18 m c)

theorem J16_main_arg19 : Q17 m c (Proc.devRef .tc main_arg19) = (m ((c.tc : Thread nD τ).loc main_arg19)) :=
  (r16_keep_main_arg19 (Q16 m c)).trans (J15_main_arg19 m c)

theorem J16_main_arg20 : Q17 m c (Proc.devRef .tc main_arg20) = (m ((c.tc : Thread nD τ).loc main_arg20)) :=
  (r16_keep_main_arg20 (Q16 m c)).trans (J15_main_arg20 m c)

theorem J16_main_arg21 : Q17 m c (Proc.devRef .tc main_arg21) = (m ((c.tc : Thread nD τ).loc main_arg21)) :=
  (r16_keep_main_arg21 (Q16 m c)).trans (J15_main_arg21 m c)

theorem J16_main_arg22 : Q17 m c (Proc.devRef .tc main_arg22) = (m ((c.tc : Thread nD τ).loc main_arg22)) :=
  (r16_keep_main_arg22 (Q16 m c)).trans (J15_main_arg22 m c)

theorem J16_main_arg23 : Q17 m c (Proc.devRef .tc main_arg23) = (m ((c.tc : Thread nD τ).loc main_arg23)) :=
  (r16_keep_main_arg23 (Q16 m c)).trans (J15_main_arg23 m c)

theorem J16_main_arg24 : Q17 m c (Proc.devRef .tc main_arg24) = (m ((c.tc : Thread nD τ).loc main_arg24)) :=
  (r16_keep_main_arg24 (Q16 m c)).trans (J15_main_arg24 m c)

theorem J16_main_arg25 : Q17 m c (Proc.devRef .tc main_arg25) = (m ((c.tc : Thread nD τ).loc main_arg25)) :=
  (r16_keep_main_arg25 (Q16 m c)).trans (J15_main_arg25 m c)

theorem J16_main_arg26 : Q17 m c (Proc.devRef .tc main_arg26) = (m ((c.tc : Thread nD τ).loc main_arg26)) :=
  (r16_keep_main_arg26 (Q16 m c)).trans (J15_main_arg26 m c)

theorem J16_main_arg27 : Q17 m c (Proc.devRef .tc main_arg27) = (m ((c.tc : Thread nD τ).loc main_arg27)) :=
  (r16_keep_main_arg27 (Q16 m c)).trans (J15_main_arg27 m c)

theorem J16_main_arg28 : Q17 m c (Proc.devRef .tc main_arg28) = (m ((c.tc : Thread nD τ).loc main_arg28)) :=
  (r16_keep_main_arg28 (Q16 m c)).trans (J15_main_arg28 m c)

theorem J17_main_v1 : Q18 m c (Proc.devRef .tc main_v1) = val_main_v1 (F := Ideal) (m ((c.tc : Thread nD τ).loc main_arg1)) :=
  (r17_keep_main_v1 (Q17 m c)).trans (J16_main_v1 m c)

theorem J17_main_v3 : Q18 m c (Proc.devRef .tc main_v3) = val_main_v3 (F := Ideal) (m ((c.tc : Thread nD τ).loc main_arg1)) :=
  (r17_keep_main_v3 (Q17 m c)).trans (J16_main_v3 m c)

theorem J17_main_v5 : Q18 m c (Proc.devRef .tc main_v5) = val_main_v5 (F := Ideal) (m ((c.tc : Thread nD τ).loc main_arg2)) :=
  (r17_keep_main_v5 (Q17 m c)).trans (J16_main_v5 m c)

theorem J17_main_v7 : Q18 m c (Proc.devRef .tc main_v7) = val_main_v7 (F := Ideal) (m ((c.tc : Thread nD τ).loc main_arg2)) :=
  (r17_keep_main_v7 (Q17 m c)).trans (J16_main_v7 m c)

theorem J17_main_v109 : Q18 m c (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) :=
  r17_main_v109 (Q17 m c) (J16_main_v105 m c) (J16_main_arg17 m c) (J16_main_arg18 m c)

theorem J17_main_arg0 : Q18 m c (Proc.devRef .tc main_arg0) = (m ((c.tc : Thread nD τ).loc main_arg0)) :=
  (r17_keep_main_arg0 (Q17 m c)).trans (J16_main_arg0 m c)

theorem J17_main_arg1 : Q18 m c (Proc.devRef .tc main_arg1) = (m ((c.tc : Thread nD τ).loc main_arg1)) :=
  (r17_keep_main_arg1 (Q17 m c)).trans (J16_main_arg1 m c)

theorem J17_main_arg2 : Q18 m c (Proc.devRef .tc main_arg2) = (m ((c.tc : Thread nD τ).loc main_arg2)) :=
  (r17_keep_main_arg2 (Q17 m c)).trans (J16_main_arg2 m c)

theorem J17_main_arg3 : Q18 m c (Proc.devRef .tc main_arg3) = (m ((c.tc : Thread nD τ).loc main_arg3)) :=
  (r17_keep_main_arg3 (Q17 m c)).trans (J16_main_arg3 m c)

theorem J17_main_arg4 : Q18 m c (Proc.devRef .tc main_arg4) = (m ((c.tc : Thread nD τ).loc main_arg4)) :=
  (r17_keep_main_arg4 (Q17 m c)).trans (J16_main_arg4 m c)

theorem J17_main_arg5 : Q18 m c (Proc.devRef .tc main_arg5) = (m ((c.tc : Thread nD τ).loc main_arg5)) :=
  (r17_keep_main_arg5 (Q17 m c)).trans (J16_main_arg5 m c)

theorem J17_main_arg6 : Q18 m c (Proc.devRef .tc main_arg6) = (m ((c.tc : Thread nD τ).loc main_arg6)) :=
  (r17_keep_main_arg6 (Q17 m c)).trans (J16_main_arg6 m c)

theorem J17_main_arg7 : Q18 m c (Proc.devRef .tc main_arg7) = (m ((c.tc : Thread nD τ).loc main_arg7)) :=
  (r17_keep_main_arg7 (Q17 m c)).trans (J16_main_arg7 m c)

theorem J17_main_arg8 : Q18 m c (Proc.devRef .tc main_arg8) = (m ((c.tc : Thread nD τ).loc main_arg8)) :=
  (r17_keep_main_arg8 (Q17 m c)).trans (J16_main_arg8 m c)

theorem J17_main_arg9 : Q18 m c (Proc.devRef .tc main_arg9) = (m ((c.tc : Thread nD τ).loc main_arg9)) :=
  (r17_keep_main_arg9 (Q17 m c)).trans (J16_main_arg9 m c)

theorem J17_main_arg10 : Q18 m c (Proc.devRef .tc main_arg10) = (m ((c.tc : Thread nD τ).loc main_arg10)) :=
  (r17_keep_main_arg10 (Q17 m c)).trans (J16_main_arg10 m c)

theorem J17_main_arg11 : Q18 m c (Proc.devRef .tc main_arg11) = (m ((c.tc : Thread nD τ).loc main_arg11)) :=
  (r17_keep_main_arg11 (Q17 m c)).trans (J16_main_arg11 m c)

theorem J17_main_arg12 : Q18 m c (Proc.devRef .tc main_arg12) = (m ((c.tc : Thread nD τ).loc main_arg12)) :=
  (r17_keep_main_arg12 (Q17 m c)).trans (J16_main_arg12 m c)

theorem J17_main_arg13 : Q18 m c (Proc.devRef .tc main_arg13) = (m ((c.tc : Thread nD τ).loc main_arg13)) :=
  (r17_keep_main_arg13 (Q17 m c)).trans (J16_main_arg13 m c)

theorem J17_main_arg14 : Q18 m c (Proc.devRef .tc main_arg14) = (m ((c.tc : Thread nD τ).loc main_arg14)) :=
  (r17_keep_main_arg14 (Q17 m c)).trans (J16_main_arg14 m c)

theorem J17_main_arg15 : Q18 m c (Proc.devRef .tc main_arg15) = (m ((c.tc : Thread nD τ).loc main_arg15)) :=
  (r17_keep_main_arg15 (Q17 m c)).trans (J16_main_arg15 m c)

theorem J17_main_arg16 : Q18 m c (Proc.devRef .tc main_arg16) = (m ((c.tc : Thread nD τ).loc main_arg16)) :=
  (r17_keep_main_arg16 (Q17 m c)).trans (J16_main_arg16 m c)

theorem J17_main_arg17 : Q18 m c (Proc.devRef .tc main_arg17) = (m ((c.tc : Thread nD τ).loc main_arg17)) :=
  (r17_keep_main_arg17 (Q17 m c)).trans (J16_main_arg17 m c)

theorem J17_main_arg18 : Q18 m c (Proc.devRef .tc main_arg18) = (m ((c.tc : Thread nD τ).loc main_arg18)) :=
  (r17_keep_main_arg18 (Q17 m c)).trans (J16_main_arg18 m c)

theorem J17_main_arg19 : Q18 m c (Proc.devRef .tc main_arg19) = (m ((c.tc : Thread nD τ).loc main_arg19)) :=
  (r17_keep_main_arg19 (Q17 m c)).trans (J16_main_arg19 m c)

theorem J17_main_arg20 : Q18 m c (Proc.devRef .tc main_arg20) = (m ((c.tc : Thread nD τ).loc main_arg20)) :=
  (r17_keep_main_arg20 (Q17 m c)).trans (J16_main_arg20 m c)

theorem J17_main_arg21 : Q18 m c (Proc.devRef .tc main_arg21) = (m ((c.tc : Thread nD τ).loc main_arg21)) :=
  (r17_keep_main_arg21 (Q17 m c)).trans (J16_main_arg21 m c)

theorem J17_main_arg22 : Q18 m c (Proc.devRef .tc main_arg22) = (m ((c.tc : Thread nD τ).loc main_arg22)) :=
  (r17_keep_main_arg22 (Q17 m c)).trans (J16_main_arg22 m c)

theorem J17_main_arg23 : Q18 m c (Proc.devRef .tc main_arg23) = (m ((c.tc : Thread nD τ).loc main_arg23)) :=
  (r17_keep_main_arg23 (Q17 m c)).trans (J16_main_arg23 m c)

theorem J17_main_arg24 : Q18 m c (Proc.devRef .tc main_arg24) = (m ((c.tc : Thread nD τ).loc main_arg24)) :=
  (r17_keep_main_arg24 (Q17 m c)).trans (J16_main_arg24 m c)

theorem J17_main_arg25 : Q18 m c (Proc.devRef .tc main_arg25) = (m ((c.tc : Thread nD τ).loc main_arg25)) :=
  (r17_keep_main_arg25 (Q17 m c)).trans (J16_main_arg25 m c)

theorem J17_main_arg26 : Q18 m c (Proc.devRef .tc main_arg26) = (m ((c.tc : Thread nD τ).loc main_arg26)) :=
  (r17_keep_main_arg26 (Q17 m c)).trans (J16_main_arg26 m c)

theorem J17_main_arg27 : Q18 m c (Proc.devRef .tc main_arg27) = (m ((c.tc : Thread nD τ).loc main_arg27)) :=
  (r17_keep_main_arg27 (Q17 m c)).trans (J16_main_arg27 m c)

theorem J17_main_arg28 : Q18 m c (Proc.devRef .tc main_arg28) = (m ((c.tc : Thread nD τ).loc main_arg28)) :=
  (r17_keep_main_arg28 (Q17 m c)).trans (J16_main_arg28 m c)

theorem J18_main_v1 : Q19 m c (Proc.devRef .tc main_v1) = val_main_v1 (F := Ideal) (m ((c.tc : Thread nD τ).loc main_arg1)) :=
  (r18_keep_main_v1 (Q18 m c)).trans (J17_main_v1 m c)

theorem J18_main_v3 : Q19 m c (Proc.devRef .tc main_v3) = val_main_v3 (F := Ideal) (m ((c.tc : Thread nD τ).loc main_arg1)) :=
  (r18_keep_main_v3 (Q18 m c)).trans (J17_main_v3 m c)

theorem J18_main_v5 : Q19 m c (Proc.devRef .tc main_v5) = val_main_v5 (F := Ideal) (m ((c.tc : Thread nD τ).loc main_arg2)) :=
  (r18_keep_main_v5 (Q18 m c)).trans (J17_main_v5 m c)

theorem J18_main_v7 : Q19 m c (Proc.devRef .tc main_v7) = val_main_v7 (F := Ideal) (m ((c.tc : Thread nD τ).loc main_arg2)) :=
  (r18_keep_main_v7 (Q18 m c)).trans (J17_main_v7 m c)

theorem J18_main_v110 : Q19 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) :=
  r18_main_v110 (Q18 m c) (J17_main_v109 m c)

theorem J18_main_arg0 : Q19 m c (Proc.devRef .tc main_arg0) = (m ((c.tc : Thread nD τ).loc main_arg0)) :=
  (r18_keep_main_arg0 (Q18 m c)).trans (J17_main_arg0 m c)

theorem J18_main_arg1 : Q19 m c (Proc.devRef .tc main_arg1) = (m ((c.tc : Thread nD τ).loc main_arg1)) :=
  (r18_keep_main_arg1 (Q18 m c)).trans (J17_main_arg1 m c)

theorem J18_main_arg2 : Q19 m c (Proc.devRef .tc main_arg2) = (m ((c.tc : Thread nD τ).loc main_arg2)) :=
  (r18_keep_main_arg2 (Q18 m c)).trans (J17_main_arg2 m c)

theorem J18_main_arg3 : Q19 m c (Proc.devRef .tc main_arg3) = (m ((c.tc : Thread nD τ).loc main_arg3)) :=
  (r18_keep_main_arg3 (Q18 m c)).trans (J17_main_arg3 m c)

theorem J18_main_arg4 : Q19 m c (Proc.devRef .tc main_arg4) = (m ((c.tc : Thread nD τ).loc main_arg4)) :=
  (r18_keep_main_arg4 (Q18 m c)).trans (J17_main_arg4 m c)

theorem J18_main_arg5 : Q19 m c (Proc.devRef .tc main_arg5) = (m ((c.tc : Thread nD τ).loc main_arg5)) :=
  (r18_keep_main_arg5 (Q18 m c)).trans (J17_main_arg5 m c)

theorem J18_main_arg6 : Q19 m c (Proc.devRef .tc main_arg6) = (m ((c.tc : Thread nD τ).loc main_arg6)) :=
  (r18_keep_main_arg6 (Q18 m c)).trans (J17_main_arg6 m c)

theorem J18_main_arg7 : Q19 m c (Proc.devRef .tc main_arg7) = (m ((c.tc : Thread nD τ).loc main_arg7)) :=
  (r18_keep_main_arg7 (Q18 m c)).trans (J17_main_arg7 m c)

theorem J18_main_arg8 : Q19 m c (Proc.devRef .tc main_arg8) = (m ((c.tc : Thread nD τ).loc main_arg8)) :=
  (r18_keep_main_arg8 (Q18 m c)).trans (J17_main_arg8 m c)

theorem J18_main_arg9 : Q19 m c (Proc.devRef .tc main_arg9) = (m ((c.tc : Thread nD τ).loc main_arg9)) :=
  (r18_keep_main_arg9 (Q18 m c)).trans (J17_main_arg9 m c)

theorem J18_main_arg10 : Q19 m c (Proc.devRef .tc main_arg10) = (m ((c.tc : Thread nD τ).loc main_arg10)) :=
  (r18_keep_main_arg10 (Q18 m c)).trans (J17_main_arg10 m c)

theorem J18_main_arg11 : Q19 m c (Proc.devRef .tc main_arg11) = (m ((c.tc : Thread nD τ).loc main_arg11)) :=
  (r18_keep_main_arg11 (Q18 m c)).trans (J17_main_arg11 m c)

theorem J18_main_arg12 : Q19 m c (Proc.devRef .tc main_arg12) = (m ((c.tc : Thread nD τ).loc main_arg12)) :=
  (r18_keep_main_arg12 (Q18 m c)).trans (J17_main_arg12 m c)

theorem J18_main_arg13 : Q19 m c (Proc.devRef .tc main_arg13) = (m ((c.tc : Thread nD τ).loc main_arg13)) :=
  (r18_keep_main_arg13 (Q18 m c)).trans (J17_main_arg13 m c)

theorem J18_main_arg14 : Q19 m c (Proc.devRef .tc main_arg14) = (m ((c.tc : Thread nD τ).loc main_arg14)) :=
  (r18_keep_main_arg14 (Q18 m c)).trans (J17_main_arg14 m c)

theorem J18_main_arg15 : Q19 m c (Proc.devRef .tc main_arg15) = (m ((c.tc : Thread nD τ).loc main_arg15)) :=
  (r18_keep_main_arg15 (Q18 m c)).trans (J17_main_arg15 m c)

theorem J18_main_arg16 : Q19 m c (Proc.devRef .tc main_arg16) = (m ((c.tc : Thread nD τ).loc main_arg16)) :=
  (r18_keep_main_arg16 (Q18 m c)).trans (J17_main_arg16 m c)

theorem J18_main_arg17 : Q19 m c (Proc.devRef .tc main_arg17) = (m ((c.tc : Thread nD τ).loc main_arg17)) :=
  (r18_keep_main_arg17 (Q18 m c)).trans (J17_main_arg17 m c)

theorem J18_main_arg18 : Q19 m c (Proc.devRef .tc main_arg18) = (m ((c.tc : Thread nD τ).loc main_arg18)) :=
  (r18_keep_main_arg18 (Q18 m c)).trans (J17_main_arg18 m c)

theorem J18_main_arg19 : Q19 m c (Proc.devRef .tc main_arg19) = (m ((c.tc : Thread nD τ).loc main_arg19)) :=
  (r18_keep_main_arg19 (Q18 m c)).trans (J17_main_arg19 m c)

theorem J18_main_arg20 : Q19 m c (Proc.devRef .tc main_arg20) = (m ((c.tc : Thread nD τ).loc main_arg20)) :=
  (r18_keep_main_arg20 (Q18 m c)).trans (J17_main_arg20 m c)

theorem J18_main_arg21 : Q19 m c (Proc.devRef .tc main_arg21) = (m ((c.tc : Thread nD τ).loc main_arg21)) :=
  (r18_keep_main_arg21 (Q18 m c)).trans (J17_main_arg21 m c)

theorem J18_main_arg22 : Q19 m c (Proc.devRef .tc main_arg22) = (m ((c.tc : Thread nD τ).loc main_arg22)) :=
  (r18_keep_main_arg22 (Q18 m c)).trans (J17_main_arg22 m c)

theorem J18_main_arg23 : Q19 m c (Proc.devRef .tc main_arg23) = (m ((c.tc : Thread nD τ).loc main_arg23)) :=
  (r18_keep_main_arg23 (Q18 m c)).trans (J17_main_arg23 m c)

theorem J18_main_arg24 : Q19 m c (Proc.devRef .tc main_arg24) = (m ((c.tc : Thread nD τ).loc main_arg24)) :=
  (r18_keep_main_arg24 (Q18 m c)).trans (J17_main_arg24 m c)

theorem J18_main_arg25 : Q19 m c (Proc.devRef .tc main_arg25) = (m ((c.tc : Thread nD τ).loc main_arg25)) :=
  (r18_keep_main_arg25 (Q18 m c)).trans (J17_main_arg25 m c)

theorem J18_main_arg26 : Q19 m c (Proc.devRef .tc main_arg26) = (m ((c.tc : Thread nD τ).loc main_arg26)) :=
  (r18_keep_main_arg26 (Q18 m c)).trans (J17_main_arg26 m c)

theorem J18_main_arg27 : Q19 m c (Proc.devRef .tc main_arg27) = (m ((c.tc : Thread nD τ).loc main_arg27)) :=
  (r18_keep_main_arg27 (Q18 m c)).trans (J17_main_arg27 m c)

theorem J18_main_arg28 : Q19 m c (Proc.devRef .tc main_arg28) = (m ((c.tc : Thread nD τ).loc main_arg28)) :=
  (r18_keep_main_arg28 (Q18 m c)).trans (J17_main_arg28 m c)

theorem J19_main_v1 : Q20 m c (Proc.devRef .tc main_v1) = val_main_v1 (F := Ideal) (m ((c.tc : Thread nD τ).loc main_arg1)) :=
  (r19_keep_main_v1 (Q19 m c)).trans (J18_main_v1 m c)

theorem J19_main_v3 : Q20 m c (Proc.devRef .tc main_v3) = val_main_v3 (F := Ideal) (m ((c.tc : Thread nD τ).loc main_arg1)) :=
  (r19_keep_main_v3 (Q19 m c)).trans (J18_main_v3 m c)

theorem J19_main_v5 : Q20 m c (Proc.devRef .tc main_v5) = val_main_v5 (F := Ideal) (m ((c.tc : Thread nD τ).loc main_arg2)) :=
  (r19_keep_main_v5 (Q19 m c)).trans (J18_main_v5 m c)

theorem J19_main_v7 : Q20 m c (Proc.devRef .tc main_v7) = val_main_v7 (F := Ideal) (m ((c.tc : Thread nD τ).loc main_arg2)) :=
  (r19_keep_main_v7 (Q19 m c)).trans (J18_main_v7 m c)

theorem J19_main_v114 : Q20 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  r19_main_v114 (Q19 m c) (J18_main_v110 m c) (J18_main_arg19 m c) (J18_main_arg20 m c)

theorem J19_main_arg0 : Q20 m c (Proc.devRef .tc main_arg0) = (m ((c.tc : Thread nD τ).loc main_arg0)) :=
  (r19_keep_main_arg0 (Q19 m c)).trans (J18_main_arg0 m c)

theorem J19_main_arg1 : Q20 m c (Proc.devRef .tc main_arg1) = (m ((c.tc : Thread nD τ).loc main_arg1)) :=
  (r19_keep_main_arg1 (Q19 m c)).trans (J18_main_arg1 m c)

theorem J19_main_arg2 : Q20 m c (Proc.devRef .tc main_arg2) = (m ((c.tc : Thread nD τ).loc main_arg2)) :=
  (r19_keep_main_arg2 (Q19 m c)).trans (J18_main_arg2 m c)

theorem J19_main_arg3 : Q20 m c (Proc.devRef .tc main_arg3) = (m ((c.tc : Thread nD τ).loc main_arg3)) :=
  (r19_keep_main_arg3 (Q19 m c)).trans (J18_main_arg3 m c)

theorem J19_main_arg4 : Q20 m c (Proc.devRef .tc main_arg4) = (m ((c.tc : Thread nD τ).loc main_arg4)) :=
  (r19_keep_main_arg4 (Q19 m c)).trans (J18_main_arg4 m c)

theorem J19_main_arg5 : Q20 m c (Proc.devRef .tc main_arg5) = (m ((c.tc : Thread nD τ).loc main_arg5)) :=
  (r19_keep_main_arg5 (Q19 m c)).trans (J18_main_arg5 m c)

theorem J19_main_arg6 : Q20 m c (Proc.devRef .tc main_arg6) = (m ((c.tc : Thread nD τ).loc main_arg6)) :=
  (r19_keep_main_arg6 (Q19 m c)).trans (J18_main_arg6 m c)

theorem J19_main_arg7 : Q20 m c (Proc.devRef .tc main_arg7) = (m ((c.tc : Thread nD τ).loc main_arg7)) :=
  (r19_keep_main_arg7 (Q19 m c)).trans (J18_main_arg7 m c)

theorem J19_main_arg8 : Q20 m c (Proc.devRef .tc main_arg8) = (m ((c.tc : Thread nD τ).loc main_arg8)) :=
  (r19_keep_main_arg8 (Q19 m c)).trans (J18_main_arg8 m c)

theorem J19_main_arg9 : Q20 m c (Proc.devRef .tc main_arg9) = (m ((c.tc : Thread nD τ).loc main_arg9)) :=
  (r19_keep_main_arg9 (Q19 m c)).trans (J18_main_arg9 m c)

theorem J19_main_arg10 : Q20 m c (Proc.devRef .tc main_arg10) = (m ((c.tc : Thread nD τ).loc main_arg10)) :=
  (r19_keep_main_arg10 (Q19 m c)).trans (J18_main_arg10 m c)

theorem J19_main_arg11 : Q20 m c (Proc.devRef .tc main_arg11) = (m ((c.tc : Thread nD τ).loc main_arg11)) :=
  (r19_keep_main_arg11 (Q19 m c)).trans (J18_main_arg11 m c)

theorem J19_main_arg12 : Q20 m c (Proc.devRef .tc main_arg12) = (m ((c.tc : Thread nD τ).loc main_arg12)) :=
  (r19_keep_main_arg12 (Q19 m c)).trans (J18_main_arg12 m c)

theorem J19_main_arg13 : Q20 m c (Proc.devRef .tc main_arg13) = (m ((c.tc : Thread nD τ).loc main_arg13)) :=
  (r19_keep_main_arg13 (Q19 m c)).trans (J18_main_arg13 m c)

theorem J19_main_arg14 : Q20 m c (Proc.devRef .tc main_arg14) = (m ((c.tc : Thread nD τ).loc main_arg14)) :=
  (r19_keep_main_arg14 (Q19 m c)).trans (J18_main_arg14 m c)

theorem J19_main_arg15 : Q20 m c (Proc.devRef .tc main_arg15) = (m ((c.tc : Thread nD τ).loc main_arg15)) :=
  (r19_keep_main_arg15 (Q19 m c)).trans (J18_main_arg15 m c)

theorem J19_main_arg16 : Q20 m c (Proc.devRef .tc main_arg16) = (m ((c.tc : Thread nD τ).loc main_arg16)) :=
  (r19_keep_main_arg16 (Q19 m c)).trans (J18_main_arg16 m c)

theorem J19_main_arg17 : Q20 m c (Proc.devRef .tc main_arg17) = (m ((c.tc : Thread nD τ).loc main_arg17)) :=
  (r19_keep_main_arg17 (Q19 m c)).trans (J18_main_arg17 m c)

theorem J19_main_arg18 : Q20 m c (Proc.devRef .tc main_arg18) = (m ((c.tc : Thread nD τ).loc main_arg18)) :=
  (r19_keep_main_arg18 (Q19 m c)).trans (J18_main_arg18 m c)

theorem J19_main_arg19 : Q20 m c (Proc.devRef .tc main_arg19) = (m ((c.tc : Thread nD τ).loc main_arg19)) :=
  (r19_keep_main_arg19 (Q19 m c)).trans (J18_main_arg19 m c)

theorem J19_main_arg20 : Q20 m c (Proc.devRef .tc main_arg20) = (m ((c.tc : Thread nD τ).loc main_arg20)) :=
  (r19_keep_main_arg20 (Q19 m c)).trans (J18_main_arg20 m c)

theorem J19_main_arg21 : Q20 m c (Proc.devRef .tc main_arg21) = (m ((c.tc : Thread nD τ).loc main_arg21)) :=
  (r19_keep_main_arg21 (Q19 m c)).trans (J18_main_arg21 m c)

theorem J19_main_arg22 : Q20 m c (Proc.devRef .tc main_arg22) = (m ((c.tc : Thread nD τ).loc main_arg22)) :=
  (r19_keep_main_arg22 (Q19 m c)).trans (J18_main_arg22 m c)

theorem J19_main_arg23 : Q20 m c (Proc.devRef .tc main_arg23) = (m ((c.tc : Thread nD τ).loc main_arg23)) :=
  (r19_keep_main_arg23 (Q19 m c)).trans (J18_main_arg23 m c)

theorem J19_main_arg24 : Q20 m c (Proc.devRef .tc main_arg24) = (m ((c.tc : Thread nD τ).loc main_arg24)) :=
  (r19_keep_main_arg24 (Q19 m c)).trans (J18_main_arg24 m c)

theorem J19_main_arg25 : Q20 m c (Proc.devRef .tc main_arg25) = (m ((c.tc : Thread nD τ).loc main_arg25)) :=
  (r19_keep_main_arg25 (Q19 m c)).trans (J18_main_arg25 m c)

theorem J19_main_arg26 : Q20 m c (Proc.devRef .tc main_arg26) = (m ((c.tc : Thread nD τ).loc main_arg26)) :=
  (r19_keep_main_arg26 (Q19 m c)).trans (J18_main_arg26 m c)

theorem J19_main_arg27 : Q20 m c (Proc.devRef .tc main_arg27) = (m ((c.tc : Thread nD τ).loc main_arg27)) :=
  (r19_keep_main_arg27 (Q19 m c)).trans (J18_main_arg27 m c)

theorem J19_main_arg28 : Q20 m c (Proc.devRef .tc main_arg28) = (m ((c.tc : Thread nD τ).loc main_arg28)) :=
  (r19_keep_main_arg28 (Q19 m c)).trans (J18_main_arg28 m c)

theorem J20_main_v5 : Q21 m c (Proc.devRef .tc main_v5) = val_main_v5 (F := Ideal) (m ((c.tc : Thread nD τ).loc main_arg2)) :=
  (r20_keep_main_v5 (Q20 m c)).trans (J19_main_v5 m c)

theorem J20_main_v7 : Q21 m c (Proc.devRef .tc main_v7) = val_main_v7 (F := Ideal) (m ((c.tc : Thread nD τ).loc main_arg2)) :=
  (r20_keep_main_v7 (Q20 m c)).trans (J19_main_v7 m c)

theorem J20_main_v114 : Q21 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r20_keep_main_v114 (Q20 m c)).trans (J19_main_v114 m c)

theorem J20_main_v116 : Q21 m c (Proc.devRef .tc main_v116) = val_main_v116 (F := Ideal) (m ((c.tc : Thread nD τ).loc main_arg1)) :=
  r20_main_v116 (Q20 m c) (J19_main_v1 m c)

theorem J20_main_v117 : Q21 m c (Proc.devRef .tc main_v117) = val_main_v117 (F := Ideal) (m ((c.tc : Thread nD τ).loc main_arg1)) :=
  r20_main_v117 (Q20 m c) (J19_main_v3 m c)

theorem J20_main_v123 : Q21 m c (Proc.devRef .tc main_v123) = val_main_v123 (F := Ideal) (m ((c.tc : Thread nD τ).loc main_arg1)) :=
  r20_main_v123 (Q20 m c) (J19_main_v3 m c)

theorem J20_main_v124 : Q21 m c (Proc.devRef .tc main_v124) = val_main_v124 (F := Ideal) (m ((c.tc : Thread nD τ).loc main_arg1)) :=
  r20_main_v124 (Q20 m c) (J19_main_v3 m c)

theorem J20_main_cst_23 : Q21 m c (Proc.devRef .tc main_cst_23) = val_main_cst_23 (F := Ideal) :=
  r20_main_cst_23 (Q20 m c)

theorem J20_main_arg0 : Q21 m c (Proc.devRef .tc main_arg0) = (m ((c.tc : Thread nD τ).loc main_arg0)) :=
  (r20_keep_main_arg0 (Q20 m c)).trans (J19_main_arg0 m c)

theorem J20_main_arg1 : Q21 m c (Proc.devRef .tc main_arg1) = (m ((c.tc : Thread nD τ).loc main_arg1)) :=
  (r20_keep_main_arg1 (Q20 m c)).trans (J19_main_arg1 m c)

theorem J20_main_arg2 : Q21 m c (Proc.devRef .tc main_arg2) = (m ((c.tc : Thread nD τ).loc main_arg2)) :=
  (r20_keep_main_arg2 (Q20 m c)).trans (J19_main_arg2 m c)

theorem J20_main_arg3 : Q21 m c (Proc.devRef .tc main_arg3) = (m ((c.tc : Thread nD τ).loc main_arg3)) :=
  (r20_keep_main_arg3 (Q20 m c)).trans (J19_main_arg3 m c)

theorem J20_main_arg4 : Q21 m c (Proc.devRef .tc main_arg4) = (m ((c.tc : Thread nD τ).loc main_arg4)) :=
  (r20_keep_main_arg4 (Q20 m c)).trans (J19_main_arg4 m c)

theorem J20_main_arg5 : Q21 m c (Proc.devRef .tc main_arg5) = (m ((c.tc : Thread nD τ).loc main_arg5)) :=
  (r20_keep_main_arg5 (Q20 m c)).trans (J19_main_arg5 m c)

theorem J20_main_arg6 : Q21 m c (Proc.devRef .tc main_arg6) = (m ((c.tc : Thread nD τ).loc main_arg6)) :=
  (r20_keep_main_arg6 (Q20 m c)).trans (J19_main_arg6 m c)

theorem J20_main_arg7 : Q21 m c (Proc.devRef .tc main_arg7) = (m ((c.tc : Thread nD τ).loc main_arg7)) :=
  (r20_keep_main_arg7 (Q20 m c)).trans (J19_main_arg7 m c)

theorem J20_main_arg8 : Q21 m c (Proc.devRef .tc main_arg8) = (m ((c.tc : Thread nD τ).loc main_arg8)) :=
  (r20_keep_main_arg8 (Q20 m c)).trans (J19_main_arg8 m c)

theorem J20_main_arg9 : Q21 m c (Proc.devRef .tc main_arg9) = (m ((c.tc : Thread nD τ).loc main_arg9)) :=
  (r20_keep_main_arg9 (Q20 m c)).trans (J19_main_arg9 m c)

theorem J20_main_arg10 : Q21 m c (Proc.devRef .tc main_arg10) = (m ((c.tc : Thread nD τ).loc main_arg10)) :=
  (r20_keep_main_arg10 (Q20 m c)).trans (J19_main_arg10 m c)

theorem J20_main_arg11 : Q21 m c (Proc.devRef .tc main_arg11) = (m ((c.tc : Thread nD τ).loc main_arg11)) :=
  (r20_keep_main_arg11 (Q20 m c)).trans (J19_main_arg11 m c)

theorem J20_main_arg12 : Q21 m c (Proc.devRef .tc main_arg12) = (m ((c.tc : Thread nD τ).loc main_arg12)) :=
  (r20_keep_main_arg12 (Q20 m c)).trans (J19_main_arg12 m c)

theorem J20_main_arg13 : Q21 m c (Proc.devRef .tc main_arg13) = (m ((c.tc : Thread nD τ).loc main_arg13)) :=
  (r20_keep_main_arg13 (Q20 m c)).trans (J19_main_arg13 m c)

theorem J20_main_arg14 : Q21 m c (Proc.devRef .tc main_arg14) = (m ((c.tc : Thread nD τ).loc main_arg14)) :=
  (r20_keep_main_arg14 (Q20 m c)).trans (J19_main_arg14 m c)

theorem J20_main_arg15 : Q21 m c (Proc.devRef .tc main_arg15) = (m ((c.tc : Thread nD τ).loc main_arg15)) :=
  (r20_keep_main_arg15 (Q20 m c)).trans (J19_main_arg15 m c)

theorem J20_main_arg16 : Q21 m c (Proc.devRef .tc main_arg16) = (m ((c.tc : Thread nD τ).loc main_arg16)) :=
  (r20_keep_main_arg16 (Q20 m c)).trans (J19_main_arg16 m c)

theorem J20_main_arg17 : Q21 m c (Proc.devRef .tc main_arg17) = (m ((c.tc : Thread nD τ).loc main_arg17)) :=
  (r20_keep_main_arg17 (Q20 m c)).trans (J19_main_arg17 m c)

theorem J20_main_arg18 : Q21 m c (Proc.devRef .tc main_arg18) = (m ((c.tc : Thread nD τ).loc main_arg18)) :=
  (r20_keep_main_arg18 (Q20 m c)).trans (J19_main_arg18 m c)

theorem J20_main_arg19 : Q21 m c (Proc.devRef .tc main_arg19) = (m ((c.tc : Thread nD τ).loc main_arg19)) :=
  (r20_keep_main_arg19 (Q20 m c)).trans (J19_main_arg19 m c)

theorem J20_main_arg20 : Q21 m c (Proc.devRef .tc main_arg20) = (m ((c.tc : Thread nD τ).loc main_arg20)) :=
  (r20_keep_main_arg20 (Q20 m c)).trans (J19_main_arg20 m c)

theorem J20_main_arg21 : Q21 m c (Proc.devRef .tc main_arg21) = (m ((c.tc : Thread nD τ).loc main_arg21)) :=
  (r20_keep_main_arg21 (Q20 m c)).trans (J19_main_arg21 m c)

theorem J20_main_arg22 : Q21 m c (Proc.devRef .tc main_arg22) = (m ((c.tc : Thread nD τ).loc main_arg22)) :=
  (r20_keep_main_arg22 (Q20 m c)).trans (J19_main_arg22 m c)

theorem J20_main_arg23 : Q21 m c (Proc.devRef .tc main_arg23) = (m ((c.tc : Thread nD τ).loc main_arg23)) :=
  (r20_keep_main_arg23 (Q20 m c)).trans (J19_main_arg23 m c)

theorem J20_main_arg24 : Q21 m c (Proc.devRef .tc main_arg24) = (m ((c.tc : Thread nD τ).loc main_arg24)) :=
  (r20_keep_main_arg24 (Q20 m c)).trans (J19_main_arg24 m c)

theorem J20_main_arg25 : Q21 m c (Proc.devRef .tc main_arg25) = (m ((c.tc : Thread nD τ).loc main_arg25)) :=
  (r20_keep_main_arg25 (Q20 m c)).trans (J19_main_arg25 m c)

theorem J20_main_arg26 : Q21 m c (Proc.devRef .tc main_arg26) = (m ((c.tc : Thread nD τ).loc main_arg26)) :=
  (r20_keep_main_arg26 (Q20 m c)).trans (J19_main_arg26 m c)

theorem J20_main_arg27 : Q21 m c (Proc.devRef .tc main_arg27) = (m ((c.tc : Thread nD τ).loc main_arg27)) :=
  (r20_keep_main_arg27 (Q20 m c)).trans (J19_main_arg27 m c)

theorem J20_main_arg28 : Q21 m c (Proc.devRef .tc main_arg28) = (m ((c.tc : Thread nD τ).loc main_arg28)) :=
  (r20_keep_main_arg28 (Q20 m c)).trans (J19_main_arg28 m c)

theorem J21_main_v5 : Q22 m c (Proc.devRef .tc main_v5) = val_main_v5 (F := Ideal) (m ((c.tc : Thread nD τ).loc main_arg2)) :=
  (r21_keep_main_v5 (Q21 m c)).trans (J20_main_v5 m c)

theorem J21_main_v7 : Q22 m c (Proc.devRef .tc main_v7) = val_main_v7 (F := Ideal) (m ((c.tc : Thread nD τ).loc main_arg2)) :=
  (r21_keep_main_v7 (Q21 m c)).trans (J20_main_v7 m c)

theorem J21_main_v114 : Q22 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r21_keep_main_v114 (Q21 m c)).trans (J20_main_v114 m c)

theorem J21_main_v116 : Q22 m c (Proc.devRef .tc main_v116) = val_main_v116 (F := Ideal) (m ((c.tc : Thread nD τ).loc main_arg1)) :=
  (r21_keep_main_v116 (Q21 m c)).trans (J20_main_v116 m c)

theorem J21_main_v117 : Q22 m c (Proc.devRef .tc main_v117) = val_main_v117 (F := Ideal) (m ((c.tc : Thread nD τ).loc main_arg1)) :=
  (r21_keep_main_v117 (Q21 m c)).trans (J20_main_v117 m c)

theorem J21_main_v125 : Q22 m c (Proc.devRef .tc main_v125) = val_main_v125 (F := Ideal) (m ((c.tc : Thread nD τ).loc main_arg1)) :=
  r21_main_v125 (Q21 m c) (J20_main_v123 m c) (J20_main_v124 m c) (J20_main_cst_23 m c)

theorem J21_main_arg0 : Q22 m c (Proc.devRef .tc main_arg0) = (m ((c.tc : Thread nD τ).loc main_arg0)) :=
  (r21_keep_main_arg0 (Q21 m c)).trans (J20_main_arg0 m c)

theorem J21_main_arg1 : Q22 m c (Proc.devRef .tc main_arg1) = (m ((c.tc : Thread nD τ).loc main_arg1)) :=
  (r21_keep_main_arg1 (Q21 m c)).trans (J20_main_arg1 m c)

theorem J21_main_arg2 : Q22 m c (Proc.devRef .tc main_arg2) = (m ((c.tc : Thread nD τ).loc main_arg2)) :=
  (r21_keep_main_arg2 (Q21 m c)).trans (J20_main_arg2 m c)

theorem J21_main_arg3 : Q22 m c (Proc.devRef .tc main_arg3) = (m ((c.tc : Thread nD τ).loc main_arg3)) :=
  (r21_keep_main_arg3 (Q21 m c)).trans (J20_main_arg3 m c)

theorem J21_main_arg4 : Q22 m c (Proc.devRef .tc main_arg4) = (m ((c.tc : Thread nD τ).loc main_arg4)) :=
  (r21_keep_main_arg4 (Q21 m c)).trans (J20_main_arg4 m c)

theorem J21_main_arg5 : Q22 m c (Proc.devRef .tc main_arg5) = (m ((c.tc : Thread nD τ).loc main_arg5)) :=
  (r21_keep_main_arg5 (Q21 m c)).trans (J20_main_arg5 m c)

theorem J21_main_arg6 : Q22 m c (Proc.devRef .tc main_arg6) = (m ((c.tc : Thread nD τ).loc main_arg6)) :=
  (r21_keep_main_arg6 (Q21 m c)).trans (J20_main_arg6 m c)

theorem J21_main_arg7 : Q22 m c (Proc.devRef .tc main_arg7) = (m ((c.tc : Thread nD τ).loc main_arg7)) :=
  (r21_keep_main_arg7 (Q21 m c)).trans (J20_main_arg7 m c)

theorem J21_main_arg8 : Q22 m c (Proc.devRef .tc main_arg8) = (m ((c.tc : Thread nD τ).loc main_arg8)) :=
  (r21_keep_main_arg8 (Q21 m c)).trans (J20_main_arg8 m c)

theorem J21_main_arg9 : Q22 m c (Proc.devRef .tc main_arg9) = (m ((c.tc : Thread nD τ).loc main_arg9)) :=
  (r21_keep_main_arg9 (Q21 m c)).trans (J20_main_arg9 m c)

theorem J21_main_arg10 : Q22 m c (Proc.devRef .tc main_arg10) = (m ((c.tc : Thread nD τ).loc main_arg10)) :=
  (r21_keep_main_arg10 (Q21 m c)).trans (J20_main_arg10 m c)

theorem J21_main_arg11 : Q22 m c (Proc.devRef .tc main_arg11) = (m ((c.tc : Thread nD τ).loc main_arg11)) :=
  (r21_keep_main_arg11 (Q21 m c)).trans (J20_main_arg11 m c)

theorem J21_main_arg12 : Q22 m c (Proc.devRef .tc main_arg12) = (m ((c.tc : Thread nD τ).loc main_arg12)) :=
  (r21_keep_main_arg12 (Q21 m c)).trans (J20_main_arg12 m c)

theorem J21_main_arg13 : Q22 m c (Proc.devRef .tc main_arg13) = (m ((c.tc : Thread nD τ).loc main_arg13)) :=
  (r21_keep_main_arg13 (Q21 m c)).trans (J20_main_arg13 m c)

theorem J21_main_arg14 : Q22 m c (Proc.devRef .tc main_arg14) = (m ((c.tc : Thread nD τ).loc main_arg14)) :=
  (r21_keep_main_arg14 (Q21 m c)).trans (J20_main_arg14 m c)

theorem J21_main_arg15 : Q22 m c (Proc.devRef .tc main_arg15) = (m ((c.tc : Thread nD τ).loc main_arg15)) :=
  (r21_keep_main_arg15 (Q21 m c)).trans (J20_main_arg15 m c)

theorem J21_main_arg16 : Q22 m c (Proc.devRef .tc main_arg16) = (m ((c.tc : Thread nD τ).loc main_arg16)) :=
  (r21_keep_main_arg16 (Q21 m c)).trans (J20_main_arg16 m c)

theorem J21_main_arg17 : Q22 m c (Proc.devRef .tc main_arg17) = (m ((c.tc : Thread nD τ).loc main_arg17)) :=
  (r21_keep_main_arg17 (Q21 m c)).trans (J20_main_arg17 m c)

theorem J21_main_arg18 : Q22 m c (Proc.devRef .tc main_arg18) = (m ((c.tc : Thread nD τ).loc main_arg18)) :=
  (r21_keep_main_arg18 (Q21 m c)).trans (J20_main_arg18 m c)

theorem J21_main_arg19 : Q22 m c (Proc.devRef .tc main_arg19) = (m ((c.tc : Thread nD τ).loc main_arg19)) :=
  (r21_keep_main_arg19 (Q21 m c)).trans (J20_main_arg19 m c)

theorem J21_main_arg20 : Q22 m c (Proc.devRef .tc main_arg20) = (m ((c.tc : Thread nD τ).loc main_arg20)) :=
  (r21_keep_main_arg20 (Q21 m c)).trans (J20_main_arg20 m c)

theorem J21_main_arg21 : Q22 m c (Proc.devRef .tc main_arg21) = (m ((c.tc : Thread nD τ).loc main_arg21)) :=
  (r21_keep_main_arg21 (Q21 m c)).trans (J20_main_arg21 m c)

theorem J21_main_arg22 : Q22 m c (Proc.devRef .tc main_arg22) = (m ((c.tc : Thread nD τ).loc main_arg22)) :=
  (r21_keep_main_arg22 (Q21 m c)).trans (J20_main_arg22 m c)

theorem J21_main_arg23 : Q22 m c (Proc.devRef .tc main_arg23) = (m ((c.tc : Thread nD τ).loc main_arg23)) :=
  (r21_keep_main_arg23 (Q21 m c)).trans (J20_main_arg23 m c)

theorem J21_main_arg24 : Q22 m c (Proc.devRef .tc main_arg24) = (m ((c.tc : Thread nD τ).loc main_arg24)) :=
  (r21_keep_main_arg24 (Q21 m c)).trans (J20_main_arg24 m c)

theorem J21_main_arg25 : Q22 m c (Proc.devRef .tc main_arg25) = (m ((c.tc : Thread nD τ).loc main_arg25)) :=
  (r21_keep_main_arg25 (Q21 m c)).trans (J20_main_arg25 m c)

theorem J21_main_arg26 : Q22 m c (Proc.devRef .tc main_arg26) = (m ((c.tc : Thread nD τ).loc main_arg26)) :=
  (r21_keep_main_arg26 (Q21 m c)).trans (J20_main_arg26 m c)

theorem J21_main_arg27 : Q22 m c (Proc.devRef .tc main_arg27) = (m ((c.tc : Thread nD τ).loc main_arg27)) :=
  (r21_keep_main_arg27 (Q21 m c)).trans (J20_main_arg27 m c)

theorem J21_main_arg28 : Q22 m c (Proc.devRef .tc main_arg28) = (m ((c.tc : Thread nD τ).loc main_arg28)) :=
  (r21_keep_main_arg28 (Q21 m c)).trans (J20_main_arg28 m c)

theorem J22_main_v5 : Q23 m c (Proc.devRef .tc main_v5) = val_main_v5 (F := Ideal) (m ((c.tc : Thread nD τ).loc main_arg2)) :=
  (r22_keep_main_v5 (Q22 m c)).trans (J21_main_v5 m c)

theorem J22_main_v7 : Q23 m c (Proc.devRef .tc main_v7) = val_main_v7 (F := Ideal) (m ((c.tc : Thread nD τ).loc main_arg2)) :=
  (r22_keep_main_v7 (Q22 m c)).trans (J21_main_v7 m c)

theorem J22_main_v114 : Q23 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r22_keep_main_v114 (Q22 m c)).trans (J21_main_v114 m c)

theorem J22_main_v116 : Q23 m c (Proc.devRef .tc main_v116) = val_main_v116 (F := Ideal) (m ((c.tc : Thread nD τ).loc main_arg1)) :=
  (r22_keep_main_v116 (Q22 m c)).trans (J21_main_v116 m c)

theorem J22_main_v117 : Q23 m c (Proc.devRef .tc main_v117) = val_main_v117 (F := Ideal) (m ((c.tc : Thread nD τ).loc main_arg1)) :=
  (r22_keep_main_v117 (Q22 m c)).trans (J21_main_v117 m c)

theorem J22_main_v140 : Q23 m c (Proc.devRef .tc main_v140) = val_main_v140 (F := Ideal) (m ((c.tc : Thread nD τ).loc main_arg1)) :=
  r22_main_v140 (Q22 m c) (J21_main_v125 m c) (J21_main_v116 m c) (J21_main_v117 m c)

theorem J22_main_arg0 : Q23 m c (Proc.devRef .tc main_arg0) = (m ((c.tc : Thread nD τ).loc main_arg0)) :=
  (r22_keep_main_arg0 (Q22 m c)).trans (J21_main_arg0 m c)

theorem J22_main_arg1 : Q23 m c (Proc.devRef .tc main_arg1) = (m ((c.tc : Thread nD τ).loc main_arg1)) :=
  (r22_keep_main_arg1 (Q22 m c)).trans (J21_main_arg1 m c)

theorem J22_main_arg2 : Q23 m c (Proc.devRef .tc main_arg2) = (m ((c.tc : Thread nD τ).loc main_arg2)) :=
  (r22_keep_main_arg2 (Q22 m c)).trans (J21_main_arg2 m c)

theorem J22_main_arg3 : Q23 m c (Proc.devRef .tc main_arg3) = (m ((c.tc : Thread nD τ).loc main_arg3)) :=
  (r22_keep_main_arg3 (Q22 m c)).trans (J21_main_arg3 m c)

theorem J22_main_arg4 : Q23 m c (Proc.devRef .tc main_arg4) = (m ((c.tc : Thread nD τ).loc main_arg4)) :=
  (r22_keep_main_arg4 (Q22 m c)).trans (J21_main_arg4 m c)

theorem J22_main_arg5 : Q23 m c (Proc.devRef .tc main_arg5) = (m ((c.tc : Thread nD τ).loc main_arg5)) :=
  (r22_keep_main_arg5 (Q22 m c)).trans (J21_main_arg5 m c)

theorem J22_main_arg6 : Q23 m c (Proc.devRef .tc main_arg6) = (m ((c.tc : Thread nD τ).loc main_arg6)) :=
  (r22_keep_main_arg6 (Q22 m c)).trans (J21_main_arg6 m c)

theorem J22_main_arg7 : Q23 m c (Proc.devRef .tc main_arg7) = (m ((c.tc : Thread nD τ).loc main_arg7)) :=
  (r22_keep_main_arg7 (Q22 m c)).trans (J21_main_arg7 m c)

theorem J22_main_arg8 : Q23 m c (Proc.devRef .tc main_arg8) = (m ((c.tc : Thread nD τ).loc main_arg8)) :=
  (r22_keep_main_arg8 (Q22 m c)).trans (J21_main_arg8 m c)

theorem J22_main_arg9 : Q23 m c (Proc.devRef .tc main_arg9) = (m ((c.tc : Thread nD τ).loc main_arg9)) :=
  (r22_keep_main_arg9 (Q22 m c)).trans (J21_main_arg9 m c)

theorem J22_main_arg10 : Q23 m c (Proc.devRef .tc main_arg10) = (m ((c.tc : Thread nD τ).loc main_arg10)) :=
  (r22_keep_main_arg10 (Q22 m c)).trans (J21_main_arg10 m c)

theorem J22_main_arg11 : Q23 m c (Proc.devRef .tc main_arg11) = (m ((c.tc : Thread nD τ).loc main_arg11)) :=
  (r22_keep_main_arg11 (Q22 m c)).trans (J21_main_arg11 m c)

theorem J22_main_arg12 : Q23 m c (Proc.devRef .tc main_arg12) = (m ((c.tc : Thread nD τ).loc main_arg12)) :=
  (r22_keep_main_arg12 (Q22 m c)).trans (J21_main_arg12 m c)

theorem J22_main_arg13 : Q23 m c (Proc.devRef .tc main_arg13) = (m ((c.tc : Thread nD τ).loc main_arg13)) :=
  (r22_keep_main_arg13 (Q22 m c)).trans (J21_main_arg13 m c)

theorem J22_main_arg14 : Q23 m c (Proc.devRef .tc main_arg14) = (m ((c.tc : Thread nD τ).loc main_arg14)) :=
  (r22_keep_main_arg14 (Q22 m c)).trans (J21_main_arg14 m c)

theorem J22_main_arg15 : Q23 m c (Proc.devRef .tc main_arg15) = (m ((c.tc : Thread nD τ).loc main_arg15)) :=
  (r22_keep_main_arg15 (Q22 m c)).trans (J21_main_arg15 m c)

theorem J22_main_arg16 : Q23 m c (Proc.devRef .tc main_arg16) = (m ((c.tc : Thread nD τ).loc main_arg16)) :=
  (r22_keep_main_arg16 (Q22 m c)).trans (J21_main_arg16 m c)

theorem J22_main_arg17 : Q23 m c (Proc.devRef .tc main_arg17) = (m ((c.tc : Thread nD τ).loc main_arg17)) :=
  (r22_keep_main_arg17 (Q22 m c)).trans (J21_main_arg17 m c)

theorem J22_main_arg18 : Q23 m c (Proc.devRef .tc main_arg18) = (m ((c.tc : Thread nD τ).loc main_arg18)) :=
  (r22_keep_main_arg18 (Q22 m c)).trans (J21_main_arg18 m c)

theorem J22_main_arg19 : Q23 m c (Proc.devRef .tc main_arg19) = (m ((c.tc : Thread nD τ).loc main_arg19)) :=
  (r22_keep_main_arg19 (Q22 m c)).trans (J21_main_arg19 m c)

theorem J22_main_arg20 : Q23 m c (Proc.devRef .tc main_arg20) = (m ((c.tc : Thread nD τ).loc main_arg20)) :=
  (r22_keep_main_arg20 (Q22 m c)).trans (J21_main_arg20 m c)

theorem J22_main_arg21 : Q23 m c (Proc.devRef .tc main_arg21) = (m ((c.tc : Thread nD τ).loc main_arg21)) :=
  (r22_keep_main_arg21 (Q22 m c)).trans (J21_main_arg21 m c)

theorem J22_main_arg22 : Q23 m c (Proc.devRef .tc main_arg22) = (m ((c.tc : Thread nD τ).loc main_arg22)) :=
  (r22_keep_main_arg22 (Q22 m c)).trans (J21_main_arg22 m c)

theorem J22_main_arg23 : Q23 m c (Proc.devRef .tc main_arg23) = (m ((c.tc : Thread nD τ).loc main_arg23)) :=
  (r22_keep_main_arg23 (Q22 m c)).trans (J21_main_arg23 m c)

theorem J22_main_arg24 : Q23 m c (Proc.devRef .tc main_arg24) = (m ((c.tc : Thread nD τ).loc main_arg24)) :=
  (r22_keep_main_arg24 (Q22 m c)).trans (J21_main_arg24 m c)

theorem J22_main_arg25 : Q23 m c (Proc.devRef .tc main_arg25) = (m ((c.tc : Thread nD τ).loc main_arg25)) :=
  (r22_keep_main_arg25 (Q22 m c)).trans (J21_main_arg25 m c)

theorem J22_main_arg26 : Q23 m c (Proc.devRef .tc main_arg26) = (m ((c.tc : Thread nD τ).loc main_arg26)) :=
  (r22_keep_main_arg26 (Q22 m c)).trans (J21_main_arg26 m c)

theorem J22_main_arg27 : Q23 m c (Proc.devRef .tc main_arg27) = (m ((c.tc : Thread nD τ).loc main_arg27)) :=
  (r22_keep_main_arg27 (Q22 m c)).trans (J21_main_arg27 m c)

theorem J22_main_arg28 : Q23 m c (Proc.devRef .tc main_arg28) = (m ((c.tc : Thread nD τ).loc main_arg28)) :=
  (r22_keep_main_arg28 (Q22 m c)).trans (J21_main_arg28 m c)

theorem J23_main_v5 : Q24 m c (Proc.devRef .tc main_v5) = val_main_v5 (F := Ideal) (m ((c.tc : Thread nD τ).loc main_arg2)) :=
  (r23_keep_main_v5 (Q23 m c)).trans (J22_main_v5 m c)

theorem J23_main_v7 : Q24 m c (Proc.devRef .tc main_v7) = val_main_v7 (F := Ideal) (m ((c.tc : Thread nD τ).loc main_arg2)) :=
  (r23_keep_main_v7 (Q23 m c)).trans (J22_main_v7 m c)

theorem J23_main_v114 : Q24 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r23_keep_main_v114 (Q23 m c)).trans (J22_main_v114 m c)

theorem J23_main_v116 : Q24 m c (Proc.devRef .tc main_v116) = val_main_v116 (F := Ideal) (m ((c.tc : Thread nD τ).loc main_arg1)) :=
  (r23_keep_main_v116 (Q23 m c)).trans (J22_main_v116 m c)

theorem J23_main_v117 : Q24 m c (Proc.devRef .tc main_v117) = val_main_v117 (F := Ideal) (m ((c.tc : Thread nD τ).loc main_arg1)) :=
  (r23_keep_main_v117 (Q23 m c)).trans (J22_main_v117 m c)

theorem J23_main_v140 : Q24 m c (Proc.devRef .tc main_v140) = val_main_v140 (F := Ideal) (m ((c.tc : Thread nD τ).loc main_arg1)) :=
  (r23_keep_main_v140 (Q23 m c)).trans (J22_main_v140 m c)

theorem J23_main_v141 : Q24 m c (Proc.devRef .tc main_v141) = val_main_v141 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) :=
  r23_main_v141 (Q23 m c) (J22_main_v114 m c) (J22_main_arg13 m c)

theorem J23_main_arg0 : Q24 m c (Proc.devRef .tc main_arg0) = (m ((c.tc : Thread nD τ).loc main_arg0)) :=
  (r23_keep_main_arg0 (Q23 m c)).trans (J22_main_arg0 m c)

theorem J23_main_arg1 : Q24 m c (Proc.devRef .tc main_arg1) = (m ((c.tc : Thread nD τ).loc main_arg1)) :=
  (r23_keep_main_arg1 (Q23 m c)).trans (J22_main_arg1 m c)

theorem J23_main_arg2 : Q24 m c (Proc.devRef .tc main_arg2) = (m ((c.tc : Thread nD τ).loc main_arg2)) :=
  (r23_keep_main_arg2 (Q23 m c)).trans (J22_main_arg2 m c)

theorem J23_main_arg3 : Q24 m c (Proc.devRef .tc main_arg3) = (m ((c.tc : Thread nD τ).loc main_arg3)) :=
  (r23_keep_main_arg3 (Q23 m c)).trans (J22_main_arg3 m c)

theorem J23_main_arg4 : Q24 m c (Proc.devRef .tc main_arg4) = (m ((c.tc : Thread nD τ).loc main_arg4)) :=
  (r23_keep_main_arg4 (Q23 m c)).trans (J22_main_arg4 m c)

theorem J23_main_arg5 : Q24 m c (Proc.devRef .tc main_arg5) = (m ((c.tc : Thread nD τ).loc main_arg5)) :=
  (r23_keep_main_arg5 (Q23 m c)).trans (J22_main_arg5 m c)

theorem J23_main_arg6 : Q24 m c (Proc.devRef .tc main_arg6) = (m ((c.tc : Thread nD τ).loc main_arg6)) :=
  (r23_keep_main_arg6 (Q23 m c)).trans (J22_main_arg6 m c)

theorem J23_main_arg7 : Q24 m c (Proc.devRef .tc main_arg7) = (m ((c.tc : Thread nD τ).loc main_arg7)) :=
  (r23_keep_main_arg7 (Q23 m c)).trans (J22_main_arg7 m c)

theorem J23_main_arg8 : Q24 m c (Proc.devRef .tc main_arg8) = (m ((c.tc : Thread nD τ).loc main_arg8)) :=
  (r23_keep_main_arg8 (Q23 m c)).trans (J22_main_arg8 m c)

theorem J23_main_arg9 : Q24 m c (Proc.devRef .tc main_arg9) = (m ((c.tc : Thread nD τ).loc main_arg9)) :=
  (r23_keep_main_arg9 (Q23 m c)).trans (J22_main_arg9 m c)

theorem J23_main_arg10 : Q24 m c (Proc.devRef .tc main_arg10) = (m ((c.tc : Thread nD τ).loc main_arg10)) :=
  (r23_keep_main_arg10 (Q23 m c)).trans (J22_main_arg10 m c)

theorem J23_main_arg11 : Q24 m c (Proc.devRef .tc main_arg11) = (m ((c.tc : Thread nD τ).loc main_arg11)) :=
  (r23_keep_main_arg11 (Q23 m c)).trans (J22_main_arg11 m c)

theorem J23_main_arg12 : Q24 m c (Proc.devRef .tc main_arg12) = (m ((c.tc : Thread nD τ).loc main_arg12)) :=
  (r23_keep_main_arg12 (Q23 m c)).trans (J22_main_arg12 m c)

theorem J23_main_arg13 : Q24 m c (Proc.devRef .tc main_arg13) = (m ((c.tc : Thread nD τ).loc main_arg13)) :=
  (r23_keep_main_arg13 (Q23 m c)).trans (J22_main_arg13 m c)

theorem J23_main_arg14 : Q24 m c (Proc.devRef .tc main_arg14) = (m ((c.tc : Thread nD τ).loc main_arg14)) :=
  (r23_keep_main_arg14 (Q23 m c)).trans (J22_main_arg14 m c)

theorem J23_main_arg15 : Q24 m c (Proc.devRef .tc main_arg15) = (m ((c.tc : Thread nD τ).loc main_arg15)) :=
  (r23_keep_main_arg15 (Q23 m c)).trans (J22_main_arg15 m c)

theorem J23_main_arg16 : Q24 m c (Proc.devRef .tc main_arg16) = (m ((c.tc : Thread nD τ).loc main_arg16)) :=
  (r23_keep_main_arg16 (Q23 m c)).trans (J22_main_arg16 m c)

theorem J23_main_arg17 : Q24 m c (Proc.devRef .tc main_arg17) = (m ((c.tc : Thread nD τ).loc main_arg17)) :=
  (r23_keep_main_arg17 (Q23 m c)).trans (J22_main_arg17 m c)

theorem J23_main_arg18 : Q24 m c (Proc.devRef .tc main_arg18) = (m ((c.tc : Thread nD τ).loc main_arg18)) :=
  (r23_keep_main_arg18 (Q23 m c)).trans (J22_main_arg18 m c)

theorem J23_main_arg19 : Q24 m c (Proc.devRef .tc main_arg19) = (m ((c.tc : Thread nD τ).loc main_arg19)) :=
  (r23_keep_main_arg19 (Q23 m c)).trans (J22_main_arg19 m c)

theorem J23_main_arg20 : Q24 m c (Proc.devRef .tc main_arg20) = (m ((c.tc : Thread nD τ).loc main_arg20)) :=
  (r23_keep_main_arg20 (Q23 m c)).trans (J22_main_arg20 m c)

theorem J23_main_arg21 : Q24 m c (Proc.devRef .tc main_arg21) = (m ((c.tc : Thread nD τ).loc main_arg21)) :=
  (r23_keep_main_arg21 (Q23 m c)).trans (J22_main_arg21 m c)

theorem J23_main_arg22 : Q24 m c (Proc.devRef .tc main_arg22) = (m ((c.tc : Thread nD τ).loc main_arg22)) :=
  (r23_keep_main_arg22 (Q23 m c)).trans (J22_main_arg22 m c)

theorem J23_main_arg23 : Q24 m c (Proc.devRef .tc main_arg23) = (m ((c.tc : Thread nD τ).loc main_arg23)) :=
  (r23_keep_main_arg23 (Q23 m c)).trans (J22_main_arg23 m c)

theorem J23_main_arg24 : Q24 m c (Proc.devRef .tc main_arg24) = (m ((c.tc : Thread nD τ).loc main_arg24)) :=
  (r23_keep_main_arg24 (Q23 m c)).trans (J22_main_arg24 m c)

theorem J23_main_arg25 : Q24 m c (Proc.devRef .tc main_arg25) = (m ((c.tc : Thread nD τ).loc main_arg25)) :=
  (r23_keep_main_arg25 (Q23 m c)).trans (J22_main_arg25 m c)

theorem J23_main_arg26 : Q24 m c (Proc.devRef .tc main_arg26) = (m ((c.tc : Thread nD τ).loc main_arg26)) :=
  (r23_keep_main_arg26 (Q23 m c)).trans (J22_main_arg26 m c)

theorem J23_main_arg27 : Q24 m c (Proc.devRef .tc main_arg27) = (m ((c.tc : Thread nD τ).loc main_arg27)) :=
  (r23_keep_main_arg27 (Q23 m c)).trans (J22_main_arg27 m c)

theorem J23_main_arg28 : Q24 m c (Proc.devRef .tc main_arg28) = (m ((c.tc : Thread nD τ).loc main_arg28)) :=
  (r23_keep_main_arg28 (Q23 m c)).trans (J22_main_arg28 m c)

theorem J24_main_v5 : Q25 m c (Proc.devRef .tc main_v5) = val_main_v5 (F := Ideal) (m ((c.tc : Thread nD τ).loc main_arg2)) :=
  (r24_keep_main_v5 (Q24 m c)).trans (J23_main_v5 m c)

theorem J24_main_v7 : Q25 m c (Proc.devRef .tc main_v7) = val_main_v7 (F := Ideal) (m ((c.tc : Thread nD τ).loc main_arg2)) :=
  (r24_keep_main_v7 (Q24 m c)).trans (J23_main_v7 m c)

theorem J24_main_v114 : Q25 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r24_keep_main_v114 (Q24 m c)).trans (J23_main_v114 m c)

theorem J24_main_v157 : Q25 m c (Proc.devRef .tc main_v157) = val_main_v157 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  r24_main_v157 (Q24 m c) (J23_main_v117 m c) (J23_main_v141 m c) (J23_main_v116 m c) (J23_main_v140 m c) (J23_main_arg14 m c)

theorem J24_main_arg0 : Q25 m c (Proc.devRef .tc main_arg0) = (m ((c.tc : Thread nD τ).loc main_arg0)) :=
  (r24_keep_main_arg0 (Q24 m c)).trans (J23_main_arg0 m c)

theorem J24_main_arg1 : Q25 m c (Proc.devRef .tc main_arg1) = (m ((c.tc : Thread nD τ).loc main_arg1)) :=
  (r24_keep_main_arg1 (Q24 m c)).trans (J23_main_arg1 m c)

theorem J24_main_arg2 : Q25 m c (Proc.devRef .tc main_arg2) = (m ((c.tc : Thread nD τ).loc main_arg2)) :=
  (r24_keep_main_arg2 (Q24 m c)).trans (J23_main_arg2 m c)

theorem J24_main_arg3 : Q25 m c (Proc.devRef .tc main_arg3) = (m ((c.tc : Thread nD τ).loc main_arg3)) :=
  (r24_keep_main_arg3 (Q24 m c)).trans (J23_main_arg3 m c)

theorem J24_main_arg4 : Q25 m c (Proc.devRef .tc main_arg4) = (m ((c.tc : Thread nD τ).loc main_arg4)) :=
  (r24_keep_main_arg4 (Q24 m c)).trans (J23_main_arg4 m c)

theorem J24_main_arg5 : Q25 m c (Proc.devRef .tc main_arg5) = (m ((c.tc : Thread nD τ).loc main_arg5)) :=
  (r24_keep_main_arg5 (Q24 m c)).trans (J23_main_arg5 m c)

theorem J24_main_arg6 : Q25 m c (Proc.devRef .tc main_arg6) = (m ((c.tc : Thread nD τ).loc main_arg6)) :=
  (r24_keep_main_arg6 (Q24 m c)).trans (J23_main_arg6 m c)

theorem J24_main_arg7 : Q25 m c (Proc.devRef .tc main_arg7) = (m ((c.tc : Thread nD τ).loc main_arg7)) :=
  (r24_keep_main_arg7 (Q24 m c)).trans (J23_main_arg7 m c)

theorem J24_main_arg8 : Q25 m c (Proc.devRef .tc main_arg8) = (m ((c.tc : Thread nD τ).loc main_arg8)) :=
  (r24_keep_main_arg8 (Q24 m c)).trans (J23_main_arg8 m c)

theorem J24_main_arg9 : Q25 m c (Proc.devRef .tc main_arg9) = (m ((c.tc : Thread nD τ).loc main_arg9)) :=
  (r24_keep_main_arg9 (Q24 m c)).trans (J23_main_arg9 m c)

theorem J24_main_arg10 : Q25 m c (Proc.devRef .tc main_arg10) = (m ((c.tc : Thread nD τ).loc main_arg10)) :=
  (r24_keep_main_arg10 (Q24 m c)).trans (J23_main_arg10 m c)

theorem J24_main_arg11 : Q25 m c (Proc.devRef .tc main_arg11) = (m ((c.tc : Thread nD τ).loc main_arg11)) :=
  (r24_keep_main_arg11 (Q24 m c)).trans (J23_main_arg11 m c)

theorem J24_main_arg12 : Q25 m c (Proc.devRef .tc main_arg12) = (m ((c.tc : Thread nD τ).loc main_arg12)) :=
  (r24_keep_main_arg12 (Q24 m c)).trans (J23_main_arg12 m c)

theorem J24_main_arg13 : Q25 m c (Proc.devRef .tc main_arg13) = (m ((c.tc : Thread nD τ).loc main_arg13)) :=
  (r24_keep_main_arg13 (Q24 m c)).trans (J23_main_arg13 m c)

theorem J24_main_arg14 : Q25 m c (Proc.devRef .tc main_arg14) = (m ((c.tc : Thread nD τ).loc main_arg14)) :=
  (r24_keep_main_arg14 (Q24 m c)).trans (J23_main_arg14 m c)

theorem J24_main_arg15 : Q25 m c (Proc.devRef .tc main_arg15) = (m ((c.tc : Thread nD τ).loc main_arg15)) :=
  (r24_keep_main_arg15 (Q24 m c)).trans (J23_main_arg15 m c)

theorem J24_main_arg16 : Q25 m c (Proc.devRef .tc main_arg16) = (m ((c.tc : Thread nD τ).loc main_arg16)) :=
  (r24_keep_main_arg16 (Q24 m c)).trans (J23_main_arg16 m c)

theorem J24_main_arg17 : Q25 m c (Proc.devRef .tc main_arg17) = (m ((c.tc : Thread nD τ).loc main_arg17)) :=
  (r24_keep_main_arg17 (Q24 m c)).trans (J23_main_arg17 m c)

theorem J24_main_arg18 : Q25 m c (Proc.devRef .tc main_arg18) = (m ((c.tc : Thread nD τ).loc main_arg18)) :=
  (r24_keep_main_arg18 (Q24 m c)).trans (J23_main_arg18 m c)

theorem J24_main_arg19 : Q25 m c (Proc.devRef .tc main_arg19) = (m ((c.tc : Thread nD τ).loc main_arg19)) :=
  (r24_keep_main_arg19 (Q24 m c)).trans (J23_main_arg19 m c)

theorem J24_main_arg20 : Q25 m c (Proc.devRef .tc main_arg20) = (m ((c.tc : Thread nD τ).loc main_arg20)) :=
  (r24_keep_main_arg20 (Q24 m c)).trans (J23_main_arg20 m c)

theorem J24_main_arg21 : Q25 m c (Proc.devRef .tc main_arg21) = (m ((c.tc : Thread nD τ).loc main_arg21)) :=
  (r24_keep_main_arg21 (Q24 m c)).trans (J23_main_arg21 m c)

theorem J24_main_arg22 : Q25 m c (Proc.devRef .tc main_arg22) = (m ((c.tc : Thread nD τ).loc main_arg22)) :=
  (r24_keep_main_arg22 (Q24 m c)).trans (J23_main_arg22 m c)

theorem J24_main_arg23 : Q25 m c (Proc.devRef .tc main_arg23) = (m ((c.tc : Thread nD τ).loc main_arg23)) :=
  (r24_keep_main_arg23 (Q24 m c)).trans (J23_main_arg23 m c)

theorem J24_main_arg24 : Q25 m c (Proc.devRef .tc main_arg24) = (m ((c.tc : Thread nD τ).loc main_arg24)) :=
  (r24_keep_main_arg24 (Q24 m c)).trans (J23_main_arg24 m c)

theorem J24_main_arg25 : Q25 m c (Proc.devRef .tc main_arg25) = (m ((c.tc : Thread nD τ).loc main_arg25)) :=
  (r24_keep_main_arg25 (Q24 m c)).trans (J23_main_arg25 m c)

theorem J24_main_arg26 : Q25 m c (Proc.devRef .tc main_arg26) = (m ((c.tc : Thread nD τ).loc main_arg26)) :=
  (r24_keep_main_arg26 (Q24 m c)).trans (J23_main_arg26 m c)

theorem J24_main_arg27 : Q25 m c (Proc.devRef .tc main_arg27) = (m ((c.tc : Thread nD τ).loc main_arg27)) :=
  (r24_keep_main_arg27 (Q24 m c)).trans (J23_main_arg27 m c)

theorem J24_main_arg28 : Q25 m c (Proc.devRef .tc main_arg28) = (m ((c.tc : Thread nD τ).loc main_arg28)) :=
  (r24_keep_main_arg28 (Q24 m c)).trans (J23_main_arg28 m c)

theorem J25_main_v5 : Q26 m c (Proc.devRef .tc main_v5) = val_main_v5 (F := Ideal) (m ((c.tc : Thread nD τ).loc main_arg2)) :=
  (r25_keep_main_v5 (Q25 m c)).trans (J24_main_v5 m c)

theorem J25_main_v7 : Q26 m c (Proc.devRef .tc main_v7) = val_main_v7 (F := Ideal) (m ((c.tc : Thread nD τ).loc main_arg2)) :=
  (r25_keep_main_v7 (Q25 m c)).trans (J24_main_v7 m c)

theorem J25_main_v114 : Q26 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r25_keep_main_v114 (Q25 m c)).trans (J24_main_v114 m c)

theorem J25_main_v158 : Q26 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  r25_main_v158 (Q25 m c) (J24_main_v157 m c)

theorem J25_main_arg0 : Q26 m c (Proc.devRef .tc main_arg0) = (m ((c.tc : Thread nD τ).loc main_arg0)) :=
  (r25_keep_main_arg0 (Q25 m c)).trans (J24_main_arg0 m c)

theorem J25_main_arg1 : Q26 m c (Proc.devRef .tc main_arg1) = (m ((c.tc : Thread nD τ).loc main_arg1)) :=
  (r25_keep_main_arg1 (Q25 m c)).trans (J24_main_arg1 m c)

theorem J25_main_arg2 : Q26 m c (Proc.devRef .tc main_arg2) = (m ((c.tc : Thread nD τ).loc main_arg2)) :=
  (r25_keep_main_arg2 (Q25 m c)).trans (J24_main_arg2 m c)

theorem J25_main_arg3 : Q26 m c (Proc.devRef .tc main_arg3) = (m ((c.tc : Thread nD τ).loc main_arg3)) :=
  (r25_keep_main_arg3 (Q25 m c)).trans (J24_main_arg3 m c)

theorem J25_main_arg4 : Q26 m c (Proc.devRef .tc main_arg4) = (m ((c.tc : Thread nD τ).loc main_arg4)) :=
  (r25_keep_main_arg4 (Q25 m c)).trans (J24_main_arg4 m c)

theorem J25_main_arg5 : Q26 m c (Proc.devRef .tc main_arg5) = (m ((c.tc : Thread nD τ).loc main_arg5)) :=
  (r25_keep_main_arg5 (Q25 m c)).trans (J24_main_arg5 m c)

theorem J25_main_arg6 : Q26 m c (Proc.devRef .tc main_arg6) = (m ((c.tc : Thread nD τ).loc main_arg6)) :=
  (r25_keep_main_arg6 (Q25 m c)).trans (J24_main_arg6 m c)

theorem J25_main_arg7 : Q26 m c (Proc.devRef .tc main_arg7) = (m ((c.tc : Thread nD τ).loc main_arg7)) :=
  (r25_keep_main_arg7 (Q25 m c)).trans (J24_main_arg7 m c)

theorem J25_main_arg8 : Q26 m c (Proc.devRef .tc main_arg8) = (m ((c.tc : Thread nD τ).loc main_arg8)) :=
  (r25_keep_main_arg8 (Q25 m c)).trans (J24_main_arg8 m c)

theorem J25_main_arg9 : Q26 m c (Proc.devRef .tc main_arg9) = (m ((c.tc : Thread nD τ).loc main_arg9)) :=
  (r25_keep_main_arg9 (Q25 m c)).trans (J24_main_arg9 m c)

theorem J25_main_arg10 : Q26 m c (Proc.devRef .tc main_arg10) = (m ((c.tc : Thread nD τ).loc main_arg10)) :=
  (r25_keep_main_arg10 (Q25 m c)).trans (J24_main_arg10 m c)

theorem J25_main_arg11 : Q26 m c (Proc.devRef .tc main_arg11) = (m ((c.tc : Thread nD τ).loc main_arg11)) :=
  (r25_keep_main_arg11 (Q25 m c)).trans (J24_main_arg11 m c)

theorem J25_main_arg12 : Q26 m c (Proc.devRef .tc main_arg12) = (m ((c.tc : Thread nD τ).loc main_arg12)) :=
  (r25_keep_main_arg12 (Q25 m c)).trans (J24_main_arg12 m c)

theorem J25_main_arg13 : Q26 m c (Proc.devRef .tc main_arg13) = (m ((c.tc : Thread nD τ).loc main_arg13)) :=
  (r25_keep_main_arg13 (Q25 m c)).trans (J24_main_arg13 m c)

theorem J25_main_arg14 : Q26 m c (Proc.devRef .tc main_arg14) = (m ((c.tc : Thread nD τ).loc main_arg14)) :=
  (r25_keep_main_arg14 (Q25 m c)).trans (J24_main_arg14 m c)

theorem J25_main_arg15 : Q26 m c (Proc.devRef .tc main_arg15) = (m ((c.tc : Thread nD τ).loc main_arg15)) :=
  (r25_keep_main_arg15 (Q25 m c)).trans (J24_main_arg15 m c)

theorem J25_main_arg16 : Q26 m c (Proc.devRef .tc main_arg16) = (m ((c.tc : Thread nD τ).loc main_arg16)) :=
  (r25_keep_main_arg16 (Q25 m c)).trans (J24_main_arg16 m c)

theorem J25_main_arg17 : Q26 m c (Proc.devRef .tc main_arg17) = (m ((c.tc : Thread nD τ).loc main_arg17)) :=
  (r25_keep_main_arg17 (Q25 m c)).trans (J24_main_arg17 m c)

theorem J25_main_arg18 : Q26 m c (Proc.devRef .tc main_arg18) = (m ((c.tc : Thread nD τ).loc main_arg18)) :=
  (r25_keep_main_arg18 (Q25 m c)).trans (J24_main_arg18 m c)

theorem J25_main_arg19 : Q26 m c (Proc.devRef .tc main_arg19) = (m ((c.tc : Thread nD τ).loc main_arg19)) :=
  (r25_keep_main_arg19 (Q25 m c)).trans (J24_main_arg19 m c)

theorem J25_main_arg20 : Q26 m c (Proc.devRef .tc main_arg20) = (m ((c.tc : Thread nD τ).loc main_arg20)) :=
  (r25_keep_main_arg20 (Q25 m c)).trans (J24_main_arg20 m c)

theorem J25_main_arg21 : Q26 m c (Proc.devRef .tc main_arg21) = (m ((c.tc : Thread nD τ).loc main_arg21)) :=
  (r25_keep_main_arg21 (Q25 m c)).trans (J24_main_arg21 m c)

theorem J25_main_arg22 : Q26 m c (Proc.devRef .tc main_arg22) = (m ((c.tc : Thread nD τ).loc main_arg22)) :=
  (r25_keep_main_arg22 (Q25 m c)).trans (J24_main_arg22 m c)

theorem J25_main_arg23 : Q26 m c (Proc.devRef .tc main_arg23) = (m ((c.tc : Thread nD τ).loc main_arg23)) :=
  (r25_keep_main_arg23 (Q25 m c)).trans (J24_main_arg23 m c)

theorem J25_main_arg24 : Q26 m c (Proc.devRef .tc main_arg24) = (m ((c.tc : Thread nD τ).loc main_arg24)) :=
  (r25_keep_main_arg24 (Q25 m c)).trans (J24_main_arg24 m c)

theorem J25_main_arg25 : Q26 m c (Proc.devRef .tc main_arg25) = (m ((c.tc : Thread nD τ).loc main_arg25)) :=
  (r25_keep_main_arg25 (Q25 m c)).trans (J24_main_arg25 m c)

theorem J25_main_arg26 : Q26 m c (Proc.devRef .tc main_arg26) = (m ((c.tc : Thread nD τ).loc main_arg26)) :=
  (r25_keep_main_arg26 (Q25 m c)).trans (J24_main_arg26 m c)

theorem J25_main_arg27 : Q26 m c (Proc.devRef .tc main_arg27) = (m ((c.tc : Thread nD τ).loc main_arg27)) :=
  (r25_keep_main_arg27 (Q25 m c)).trans (J24_main_arg27 m c)

theorem J25_main_arg28 : Q26 m c (Proc.devRef .tc main_arg28) = (m ((c.tc : Thread nD τ).loc main_arg28)) :=
  (r25_keep_main_arg28 (Q25 m c)).trans (J24_main_arg28 m c)

theorem J26_main_v114 : Q27 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r26_keep_main_v114 (Q26 m c)).trans (J25_main_v114 m c)

theorem J26_main_v158 : Q27 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r26_keep_main_v158 (Q26 m c)).trans (J25_main_v158 m c)

theorem J26_main_v160 : Q27 m c (Proc.devRef .tc main_v160) = val_main_v160 (F := Ideal) (m ((c.tc : Thread nD τ).loc main_arg2)) :=
  r26_main_v160 (Q26 m c) (J25_main_v5 m c)

theorem J26_main_v161 : Q27 m c (Proc.devRef .tc main_v161) = val_main_v161 (F := Ideal) (m ((c.tc : Thread nD τ).loc main_arg2)) :=
  r26_main_v161 (Q26 m c) (J25_main_v7 m c)

theorem J26_main_v167 : Q27 m c (Proc.devRef .tc main_v167) = val_main_v167 (F := Ideal) (m ((c.tc : Thread nD τ).loc main_arg2)) :=
  r26_main_v167 (Q26 m c) (J25_main_v7 m c)

theorem J26_main_v168 : Q27 m c (Proc.devRef .tc main_v168) = val_main_v168 (F := Ideal) (m ((c.tc : Thread nD τ).loc main_arg2)) :=
  r26_main_v168 (Q26 m c) (J25_main_v7 m c)

theorem J26_main_cst_34 : Q27 m c (Proc.devRef .tc main_cst_34) = val_main_cst_34 (F := Ideal) :=
  r26_main_cst_34 (Q26 m c)

theorem J26_main_arg0 : Q27 m c (Proc.devRef .tc main_arg0) = (m ((c.tc : Thread nD τ).loc main_arg0)) :=
  (r26_keep_main_arg0 (Q26 m c)).trans (J25_main_arg0 m c)

theorem J26_main_arg1 : Q27 m c (Proc.devRef .tc main_arg1) = (m ((c.tc : Thread nD τ).loc main_arg1)) :=
  (r26_keep_main_arg1 (Q26 m c)).trans (J25_main_arg1 m c)

theorem J26_main_arg2 : Q27 m c (Proc.devRef .tc main_arg2) = (m ((c.tc : Thread nD τ).loc main_arg2)) :=
  (r26_keep_main_arg2 (Q26 m c)).trans (J25_main_arg2 m c)

theorem J26_main_arg3 : Q27 m c (Proc.devRef .tc main_arg3) = (m ((c.tc : Thread nD τ).loc main_arg3)) :=
  (r26_keep_main_arg3 (Q26 m c)).trans (J25_main_arg3 m c)

theorem J26_main_arg4 : Q27 m c (Proc.devRef .tc main_arg4) = (m ((c.tc : Thread nD τ).loc main_arg4)) :=
  (r26_keep_main_arg4 (Q26 m c)).trans (J25_main_arg4 m c)

theorem J26_main_arg5 : Q27 m c (Proc.devRef .tc main_arg5) = (m ((c.tc : Thread nD τ).loc main_arg5)) :=
  (r26_keep_main_arg5 (Q26 m c)).trans (J25_main_arg5 m c)

theorem J26_main_arg6 : Q27 m c (Proc.devRef .tc main_arg6) = (m ((c.tc : Thread nD τ).loc main_arg6)) :=
  (r26_keep_main_arg6 (Q26 m c)).trans (J25_main_arg6 m c)

theorem J26_main_arg7 : Q27 m c (Proc.devRef .tc main_arg7) = (m ((c.tc : Thread nD τ).loc main_arg7)) :=
  (r26_keep_main_arg7 (Q26 m c)).trans (J25_main_arg7 m c)

theorem J26_main_arg8 : Q27 m c (Proc.devRef .tc main_arg8) = (m ((c.tc : Thread nD τ).loc main_arg8)) :=
  (r26_keep_main_arg8 (Q26 m c)).trans (J25_main_arg8 m c)

theorem J26_main_arg9 : Q27 m c (Proc.devRef .tc main_arg9) = (m ((c.tc : Thread nD τ).loc main_arg9)) :=
  (r26_keep_main_arg9 (Q26 m c)).trans (J25_main_arg9 m c)

theorem J26_main_arg10 : Q27 m c (Proc.devRef .tc main_arg10) = (m ((c.tc : Thread nD τ).loc main_arg10)) :=
  (r26_keep_main_arg10 (Q26 m c)).trans (J25_main_arg10 m c)

theorem J26_main_arg11 : Q27 m c (Proc.devRef .tc main_arg11) = (m ((c.tc : Thread nD τ).loc main_arg11)) :=
  (r26_keep_main_arg11 (Q26 m c)).trans (J25_main_arg11 m c)

theorem J26_main_arg12 : Q27 m c (Proc.devRef .tc main_arg12) = (m ((c.tc : Thread nD τ).loc main_arg12)) :=
  (r26_keep_main_arg12 (Q26 m c)).trans (J25_main_arg12 m c)

theorem J26_main_arg13 : Q27 m c (Proc.devRef .tc main_arg13) = (m ((c.tc : Thread nD τ).loc main_arg13)) :=
  (r26_keep_main_arg13 (Q26 m c)).trans (J25_main_arg13 m c)

theorem J26_main_arg14 : Q27 m c (Proc.devRef .tc main_arg14) = (m ((c.tc : Thread nD τ).loc main_arg14)) :=
  (r26_keep_main_arg14 (Q26 m c)).trans (J25_main_arg14 m c)

theorem J26_main_arg15 : Q27 m c (Proc.devRef .tc main_arg15) = (m ((c.tc : Thread nD τ).loc main_arg15)) :=
  (r26_keep_main_arg15 (Q26 m c)).trans (J25_main_arg15 m c)

theorem J26_main_arg16 : Q27 m c (Proc.devRef .tc main_arg16) = (m ((c.tc : Thread nD τ).loc main_arg16)) :=
  (r26_keep_main_arg16 (Q26 m c)).trans (J25_main_arg16 m c)

theorem J26_main_arg17 : Q27 m c (Proc.devRef .tc main_arg17) = (m ((c.tc : Thread nD τ).loc main_arg17)) :=
  (r26_keep_main_arg17 (Q26 m c)).trans (J25_main_arg17 m c)

theorem J26_main_arg18 : Q27 m c (Proc.devRef .tc main_arg18) = (m ((c.tc : Thread nD τ).loc main_arg18)) :=
  (r26_keep_main_arg18 (Q26 m c)).trans (J25_main_arg18 m c)

theorem J26_main_arg19 : Q27 m c (Proc.devRef .tc main_arg19) = (m ((c.tc : Thread nD τ).loc main_arg19)) :=
  (r26_keep_main_arg19 (Q26 m c)).trans (J25_main_arg19 m c)

theorem J26_main_arg20 : Q27 m c (Proc.devRef .tc main_arg20) = (m ((c.tc : Thread nD τ).loc main_arg20)) :=
  (r26_keep_main_arg20 (Q26 m c)).trans (J25_main_arg20 m c)

theorem J26_main_arg21 : Q27 m c (Proc.devRef .tc main_arg21) = (m ((c.tc : Thread nD τ).loc main_arg21)) :=
  (r26_keep_main_arg21 (Q26 m c)).trans (J25_main_arg21 m c)

theorem J26_main_arg22 : Q27 m c (Proc.devRef .tc main_arg22) = (m ((c.tc : Thread nD τ).loc main_arg22)) :=
  (r26_keep_main_arg22 (Q26 m c)).trans (J25_main_arg22 m c)

theorem J26_main_arg23 : Q27 m c (Proc.devRef .tc main_arg23) = (m ((c.tc : Thread nD τ).loc main_arg23)) :=
  (r26_keep_main_arg23 (Q26 m c)).trans (J25_main_arg23 m c)

theorem J26_main_arg24 : Q27 m c (Proc.devRef .tc main_arg24) = (m ((c.tc : Thread nD τ).loc main_arg24)) :=
  (r26_keep_main_arg24 (Q26 m c)).trans (J25_main_arg24 m c)

theorem J26_main_arg25 : Q27 m c (Proc.devRef .tc main_arg25) = (m ((c.tc : Thread nD τ).loc main_arg25)) :=
  (r26_keep_main_arg25 (Q26 m c)).trans (J25_main_arg25 m c)

theorem J26_main_arg26 : Q27 m c (Proc.devRef .tc main_arg26) = (m ((c.tc : Thread nD τ).loc main_arg26)) :=
  (r26_keep_main_arg26 (Q26 m c)).trans (J25_main_arg26 m c)

theorem J26_main_arg27 : Q27 m c (Proc.devRef .tc main_arg27) = (m ((c.tc : Thread nD τ).loc main_arg27)) :=
  (r26_keep_main_arg27 (Q26 m c)).trans (J25_main_arg27 m c)

theorem J26_main_arg28 : Q27 m c (Proc.devRef .tc main_arg28) = (m ((c.tc : Thread nD τ).loc main_arg28)) :=
  (r26_keep_main_arg28 (Q26 m c)).trans (J25_main_arg28 m c)

theorem J27_main_v114 : Q28 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r27_keep_main_v114 (Q27 m c)).trans (J26_main_v114 m c)

theorem J27_main_v158 : Q28 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r27_keep_main_v158 (Q27 m c)).trans (J26_main_v158 m c)

theorem J27_main_v160 : Q28 m c (Proc.devRef .tc main_v160) = val_main_v160 (F := Ideal) (m ((c.tc : Thread nD τ).loc main_arg2)) :=
  (r27_keep_main_v160 (Q27 m c)).trans (J26_main_v160 m c)

theorem J27_main_v161 : Q28 m c (Proc.devRef .tc main_v161) = val_main_v161 (F := Ideal) (m ((c.tc : Thread nD τ).loc main_arg2)) :=
  (r27_keep_main_v161 (Q27 m c)).trans (J26_main_v161 m c)

theorem J27_main_v169 : Q28 m c (Proc.devRef .tc main_v169) = val_main_v169 (F := Ideal) (m ((c.tc : Thread nD τ).loc main_arg2)) :=
  r27_main_v169 (Q27 m c) (J26_main_v167 m c) (J26_main_v168 m c) (J26_main_cst_34 m c)

theorem J27_main_arg0 : Q28 m c (Proc.devRef .tc main_arg0) = (m ((c.tc : Thread nD τ).loc main_arg0)) :=
  (r27_keep_main_arg0 (Q27 m c)).trans (J26_main_arg0 m c)

theorem J27_main_arg1 : Q28 m c (Proc.devRef .tc main_arg1) = (m ((c.tc : Thread nD τ).loc main_arg1)) :=
  (r27_keep_main_arg1 (Q27 m c)).trans (J26_main_arg1 m c)

theorem J27_main_arg2 : Q28 m c (Proc.devRef .tc main_arg2) = (m ((c.tc : Thread nD τ).loc main_arg2)) :=
  (r27_keep_main_arg2 (Q27 m c)).trans (J26_main_arg2 m c)

theorem J27_main_arg3 : Q28 m c (Proc.devRef .tc main_arg3) = (m ((c.tc : Thread nD τ).loc main_arg3)) :=
  (r27_keep_main_arg3 (Q27 m c)).trans (J26_main_arg3 m c)

theorem J27_main_arg4 : Q28 m c (Proc.devRef .tc main_arg4) = (m ((c.tc : Thread nD τ).loc main_arg4)) :=
  (r27_keep_main_arg4 (Q27 m c)).trans (J26_main_arg4 m c)

theorem J27_main_arg5 : Q28 m c (Proc.devRef .tc main_arg5) = (m ((c.tc : Thread nD τ).loc main_arg5)) :=
  (r27_keep_main_arg5 (Q27 m c)).trans (J26_main_arg5 m c)

theorem J27_main_arg6 : Q28 m c (Proc.devRef .tc main_arg6) = (m ((c.tc : Thread nD τ).loc main_arg6)) :=
  (r27_keep_main_arg6 (Q27 m c)).trans (J26_main_arg6 m c)

theorem J27_main_arg7 : Q28 m c (Proc.devRef .tc main_arg7) = (m ((c.tc : Thread nD τ).loc main_arg7)) :=
  (r27_keep_main_arg7 (Q27 m c)).trans (J26_main_arg7 m c)

theorem J27_main_arg8 : Q28 m c (Proc.devRef .tc main_arg8) = (m ((c.tc : Thread nD τ).loc main_arg8)) :=
  (r27_keep_main_arg8 (Q27 m c)).trans (J26_main_arg8 m c)

theorem J27_main_arg9 : Q28 m c (Proc.devRef .tc main_arg9) = (m ((c.tc : Thread nD τ).loc main_arg9)) :=
  (r27_keep_main_arg9 (Q27 m c)).trans (J26_main_arg9 m c)

theorem J27_main_arg10 : Q28 m c (Proc.devRef .tc main_arg10) = (m ((c.tc : Thread nD τ).loc main_arg10)) :=
  (r27_keep_main_arg10 (Q27 m c)).trans (J26_main_arg10 m c)

theorem J27_main_arg11 : Q28 m c (Proc.devRef .tc main_arg11) = (m ((c.tc : Thread nD τ).loc main_arg11)) :=
  (r27_keep_main_arg11 (Q27 m c)).trans (J26_main_arg11 m c)

theorem J27_main_arg12 : Q28 m c (Proc.devRef .tc main_arg12) = (m ((c.tc : Thread nD τ).loc main_arg12)) :=
  (r27_keep_main_arg12 (Q27 m c)).trans (J26_main_arg12 m c)

theorem J27_main_arg13 : Q28 m c (Proc.devRef .tc main_arg13) = (m ((c.tc : Thread nD τ).loc main_arg13)) :=
  (r27_keep_main_arg13 (Q27 m c)).trans (J26_main_arg13 m c)

theorem J27_main_arg14 : Q28 m c (Proc.devRef .tc main_arg14) = (m ((c.tc : Thread nD τ).loc main_arg14)) :=
  (r27_keep_main_arg14 (Q27 m c)).trans (J26_main_arg14 m c)

theorem J27_main_arg15 : Q28 m c (Proc.devRef .tc main_arg15) = (m ((c.tc : Thread nD τ).loc main_arg15)) :=
  (r27_keep_main_arg15 (Q27 m c)).trans (J26_main_arg15 m c)

theorem J27_main_arg16 : Q28 m c (Proc.devRef .tc main_arg16) = (m ((c.tc : Thread nD τ).loc main_arg16)) :=
  (r27_keep_main_arg16 (Q27 m c)).trans (J26_main_arg16 m c)

theorem J27_main_arg17 : Q28 m c (Proc.devRef .tc main_arg17) = (m ((c.tc : Thread nD τ).loc main_arg17)) :=
  (r27_keep_main_arg17 (Q27 m c)).trans (J26_main_arg17 m c)

theorem J27_main_arg18 : Q28 m c (Proc.devRef .tc main_arg18) = (m ((c.tc : Thread nD τ).loc main_arg18)) :=
  (r27_keep_main_arg18 (Q27 m c)).trans (J26_main_arg18 m c)

theorem J27_main_arg19 : Q28 m c (Proc.devRef .tc main_arg19) = (m ((c.tc : Thread nD τ).loc main_arg19)) :=
  (r27_keep_main_arg19 (Q27 m c)).trans (J26_main_arg19 m c)

theorem J27_main_arg20 : Q28 m c (Proc.devRef .tc main_arg20) = (m ((c.tc : Thread nD τ).loc main_arg20)) :=
  (r27_keep_main_arg20 (Q27 m c)).trans (J26_main_arg20 m c)

theorem J27_main_arg21 : Q28 m c (Proc.devRef .tc main_arg21) = (m ((c.tc : Thread nD τ).loc main_arg21)) :=
  (r27_keep_main_arg21 (Q27 m c)).trans (J26_main_arg21 m c)

theorem J27_main_arg22 : Q28 m c (Proc.devRef .tc main_arg22) = (m ((c.tc : Thread nD τ).loc main_arg22)) :=
  (r27_keep_main_arg22 (Q27 m c)).trans (J26_main_arg22 m c)

theorem J27_main_arg23 : Q28 m c (Proc.devRef .tc main_arg23) = (m ((c.tc : Thread nD τ).loc main_arg23)) :=
  (r27_keep_main_arg23 (Q27 m c)).trans (J26_main_arg23 m c)

theorem J27_main_arg24 : Q28 m c (Proc.devRef .tc main_arg24) = (m ((c.tc : Thread nD τ).loc main_arg24)) :=
  (r27_keep_main_arg24 (Q27 m c)).trans (J26_main_arg24 m c)

theorem J27_main_arg25 : Q28 m c (Proc.devRef .tc main_arg25) = (m ((c.tc : Thread nD τ).loc main_arg25)) :=
  (r27_keep_main_arg25 (Q27 m c)).trans (J26_main_arg25 m c)

theorem J27_main_arg26 : Q28 m c (Proc.devRef .tc main_arg26) = (m ((c.tc : Thread nD τ).loc main_arg26)) :=
  (r27_keep_main_arg26 (Q27 m c)).trans (J26_main_arg26 m c)

theorem J27_main_arg27 : Q28 m c (Proc.devRef .tc main_arg27) = (m ((c.tc : Thread nD τ).loc main_arg27)) :=
  (r27_keep_main_arg27 (Q27 m c)).trans (J26_main_arg27 m c)

theorem J27_main_arg28 : Q28 m c (Proc.devRef .tc main_arg28) = (m ((c.tc : Thread nD τ).loc main_arg28)) :=
  (r27_keep_main_arg28 (Q27 m c)).trans (J26_main_arg28 m c)

theorem J28_main_v114 : Q29 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) :=
  (r28_keep_main_v114 (Q28 m c)).trans (J27_main_v114 m c)

theorem J28_main_v158 : Q29 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r28_keep_main_v158 (Q28 m c)).trans (J27_main_v158 m c)

theorem J28_main_v160 : Q29 m c (Proc.devRef .tc main_v160) = val_main_v160 (F := Ideal) (m ((c.tc : Thread nD τ).loc main_arg2)) :=
  (r28_keep_main_v160 (Q28 m c)).trans (J27_main_v160 m c)

theorem J28_main_v161 : Q29 m c (Proc.devRef .tc main_v161) = val_main_v161 (F := Ideal) (m ((c.tc : Thread nD τ).loc main_arg2)) :=
  (r28_keep_main_v161 (Q28 m c)).trans (J27_main_v161 m c)

theorem J28_main_v184 : Q29 m c (Proc.devRef .tc main_v184) = val_main_v184 (F := Ideal) (m ((c.tc : Thread nD τ).loc main_arg2)) :=
  r28_main_v184 (Q28 m c) (J27_main_v169 m c) (J27_main_v160 m c) (J27_main_v161 m c)

theorem J28_main_arg0 : Q29 m c (Proc.devRef .tc main_arg0) = (m ((c.tc : Thread nD τ).loc main_arg0)) :=
  (r28_keep_main_arg0 (Q28 m c)).trans (J27_main_arg0 m c)

theorem J28_main_arg1 : Q29 m c (Proc.devRef .tc main_arg1) = (m ((c.tc : Thread nD τ).loc main_arg1)) :=
  (r28_keep_main_arg1 (Q28 m c)).trans (J27_main_arg1 m c)

theorem J28_main_arg2 : Q29 m c (Proc.devRef .tc main_arg2) = (m ((c.tc : Thread nD τ).loc main_arg2)) :=
  (r28_keep_main_arg2 (Q28 m c)).trans (J27_main_arg2 m c)

theorem J28_main_arg3 : Q29 m c (Proc.devRef .tc main_arg3) = (m ((c.tc : Thread nD τ).loc main_arg3)) :=
  (r28_keep_main_arg3 (Q28 m c)).trans (J27_main_arg3 m c)

theorem J28_main_arg4 : Q29 m c (Proc.devRef .tc main_arg4) = (m ((c.tc : Thread nD τ).loc main_arg4)) :=
  (r28_keep_main_arg4 (Q28 m c)).trans (J27_main_arg4 m c)

theorem J28_main_arg5 : Q29 m c (Proc.devRef .tc main_arg5) = (m ((c.tc : Thread nD τ).loc main_arg5)) :=
  (r28_keep_main_arg5 (Q28 m c)).trans (J27_main_arg5 m c)

theorem J28_main_arg6 : Q29 m c (Proc.devRef .tc main_arg6) = (m ((c.tc : Thread nD τ).loc main_arg6)) :=
  (r28_keep_main_arg6 (Q28 m c)).trans (J27_main_arg6 m c)

theorem J28_main_arg7 : Q29 m c (Proc.devRef .tc main_arg7) = (m ((c.tc : Thread nD τ).loc main_arg7)) :=
  (r28_keep_main_arg7 (Q28 m c)).trans (J27_main_arg7 m c)

theorem J28_main_arg8 : Q29 m c (Proc.devRef .tc main_arg8) = (m ((c.tc : Thread nD τ).loc main_arg8)) :=
  (r28_keep_main_arg8 (Q28 m c)).trans (J27_main_arg8 m c)

theorem J28_main_arg9 : Q29 m c (Proc.devRef .tc main_arg9) = (m ((c.tc : Thread nD τ).loc main_arg9)) :=
  (r28_keep_main_arg9 (Q28 m c)).trans (J27_main_arg9 m c)

theorem J28_main_arg10 : Q29 m c (Proc.devRef .tc main_arg10) = (m ((c.tc : Thread nD τ).loc main_arg10)) :=
  (r28_keep_main_arg10 (Q28 m c)).trans (J27_main_arg10 m c)

theorem J28_main_arg11 : Q29 m c (Proc.devRef .tc main_arg11) = (m ((c.tc : Thread nD τ).loc main_arg11)) :=
  (r28_keep_main_arg11 (Q28 m c)).trans (J27_main_arg11 m c)

theorem J28_main_arg12 : Q29 m c (Proc.devRef .tc main_arg12) = (m ((c.tc : Thread nD τ).loc main_arg12)) :=
  (r28_keep_main_arg12 (Q28 m c)).trans (J27_main_arg12 m c)

theorem J28_main_arg13 : Q29 m c (Proc.devRef .tc main_arg13) = (m ((c.tc : Thread nD τ).loc main_arg13)) :=
  (r28_keep_main_arg13 (Q28 m c)).trans (J27_main_arg13 m c)

theorem J28_main_arg14 : Q29 m c (Proc.devRef .tc main_arg14) = (m ((c.tc : Thread nD τ).loc main_arg14)) :=
  (r28_keep_main_arg14 (Q28 m c)).trans (J27_main_arg14 m c)

theorem J28_main_arg15 : Q29 m c (Proc.devRef .tc main_arg15) = (m ((c.tc : Thread nD τ).loc main_arg15)) :=
  (r28_keep_main_arg15 (Q28 m c)).trans (J27_main_arg15 m c)

theorem J28_main_arg16 : Q29 m c (Proc.devRef .tc main_arg16) = (m ((c.tc : Thread nD τ).loc main_arg16)) :=
  (r28_keep_main_arg16 (Q28 m c)).trans (J27_main_arg16 m c)

theorem J28_main_arg17 : Q29 m c (Proc.devRef .tc main_arg17) = (m ((c.tc : Thread nD τ).loc main_arg17)) :=
  (r28_keep_main_arg17 (Q28 m c)).trans (J27_main_arg17 m c)

theorem J28_main_arg18 : Q29 m c (Proc.devRef .tc main_arg18) = (m ((c.tc : Thread nD τ).loc main_arg18)) :=
  (r28_keep_main_arg18 (Q28 m c)).trans (J27_main_arg18 m c)

theorem J28_main_arg19 : Q29 m c (Proc.devRef .tc main_arg19) = (m ((c.tc : Thread nD τ).loc main_arg19)) :=
  (r28_keep_main_arg19 (Q28 m c)).trans (J27_main_arg19 m c)

theorem J28_main_arg20 : Q29 m c (Proc.devRef .tc main_arg20) = (m ((c.tc : Thread nD τ).loc main_arg20)) :=
  (r28_keep_main_arg20 (Q28 m c)).trans (J27_main_arg20 m c)

theorem J28_main_arg21 : Q29 m c (Proc.devRef .tc main_arg21) = (m ((c.tc : Thread nD τ).loc main_arg21)) :=
  (r28_keep_main_arg21 (Q28 m c)).trans (J27_main_arg21 m c)

theorem J28_main_arg22 : Q29 m c (Proc.devRef .tc main_arg22) = (m ((c.tc : Thread nD τ).loc main_arg22)) :=
  (r28_keep_main_arg22 (Q28 m c)).trans (J27_main_arg22 m c)

theorem J28_main_arg23 : Q29 m c (Proc.devRef .tc main_arg23) = (m ((c.tc : Thread nD τ).loc main_arg23)) :=
  (r28_keep_main_arg23 (Q28 m c)).trans (J27_main_arg23 m c)

theorem J28_main_arg24 : Q29 m c (Proc.devRef .tc main_arg24) = (m ((c.tc : Thread nD τ).loc main_arg24)) :=
  (r28_keep_main_arg24 (Q28 m c)).trans (J27_main_arg24 m c)

theorem J28_main_arg25 : Q29 m c (Proc.devRef .tc main_arg25) = (m ((c.tc : Thread nD τ).loc main_arg25)) :=
  (r28_keep_main_arg25 (Q28 m c)).trans (J27_main_arg25 m c)

theorem J28_main_arg26 : Q29 m c (Proc.devRef .tc main_arg26) = (m ((c.tc : Thread nD τ).loc main_arg26)) :=
  (r28_keep_main_arg26 (Q28 m c)).trans (J27_main_arg26 m c)

theorem J28_main_arg27 : Q29 m c (Proc.devRef .tc main_arg27) = (m ((c.tc : Thread nD τ).loc main_arg27)) :=
  (r28_keep_main_arg27 (Q28 m c)).trans (J27_main_arg27 m c)

theorem J28_main_arg28 : Q29 m c (Proc.devRef .tc main_arg28) = (m ((c.tc : Thread nD τ).loc main_arg28)) :=
  (r28_keep_main_arg28 (Q28 m c)).trans (J27_main_arg28 m c)

theorem J29_main_v158 : Q30 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r29_keep_main_v158 (Q29 m c)).trans (J28_main_v158 m c)

theorem J29_main_v160 : Q30 m c (Proc.devRef .tc main_v160) = val_main_v160 (F := Ideal) (m ((c.tc : Thread nD τ).loc main_arg2)) :=
  (r29_keep_main_v160 (Q29 m c)).trans (J28_main_v160 m c)

theorem J29_main_v161 : Q30 m c (Proc.devRef .tc main_v161) = val_main_v161 (F := Ideal) (m ((c.tc : Thread nD τ).loc main_arg2)) :=
  (r29_keep_main_v161 (Q29 m c)).trans (J28_main_v161 m c)

theorem J29_main_v184 : Q30 m c (Proc.devRef .tc main_v184) = val_main_v184 (F := Ideal) (m ((c.tc : Thread nD τ).loc main_arg2)) :=
  (r29_keep_main_v184 (Q29 m c)).trans (J28_main_v184 m c)

theorem J29_main_v185 : Q30 m c (Proc.devRef .tc main_v185) = val_main_v185 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg17)) (m ((c.tc : Thread nD τ).loc main_arg18)) (m ((c.tc : Thread nD τ).loc main_arg19)) (m ((c.tc : Thread nD τ).loc main_arg20)) :=
  r29_main_v185 (Q29 m c) (J28_main_v114 m c) (J28_main_arg15 m c)

theorem J29_main_arg0 : Q30 m c (Proc.devRef .tc main_arg0) = (m ((c.tc : Thread nD τ).loc main_arg0)) :=
  (r29_keep_main_arg0 (Q29 m c)).trans (J28_main_arg0 m c)

theorem J29_main_arg1 : Q30 m c (Proc.devRef .tc main_arg1) = (m ((c.tc : Thread nD τ).loc main_arg1)) :=
  (r29_keep_main_arg1 (Q29 m c)).trans (J28_main_arg1 m c)

theorem J29_main_arg2 : Q30 m c (Proc.devRef .tc main_arg2) = (m ((c.tc : Thread nD τ).loc main_arg2)) :=
  (r29_keep_main_arg2 (Q29 m c)).trans (J28_main_arg2 m c)

theorem J29_main_arg3 : Q30 m c (Proc.devRef .tc main_arg3) = (m ((c.tc : Thread nD τ).loc main_arg3)) :=
  (r29_keep_main_arg3 (Q29 m c)).trans (J28_main_arg3 m c)

theorem J29_main_arg4 : Q30 m c (Proc.devRef .tc main_arg4) = (m ((c.tc : Thread nD τ).loc main_arg4)) :=
  (r29_keep_main_arg4 (Q29 m c)).trans (J28_main_arg4 m c)

theorem J29_main_arg5 : Q30 m c (Proc.devRef .tc main_arg5) = (m ((c.tc : Thread nD τ).loc main_arg5)) :=
  (r29_keep_main_arg5 (Q29 m c)).trans (J28_main_arg5 m c)

theorem J29_main_arg6 : Q30 m c (Proc.devRef .tc main_arg6) = (m ((c.tc : Thread nD τ).loc main_arg6)) :=
  (r29_keep_main_arg6 (Q29 m c)).trans (J28_main_arg6 m c)

theorem J29_main_arg7 : Q30 m c (Proc.devRef .tc main_arg7) = (m ((c.tc : Thread nD τ).loc main_arg7)) :=
  (r29_keep_main_arg7 (Q29 m c)).trans (J28_main_arg7 m c)

theorem J29_main_arg8 : Q30 m c (Proc.devRef .tc main_arg8) = (m ((c.tc : Thread nD τ).loc main_arg8)) :=
  (r29_keep_main_arg8 (Q29 m c)).trans (J28_main_arg8 m c)

theorem J29_main_arg9 : Q30 m c (Proc.devRef .tc main_arg9) = (m ((c.tc : Thread nD τ).loc main_arg9)) :=
  (r29_keep_main_arg9 (Q29 m c)).trans (J28_main_arg9 m c)

theorem J29_main_arg10 : Q30 m c (Proc.devRef .tc main_arg10) = (m ((c.tc : Thread nD τ).loc main_arg10)) :=
  (r29_keep_main_arg10 (Q29 m c)).trans (J28_main_arg10 m c)

theorem J29_main_arg11 : Q30 m c (Proc.devRef .tc main_arg11) = (m ((c.tc : Thread nD τ).loc main_arg11)) :=
  (r29_keep_main_arg11 (Q29 m c)).trans (J28_main_arg11 m c)

theorem J29_main_arg12 : Q30 m c (Proc.devRef .tc main_arg12) = (m ((c.tc : Thread nD τ).loc main_arg12)) :=
  (r29_keep_main_arg12 (Q29 m c)).trans (J28_main_arg12 m c)

theorem J29_main_arg13 : Q30 m c (Proc.devRef .tc main_arg13) = (m ((c.tc : Thread nD τ).loc main_arg13)) :=
  (r29_keep_main_arg13 (Q29 m c)).trans (J28_main_arg13 m c)

theorem J29_main_arg14 : Q30 m c (Proc.devRef .tc main_arg14) = (m ((c.tc : Thread nD τ).loc main_arg14)) :=
  (r29_keep_main_arg14 (Q29 m c)).trans (J28_main_arg14 m c)

theorem J29_main_arg15 : Q30 m c (Proc.devRef .tc main_arg15) = (m ((c.tc : Thread nD τ).loc main_arg15)) :=
  (r29_keep_main_arg15 (Q29 m c)).trans (J28_main_arg15 m c)

theorem J29_main_arg16 : Q30 m c (Proc.devRef .tc main_arg16) = (m ((c.tc : Thread nD τ).loc main_arg16)) :=
  (r29_keep_main_arg16 (Q29 m c)).trans (J28_main_arg16 m c)

theorem J29_main_arg17 : Q30 m c (Proc.devRef .tc main_arg17) = (m ((c.tc : Thread nD τ).loc main_arg17)) :=
  (r29_keep_main_arg17 (Q29 m c)).trans (J28_main_arg17 m c)

theorem J29_main_arg18 : Q30 m c (Proc.devRef .tc main_arg18) = (m ((c.tc : Thread nD τ).loc main_arg18)) :=
  (r29_keep_main_arg18 (Q29 m c)).trans (J28_main_arg18 m c)

theorem J29_main_arg19 : Q30 m c (Proc.devRef .tc main_arg19) = (m ((c.tc : Thread nD τ).loc main_arg19)) :=
  (r29_keep_main_arg19 (Q29 m c)).trans (J28_main_arg19 m c)

theorem J29_main_arg20 : Q30 m c (Proc.devRef .tc main_arg20) = (m ((c.tc : Thread nD τ).loc main_arg20)) :=
  (r29_keep_main_arg20 (Q29 m c)).trans (J28_main_arg20 m c)

theorem J29_main_arg21 : Q30 m c (Proc.devRef .tc main_arg21) = (m ((c.tc : Thread nD τ).loc main_arg21)) :=
  (r29_keep_main_arg21 (Q29 m c)).trans (J28_main_arg21 m c)

theorem J29_main_arg22 : Q30 m c (Proc.devRef .tc main_arg22) = (m ((c.tc : Thread nD τ).loc main_arg22)) :=
  (r29_keep_main_arg22 (Q29 m c)).trans (J28_main_arg22 m c)

theorem J29_main_arg23 : Q30 m c (Proc.devRef .tc main_arg23) = (m ((c.tc : Thread nD τ).loc main_arg23)) :=
  (r29_keep_main_arg23 (Q29 m c)).trans (J28_main_arg23 m c)

theorem J29_main_arg24 : Q30 m c (Proc.devRef .tc main_arg24) = (m ((c.tc : Thread nD τ).loc main_arg24)) :=
  (r29_keep_main_arg24 (Q29 m c)).trans (J28_main_arg24 m c)

theorem J29_main_arg25 : Q30 m c (Proc.devRef .tc main_arg25) = (m ((c.tc : Thread nD τ).loc main_arg25)) :=
  (r29_keep_main_arg25 (Q29 m c)).trans (J28_main_arg25 m c)

theorem J29_main_arg26 : Q30 m c (Proc.devRef .tc main_arg26) = (m ((c.tc : Thread nD τ).loc main_arg26)) :=
  (r29_keep_main_arg26 (Q29 m c)).trans (J28_main_arg26 m c)

theorem J29_main_arg27 : Q30 m c (Proc.devRef .tc main_arg27) = (m ((c.tc : Thread nD τ).loc main_arg27)) :=
  (r29_keep_main_arg27 (Q29 m c)).trans (J28_main_arg27 m c)

theorem J29_main_arg28 : Q30 m c (Proc.devRef .tc main_arg28) = (m ((c.tc : Thread nD τ).loc main_arg28)) :=
  (r29_keep_main_arg28 (Q29 m c)).trans (J28_main_arg28 m c)

theorem J30_main_v158 : Q31 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r30_keep_main_v158 (Q30 m c)).trans (J29_main_v158 m c)

theorem J30_main_v201 : Q31 m c (Proc.devRef .tc main_v201) = val_main_v201 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  r30_main_v201 (Q30 m c) (J29_main_v161 m c) (J29_main_v185 m c) (J29_main_v160 m c) (J29_main_v184 m c) (J29_main_arg16 m c)

theorem J30_main_arg0 : Q31 m c (Proc.devRef .tc main_arg0) = (m ((c.tc : Thread nD τ).loc main_arg0)) :=
  (r30_keep_main_arg0 (Q30 m c)).trans (J29_main_arg0 m c)

theorem J30_main_arg1 : Q31 m c (Proc.devRef .tc main_arg1) = (m ((c.tc : Thread nD τ).loc main_arg1)) :=
  (r30_keep_main_arg1 (Q30 m c)).trans (J29_main_arg1 m c)

theorem J30_main_arg2 : Q31 m c (Proc.devRef .tc main_arg2) = (m ((c.tc : Thread nD τ).loc main_arg2)) :=
  (r30_keep_main_arg2 (Q30 m c)).trans (J29_main_arg2 m c)

theorem J30_main_arg3 : Q31 m c (Proc.devRef .tc main_arg3) = (m ((c.tc : Thread nD τ).loc main_arg3)) :=
  (r30_keep_main_arg3 (Q30 m c)).trans (J29_main_arg3 m c)

theorem J30_main_arg4 : Q31 m c (Proc.devRef .tc main_arg4) = (m ((c.tc : Thread nD τ).loc main_arg4)) :=
  (r30_keep_main_arg4 (Q30 m c)).trans (J29_main_arg4 m c)

theorem J30_main_arg5 : Q31 m c (Proc.devRef .tc main_arg5) = (m ((c.tc : Thread nD τ).loc main_arg5)) :=
  (r30_keep_main_arg5 (Q30 m c)).trans (J29_main_arg5 m c)

theorem J30_main_arg6 : Q31 m c (Proc.devRef .tc main_arg6) = (m ((c.tc : Thread nD τ).loc main_arg6)) :=
  (r30_keep_main_arg6 (Q30 m c)).trans (J29_main_arg6 m c)

theorem J30_main_arg7 : Q31 m c (Proc.devRef .tc main_arg7) = (m ((c.tc : Thread nD τ).loc main_arg7)) :=
  (r30_keep_main_arg7 (Q30 m c)).trans (J29_main_arg7 m c)

theorem J30_main_arg8 : Q31 m c (Proc.devRef .tc main_arg8) = (m ((c.tc : Thread nD τ).loc main_arg8)) :=
  (r30_keep_main_arg8 (Q30 m c)).trans (J29_main_arg8 m c)

theorem J30_main_arg9 : Q31 m c (Proc.devRef .tc main_arg9) = (m ((c.tc : Thread nD τ).loc main_arg9)) :=
  (r30_keep_main_arg9 (Q30 m c)).trans (J29_main_arg9 m c)

theorem J30_main_arg10 : Q31 m c (Proc.devRef .tc main_arg10) = (m ((c.tc : Thread nD τ).loc main_arg10)) :=
  (r30_keep_main_arg10 (Q30 m c)).trans (J29_main_arg10 m c)

theorem J30_main_arg11 : Q31 m c (Proc.devRef .tc main_arg11) = (m ((c.tc : Thread nD τ).loc main_arg11)) :=
  (r30_keep_main_arg11 (Q30 m c)).trans (J29_main_arg11 m c)

theorem J30_main_arg12 : Q31 m c (Proc.devRef .tc main_arg12) = (m ((c.tc : Thread nD τ).loc main_arg12)) :=
  (r30_keep_main_arg12 (Q30 m c)).trans (J29_main_arg12 m c)

theorem J30_main_arg13 : Q31 m c (Proc.devRef .tc main_arg13) = (m ((c.tc : Thread nD τ).loc main_arg13)) :=
  (r30_keep_main_arg13 (Q30 m c)).trans (J29_main_arg13 m c)

theorem J30_main_arg14 : Q31 m c (Proc.devRef .tc main_arg14) = (m ((c.tc : Thread nD τ).loc main_arg14)) :=
  (r30_keep_main_arg14 (Q30 m c)).trans (J29_main_arg14 m c)

theorem J30_main_arg15 : Q31 m c (Proc.devRef .tc main_arg15) = (m ((c.tc : Thread nD τ).loc main_arg15)) :=
  (r30_keep_main_arg15 (Q30 m c)).trans (J29_main_arg15 m c)

theorem J30_main_arg16 : Q31 m c (Proc.devRef .tc main_arg16) = (m ((c.tc : Thread nD τ).loc main_arg16)) :=
  (r30_keep_main_arg16 (Q30 m c)).trans (J29_main_arg16 m c)

theorem J30_main_arg17 : Q31 m c (Proc.devRef .tc main_arg17) = (m ((c.tc : Thread nD τ).loc main_arg17)) :=
  (r30_keep_main_arg17 (Q30 m c)).trans (J29_main_arg17 m c)

theorem J30_main_arg18 : Q31 m c (Proc.devRef .tc main_arg18) = (m ((c.tc : Thread nD τ).loc main_arg18)) :=
  (r30_keep_main_arg18 (Q30 m c)).trans (J29_main_arg18 m c)

theorem J30_main_arg19 : Q31 m c (Proc.devRef .tc main_arg19) = (m ((c.tc : Thread nD τ).loc main_arg19)) :=
  (r30_keep_main_arg19 (Q30 m c)).trans (J29_main_arg19 m c)

theorem J30_main_arg20 : Q31 m c (Proc.devRef .tc main_arg20) = (m ((c.tc : Thread nD τ).loc main_arg20)) :=
  (r30_keep_main_arg20 (Q30 m c)).trans (J29_main_arg20 m c)

theorem J30_main_arg21 : Q31 m c (Proc.devRef .tc main_arg21) = (m ((c.tc : Thread nD τ).loc main_arg21)) :=
  (r30_keep_main_arg21 (Q30 m c)).trans (J29_main_arg21 m c)

theorem J30_main_arg22 : Q31 m c (Proc.devRef .tc main_arg22) = (m ((c.tc : Thread nD τ).loc main_arg22)) :=
  (r30_keep_main_arg22 (Q30 m c)).trans (J29_main_arg22 m c)

theorem J30_main_arg23 : Q31 m c (Proc.devRef .tc main_arg23) = (m ((c.tc : Thread nD τ).loc main_arg23)) :=
  (r30_keep_main_arg23 (Q30 m c)).trans (J29_main_arg23 m c)

theorem J30_main_arg24 : Q31 m c (Proc.devRef .tc main_arg24) = (m ((c.tc : Thread nD τ).loc main_arg24)) :=
  (r30_keep_main_arg24 (Q30 m c)).trans (J29_main_arg24 m c)

theorem J30_main_arg25 : Q31 m c (Proc.devRef .tc main_arg25) = (m ((c.tc : Thread nD τ).loc main_arg25)) :=
  (r30_keep_main_arg25 (Q30 m c)).trans (J29_main_arg25 m c)

theorem J30_main_arg26 : Q31 m c (Proc.devRef .tc main_arg26) = (m ((c.tc : Thread nD τ).loc main_arg26)) :=
  (r30_keep_main_arg26 (Q30 m c)).trans (J29_main_arg26 m c)

theorem J30_main_arg27 : Q31 m c (Proc.devRef .tc main_arg27) = (m ((c.tc : Thread nD τ).loc main_arg27)) :=
  (r30_keep_main_arg27 (Q30 m c)).trans (J29_main_arg27 m c)

theorem J30_main_arg28 : Q31 m c (Proc.devRef .tc main_arg28) = (m ((c.tc : Thread nD τ).loc main_arg28)) :=
  (r30_keep_main_arg28 (Q30 m c)).trans (J29_main_arg28 m c)

theorem J31_main_v158 : Q32 m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) :=
  (r31_keep_main_v158 (Q31 m c)).trans (J30_main_v158 m c)

theorem J31_main_v202 : Q32 m c (Proc.devRef .tc main_v202) = val_main_v202 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  r31_main_v202 (Q31 m c) (J30_main_v201 m c)

theorem J31_main_arg0 : Q32 m c (Proc.devRef .tc main_arg0) = (m ((c.tc : Thread nD τ).loc main_arg0)) :=
  (r31_keep_main_arg0 (Q31 m c)).trans (J30_main_arg0 m c)

theorem J31_main_arg1 : Q32 m c (Proc.devRef .tc main_arg1) = (m ((c.tc : Thread nD τ).loc main_arg1)) :=
  (r31_keep_main_arg1 (Q31 m c)).trans (J30_main_arg1 m c)

theorem J31_main_arg2 : Q32 m c (Proc.devRef .tc main_arg2) = (m ((c.tc : Thread nD τ).loc main_arg2)) :=
  (r31_keep_main_arg2 (Q31 m c)).trans (J30_main_arg2 m c)

theorem J31_main_arg3 : Q32 m c (Proc.devRef .tc main_arg3) = (m ((c.tc : Thread nD τ).loc main_arg3)) :=
  (r31_keep_main_arg3 (Q31 m c)).trans (J30_main_arg3 m c)

theorem J31_main_arg4 : Q32 m c (Proc.devRef .tc main_arg4) = (m ((c.tc : Thread nD τ).loc main_arg4)) :=
  (r31_keep_main_arg4 (Q31 m c)).trans (J30_main_arg4 m c)

theorem J31_main_arg5 : Q32 m c (Proc.devRef .tc main_arg5) = (m ((c.tc : Thread nD τ).loc main_arg5)) :=
  (r31_keep_main_arg5 (Q31 m c)).trans (J30_main_arg5 m c)

theorem J31_main_arg6 : Q32 m c (Proc.devRef .tc main_arg6) = (m ((c.tc : Thread nD τ).loc main_arg6)) :=
  (r31_keep_main_arg6 (Q31 m c)).trans (J30_main_arg6 m c)

theorem J31_main_arg7 : Q32 m c (Proc.devRef .tc main_arg7) = (m ((c.tc : Thread nD τ).loc main_arg7)) :=
  (r31_keep_main_arg7 (Q31 m c)).trans (J30_main_arg7 m c)

theorem J31_main_arg8 : Q32 m c (Proc.devRef .tc main_arg8) = (m ((c.tc : Thread nD τ).loc main_arg8)) :=
  (r31_keep_main_arg8 (Q31 m c)).trans (J30_main_arg8 m c)

theorem J31_main_arg9 : Q32 m c (Proc.devRef .tc main_arg9) = (m ((c.tc : Thread nD τ).loc main_arg9)) :=
  (r31_keep_main_arg9 (Q31 m c)).trans (J30_main_arg9 m c)

theorem J31_main_arg10 : Q32 m c (Proc.devRef .tc main_arg10) = (m ((c.tc : Thread nD τ).loc main_arg10)) :=
  (r31_keep_main_arg10 (Q31 m c)).trans (J30_main_arg10 m c)

theorem J31_main_arg11 : Q32 m c (Proc.devRef .tc main_arg11) = (m ((c.tc : Thread nD τ).loc main_arg11)) :=
  (r31_keep_main_arg11 (Q31 m c)).trans (J30_main_arg11 m c)

theorem J31_main_arg12 : Q32 m c (Proc.devRef .tc main_arg12) = (m ((c.tc : Thread nD τ).loc main_arg12)) :=
  (r31_keep_main_arg12 (Q31 m c)).trans (J30_main_arg12 m c)

theorem J31_main_arg13 : Q32 m c (Proc.devRef .tc main_arg13) = (m ((c.tc : Thread nD τ).loc main_arg13)) :=
  (r31_keep_main_arg13 (Q31 m c)).trans (J30_main_arg13 m c)

theorem J31_main_arg14 : Q32 m c (Proc.devRef .tc main_arg14) = (m ((c.tc : Thread nD τ).loc main_arg14)) :=
  (r31_keep_main_arg14 (Q31 m c)).trans (J30_main_arg14 m c)

theorem J31_main_arg15 : Q32 m c (Proc.devRef .tc main_arg15) = (m ((c.tc : Thread nD τ).loc main_arg15)) :=
  (r31_keep_main_arg15 (Q31 m c)).trans (J30_main_arg15 m c)

theorem J31_main_arg16 : Q32 m c (Proc.devRef .tc main_arg16) = (m ((c.tc : Thread nD τ).loc main_arg16)) :=
  (r31_keep_main_arg16 (Q31 m c)).trans (J30_main_arg16 m c)

theorem J31_main_arg17 : Q32 m c (Proc.devRef .tc main_arg17) = (m ((c.tc : Thread nD τ).loc main_arg17)) :=
  (r31_keep_main_arg17 (Q31 m c)).trans (J30_main_arg17 m c)

theorem J31_main_arg18 : Q32 m c (Proc.devRef .tc main_arg18) = (m ((c.tc : Thread nD τ).loc main_arg18)) :=
  (r31_keep_main_arg18 (Q31 m c)).trans (J30_main_arg18 m c)

theorem J31_main_arg19 : Q32 m c (Proc.devRef .tc main_arg19) = (m ((c.tc : Thread nD τ).loc main_arg19)) :=
  (r31_keep_main_arg19 (Q31 m c)).trans (J30_main_arg19 m c)

theorem J31_main_arg20 : Q32 m c (Proc.devRef .tc main_arg20) = (m ((c.tc : Thread nD τ).loc main_arg20)) :=
  (r31_keep_main_arg20 (Q31 m c)).trans (J30_main_arg20 m c)

theorem J31_main_arg21 : Q32 m c (Proc.devRef .tc main_arg21) = (m ((c.tc : Thread nD τ).loc main_arg21)) :=
  (r31_keep_main_arg21 (Q31 m c)).trans (J30_main_arg21 m c)

theorem J31_main_arg22 : Q32 m c (Proc.devRef .tc main_arg22) = (m ((c.tc : Thread nD τ).loc main_arg22)) :=
  (r31_keep_main_arg22 (Q31 m c)).trans (J30_main_arg22 m c)

theorem J31_main_arg23 : Q32 m c (Proc.devRef .tc main_arg23) = (m ((c.tc : Thread nD τ).loc main_arg23)) :=
  (r31_keep_main_arg23 (Q31 m c)).trans (J30_main_arg23 m c)

theorem J31_main_arg24 : Q32 m c (Proc.devRef .tc main_arg24) = (m ((c.tc : Thread nD τ).loc main_arg24)) :=
  (r31_keep_main_arg24 (Q31 m c)).trans (J30_main_arg24 m c)

theorem J31_main_arg25 : Q32 m c (Proc.devRef .tc main_arg25) = (m ((c.tc : Thread nD τ).loc main_arg25)) :=
  (r31_keep_main_arg25 (Q31 m c)).trans (J30_main_arg25 m c)

theorem J31_main_arg26 : Q32 m c (Proc.devRef .tc main_arg26) = (m ((c.tc : Thread nD τ).loc main_arg26)) :=
  (r31_keep_main_arg26 (Q31 m c)).trans (J30_main_arg26 m c)

theorem J31_main_arg27 : Q32 m c (Proc.devRef .tc main_arg27) = (m ((c.tc : Thread nD τ).loc main_arg27)) :=
  (r31_keep_main_arg27 (Q31 m c)).trans (J30_main_arg27 m c)

theorem J31_main_arg28 : Q32 m c (Proc.devRef .tc main_arg28) = (m ((c.tc : Thread nD τ).loc main_arg28)) :=
  (r31_keep_main_arg28 (Q31 m c)).trans (J30_main_arg28 m c)

theorem J32_main_v203 : Q33 m c (Proc.devRef .tc main_v203) = val_main_v203 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  r32_main_v203 (Q32 m c) (J31_main_v158 m c) (J31_main_v202 m c)

theorem J32_main_arg0 : Q33 m c (Proc.devRef .tc main_arg0) = (m ((c.tc : Thread nD τ).loc main_arg0)) :=
  (r32_keep_main_arg0 (Q32 m c)).trans (J31_main_arg0 m c)

theorem J32_main_arg1 : Q33 m c (Proc.devRef .tc main_arg1) = (m ((c.tc : Thread nD τ).loc main_arg1)) :=
  (r32_keep_main_arg1 (Q32 m c)).trans (J31_main_arg1 m c)

theorem J32_main_arg2 : Q33 m c (Proc.devRef .tc main_arg2) = (m ((c.tc : Thread nD τ).loc main_arg2)) :=
  (r32_keep_main_arg2 (Q32 m c)).trans (J31_main_arg2 m c)

theorem J32_main_arg3 : Q33 m c (Proc.devRef .tc main_arg3) = (m ((c.tc : Thread nD τ).loc main_arg3)) :=
  (r32_keep_main_arg3 (Q32 m c)).trans (J31_main_arg3 m c)

theorem J32_main_arg4 : Q33 m c (Proc.devRef .tc main_arg4) = (m ((c.tc : Thread nD τ).loc main_arg4)) :=
  (r32_keep_main_arg4 (Q32 m c)).trans (J31_main_arg4 m c)

theorem J32_main_arg5 : Q33 m c (Proc.devRef .tc main_arg5) = (m ((c.tc : Thread nD τ).loc main_arg5)) :=
  (r32_keep_main_arg5 (Q32 m c)).trans (J31_main_arg5 m c)

theorem J32_main_arg6 : Q33 m c (Proc.devRef .tc main_arg6) = (m ((c.tc : Thread nD τ).loc main_arg6)) :=
  (r32_keep_main_arg6 (Q32 m c)).trans (J31_main_arg6 m c)

theorem J32_main_arg7 : Q33 m c (Proc.devRef .tc main_arg7) = (m ((c.tc : Thread nD τ).loc main_arg7)) :=
  (r32_keep_main_arg7 (Q32 m c)).trans (J31_main_arg7 m c)

theorem J32_main_arg8 : Q33 m c (Proc.devRef .tc main_arg8) = (m ((c.tc : Thread nD τ).loc main_arg8)) :=
  (r32_keep_main_arg8 (Q32 m c)).trans (J31_main_arg8 m c)

theorem J32_main_arg9 : Q33 m c (Proc.devRef .tc main_arg9) = (m ((c.tc : Thread nD τ).loc main_arg9)) :=
  (r32_keep_main_arg9 (Q32 m c)).trans (J31_main_arg9 m c)

theorem J32_main_arg10 : Q33 m c (Proc.devRef .tc main_arg10) = (m ((c.tc : Thread nD τ).loc main_arg10)) :=
  (r32_keep_main_arg10 (Q32 m c)).trans (J31_main_arg10 m c)

theorem J32_main_arg11 : Q33 m c (Proc.devRef .tc main_arg11) = (m ((c.tc : Thread nD τ).loc main_arg11)) :=
  (r32_keep_main_arg11 (Q32 m c)).trans (J31_main_arg11 m c)

theorem J32_main_arg12 : Q33 m c (Proc.devRef .tc main_arg12) = (m ((c.tc : Thread nD τ).loc main_arg12)) :=
  (r32_keep_main_arg12 (Q32 m c)).trans (J31_main_arg12 m c)

theorem J32_main_arg13 : Q33 m c (Proc.devRef .tc main_arg13) = (m ((c.tc : Thread nD τ).loc main_arg13)) :=
  (r32_keep_main_arg13 (Q32 m c)).trans (J31_main_arg13 m c)

theorem J32_main_arg14 : Q33 m c (Proc.devRef .tc main_arg14) = (m ((c.tc : Thread nD τ).loc main_arg14)) :=
  (r32_keep_main_arg14 (Q32 m c)).trans (J31_main_arg14 m c)

theorem J32_main_arg15 : Q33 m c (Proc.devRef .tc main_arg15) = (m ((c.tc : Thread nD τ).loc main_arg15)) :=
  (r32_keep_main_arg15 (Q32 m c)).trans (J31_main_arg15 m c)

theorem J32_main_arg16 : Q33 m c (Proc.devRef .tc main_arg16) = (m ((c.tc : Thread nD τ).loc main_arg16)) :=
  (r32_keep_main_arg16 (Q32 m c)).trans (J31_main_arg16 m c)

theorem J32_main_arg17 : Q33 m c (Proc.devRef .tc main_arg17) = (m ((c.tc : Thread nD τ).loc main_arg17)) :=
  (r32_keep_main_arg17 (Q32 m c)).trans (J31_main_arg17 m c)

theorem J32_main_arg18 : Q33 m c (Proc.devRef .tc main_arg18) = (m ((c.tc : Thread nD τ).loc main_arg18)) :=
  (r32_keep_main_arg18 (Q32 m c)).trans (J31_main_arg18 m c)

theorem J32_main_arg19 : Q33 m c (Proc.devRef .tc main_arg19) = (m ((c.tc : Thread nD τ).loc main_arg19)) :=
  (r32_keep_main_arg19 (Q32 m c)).trans (J31_main_arg19 m c)

theorem J32_main_arg20 : Q33 m c (Proc.devRef .tc main_arg20) = (m ((c.tc : Thread nD τ).loc main_arg20)) :=
  (r32_keep_main_arg20 (Q32 m c)).trans (J31_main_arg20 m c)

theorem J32_main_arg21 : Q33 m c (Proc.devRef .tc main_arg21) = (m ((c.tc : Thread nD τ).loc main_arg21)) :=
  (r32_keep_main_arg21 (Q32 m c)).trans (J31_main_arg21 m c)

theorem J32_main_arg22 : Q33 m c (Proc.devRef .tc main_arg22) = (m ((c.tc : Thread nD τ).loc main_arg22)) :=
  (r32_keep_main_arg22 (Q32 m c)).trans (J31_main_arg22 m c)

theorem J32_main_arg23 : Q33 m c (Proc.devRef .tc main_arg23) = (m ((c.tc : Thread nD τ).loc main_arg23)) :=
  (r32_keep_main_arg23 (Q32 m c)).trans (J31_main_arg23 m c)

theorem J32_main_arg24 : Q33 m c (Proc.devRef .tc main_arg24) = (m ((c.tc : Thread nD τ).loc main_arg24)) :=
  (r32_keep_main_arg24 (Q32 m c)).trans (J31_main_arg24 m c)

theorem J32_main_arg25 : Q33 m c (Proc.devRef .tc main_arg25) = (m ((c.tc : Thread nD τ).loc main_arg25)) :=
  (r32_keep_main_arg25 (Q32 m c)).trans (J31_main_arg25 m c)

theorem J32_main_arg26 : Q33 m c (Proc.devRef .tc main_arg26) = (m ((c.tc : Thread nD τ).loc main_arg26)) :=
  (r32_keep_main_arg26 (Q32 m c)).trans (J31_main_arg26 m c)

theorem J32_main_arg27 : Q33 m c (Proc.devRef .tc main_arg27) = (m ((c.tc : Thread nD τ).loc main_arg27)) :=
  (r32_keep_main_arg27 (Q32 m c)).trans (J31_main_arg27 m c)

theorem J32_main_arg28 : Q33 m c (Proc.devRef .tc main_arg28) = (m ((c.tc : Thread nD τ).loc main_arg28)) :=
  (r32_keep_main_arg28 (Q32 m c)).trans (J31_main_arg28 m c)

theorem J33_main_v207 : Q34 m c (Proc.devRef .tc main_v207) = val_main_v207 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  r33_main_v207 (Q33 m c) (J32_main_v203 m c) (J32_main_arg21 m c) (J32_main_arg22 m c)

theorem J33_main_arg0 : Q34 m c (Proc.devRef .tc main_arg0) = (m ((c.tc : Thread nD τ).loc main_arg0)) :=
  (r33_keep_main_arg0 (Q33 m c)).trans (J32_main_arg0 m c)

theorem J33_main_arg1 : Q34 m c (Proc.devRef .tc main_arg1) = (m ((c.tc : Thread nD τ).loc main_arg1)) :=
  (r33_keep_main_arg1 (Q33 m c)).trans (J32_main_arg1 m c)

theorem J33_main_arg2 : Q34 m c (Proc.devRef .tc main_arg2) = (m ((c.tc : Thread nD τ).loc main_arg2)) :=
  (r33_keep_main_arg2 (Q33 m c)).trans (J32_main_arg2 m c)

theorem J33_main_arg3 : Q34 m c (Proc.devRef .tc main_arg3) = (m ((c.tc : Thread nD τ).loc main_arg3)) :=
  (r33_keep_main_arg3 (Q33 m c)).trans (J32_main_arg3 m c)

theorem J33_main_arg4 : Q34 m c (Proc.devRef .tc main_arg4) = (m ((c.tc : Thread nD τ).loc main_arg4)) :=
  (r33_keep_main_arg4 (Q33 m c)).trans (J32_main_arg4 m c)

theorem J33_main_arg5 : Q34 m c (Proc.devRef .tc main_arg5) = (m ((c.tc : Thread nD τ).loc main_arg5)) :=
  (r33_keep_main_arg5 (Q33 m c)).trans (J32_main_arg5 m c)

theorem J33_main_arg6 : Q34 m c (Proc.devRef .tc main_arg6) = (m ((c.tc : Thread nD τ).loc main_arg6)) :=
  (r33_keep_main_arg6 (Q33 m c)).trans (J32_main_arg6 m c)

theorem J33_main_arg7 : Q34 m c (Proc.devRef .tc main_arg7) = (m ((c.tc : Thread nD τ).loc main_arg7)) :=
  (r33_keep_main_arg7 (Q33 m c)).trans (J32_main_arg7 m c)

theorem J33_main_arg8 : Q34 m c (Proc.devRef .tc main_arg8) = (m ((c.tc : Thread nD τ).loc main_arg8)) :=
  (r33_keep_main_arg8 (Q33 m c)).trans (J32_main_arg8 m c)

theorem J33_main_arg9 : Q34 m c (Proc.devRef .tc main_arg9) = (m ((c.tc : Thread nD τ).loc main_arg9)) :=
  (r33_keep_main_arg9 (Q33 m c)).trans (J32_main_arg9 m c)

theorem J33_main_arg10 : Q34 m c (Proc.devRef .tc main_arg10) = (m ((c.tc : Thread nD τ).loc main_arg10)) :=
  (r33_keep_main_arg10 (Q33 m c)).trans (J32_main_arg10 m c)

theorem J33_main_arg11 : Q34 m c (Proc.devRef .tc main_arg11) = (m ((c.tc : Thread nD τ).loc main_arg11)) :=
  (r33_keep_main_arg11 (Q33 m c)).trans (J32_main_arg11 m c)

theorem J33_main_arg12 : Q34 m c (Proc.devRef .tc main_arg12) = (m ((c.tc : Thread nD τ).loc main_arg12)) :=
  (r33_keep_main_arg12 (Q33 m c)).trans (J32_main_arg12 m c)

theorem J33_main_arg13 : Q34 m c (Proc.devRef .tc main_arg13) = (m ((c.tc : Thread nD τ).loc main_arg13)) :=
  (r33_keep_main_arg13 (Q33 m c)).trans (J32_main_arg13 m c)

theorem J33_main_arg14 : Q34 m c (Proc.devRef .tc main_arg14) = (m ((c.tc : Thread nD τ).loc main_arg14)) :=
  (r33_keep_main_arg14 (Q33 m c)).trans (J32_main_arg14 m c)

theorem J33_main_arg15 : Q34 m c (Proc.devRef .tc main_arg15) = (m ((c.tc : Thread nD τ).loc main_arg15)) :=
  (r33_keep_main_arg15 (Q33 m c)).trans (J32_main_arg15 m c)

theorem J33_main_arg16 : Q34 m c (Proc.devRef .tc main_arg16) = (m ((c.tc : Thread nD τ).loc main_arg16)) :=
  (r33_keep_main_arg16 (Q33 m c)).trans (J32_main_arg16 m c)

theorem J33_main_arg17 : Q34 m c (Proc.devRef .tc main_arg17) = (m ((c.tc : Thread nD τ).loc main_arg17)) :=
  (r33_keep_main_arg17 (Q33 m c)).trans (J32_main_arg17 m c)

theorem J33_main_arg18 : Q34 m c (Proc.devRef .tc main_arg18) = (m ((c.tc : Thread nD τ).loc main_arg18)) :=
  (r33_keep_main_arg18 (Q33 m c)).trans (J32_main_arg18 m c)

theorem J33_main_arg19 : Q34 m c (Proc.devRef .tc main_arg19) = (m ((c.tc : Thread nD τ).loc main_arg19)) :=
  (r33_keep_main_arg19 (Q33 m c)).trans (J32_main_arg19 m c)

theorem J33_main_arg20 : Q34 m c (Proc.devRef .tc main_arg20) = (m ((c.tc : Thread nD τ).loc main_arg20)) :=
  (r33_keep_main_arg20 (Q33 m c)).trans (J32_main_arg20 m c)

theorem J33_main_arg21 : Q34 m c (Proc.devRef .tc main_arg21) = (m ((c.tc : Thread nD τ).loc main_arg21)) :=
  (r33_keep_main_arg21 (Q33 m c)).trans (J32_main_arg21 m c)

theorem J33_main_arg22 : Q34 m c (Proc.devRef .tc main_arg22) = (m ((c.tc : Thread nD τ).loc main_arg22)) :=
  (r33_keep_main_arg22 (Q33 m c)).trans (J32_main_arg22 m c)

theorem J33_main_arg23 : Q34 m c (Proc.devRef .tc main_arg23) = (m ((c.tc : Thread nD τ).loc main_arg23)) :=
  (r33_keep_main_arg23 (Q33 m c)).trans (J32_main_arg23 m c)

theorem J33_main_arg24 : Q34 m c (Proc.devRef .tc main_arg24) = (m ((c.tc : Thread nD τ).loc main_arg24)) :=
  (r33_keep_main_arg24 (Q33 m c)).trans (J32_main_arg24 m c)

theorem J33_main_arg25 : Q34 m c (Proc.devRef .tc main_arg25) = (m ((c.tc : Thread nD τ).loc main_arg25)) :=
  (r33_keep_main_arg25 (Q33 m c)).trans (J32_main_arg25 m c)

theorem J33_main_arg26 : Q34 m c (Proc.devRef .tc main_arg26) = (m ((c.tc : Thread nD τ).loc main_arg26)) :=
  (r33_keep_main_arg26 (Q33 m c)).trans (J32_main_arg26 m c)

theorem J33_main_arg27 : Q34 m c (Proc.devRef .tc main_arg27) = (m ((c.tc : Thread nD τ).loc main_arg27)) :=
  (r33_keep_main_arg27 (Q33 m c)).trans (J32_main_arg27 m c)

theorem J33_main_arg28 : Q34 m c (Proc.devRef .tc main_arg28) = (m ((c.tc : Thread nD τ).loc main_arg28)) :=
  (r33_keep_main_arg28 (Q33 m c)).trans (J32_main_arg28 m c)

theorem J34_main_v208 : Q35 m c (Proc.devRef .tc main_v208) = val_main_v208 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  r34_main_v208 (Q34 m c) (J33_main_v207 m c)

theorem J34_main_arg0 : Q35 m c (Proc.devRef .tc main_arg0) = (m ((c.tc : Thread nD τ).loc main_arg0)) :=
  (r34_keep_main_arg0 (Q34 m c)).trans (J33_main_arg0 m c)

theorem J34_main_arg1 : Q35 m c (Proc.devRef .tc main_arg1) = (m ((c.tc : Thread nD τ).loc main_arg1)) :=
  (r34_keep_main_arg1 (Q34 m c)).trans (J33_main_arg1 m c)

theorem J34_main_arg2 : Q35 m c (Proc.devRef .tc main_arg2) = (m ((c.tc : Thread nD τ).loc main_arg2)) :=
  (r34_keep_main_arg2 (Q34 m c)).trans (J33_main_arg2 m c)

theorem J34_main_arg3 : Q35 m c (Proc.devRef .tc main_arg3) = (m ((c.tc : Thread nD τ).loc main_arg3)) :=
  (r34_keep_main_arg3 (Q34 m c)).trans (J33_main_arg3 m c)

theorem J34_main_arg4 : Q35 m c (Proc.devRef .tc main_arg4) = (m ((c.tc : Thread nD τ).loc main_arg4)) :=
  (r34_keep_main_arg4 (Q34 m c)).trans (J33_main_arg4 m c)

theorem J34_main_arg5 : Q35 m c (Proc.devRef .tc main_arg5) = (m ((c.tc : Thread nD τ).loc main_arg5)) :=
  (r34_keep_main_arg5 (Q34 m c)).trans (J33_main_arg5 m c)

theorem J34_main_arg6 : Q35 m c (Proc.devRef .tc main_arg6) = (m ((c.tc : Thread nD τ).loc main_arg6)) :=
  (r34_keep_main_arg6 (Q34 m c)).trans (J33_main_arg6 m c)

theorem J34_main_arg7 : Q35 m c (Proc.devRef .tc main_arg7) = (m ((c.tc : Thread nD τ).loc main_arg7)) :=
  (r34_keep_main_arg7 (Q34 m c)).trans (J33_main_arg7 m c)

theorem J34_main_arg8 : Q35 m c (Proc.devRef .tc main_arg8) = (m ((c.tc : Thread nD τ).loc main_arg8)) :=
  (r34_keep_main_arg8 (Q34 m c)).trans (J33_main_arg8 m c)

theorem J34_main_arg9 : Q35 m c (Proc.devRef .tc main_arg9) = (m ((c.tc : Thread nD τ).loc main_arg9)) :=
  (r34_keep_main_arg9 (Q34 m c)).trans (J33_main_arg9 m c)

theorem J34_main_arg10 : Q35 m c (Proc.devRef .tc main_arg10) = (m ((c.tc : Thread nD τ).loc main_arg10)) :=
  (r34_keep_main_arg10 (Q34 m c)).trans (J33_main_arg10 m c)

theorem J34_main_arg11 : Q35 m c (Proc.devRef .tc main_arg11) = (m ((c.tc : Thread nD τ).loc main_arg11)) :=
  (r34_keep_main_arg11 (Q34 m c)).trans (J33_main_arg11 m c)

theorem J34_main_arg12 : Q35 m c (Proc.devRef .tc main_arg12) = (m ((c.tc : Thread nD τ).loc main_arg12)) :=
  (r34_keep_main_arg12 (Q34 m c)).trans (J33_main_arg12 m c)

theorem J34_main_arg13 : Q35 m c (Proc.devRef .tc main_arg13) = (m ((c.tc : Thread nD τ).loc main_arg13)) :=
  (r34_keep_main_arg13 (Q34 m c)).trans (J33_main_arg13 m c)

theorem J34_main_arg14 : Q35 m c (Proc.devRef .tc main_arg14) = (m ((c.tc : Thread nD τ).loc main_arg14)) :=
  (r34_keep_main_arg14 (Q34 m c)).trans (J33_main_arg14 m c)

theorem J34_main_arg15 : Q35 m c (Proc.devRef .tc main_arg15) = (m ((c.tc : Thread nD τ).loc main_arg15)) :=
  (r34_keep_main_arg15 (Q34 m c)).trans (J33_main_arg15 m c)

theorem J34_main_arg16 : Q35 m c (Proc.devRef .tc main_arg16) = (m ((c.tc : Thread nD τ).loc main_arg16)) :=
  (r34_keep_main_arg16 (Q34 m c)).trans (J33_main_arg16 m c)

theorem J34_main_arg17 : Q35 m c (Proc.devRef .tc main_arg17) = (m ((c.tc : Thread nD τ).loc main_arg17)) :=
  (r34_keep_main_arg17 (Q34 m c)).trans (J33_main_arg17 m c)

theorem J34_main_arg18 : Q35 m c (Proc.devRef .tc main_arg18) = (m ((c.tc : Thread nD τ).loc main_arg18)) :=
  (r34_keep_main_arg18 (Q34 m c)).trans (J33_main_arg18 m c)

theorem J34_main_arg19 : Q35 m c (Proc.devRef .tc main_arg19) = (m ((c.tc : Thread nD τ).loc main_arg19)) :=
  (r34_keep_main_arg19 (Q34 m c)).trans (J33_main_arg19 m c)

theorem J34_main_arg20 : Q35 m c (Proc.devRef .tc main_arg20) = (m ((c.tc : Thread nD τ).loc main_arg20)) :=
  (r34_keep_main_arg20 (Q34 m c)).trans (J33_main_arg20 m c)

theorem J34_main_arg21 : Q35 m c (Proc.devRef .tc main_arg21) = (m ((c.tc : Thread nD τ).loc main_arg21)) :=
  (r34_keep_main_arg21 (Q34 m c)).trans (J33_main_arg21 m c)

theorem J34_main_arg22 : Q35 m c (Proc.devRef .tc main_arg22) = (m ((c.tc : Thread nD τ).loc main_arg22)) :=
  (r34_keep_main_arg22 (Q34 m c)).trans (J33_main_arg22 m c)

theorem J34_main_arg23 : Q35 m c (Proc.devRef .tc main_arg23) = (m ((c.tc : Thread nD τ).loc main_arg23)) :=
  (r34_keep_main_arg23 (Q34 m c)).trans (J33_main_arg23 m c)

theorem J34_main_arg24 : Q35 m c (Proc.devRef .tc main_arg24) = (m ((c.tc : Thread nD τ).loc main_arg24)) :=
  (r34_keep_main_arg24 (Q34 m c)).trans (J33_main_arg24 m c)

theorem J34_main_arg25 : Q35 m c (Proc.devRef .tc main_arg25) = (m ((c.tc : Thread nD τ).loc main_arg25)) :=
  (r34_keep_main_arg25 (Q34 m c)).trans (J33_main_arg25 m c)

theorem J34_main_arg26 : Q35 m c (Proc.devRef .tc main_arg26) = (m ((c.tc : Thread nD τ).loc main_arg26)) :=
  (r34_keep_main_arg26 (Q34 m c)).trans (J33_main_arg26 m c)

theorem J34_main_arg27 : Q35 m c (Proc.devRef .tc main_arg27) = (m ((c.tc : Thread nD τ).loc main_arg27)) :=
  (r34_keep_main_arg27 (Q34 m c)).trans (J33_main_arg27 m c)

theorem J34_main_arg28 : Q35 m c (Proc.devRef .tc main_arg28) = (m ((c.tc : Thread nD τ).loc main_arg28)) :=
  (r34_keep_main_arg28 (Q34 m c)).trans (J33_main_arg28 m c)

theorem J35_main_v212 : Q36 m c (Proc.devRef .tc main_v212) = val_main_v212 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  r35_main_v212 (Q35 m c) (J34_main_v208 m c) (J34_main_arg23 m c) (J34_main_arg24 m c)

theorem J35_main_arg0 : Q36 m c (Proc.devRef .tc main_arg0) = (m ((c.tc : Thread nD τ).loc main_arg0)) :=
  (r35_keep_main_arg0 (Q35 m c)).trans (J34_main_arg0 m c)

theorem J35_main_arg1 : Q36 m c (Proc.devRef .tc main_arg1) = (m ((c.tc : Thread nD τ).loc main_arg1)) :=
  (r35_keep_main_arg1 (Q35 m c)).trans (J34_main_arg1 m c)

theorem J35_main_arg2 : Q36 m c (Proc.devRef .tc main_arg2) = (m ((c.tc : Thread nD τ).loc main_arg2)) :=
  (r35_keep_main_arg2 (Q35 m c)).trans (J34_main_arg2 m c)

theorem J35_main_arg3 : Q36 m c (Proc.devRef .tc main_arg3) = (m ((c.tc : Thread nD τ).loc main_arg3)) :=
  (r35_keep_main_arg3 (Q35 m c)).trans (J34_main_arg3 m c)

theorem J35_main_arg4 : Q36 m c (Proc.devRef .tc main_arg4) = (m ((c.tc : Thread nD τ).loc main_arg4)) :=
  (r35_keep_main_arg4 (Q35 m c)).trans (J34_main_arg4 m c)

theorem J35_main_arg5 : Q36 m c (Proc.devRef .tc main_arg5) = (m ((c.tc : Thread nD τ).loc main_arg5)) :=
  (r35_keep_main_arg5 (Q35 m c)).trans (J34_main_arg5 m c)

theorem J35_main_arg6 : Q36 m c (Proc.devRef .tc main_arg6) = (m ((c.tc : Thread nD τ).loc main_arg6)) :=
  (r35_keep_main_arg6 (Q35 m c)).trans (J34_main_arg6 m c)

theorem J35_main_arg7 : Q36 m c (Proc.devRef .tc main_arg7) = (m ((c.tc : Thread nD τ).loc main_arg7)) :=
  (r35_keep_main_arg7 (Q35 m c)).trans (J34_main_arg7 m c)

theorem J35_main_arg8 : Q36 m c (Proc.devRef .tc main_arg8) = (m ((c.tc : Thread nD τ).loc main_arg8)) :=
  (r35_keep_main_arg8 (Q35 m c)).trans (J34_main_arg8 m c)

theorem J35_main_arg9 : Q36 m c (Proc.devRef .tc main_arg9) = (m ((c.tc : Thread nD τ).loc main_arg9)) :=
  (r35_keep_main_arg9 (Q35 m c)).trans (J34_main_arg9 m c)

theorem J35_main_arg10 : Q36 m c (Proc.devRef .tc main_arg10) = (m ((c.tc : Thread nD τ).loc main_arg10)) :=
  (r35_keep_main_arg10 (Q35 m c)).trans (J34_main_arg10 m c)

theorem J35_main_arg11 : Q36 m c (Proc.devRef .tc main_arg11) = (m ((c.tc : Thread nD τ).loc main_arg11)) :=
  (r35_keep_main_arg11 (Q35 m c)).trans (J34_main_arg11 m c)

theorem J35_main_arg12 : Q36 m c (Proc.devRef .tc main_arg12) = (m ((c.tc : Thread nD τ).loc main_arg12)) :=
  (r35_keep_main_arg12 (Q35 m c)).trans (J34_main_arg12 m c)

theorem J35_main_arg13 : Q36 m c (Proc.devRef .tc main_arg13) = (m ((c.tc : Thread nD τ).loc main_arg13)) :=
  (r35_keep_main_arg13 (Q35 m c)).trans (J34_main_arg13 m c)

theorem J35_main_arg14 : Q36 m c (Proc.devRef .tc main_arg14) = (m ((c.tc : Thread nD τ).loc main_arg14)) :=
  (r35_keep_main_arg14 (Q35 m c)).trans (J34_main_arg14 m c)

theorem J35_main_arg15 : Q36 m c (Proc.devRef .tc main_arg15) = (m ((c.tc : Thread nD τ).loc main_arg15)) :=
  (r35_keep_main_arg15 (Q35 m c)).trans (J34_main_arg15 m c)

theorem J35_main_arg16 : Q36 m c (Proc.devRef .tc main_arg16) = (m ((c.tc : Thread nD τ).loc main_arg16)) :=
  (r35_keep_main_arg16 (Q35 m c)).trans (J34_main_arg16 m c)

theorem J35_main_arg17 : Q36 m c (Proc.devRef .tc main_arg17) = (m ((c.tc : Thread nD τ).loc main_arg17)) :=
  (r35_keep_main_arg17 (Q35 m c)).trans (J34_main_arg17 m c)

theorem J35_main_arg18 : Q36 m c (Proc.devRef .tc main_arg18) = (m ((c.tc : Thread nD τ).loc main_arg18)) :=
  (r35_keep_main_arg18 (Q35 m c)).trans (J34_main_arg18 m c)

theorem J35_main_arg19 : Q36 m c (Proc.devRef .tc main_arg19) = (m ((c.tc : Thread nD τ).loc main_arg19)) :=
  (r35_keep_main_arg19 (Q35 m c)).trans (J34_main_arg19 m c)

theorem J35_main_arg20 : Q36 m c (Proc.devRef .tc main_arg20) = (m ((c.tc : Thread nD τ).loc main_arg20)) :=
  (r35_keep_main_arg20 (Q35 m c)).trans (J34_main_arg20 m c)

theorem J35_main_arg21 : Q36 m c (Proc.devRef .tc main_arg21) = (m ((c.tc : Thread nD τ).loc main_arg21)) :=
  (r35_keep_main_arg21 (Q35 m c)).trans (J34_main_arg21 m c)

theorem J35_main_arg22 : Q36 m c (Proc.devRef .tc main_arg22) = (m ((c.tc : Thread nD τ).loc main_arg22)) :=
  (r35_keep_main_arg22 (Q35 m c)).trans (J34_main_arg22 m c)

theorem J35_main_arg23 : Q36 m c (Proc.devRef .tc main_arg23) = (m ((c.tc : Thread nD τ).loc main_arg23)) :=
  (r35_keep_main_arg23 (Q35 m c)).trans (J34_main_arg23 m c)

theorem J35_main_arg24 : Q36 m c (Proc.devRef .tc main_arg24) = (m ((c.tc : Thread nD τ).loc main_arg24)) :=
  (r35_keep_main_arg24 (Q35 m c)).trans (J34_main_arg24 m c)

theorem J35_main_arg25 : Q36 m c (Proc.devRef .tc main_arg25) = (m ((c.tc : Thread nD τ).loc main_arg25)) :=
  (r35_keep_main_arg25 (Q35 m c)).trans (J34_main_arg25 m c)

theorem J35_main_arg26 : Q36 m c (Proc.devRef .tc main_arg26) = (m ((c.tc : Thread nD τ).loc main_arg26)) :=
  (r35_keep_main_arg26 (Q35 m c)).trans (J34_main_arg26 m c)

theorem J35_main_arg27 : Q36 m c (Proc.devRef .tc main_arg27) = (m ((c.tc : Thread nD τ).loc main_arg27)) :=
  (r35_keep_main_arg27 (Q35 m c)).trans (J34_main_arg27 m c)

theorem J35_main_arg28 : Q36 m c (Proc.devRef .tc main_arg28) = (m ((c.tc : Thread nD τ).loc main_arg28)) :=
  (r35_keep_main_arg28 (Q35 m c)).trans (J34_main_arg28 m c)

theorem J36_main_v237 : Q37 m c (Proc.devRef .tc main_v237) = val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  r36_main_v237 (Q36 m c) (J35_main_arg3 m c) (J35_main_v212 m c) (J35_main_arg4 m c)

theorem J36_main_arg0 : Q37 m c (Proc.devRef .tc main_arg0) = (m ((c.tc : Thread nD τ).loc main_arg0)) :=
  (r36_keep_main_arg0 (Q36 m c)).trans (J35_main_arg0 m c)

theorem J36_main_arg1 : Q37 m c (Proc.devRef .tc main_arg1) = (m ((c.tc : Thread nD τ).loc main_arg1)) :=
  (r36_keep_main_arg1 (Q36 m c)).trans (J35_main_arg1 m c)

theorem J36_main_arg2 : Q37 m c (Proc.devRef .tc main_arg2) = (m ((c.tc : Thread nD τ).loc main_arg2)) :=
  (r36_keep_main_arg2 (Q36 m c)).trans (J35_main_arg2 m c)

theorem J36_main_arg3 : Q37 m c (Proc.devRef .tc main_arg3) = (m ((c.tc : Thread nD τ).loc main_arg3)) :=
  (r36_keep_main_arg3 (Q36 m c)).trans (J35_main_arg3 m c)

theorem J36_main_arg4 : Q37 m c (Proc.devRef .tc main_arg4) = (m ((c.tc : Thread nD τ).loc main_arg4)) :=
  (r36_keep_main_arg4 (Q36 m c)).trans (J35_main_arg4 m c)

theorem J36_main_arg5 : Q37 m c (Proc.devRef .tc main_arg5) = (m ((c.tc : Thread nD τ).loc main_arg5)) :=
  (r36_keep_main_arg5 (Q36 m c)).trans (J35_main_arg5 m c)

theorem J36_main_arg6 : Q37 m c (Proc.devRef .tc main_arg6) = (m ((c.tc : Thread nD τ).loc main_arg6)) :=
  (r36_keep_main_arg6 (Q36 m c)).trans (J35_main_arg6 m c)

theorem J36_main_arg7 : Q37 m c (Proc.devRef .tc main_arg7) = (m ((c.tc : Thread nD τ).loc main_arg7)) :=
  (r36_keep_main_arg7 (Q36 m c)).trans (J35_main_arg7 m c)

theorem J36_main_arg8 : Q37 m c (Proc.devRef .tc main_arg8) = (m ((c.tc : Thread nD τ).loc main_arg8)) :=
  (r36_keep_main_arg8 (Q36 m c)).trans (J35_main_arg8 m c)

theorem J36_main_arg9 : Q37 m c (Proc.devRef .tc main_arg9) = (m ((c.tc : Thread nD τ).loc main_arg9)) :=
  (r36_keep_main_arg9 (Q36 m c)).trans (J35_main_arg9 m c)

theorem J36_main_arg10 : Q37 m c (Proc.devRef .tc main_arg10) = (m ((c.tc : Thread nD τ).loc main_arg10)) :=
  (r36_keep_main_arg10 (Q36 m c)).trans (J35_main_arg10 m c)

theorem J36_main_arg11 : Q37 m c (Proc.devRef .tc main_arg11) = (m ((c.tc : Thread nD τ).loc main_arg11)) :=
  (r36_keep_main_arg11 (Q36 m c)).trans (J35_main_arg11 m c)

theorem J36_main_arg12 : Q37 m c (Proc.devRef .tc main_arg12) = (m ((c.tc : Thread nD τ).loc main_arg12)) :=
  (r36_keep_main_arg12 (Q36 m c)).trans (J35_main_arg12 m c)

theorem J36_main_arg13 : Q37 m c (Proc.devRef .tc main_arg13) = (m ((c.tc : Thread nD τ).loc main_arg13)) :=
  (r36_keep_main_arg13 (Q36 m c)).trans (J35_main_arg13 m c)

theorem J36_main_arg14 : Q37 m c (Proc.devRef .tc main_arg14) = (m ((c.tc : Thread nD τ).loc main_arg14)) :=
  (r36_keep_main_arg14 (Q36 m c)).trans (J35_main_arg14 m c)

theorem J36_main_arg15 : Q37 m c (Proc.devRef .tc main_arg15) = (m ((c.tc : Thread nD τ).loc main_arg15)) :=
  (r36_keep_main_arg15 (Q36 m c)).trans (J35_main_arg15 m c)

theorem J36_main_arg16 : Q37 m c (Proc.devRef .tc main_arg16) = (m ((c.tc : Thread nD τ).loc main_arg16)) :=
  (r36_keep_main_arg16 (Q36 m c)).trans (J35_main_arg16 m c)

theorem J36_main_arg17 : Q37 m c (Proc.devRef .tc main_arg17) = (m ((c.tc : Thread nD τ).loc main_arg17)) :=
  (r36_keep_main_arg17 (Q36 m c)).trans (J35_main_arg17 m c)

theorem J36_main_arg18 : Q37 m c (Proc.devRef .tc main_arg18) = (m ((c.tc : Thread nD τ).loc main_arg18)) :=
  (r36_keep_main_arg18 (Q36 m c)).trans (J35_main_arg18 m c)

theorem J36_main_arg19 : Q37 m c (Proc.devRef .tc main_arg19) = (m ((c.tc : Thread nD τ).loc main_arg19)) :=
  (r36_keep_main_arg19 (Q36 m c)).trans (J35_main_arg19 m c)

theorem J36_main_arg20 : Q37 m c (Proc.devRef .tc main_arg20) = (m ((c.tc : Thread nD τ).loc main_arg20)) :=
  (r36_keep_main_arg20 (Q36 m c)).trans (J35_main_arg20 m c)

theorem J36_main_arg21 : Q37 m c (Proc.devRef .tc main_arg21) = (m ((c.tc : Thread nD τ).loc main_arg21)) :=
  (r36_keep_main_arg21 (Q36 m c)).trans (J35_main_arg21 m c)

theorem J36_main_arg22 : Q37 m c (Proc.devRef .tc main_arg22) = (m ((c.tc : Thread nD τ).loc main_arg22)) :=
  (r36_keep_main_arg22 (Q36 m c)).trans (J35_main_arg22 m c)

theorem J36_main_arg23 : Q37 m c (Proc.devRef .tc main_arg23) = (m ((c.tc : Thread nD τ).loc main_arg23)) :=
  (r36_keep_main_arg23 (Q36 m c)).trans (J35_main_arg23 m c)

theorem J36_main_arg24 : Q37 m c (Proc.devRef .tc main_arg24) = (m ((c.tc : Thread nD τ).loc main_arg24)) :=
  (r36_keep_main_arg24 (Q36 m c)).trans (J35_main_arg24 m c)

theorem J36_main_arg25 : Q37 m c (Proc.devRef .tc main_arg25) = (m ((c.tc : Thread nD τ).loc main_arg25)) :=
  (r36_keep_main_arg25 (Q36 m c)).trans (J35_main_arg25 m c)

theorem J36_main_arg26 : Q37 m c (Proc.devRef .tc main_arg26) = (m ((c.tc : Thread nD τ).loc main_arg26)) :=
  (r36_keep_main_arg26 (Q36 m c)).trans (J35_main_arg26 m c)

theorem J36_main_arg27 : Q37 m c (Proc.devRef .tc main_arg27) = (m ((c.tc : Thread nD τ).loc main_arg27)) :=
  (r36_keep_main_arg27 (Q36 m c)).trans (J35_main_arg27 m c)

theorem J36_main_arg28 : Q37 m c (Proc.devRef .tc main_arg28) = (m ((c.tc : Thread nD τ).loc main_arg28)) :=
  (r36_keep_main_arg28 (Q36 m c)).trans (J35_main_arg28 m c)

theorem J37_main_v241 : Q38 m c (Proc.devRef .tc main_v241) = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) :=
  r37_main_v241 (Q37 m c) (J36_main_v237 m c) (J36_main_arg25 m c) (J36_main_arg26 m c)

theorem J37_main_arg0 : Q38 m c (Proc.devRef .tc main_arg0) = (m ((c.tc : Thread nD τ).loc main_arg0)) :=
  (r37_keep_main_arg0 (Q37 m c)).trans (J36_main_arg0 m c)

theorem J37_main_arg1 : Q38 m c (Proc.devRef .tc main_arg1) = (m ((c.tc : Thread nD τ).loc main_arg1)) :=
  (r37_keep_main_arg1 (Q37 m c)).trans (J36_main_arg1 m c)

theorem J37_main_arg2 : Q38 m c (Proc.devRef .tc main_arg2) = (m ((c.tc : Thread nD τ).loc main_arg2)) :=
  (r37_keep_main_arg2 (Q37 m c)).trans (J36_main_arg2 m c)

theorem J37_main_arg3 : Q38 m c (Proc.devRef .tc main_arg3) = (m ((c.tc : Thread nD τ).loc main_arg3)) :=
  (r37_keep_main_arg3 (Q37 m c)).trans (J36_main_arg3 m c)

theorem J37_main_arg4 : Q38 m c (Proc.devRef .tc main_arg4) = (m ((c.tc : Thread nD τ).loc main_arg4)) :=
  (r37_keep_main_arg4 (Q37 m c)).trans (J36_main_arg4 m c)

theorem J37_main_arg5 : Q38 m c (Proc.devRef .tc main_arg5) = (m ((c.tc : Thread nD τ).loc main_arg5)) :=
  (r37_keep_main_arg5 (Q37 m c)).trans (J36_main_arg5 m c)

theorem J37_main_arg6 : Q38 m c (Proc.devRef .tc main_arg6) = (m ((c.tc : Thread nD τ).loc main_arg6)) :=
  (r37_keep_main_arg6 (Q37 m c)).trans (J36_main_arg6 m c)

theorem J37_main_arg7 : Q38 m c (Proc.devRef .tc main_arg7) = (m ((c.tc : Thread nD τ).loc main_arg7)) :=
  (r37_keep_main_arg7 (Q37 m c)).trans (J36_main_arg7 m c)

theorem J37_main_arg8 : Q38 m c (Proc.devRef .tc main_arg8) = (m ((c.tc : Thread nD τ).loc main_arg8)) :=
  (r37_keep_main_arg8 (Q37 m c)).trans (J36_main_arg8 m c)

theorem J37_main_arg9 : Q38 m c (Proc.devRef .tc main_arg9) = (m ((c.tc : Thread nD τ).loc main_arg9)) :=
  (r37_keep_main_arg9 (Q37 m c)).trans (J36_main_arg9 m c)

theorem J37_main_arg10 : Q38 m c (Proc.devRef .tc main_arg10) = (m ((c.tc : Thread nD τ).loc main_arg10)) :=
  (r37_keep_main_arg10 (Q37 m c)).trans (J36_main_arg10 m c)

theorem J37_main_arg11 : Q38 m c (Proc.devRef .tc main_arg11) = (m ((c.tc : Thread nD τ).loc main_arg11)) :=
  (r37_keep_main_arg11 (Q37 m c)).trans (J36_main_arg11 m c)

theorem J37_main_arg12 : Q38 m c (Proc.devRef .tc main_arg12) = (m ((c.tc : Thread nD τ).loc main_arg12)) :=
  (r37_keep_main_arg12 (Q37 m c)).trans (J36_main_arg12 m c)

theorem J37_main_arg13 : Q38 m c (Proc.devRef .tc main_arg13) = (m ((c.tc : Thread nD τ).loc main_arg13)) :=
  (r37_keep_main_arg13 (Q37 m c)).trans (J36_main_arg13 m c)

theorem J37_main_arg14 : Q38 m c (Proc.devRef .tc main_arg14) = (m ((c.tc : Thread nD τ).loc main_arg14)) :=
  (r37_keep_main_arg14 (Q37 m c)).trans (J36_main_arg14 m c)

theorem J37_main_arg15 : Q38 m c (Proc.devRef .tc main_arg15) = (m ((c.tc : Thread nD τ).loc main_arg15)) :=
  (r37_keep_main_arg15 (Q37 m c)).trans (J36_main_arg15 m c)

theorem J37_main_arg16 : Q38 m c (Proc.devRef .tc main_arg16) = (m ((c.tc : Thread nD τ).loc main_arg16)) :=
  (r37_keep_main_arg16 (Q37 m c)).trans (J36_main_arg16 m c)

theorem J37_main_arg17 : Q38 m c (Proc.devRef .tc main_arg17) = (m ((c.tc : Thread nD τ).loc main_arg17)) :=
  (r37_keep_main_arg17 (Q37 m c)).trans (J36_main_arg17 m c)

theorem J37_main_arg18 : Q38 m c (Proc.devRef .tc main_arg18) = (m ((c.tc : Thread nD τ).loc main_arg18)) :=
  (r37_keep_main_arg18 (Q37 m c)).trans (J36_main_arg18 m c)

theorem J37_main_arg19 : Q38 m c (Proc.devRef .tc main_arg19) = (m ((c.tc : Thread nD τ).loc main_arg19)) :=
  (r37_keep_main_arg19 (Q37 m c)).trans (J36_main_arg19 m c)

theorem J37_main_arg20 : Q38 m c (Proc.devRef .tc main_arg20) = (m ((c.tc : Thread nD τ).loc main_arg20)) :=
  (r37_keep_main_arg20 (Q37 m c)).trans (J36_main_arg20 m c)

theorem J37_main_arg21 : Q38 m c (Proc.devRef .tc main_arg21) = (m ((c.tc : Thread nD τ).loc main_arg21)) :=
  (r37_keep_main_arg21 (Q37 m c)).trans (J36_main_arg21 m c)

theorem J37_main_arg22 : Q38 m c (Proc.devRef .tc main_arg22) = (m ((c.tc : Thread nD τ).loc main_arg22)) :=
  (r37_keep_main_arg22 (Q37 m c)).trans (J36_main_arg22 m c)

theorem J37_main_arg23 : Q38 m c (Proc.devRef .tc main_arg23) = (m ((c.tc : Thread nD τ).loc main_arg23)) :=
  (r37_keep_main_arg23 (Q37 m c)).trans (J36_main_arg23 m c)

theorem J37_main_arg24 : Q38 m c (Proc.devRef .tc main_arg24) = (m ((c.tc : Thread nD τ).loc main_arg24)) :=
  (r37_keep_main_arg24 (Q37 m c)).trans (J36_main_arg24 m c)

theorem J37_main_arg25 : Q38 m c (Proc.devRef .tc main_arg25) = (m ((c.tc : Thread nD τ).loc main_arg25)) :=
  (r37_keep_main_arg25 (Q37 m c)).trans (J36_main_arg25 m c)

theorem J37_main_arg26 : Q38 m c (Proc.devRef .tc main_arg26) = (m ((c.tc : Thread nD τ).loc main_arg26)) :=
  (r37_keep_main_arg26 (Q37 m c)).trans (J36_main_arg26 m c)

theorem J37_main_arg27 : Q38 m c (Proc.devRef .tc main_arg27) = (m ((c.tc : Thread nD τ).loc main_arg27)) :=
  (r37_keep_main_arg27 (Q37 m c)).trans (J36_main_arg27 m c)

theorem J37_main_arg28 : Q38 m c (Proc.devRef .tc main_arg28) = (m ((c.tc : Thread nD τ).loc main_arg28)) :=
  (r37_keep_main_arg28 (Q37 m c)).trans (J36_main_arg28 m c)

theorem J38_main_v242 : Q39 m c (Proc.devRef .tc main_v242) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) :=
  r38_main_v242 (Q38 m c) (J37_main_v241 m c)

theorem J38_main_arg0 : Q39 m c (Proc.devRef .tc main_arg0) = (m ((c.tc : Thread nD τ).loc main_arg0)) :=
  (r38_keep_main_arg0 (Q38 m c)).trans (J37_main_arg0 m c)

theorem J38_main_arg1 : Q39 m c (Proc.devRef .tc main_arg1) = (m ((c.tc : Thread nD τ).loc main_arg1)) :=
  (r38_keep_main_arg1 (Q38 m c)).trans (J37_main_arg1 m c)

theorem J38_main_arg2 : Q39 m c (Proc.devRef .tc main_arg2) = (m ((c.tc : Thread nD τ).loc main_arg2)) :=
  (r38_keep_main_arg2 (Q38 m c)).trans (J37_main_arg2 m c)

theorem J38_main_arg3 : Q39 m c (Proc.devRef .tc main_arg3) = (m ((c.tc : Thread nD τ).loc main_arg3)) :=
  (r38_keep_main_arg3 (Q38 m c)).trans (J37_main_arg3 m c)

theorem J38_main_arg4 : Q39 m c (Proc.devRef .tc main_arg4) = (m ((c.tc : Thread nD τ).loc main_arg4)) :=
  (r38_keep_main_arg4 (Q38 m c)).trans (J37_main_arg4 m c)

theorem J38_main_arg5 : Q39 m c (Proc.devRef .tc main_arg5) = (m ((c.tc : Thread nD τ).loc main_arg5)) :=
  (r38_keep_main_arg5 (Q38 m c)).trans (J37_main_arg5 m c)

theorem J38_main_arg6 : Q39 m c (Proc.devRef .tc main_arg6) = (m ((c.tc : Thread nD τ).loc main_arg6)) :=
  (r38_keep_main_arg6 (Q38 m c)).trans (J37_main_arg6 m c)

theorem J38_main_arg7 : Q39 m c (Proc.devRef .tc main_arg7) = (m ((c.tc : Thread nD τ).loc main_arg7)) :=
  (r38_keep_main_arg7 (Q38 m c)).trans (J37_main_arg7 m c)

theorem J38_main_arg8 : Q39 m c (Proc.devRef .tc main_arg8) = (m ((c.tc : Thread nD τ).loc main_arg8)) :=
  (r38_keep_main_arg8 (Q38 m c)).trans (J37_main_arg8 m c)

theorem J38_main_arg9 : Q39 m c (Proc.devRef .tc main_arg9) = (m ((c.tc : Thread nD τ).loc main_arg9)) :=
  (r38_keep_main_arg9 (Q38 m c)).trans (J37_main_arg9 m c)

theorem J38_main_arg10 : Q39 m c (Proc.devRef .tc main_arg10) = (m ((c.tc : Thread nD τ).loc main_arg10)) :=
  (r38_keep_main_arg10 (Q38 m c)).trans (J37_main_arg10 m c)

theorem J38_main_arg11 : Q39 m c (Proc.devRef .tc main_arg11) = (m ((c.tc : Thread nD τ).loc main_arg11)) :=
  (r38_keep_main_arg11 (Q38 m c)).trans (J37_main_arg11 m c)

theorem J38_main_arg12 : Q39 m c (Proc.devRef .tc main_arg12) = (m ((c.tc : Thread nD τ).loc main_arg12)) :=
  (r38_keep_main_arg12 (Q38 m c)).trans (J37_main_arg12 m c)

theorem J38_main_arg13 : Q39 m c (Proc.devRef .tc main_arg13) = (m ((c.tc : Thread nD τ).loc main_arg13)) :=
  (r38_keep_main_arg13 (Q38 m c)).trans (J37_main_arg13 m c)

theorem J38_main_arg14 : Q39 m c (Proc.devRef .tc main_arg14) = (m ((c.tc : Thread nD τ).loc main_arg14)) :=
  (r38_keep_main_arg14 (Q38 m c)).trans (J37_main_arg14 m c)

theorem J38_main_arg15 : Q39 m c (Proc.devRef .tc main_arg15) = (m ((c.tc : Thread nD τ).loc main_arg15)) :=
  (r38_keep_main_arg15 (Q38 m c)).trans (J37_main_arg15 m c)

theorem J38_main_arg16 : Q39 m c (Proc.devRef .tc main_arg16) = (m ((c.tc : Thread nD τ).loc main_arg16)) :=
  (r38_keep_main_arg16 (Q38 m c)).trans (J37_main_arg16 m c)

theorem J38_main_arg17 : Q39 m c (Proc.devRef .tc main_arg17) = (m ((c.tc : Thread nD τ).loc main_arg17)) :=
  (r38_keep_main_arg17 (Q38 m c)).trans (J37_main_arg17 m c)

theorem J38_main_arg18 : Q39 m c (Proc.devRef .tc main_arg18) = (m ((c.tc : Thread nD τ).loc main_arg18)) :=
  (r38_keep_main_arg18 (Q38 m c)).trans (J37_main_arg18 m c)

theorem J38_main_arg19 : Q39 m c (Proc.devRef .tc main_arg19) = (m ((c.tc : Thread nD τ).loc main_arg19)) :=
  (r38_keep_main_arg19 (Q38 m c)).trans (J37_main_arg19 m c)

theorem J38_main_arg20 : Q39 m c (Proc.devRef .tc main_arg20) = (m ((c.tc : Thread nD τ).loc main_arg20)) :=
  (r38_keep_main_arg20 (Q38 m c)).trans (J37_main_arg20 m c)

theorem J38_main_arg21 : Q39 m c (Proc.devRef .tc main_arg21) = (m ((c.tc : Thread nD τ).loc main_arg21)) :=
  (r38_keep_main_arg21 (Q38 m c)).trans (J37_main_arg21 m c)

theorem J38_main_arg22 : Q39 m c (Proc.devRef .tc main_arg22) = (m ((c.tc : Thread nD τ).loc main_arg22)) :=
  (r38_keep_main_arg22 (Q38 m c)).trans (J37_main_arg22 m c)

theorem J38_main_arg23 : Q39 m c (Proc.devRef .tc main_arg23) = (m ((c.tc : Thread nD τ).loc main_arg23)) :=
  (r38_keep_main_arg23 (Q38 m c)).trans (J37_main_arg23 m c)

theorem J38_main_arg24 : Q39 m c (Proc.devRef .tc main_arg24) = (m ((c.tc : Thread nD τ).loc main_arg24)) :=
  (r38_keep_main_arg24 (Q38 m c)).trans (J37_main_arg24 m c)

theorem J38_main_arg25 : Q39 m c (Proc.devRef .tc main_arg25) = (m ((c.tc : Thread nD τ).loc main_arg25)) :=
  (r38_keep_main_arg25 (Q38 m c)).trans (J37_main_arg25 m c)

theorem J38_main_arg26 : Q39 m c (Proc.devRef .tc main_arg26) = (m ((c.tc : Thread nD τ).loc main_arg26)) :=
  (r38_keep_main_arg26 (Q38 m c)).trans (J37_main_arg26 m c)

theorem J38_main_arg27 : Q39 m c (Proc.devRef .tc main_arg27) = (m ((c.tc : Thread nD τ).loc main_arg27)) :=
  (r38_keep_main_arg27 (Q38 m c)).trans (J37_main_arg27 m c)

theorem J38_main_arg28 : Q39 m c (Proc.devRef .tc main_arg28) = (m ((c.tc : Thread nD τ).loc main_arg28)) :=
  (r38_keep_main_arg28 (Q38 m c)).trans (J37_main_arg28 m c)

theorem J39_main_v246 : Q40 m c (Proc.devRef .tc main_v246) = val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  r39_main_v246 (Q39 m c) (J38_main_v242 m c) (J38_main_arg27 m c) (J38_main_arg28 m c)

theorem J39_main_arg0 : Q40 m c (Proc.devRef .tc main_arg0) = (m ((c.tc : Thread nD τ).loc main_arg0)) :=
  (r39_keep_main_arg0 (Q39 m c)).trans (J38_main_arg0 m c)

theorem J39_main_arg1 : Q40 m c (Proc.devRef .tc main_arg1) = (m ((c.tc : Thread nD τ).loc main_arg1)) :=
  (r39_keep_main_arg1 (Q39 m c)).trans (J38_main_arg1 m c)

theorem J39_main_arg2 : Q40 m c (Proc.devRef .tc main_arg2) = (m ((c.tc : Thread nD τ).loc main_arg2)) :=
  (r39_keep_main_arg2 (Q39 m c)).trans (J38_main_arg2 m c)

theorem J39_main_arg3 : Q40 m c (Proc.devRef .tc main_arg3) = (m ((c.tc : Thread nD τ).loc main_arg3)) :=
  (r39_keep_main_arg3 (Q39 m c)).trans (J38_main_arg3 m c)

theorem J39_main_arg4 : Q40 m c (Proc.devRef .tc main_arg4) = (m ((c.tc : Thread nD τ).loc main_arg4)) :=
  (r39_keep_main_arg4 (Q39 m c)).trans (J38_main_arg4 m c)

theorem J39_main_arg5 : Q40 m c (Proc.devRef .tc main_arg5) = (m ((c.tc : Thread nD τ).loc main_arg5)) :=
  (r39_keep_main_arg5 (Q39 m c)).trans (J38_main_arg5 m c)

theorem J39_main_arg6 : Q40 m c (Proc.devRef .tc main_arg6) = (m ((c.tc : Thread nD τ).loc main_arg6)) :=
  (r39_keep_main_arg6 (Q39 m c)).trans (J38_main_arg6 m c)

theorem J39_main_arg7 : Q40 m c (Proc.devRef .tc main_arg7) = (m ((c.tc : Thread nD τ).loc main_arg7)) :=
  (r39_keep_main_arg7 (Q39 m c)).trans (J38_main_arg7 m c)

theorem J39_main_arg8 : Q40 m c (Proc.devRef .tc main_arg8) = (m ((c.tc : Thread nD τ).loc main_arg8)) :=
  (r39_keep_main_arg8 (Q39 m c)).trans (J38_main_arg8 m c)

theorem J39_main_arg9 : Q40 m c (Proc.devRef .tc main_arg9) = (m ((c.tc : Thread nD τ).loc main_arg9)) :=
  (r39_keep_main_arg9 (Q39 m c)).trans (J38_main_arg9 m c)

theorem J39_main_arg10 : Q40 m c (Proc.devRef .tc main_arg10) = (m ((c.tc : Thread nD τ).loc main_arg10)) :=
  (r39_keep_main_arg10 (Q39 m c)).trans (J38_main_arg10 m c)

theorem J39_main_arg11 : Q40 m c (Proc.devRef .tc main_arg11) = (m ((c.tc : Thread nD τ).loc main_arg11)) :=
  (r39_keep_main_arg11 (Q39 m c)).trans (J38_main_arg11 m c)

theorem J39_main_arg12 : Q40 m c (Proc.devRef .tc main_arg12) = (m ((c.tc : Thread nD τ).loc main_arg12)) :=
  (r39_keep_main_arg12 (Q39 m c)).trans (J38_main_arg12 m c)

theorem J39_main_arg13 : Q40 m c (Proc.devRef .tc main_arg13) = (m ((c.tc : Thread nD τ).loc main_arg13)) :=
  (r39_keep_main_arg13 (Q39 m c)).trans (J38_main_arg13 m c)

theorem J39_main_arg14 : Q40 m c (Proc.devRef .tc main_arg14) = (m ((c.tc : Thread nD τ).loc main_arg14)) :=
  (r39_keep_main_arg14 (Q39 m c)).trans (J38_main_arg14 m c)

theorem J39_main_arg15 : Q40 m c (Proc.devRef .tc main_arg15) = (m ((c.tc : Thread nD τ).loc main_arg15)) :=
  (r39_keep_main_arg15 (Q39 m c)).trans (J38_main_arg15 m c)

theorem J39_main_arg16 : Q40 m c (Proc.devRef .tc main_arg16) = (m ((c.tc : Thread nD τ).loc main_arg16)) :=
  (r39_keep_main_arg16 (Q39 m c)).trans (J38_main_arg16 m c)

theorem J39_main_arg17 : Q40 m c (Proc.devRef .tc main_arg17) = (m ((c.tc : Thread nD τ).loc main_arg17)) :=
  (r39_keep_main_arg17 (Q39 m c)).trans (J38_main_arg17 m c)

theorem J39_main_arg18 : Q40 m c (Proc.devRef .tc main_arg18) = (m ((c.tc : Thread nD τ).loc main_arg18)) :=
  (r39_keep_main_arg18 (Q39 m c)).trans (J38_main_arg18 m c)

theorem J39_main_arg19 : Q40 m c (Proc.devRef .tc main_arg19) = (m ((c.tc : Thread nD τ).loc main_arg19)) :=
  (r39_keep_main_arg19 (Q39 m c)).trans (J38_main_arg19 m c)

theorem J39_main_arg20 : Q40 m c (Proc.devRef .tc main_arg20) = (m ((c.tc : Thread nD τ).loc main_arg20)) :=
  (r39_keep_main_arg20 (Q39 m c)).trans (J38_main_arg20 m c)

theorem J39_main_arg21 : Q40 m c (Proc.devRef .tc main_arg21) = (m ((c.tc : Thread nD τ).loc main_arg21)) :=
  (r39_keep_main_arg21 (Q39 m c)).trans (J38_main_arg21 m c)

theorem J39_main_arg22 : Q40 m c (Proc.devRef .tc main_arg22) = (m ((c.tc : Thread nD τ).loc main_arg22)) :=
  (r39_keep_main_arg22 (Q39 m c)).trans (J38_main_arg22 m c)

theorem J39_main_arg23 : Q40 m c (Proc.devRef .tc main_arg23) = (m ((c.tc : Thread nD τ).loc main_arg23)) :=
  (r39_keep_main_arg23 (Q39 m c)).trans (J38_main_arg23 m c)

theorem J39_main_arg24 : Q40 m c (Proc.devRef .tc main_arg24) = (m ((c.tc : Thread nD τ).loc main_arg24)) :=
  (r39_keep_main_arg24 (Q39 m c)).trans (J38_main_arg24 m c)

theorem J39_main_arg25 : Q40 m c (Proc.devRef .tc main_arg25) = (m ((c.tc : Thread nD τ).loc main_arg25)) :=
  (r39_keep_main_arg25 (Q39 m c)).trans (J38_main_arg25 m c)

theorem J39_main_arg26 : Q40 m c (Proc.devRef .tc main_arg26) = (m ((c.tc : Thread nD τ).loc main_arg26)) :=
  (r39_keep_main_arg26 (Q39 m c)).trans (J38_main_arg26 m c)

theorem J39_main_arg27 : Q40 m c (Proc.devRef .tc main_arg27) = (m ((c.tc : Thread nD τ).loc main_arg27)) :=
  (r39_keep_main_arg27 (Q39 m c)).trans (J38_main_arg27 m c)

theorem J39_main_arg28 : Q40 m c (Proc.devRef .tc main_arg28) = (m ((c.tc : Thread nD τ).loc main_arg28)) :=
  (r39_keep_main_arg28 (Q39 m c)).trans (J38_main_arg28 m c)

theorem J40_main_v247 : Q41 m c (Proc.devRef .tc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  r40_main_v247 (Q40 m c) (J39_main_v246 m c)

theorem J40_main_arg0 : Q41 m c (Proc.devRef .tc main_arg0) = (m ((c.tc : Thread nD τ).loc main_arg0)) :=
  (r40_keep_main_arg0 (Q40 m c)).trans (J39_main_arg0 m c)

theorem J40_main_arg1 : Q41 m c (Proc.devRef .tc main_arg1) = (m ((c.tc : Thread nD τ).loc main_arg1)) :=
  (r40_keep_main_arg1 (Q40 m c)).trans (J39_main_arg1 m c)

theorem J40_main_arg2 : Q41 m c (Proc.devRef .tc main_arg2) = (m ((c.tc : Thread nD τ).loc main_arg2)) :=
  (r40_keep_main_arg2 (Q40 m c)).trans (J39_main_arg2 m c)

theorem J40_main_arg3 : Q41 m c (Proc.devRef .tc main_arg3) = (m ((c.tc : Thread nD τ).loc main_arg3)) :=
  (r40_keep_main_arg3 (Q40 m c)).trans (J39_main_arg3 m c)

theorem J40_main_arg4 : Q41 m c (Proc.devRef .tc main_arg4) = (m ((c.tc : Thread nD τ).loc main_arg4)) :=
  (r40_keep_main_arg4 (Q40 m c)).trans (J39_main_arg4 m c)

theorem J40_main_arg5 : Q41 m c (Proc.devRef .tc main_arg5) = (m ((c.tc : Thread nD τ).loc main_arg5)) :=
  (r40_keep_main_arg5 (Q40 m c)).trans (J39_main_arg5 m c)

theorem J40_main_arg6 : Q41 m c (Proc.devRef .tc main_arg6) = (m ((c.tc : Thread nD τ).loc main_arg6)) :=
  (r40_keep_main_arg6 (Q40 m c)).trans (J39_main_arg6 m c)

theorem J40_main_arg7 : Q41 m c (Proc.devRef .tc main_arg7) = (m ((c.tc : Thread nD τ).loc main_arg7)) :=
  (r40_keep_main_arg7 (Q40 m c)).trans (J39_main_arg7 m c)

theorem J40_main_arg8 : Q41 m c (Proc.devRef .tc main_arg8) = (m ((c.tc : Thread nD τ).loc main_arg8)) :=
  (r40_keep_main_arg8 (Q40 m c)).trans (J39_main_arg8 m c)

theorem J40_main_arg9 : Q41 m c (Proc.devRef .tc main_arg9) = (m ((c.tc : Thread nD τ).loc main_arg9)) :=
  (r40_keep_main_arg9 (Q40 m c)).trans (J39_main_arg9 m c)

theorem J40_main_arg10 : Q41 m c (Proc.devRef .tc main_arg10) = (m ((c.tc : Thread nD τ).loc main_arg10)) :=
  (r40_keep_main_arg10 (Q40 m c)).trans (J39_main_arg10 m c)

theorem J40_main_arg11 : Q41 m c (Proc.devRef .tc main_arg11) = (m ((c.tc : Thread nD τ).loc main_arg11)) :=
  (r40_keep_main_arg11 (Q40 m c)).trans (J39_main_arg11 m c)

theorem J40_main_arg12 : Q41 m c (Proc.devRef .tc main_arg12) = (m ((c.tc : Thread nD τ).loc main_arg12)) :=
  (r40_keep_main_arg12 (Q40 m c)).trans (J39_main_arg12 m c)

theorem J40_main_arg13 : Q41 m c (Proc.devRef .tc main_arg13) = (m ((c.tc : Thread nD τ).loc main_arg13)) :=
  (r40_keep_main_arg13 (Q40 m c)).trans (J39_main_arg13 m c)

theorem J40_main_arg14 : Q41 m c (Proc.devRef .tc main_arg14) = (m ((c.tc : Thread nD τ).loc main_arg14)) :=
  (r40_keep_main_arg14 (Q40 m c)).trans (J39_main_arg14 m c)

theorem J40_main_arg15 : Q41 m c (Proc.devRef .tc main_arg15) = (m ((c.tc : Thread nD τ).loc main_arg15)) :=
  (r40_keep_main_arg15 (Q40 m c)).trans (J39_main_arg15 m c)

theorem J40_main_arg16 : Q41 m c (Proc.devRef .tc main_arg16) = (m ((c.tc : Thread nD τ).loc main_arg16)) :=
  (r40_keep_main_arg16 (Q40 m c)).trans (J39_main_arg16 m c)

theorem J40_main_arg17 : Q41 m c (Proc.devRef .tc main_arg17) = (m ((c.tc : Thread nD τ).loc main_arg17)) :=
  (r40_keep_main_arg17 (Q40 m c)).trans (J39_main_arg17 m c)

theorem J40_main_arg18 : Q41 m c (Proc.devRef .tc main_arg18) = (m ((c.tc : Thread nD τ).loc main_arg18)) :=
  (r40_keep_main_arg18 (Q40 m c)).trans (J39_main_arg18 m c)

theorem J40_main_arg19 : Q41 m c (Proc.devRef .tc main_arg19) = (m ((c.tc : Thread nD τ).loc main_arg19)) :=
  (r40_keep_main_arg19 (Q40 m c)).trans (J39_main_arg19 m c)

theorem J40_main_arg20 : Q41 m c (Proc.devRef .tc main_arg20) = (m ((c.tc : Thread nD τ).loc main_arg20)) :=
  (r40_keep_main_arg20 (Q40 m c)).trans (J39_main_arg20 m c)

theorem J40_main_arg21 : Q41 m c (Proc.devRef .tc main_arg21) = (m ((c.tc : Thread nD τ).loc main_arg21)) :=
  (r40_keep_main_arg21 (Q40 m c)).trans (J39_main_arg21 m c)

theorem J40_main_arg22 : Q41 m c (Proc.devRef .tc main_arg22) = (m ((c.tc : Thread nD τ).loc main_arg22)) :=
  (r40_keep_main_arg22 (Q40 m c)).trans (J39_main_arg22 m c)

theorem J40_main_arg23 : Q41 m c (Proc.devRef .tc main_arg23) = (m ((c.tc : Thread nD τ).loc main_arg23)) :=
  (r40_keep_main_arg23 (Q40 m c)).trans (J39_main_arg23 m c)

theorem J40_main_arg24 : Q41 m c (Proc.devRef .tc main_arg24) = (m ((c.tc : Thread nD τ).loc main_arg24)) :=
  (r40_keep_main_arg24 (Q40 m c)).trans (J39_main_arg24 m c)

theorem J40_main_arg25 : Q41 m c (Proc.devRef .tc main_arg25) = (m ((c.tc : Thread nD τ).loc main_arg25)) :=
  (r40_keep_main_arg25 (Q40 m c)).trans (J39_main_arg25 m c)

theorem J40_main_arg26 : Q41 m c (Proc.devRef .tc main_arg26) = (m ((c.tc : Thread nD τ).loc main_arg26)) :=
  (r40_keep_main_arg26 (Q40 m c)).trans (J39_main_arg26 m c)

theorem J40_main_arg27 : Q41 m c (Proc.devRef .tc main_arg27) = (m ((c.tc : Thread nD τ).loc main_arg27)) :=
  (r40_keep_main_arg27 (Q40 m c)).trans (J39_main_arg27 m c)

theorem J40_main_arg28 : Q41 m c (Proc.devRef .tc main_arg28) = (m ((c.tc : Thread nD τ).loc main_arg28)) :=
  (r40_keep_main_arg28 (Q40 m c)).trans (J39_main_arg28 m c)

/-- After all of the program's operations the result buffer holds the last stage. -/
theorem ref_value : StableHlo.after (ops : List (HloOp τ sig (Elt Ideal))) (launchContents m c) (Proc.devRef .tc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  rw [ops_eq]
  simp only [StableHlo.after_append]
  exact J40_main_v247 m c

theorem ref_arg0 : StableHlo.after (ops : List (HloOp τ sig (Elt Ideal))) (launchContents m c) (Proc.devRef .tc main_arg0) = (m ((c.tc : Thread nD τ).loc main_arg0)) := by
  rw [ops_eq]
  simp only [StableHlo.after_append]
  exact J40_main_arg0 m c

theorem ref_arg1 : StableHlo.after (ops : List (HloOp τ sig (Elt Ideal))) (launchContents m c) (Proc.devRef .tc main_arg1) = (m ((c.tc : Thread nD τ).loc main_arg1)) := by
  rw [ops_eq]
  simp only [StableHlo.after_append]
  exact J40_main_arg1 m c

theorem ref_arg2 : StableHlo.after (ops : List (HloOp τ sig (Elt Ideal))) (launchContents m c) (Proc.devRef .tc main_arg2) = (m ((c.tc : Thread nD τ).loc main_arg2)) := by
  rw [ops_eq]
  simp only [StableHlo.after_append]
  exact J40_main_arg2 m c

theorem ref_arg3 : StableHlo.after (ops : List (HloOp τ sig (Elt Ideal))) (launchContents m c) (Proc.devRef .tc main_arg3) = (m ((c.tc : Thread nD τ).loc main_arg3)) := by
  rw [ops_eq]
  simp only [StableHlo.after_append]
  exact J40_main_arg3 m c

theorem ref_arg4 : StableHlo.after (ops : List (HloOp τ sig (Elt Ideal))) (launchContents m c) (Proc.devRef .tc main_arg4) = (m ((c.tc : Thread nD τ).loc main_arg4)) := by
  rw [ops_eq]
  simp only [StableHlo.after_append]
  exact J40_main_arg4 m c

theorem ref_arg5 : StableHlo.after (ops : List (HloOp τ sig (Elt Ideal))) (launchContents m c) (Proc.devRef .tc main_arg5) = (m ((c.tc : Thread nD τ).loc main_arg5)) := by
  rw [ops_eq]
  simp only [StableHlo.after_append]
  exact J40_main_arg5 m c

theorem ref_arg6 : StableHlo.after (ops : List (HloOp τ sig (Elt Ideal))) (launchContents m c) (Proc.devRef .tc main_arg6) = (m ((c.tc : Thread nD τ).loc main_arg6)) := by
  rw [ops_eq]
  simp only [StableHlo.after_append]
  exact J40_main_arg6 m c

theorem ref_arg7 : StableHlo.after (ops : List (HloOp τ sig (Elt Ideal))) (launchContents m c) (Proc.devRef .tc main_arg7) = (m ((c.tc : Thread nD τ).loc main_arg7)) := by
  rw [ops_eq]
  simp only [StableHlo.after_append]
  exact J40_main_arg7 m c

theorem ref_arg8 : StableHlo.after (ops : List (HloOp τ sig (Elt Ideal))) (launchContents m c) (Proc.devRef .tc main_arg8) = (m ((c.tc : Thread nD τ).loc main_arg8)) := by
  rw [ops_eq]
  simp only [StableHlo.after_append]
  exact J40_main_arg8 m c

theorem ref_arg9 : StableHlo.after (ops : List (HloOp τ sig (Elt Ideal))) (launchContents m c) (Proc.devRef .tc main_arg9) = (m ((c.tc : Thread nD τ).loc main_arg9)) := by
  rw [ops_eq]
  simp only [StableHlo.after_append]
  exact J40_main_arg9 m c

theorem ref_arg10 : StableHlo.after (ops : List (HloOp τ sig (Elt Ideal))) (launchContents m c) (Proc.devRef .tc main_arg10) = (m ((c.tc : Thread nD τ).loc main_arg10)) := by
  rw [ops_eq]
  simp only [StableHlo.after_append]
  exact J40_main_arg10 m c

theorem ref_arg11 : StableHlo.after (ops : List (HloOp τ sig (Elt Ideal))) (launchContents m c) (Proc.devRef .tc main_arg11) = (m ((c.tc : Thread nD τ).loc main_arg11)) := by
  rw [ops_eq]
  simp only [StableHlo.after_append]
  exact J40_main_arg11 m c

theorem ref_arg12 : StableHlo.after (ops : List (HloOp τ sig (Elt Ideal))) (launchContents m c) (Proc.devRef .tc main_arg12) = (m ((c.tc : Thread nD τ).loc main_arg12)) := by
  rw [ops_eq]
  simp only [StableHlo.after_append]
  exact J40_main_arg12 m c

theorem ref_arg13 : StableHlo.after (ops : List (HloOp τ sig (Elt Ideal))) (launchContents m c) (Proc.devRef .tc main_arg13) = (m ((c.tc : Thread nD τ).loc main_arg13)) := by
  rw [ops_eq]
  simp only [StableHlo.after_append]
  exact J40_main_arg13 m c

theorem ref_arg14 : StableHlo.after (ops : List (HloOp τ sig (Elt Ideal))) (launchContents m c) (Proc.devRef .tc main_arg14) = (m ((c.tc : Thread nD τ).loc main_arg14)) := by
  rw [ops_eq]
  simp only [StableHlo.after_append]
  exact J40_main_arg14 m c

theorem ref_arg15 : StableHlo.after (ops : List (HloOp τ sig (Elt Ideal))) (launchContents m c) (Proc.devRef .tc main_arg15) = (m ((c.tc : Thread nD τ).loc main_arg15)) := by
  rw [ops_eq]
  simp only [StableHlo.after_append]
  exact J40_main_arg15 m c

theorem ref_arg16 : StableHlo.after (ops : List (HloOp τ sig (Elt Ideal))) (launchContents m c) (Proc.devRef .tc main_arg16) = (m ((c.tc : Thread nD τ).loc main_arg16)) := by
  rw [ops_eq]
  simp only [StableHlo.after_append]
  exact J40_main_arg16 m c

theorem ref_arg17 : StableHlo.after (ops : List (HloOp τ sig (Elt Ideal))) (launchContents m c) (Proc.devRef .tc main_arg17) = (m ((c.tc : Thread nD τ).loc main_arg17)) := by
  rw [ops_eq]
  simp only [StableHlo.after_append]
  exact J40_main_arg17 m c

theorem ref_arg18 : StableHlo.after (ops : List (HloOp τ sig (Elt Ideal))) (launchContents m c) (Proc.devRef .tc main_arg18) = (m ((c.tc : Thread nD τ).loc main_arg18)) := by
  rw [ops_eq]
  simp only [StableHlo.after_append]
  exact J40_main_arg18 m c

theorem ref_arg19 : StableHlo.after (ops : List (HloOp τ sig (Elt Ideal))) (launchContents m c) (Proc.devRef .tc main_arg19) = (m ((c.tc : Thread nD τ).loc main_arg19)) := by
  rw [ops_eq]
  simp only [StableHlo.after_append]
  exact J40_main_arg19 m c

theorem ref_arg20 : StableHlo.after (ops : List (HloOp τ sig (Elt Ideal))) (launchContents m c) (Proc.devRef .tc main_arg20) = (m ((c.tc : Thread nD τ).loc main_arg20)) := by
  rw [ops_eq]
  simp only [StableHlo.after_append]
  exact J40_main_arg20 m c

theorem ref_arg21 : StableHlo.after (ops : List (HloOp τ sig (Elt Ideal))) (launchContents m c) (Proc.devRef .tc main_arg21) = (m ((c.tc : Thread nD τ).loc main_arg21)) := by
  rw [ops_eq]
  simp only [StableHlo.after_append]
  exact J40_main_arg21 m c

theorem ref_arg22 : StableHlo.after (ops : List (HloOp τ sig (Elt Ideal))) (launchContents m c) (Proc.devRef .tc main_arg22) = (m ((c.tc : Thread nD τ).loc main_arg22)) := by
  rw [ops_eq]
  simp only [StableHlo.after_append]
  exact J40_main_arg22 m c

theorem ref_arg23 : StableHlo.after (ops : List (HloOp τ sig (Elt Ideal))) (launchContents m c) (Proc.devRef .tc main_arg23) = (m ((c.tc : Thread nD τ).loc main_arg23)) := by
  rw [ops_eq]
  simp only [StableHlo.after_append]
  exact J40_main_arg23 m c

theorem ref_arg24 : StableHlo.after (ops : List (HloOp τ sig (Elt Ideal))) (launchContents m c) (Proc.devRef .tc main_arg24) = (m ((c.tc : Thread nD τ).loc main_arg24)) := by
  rw [ops_eq]
  simp only [StableHlo.after_append]
  exact J40_main_arg24 m c

theorem ref_arg25 : StableHlo.after (ops : List (HloOp τ sig (Elt Ideal))) (launchContents m c) (Proc.devRef .tc main_arg25) = (m ((c.tc : Thread nD τ).loc main_arg25)) := by
  rw [ops_eq]
  simp only [StableHlo.after_append]
  exact J40_main_arg25 m c

theorem ref_arg26 : StableHlo.after (ops : List (HloOp τ sig (Elt Ideal))) (launchContents m c) (Proc.devRef .tc main_arg26) = (m ((c.tc : Thread nD τ).loc main_arg26)) := by
  rw [ops_eq]
  simp only [StableHlo.after_append]
  exact J40_main_arg26 m c

theorem ref_arg27 : StableHlo.after (ops : List (HloOp τ sig (Elt Ideal))) (launchContents m c) (Proc.devRef .tc main_arg27) = (m ((c.tc : Thread nD τ).loc main_arg27)) := by
  rw [ops_eq]
  simp only [StableHlo.after_append]
  exact J40_main_arg27 m c

theorem ref_arg28 : StableHlo.after (ops : List (HloOp τ sig (Elt Ideal))) (launchContents m c) (Proc.devRef .tc main_arg28) = (m ((c.tc : Thread nD τ).loc main_arg28)) := by
  rw [ops_eq]
  simp only [StableHlo.after_append]
  exact J40_main_arg28 m c

end Cert.ReferenceIdeal.RValue

end
-- ==== Proof.RefRun.lean ====
/-
  The reference program's run: from any memory with zero counters every weakly fair execution of its @main ends,
  with the result buffer at the last stage's value of the launch contents of the arguments and the arguments as
  launched — the straight-line run of its operations, each buffer read back stretch by stretch.
-/
import proofs.«110263_j50620484551136_1_alg».proof.Proof.RefValue

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

set_option maxRecDepth 16384 in
set_option maxHeartbeats 400000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v247).trans (RValue.ref_value m c),
      (h c main_arg0).trans (RValue.ref_arg0 m c),
      (h c main_arg1).trans (RValue.ref_arg1 m c),
      (h c main_arg2).trans (RValue.ref_arg2 m c),
      (h c main_arg3).trans (RValue.ref_arg3 m c),
      (h c main_arg4).trans (RValue.ref_arg4 m c),
      (h c main_arg5).trans (RValue.ref_arg5 m c),
      (h c main_arg6).trans (RValue.ref_arg6 m c),
      (h c main_arg7).trans (RValue.ref_arg7 m c),
      (h c main_arg8).trans (RValue.ref_arg8 m c),
      (h c main_arg9).trans (RValue.ref_arg9 m c),
      (h c main_arg10).trans (RValue.ref_arg10 m c),
      (h c main_arg11).trans (RValue.ref_arg11 m c),
      (h c main_arg12).trans (RValue.ref_arg12 m c),
      (h c main_arg13).trans (RValue.ref_arg13 m c),
      (h c main_arg14).trans (RValue.ref_arg14 m c),
      (h c main_arg15).trans (RValue.ref_arg15 m c),
      (h c main_arg16).trans (RValue.ref_arg16 m c),
      (h c main_arg17).trans (RValue.ref_arg17 m c),
      (h c main_arg18).trans (RValue.ref_arg18 m c),
      (h c main_arg19).trans (RValue.ref_arg19 m c),
      (h c main_arg20).trans (RValue.ref_arg20 m c),
      (h c main_arg21).trans (RValue.ref_arg21 m c),
      (h c main_arg22).trans (RValue.ref_arg22 m c),
      (h c main_arg23).trans (RValue.ref_arg23 m c),
      (h c main_arg24).trans (RValue.ref_arg24 m c),
      (h c main_arg25).trans (RValue.ref_arg25 m c),
      (h c main_arg26).trans (RValue.ref_arg26 m c),
      (h c main_arg27).trans (RValue.ref_arg27 m c),
      (h c main_arg28).trans (RValue.ref_arg28 m c)⟩)
    (run_seq scopedRefs_eq scopedSems_eq defs main (fun _ => ops) main_eq (fun _ => ops_sub) m ρ)

end Cert.ReferenceIdeal.RRun

end
-- ==== Proof.lean ====
/-
  The five claims. Both programs compute one network: an input encoder max(x·W + b, 0)·W' + b', two rounds of two
  graph convolutions (x·W gathered along the edges with self loops, scaled by the symmetric degree normalisation,
  summed into the target rows, plus a bias, then the maximum with zero) joined and passed through the same two-layer
  encoder, a mean over index groups, a last two-layer encoder and a log-softmax over the five classes. The kernel
  program computes every dense layer in a launch that walks the rows block by block, and everything else by the
  reference's own host operations; at the exact reals a dense layer of a block of rows is the same block of rows of
  the dense layer, so every launch leaves the array the reference's dense operations produce, and stage by stage the
  two programs hold equal arrays up to the result.
  The frames of the two kernel programs are the launch-and-segments frames; the reference's is its straight-line run.
  The idealization rewrote nothing, so what it must preserve is trivial.
-/
import proofs.«110263_j50620484551136_1_alg».proof.Defs
import proofs.«110263_j50620484551136_1_alg».proof.Proof.Gen.Kernel
import proofs.«110263_j50620484551136_1_alg».proof.Proof.Gen.Kernel.Frame
import proofs.«110263_j50620484551136_1_alg».proof.Proof.Gen.KernelIdeal
import proofs.«110263_j50620484551136_1_alg».proof.Proof.Gen.KernelIdeal.Frame
import proofs.«110263_j50620484551136_1_alg».proof.Proof.Gen.ReferenceIdeal
import proofs.«110263_j50620484551136_1_alg».proof.Proof.Gen.Pre_finite_inputs
import proofs.«110263_j50620484551136_1_alg».proof.Proof.KernelRun
import proofs.«110263_j50620484551136_1_alg».proof.Proof.KernelValue
import proofs.«110263_j50620484551136_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RRun.run m ρ)

/-- At the exact reals the kernel program's result buffer ends at the reference's last stage of the arguments (the chain
    of boundaries), and so does the reference's (its run); the arguments agree, so the two results are equal. -/
theorem algebraic : Cert.algebraic_KernelIdeal_ReferenceIdeal := by
  intro m ρ m' ρ' _ hagree
  refine ⟨fun c => Cert.ReferenceIdeal.ReadP.val_main_v247 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono
      (fun r h c => ⟨(h c).1.trans (Cert.KernelIdeal.KValue.kernel_value m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RRun.run m' ρ')
    obtain ⟨h0, h1, h2, h3, h4, h5, h6, h7, h8, h9, h10, h11, h12, h13, h14, h15, h16, h17, h18, h19, h20, h21, h22, h23, h24, h25, h26, h27, h28⟩ := hagree c
    rw [h0, h1, h2, h3, h4, h5, h6, h7, h8, h9, h10, h11, h12, h13, h14, h15, h16, h17, h18, h19, h20, h21, h22, h23, h24, h25, h26, h27, h28]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
